-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x6 : Shape := ⟨2, ![64, 6]⟩
abbrev S6 : Shape := ⟨1, ![6]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x6 : S_.BroadcastsInDim S64x6 (![] : Fin 0 → Fin S64x6.rank)
  reducesTo_S64x6_S_d0_1 : S64x6.ReducesTo [0, 1] S_
  bcast_S_S6 : S_.BroadcastsInDim S6 (![] : Fin 0 → Fin S6.rank)
  reducesTo_S6_S_d0 : S6.ReducesTo [0] S_

variable [Facts]

def fn_part4 {F : FTy → Type} [FloatOps F] (main_arg16 : FVec F S6 .f32) (main_v63 : IVec S_ 1) (main_v67 : IVec S_ 1) : IVec S_ 1 :=
  let main_v68 : IVec S_ 1 := andi main_v63 main_v67
  let main_v69 : FVec F S6 .f32 := Host.absf main_arg16
  let main_cst_26 : FVec F S_ .f32 := constant S_ .f32 0x7F800000#32
  let main_v70 : FVec F S6 .f32 := broadcastInDim S6 ![] bcast_S_S6 main_cst_26
  let main_v71 : IVec S6 1 := cmpf .olt main_v69 main_v70
  let main_c_27 : IVec S_ 1 := constantI S_ 1 1#1
  let main_v72 : IVec S_ 1 := (fun x v => Host.reduce IntOp.andi x v reducesTo_S6_S_d0 h_S_) main_v71 main_c_27
  let main_v73 : IVec S_ 1 := andi main_v68 main_v72
  main_v73

def fn_part3 {F : FTy → Type} [FloatOps F] (main_arg13 : FVec F S64 .f32) (main_arg14 : FVec F S64 .f32) (main_arg15 : FVec F S64x6 .f32) (main_arg16 : FVec F S6 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x6 .f32 := Host.absf main_arg15
  let main_cst_24 : FVec F S_ .f32 := constant S_ .f32 0x7F800000#32
  let main_v65 : FVec F S64x6 .f32 := broadcastInDim S64x6 ![] bcast_S_S64x6 main_cst_24
  let main_v66 : IVec S64x6 1 := cmpf .olt main_v64 main_v65
  let main_c_25 : IVec S_ 1 := constantI S_ 1 1#1
  let main_v67 : IVec S_ 1 := (fun x v => Host.reduce IntOp.andi x v reducesTo_S64x6_S_d0_1 h_S_) main_v66 main_c_25
  fn_part4 (F := F) main_arg16 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x6 .f32) (main_arg16 : FVec F S6 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x6 .f32) (main_arg16 : FVec F S6 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x6 .f32) (main_arg16 : FVec F S6 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x6 : Shape := ⟨2, ![64, 6]⟩
abbrev S6 : Shape := ⟨1, ![6]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x64 : Shape := ⟨2, ![1, 64]⟩
abbrev S10000x64 : Shape := ⟨2, ![10000, 64]⟩
abbrev S850000x64 : Shape := ⟨2, ![850000, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S1x6 : Shape := ⟨2, ![1, 6]⟩
abbrev S500x6 : Shape := ⟨2, ![500, 6]⟩

abbrev nBuf : Space → Nat
  | .hbm => 214
  | .vmem => 64
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x6, .f32⟩
  | 16 => ⟨S6, .f32⟩
  | 17 => ⟨S1x800000, .i32⟩
  | 18 => ⟨S800000, .i32⟩
  | 19 => ⟨S1x800000, .i32⟩
  | 20 => ⟨S800000, .i32⟩
  | 21 => ⟨S50000, .i32⟩
  | 22 => ⟨S850000, .i32⟩
  | 23 => ⟨S850000, .i32⟩
  | 24 => ⟨S_, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S_, .f32⟩
  | 35 => ⟨S850000, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S_, .f32⟩
  | 59 => ⟨S64, .f32⟩
  | 60 => ⟨S1x64, .f32⟩
  | 61 => ⟨S50000x64, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S850000x64, .f32⟩
  | 71 => ⟨S850000x64, .f32⟩
  | 72 => ⟨S850000x64, .f32⟩
  | 73 => ⟨S_, .f32⟩
  | 74 => ⟨S50000x64, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S50000x64, .f32⟩
  | 84 => ⟨S1x64, .f32⟩
  | 85 => ⟨S50000x64, .f32⟩
  | 86 => ⟨S50000x64, .f32⟩
  | 87 => ⟨S1x64, .f32⟩
  | 88 => ⟨S1x64, .f32⟩
  | 89 => ⟨S_, .f32⟩
  | 90 => ⟨S1x64, .f32⟩
  | 91 => ⟨S1x64, .f32⟩
  | 92 => ⟨S64, .f32⟩
  | 93 => ⟨S_, .f32⟩
  | 94 => ⟨S1x64, .f32⟩
  | 95 => ⟨S1x64, .f32⟩
  | 96 => ⟨S64, .f32⟩
  | 97 => ⟨S64, .f32⟩
  | 98 => ⟨S64, .f32⟩
  | 99 => ⟨S1x64, .f32⟩
  | 100 => ⟨S1x64, .f32⟩
  | 101 => ⟨S1x64, .f32⟩
  | 102 => ⟨S1x64, .f32⟩
  | 103 => ⟨S50000x64, .f32⟩
  | 104 => ⟨S_, .f32⟩
  | 105 => ⟨S64, .f32⟩
  | 106 => ⟨S1x64, .f32⟩
  | 107 => ⟨S50000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x64, .f32⟩
  | 118 => ⟨S850000x64, .f32⟩
  | 119 => ⟨S_, .f32⟩
  | 120 => ⟨S50000x64, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x64, .f32⟩

abbrev hbmTy0_1 (i : Nat) : BufTy := match i % 128 with
  | 0 => ⟨S850000x1, .i32⟩
  | 1 => ⟨S50000x64, .f32⟩
  | 2 => ⟨S1x64, .f32⟩
  | 3 => ⟨S50000x64, .f32⟩
  | 4 => ⟨S50000x64, .f32⟩
  | 5 => ⟨S1x64, .f32⟩
  | 6 => ⟨S1x64, .f32⟩
  | 7 => ⟨S_, .f32⟩
  | 8 => ⟨S1x64, .f32⟩
  | 9 => ⟨S1x64, .f32⟩
  | 10 => ⟨S64, .f32⟩
  | 11 => ⟨S_, .f32⟩
  | 12 => ⟨S1x64, .f32⟩
  | 13 => ⟨S1x64, .f32⟩
  | 14 => ⟨S64, .f32⟩
  | 15 => ⟨S64, .f32⟩
  | 16 => ⟨S64, .f32⟩
  | 17 => ⟨S1x64, .f32⟩
  | 18 => ⟨S1x64, .f32⟩
  | 19 => ⟨S1x64, .f32⟩
  | 20 => ⟨S1x64, .f32⟩
  | 21 => ⟨S50000x64, .f32⟩
  | 22 => ⟨S_, .f32⟩
  | 23 => ⟨S64, .f32⟩
  | 24 => ⟨S1x64, .f32⟩
  | 25 => ⟨S50000x64, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000x64, .f32⟩
  | 35 => ⟨S850000x64, .f32⟩
  | 36 => ⟨S850000x64, .f32⟩
  | 37 => ⟨S_, .f32⟩
  | 38 => ⟨S50000x64, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S50000x64, .f32⟩
  | 48 => ⟨S1x64, .f32⟩
  | 49 => ⟨S50000x64, .f32⟩
  | 50 => ⟨S50000x64, .f32⟩
  | 51 => ⟨S1x64, .f32⟩
  | 52 => ⟨S1x64, .f32⟩
  | 53 => ⟨S_, .f32⟩
  | 54 => ⟨S1x64, .f32⟩
  | 55 => ⟨S1x64, .f32⟩
  | 56 => ⟨S64, .f32⟩
  | 57 => ⟨S_, .f32⟩
  | 58 => ⟨S1x64, .f32⟩
  | 59 => ⟨S1x64, .f32⟩
  | 60 => ⟨S64, .f32⟩
  | 61 => ⟨S64, .f32⟩
  | 62 => ⟨S64, .f32⟩
  | 63 => ⟨S1x64, .f32⟩
  | 64 => ⟨S1x64, .f32⟩
  | 65 => ⟨S1x64, .f32⟩
  | 66 => ⟨S1x64, .f32⟩
  | 67 => ⟨S50000x64, .f32⟩
  | 68 => ⟨S_, .f32⟩
  | 69 => ⟨S500x64, .f32⟩
  | 70 => ⟨S50000x1, .i32⟩
  | 71 => ⟨S500x64, .f32⟩
  | 72 => ⟨S_, .f32⟩
  | 73 => ⟨S50000, .f32⟩
  | 74 => ⟨S_, .f32⟩
  | 75 => ⟨S500, .f32⟩
  | 76 => ⟨S50000x1, .i32⟩
  | 77 => ⟨S500, .f32⟩
  | 78 => ⟨S_, .f32⟩
  | 79 => ⟨S500, .f32⟩
  | 80 => ⟨S500, .f32⟩
  | 81 => ⟨S500x1, .f32⟩
  | 82 => ⟨S500x64, .f32⟩
  | 83 => ⟨S500x64, .f32⟩
  | 84 => ⟨S1x6, .f32⟩
  | 85 => ⟨S500x6, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S10000x64, .f32⟩
  | .local _ .vmem, ⟨33, _⟩ => ⟨S10000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S500x64, .f32⟩
  | .local _ .vmem, ⟨61, _⟩ => ⟨S64x6, .f32⟩
  | .local _ .vmem, ⟨62, _⟩ => ⟨S1x6, .f32⟩
  | .local _ .vmem, ⟨63, _⟩ => ⟨S500x6, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_c_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56_0 : Ref sig .tc := ⟨.hbm, 87, rfl⟩
abbrev main_v56_1 : Ref sig .tc := ⟨.hbm, 88, rfl⟩
abbrev main_cst_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_13 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_c_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_c_18 : Ref sig .tc := ⟨.hbm, 121, rfl⟩
abbrev main_v83 : Ref sig .tc := ⟨.hbm, 122, rfl⟩
abbrev main_v84 : Ref sig .tc := ⟨.hbm, 123, rfl⟩
abbrev main_c_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93_0 : Ref sig .tc := ⟨.hbm, 133, rfl⟩
abbrev main_v93_1 : Ref sig .tc := ⟨.hbm, 134, rfl⟩
abbrev main_cst_20 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_cst_22 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_23 : Ref sig .tc := ⟨.hbm, 154, rfl⟩
abbrev main_v110 : Ref sig .tc := ⟨.hbm, 155, rfl⟩
abbrev main_v111 : Ref sig .tc := ⟨.hbm, 156, rfl⟩
abbrev main_c_24 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_c_26 : Ref sig .tc := ⟨.hbm, 167, rfl⟩
abbrev main_v120 : Ref sig .tc := ⟨.hbm, 168, rfl⟩
abbrev main_v121 : Ref sig .tc := ⟨.hbm, 169, rfl⟩
abbrev main_c_27 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130_0 : Ref sig .tc := ⟨.hbm, 179, rfl⟩
abbrev main_v130_1 : Ref sig .tc := ⟨.hbm, 180, rfl⟩
abbrev main_cst_28 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_29 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_cst_30 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_31 : Ref sig .tc := ⟨.hbm, 200, rfl⟩
abbrev main_v147 : Ref sig .tc := ⟨.hbm, 201, rfl⟩
abbrev main_cst_32 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_33 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_scratch0 : Ref sig .tc := ⟨.vmem, 30, rfl⟩
abbrev cc4_scratch1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_scratch0 : Ref sig .tc := ⟨.vmem, 50, rfl⟩
abbrev cc7_scratch1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg3_0 : Ref sig .tc := ⟨.vmem, 56, rfl⟩
abbrev cc8_stg4_0 : Ref sig .tc := ⟨.vmem, 57, rfl⟩
abbrev cc8_stg5_0 : Ref sig .tc := ⟨.vmem, 58, rfl⟩
abbrev cc8_stg5_1 : Ref sig .tc := ⟨.vmem, 59, rfl⟩
abbrev cc9_stg0_0 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg3_0 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc8_sem0_0 : DmaSem sig := 46
abbrev cc8_sem0_1 : DmaSem sig := 47
abbrev cc8_sem1_0 : DmaSem sig := 48
abbrev cc8_sem2_0 : DmaSem sig := 49
abbrev cc8_sem3_0 : DmaSem sig := 50
abbrev cc8_sem4_0 : DmaSem sig := 51
abbrev cc8_sem5_0 : DmaSem sig := 52
abbrev cc8_sem5_1 : DmaSem sig := 53
abbrev cc9_sem0_0 : DmaSem sig := 54
abbrev cc9_sem1_0 : DmaSem sig := 55
abbrev cc9_sem2_0 : DmaSem sig := 56
abbrev cc9_sem3_0 : DmaSem sig := 57

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def k1_cond2 (i : grid1.Coords) : BitVec 1 :=
  let arg0 : BitVec 32 := BitVec.ofNat 32 (i 0).val
  let c4_i32 : BitVec 32 := 4#32
  let v20 : BitVec 1 := Scalar.cmpi .eq arg0 c4_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def k4_cond2 (i : grid4.Coords) : BitVec 1 :=
  let arg0 : BitVec 32 := BitVec.ofNat 32 (i 0).val
  let c4_i32 : BitVec 32 := 4#32
  let v20 : BitVec 1 := Scalar.cmpi .eq arg0 c4_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def k7_cond2 (i : grid7.Coords) : BitVec 1 :=
  let arg0 : BitVec 32 := BitVec.ofNat 32 (i 0).val
  let c4_i32 : BitVec 32 := 4#32
  let v20 : BitVec 1 := Scalar.cmpi .eq arg0 c4_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S500x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S64x6 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x6 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S500x6 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S_S64 : S_.BroadcastsInDim S64 (![] : Fin 0 → Fin S64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S10000x64_S10000x64 : S10000x64.ShapeCasts S10000x64
  reduces_S10000x64_S64 : S10000x64.Reduces [0] S64
  bcast_S_S1x64 : S_.BroadcastsInDim S1x64 (![] : Fin 0 → Fin S1x64.rank)
  shapeCasts_S1x64_S64 : S1x64.ShapeCasts S64
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  shapeCasts_S6_S1x6 : S6.ShapeCasts S1x6
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S64x6_S64x6_0_0 : ∀ a, (![0, 0] : Fin 2 → Nat) a + S64x6.size a ≤ S64x6.size a
  h_S64x6 : 0 < S64x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S500x6 : S1x6.Broadcasts S500x6
  inb_S500x6_S500x6_0_0 : ∀ a, (![0, 0] : Fin 2 → Nat) a + S500x6.size a ≤ S500x6.size a
  h_S500x6 : 0 < S500x6.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x6_S500x6_1_0_0_1_n_n_wf : DotDims.WF S500x64 S64x6 S500x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S50000x64.size a
  hwx5_5 : ∀ i : grid5.Coords, EltTy.bits .f32 = 32 ∨ (Rect.block (s := S50000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S50000x64.size a
  hwx6_3 : ∀ i : grid6.Coords, EltTy.bits .f32 = 32 ∨ (Rect.block (s := S50000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S50000x64.size a
  hwx8_5 : ∀ i : grid8.Coords, EltTy.bits .f32 = 32 ∨ (Rect.block (s := S50000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S500x64.size a ≤ S500x64.size a
  hwx9_0 : ∀ i : grid9.Coords, EltTy.bits .f32 = 32 ∨ (Rect.block (s := S500x64) S500x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x6.size a ≤ S64x6.size a
  hwx9_1 : ∀ i : grid9.Coords, EltTy.bits .f32 = 32 ∨ (Rect.block (s := S64x6) S64x6.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x6.size a ≤ S1x6.size a
  hwx9_2 : ∀ i : grid9.Coords, EltTy.bits .f32 = 32 ∨ (Rect.block (s := S1x6) S1x6.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S500x6.size a ≤ S500x6.size a
  hwx9_3 : ∀ i : grid9.Coords, EltTy.bits .f32 = 32 ∨ (Rect.block (s := S500x6) S500x6.size (cc9_transform_3 i) (hinb9_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x6_S500x6_1_0_0_1_n_n : DotDims S500x64 S64x6 S500x6 where
  lhsContracting := [1]
  rhsContracting := [0]
  lhsNonContracting := [0]
  rhsNonContracting := [1]
  lhsBatch := []
  rhsBatch := []
  wf := dot_S500x64_S64x6_S500x6_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v55) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v93_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v92) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v104) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v105) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v106) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v106) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v108) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v129) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v130_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v130_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v129) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v139) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v140) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v141) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v142) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v143) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v155) S500x64.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S64x6.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v156) S1x6.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v157) S500x6.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S64x6 : Shape := ⟨2, ![64, 6]⟩
abbrev S6 : Shape := ⟨1, ![6]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S500x64 : Shape := ⟨2, ![500, 64]⟩
abbrev S50000x1 : Shape := ⟨2, ![50000, 1]⟩
abbrev S500 : Shape := ⟨1, ![500]⟩
abbrev S500x1 : Shape := ⟨2, ![500, 1]⟩
abbrev S500x6 : Shape := ⟨2, ![500, 6]⟩
abbrev S1x6 : Shape := ⟨2, ![1, 6]⟩

abbrev nBuf : Space → Nat
  | .hbm => 297
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x6, .f32⟩
  | 16 => ⟨S6, .f32⟩
  | 17 => ⟨S1x800000, .i32⟩
  | 18 => ⟨S800000, .i32⟩
  | 19 => ⟨S1x800000, .i32⟩
  | 20 => ⟨S800000, .i32⟩
  | 21 => ⟨S50000, .i32⟩
  | 22 => ⟨S850000, .i32⟩
  | 23 => ⟨S850000, .i32⟩
  | 24 => ⟨S_, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S_, .f32⟩
  | 35 => ⟨S850000, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S850000x1, .f32⟩
  | 58 => ⟨S50000x64, .f32⟩
  | 59 => ⟨S_, .f32⟩
  | 60 => ⟨S50000x64, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x64, .f32⟩
  | 70 => ⟨S850000x64, .f32⟩
  | 71 => ⟨S850000x64, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S_, .f32⟩
  | 87 => ⟨S64, .f32⟩
  | 88 => ⟨S64, .f32⟩
  | 89 => ⟨S_, .i32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S50000x64, .f32⟩
  | 97 => ⟨S50000x64, .f32⟩
  | 98 => ⟨S50000x64, .f32⟩
  | 99 => ⟨S_, .f32⟩
  | 100 => ⟨S_, .f32⟩
  | 101 => ⟨S_, .f32⟩
  | 102 => ⟨S_, .f32⟩
  | 103 => ⟨S64, .f32⟩
  | 104 => ⟨S64, .f32⟩
  | 105 => ⟨S64, .f32⟩
  | 106 => ⟨S_, .f32⟩
  | 107 => ⟨S_, .i1⟩
  | 108 => ⟨S_, .f32⟩
  | 109 => ⟨S_, .f32⟩
  | 110 => ⟨S64, .f32⟩
  | 111 => ⟨S64, .f32⟩
  | 112 => ⟨S1x64, .f32⟩
  | 113 => ⟨S50000x64, .f32⟩
  | 114 => ⟨S50000x64, .f32⟩
  | 115 => ⟨S_, .f32⟩
  | 116 => ⟨S64, .f32⟩
  | 117 => ⟨S64, .f32⟩
  | 118 => ⟨S64, .f32⟩
  | 119 => ⟨S1x64, .f32⟩
  | 120 => ⟨S50000x64, .f32⟩
  | 121 => ⟨S50000x64, .f32⟩
  | 122 => ⟨S1x64, .f32⟩
  | 123 => ⟨S50000x64, .f32⟩
  | 124 => ⟨S50000x64, .f32⟩
  | 125 => ⟨S1x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .f32⟩
  | 1 => ⟨S50000x64, .f32⟩
  | 2 => ⟨S50000x64, .f32⟩
  | 3 => ⟨S50000x64, .f32⟩
  | 4 => ⟨S_, .f32⟩
  | 5 => ⟨S50000x64, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x64, .f32⟩
  | 15 => ⟨S850000x64, .f32⟩
  | 16 => ⟨S850000x64, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S64, .f32⟩
  | 31 => ⟨S_, .f32⟩
  | 32 => ⟨S64, .f32⟩
  | 33 => ⟨S64, .f32⟩
  | 34 => ⟨S_, .i32⟩
  | 35 => ⟨S_, .f32⟩
  | 36 => ⟨S64, .f32⟩
  | 37 => ⟨S1x64, .f32⟩
  | 38 => ⟨S_, .f32⟩
  | 39 => ⟨S1x64, .f32⟩
  | 40 => ⟨S1x64, .f32⟩
  | 41 => ⟨S50000x64, .f32⟩
  | 42 => ⟨S50000x64, .f32⟩
  | 43 => ⟨S50000x64, .f32⟩
  | 44 => ⟨S_, .f32⟩
  | 45 => ⟨S_, .f32⟩
  | 46 => ⟨S_, .f32⟩
  | 47 => ⟨S_, .f32⟩
  | 48 => ⟨S64, .f32⟩
  | 49 => ⟨S64, .f32⟩
  | 50 => ⟨S64, .f32⟩
  | 51 => ⟨S_, .f32⟩
  | 52 => ⟨S_, .i1⟩
  | 53 => ⟨S_, .f32⟩
  | 54 => ⟨S_, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S_, .f32⟩
  | 61 => ⟨S64, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S_, .f32⟩
  | 78 => ⟨S50000x64, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x64, .f32⟩
  | 88 => ⟨S850000x64, .f32⟩
  | 89 => ⟨S850000x64, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S50000x64, .f32⟩
  | 99 => ⟨S1x64, .f32⟩
  | 100 => ⟨S50000x64, .f32⟩
  | 101 => ⟨S50000x64, .f32⟩
  | 102 => ⟨S_, .f32⟩
  | 103 => ⟨S64, .f32⟩
  | 104 => ⟨S_, .f32⟩
  | 105 => ⟨S64, .f32⟩
  | 106 => ⟨S64, .f32⟩
  | 107 => ⟨S_, .i32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S50000x64, .f32⟩
  | 115 => ⟨S50000x64, .f32⟩
  | 116 => ⟨S50000x64, .f32⟩
  | 117 => ⟨S_, .f32⟩
  | 118 => ⟨S_, .f32⟩
  | 119 => ⟨S_, .f32⟩
  | 120 => ⟨S_, .f32⟩
  | 121 => ⟨S64, .f32⟩
  | 122 => ⟨S64, .f32⟩
  | 123 => ⟨S64, .f32⟩
  | 124 => ⟨S_, .f32⟩
  | 125 => ⟨S_, .i1⟩
  | 126 => ⟨S_, .f32⟩
  | 127 => ⟨S_, .f32⟩
  | _ => ⟨S50000x64, .f32⟩

abbrev hbmTy0_2 (i : Nat) : BufTy := match i % 128 with
  | 0 => ⟨S64, .f32⟩
  | 1 => ⟨S64, .f32⟩
  | 2 => ⟨S1x64, .f32⟩
  | 3 => ⟨S50000x64, .f32⟩
  | 4 => ⟨S50000x64, .f32⟩
  | 5 => ⟨S_, .f32⟩
  | 6 => ⟨S64, .f32⟩
  | 7 => ⟨S64, .f32⟩
  | 8 => ⟨S64, .f32⟩
  | 9 => ⟨S1x64, .f32⟩
  | 10 => ⟨S50000x64, .f32⟩
  | 11 => ⟨S50000x64, .f32⟩
  | 12 => ⟨S1x64, .f32⟩
  | 13 => ⟨S50000x64, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S_, .f32⟩
  | 22 => ⟨S500x64, .f32⟩
  | 23 => ⟨S50000x1, .i32⟩
  | 24 => ⟨S500x64, .f32⟩
  | 25 => ⟨S_, .f32⟩
  | 26 => ⟨S50000, .f32⟩
  | 27 => ⟨S_, .f32⟩
  | 28 => ⟨S500, .f32⟩
  | 29 => ⟨S50000x1, .i32⟩
  | 30 => ⟨S500, .f32⟩
  | 31 => ⟨S_, .f32⟩
  | 32 => ⟨S500, .f32⟩
  | 33 => ⟨S500, .f32⟩
  | 34 => ⟨S500x1, .f32⟩
  | 35 => ⟨S500x64, .f32⟩
  | 36 => ⟨S500x64, .f32⟩
  | 37 => ⟨S500x6, .f32⟩
  | 38 => ⟨S1x6, .f32⟩
  | 39 => ⟨S500x6, .f32⟩
  | 40 => ⟨S500x6, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_9 : Ref sig .tc := ⟨.hbm, 72, rfl⟩
abbrev main_v44 : Ref sig .tc := ⟨.hbm, 73, rfl⟩
abbrev main_v45 : Ref sig .tc := ⟨.hbm, 74, rfl⟩
abbrev main_c_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_cst_12 : Ref sig .tc := ⟨.hbm, 86, rfl⟩
abbrev main_v55 : Ref sig .tc := ⟨.hbm, 87, rfl⟩
abbrev main_v56 : Ref sig .tc := ⟨.hbm, 88, rfl⟩
abbrev main_c_13 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_cst_0 : Ref sig .tc := ⟨.hbm, 93, rfl⟩
abbrev main_call0_v2 : Ref sig .tc := ⟨.hbm, 94, rfl⟩
abbrev main_call0_v3 : Ref sig .tc := ⟨.hbm, 95, rfl⟩
abbrev main_call0_v4 : Ref sig .tc := ⟨.hbm, 96, rfl⟩
abbrev main_call0_v5 : Ref sig .tc := ⟨.hbm, 97, rfl⟩
abbrev main_call0_v6 : Ref sig .tc := ⟨.hbm, 98, rfl⟩
abbrev main_call0_v7 : Ref sig .tc := ⟨.hbm, 99, rfl⟩
abbrev main_call0_cst_1 : Ref sig .tc := ⟨.hbm, 100, rfl⟩
abbrev main_call0_v8 : Ref sig .tc := ⟨.hbm, 101, rfl⟩
abbrev main_call0_cst_2 : Ref sig .tc := ⟨.hbm, 102, rfl⟩
abbrev main_call0_v9 : Ref sig .tc := ⟨.hbm, 103, rfl⟩
abbrev main_call0_v10 : Ref sig .tc := ⟨.hbm, 104, rfl⟩
abbrev main_call0_v11 : Ref sig .tc := ⟨.hbm, 105, rfl⟩
abbrev main_call0_cst_3 : Ref sig .tc := ⟨.hbm, 106, rfl⟩
abbrev main_call0_v12 : Ref sig .tc := ⟨.hbm, 107, rfl⟩
abbrev main_call0_cst_4 : Ref sig .tc := ⟨.hbm, 108, rfl⟩
abbrev main_call0_call0_v0 : Ref sig .tc := ⟨.hbm, 109, rfl⟩
abbrev main_call0_call0_v1 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_14 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_call1_cst : Ref sig .tc := ⟨.hbm, 128, rfl⟩
abbrev main_call1_v0 : Ref sig .tc := ⟨.hbm, 129, rfl⟩
abbrev main_v73 : Ref sig .tc := ⟨.hbm, 130, rfl⟩
abbrev main_v74 : Ref sig .tc := ⟨.hbm, 131, rfl⟩
abbrev main_cst_15 : Ref sig .tc := ⟨.hbm, 132, rfl⟩
abbrev main_v75 : Ref sig .tc := ⟨.hbm, 133, rfl⟩
abbrev main_c_16 : Ref sig .tc := ⟨.hbm, 134, rfl⟩
abbrev main_v76 : Ref sig .tc := ⟨.hbm, 135, rfl⟩
abbrev main_v77 : Ref sig .tc := ⟨.hbm, 136, rfl⟩
abbrev main_c_17 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_c_18 : Ref sig .tc := ⟨.hbm, 145, rfl⟩
abbrev main_v85 : Ref sig .tc := ⟨.hbm, 146, rfl⟩
abbrev main_v86 : Ref sig .tc := ⟨.hbm, 147, rfl⟩
abbrev main_c_19 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_20 : Ref sig .tc := ⟨.hbm, 157, rfl⟩
abbrev main_v95 : Ref sig .tc := ⟨.hbm, 158, rfl⟩
abbrev main_cst_21 : Ref sig .tc := ⟨.hbm, 159, rfl⟩
abbrev main_v96 : Ref sig .tc := ⟨.hbm, 160, rfl⟩
abbrev main_v97 : Ref sig .tc := ⟨.hbm, 161, rfl⟩
abbrev main_c_22 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_cst_0 : Ref sig .tc := ⟨.hbm, 166, rfl⟩
abbrev main_call2_v2 : Ref sig .tc := ⟨.hbm, 167, rfl⟩
abbrev main_call2_v3 : Ref sig .tc := ⟨.hbm, 168, rfl⟩
abbrev main_call2_v4 : Ref sig .tc := ⟨.hbm, 169, rfl⟩
abbrev main_call2_v5 : Ref sig .tc := ⟨.hbm, 170, rfl⟩
abbrev main_call2_v6 : Ref sig .tc := ⟨.hbm, 171, rfl⟩
abbrev main_call2_v7 : Ref sig .tc := ⟨.hbm, 172, rfl⟩
abbrev main_call2_cst_1 : Ref sig .tc := ⟨.hbm, 173, rfl⟩
abbrev main_call2_v8 : Ref sig .tc := ⟨.hbm, 174, rfl⟩
abbrev main_call2_cst_2 : Ref sig .tc := ⟨.hbm, 175, rfl⟩
abbrev main_call2_v9 : Ref sig .tc := ⟨.hbm, 176, rfl⟩
abbrev main_call2_v10 : Ref sig .tc := ⟨.hbm, 177, rfl⟩
abbrev main_call2_v11 : Ref sig .tc := ⟨.hbm, 178, rfl⟩
abbrev main_call2_cst_3 : Ref sig .tc := ⟨.hbm, 179, rfl⟩
abbrev main_call2_v12 : Ref sig .tc := ⟨.hbm, 180, rfl⟩
abbrev main_call2_cst_4 : Ref sig .tc := ⟨.hbm, 181, rfl⟩
abbrev main_call2_call0_v0 : Ref sig .tc := ⟨.hbm, 182, rfl⟩
abbrev main_call2_call0_v1 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_cst_23 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_call3_cst : Ref sig .tc := ⟨.hbm, 201, rfl⟩
abbrev main_call3_v0 : Ref sig .tc := ⟨.hbm, 202, rfl⟩
abbrev main_v114 : Ref sig .tc := ⟨.hbm, 203, rfl⟩
abbrev main_v115 : Ref sig .tc := ⟨.hbm, 204, rfl⟩
abbrev main_cst_24 : Ref sig .tc := ⟨.hbm, 205, rfl⟩
abbrev main_v116 : Ref sig .tc := ⟨.hbm, 206, rfl⟩
abbrev main_c_25 : Ref sig .tc := ⟨.hbm, 207, rfl⟩
abbrev main_v117 : Ref sig .tc := ⟨.hbm, 208, rfl⟩
abbrev main_v118 : Ref sig .tc := ⟨.hbm, 209, rfl⟩
abbrev main_c_26 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_c_27 : Ref sig .tc := ⟨.hbm, 218, rfl⟩
abbrev main_v126 : Ref sig .tc := ⟨.hbm, 219, rfl⟩
abbrev main_v127 : Ref sig .tc := ⟨.hbm, 220, rfl⟩
abbrev main_c_28 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_cst_29 : Ref sig .tc := ⟨.hbm, 230, rfl⟩
abbrev main_v136 : Ref sig .tc := ⟨.hbm, 231, rfl⟩
abbrev main_cst_30 : Ref sig .tc := ⟨.hbm, 232, rfl⟩
abbrev main_v137 : Ref sig .tc := ⟨.hbm, 233, rfl⟩
abbrev main_v138 : Ref sig .tc := ⟨.hbm, 234, rfl⟩
abbrev main_c_31 : Ref sig .tc := ⟨.hbm, 235, rfl⟩
abbrev main_call4_cst : Ref sig .tc := ⟨.hbm, 236, rfl⟩
abbrev main_call4_v0 : Ref sig .tc := ⟨.hbm, 237, rfl⟩
abbrev main_call4_v1 : Ref sig .tc := ⟨.hbm, 238, rfl⟩
abbrev main_call4_cst_0 : Ref sig .tc := ⟨.hbm, 239, rfl⟩
abbrev main_call4_v2 : Ref sig .tc := ⟨.hbm, 240, rfl⟩
abbrev main_call4_v3 : Ref sig .tc := ⟨.hbm, 241, rfl⟩
abbrev main_call4_v4 : Ref sig .tc := ⟨.hbm, 242, rfl⟩
abbrev main_call4_v5 : Ref sig .tc := ⟨.hbm, 243, rfl⟩
abbrev main_call4_v6 : Ref sig .tc := ⟨.hbm, 244, rfl⟩
abbrev main_call4_v7 : Ref sig .tc := ⟨.hbm, 245, rfl⟩
abbrev main_call4_cst_1 : Ref sig .tc := ⟨.hbm, 246, rfl⟩
abbrev main_call4_v8 : Ref sig .tc := ⟨.hbm, 247, rfl⟩
abbrev main_call4_cst_2 : Ref sig .tc := ⟨.hbm, 248, rfl⟩
abbrev main_call4_v9 : Ref sig .tc := ⟨.hbm, 249, rfl⟩
abbrev main_call4_v10 : Ref sig .tc := ⟨.hbm, 250, rfl⟩
abbrev main_call4_v11 : Ref sig .tc := ⟨.hbm, 251, rfl⟩
abbrev main_call4_cst_3 : Ref sig .tc := ⟨.hbm, 252, rfl⟩
abbrev main_call4_v12 : Ref sig .tc := ⟨.hbm, 253, rfl⟩
abbrev main_call4_cst_4 : Ref sig .tc := ⟨.hbm, 254, rfl⟩
abbrev main_call4_call0_v0 : Ref sig .tc := ⟨.hbm, 255, rfl⟩
abbrev main_call4_call0_v1 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_cst_32 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_v154 : Ref sig .tc := ⟨.hbm, 273, rfl⟩
abbrev main_call5_cst : Ref sig .tc := ⟨.hbm, 274, rfl⟩
abbrev main_call5_v0 : Ref sig .tc := ⟨.hbm, 275, rfl⟩
abbrev main_v155 : Ref sig .tc := ⟨.hbm, 276, rfl⟩
abbrev main_cst_33 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_cst_34 : Ref sig .tc := ⟨.hbm, 281, rfl⟩
abbrev main_v159 : Ref sig .tc := ⟨.hbm, 282, rfl⟩
abbrev main_cst_35 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_cst_36 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_v166 : Ref sig .tc := ⟨.hbm, 291, rfl⟩
abbrev main_v167 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S_S50000x64 : S_.BroadcastsInDim S50000x64 (![] : Fin 0 → Fin S50000x64.rank)
  bcast_S850000x1_S850000x64_0_1 : S850000x1.BroadcastsInDim S850000x64 (![0, 1] : Fin 2 → Fin S850000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S500x64 : S_.BroadcastsInDim S500x64 (![] : Fin 0 → Fin S500x64.rank)
  bcast_S50000_S50000x1_0 : S50000.BroadcastsInDim S50000x1 (![0] : Fin 1 → Fin S50000x1.rank)
  bcast_S_S500 : S_.BroadcastsInDim S500 (![] : Fin 0 → Fin S500.rank)
  bcast_S500_S500x1_0 : S500.BroadcastsInDim S500x1 (![0] : Fin 1 → Fin S500x1.rank)
  bcast_S500x1_S500x64_0_1 : S500x1.BroadcastsInDim S500x64 (![0, 1] : Fin 2 → Fin S500x64.rank)
  bcast_S6_S1x6_1 : S6.BroadcastsInDim S1x6 (![1] : Fin 1 → Fin S1x6.rank)
  bcast_S1x6_S500x6_0_1 : S1x6.BroadcastsInDim S500x6 (![0, 1] : Fin 2 → Fin S500x6.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S500x64_S50000x1_S50000x64_1_0_0_1_wf : ScatterDims.WF S500x64 S50000x1 S50000x64 [1] [0] [0] 1
  scatter_S500_S50000x1_S50000_n_0_0_1_wf : ScatterDims.WF S500 S50000x1 S50000 [] [0] [0] 1
  dot_S500x64_S64x6_S500x6_1_0_0_1_n_n_wf : DotDims.WF S500x64 S64x6 S500x6 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S500x64_S50000x1_S50000x64_1_0_0_1 : ScatterDims S500x64 S50000x1 S50000x64 where
  updateWindowDims := [1]
  insertedWindowDims := [0]
  scatterDimsToOperandDims := [0]
  indexVectorDim := 1
  wf := scatter_S500x64_S50000x1_S50000x64_1_0_0_1_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def dot_S500x64_S64x6_S500x6_1_0_0_1_n_n : DotDims S500x64 S64x6 S500x6 where
  lhsContracting := [1]
  rhsContracting := [0]
  lhsNonContracting := [0]
  rhsNonContracting := [1]
  lhsBatch := []
  rhsBatch := []
  wf := dot_S500x64_S64x6_S500x6_1_0_0_1_n_n_wf

class Facts : Prop extends Facts₀ where

variable [Facts]
-- ==== Proof.BitsRegion0.lean ====
/-
  Region 0 of the kernel's @main, the call of `cc0__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- The output window's staging buffer after the body, from the input windows' blocks: its one store. -/
def out0_3 (x0 : Vec F S10000x64 .f32) (x1 : Vec F S64x64 .f32) (x2 : Vec F S1x64 .f32) : Vec F S10000x64 .f32 :=
  View.canon [⟨r0_0, k0_pay1 (View.ld x0 r0_0) (View.ld x1 r0_1) (View.ld x2 r0_2)⟩]

/-- The store covers the whole buffer. -/
theorem cover0_3 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
/-- The body on whole staging memrefs, the inputs' at contents `x…` and the output's at anything, runs to the
    continuation holding the inputs' as they were and the output's at `out0_3` of the inputs'. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.LibWholeStore.lean ====
/-
  A store through the whole-shape rectangle at zero offsets, when it is the LAST of a list of stores, decides what the
  buffer holds: every index lies under it, so the buffer reads as that store's payload whatever was stored before and
  whatever the buffer held — read whole, or loaded back through the same rectangle.
-/
import Idealize.ShloMosaic.Lib.Pipeline.Value

noncomputable section

namespace Idealize.ShloMosaic.View

variable {Val : EltTy → Type} {S : Shape} {e : EltTy}

/-- Every index lies under a whole-shape rectangle at zero offsets at the head of a list of pieces. -/
theorem cover_cons_unit_zero {off : Fin S.rank → Nat} (h : off = fun _ => 0)
    (inb : ∀ a, off a + S.size a ≤ S.size a) (w : S.Idx → Val e) (L : List (Piece Val S e)) (y : S.Idx) :
    ∃ p ∈ ((⟨Rect.unit off S.size inb, w⟩ : Piece Val S e) :: L), y ∈ p.1.set := by
  subst h
  exact ⟨_, List.mem_cons.mpr (Or.inl rfl), by show y ∈ (Rect.whole S).set; rw [Rect.set_whole]; exact Finset.mem_univ y⟩

/-- After stores the last of which is whole, the buffer reads as the last store's payload. -/
theorem read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w :=
  (read_writes_eq_canon v f _ (cover_cons_unit_zero h inb w L)).trans (canon_cons_unit_zero h inb w L)

/-- A whole load after stores the last of which is whole reads the last store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  rw [readCov_eq_canon_ld _ _ _ (cover_cons_unit_zero h inb w L), canon_cons_unit_zero h inb w L, ld_unit_zero h inb]

/-- A whole load of a buffer the last of whose stores was whole, read through its contents. -/
theorem readAt_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (Piece Val S e)) :
    v.readAt Val (Rect.unit off S.size inb).toLoadRect (v.writes Val f ((⟨Rect.unit off S.size inb, w⟩ : Piece Val S e) :: L)) = w := by
  rw [readAt_eq_ld, read_writes_cons_unit_zero v f h inb w L, ld_unit_zero h inb]

end Idealize.ShloMosaic.View

end
-- ==== Proof.BitsStats1.lean ====
/-
  Region 1 of @main, the call of `cc1__stats_kernel`: the column sums and the column sums of squares of a [50000, 64] array,
  accumulated block by block (five blocks of 10000 rows) in two [1, 64] scratch buffers that are zeroed at the first
  grid point and copied to the two output windows at the last one. Here: the body's Hoare triple in each of its three
  control cases (first point, a middle point, last point), the running sums after each point, the proof data of the
  pipeline — the invariant carries the scratch buffers at the running sums — and the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import proofs.«120485_j12249246728930_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0, 0] : Fin 2 → Nat) = fun _ => 0 := funext fun a => by fin_cases a <;> rfl

/-- The body's two `scf.if` conditions, from the grid coordinates: the first point of the axis, and its last. -/
abbrev cond1_0 (i : grid1.Coords) : Prop := Scalar.cmpi .ne (Scalar.extui (Scalar.cmpi .eq (BitVec.ofNat 32 (i 0).val) 0#32)) 0#32 = 1#1
abbrev cond1_1 (i : grid1.Coords) : Prop := k1_cond2 i = 1#1

/-! ## The body's triple, case by case -/

set_option maxHeartbeats 1000000 in
/-- FIRST POINT (the first conditional taken, the last not): both scratch buffers, whatever they held, end at one
    accumulation step from zero; the input block and the two output buffers are as found. -/
theorem kernelRun1_A (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : cond1_0 i) (hc1 : ¬ cond1_1 i)
    (x0 : Vec F S10000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 (k1_pay1 (F := F))) ∗ owns (c : Thread nD τ) arg5 fullShare (k1_pay5 x0 (k1_pay2 (F := F)))) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  iexists _; isplitr
  swap; · iexact H4
  ipureintro
  sl_unfold_run_names
  simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]

set_option maxHeartbeats 1000000 in
/-- A MIDDLE POINT (neither conditional taken): each scratch buffer advances by one accumulation step. -/
theorem kernelRun1_B (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond1_0 i) (hc1 : ¬ cond1_1 i)
    (x0 : Vec F S10000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  iexists _; isplitr
  swap; · iexact H4
  ipureintro
  sl_unfold_run_names
  simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]

set_option maxHeartbeats 1000000 in
/-- LAST POINT (the first conditional not taken, the last taken): each scratch buffer advances by one step, and the two
    output buffers, whatever they held, end holding the two scratch buffers' final contents. -/
theorem kernelRun1_C (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond1_0 i) (hc1 : cond1_1 i)
    (x0 : Vec F S10000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay4 x0 s0) ∗ owns (c : Thread nD τ) arg3 fullShare (k1_pay5 x0 s1)
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0 hf3 hf4
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  isplitl [H2]
  · iexists _; isplitr
    swap; · iexact H2
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  isplitl [H3]
  · iexists _; isplitr
    swap; · iexact H3
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  iexists _; isplitr
  swap; · iexact H4
  ipureintro
  sl_unfold_run_names
  simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]

end Cert.Kernel.Frame

end
-- ==== Proof.BitsStatsData1.lean ====
/-
  Region 1 of @main (the column sums and sums of squares accumulated over five blocks of rows), continued: the
  running sums after each grid point as functions of the array the region is entered with, the proof data of the
  pipeline — after the body the input window holds its block, the invariant holds the two scratch buffers at the running
  sums, and at the last point the two output windows hold the totals — and the body obligation, point by point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import proofs.«120485_j12249246728930_1_alg».proof.Proof.LibWholeStore
import proofs.«120485_j12249246728930_1_alg».proof.Proof.BitsStats1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums: block k's column sums added to the sums of the blocks before it -/

def sum1_0 (c : Dev nD) : Vec F S1x64 .f32 := k1_pay4 (iblk1 V c 0 t1_0) (k1_pay1 (F := F))
def sum1_1 (c : Dev nD) : Vec F S1x64 .f32 := k1_pay4 (iblk1 V c 0 t1_1) (sum1_0 V c)
def sum1_2 (c : Dev nD) : Vec F S1x64 .f32 := k1_pay4 (iblk1 V c 0 t1_2) (sum1_1 V c)
def sum1_3 (c : Dev nD) : Vec F S1x64 .f32 := k1_pay4 (iblk1 V c 0 t1_3) (sum1_2 V c)
def sum1_4 (c : Dev nD) : Vec F S1x64 .f32 := k1_pay4 (iblk1 V c 0 t1_4) (sum1_3 V c)
def sq1_0 (c : Dev nD) : Vec F S1x64 .f32 := k1_pay5 (iblk1 V c 0 t1_0) (k1_pay2 (F := F))
def sq1_1 (c : Dev nD) : Vec F S1x64 .f32 := k1_pay5 (iblk1 V c 0 t1_1) (sq1_0 V c)
def sq1_2 (c : Dev nD) : Vec F S1x64 .f32 := k1_pay5 (iblk1 V c 0 t1_2) (sq1_1 V c)
def sq1_3 (c : Dev nD) : Vec F S1x64 .f32 := k1_pay5 (iblk1 V c 0 t1_3) (sq1_2 V c)
def sq1_4 (c : Dev nD) : Vec F S1x64 .f32 := k1_pay5 (iblk1 V c 0 t1_4) (sq1_3 V c)

/-- The running column sums after point `n` (the last point's beyond it). -/
def sumAt1 (c : Dev nD) : ℕ → Vec F S1x64 .f32
  | 0 => sum1_0 V c | 1 => sum1_1 V c | 2 => sum1_2 V c | 3 => sum1_3 V c | _ => sum1_4 V c
/-- The running column sums of squares after point `n`. -/
def sqAt1 (c : Dev nD) : ℕ → Vec F S1x64 .f32
  | 0 => sq1_0 V c | 1 => sq1_1 V c | 2 => sq1_2 V c | 3 => sq1_3 V c | _ => sq1_4 V c

/-! ## The invariant and the proof data -/

/-- What the region never opens: every other scoped buffer, and the generator register. -/
def rest1 (c : Dev nD) : sProp 𝕄 :=
  iprop(Pipeline.scopedRestBut (Ix := Unit) (Name := ℕ) (U := UR sig nD τ) (Lvl := ℕ) (Val := Elt F) spec1 c [cc1_scratch0, cc1_scratch1] ∗ ∃ r, prngReg c r)

/-- Before the first point the two scratch buffers hold anything; after point `n` they hold the running sums. -/
def Φn1 (c : Dev nD) : ℕ → sProp 𝕄
  | 0 => iprop((∃ d, owns (c : Thread nD τ) (Memref.whole cc1_scratch0) fullShare d) ∗ (∃ d, owns (c : Thread nD τ) (Memref.whole cc1_scratch1) fullShare d) ∗ rest1 (F := F) c)
  | n + 1 => iprop(owns (c : Thread nD τ) (Memref.whole cc1_scratch0) fullShare (sumAt1 V c n) ∗ owns (c : Thread nD τ) (Memref.whole cc1_scratch1) fullShare (sqAt1 V c n) ∗ rest1 (F := F) c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => sumAt1 V c t.val
    | ⟨2, _⟩ => sqAt1 V c t.val
  Φ j := Φn1 V c j.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = sumAt1 V c t.val := by dsimp only [dat1]
theorem after1_2 (c : Dev nD) (t : Fin cfg1.N) : (dat1 V c).after 2 t = sqAt1 V c t.val := by dsimp only [dat1]
theorem before1_0 (c : Dev nD) (t : Fin cfg1.N) (d) : (dat1 V c).before 0 t d = iblk1 V c 0 t :=
  before1_0_of V (dat1 V c) (A_eq1 V c 0) (after1_0 V c) t d

/-- At a point not idle for a window the body leaves its buffer at the stated contents. -/
theorem leavesExact_live1 (c : Dev nD) (w : Fin cfg1.W) (t : Fin cfg1.N) (hi : cfg1.idle w (cfg1.grid.coords t) = false) :
    (dat1 V c).leavesExact w t = owns (c : Thread nD τ) ((cfg1.win w).stage (cfg1.slots t w)) fullShare ((dat1 V c).after w t) := by
  unfold Dat.leavesExact; rw [hi]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1000000 in
theorem sound_body1_0 (c : Dev nD) :
    bodyPre1 V c t1_0 ⊢ wp frame (wpE (defs₀ (F := F)) Variants.none c none) Set.univ (bodyAt1 t1_0) (fun _ => bodyPost1 V c t1_0) := by
  unfold bodyPre1 bodyPost1 bodyAt1
  simp only [before1_0]
  rw [leavesExact_live1 V c 0 t1_0 (by decide +kernel), Dat.leavesExact_idle (dat1 V c) 1 t1_0 (by decide +kernel) (by decide +kernel), Dat.leavesExact_idle (dat1 V c) 2 t1_0 (by decide +kernel) (by decide +kernel)]
  rw [show (dat1 V c).Φ (t1_0 : Fin cfg1.N).castSucc = Φn1 V c 0 from rfl,
    show (dat1 V c).Φ (t1_0 : Fin cfg1.N).succ = Φn1 V c 1 from rfl,
    show (dat1 V c).owesAt () (t1_0 : Fin cfg1.N).succ = (dat1 V c).owesAt () (t1_0 : Fin cfg1.N).castSucc from rfl,
    after1_0]
  unfold Φn1
  iintro ⟨⟨S0, S1, Hr⟩, Ho, ⟨%d0, H0⟩, ⟨%d1, H1⟩, ⟨%d2, H2⟩⟩
  iapply (kernelRun1_A c Set.univ (grid1.coords t1_0) _ _ _ _ _ _ _ _ _ _ (by decide +kernel : cond1_0 (grid1.coords t1_0)) (by decide +kernel : ¬ cond1_1 (grid1.coords t1_0)) (iblk1 V c 0 t1_0) _ _ _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_1 (c : Dev nD) :
    bodyPre1 V c t1_1 ⊢ wp frame (wpE (defs₀ (F := F)) Variants.none c none) Set.univ (bodyAt1 t1_1) (fun _ => bodyPost1 V c t1_1) := by
  unfold bodyPre1 bodyPost1 bodyAt1
  simp only [before1_0]
  rw [leavesExact_live1 V c 0 t1_1 (by decide +kernel), Dat.leavesExact_idle (dat1 V c) 1 t1_1 (by decide +kernel) (by decide +kernel), Dat.leavesExact_idle (dat1 V c) 2 t1_1 (by decide +kernel) (by decide +kernel)]
  rw [show (dat1 V c).Φ (t1_1 : Fin cfg1.N).castSucc = Φn1 V c 1 from rfl,
    show (dat1 V c).Φ (t1_1 : Fin cfg1.N).succ = Φn1 V c 2 from rfl,
    show (dat1 V c).owesAt () (t1_1 : Fin cfg1.N).succ = (dat1 V c).owesAt () (t1_1 : Fin cfg1.N).castSucc from rfl,
    after1_0]
  unfold Φn1
  iintro ⟨⟨S0, S1, Hr⟩, Ho, ⟨%d0, H0⟩, ⟨%d1, H1⟩, ⟨%d2, H2⟩⟩
  iapply (kernelRun1_B c Set.univ (grid1.coords t1_1) _ _ _ _ _ _ _ _ _ _ (by decide +kernel : ¬ cond1_0 (grid1.coords t1_1)) (by decide +kernel : ¬ cond1_1 (grid1.coords t1_1)) (iblk1 V c 0 t1_1) _ _ (sumAt1 V c 0) (sqAt1 V c 0) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_2 (c : Dev nD) :
    bodyPre1 V c t1_2 ⊢ wp frame (wpE (defs₀ (F := F)) Variants.none c none) Set.univ (bodyAt1 t1_2) (fun _ => bodyPost1 V c t1_2) := by
  unfold bodyPre1 bodyPost1 bodyAt1
  simp only [before1_0]
  rw [leavesExact_live1 V c 0 t1_2 (by decide +kernel), Dat.leavesExact_idle (dat1 V c) 1 t1_2 (by decide +kernel) (by decide +kernel), Dat.leavesExact_idle (dat1 V c) 2 t1_2 (by decide +kernel) (by decide +kernel)]
  rw [show (dat1 V c).Φ (t1_2 : Fin cfg1.N).castSucc = Φn1 V c 2 from rfl,
    show (dat1 V c).Φ (t1_2 : Fin cfg1.N).succ = Φn1 V c 3 from rfl,
    show (dat1 V c).owesAt () (t1_2 : Fin cfg1.N).succ = (dat1 V c).owesAt () (t1_2 : Fin cfg1.N).castSucc from rfl,
    after1_0]
  unfold Φn1
  iintro ⟨⟨S0, S1, Hr⟩, Ho, ⟨%d0, H0⟩, ⟨%d1, H1⟩, ⟨%d2, H2⟩⟩
  iapply (kernelRun1_B c Set.univ (grid1.coords t1_2) _ _ _ _ _ _ _ _ _ _ (by decide +kernel : ¬ cond1_0 (grid1.coords t1_2)) (by decide +kernel : ¬ cond1_1 (grid1.coords t1_2)) (iblk1 V c 0 t1_2) _ _ (sumAt1 V c 1) (sqAt1 V c 1) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_3 (c : Dev nD) :
    bodyPre1 V c t1_3 ⊢ wp frame (wpE (defs₀ (F := F)) Variants.none c none) Set.univ (bodyAt1 t1_3) (fun _ => bodyPost1 V c t1_3) := by
  unfold bodyPre1 bodyPost1 bodyAt1
  simp only [before1_0]
  rw [leavesExact_live1 V c 0 t1_3 (by decide +kernel), Dat.leavesExact_idle (dat1 V c) 1 t1_3 (by decide +kernel) (by decide +kernel), Dat.leavesExact_idle (dat1 V c) 2 t1_3 (by decide +kernel) (by decide +kernel)]
  rw [show (dat1 V c).Φ (t1_3 : Fin cfg1.N).castSucc = Φn1 V c 3 from rfl,
    show (dat1 V c).Φ (t1_3 : Fin cfg1.N).succ = Φn1 V c 4 from rfl,
    show (dat1 V c).owesAt () (t1_3 : Fin cfg1.N).succ = (dat1 V c).owesAt () (t1_3 : Fin cfg1.N).castSucc from rfl,
    after1_0]
  unfold Φn1
  iintro ⟨⟨S0, S1, Hr⟩, Ho, ⟨%d0, H0⟩, ⟨%d1, H1⟩, ⟨%d2, H2⟩⟩
  iapply (kernelRun1_B c Set.univ (grid1.coords t1_3) _ _ _ _ _ _ _ _ _ _ (by decide +kernel : ¬ cond1_0 (grid1.coords t1_3)) (by decide +kernel : ¬ cond1_1 (grid1.coords t1_3)) (iblk1 V c 0 t1_3) _ _ (sumAt1 V c 2) (sqAt1 V c 2) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_4 (c : Dev nD) :
    bodyPre1 V c t1_4 ⊢ wp frame (wpE (defs₀ (F := F)) Variants.none c none) Set.univ (bodyAt1 t1_4) (fun _ => bodyPost1 V c t1_4) := by
  unfold bodyPre1 bodyPost1 bodyAt1
  simp only [before1_0]
  rw [leavesExact_live1 V c 0 t1_4 (by decide +kernel), leavesExact_live1 V c 1 t1_4 (by decide +kernel), leavesExact_live1 V c 2 t1_4 (by decide +kernel)]
  rw [show (dat1 V c).Φ (t1_4 : Fin cfg1.N).castSucc = Φn1 V c 4 from rfl,
    show (dat1 V c).Φ (t1_4 : Fin cfg1.N).succ = Φn1 V c 5 from rfl,
    show (dat1 V c).owesAt () (t1_4 : Fin cfg1.N).succ = (dat1 V c).owesAt () (t1_4 : Fin cfg1.N).castSucc from rfl,
    after1_0, after1_1, after1_2]
  unfold Φn1
  iintro ⟨⟨S0, S1, Hr⟩, Ho, ⟨%d0, H0⟩, ⟨%d1, H1⟩, ⟨%d2, H2⟩⟩
  iapply (kernelRun1_C c Set.univ (grid1.coords t1_4) _ _ _ _ _ _ _ _ _ _ (by decide +kernel : ¬ cond1_0 (grid1.coords t1_4)) (by decide +kernel : cond1_1 (grid1.coords t1_4)) (iblk1 V c 0 t1_4) (sumAt1 V c 3) (sqAt1 V c 3) _)
  isplitl [H0]; · iexact H0
  isplitl [H1]; · iexists _; iexact H1
  isplitl [H2]; · iexists _; iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  rcases fin_N1 t with rfl | rfl | rfl | rfl | rfl
  · exact sound_body1_0 V c
  · exact sound_body1_1 V c
  · exact sound_body1_2 V c
  · exact sound_body1_3 V c
  · exact sound_body1_4 V c

end Cert.Kernel.Frame

end
-- ==== Proof.BitsRegion2.lean ====
/-
  Region 2 of the kernel's @main, the call of `cc2__bn_relu_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0

/-- The output window's staging buffer after the body, from the input windows' blocks: its one store. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_0, k2_pay1 (View.ld x0 r2_0) (View.ld x1 r2_1) (View.ld x2 r2_1) (View.ld x3 r2_1) (View.ld x4 r2_1)⟩]

/-- The store covers the whole buffer. -/
theorem cover2_5 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body on whole staging memrefs, the inputs' at contents `x…` and the output's at anything, runs to the
    continuation holding the inputs' as they were and the output's at `out2_5` of the inputs'. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at `out2_5` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.BitsRegion3.lean ====
/-
  Region 3 of the kernel's @main, the call of `cc3__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched
    its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched
    its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: where it is not fetched
    its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-- The output window's staging buffer after the body, from the input windows' blocks: its one store. -/
def out3_3 (x0 : Vec F S10000x64 .f32) (x1 : Vec F S64x64 .f32) (x2 : Vec F S1x64 .f32) : Vec F S10000x64 .f32 :=
  View.canon [⟨r3_0, k3_pay1 (View.ld x0 r3_0) (View.ld x1 r3_1) (View.ld x2 r3_2)⟩]

/-- The store covers the whole buffer. -/
theorem cover3_3 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in
/-- The body on whole staging memrefs, the inputs' at contents `x…` and the output's at anything, runs to the
    continuation holding the inputs' as they were and the output's at `out3_3` of the inputs'. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each
    input's buffer at its block and the output's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.BitsStats4.lean ====
/-
  Region 4 of @main, the call of `cc4__stats_kernel`: the column sums and the column sums of squares of a [50000, 64] array,
  accumulated block by block (five blocks of 10000 rows) in two [1, 64] scratch buffers that are zeroed at the first
  grid point and copied to the two output windows at the last one. Here: the body's Hoare triple in each of its three
  control cases (first point, a middle point, last point), the running sums after each point, the proof data of the
  pipeline — the invariant carries the scratch buffers at the running sums — and the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import proofs.«120485_j12249246728930_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz4 : (![0, 0] : Fin 2 → Nat) = fun _ => 0 := funext fun a => by fin_cases a <;> rfl

/-- The body's two `scf.if` conditions, from the grid coordinates: the first point of the axis, and its last. -/
abbrev cond4_0 (i : grid4.Coords) : Prop := Scalar.cmpi .ne (Scalar.extui (Scalar.cmpi .eq (BitVec.ofNat 32 (i 0).val) 0#32)) 0#32 = 1#1
abbrev cond4_1 (i : grid4.Coords) : Prop := k4_cond2 i = 1#1

/-! ## The body's triple, case by case -/

set_option maxHeartbeats 1000000 in
/-- FIRST POINT (the first conditional taken, the last not): both scratch buffers, whatever they held, end at one
    accumulation step from zero; the input block and the two output buffers are as found. -/
theorem kernelRun4_A (c : Dev nD) (E : Set ℕ) (i : grid4.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : cond4_0 i) (hc1 : ¬ cond4_1 i)
    (x0 : Vec F S10000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 (k4_pay1 (F := F))) ∗ owns (c : Thread nD τ) arg5 fullShare (k4_pay5 x0 (k4_pay2 (F := F)))) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  iexists _; isplitr
  swap; · iexact H4
  ipureintro
  sl_unfold_run_names
  simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]

set_option maxHeartbeats 1000000 in
/-- A MIDDLE POINT (neither conditional taken): each scratch buffer advances by one accumulation step. -/
theorem kernelRun4_B (c : Dev nD) (E : Set ℕ) (i : grid4.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond4_0 i) (hc1 : ¬ cond4_1 i)
    (x0 : Vec F S10000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  iexists _; isplitr
  swap; · iexact H4
  ipureintro
  sl_unfold_run_names
  simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]

set_option maxHeartbeats 1000000 in
/-- LAST POINT (the first conditional not taken, the last taken): each scratch buffer advances by one step, and the two
    output buffers, whatever they held, end holding the two scratch buffers' final contents. -/
theorem kernelRun4_C (c : Dev nD) (E : Set ℕ) (i : grid4.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond4_0 i) (hc1 : cond4_1 i)
    (x0 : Vec F S10000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k4_pay4 x0 s0) ∗ owns (c : Thread nD τ) arg3 fullShare (k4_pay5 x0 s1)
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0 hf3 hf4
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  isplitl [H2]
  · iexists _; isplitr
    swap; · iexact H2
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  isplitl [H3]
  · iexists _; isplitr
    swap; · iexact H3
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  iexists _; isplitr
  swap; · iexact H4
  ipureintro
  sl_unfold_run_names
  simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]

end Cert.Kernel.Frame

end
-- ==== Proof.BitsStatsData4.lean ====
/-
  Region 4 of @main (the column sums and sums of squares accumulated over five blocks of rows), continued: the
  running sums after each grid point as functions of the array the region is entered with, the proof data of the
  pipeline — after the body the input window holds its block, the invariant holds the two scratch buffers at the running
  sums, and at the last point the two output windows hold the totals — and the body obligation, point by point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import proofs.«120485_j12249246728930_1_alg».proof.Proof.LibWholeStore
import proofs.«120485_j12249246728930_1_alg».proof.Proof.BitsStats4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The running sums: block k's column sums added to the sums of the blocks before it -/

def sum4_0 (c : Dev nD) : Vec F S1x64 .f32 := k4_pay4 (iblk4 V c 0 t4_0) (k4_pay1 (F := F))
def sum4_1 (c : Dev nD) : Vec F S1x64 .f32 := k4_pay4 (iblk4 V c 0 t4_1) (sum4_0 V c)
def sum4_2 (c : Dev nD) : Vec F S1x64 .f32 := k4_pay4 (iblk4 V c 0 t4_2) (sum4_1 V c)
def sum4_3 (c : Dev nD) : Vec F S1x64 .f32 := k4_pay4 (iblk4 V c 0 t4_3) (sum4_2 V c)
def sum4_4 (c : Dev nD) : Vec F S1x64 .f32 := k4_pay4 (iblk4 V c 0 t4_4) (sum4_3 V c)
def sq4_0 (c : Dev nD) : Vec F S1x64 .f32 := k4_pay5 (iblk4 V c 0 t4_0) (k4_pay2 (F := F))
def sq4_1 (c : Dev nD) : Vec F S1x64 .f32 := k4_pay5 (iblk4 V c 0 t4_1) (sq4_0 V c)
def sq4_2 (c : Dev nD) : Vec F S1x64 .f32 := k4_pay5 (iblk4 V c 0 t4_2) (sq4_1 V c)
def sq4_3 (c : Dev nD) : Vec F S1x64 .f32 := k4_pay5 (iblk4 V c 0 t4_3) (sq4_2 V c)
def sq4_4 (c : Dev nD) : Vec F S1x64 .f32 := k4_pay5 (iblk4 V c 0 t4_4) (sq4_3 V c)

/-- The running column sums after point `n` (the last point's beyond it). -/
def sumAt4 (c : Dev nD) : ℕ → Vec F S1x64 .f32
  | 0 => sum4_0 V c | 1 => sum4_1 V c | 2 => sum4_2 V c | 3 => sum4_3 V c | _ => sum4_4 V c
/-- The running column sums of squares after point `n`. -/
def sqAt4 (c : Dev nD) : ℕ → Vec F S1x64 .f32
  | 0 => sq4_0 V c | 1 => sq4_1 V c | 2 => sq4_2 V c | 3 => sq4_3 V c | _ => sq4_4 V c

/-! ## The invariant and the proof data -/

/-- What the region never opens: every other scoped buffer, and the generator register. -/
def rest4 (c : Dev nD) : sProp 𝕄 :=
  iprop(Pipeline.scopedRestBut (Ix := Unit) (Name := ℕ) (U := UR sig nD τ) (Lvl := ℕ) (Val := Elt F) spec4 c [cc4_scratch0, cc4_scratch1] ∗ ∃ r, prngReg c r)

/-- Before the first point the two scratch buffers hold anything; after point `n` they hold the running sums. -/
def Φn4 (c : Dev nD) : ℕ → sProp 𝕄
  | 0 => iprop((∃ d, owns (c : Thread nD τ) (Memref.whole cc4_scratch0) fullShare d) ∗ (∃ d, owns (c : Thread nD τ) (Memref.whole cc4_scratch1) fullShare d) ∗ rest4 (F := F) c)
  | n + 1 => iprop(owns (c : Thread nD τ) (Memref.whole cc4_scratch0) fullShare (sumAt4 V c n) ∗ owns (c : Thread nD τ) (Memref.whole cc4_scratch1) fullShare (sqAt4 V c n) ∗ rest4 (F := F) c)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => sumAt4 V c t.val
    | ⟨2, _⟩ => sqAt4 V c t.val
  Φ j := Φn4 V c j.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = sumAt4 V c t.val := by dsimp only [dat4]
theorem after4_2 (c : Dev nD) (t : Fin cfg4.N) : (dat4 V c).after 2 t = sqAt4 V c t.val := by dsimp only [dat4]
theorem before4_0 (c : Dev nD) (t : Fin cfg4.N) (d) : (dat4 V c).before 0 t d = iblk4 V c 0 t :=
  before4_0_of V (dat4 V c) (A_eq4 V c 0) (after4_0 V c) t d

/-- At a point not idle for a window the body leaves its buffer at the stated contents. -/
theorem leavesExact_live4 (c : Dev nD) (w : Fin cfg4.W) (t : Fin cfg4.N) (hi : cfg4.idle w (cfg4.grid.coords t) = false) :
    (dat4 V c).leavesExact w t = owns (c : Thread nD τ) ((cfg4.win w).stage (cfg4.slots t w)) fullShare ((dat4 V c).after w t) := by
  unfold Dat.leavesExact; rw [hi]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

set_option maxHeartbeats 1000000 in
theorem sound_body4_0 (c : Dev nD) :
    bodyPre4 V c t4_0 ⊢ wp frame (wpE (defs₀ (F := F)) Variants.none c none) Set.univ (bodyAt4 t4_0) (fun _ => bodyPost4 V c t4_0) := by
  unfold bodyPre4 bodyPost4 bodyAt4
  simp only [before4_0]
  rw [leavesExact_live4 V c 0 t4_0 (by decide +kernel), Dat.leavesExact_idle (dat4 V c) 1 t4_0 (by decide +kernel) (by decide +kernel), Dat.leavesExact_idle (dat4 V c) 2 t4_0 (by decide +kernel) (by decide +kernel)]
  rw [show (dat4 V c).Φ (t4_0 : Fin cfg4.N).castSucc = Φn4 V c 0 from rfl,
    show (dat4 V c).Φ (t4_0 : Fin cfg4.N).succ = Φn4 V c 1 from rfl,
    show (dat4 V c).owesAt () (t4_0 : Fin cfg4.N).succ = (dat4 V c).owesAt () (t4_0 : Fin cfg4.N).castSucc from rfl,
    after4_0]
  unfold Φn4
  iintro ⟨⟨S0, S1, Hr⟩, Ho, ⟨%d0, H0⟩, ⟨%d1, H1⟩, ⟨%d2, H2⟩⟩
  iapply (kernelRun4_A c Set.univ (grid4.coords t4_0) _ _ _ _ _ _ _ _ _ _ (by decide +kernel : cond4_0 (grid4.coords t4_0)) (by decide +kernel : ¬ cond4_1 (grid4.coords t4_0)) (iblk4 V c 0 t4_0) _ _ _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_1 (c : Dev nD) :
    bodyPre4 V c t4_1 ⊢ wp frame (wpE (defs₀ (F := F)) Variants.none c none) Set.univ (bodyAt4 t4_1) (fun _ => bodyPost4 V c t4_1) := by
  unfold bodyPre4 bodyPost4 bodyAt4
  simp only [before4_0]
  rw [leavesExact_live4 V c 0 t4_1 (by decide +kernel), Dat.leavesExact_idle (dat4 V c) 1 t4_1 (by decide +kernel) (by decide +kernel), Dat.leavesExact_idle (dat4 V c) 2 t4_1 (by decide +kernel) (by decide +kernel)]
  rw [show (dat4 V c).Φ (t4_1 : Fin cfg4.N).castSucc = Φn4 V c 1 from rfl,
    show (dat4 V c).Φ (t4_1 : Fin cfg4.N).succ = Φn4 V c 2 from rfl,
    show (dat4 V c).owesAt () (t4_1 : Fin cfg4.N).succ = (dat4 V c).owesAt () (t4_1 : Fin cfg4.N).castSucc from rfl,
    after4_0]
  unfold Φn4
  iintro ⟨⟨S0, S1, Hr⟩, Ho, ⟨%d0, H0⟩, ⟨%d1, H1⟩, ⟨%d2, H2⟩⟩
  iapply (kernelRun4_B c Set.univ (grid4.coords t4_1) _ _ _ _ _ _ _ _ _ _ (by decide +kernel : ¬ cond4_0 (grid4.coords t4_1)) (by decide +kernel : ¬ cond4_1 (grid4.coords t4_1)) (iblk4 V c 0 t4_1) _ _ (sumAt4 V c 0) (sqAt4 V c 0) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_2 (c : Dev nD) :
    bodyPre4 V c t4_2 ⊢ wp frame (wpE (defs₀ (F := F)) Variants.none c none) Set.univ (bodyAt4 t4_2) (fun _ => bodyPost4 V c t4_2) := by
  unfold bodyPre4 bodyPost4 bodyAt4
  simp only [before4_0]
  rw [leavesExact_live4 V c 0 t4_2 (by decide +kernel), Dat.leavesExact_idle (dat4 V c) 1 t4_2 (by decide +kernel) (by decide +kernel), Dat.leavesExact_idle (dat4 V c) 2 t4_2 (by decide +kernel) (by decide +kernel)]
  rw [show (dat4 V c).Φ (t4_2 : Fin cfg4.N).castSucc = Φn4 V c 2 from rfl,
    show (dat4 V c).Φ (t4_2 : Fin cfg4.N).succ = Φn4 V c 3 from rfl,
    show (dat4 V c).owesAt () (t4_2 : Fin cfg4.N).succ = (dat4 V c).owesAt () (t4_2 : Fin cfg4.N).castSucc from rfl,
    after4_0]
  unfold Φn4
  iintro ⟨⟨S0, S1, Hr⟩, Ho, ⟨%d0, H0⟩, ⟨%d1, H1⟩, ⟨%d2, H2⟩⟩
  iapply (kernelRun4_B c Set.univ (grid4.coords t4_2) _ _ _ _ _ _ _ _ _ _ (by decide +kernel : ¬ cond4_0 (grid4.coords t4_2)) (by decide +kernel : ¬ cond4_1 (grid4.coords t4_2)) (iblk4 V c 0 t4_2) _ _ (sumAt4 V c 1) (sqAt4 V c 1) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_3 (c : Dev nD) :
    bodyPre4 V c t4_3 ⊢ wp frame (wpE (defs₀ (F := F)) Variants.none c none) Set.univ (bodyAt4 t4_3) (fun _ => bodyPost4 V c t4_3) := by
  unfold bodyPre4 bodyPost4 bodyAt4
  simp only [before4_0]
  rw [leavesExact_live4 V c 0 t4_3 (by decide +kernel), Dat.leavesExact_idle (dat4 V c) 1 t4_3 (by decide +kernel) (by decide +kernel), Dat.leavesExact_idle (dat4 V c) 2 t4_3 (by decide +kernel) (by decide +kernel)]
  rw [show (dat4 V c).Φ (t4_3 : Fin cfg4.N).castSucc = Φn4 V c 3 from rfl,
    show (dat4 V c).Φ (t4_3 : Fin cfg4.N).succ = Φn4 V c 4 from rfl,
    show (dat4 V c).owesAt () (t4_3 : Fin cfg4.N).succ = (dat4 V c).owesAt () (t4_3 : Fin cfg4.N).castSucc from rfl,
    after4_0]
  unfold Φn4
  iintro ⟨⟨S0, S1, Hr⟩, Ho, ⟨%d0, H0⟩, ⟨%d1, H1⟩, ⟨%d2, H2⟩⟩
  iapply (kernelRun4_B c Set.univ (grid4.coords t4_3) _ _ _ _ _ _ _ _ _ _ (by decide +kernel : ¬ cond4_0 (grid4.coords t4_3)) (by decide +kernel : ¬ cond4_1 (grid4.coords t4_3)) (iblk4 V c 0 t4_3) _ _ (sumAt4 V c 2) (sqAt4 V c 2) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_4 (c : Dev nD) :
    bodyPre4 V c t4_4 ⊢ wp frame (wpE (defs₀ (F := F)) Variants.none c none) Set.univ (bodyAt4 t4_4) (fun _ => bodyPost4 V c t4_4) := by
  unfold bodyPre4 bodyPost4 bodyAt4
  simp only [before4_0]
  rw [leavesExact_live4 V c 0 t4_4 (by decide +kernel), leavesExact_live4 V c 1 t4_4 (by decide +kernel), leavesExact_live4 V c 2 t4_4 (by decide +kernel)]
  rw [show (dat4 V c).Φ (t4_4 : Fin cfg4.N).castSucc = Φn4 V c 4 from rfl,
    show (dat4 V c).Φ (t4_4 : Fin cfg4.N).succ = Φn4 V c 5 from rfl,
    show (dat4 V c).owesAt () (t4_4 : Fin cfg4.N).succ = (dat4 V c).owesAt () (t4_4 : Fin cfg4.N).castSucc from rfl,
    after4_0, after4_1, after4_2]
  unfold Φn4
  iintro ⟨⟨S0, S1, Hr⟩, Ho, ⟨%d0, H0⟩, ⟨%d1, H1⟩, ⟨%d2, H2⟩⟩
  iapply (kernelRun4_C c Set.univ (grid4.coords t4_4) _ _ _ _ _ _ _ _ _ _ (by decide +kernel : ¬ cond4_0 (grid4.coords t4_4)) (by decide +kernel : cond4_1 (grid4.coords t4_4)) (iblk4 V c 0 t4_4) (sumAt4 V c 3) (sqAt4 V c 3) _)
  isplitl [H0]; · iexact H0
  isplitl [H1]; · iexists _; iexact H1
  isplitl [H2]; · iexists _; iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  rcases fin_N4 t with rfl | rfl | rfl | rfl | rfl
  · exact sound_body4_0 V c
  · exact sound_body4_1 V c
  · exact sound_body4_2 V c
  · exact sound_body4_3 V c
  · exact sound_body4_4 V c

end Cert.Kernel.Frame

end
-- ==== Proof.BitsRegion5.lean ====
/-
  Region 5 of the kernel's @main, the call of `cc5__bn_relu_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched
    its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: where it is not fetched
    its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: where it is not fetched
    its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not: where it is not fetched
    its block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not: where it is not fetched
    its block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0

/-- The output window's staging buffer after the body, from the input windows' blocks: its one store. -/
def out5_5 (x0 : Vec F S10000x64 .f32) (x1 : Vec F S1x64 .f32) (x2 : Vec F S1x64 .f32) (x3 : Vec F S1x64 .f32) (x4 : Vec F S1x64 .f32) : Vec F S10000x64 .f32 :=
  View.canon [⟨r5_0, k5_pay1 (View.ld x0 r5_0) (View.ld x1 r5_1) (View.ld x2 r5_1) (View.ld x3 r5_1) (View.ld x4 r5_1)⟩]

/-- The store covers the whole buffer. -/
theorem cover5_5 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

set_option maxHeartbeats 1000000 in
/-- The body on whole staging memrefs, the inputs' at contents `x…` and the output's at anything, runs to the
    continuation holding the inputs' as they were and the output's at `out5_5` of the inputs'. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t` each
    input's buffer at its block and the output's at `out5_5` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the triple applies; the invariant and the core's
    `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.BitsRegion6.lean ====
/-
  Region 6 of the kernel's @main, the call of `cc6__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: where it is not fetched
    its block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: where it is not fetched
    its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not: where it is not fetched
    its block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-- The output window's staging buffer after the body, from the input windows' blocks: its one store. -/
def out6_3 (x0 : Vec F S10000x64 .f32) (x1 : Vec F S64x64 .f32) (x2 : Vec F S1x64 .f32) : Vec F S10000x64 .f32 :=
  View.canon [⟨r6_0, k6_pay1 (View.ld x0 r6_0) (View.ld x1 r6_1) (View.ld x2 r6_2)⟩]

/-- The store covers the whole buffer. -/
theorem cover6_3 (p0 : Vec F S10000x64 .f32) (y : S10000x64.Idx) :
    ∃ pc ∈ ([⟨r6_0, p0⟩] : List (View.Piece (Elt F) S10000x64 .f32)), y ∈ pc.1.set :=
  View.cover_of_tiled [⟨r6_0, p0⟩] S10000x64.size (by rfl) y

set_option maxHeartbeats 1000000 in
/-- The body on whole staging memrefs, the inputs' at contents `x…` and the output's at anything, runs to the
    continuation holding the inputs' as they were and the output's at `out6_3` of the inputs'. -/
theorem sound_kernel6 (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the triple applies; the invariant and the core's
    `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frame

end
-- ==== Proof.BitsStats7.lean ====
/-
  Region 7 of @main, the call of `cc7__stats_kernel`: the column sums and the column sums of squares of a [50000, 64] array,
  accumulated block by block (five blocks of 10000 rows) in two [1, 64] scratch buffers that are zeroed at the first
  grid point and copied to the two output windows at the last one. Here: the body's Hoare triple in each of its three
  control cases (first point, a middle point, last point), the running sums after each point, the proof data of the
  pipeline — the invariant carries the scratch buffers at the running sums — and the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import proofs.«120485_j12249246728930_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz7 : (![0, 0] : Fin 2 → Nat) = fun _ => 0 := funext fun a => by fin_cases a <;> rfl

/-- The body's two `scf.if` conditions, from the grid coordinates: the first point of the axis, and its last. -/
abbrev cond7_0 (i : grid7.Coords) : Prop := Scalar.cmpi .ne (Scalar.extui (Scalar.cmpi .eq (BitVec.ofNat 32 (i 0).val) 0#32)) 0#32 = 1#1
abbrev cond7_1 (i : grid7.Coords) : Prop := k7_cond2 i = 1#1

/-! ## The body's triple, case by case -/

set_option maxHeartbeats 1000000 in
/-- FIRST POINT (the first conditional taken, the last not): both scratch buffers, whatever they held, end at one
    accumulation step from zero; the input block and the two output buffers are as found. -/
theorem kernelRun7_A (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : cond7_0 i) (hc1 : ¬ cond7_1 i)
    (x0 : Vec F S10000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k7_pay4 x0 (k7_pay1 (F := F))) ∗ owns (c : Thread nD τ) arg5 fullShare (k7_pay5 x0 (k7_pay2 (F := F)))) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  iexists _; isplitr
  swap; · iexact H4
  ipureintro
  sl_unfold_run_names
  simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]

set_option maxHeartbeats 1000000 in
/-- A MIDDLE POINT (neither conditional taken): each scratch buffer advances by one accumulation step. -/
theorem kernelRun7_B (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond7_0 i) (hc1 : ¬ cond7_1 i)
    (x0 : Vec F S10000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k7_pay4 x0 s0) ∗ owns (c : Thread nD τ) arg5 fullShare (k7_pay5 x0 s1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  iexists _; isplitr
  swap; · iexact H4
  ipureintro
  sl_unfold_run_names
  simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]

set_option maxHeartbeats 1000000 in
/-- LAST POINT (the first conditional not taken, the last taken): each scratch buffer advances by one step, and the two
    output buffers, whatever they held, end holding the two scratch buffers' final contents. -/
theorem kernelRun7_C (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond7_0 i) (hc1 : cond7_1 i)
    (x0 : Vec F S10000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k7_pay4 x0 s0) ∗ owns (c : Thread nD τ) arg3 fullShare (k7_pay5 x0 s1)
            ∗ owns (c : Thread nD τ) arg4 fullShare (k7_pay4 x0 s0) ∗ owns (c : Thread nD τ) arg5 fullShare (k7_pay5 x0 s1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0 hf3 hf4
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  isplitl [H2]
  · iexists _; isplitr
    swap; · iexact H2
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  isplitl [H3]
  · iexists _; isplitr
    swap; · iexact H3
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  iexists _; isplitr
  swap; · iexact H4
  ipureintro
  sl_unfold_run_names
  simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]

end Cert.Kernel.Frame

end
-- ==== Proof.BitsStatsData7.lean ====
/-
  Region 7 of @main (the column sums and sums of squares accumulated over five blocks of rows), continued: the
  running sums after each grid point as functions of the array the region is entered with, the proof data of the
  pipeline — after the body the input window holds its block, the invariant holds the two scratch buffers at the running
  sums, and at the last point the two output windows hold the totals — and the body obligation, point by point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import proofs.«120485_j12249246728930_1_alg».proof.Proof.LibWholeStore
import proofs.«120485_j12249246728930_1_alg».proof.Proof.BitsStats7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The running sums: block k's column sums added to the sums of the blocks before it -/

def sum7_0 (c : Dev nD) : Vec F S1x64 .f32 := k7_pay4 (iblk7 V c 0 t7_0) (k7_pay1 (F := F))
def sum7_1 (c : Dev nD) : Vec F S1x64 .f32 := k7_pay4 (iblk7 V c 0 t7_1) (sum7_0 V c)
def sum7_2 (c : Dev nD) : Vec F S1x64 .f32 := k7_pay4 (iblk7 V c 0 t7_2) (sum7_1 V c)
def sum7_3 (c : Dev nD) : Vec F S1x64 .f32 := k7_pay4 (iblk7 V c 0 t7_3) (sum7_2 V c)
def sum7_4 (c : Dev nD) : Vec F S1x64 .f32 := k7_pay4 (iblk7 V c 0 t7_4) (sum7_3 V c)
def sq7_0 (c : Dev nD) : Vec F S1x64 .f32 := k7_pay5 (iblk7 V c 0 t7_0) (k7_pay2 (F := F))
def sq7_1 (c : Dev nD) : Vec F S1x64 .f32 := k7_pay5 (iblk7 V c 0 t7_1) (sq7_0 V c)
def sq7_2 (c : Dev nD) : Vec F S1x64 .f32 := k7_pay5 (iblk7 V c 0 t7_2) (sq7_1 V c)
def sq7_3 (c : Dev nD) : Vec F S1x64 .f32 := k7_pay5 (iblk7 V c 0 t7_3) (sq7_2 V c)
def sq7_4 (c : Dev nD) : Vec F S1x64 .f32 := k7_pay5 (iblk7 V c 0 t7_4) (sq7_3 V c)

/-- The running column sums after point `n` (the last point's beyond it). -/
def sumAt7 (c : Dev nD) : ℕ → Vec F S1x64 .f32
  | 0 => sum7_0 V c | 1 => sum7_1 V c | 2 => sum7_2 V c | 3 => sum7_3 V c | _ => sum7_4 V c
/-- The running column sums of squares after point `n`. -/
def sqAt7 (c : Dev nD) : ℕ → Vec F S1x64 .f32
  | 0 => sq7_0 V c | 1 => sq7_1 V c | 2 => sq7_2 V c | 3 => sq7_3 V c | _ => sq7_4 V c

/-! ## The invariant and the proof data -/

/-- What the region never opens: every other scoped buffer, and the generator register. -/
def rest7 (c : Dev nD) : sProp 𝕄 :=
  iprop(Pipeline.scopedRestBut (Ix := Unit) (Name := ℕ) (U := UR sig nD τ) (Lvl := ℕ) (Val := Elt F) spec7 c [cc7_scratch0, cc7_scratch1] ∗ ∃ r, prngReg c r)

/-- Before the first point the two scratch buffers hold anything; after point `n` they hold the running sums. -/
def Φn7 (c : Dev nD) : ℕ → sProp 𝕄
  | 0 => iprop((∃ d, owns (c : Thread nD τ) (Memref.whole cc7_scratch0) fullShare d) ∗ (∃ d, owns (c : Thread nD τ) (Memref.whole cc7_scratch1) fullShare d) ∗ rest7 (F := F) c)
  | n + 1 => iprop(owns (c : Thread nD τ) (Memref.whole cc7_scratch0) fullShare (sumAt7 V c n) ∗ owns (c : Thread nD τ) (Memref.whole cc7_scratch1) fullShare (sqAt7 V c n) ∗ rest7 (F := F) c)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => sumAt7 V c t.val
    | ⟨2, _⟩ => sqAt7 V c t.val
  Φ j := Φn7 V c j.val
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = sumAt7 V c t.val := by dsimp only [dat7]
theorem after7_2 (c : Dev nD) (t : Fin cfg7.N) : (dat7 V c).after 2 t = sqAt7 V c t.val := by dsimp only [dat7]
theorem before7_0 (c : Dev nD) (t : Fin cfg7.N) (d) : (dat7 V c).before 0 t d = iblk7 V c 0 t :=
  before7_0_of V (dat7 V c) (A_eq7 V c 0) (after7_0 V c) t d

/-- At a point not idle for a window the body leaves its buffer at the stated contents. -/
theorem leavesExact_live7 (c : Dev nD) (w : Fin cfg7.W) (t : Fin cfg7.N) (hi : cfg7.idle w (cfg7.grid.coords t) = false) :
    (dat7 V c).leavesExact w t = owns (c : Thread nD τ) ((cfg7.win w).stage (cfg7.slots t w)) fullShare ((dat7 V c).after w t) := by
  unfold Dat.leavesExact; rw [hi]

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t)

set_option maxHeartbeats 1000000 in
theorem sound_body7_0 (c : Dev nD) :
    bodyPre7 V c t7_0 ⊢ wp frame (wpE (defs₀ (F := F)) Variants.none c none) Set.univ (bodyAt7 t7_0) (fun _ => bodyPost7 V c t7_0) := by
  unfold bodyPre7 bodyPost7 bodyAt7
  simp only [before7_0]
  rw [leavesExact_live7 V c 0 t7_0 (by decide +kernel), Dat.leavesExact_idle (dat7 V c) 1 t7_0 (by decide +kernel) (by decide +kernel), Dat.leavesExact_idle (dat7 V c) 2 t7_0 (by decide +kernel) (by decide +kernel)]
  rw [show (dat7 V c).Φ (t7_0 : Fin cfg7.N).castSucc = Φn7 V c 0 from rfl,
    show (dat7 V c).Φ (t7_0 : Fin cfg7.N).succ = Φn7 V c 1 from rfl,
    show (dat7 V c).owesAt () (t7_0 : Fin cfg7.N).succ = (dat7 V c).owesAt () (t7_0 : Fin cfg7.N).castSucc from rfl,
    after7_0]
  unfold Φn7
  iintro ⟨⟨S0, S1, Hr⟩, Ho, ⟨%d0, H0⟩, ⟨%d1, H1⟩, ⟨%d2, H2⟩⟩
  iapply (kernelRun7_A c Set.univ (grid7.coords t7_0) _ _ _ _ _ _ _ _ _ _ (by decide +kernel : cond7_0 (grid7.coords t7_0)) (by decide +kernel : ¬ cond7_1 (grid7.coords t7_0)) (iblk7 V c 0 t7_0) _ _ _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_1 (c : Dev nD) :
    bodyPre7 V c t7_1 ⊢ wp frame (wpE (defs₀ (F := F)) Variants.none c none) Set.univ (bodyAt7 t7_1) (fun _ => bodyPost7 V c t7_1) := by
  unfold bodyPre7 bodyPost7 bodyAt7
  simp only [before7_0]
  rw [leavesExact_live7 V c 0 t7_1 (by decide +kernel), Dat.leavesExact_idle (dat7 V c) 1 t7_1 (by decide +kernel) (by decide +kernel), Dat.leavesExact_idle (dat7 V c) 2 t7_1 (by decide +kernel) (by decide +kernel)]
  rw [show (dat7 V c).Φ (t7_1 : Fin cfg7.N).castSucc = Φn7 V c 1 from rfl,
    show (dat7 V c).Φ (t7_1 : Fin cfg7.N).succ = Φn7 V c 2 from rfl,
    show (dat7 V c).owesAt () (t7_1 : Fin cfg7.N).succ = (dat7 V c).owesAt () (t7_1 : Fin cfg7.N).castSucc from rfl,
    after7_0]
  unfold Φn7
  iintro ⟨⟨S0, S1, Hr⟩, Ho, ⟨%d0, H0⟩, ⟨%d1, H1⟩, ⟨%d2, H2⟩⟩
  iapply (kernelRun7_B c Set.univ (grid7.coords t7_1) _ _ _ _ _ _ _ _ _ _ (by decide +kernel : ¬ cond7_0 (grid7.coords t7_1)) (by decide +kernel : ¬ cond7_1 (grid7.coords t7_1)) (iblk7 V c 0 t7_1) _ _ (sumAt7 V c 0) (sqAt7 V c 0) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_2 (c : Dev nD) :
    bodyPre7 V c t7_2 ⊢ wp frame (wpE (defs₀ (F := F)) Variants.none c none) Set.univ (bodyAt7 t7_2) (fun _ => bodyPost7 V c t7_2) := by
  unfold bodyPre7 bodyPost7 bodyAt7
  simp only [before7_0]
  rw [leavesExact_live7 V c 0 t7_2 (by decide +kernel), Dat.leavesExact_idle (dat7 V c) 1 t7_2 (by decide +kernel) (by decide +kernel), Dat.leavesExact_idle (dat7 V c) 2 t7_2 (by decide +kernel) (by decide +kernel)]
  rw [show (dat7 V c).Φ (t7_2 : Fin cfg7.N).castSucc = Φn7 V c 2 from rfl,
    show (dat7 V c).Φ (t7_2 : Fin cfg7.N).succ = Φn7 V c 3 from rfl,
    show (dat7 V c).owesAt () (t7_2 : Fin cfg7.N).succ = (dat7 V c).owesAt () (t7_2 : Fin cfg7.N).castSucc from rfl,
    after7_0]
  unfold Φn7
  iintro ⟨⟨S0, S1, Hr⟩, Ho, ⟨%d0, H0⟩, ⟨%d1, H1⟩, ⟨%d2, H2⟩⟩
  iapply (kernelRun7_B c Set.univ (grid7.coords t7_2) _ _ _ _ _ _ _ _ _ _ (by decide +kernel : ¬ cond7_0 (grid7.coords t7_2)) (by decide +kernel : ¬ cond7_1 (grid7.coords t7_2)) (iblk7 V c 0 t7_2) _ _ (sumAt7 V c 1) (sqAt7 V c 1) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_3 (c : Dev nD) :
    bodyPre7 V c t7_3 ⊢ wp frame (wpE (defs₀ (F := F)) Variants.none c none) Set.univ (bodyAt7 t7_3) (fun _ => bodyPost7 V c t7_3) := by
  unfold bodyPre7 bodyPost7 bodyAt7
  simp only [before7_0]
  rw [leavesExact_live7 V c 0 t7_3 (by decide +kernel), Dat.leavesExact_idle (dat7 V c) 1 t7_3 (by decide +kernel) (by decide +kernel), Dat.leavesExact_idle (dat7 V c) 2 t7_3 (by decide +kernel) (by decide +kernel)]
  rw [show (dat7 V c).Φ (t7_3 : Fin cfg7.N).castSucc = Φn7 V c 3 from rfl,
    show (dat7 V c).Φ (t7_3 : Fin cfg7.N).succ = Φn7 V c 4 from rfl,
    show (dat7 V c).owesAt () (t7_3 : Fin cfg7.N).succ = (dat7 V c).owesAt () (t7_3 : Fin cfg7.N).castSucc from rfl,
    after7_0]
  unfold Φn7
  iintro ⟨⟨S0, S1, Hr⟩, Ho, ⟨%d0, H0⟩, ⟨%d1, H1⟩, ⟨%d2, H2⟩⟩
  iapply (kernelRun7_B c Set.univ (grid7.coords t7_3) _ _ _ _ _ _ _ _ _ _ (by decide +kernel : ¬ cond7_0 (grid7.coords t7_3)) (by decide +kernel : ¬ cond7_1 (grid7.coords t7_3)) (iblk7 V c 0 t7_3) _ _ (sumAt7 V c 2) (sqAt7 V c 2) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_4 (c : Dev nD) :
    bodyPre7 V c t7_4 ⊢ wp frame (wpE (defs₀ (F := F)) Variants.none c none) Set.univ (bodyAt7 t7_4) (fun _ => bodyPost7 V c t7_4) := by
  unfold bodyPre7 bodyPost7 bodyAt7
  simp only [before7_0]
  rw [leavesExact_live7 V c 0 t7_4 (by decide +kernel), leavesExact_live7 V c 1 t7_4 (by decide +kernel), leavesExact_live7 V c 2 t7_4 (by decide +kernel)]
  rw [show (dat7 V c).Φ (t7_4 : Fin cfg7.N).castSucc = Φn7 V c 4 from rfl,
    show (dat7 V c).Φ (t7_4 : Fin cfg7.N).succ = Φn7 V c 5 from rfl,
    show (dat7 V c).owesAt () (t7_4 : Fin cfg7.N).succ = (dat7 V c).owesAt () (t7_4 : Fin cfg7.N).castSucc from rfl,
    after7_0, after7_1, after7_2]
  unfold Φn7
  iintro ⟨⟨S0, S1, Hr⟩, Ho, ⟨%d0, H0⟩, ⟨%d1, H1⟩, ⟨%d2, H2⟩⟩
  iapply (kernelRun7_C c Set.univ (grid7.coords t7_4) _ _ _ _ _ _ _ _ _ _ (by decide +kernel : ¬ cond7_0 (grid7.coords t7_4)) (by decide +kernel : cond7_1 (grid7.coords t7_4)) (iblk7 V c 0 t7_4) (sumAt7 V c 3) (sqAt7 V c 3) _)
  isplitl [H0]; · iexact H0
  isplitl [H1]; · iexists _; iexact H1
  isplitl [H2]; · iexists _; iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexact H1
  iexact H2

/-- The body obligation, at every point. -/
theorem body_obligation7 (c : Dev nD) : BodyObligation (dat7 (F := F) V c) (defs₀ (F := F)) Variants.none () Set.univ := fun t => by
  rw [bigSep_W7, bigSep_W7]
  rcases fin_N7 t with rfl | rfl | rfl | rfl | rfl
  · exact sound_body7_0 V c
  · exact sound_body7_1 V c
  · exact sound_body7_2 V c
  · exact sound_body7_3 V c
  · exact sound_body7_4 V c

end Cert.Kernel.Frame

end
-- ==== Proof.BitsRegion8.lean ====
/-
  Region 8 of the kernel's @main, the call of `cc8__bn_relu_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: where it is not fetched
    its block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: where it is not fetched
    its block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: where it is not fetched
    its block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not: where it is not fetched
    its block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not: where it is not fetched
    its block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0
abbrev r8_1 : Rect S1x64 := Rect.unit (s := S1x64) ![0, 0] S1x64.size inb_S1x64_S1x64_0_0

/-- The output window's staging buffer after the body, from the input windows' blocks: its one store. -/
def out8_5 (x0 : Vec F S10000x64 .f32) (x1 : Vec F S1x64 .f32) (x2 : Vec F S1x64 .f32) (x3 : Vec F S1x64 .f32) (x4 : Vec F S1x64 .f32) : Vec F S10000x64 .f32 :=
  View.canon [⟨r8_0, k8_pay1 (View.ld x0 r8_0) (View.ld x1 r8_1) (View.ld x2 r8_1) (View.ld x3 r8_1) (View.ld x4 r8_1)⟩]

/-- The store covers the whole buffer. -/
theorem cover8_5 (p0 : Vec F S10000x64 .f32) (y : S10000x64.Idx) :
    ∃ pc ∈ ([⟨r8_0, p0⟩] : List (View.Piece (Elt F) S10000x64 .f32)), y ∈ pc.1.set :=
  View.cover_of_tiled [⟨r8_0, p0⟩] S10000x64.size (by rfl) y

set_option maxHeartbeats 1000000 in
/-- The body on whole staging memrefs, the inputs' at contents `x…` and the output's at anything, runs to the
    continuation holding the inputs' as they were and the output's at `out8_5` of the inputs'. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of pipeline 8 on core `c`: the arrays as the region finds them; after the body at point `t` each
    input's buffer at its block and the output's at `out8_5` of the input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the core's
    `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Frame

end
-- ==== Proof.BitsRegion9.lean ====
/-
  Region 9 of the kernel's @main, the call of `cc9__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not: where it is not fetched
    its block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not: where it is not fetched
    its block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, fetched there or not: where it is not fetched
    its block index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S500x64 := Rect.unit (s := S500x64) ![0, 0] S500x64.size inb_S500x64_S500x64_0_0
abbrev r9_1 : Rect S64x6 := Rect.unit (s := S64x6) ![0, 0] S64x6.size inb_S64x6_S64x6_0_0
abbrev r9_2 : Rect S1x6 := Rect.unit (s := S1x6) ![0, 0] S1x6.size inb_S1x6_S1x6_0_0
abbrev r9_3 : Rect S500x6 := Rect.unit (s := S500x6) ![0, 0] S500x6.size inb_S500x6_S500x6_0_0

/-- The output window's staging buffer after the body, from the input windows' blocks: its one store. -/
def out9_3 (x0 : Vec F S500x64 .f32) (x1 : Vec F S64x6 .f32) (x2 : Vec F S1x6 .f32) : Vec F S500x6 .f32 :=
  View.canon [⟨r9_3, k9_pay1 (View.ld x0 r9_0) (View.ld x1 r9_1) (View.ld x2 r9_2)⟩]

/-- The store covers the whole buffer. -/
theorem cover9_3 (p0 : Vec F S500x6 .f32) (y : S500x6.Idx) :
    ∃ pc ∈ ([⟨r9_3, p0⟩] : List (View.Piece (Elt F) S500x6 .f32)), y ∈ pc.1.set :=
  View.cover_of_tiled [⟨r9_3, p0⟩] S500x6.size (by rfl) y

set_option maxHeartbeats 1000000 in
/-- The body on whole staging memrefs, the inputs' at contents `x…` and the output's at anything, runs to the
    continuation holding the inputs' as they were and the output's at `out9_3` of the inputs'. -/
theorem sound_kernel9 (c : Dev nD) (E : Set ℕ) (i : grid9.Coords) (arg1 : Memref sig .tc .vmem S500x64 .f32) (harg1 : arg1.IsWhole) (arg2 : Memref sig .tc .vmem S64x6 .f32) (harg2 : arg2.IsWhole) (arg3 : Memref sig .tc .vmem S1x6 .f32) (harg3 : arg3.IsWhole) (arg4 : Memref sig .tc .vmem S500x6 .f32) (harg4 : arg4.IsWhole)
    (x0 : Vec F S500x64 .f32) (x1 : Vec F S64x6 .f32) (x2 : Vec F S1x6 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__matmul_bias_kernel i arg1 harg1 arg2 harg2 arg3 harg3 arg4 harg4) K := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of pipeline 9 on core `c`: the arrays as the region finds them; after the body at point `t` each
    input's buffer at its block and the output's at `out9_3` of the input blocks; the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the triple applies; the invariant and the core's
    `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Frame

end
-- ==== Proof.BitsRun.lean ====
/-
  The run of @main: ten kernel regions among eleven stretches of host operations. The contents of every unscoped
  buffer at each boundary between two items, folded from the launch memory (a host stretch applies its operations; a
  region leaves its windows' arrays at what its write-backs make of them and every other buffer alone); the proof
  data of the ten pipelines, each at its region's entry contents; one segment per item; and the run — every weakly
  fair execution terminates, the result buffer ends at the last boundary's contents and every argument as launched.
-/
import proofs.«120485_j12249246728930_1_alg».proof.Proof.Gen.Kernel.Launch
import proofs.«120485_j12249246728930_1_alg».proof.Proof.Gen.Kernel.Skeleton
import proofs.«120485_j12249246728930_1_alg».proof.Proof.Gen.Kernel.Points
import proofs.«120485_j12249246728930_1_alg».proof.Proof.BitsRegion0
import proofs.«120485_j12249246728930_1_alg».proof.Proof.BitsStatsData1
import proofs.«120485_j12249246728930_1_alg».proof.Proof.BitsRegion2
import proofs.«120485_j12249246728930_1_alg».proof.Proof.BitsRegion3
import proofs.«120485_j12249246728930_1_alg».proof.Proof.BitsStatsData4
import proofs.«120485_j12249246728930_1_alg».proof.Proof.BitsRegion5
import proofs.«120485_j12249246728930_1_alg».proof.Proof.BitsRegion6
import proofs.«120485_j12249246728930_1_alg».proof.Proof.BitsStatsData7
import proofs.«120485_j12249246728930_1_alg».proof.Proof.BitsRegion8
import proofs.«120485_j12249246728930_1_alg».proof.Proof.BitsRegion9
import proofs.«120485_j12249246728930_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After host stretch 0: region 0's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h

/-- After host stretch 1: region 1's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
theorem B3_of (c : Dev nD) (r : Ref sig .tc) (h : r ∉ hostOps1_W) :
    B3 m ρ c (Proc.devRef .tc r) = B2 m ρ c (Proc.devRef .tc r) :=
  StableHlo.after_of_writes_sub hostOps1 _ hostOps1_writes h

/-- After host stretch 2: region 2's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
theorem B5_of (c : Dev nD) (r : Ref sig .tc) (h : r ∉ hostOps2_W) :
    B5 m ρ c (Proc.devRef .tc r) = B4 m ρ c (Proc.devRef .tc r) :=
  StableHlo.after_of_writes_sub hostOps2 _ hostOps2_writes h

/-- After host stretch 3: region 3's entry. -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)
theorem B7_of (c : Dev nD) (r : Ref sig .tc) (h : r ∉ hostOps3_W) :
    B7 m ρ c (Proc.devRef .tc r) = B6 m ρ c (Proc.devRef .tc r) :=
  StableHlo.after_of_writes_sub hostOps3 _ hostOps3_writes h

/-- After host stretch 4: region 4's entry. -/
abbrev B9 : Dev nD → Valuation τ sig (Elt F) := fun c => StableHlo.after hostOps4 (B8 m ρ c)
abbrev E9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem hF4 (c : Dev nD) (w : Fin cfg4.W) : (dat4 (E9 m ρ) c).arrAt w cfg4.N = E10 m ρ c (Pipeline.arrRef spec4 w) :=
  (B10_arr m ρ c w).symm
theorem hrest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)
theorem B9_of (c : Dev nD) (r : Ref sig .tc) (h : r ∉ hostOps4_W) :
    B9 m ρ c (Proc.devRef .tc r) = B8 m ρ c (Proc.devRef .tc r) :=
  StableHlo.after_of_writes_sub hostOps4 _ hostOps4_writes h

/-- After host stretch 5: region 5's entry. -/
abbrev B11 : Dev nD → Valuation τ sig (Elt F) := fun c => StableHlo.after hostOps5 (B10 m ρ c)
abbrev E11 : (c : Dev nD) → (b : Ref sig .tc) → Buf (Elt F) ((c : Thread nD τ).loc b) := fun c b => B11 m ρ c b
/-- At region 5's exit: its arrays at what the pipeline leaves, every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem hF5 (c : Dev nD) (w : Fin cfg5.W) : (dat5 (E11 m ρ) c).arrAt w cfg5.N = E12 m ρ c (Pipeline.arrRef spec5 w) :=
  (B12_arr m ρ c w).symm
theorem hrest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)
theorem B11_of (c : Dev nD) (r : Ref sig .tc) (h : r ∉ hostOps5_W) :
    B11 m ρ c (Proc.devRef .tc r) = B10 m ρ c (Proc.devRef .tc r) :=
  StableHlo.after_of_writes_sub hostOps5 _ hostOps5_writes h

/-- After host stretch 6: region 6's entry. -/
abbrev B13 : Dev nD → Valuation τ sig (Elt F) := fun c => StableHlo.after hostOps6 (B12 m ρ c)
abbrev E13 : (c : Dev nD) → (b : Ref sig .tc) → Buf (Elt F) ((c : Thread nD τ).loc b) := fun c b => B13 m ρ c b
/-- At region 6's exit: its arrays at what the pipeline leaves, every other buffer as entered. -/
def B14 (c : Dev nD) : Valuation τ sig (Elt F) :=
  Pipeline.withArrays spec6 c (B13 m ρ c) fun w => (dat6 (E13 m ρ) c).arrAt w cfg6.N
theorem B14_arr (c : Dev nD) (w : Fin cfg6.W) :
    B14 m ρ c (Proc.devRef .tc (Pipeline.arrRef spec6 w)) = (dat6 (E13 m ρ) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb
abbrev E14 : (c : Dev nD) → (b : Ref sig .tc) → Buf (Elt F) ((c : Thread nD τ).loc b) := fun c b => B14 m ρ c b
theorem hF6 (c : Dev nD) (w : Fin cfg6.W) : (dat6 (E13 m ρ) c).arrAt w cfg6.N = E14 m ρ c (Pipeline.arrRef spec6 w) :=
  (B14_arr m ρ c w).symm
theorem hrest6 (c : Dev nD) : ∀ b, b ∉ Finset.univ.image (Pipeline.arrRef spec6) → E14 m ρ c b = E13 m ρ c b :=
  fun b hb => B14_of_ne m ρ c b fun w e => hb (Finset.mem_image.mpr ⟨w, Finset.mem_univ _, e⟩)
theorem B13_of (c : Dev nD) (r : Ref sig .tc) (h : r ∉ hostOps6_W) :
    B13 m ρ c (Proc.devRef .tc r) = B12 m ρ c (Proc.devRef .tc r) :=
  StableHlo.after_of_writes_sub hostOps6 _ hostOps6_writes h

/-- After host stretch 7: region 7's entry. -/
abbrev B15 : Dev nD → Valuation τ sig (Elt F) := fun c => StableHlo.after hostOps7 (B14 m ρ c)
abbrev E15 : (c : Dev nD) → (b : Ref sig .tc) → Buf (Elt F) ((c : Thread nD τ).loc b) := fun c b => B15 m ρ c b
/-- At region 7's exit: its arrays at what the pipeline leaves, every other buffer as entered. -/
def B16 (c : Dev nD) : Valuation τ sig (Elt F) :=
  Pipeline.withArrays spec7 c (B15 m ρ c) fun w => (dat7 (E15 m ρ) c).arrAt w cfg7.N
theorem B16_arr (c : Dev nD) (w : Fin cfg7.W) :
    B16 m ρ c (Proc.devRef .tc (Pipeline.arrRef spec7 w)) = (dat7 (E15 m ρ) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb
abbrev E16 : (c : Dev nD) → (b : Ref sig .tc) → Buf (Elt F) ((c : Thread nD τ).loc b) := fun c b => B16 m ρ c b
theorem hF7 (c : Dev nD) (w : Fin cfg7.W) : (dat7 (E15 m ρ) c).arrAt w cfg7.N = E16 m ρ c (Pipeline.arrRef spec7 w) :=
  (B16_arr m ρ c w).symm
theorem hrest7 (c : Dev nD) : ∀ b, b ∉ Finset.univ.image (Pipeline.arrRef spec7) → E16 m ρ c b = E15 m ρ c b :=
  fun b hb => B16_of_ne m ρ c b fun w e => hb (Finset.mem_image.mpr ⟨w, Finset.mem_univ _, e⟩)
theorem B15_of (c : Dev nD) (r : Ref sig .tc) (h : r ∉ hostOps7_W) :
    B15 m ρ c (Proc.devRef .tc r) = B14 m ρ c (Proc.devRef .tc r) :=
  StableHlo.after_of_writes_sub hostOps7 _ hostOps7_writes h

/-- After host stretch 8: region 8's entry. -/
abbrev B17 : Dev nD → Valuation τ sig (Elt F) := fun c => StableHlo.after hostOps8 (B16 m ρ c)
abbrev E17 : (c : Dev nD) → (b : Ref sig .tc) → Buf (Elt F) ((c : Thread nD τ).loc b) := fun c b => B17 m ρ c b
/-- At region 8's exit: its arrays at what the pipeline leaves, every other buffer as entered. -/
def B18 (c : Dev nD) : Valuation τ sig (Elt F) :=
  Pipeline.withArrays spec8 c (B17 m ρ c) fun w => (dat8 (E17 m ρ) c).arrAt w cfg8.N
theorem B18_arr (c : Dev nD) (w : Fin cfg8.W) :
    B18 m ρ c (Proc.devRef .tc (Pipeline.arrRef spec8 w)) = (dat8 (E17 m ρ) c).arrAt w cfg8.N := by
  unfold B18; exact Pipeline.withArrays_arr spec8 launch8.win.arr_inj c _ _ w
theorem B18_of_ne (c : Dev nD) (b : Ref sig .tc) (hb : ∀ w, Pipeline.arrRef spec8 w ≠ b) :
    B18 m ρ c (Proc.devRef .tc b) = B17 m ρ c (Proc.devRef .tc b) := by
  unfold B18; exact Pipeline.withArrays_of_ne spec8 c _ _ b hb
abbrev E18 : (c : Dev nD) → (b : Ref sig .tc) → Buf (Elt F) ((c : Thread nD τ).loc b) := fun c b => B18 m ρ c b
theorem hF8 (c : Dev nD) (w : Fin cfg8.W) : (dat8 (E17 m ρ) c).arrAt w cfg8.N = E18 m ρ c (Pipeline.arrRef spec8 w) :=
  (B18_arr m ρ c w).symm
theorem hrest8 (c : Dev nD) : ∀ b, b ∉ Finset.univ.image (Pipeline.arrRef spec8) → E18 m ρ c b = E17 m ρ c b :=
  fun b hb => B18_of_ne m ρ c b fun w e => hb (Finset.mem_image.mpr ⟨w, Finset.mem_univ _, e⟩)
theorem B17_of (c : Dev nD) (r : Ref sig .tc) (h : r ∉ hostOps8_W) :
    B17 m ρ c (Proc.devRef .tc r) = B16 m ρ c (Proc.devRef .tc r) :=
  StableHlo.after_of_writes_sub hostOps8 _ hostOps8_writes h

/-- After host stretch 9: region 9's entry. -/
abbrev B19 : Dev nD → Valuation τ sig (Elt F) := fun c => StableHlo.after hostOps9 (B18 m ρ c)
abbrev E19 : (c : Dev nD) → (b : Ref sig .tc) → Buf (Elt F) ((c : Thread nD τ).loc b) := fun c b => B19 m ρ c b
/-- At region 9's exit: its arrays at what the pipeline leaves, every other buffer as entered. -/
def B20 (c : Dev nD) : Valuation τ sig (Elt F) :=
  Pipeline.withArrays spec9 c (B19 m ρ c) fun w => (dat9 (E19 m ρ) c).arrAt w cfg9.N
theorem B20_arr (c : Dev nD) (w : Fin cfg9.W) :
    B20 m ρ c (Proc.devRef .tc (Pipeline.arrRef spec9 w)) = (dat9 (E19 m ρ) c).arrAt w cfg9.N := by
  unfold B20; exact Pipeline.withArrays_arr spec9 launch9.win.arr_inj c _ _ w
theorem B20_of_ne (c : Dev nD) (b : Ref sig .tc) (hb : ∀ w, Pipeline.arrRef spec9 w ≠ b) :
    B20 m ρ c (Proc.devRef .tc b) = B19 m ρ c (Proc.devRef .tc b) := by
  unfold B20; exact Pipeline.withArrays_of_ne spec9 c _ _ b hb
abbrev E20 : (c : Dev nD) → (b : Ref sig .tc) → Buf (Elt F) ((c : Thread nD τ).loc b) := fun c b => B20 m ρ c b
theorem hF9 (c : Dev nD) (w : Fin cfg9.W) : (dat9 (E19 m ρ) c).arrAt w cfg9.N = E20 m ρ c (Pipeline.arrRef spec9 w) :=
  (B20_arr m ρ c w).symm
theorem hrest9 (c : Dev nD) : ∀ b, b ∉ Finset.univ.image (Pipeline.arrRef spec9) → E20 m ρ c b = E19 m ρ c b :=
  fun b hb => B20_of_ne m ρ c b fun w e => hb (Finset.mem_image.mpr ⟨w, Finset.mem_univ _, e⟩)
theorem B19_of (c : Dev nD) (r : Ref sig .tc) (h : r ∉ hostOps9_W) :
    B19 m ρ c (Proc.devRef .tc r) = B18 m ρ c (Proc.devRef .tc r) :=
  StableHlo.after_of_writes_sub hostOps9 _ hostOps9_writes h

/-! ## Every argument ends as launched: no host operation writes one, and a region that reads one reads it through an input window -/

theorem B20_main_arg0 (c : Dev nD) : B20 m ρ c (Proc.devRef .tc main_arg0) = m ((c : Thread nD τ).loc main_arg0) :=
  (B20_of_ne m ρ c main_arg0 (by decide)).trans <|
    (B19_of m ρ c main_arg0 (by decide)).trans <|
    (B18_of_ne m ρ c main_arg0 (by decide)).trans <|
    (B17_of m ρ c main_arg0 (by decide)).trans <|
    (B16_of_ne m ρ c main_arg0 (by decide)).trans <|
    (B15_of m ρ c main_arg0 (by decide)).trans <|
    (B14_of_ne m ρ c main_arg0 (by decide)).trans <|
    (B13_of m ρ c main_arg0 (by decide)).trans <|
    (B12_of_ne m ρ c main_arg0 (by decide)).trans <|
    (B11_of m ρ c main_arg0 (by decide)).trans <|
    (B10_of_ne m ρ c main_arg0 (by decide)).trans <|
    (B9_of m ρ c main_arg0 (by decide)).trans <|
    (B8_of_ne m ρ c main_arg0 (by decide)).trans <|
    (B7_of m ρ c main_arg0 (by decide)).trans <|
    (B6_of_ne m ρ c main_arg0 (by decide)).trans <|
    (B5_of m ρ c main_arg0 (by decide)).trans <|
    (B4_of_ne m ρ c main_arg0 (by decide)).trans <|
    (B3_of m ρ c main_arg0 (by decide)).trans <|
    ((B2_arr m ρ c 0).trans (((dat0 (E1 m ρ) c).arrAt_in 0 rfl _).trans (A_eq0 (E1 m ρ) c 0))).trans <|
    (B1_of m ρ c main_arg0 (by decide)).trans <| rfl
theorem B20_main_arg1 (c : Dev nD) : B20 m ρ c (Proc.devRef .tc main_arg1) = m ((c : Thread nD τ).loc main_arg1) :=
  (B20_of_ne m ρ c main_arg1 (by decide)).trans <|
    (B19_of m ρ c main_arg1 (by decide)).trans <|
    (B18_of_ne m ρ c main_arg1 (by decide)).trans <|
    (B17_of m ρ c main_arg1 (by decide)).trans <|
    (B16_of_ne m ρ c main_arg1 (by decide)).trans <|
    (B15_of m ρ c main_arg1 (by decide)).trans <|
    (B14_of_ne m ρ c main_arg1 (by decide)).trans <|
    (B13_of m ρ c main_arg1 (by decide)).trans <|
    (B12_of_ne m ρ c main_arg1 (by decide)).trans <|
    (B11_of m ρ c main_arg1 (by decide)).trans <|
    (B10_of_ne m ρ c main_arg1 (by decide)).trans <|
    (B9_of m ρ c main_arg1 (by decide)).trans <|
    (B8_of_ne m ρ c main_arg1 (by decide)).trans <|
    (B7_of m ρ c main_arg1 (by decide)).trans <|
    (B6_of_ne m ρ c main_arg1 (by decide)).trans <|
    (B5_of m ρ c main_arg1 (by decide)).trans <|
    (B4_of_ne m ρ c main_arg1 (by decide)).trans <|
    (B3_of m ρ c main_arg1 (by decide)).trans <|
    (B2_of_ne m ρ c main_arg1 (by decide)).trans <|
    (B1_of m ρ c main_arg1 (by decide)).trans <| rfl
theorem B20_main_arg2 (c : Dev nD) : B20 m ρ c (Proc.devRef .tc main_arg2) = m ((c : Thread nD τ).loc main_arg2) :=
  (B20_of_ne m ρ c main_arg2 (by decide)).trans <|
    (B19_of m ρ c main_arg2 (by decide)).trans <|
    (B18_of_ne m ρ c main_arg2 (by decide)).trans <|
    (B17_of m ρ c main_arg2 (by decide)).trans <|
    (B16_of_ne m ρ c main_arg2 (by decide)).trans <|
    (B15_of m ρ c main_arg2 (by decide)).trans <|
    (B14_of_ne m ρ c main_arg2 (by decide)).trans <|
    (B13_of m ρ c main_arg2 (by decide)).trans <|
    (B12_of_ne m ρ c main_arg2 (by decide)).trans <|
    (B11_of m ρ c main_arg2 (by decide)).trans <|
    (B10_of_ne m ρ c main_arg2 (by decide)).trans <|
    (B9_of m ρ c main_arg2 (by decide)).trans <|
    (B8_of_ne m ρ c main_arg2 (by decide)).trans <|
    (B7_of m ρ c main_arg2 (by decide)).trans <|
    (B6_of_ne m ρ c main_arg2 (by decide)).trans <|
    (B5_of m ρ c main_arg2 (by decide)).trans <|
    (B4_of_ne m ρ c main_arg2 (by decide)).trans <|
    (B3_of m ρ c main_arg2 (by decide)).trans <|
    (B2_of_ne m ρ c main_arg2 (by decide)).trans <|
    (B1_of m ρ c main_arg2 (by decide)).trans <| rfl
theorem B20_main_arg3 (c : Dev nD) : B20 m ρ c (Proc.devRef .tc main_arg3) = m ((c : Thread nD τ).loc main_arg3) :=
  (B20_of_ne m ρ c main_arg3 (by decide)).trans <|
    (B19_of m ρ c main_arg3 (by decide)).trans <|
    (B18_of_ne m ρ c main_arg3 (by decide)).trans <|
    (B17_of m ρ c main_arg3 (by decide)).trans <|
    (B16_of_ne m ρ c main_arg3 (by decide)).trans <|
    (B15_of m ρ c main_arg3 (by decide)).trans <|
    (B14_of_ne m ρ c main_arg3 (by decide)).trans <|
    (B13_of m ρ c main_arg3 (by decide)).trans <|
    (B12_of_ne m ρ c main_arg3 (by decide)).trans <|
    (B11_of m ρ c main_arg3 (by decide)).trans <|
    (B10_of_ne m ρ c main_arg3 (by decide)).trans <|
    (B9_of m ρ c main_arg3 (by decide)).trans <|
    (B8_of_ne m ρ c main_arg3 (by decide)).trans <|
    (B7_of m ρ c main_arg3 (by decide)).trans <|
    (B6_of_ne m ρ c main_arg3 (by decide)).trans <|
    (B5_of m ρ c main_arg3 (by decide)).trans <|
    (B4_of_ne m ρ c main_arg3 (by decide)).trans <|
    (B3_of m ρ c main_arg3 (by decide)).trans <|
    ((B2_arr m ρ c 1).trans (((dat0 (E1 m ρ) c).arrAt_in 1 rfl _).trans (A_eq0 (E1 m ρ) c 1))).trans <|
    (B1_of m ρ c main_arg3 (by decide)).trans <| rfl
theorem B20_main_arg4 (c : Dev nD) : B20 m ρ c (Proc.devRef .tc main_arg4) = m ((c : Thread nD τ).loc main_arg4) :=
  (B20_of_ne m ρ c main_arg4 (by decide)).trans <|
    (B19_of m ρ c main_arg4 (by decide)).trans <|
    (B18_of_ne m ρ c main_arg4 (by decide)).trans <|
    (B17_of m ρ c main_arg4 (by decide)).trans <|
    (B16_of_ne m ρ c main_arg4 (by decide)).trans <|
    (B15_of m ρ c main_arg4 (by decide)).trans <|
    (B14_of_ne m ρ c main_arg4 (by decide)).trans <|
    (B13_of m ρ c main_arg4 (by decide)).trans <|
    (B12_of_ne m ρ c main_arg4 (by decide)).trans <|
    (B11_of m ρ c main_arg4 (by decide)).trans <|
    (B10_of_ne m ρ c main_arg4 (by decide)).trans <|
    (B9_of m ρ c main_arg4 (by decide)).trans <|
    (B8_of_ne m ρ c main_arg4 (by decide)).trans <|
    (B7_of m ρ c main_arg4 (by decide)).trans <|
    (B6_of_ne m ρ c main_arg4 (by decide)).trans <|
    (B5_of m ρ c main_arg4 (by decide)).trans <|
    (B4_of_ne m ρ c main_arg4 (by decide)).trans <|
    (B3_of m ρ c main_arg4 (by decide)).trans <|
    (B2_of_ne m ρ c main_arg4 (by decide)).trans <|
    (B1_of m ρ c main_arg4 (by decide)).trans <| rfl
theorem B20_main_arg5 (c : Dev nD) : B20 m ρ c (Proc.devRef .tc main_arg5) = m ((c : Thread nD τ).loc main_arg5) :=
  (B20_of_ne m ρ c main_arg5 (by decide)).trans <|
    (B19_of m ρ c main_arg5 (by decide)).trans <|
    (B18_of_ne m ρ c main_arg5 (by decide)).trans <|
    (B17_of m ρ c main_arg5 (by decide)).trans <|
    (B16_of_ne m ρ c main_arg5 (by decide)).trans <|
    (B15_of m ρ c main_arg5 (by decide)).trans <|
    (B14_of_ne m ρ c main_arg5 (by decide)).trans <|
    (B13_of m ρ c main_arg5 (by decide)).trans <|
    (B12_of_ne m ρ c main_arg5 (by decide)).trans <|
    (B11_of m ρ c main_arg5 (by decide)).trans <|
    (B10_of_ne m ρ c main_arg5 (by decide)).trans <|
    (B9_of m ρ c main_arg5 (by decide)).trans <|
    (B8_of_ne m ρ c main_arg5 (by decide)).trans <|
    (B7_of m ρ c main_arg5 (by decide)).trans <|
    (B6_of_ne m ρ c main_arg5 (by decide)).trans <|
    (B5_of m ρ c main_arg5 (by decide)).trans <|
    (B4_of_ne m ρ c main_arg5 (by decide)).trans <|
    (B3_of m ρ c main_arg5 (by decide)).trans <|
    (B2_of_ne m ρ c main_arg5 (by decide)).trans <|
    (B1_of m ρ c main_arg5 (by decide)).trans <| rfl
theorem B20_main_arg6 (c : Dev nD) : B20 m ρ c (Proc.devRef .tc main_arg6) = m ((c : Thread nD τ).loc main_arg6) :=
  (B20_of_ne m ρ c main_arg6 (by decide)).trans <|
    (B19_of m ρ c main_arg6 (by decide)).trans <|
    (B18_of_ne m ρ c main_arg6 (by decide)).trans <|
    (B17_of m ρ c main_arg6 (by decide)).trans <|
    (B16_of_ne m ρ c main_arg6 (by decide)).trans <|
    (B15_of m ρ c main_arg6 (by decide)).trans <|
    (B14_of_ne m ρ c main_arg6 (by decide)).trans <|
    (B13_of m ρ c main_arg6 (by decide)).trans <|
    (B12_of_ne m ρ c main_arg6 (by decide)).trans <|
    (B11_of m ρ c main_arg6 (by decide)).trans <|
    (B10_of_ne m ρ c main_arg6 (by decide)).trans <|
    (B9_of m ρ c main_arg6 (by decide)).trans <|
    (B8_of_ne m ρ c main_arg6 (by decide)).trans <|
    (B7_of m ρ c main_arg6 (by decide)).trans <|
    (B6_of_ne m ρ c main_arg6 (by decide)).trans <|
    (B5_of m ρ c main_arg6 (by decide)).trans <|
    (B4_of_ne m ρ c main_arg6 (by decide)).trans <|
    (B3_of m ρ c main_arg6 (by decide)).trans <|
    (B2_of_ne m ρ c main_arg6 (by decide)).trans <|
    (B1_of m ρ c main_arg6 (by decide)).trans <| rfl
theorem B20_main_arg7 (c : Dev nD) : B20 m ρ c (Proc.devRef .tc main_arg7) = m ((c : Thread nD τ).loc main_arg7) :=
  (B20_of_ne m ρ c main_arg7 (by decide)).trans <|
    (B19_of m ρ c main_arg7 (by decide)).trans <|
    (B18_of_ne m ρ c main_arg7 (by decide)).trans <|
    (B17_of m ρ c main_arg7 (by decide)).trans <|
    (B16_of_ne m ρ c main_arg7 (by decide)).trans <|
    (B15_of m ρ c main_arg7 (by decide)).trans <|
    (B14_of_ne m ρ c main_arg7 (by decide)).trans <|
    (B13_of m ρ c main_arg7 (by decide)).trans <|
    (B12_of_ne m ρ c main_arg7 (by decide)).trans <|
    (B11_of m ρ c main_arg7 (by decide)).trans <|
    (B10_of_ne m ρ c main_arg7 (by decide)).trans <|
    (B9_of m ρ c main_arg7 (by decide)).trans <|
    ((B8_arr m ρ c 1).trans (((dat3 (E7 m ρ) c).arrAt_in 1 rfl _).trans (A_eq3 (E7 m ρ) c 1))).trans <|
    (B7_of m ρ c main_arg7 (by decide)).trans <|
    (B6_of_ne m ρ c main_arg7 (by decide)).trans <|
    (B5_of m ρ c main_arg7 (by decide)).trans <|
    (B4_of_ne m ρ c main_arg7 (by decide)).trans <|
    (B3_of m ρ c main_arg7 (by decide)).trans <|
    (B2_of_ne m ρ c main_arg7 (by decide)).trans <|
    (B1_of m ρ c main_arg7 (by decide)).trans <| rfl
theorem B20_main_arg8 (c : Dev nD) : B20 m ρ c (Proc.devRef .tc main_arg8) = m ((c : Thread nD τ).loc main_arg8) :=
  (B20_of_ne m ρ c main_arg8 (by decide)).trans <|
    (B19_of m ρ c main_arg8 (by decide)).trans <|
    (B18_of_ne m ρ c main_arg8 (by decide)).trans <|
    (B17_of m ρ c main_arg8 (by decide)).trans <|
    (B16_of_ne m ρ c main_arg8 (by decide)).trans <|
    (B15_of m ρ c main_arg8 (by decide)).trans <|
    (B14_of_ne m ρ c main_arg8 (by decide)).trans <|
    (B13_of m ρ c main_arg8 (by decide)).trans <|
    (B12_of_ne m ρ c main_arg8 (by decide)).trans <|
    (B11_of m ρ c main_arg8 (by decide)).trans <|
    (B10_of_ne m ρ c main_arg8 (by decide)).trans <|
    (B9_of m ρ c main_arg8 (by decide)).trans <|
    (B8_of_ne m ρ c main_arg8 (by decide)).trans <|
    (B7_of m ρ c main_arg8 (by decide)).trans <|
    (B6_of_ne m ρ c main_arg8 (by decide)).trans <|
    (B5_of m ρ c main_arg8 (by decide)).trans <|
    (B4_of_ne m ρ c main_arg8 (by decide)).trans <|
    (B3_of m ρ c main_arg8 (by decide)).trans <|
    (B2_of_ne m ρ c main_arg8 (by decide)).trans <|
    (B1_of m ρ c main_arg8 (by decide)).trans <| rfl
theorem B20_main_arg9 (c : Dev nD) : B20 m ρ c (Proc.devRef .tc main_arg9) = m ((c : Thread nD τ).loc main_arg9) :=
  (B20_of_ne m ρ c main_arg9 (by decide)).trans <|
    (B19_of m ρ c main_arg9 (by decide)).trans <|
    (B18_of_ne m ρ c main_arg9 (by decide)).trans <|
    (B17_of m ρ c main_arg9 (by decide)).trans <|
    (B16_of_ne m ρ c main_arg9 (by decide)).trans <|
    (B15_of m ρ c main_arg9 (by decide)).trans <|
    (B14_of_ne m ρ c main_arg9 (by decide)).trans <|
    (B13_of m ρ c main_arg9 (by decide)).trans <|
    (B12_of_ne m ρ c main_arg9 (by decide)).trans <|
    (B11_of m ρ c main_arg9 (by decide)).trans <|
    (B10_of_ne m ρ c main_arg9 (by decide)).trans <|
    (B9_of m ρ c main_arg9 (by decide)).trans <|
    (B8_of_ne m ρ c main_arg9 (by decide)).trans <|
    (B7_of m ρ c main_arg9 (by decide)).trans <|
    (B6_of_ne m ρ c main_arg9 (by decide)).trans <|
    (B5_of m ρ c main_arg9 (by decide)).trans <|
    (B4_of_ne m ρ c main_arg9 (by decide)).trans <|
    (B3_of m ρ c main_arg9 (by decide)).trans <|
    (B2_of_ne m ρ c main_arg9 (by decide)).trans <|
    (B1_of m ρ c main_arg9 (by decide)).trans <| rfl
theorem B20_main_arg10 (c : Dev nD) : B20 m ρ c (Proc.devRef .tc main_arg10) = m ((c : Thread nD τ).loc main_arg10) :=
  (B20_of_ne m ρ c main_arg10 (by decide)).trans <|
    (B19_of m ρ c main_arg10 (by decide)).trans <|
    (B18_of_ne m ρ c main_arg10 (by decide)).trans <|
    (B17_of m ρ c main_arg10 (by decide)).trans <|
    (B16_of_ne m ρ c main_arg10 (by decide)).trans <|
    (B15_of m ρ c main_arg10 (by decide)).trans <|
    (B14_of_ne m ρ c main_arg10 (by decide)).trans <|
    (B13_of m ρ c main_arg10 (by decide)).trans <|
    (B12_of_ne m ρ c main_arg10 (by decide)).trans <|
    (B11_of m ρ c main_arg10 (by decide)).trans <|
    (B10_of_ne m ρ c main_arg10 (by decide)).trans <|
    (B9_of m ρ c main_arg10 (by decide)).trans <|
    (B8_of_ne m ρ c main_arg10 (by decide)).trans <|
    (B7_of m ρ c main_arg10 (by decide)).trans <|
    (B6_of_ne m ρ c main_arg10 (by decide)).trans <|
    (B5_of m ρ c main_arg10 (by decide)).trans <|
    (B4_of_ne m ρ c main_arg10 (by decide)).trans <|
    (B3_of m ρ c main_arg10 (by decide)).trans <|
    (B2_of_ne m ρ c main_arg10 (by decide)).trans <|
    (B1_of m ρ c main_arg10 (by decide)).trans <| rfl
theorem B20_main_arg11 (c : Dev nD) : B20 m ρ c (Proc.devRef .tc main_arg11) = m ((c : Thread nD τ).loc main_arg11) :=
  (B20_of_ne m ρ c main_arg11 (by decide)).trans <|
    (B19_of m ρ c main_arg11 (by decide)).trans <|
    (B18_of_ne m ρ c main_arg11 (by decide)).trans <|
    (B17_of m ρ c main_arg11 (by decide)).trans <|
    (B16_of_ne m ρ c main_arg11 (by decide)).trans <|
    (B15_of m ρ c main_arg11 (by decide)).trans <|
    ((B14_arr m ρ c 1).trans (((dat6 (E13 m ρ) c).arrAt_in 1 rfl _).trans (A_eq6 (E13 m ρ) c 1))).trans <|
    (B13_of m ρ c main_arg11 (by decide)).trans <|
    (B12_of_ne m ρ c main_arg11 (by decide)).trans <|
    (B11_of m ρ c main_arg11 (by decide)).trans <|
    (B10_of_ne m ρ c main_arg11 (by decide)).trans <|
    (B9_of m ρ c main_arg11 (by decide)).trans <|
    (B8_of_ne m ρ c main_arg11 (by decide)).trans <|
    (B7_of m ρ c main_arg11 (by decide)).trans <|
    (B6_of_ne m ρ c main_arg11 (by decide)).trans <|
    (B5_of m ρ c main_arg11 (by decide)).trans <|
    (B4_of_ne m ρ c main_arg11 (by decide)).trans <|
    (B3_of m ρ c main_arg11 (by decide)).trans <|
    (B2_of_ne m ρ c main_arg11 (by decide)).trans <|
    (B1_of m ρ c main_arg11 (by decide)).trans <| rfl
theorem B20_main_arg12 (c : Dev nD) : B20 m ρ c (Proc.devRef .tc main_arg12) = m ((c : Thread nD τ).loc main_arg12) :=
  (B20_of_ne m ρ c main_arg12 (by decide)).trans <|
    (B19_of m ρ c main_arg12 (by decide)).trans <|
    (B18_of_ne m ρ c main_arg12 (by decide)).trans <|
    (B17_of m ρ c main_arg12 (by decide)).trans <|
    (B16_of_ne m ρ c main_arg12 (by decide)).trans <|
    (B15_of m ρ c main_arg12 (by decide)).trans <|
    (B14_of_ne m ρ c main_arg12 (by decide)).trans <|
    (B13_of m ρ c main_arg12 (by decide)).trans <|
    (B12_of_ne m ρ c main_arg12 (by decide)).trans <|
    (B11_of m ρ c main_arg12 (by decide)).trans <|
    (B10_of_ne m ρ c main_arg12 (by decide)).trans <|
    (B9_of m ρ c main_arg12 (by decide)).trans <|
    (B8_of_ne m ρ c main_arg12 (by decide)).trans <|
    (B7_of m ρ c main_arg12 (by decide)).trans <|
    (B6_of_ne m ρ c main_arg12 (by decide)).trans <|
    (B5_of m ρ c main_arg12 (by decide)).trans <|
    (B4_of_ne m ρ c main_arg12 (by decide)).trans <|
    (B3_of m ρ c main_arg12 (by decide)).trans <|
    (B2_of_ne m ρ c main_arg12 (by decide)).trans <|
    (B1_of m ρ c main_arg12 (by decide)).trans <| rfl
theorem B20_main_arg13 (c : Dev nD) : B20 m ρ c (Proc.devRef .tc main_arg13) = m ((c : Thread nD τ).loc main_arg13) :=
  (B20_of_ne m ρ c main_arg13 (by decide)).trans <|
    (B19_of m ρ c main_arg13 (by decide)).trans <|
    (B18_of_ne m ρ c main_arg13 (by decide)).trans <|
    (B17_of m ρ c main_arg13 (by decide)).trans <|
    (B16_of_ne m ρ c main_arg13 (by decide)).trans <|
    (B15_of m ρ c main_arg13 (by decide)).trans <|
    (B14_of_ne m ρ c main_arg13 (by decide)).trans <|
    (B13_of m ρ c main_arg13 (by decide)).trans <|
    (B12_of_ne m ρ c main_arg13 (by decide)).trans <|
    (B11_of m ρ c main_arg13 (by decide)).trans <|
    (B10_of_ne m ρ c main_arg13 (by decide)).trans <|
    (B9_of m ρ c main_arg13 (by decide)).trans <|
    (B8_of_ne m ρ c main_arg13 (by decide)).trans <|
    (B7_of m ρ c main_arg13 (by decide)).trans <|
    (B6_of_ne m ρ c main_arg13 (by decide)).trans <|
    (B5_of m ρ c main_arg13 (by decide)).trans <|
    (B4_of_ne m ρ c main_arg13 (by decide)).trans <|
    (B3_of m ρ c main_arg13 (by decide)).trans <|
    (B2_of_ne m ρ c main_arg13 (by decide)).trans <|
    (B1_of m ρ c main_arg13 (by decide)).trans <| rfl
theorem B20_main_arg14 (c : Dev nD) : B20 m ρ c (Proc.devRef .tc main_arg14) = m ((c : Thread nD τ).loc main_arg14) :=
  (B20_of_ne m ρ c main_arg14 (by decide)).trans <|
    (B19_of m ρ c main_arg14 (by decide)).trans <|
    (B18_of_ne m ρ c main_arg14 (by decide)).trans <|
    (B17_of m ρ c main_arg14 (by decide)).trans <|
    (B16_of_ne m ρ c main_arg14 (by decide)).trans <|
    (B15_of m ρ c main_arg14 (by decide)).trans <|
    (B14_of_ne m ρ c main_arg14 (by decide)).trans <|
    (B13_of m ρ c main_arg14 (by decide)).trans <|
    (B12_of_ne m ρ c main_arg14 (by decide)).trans <|
    (B11_of m ρ c main_arg14 (by decide)).trans <|
    (B10_of_ne m ρ c main_arg14 (by decide)).trans <|
    (B9_of m ρ c main_arg14 (by decide)).trans <|
    (B8_of_ne m ρ c main_arg14 (by decide)).trans <|
    (B7_of m ρ c main_arg14 (by decide)).trans <|
    (B6_of_ne m ρ c main_arg14 (by decide)).trans <|
    (B5_of m ρ c main_arg14 (by decide)).trans <|
    (B4_of_ne m ρ c main_arg14 (by decide)).trans <|
    (B3_of m ρ c main_arg14 (by decide)).trans <|
    (B2_of_ne m ρ c main_arg14 (by decide)).trans <|
    (B1_of m ρ c main_arg14 (by decide)).trans <| rfl
theorem B20_main_arg15 (c : Dev nD) : B20 m ρ c (Proc.devRef .tc main_arg15) = m ((c : Thread nD τ).loc main_arg15) :=
  ((B20_arr m ρ c 1).trans (((dat9 (E19 m ρ) c).arrAt_in 1 rfl _).trans (A_eq9 (E19 m ρ) c 1))).trans <|
    (B19_of m ρ c main_arg15 (by decide)).trans <|
    (B18_of_ne m ρ c main_arg15 (by decide)).trans <|
    (B17_of m ρ c main_arg15 (by decide)).trans <|
    (B16_of_ne m ρ c main_arg15 (by decide)).trans <|
    (B15_of m ρ c main_arg15 (by decide)).trans <|
    (B14_of_ne m ρ c main_arg15 (by decide)).trans <|
    (B13_of m ρ c main_arg15 (by decide)).trans <|
    (B12_of_ne m ρ c main_arg15 (by decide)).trans <|
    (B11_of m ρ c main_arg15 (by decide)).trans <|
    (B10_of_ne m ρ c main_arg15 (by decide)).trans <|
    (B9_of m ρ c main_arg15 (by decide)).trans <|
    (B8_of_ne m ρ c main_arg15 (by decide)).trans <|
    (B7_of m ρ c main_arg15 (by decide)).trans <|
    (B6_of_ne m ρ c main_arg15 (by decide)).trans <|
    (B5_of m ρ c main_arg15 (by decide)).trans <|
    (B4_of_ne m ρ c main_arg15 (by decide)).trans <|
    (B3_of m ρ c main_arg15 (by decide)).trans <|
    (B2_of_ne m ρ c main_arg15 (by decide)).trans <|
    (B1_of m ρ c main_arg15 (by decide)).trans <| rfl
theorem B20_main_arg16 (c : Dev nD) : B20 m ρ c (Proc.devRef .tc main_arg16) = m ((c : Thread nD τ).loc main_arg16) :=
  (B20_of_ne m ρ c main_arg16 (by decide)).trans <|
    (B19_of m ρ c main_arg16 (by decide)).trans <|
    (B18_of_ne m ρ c main_arg16 (by decide)).trans <|
    (B17_of m ρ c main_arg16 (by decide)).trans <|
    (B16_of_ne m ρ c main_arg16 (by decide)).trans <|
    (B15_of m ρ c main_arg16 (by decide)).trans <|
    (B14_of_ne m ρ c main_arg16 (by decide)).trans <|
    (B13_of m ρ c main_arg16 (by decide)).trans <|
    (B12_of_ne m ρ c main_arg16 (by decide)).trans <|
    (B11_of m ρ c main_arg16 (by decide)).trans <|
    (B10_of_ne m ρ c main_arg16 (by decide)).trans <|
    (B9_of m ρ c main_arg16 (by decide)).trans <|
    (B8_of_ne m ρ c main_arg16 (by decide)).trans <|
    (B7_of m ρ c main_arg16 (by decide)).trans <|
    (B6_of_ne m ρ c main_arg16 (by decide)).trans <|
    (B5_of m ρ c main_arg16 (by decide)).trans <|
    (B4_of_ne m ρ c main_arg16 (by decide)).trans <|
    (B3_of m ρ c main_arg16 (by decide)).trans <|
    (B2_of_ne m ρ c main_arg16 (by decide)).trans <|
    (B1_of m ρ c main_arg16 (by decide)).trans <| rfl

/-! ## The proof data family and the thread state -/

abbrev padm : (p : Fin 10) → (pcfgs (F := F) p).Adm := fun p => (cfgs p).toPCfg_adm
/-- Every pipeline's proof data, each at its region's entry contents. -/
def pdats : (p : Fin 10) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
  | ⟨8, _⟩ => fun c => dat8 (E17 m ρ) c
  | ⟨9, _⟩ => fun c => dat9 (E19 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B20 m ρ c) ∗ ∃ r, prngReg c r)

/-! ## The regions as segments -/

set_option backward.isDefEq.respectTransparency.types false in
/-- Region 0 over the thread state: entered from every unscoped buffer at boundary 1's contents, left at boundary 2's. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary 4's. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φn1 (E3 m ρ) c 0 from rfl]; erw [scopedRest1_split]; unfold Φn1 rest1
    iintro ⟨Hp, -, ⟨⟨%f0, S0⟩, ⟨%f1, S1⟩⟩, Hr⟩
    isplitl [S0]; · iexists f0; rw [owns_whole]; iexact S0
    isplitl [S1]; · iexists f1; rw [owns_whole]; iexact S1
    isplitl [Hr]; · iexact Hr
    iexact Hp
  hout c := by
    rw [Pipeline.ownSems0_none, show (pdats m ρ 1 c).Φ (Fin.last _) = Φn1 (E3 m ρ) c (4 + 1) from rfl]; erw [scopedRest1_split]
    rw [show Φn1 (E3 m ρ) c (4 + 1) = iprop(owns (c : Thread nD τ) (Memref.whole cc1_scratch0) fullShare (sumAt1 (E3 m ρ) c 4) ∗ owns (c : Thread nD τ) (Memref.whole cc1_scratch1) fullShare (sqAt1 (E3 m ρ) c 4) ∗ rest1 (F := F) c) from rfl]
    unfold rest1
    rw [owns_whole, owns_whole]
    iintro ⟨S0, S1, Hr, Hp⟩
    isplitl [Hp]; · iexact Hp
    isplitr; · iempintro
    isplitl [S0 S1]
    · isplitl [S0]; · iexists _; iexact S0
      iexists _; iexact S1
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary 6's. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary 8's. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary 10's. -/
def reg4 : Pipeline.RegionSeg (pcfgs (F := F)) padm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ L lv 4 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Φn4 (E9 m ρ) c 0 from rfl]; erw [scopedRest4_split]; unfold Φn4 rest4
    iintro ⟨Hp, -, ⟨⟨%f0, S0⟩, ⟨%f1, S1⟩⟩, Hr⟩
    isplitl [S0]; · iexists f0; rw [owns_whole]; iexact S0
    isplitl [S1]; · iexists f1; rw [owns_whole]; iexact S1
    isplitl [Hr]; · iexact Hr
    iexact Hp
  hout c := by
    rw [Pipeline.ownSems0_none, show (pdats m ρ 4 c).Φ (Fin.last _) = Φn4 (E9 m ρ) c (4 + 1) from rfl]; erw [scopedRest4_split]
    rw [show Φn4 (E9 m ρ) c (4 + 1) = iprop(owns (c : Thread nD τ) (Memref.whole cc4_scratch0) fullShare (sumAt4 (E9 m ρ) c 4) ∗ owns (c : Thread nD τ) (Memref.whole cc4_scratch1) fullShare (sqAt4 (E9 m ρ) c 4) ∗ rest4 (F := F) c) from rfl]
    unfold rest4
    rw [owns_whole, owns_whole]
    iintro ⟨S0, S1, Hr, Hp⟩
    isplitl [Hp]; · iexact Hp
    isplitr; · iempintro
    isplitl [S0 S1]
    · isplitl [S0]; · iexists _; iexact S0
      iexists _; iexact S1
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (E9 m ρ c) (E10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 11's contents, left at boundary 12's. -/
def reg5 : Pipeline.RegionSeg (pcfgs (F := F)) padm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ L lv 5 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (E11 m ρ c) (E12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 13's contents, left at boundary 14's. -/
def reg6 : Pipeline.RegionSeg (pcfgs (F := F)) padm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ L lv 6 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) padm (pdats m ρ) launch6.win launch6.arr_whole c
      ((pdats m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) padm (Ix := Unit) (Name := ℕ) (U := UR sig nD τ) (Lvl := ℕ)
      launch6.win launch6.arr_whole c (pdats m ρ) ((pdats m ρ 6 c).share_full fun _ => rfl)
      (E13 m ρ c) (E14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at boundary 15's contents, left at boundary 16's. -/
def reg7 : Pipeline.RegionSeg (pcfgs (F := F)) padm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ L lv 7 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) padm (pdats m ρ) launch7.win launch7.arr_whole c
      ((pdats m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Φn7 (E15 m ρ) c 0 from rfl]; erw [scopedRest7_split]; unfold Φn7 rest7
    iintro ⟨Hp, -, ⟨⟨%f0, S0⟩, ⟨%f1, S1⟩⟩, Hr⟩
    isplitl [S0]; · iexists f0; rw [owns_whole]; iexact S0
    isplitl [S1]; · iexists f1; rw [owns_whole]; iexact S1
    isplitl [Hr]; · iexact Hr
    iexact Hp
  hout c := by
    rw [Pipeline.ownSems0_none, show (pdats m ρ 7 c).Φ (Fin.last _) = Φn7 (E15 m ρ) c (4 + 1) from rfl]; erw [scopedRest7_split]
    rw [show Φn7 (E15 m ρ) c (4 + 1) = iprop(owns (c : Thread nD τ) (Memref.whole cc7_scratch0) fullShare (sumAt7 (E15 m ρ) c 4) ∗ owns (c : Thread nD τ) (Memref.whole cc7_scratch1) fullShare (sqAt7 (E15 m ρ) c 4) ∗ rest7 (F := F) c) from rfl]
    unfold rest7
    rw [owns_whole, owns_whole]
    iintro ⟨S0, S1, Hr, Hp⟩
    isplitl [Hp]; · iexact Hp
    isplitr; · iempintro
    isplitl [S0 S1]
    · isplitl [S0]; · iexists _; iexact S0
      iexists _; iexact S1
    iexact Hr
  hexit c := by
    have hjoin := Pipeline.unscopedBufs_of_arrays (p := 7) (pcfgs (F := F)) padm (Ix := Unit) (Name := ℕ) (U := UR sig nD τ) (Lvl := ℕ)
      launch7.win launch7.arr_whole c (pdats m ρ) ((pdats m ρ 7 c).share_full fun _ => rfl)
      (E15 m ρ c) (E16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at boundary 17's contents, left at boundary 18's. -/
def reg8 : Pipeline.RegionSeg (pcfgs (F := F)) padm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E17 m ρ) c).loose
  hwaits := Pipeline.hwaits_of_owed_zero _ _ _ _ L lv 8 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec8 c (E17 m ρ c)
  hentry c := by
    rw [Pipeline.ownSems0_none]
    have hsplit := Pipeline.arrays_of_unscopedBufs (p := 8) (pcfgs (F := F)) padm (pdats m ρ) launch8.win launch8.arr_whole c
      ((pdats m ρ 8 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) padm (Ix := Unit) (Name := ℕ) (U := UR sig nD τ) (Lvl := ℕ)
      launch8.win launch8.arr_whole c (pdats m ρ) ((pdats m ρ 8 c).share_full fun _ => rfl)
      (E17 m ρ c) (E18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at boundary 19's contents, left at boundary 20's. -/
def reg9 : Pipeline.RegionSeg (pcfgs (F := F)) padm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E19 m ρ) c).loose
  hwaits := Pipeline.hwaits_of_owed_zero _ _ _ _ L lv 9 fun _ _ => rfl
  pre c := iprop(StableHlo.held (c : Thread nD τ) (Pipeline.ucRefs τ sig) (B19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (E19 m ρ c)
  hentry c := by
    rw [Pipeline.ownSems0_none]
    have hsplit := Pipeline.arrays_of_unscopedBufs (p := 9) (pcfgs (F := F)) padm (pdats m ρ) launch9.win launch9.arr_whole c
      ((pdats m ρ 9 c).share_full fun _ => rfl) (E19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) padm (Ix := Unit) (Name := ℕ) (U := UR sig nD τ) (Lvl := ℕ)
      launch9.win launch9.arr_whole c (pdats m ρ) ((pdats m ρ 9 c).share_full fun _ => rfl)
      (E19 m ρ c) (E20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev psegs : List (Pipeline.Seg (pcfgs (F := F)) padm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .region (reg7 m ρ),
    .host (hseg hostOps8 hostOps8_sub hostOps8_fresh (B16 m ρ)),
    .region (reg8 m ρ),
    .host (hseg hostOps9 hostOps9_sub hostOps9_fresh (B18 m ρ)),
    .region (reg9 m ρ) ]

set_option backward.isDefEq.respectTransparency.types false in
/-- THE RUN: from any memory with zero counters every weakly fair execution of @main terminates, nothing faulting; the
    result buffer ends at the last boundary's contents and every argument array as launched. -/
theorem run : θ_run defs (onTc (τ := τ) (main (F := F))) ⟨m, fun _ => 0, ρ⟩ (fun r => ∀ c : Dev nD,
      r.2.mem ((c.tc : Thread nD τ).loc main_v157) = E20 m ρ c main_v157
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) padm (pdats m ρ) () cellOf_inj emb₁ defs₀ 𝒱₀ L lv m ρ main (psegs m ρ)
    (fun c Q => by
      rewrite [main_chain c, Pipeline.Seg.run_eq_chain,
        show (psegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B20 m ρ c b)
    (hfin := fun c s' => by
      iintro ⟨⟨Hh, -⟩, HSI⟩
      unfold StableHlo.held
      imodintro
      iapply (pointsTo_read_all (Pipeline.ucRefs τ sig) (fun b => (((c : Thread nD τ)).1, b)) (B20 m ρ c) s')
      isplitl [Hh] <;> iassumption)
    (hQ := fun s h c =>
      ⟨h c _ (mem_uc main_v157 (by decide)),
       (h c _ (mem_uc main_arg0 (by decide))).trans (B20_main_arg0 m ρ c),
       (h c _ (mem_uc main_arg1 (by decide))).trans (B20_main_arg1 m ρ c),
       (h c _ (mem_uc main_arg2 (by decide))).trans (B20_main_arg2 m ρ c),
       (h c _ (mem_uc main_arg3 (by decide))).trans (B20_main_arg3 m ρ c),
       (h c _ (mem_uc main_arg4 (by decide))).trans (B20_main_arg4 m ρ c),
       (h c _ (mem_uc main_arg5 (by decide))).trans (B20_main_arg5 m ρ c),
       (h c _ (mem_uc main_arg6 (by decide))).trans (B20_main_arg6 m ρ c),
       (h c _ (mem_uc main_arg7 (by decide))).trans (B20_main_arg7 m ρ c),
       (h c _ (mem_uc main_arg8 (by decide))).trans (B20_main_arg8 m ρ c),
       (h c _ (mem_uc main_arg9 (by decide))).trans (B20_main_arg9 m ρ c),
       (h c _ (mem_uc main_arg10 (by decide))).trans (B20_main_arg10 m ρ c),
       (h c _ (mem_uc main_arg11 (by decide))).trans (B20_main_arg11 m ρ c),
       (h c _ (mem_uc main_arg12 (by decide))).trans (B20_main_arg12 m ρ c),
       (h c _ (mem_uc main_arg13 (by decide))).trans (B20_main_arg13 m ρ c),
       (h c _ (mem_uc main_arg14 (by decide))).trans (B20_main_arg14 m ρ c),
       (h c _ (mem_uc main_arg15 (by decide))).trans (B20_main_arg15 m ρ c),
       (h c _ (mem_uc main_arg16 (by decide))).trans (B20_main_arg16 m ρ c)⟩)

end Cert.Kernel.Frame

end
-- ==== Proof.IdealRegion0.lean ====
/-
  Region 0 of the idealized kernel's @main, the call of `cc0__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not: where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not: where it is not fetched
    its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not: where it is not fetched
    its block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- The output window's staging buffer after the body, from the input windows' blocks: its one store. -/
def out0_3 (x0 : Vec F S10000x64 .f32) (x1 : Vec F S64x64 .f32) (x2 : Vec F S1x64 .f32) : Vec F S10000x64 .f32 :=
  View.canon [⟨r0_0, k0_pay1 (View.ld x0 r0_0) (View.ld x1 r0_1) (View.ld x2 r0_2)⟩]

/-- The store covers the whole buffer. -/
theorem cover0_3 (p0 : Vec F S10000x64 .f32) (y : S10000x64.Idx) :
    ∃ pc ∈ ([⟨r0_0, p0⟩] : List (View.Piece (Elt F) S10000x64 .f32)), y ∈ pc.1.set :=
  View.cover_of_tiled [⟨r0_0, p0⟩] S10000x64.size (by rfl) y

set_option maxHeartbeats 1000000 in
/-- The body on whole staging memrefs, the inputs' at contents `x…` and the output's at anything, runs to the
    continuation holding the inputs' as they were and the output's at `out0_3` of the inputs'. -/
theorem sound_kernel0 (c : Dev nD) (E : Set ℕ) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IdealStats1.lean ====
/-
  Region 1 of @main, the call of `cc1__stats_kernel`: the column sums and the column sums of squares of a [50000, 64] array,
  accumulated block by block (five blocks of 10000 rows) in two [1, 64] scratch buffers that are zeroed at the first
  grid point and copied to the two output windows at the last one. Here: the body's Hoare triple in each of its three
  control cases (first point, a middle point, last point), the running sums after each point, the proof data of the
  pipeline — the invariant carries the scratch buffers at the running sums — and the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz1 : (![0, 0] : Fin 2 → Nat) = fun _ => 0 := funext fun a => by fin_cases a <;> rfl

/-- The body's two `scf.if` conditions, from the grid coordinates: the first point of the axis, and its last. -/
abbrev cond1_0 (i : grid1.Coords) : Prop := Scalar.cmpi .ne (Scalar.extui (Scalar.cmpi .eq (BitVec.ofNat 32 (i 0).val) 0#32)) 0#32 = 1#1
abbrev cond1_1 (i : grid1.Coords) : Prop := k1_cond2 i = 1#1

/-! ## The body's triple, case by case -/

set_option maxHeartbeats 1000000 in
/-- FIRST POINT (the first conditional taken, the last not): both scratch buffers, whatever they held, end at one
    accumulation step from zero; the input block and the two output buffers are as found. -/
theorem kernelRun1_A (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : cond1_0 i) (hc1 : ¬ cond1_1 i)
    (x0 : Vec F S10000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 (k1_pay1 (F := F))) ∗ owns (c : Thread nD τ) arg5 fullShare (k1_pay5 x0 (k1_pay2 (F := F)))) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  iexists _; isplitr
  swap; · iexact H4
  ipureintro
  sl_unfold_run_names
  simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]

set_option maxHeartbeats 1000000 in
/-- A MIDDLE POINT (neither conditional taken): each scratch buffer advances by one accumulation step. -/
theorem kernelRun1_B (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond1_0 i) (hc1 : ¬ cond1_1 i)
    (x0 : Vec F S10000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  iexists _; isplitr
  swap; · iexact H4
  ipureintro
  sl_unfold_run_names
  simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]

set_option maxHeartbeats 1000000 in
/-- LAST POINT (the first conditional not taken, the last taken): each scratch buffer advances by one step, and the two
    output buffers, whatever they held, end holding the two scratch buffers' final contents. -/
theorem kernelRun1_C (c : Dev nD) (E : Set ℕ) (i : grid1.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond1_0 i) (hc1 : cond1_1 i)
    (x0 : Vec F S10000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay4 x0 s0) ∗ owns (c : Thread nD τ) arg3 fullShare (k1_pay5 x0 s1)
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0 hf3 hf4
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  isplitl [H2]
  · iexists _; isplitr
    swap; · iexact H2
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  isplitl [H3]
  · iexists _; isplitr
    swap; · iexact H3
    ipureintro
    sl_unfold_run_names
    simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]
  iexists _; isplitr
  swap; · iexact H4
  ipureintro
  sl_unfold_run_names
  simp only [View.read_writes_cons_unit_zero (S := S1x64) _ _ hz1, View.readCov_cons_unit_zero (S := S1x64) _ hz1, View.readAt_writes_cons_unit_zero (S := S1x64) _ _ hz1, View.readAt_eq_ld, View.ld_unit_zero (S := S1x64) hz1, View.ld_unit_zero (S := S10000x64) hz1]

end Cert.KernelIdeal.Frame

end
-- ==== Proof.IdealStatsData1.lean ====
/-
  Region 1 of @main (the column sums and sums of squares accumulated over five blocks of rows), continued: the
  running sums after each grid point as functions of the array the region is entered with, the proof data of the
  pipeline — after the body the input window holds its block, the invariant holds the two scratch buffers at the running
  sums, and at the last point the two output windows hold the totals — and the body obligation, point by point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.LibWholeStore
import proofs.«120485_j12249246728930_1_alg».proof.Proof.IdealStats1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums: block k's column sums added to the sums of the blocks before it -/

def sum1_0 (c : Dev nD) : Vec F S1x64 .f32 := k1_pay4 (iblk1 V c 0 t1_0) (k1_pay1 (F := F))
def sum1_1 (c : Dev nD) : Vec F S1x64 .f32 := k1_pay4 (iblk1 V c 0 t1_1) (sum1_0 V c)
def sum1_2 (c : Dev nD) : Vec F S1x64 .f32 := k1_pay4 (iblk1 V c 0 t1_2) (sum1_1 V c)
def sum1_3 (c : Dev nD) : Vec F S1x64 .f32 := k1_pay4 (iblk1 V c 0 t1_3) (sum1_2 V c)
def sum1_4 (c : Dev nD) : Vec F S1x64 .f32 := k1_pay4 (iblk1 V c 0 t1_4) (sum1_3 V c)
def sq1_0 (c : Dev nD) : Vec F S1x64 .f32 := k1_pay5 (iblk1 V c 0 t1_0) (k1_pay2 (F := F))
def sq1_1 (c : Dev nD) : Vec F S1x64 .f32 := k1_pay5 (iblk1 V c 0 t1_1) (sq1_0 V c)
def sq1_2 (c : Dev nD) : Vec F S1x64 .f32 := k1_pay5 (iblk1 V c 0 t1_2) (sq1_1 V c)
def sq1_3 (c : Dev nD) : Vec F S1x64 .f32 := k1_pay5 (iblk1 V c 0 t1_3) (sq1_2 V c)
def sq1_4 (c : Dev nD) : Vec F S1x64 .f32 := k1_pay5 (iblk1 V c 0 t1_4) (sq1_3 V c)

/-- The running column sums after point `n` (the last point's beyond it). -/
def sumAt1 (c : Dev nD) : ℕ → Vec F S1x64 .f32
  | 0 => sum1_0 V c | 1 => sum1_1 V c | 2 => sum1_2 V c | 3 => sum1_3 V c | _ => sum1_4 V c
/-- The running column sums of squares after point `n`. -/
def sqAt1 (c : Dev nD) : ℕ → Vec F S1x64 .f32
  | 0 => sq1_0 V c | 1 => sq1_1 V c | 2 => sq1_2 V c | 3 => sq1_3 V c | _ => sq1_4 V c

/-! ## The invariant and the proof data -/

/-- What the region never opens: every other scoped buffer, and the generator register. -/
def rest1 (c : Dev nD) : sProp 𝕄 :=
  iprop(Pipeline.scopedRestBut (Ix := Unit) (Name := ℕ) (U := UR sig nD τ) (Lvl := ℕ) (Val := Elt F) spec1 c [cc1_scratch0, cc1_scratch1] ∗ ∃ r, prngReg c r)

/-- Before the first point the two scratch buffers hold anything; after point `n` they hold the running sums. -/
def Φn1 (c : Dev nD) : ℕ → sProp 𝕄
  | 0 => iprop((∃ d, owns (c : Thread nD τ) (Memref.whole cc1_scratch0) fullShare d) ∗ (∃ d, owns (c : Thread nD τ) (Memref.whole cc1_scratch1) fullShare d) ∗ rest1 (F := F) c)
  | n + 1 => iprop(owns (c : Thread nD τ) (Memref.whole cc1_scratch0) fullShare (sumAt1 V c n) ∗ owns (c : Thread nD τ) (Memref.whole cc1_scratch1) fullShare (sqAt1 V c n) ∗ rest1 (F := F) c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => sumAt1 V c t.val
    | ⟨2, _⟩ => sqAt1 V c t.val
  Φ j := Φn1 V c j.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = sumAt1 V c t.val := by dsimp only [dat1]
theorem after1_2 (c : Dev nD) (t : Fin cfg1.N) : (dat1 V c).after 2 t = sqAt1 V c t.val := by dsimp only [dat1]
theorem before1_0 (c : Dev nD) (t : Fin cfg1.N) (d) : (dat1 V c).before 0 t d = iblk1 V c 0 t :=
  before1_0_of V (dat1 V c) (A_eq1 V c 0) (after1_0 V c) t d

/-- At a point not idle for a window the body leaves its buffer at the stated contents. -/
theorem leavesExact_live1 (c : Dev nD) (w : Fin cfg1.W) (t : Fin cfg1.N) (hi : cfg1.idle w (cfg1.grid.coords t) = false) :
    (dat1 V c).leavesExact w t = owns (c : Thread nD τ) ((cfg1.win w).stage (cfg1.slots t w)) fullShare ((dat1 V c).after w t) := by
  unfold Dat.leavesExact; rw [hi]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 1000000 in
theorem sound_body1_0 (c : Dev nD) :
    bodyPre1 V c t1_0 ⊢ wp frame (wpE (defs₀ (F := F)) Variants.none c none) Set.univ (bodyAt1 t1_0) (fun _ => bodyPost1 V c t1_0) := by
  unfold bodyPre1 bodyPost1 bodyAt1
  simp only [before1_0]
  rw [leavesExact_live1 V c 0 t1_0 (by decide +kernel), Dat.leavesExact_idle (dat1 V c) 1 t1_0 (by decide +kernel) (by decide +kernel), Dat.leavesExact_idle (dat1 V c) 2 t1_0 (by decide +kernel) (by decide +kernel)]
  rw [show (dat1 V c).Φ (t1_0 : Fin cfg1.N).castSucc = Φn1 V c 0 from rfl,
    show (dat1 V c).Φ (t1_0 : Fin cfg1.N).succ = Φn1 V c 1 from rfl,
    show (dat1 V c).owesAt () (t1_0 : Fin cfg1.N).succ = (dat1 V c).owesAt () (t1_0 : Fin cfg1.N).castSucc from rfl,
    after1_0]
  unfold Φn1
  iintro ⟨⟨S0, S1, Hr⟩, Ho, ⟨%d0, H0⟩, ⟨%d1, H1⟩, ⟨%d2, H2⟩⟩
  iapply (kernelRun1_A c Set.univ (grid1.coords t1_0) _ _ _ _ _ _ _ _ _ _ (by decide +kernel : cond1_0 (grid1.coords t1_0)) (by decide +kernel : ¬ cond1_1 (grid1.coords t1_0)) (iblk1 V c 0 t1_0) _ _ _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_1 (c : Dev nD) :
    bodyPre1 V c t1_1 ⊢ wp frame (wpE (defs₀ (F := F)) Variants.none c none) Set.univ (bodyAt1 t1_1) (fun _ => bodyPost1 V c t1_1) := by
  unfold bodyPre1 bodyPost1 bodyAt1
  simp only [before1_0]
  rw [leavesExact_live1 V c 0 t1_1 (by decide +kernel), Dat.leavesExact_idle (dat1 V c) 1 t1_1 (by decide +kernel) (by decide +kernel), Dat.leavesExact_idle (dat1 V c) 2 t1_1 (by decide +kernel) (by decide +kernel)]
  rw [show (dat1 V c).Φ (t1_1 : Fin cfg1.N).castSucc = Φn1 V c 1 from rfl,
    show (dat1 V c).Φ (t1_1 : Fin cfg1.N).succ = Φn1 V c 2 from rfl,
    show (dat1 V c).owesAt () (t1_1 : Fin cfg1.N).succ = (dat1 V c).owesAt () (t1_1 : Fin cfg1.N).castSucc from rfl,
    after1_0]
  unfold Φn1
  iintro ⟨⟨S0, S1, Hr⟩, Ho, ⟨%d0, H0⟩, ⟨%d1, H1⟩, ⟨%d2, H2⟩⟩
  iapply (kernelRun1_B c Set.univ (grid1.coords t1_1) _ _ _ _ _ _ _ _ _ _ (by decide +kernel : ¬ cond1_0 (grid1.coords t1_1)) (by decide +kernel : ¬ cond1_1 (grid1.coords t1_1)) (iblk1 V c 0 t1_1) _ _ (sumAt1 V c 0) (sqAt1 V c 0) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_2 (c : Dev nD) :
    bodyPre1 V c t1_2 ⊢ wp frame (wpE (defs₀ (F := F)) Variants.none c none) Set.univ (bodyAt1 t1_2) (fun _ => bodyPost1 V c t1_2) := by
  unfold bodyPre1 bodyPost1 bodyAt1
  simp only [before1_0]
  rw [leavesExact_live1 V c 0 t1_2 (by decide +kernel), Dat.leavesExact_idle (dat1 V c) 1 t1_2 (by decide +kernel) (by decide +kernel), Dat.leavesExact_idle (dat1 V c) 2 t1_2 (by decide +kernel) (by decide +kernel)]
  rw [show (dat1 V c).Φ (t1_2 : Fin cfg1.N).castSucc = Φn1 V c 2 from rfl,
    show (dat1 V c).Φ (t1_2 : Fin cfg1.N).succ = Φn1 V c 3 from rfl,
    show (dat1 V c).owesAt () (t1_2 : Fin cfg1.N).succ = (dat1 V c).owesAt () (t1_2 : Fin cfg1.N).castSucc from rfl,
    after1_0]
  unfold Φn1
  iintro ⟨⟨S0, S1, Hr⟩, Ho, ⟨%d0, H0⟩, ⟨%d1, H1⟩, ⟨%d2, H2⟩⟩
  iapply (kernelRun1_B c Set.univ (grid1.coords t1_2) _ _ _ _ _ _ _ _ _ _ (by decide +kernel : ¬ cond1_0 (grid1.coords t1_2)) (by decide +kernel : ¬ cond1_1 (grid1.coords t1_2)) (iblk1 V c 0 t1_2) _ _ (sumAt1 V c 1) (sqAt1 V c 1) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_3 (c : Dev nD) :
    bodyPre1 V c t1_3 ⊢ wp frame (wpE (defs₀ (F := F)) Variants.none c none) Set.univ (bodyAt1 t1_3) (fun _ => bodyPost1 V c t1_3) := by
  unfold bodyPre1 bodyPost1 bodyAt1
  simp only [before1_0]
  rw [leavesExact_live1 V c 0 t1_3 (by decide +kernel), Dat.leavesExact_idle (dat1 V c) 1 t1_3 (by decide +kernel) (by decide +kernel), Dat.leavesExact_idle (dat1 V c) 2 t1_3 (by decide +kernel) (by decide +kernel)]
  rw [show (dat1 V c).Φ (t1_3 : Fin cfg1.N).castSucc = Φn1 V c 3 from rfl,
    show (dat1 V c).Φ (t1_3 : Fin cfg1.N).succ = Φn1 V c 4 from rfl,
    show (dat1 V c).owesAt () (t1_3 : Fin cfg1.N).succ = (dat1 V c).owesAt () (t1_3 : Fin cfg1.N).castSucc from rfl,
    after1_0]
  unfold Φn1
  iintro ⟨⟨S0, S1, Hr⟩, Ho, ⟨%d0, H0⟩, ⟨%d1, H1⟩, ⟨%d2, H2⟩⟩
  iapply (kernelRun1_B c Set.univ (grid1.coords t1_3) _ _ _ _ _ _ _ _ _ _ (by decide +kernel : ¬ cond1_0 (grid1.coords t1_3)) (by decide +kernel : ¬ cond1_1 (grid1.coords t1_3)) (iblk1 V c 0 t1_3) _ _ (sumAt1 V c 2) (sqAt1 V c 2) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body1_4 (c : Dev nD) :
    bodyPre1 V c t1_4 ⊢ wp frame (wpE (defs₀ (F := F)) Variants.none c none) Set.univ (bodyAt1 t1_4) (fun _ => bodyPost1 V c t1_4) := by
  unfold bodyPre1 bodyPost1 bodyAt1
  simp only [before1_0]
  rw [leavesExact_live1 V c 0 t1_4 (by decide +kernel), leavesExact_live1 V c 1 t1_4 (by decide +kernel), leavesExact_live1 V c 2 t1_4 (by decide +kernel)]
  rw [show (dat1 V c).Φ (t1_4 : Fin cfg1.N).castSucc = Φn1 V c 4 from rfl,
    show (dat1 V c).Φ (t1_4 : Fin cfg1.N).succ = Φn1 V c 5 from rfl,
    show (dat1 V c).owesAt () (t1_4 : Fin cfg1.N).succ = (dat1 V c).owesAt () (t1_4 : Fin cfg1.N).castSucc from rfl,
    after1_0, after1_1, after1_2]
  unfold Φn1
  iintro ⟨⟨S0, S1, Hr⟩, Ho, ⟨%d0, H0⟩, ⟨%d1, H1⟩, ⟨%d2, H2⟩⟩
  iapply (kernelRun1_C c Set.univ (grid1.coords t1_4) _ _ _ _ _ _ _ _ _ _ (by decide +kernel : ¬ cond1_0 (grid1.coords t1_4)) (by decide +kernel : cond1_1 (grid1.coords t1_4)) (iblk1 V c 0 t1_4) (sumAt1 V c 3) (sqAt1 V c 3) _)
  isplitl [H0]; · iexact H0
  isplitl [H1]; · iexists _; iexact H1
  isplitl [H2]; · iexists _; iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  rcases fin_N1 t with rfl | rfl | rfl | rfl | rfl
  · exact sound_body1_0 V c
  · exact sound_body1_1 V c
  · exact sound_body1_2 V c
  · exact sound_body1_3 V c
  · exact sound_body1_4 V c

end Cert.KernelIdeal.Frame

end
-- ==== Proof.IdealRegion2.lean ====
/-
  Region 2 of the idealized kernel's @main, the call of `cc2__bn_relu_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not: where it is not fetched
    its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not: where it is not fetched
    its block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not: where it is not fetched
    its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not: where it is not fetched
    its block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not: where it is not fetched
    its block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S1x64 := Rect.unit (s := S1x64) ![0, 0] S1x64.size inb_S1x64_S1x64_0_0

/-- The output window's staging buffer after the body, from the input windows' blocks: its one store. -/
def out2_5 (x0 : Vec F S10000x64 .f32) (x1 : Vec F S1x64 .f32) (x2 : Vec F S1x64 .f32) (x3 : Vec F S1x64 .f32) (x4 : Vec F S1x64 .f32) : Vec F S10000x64 .f32 :=
  View.canon [⟨r2_0, k2_pay1 (View.ld x0 r2_0) (View.ld x1 r2_1) (View.ld x2 r2_1) (View.ld x3 r2_1) (View.ld x4 r2_1)⟩]

/-- The store covers the whole buffer. -/
theorem cover2_5 (p0 : Vec F S10000x64 .f32) (y : S10000x64.Idx) :
    ∃ pc ∈ ([⟨r2_0, p0⟩] : List (View.Piece (Elt F) S10000x64 .f32)), y ∈ pc.1.set :=
  View.cover_of_tiled [⟨r2_0, p0⟩] S10000x64.size (by rfl) y

set_option maxHeartbeats 1000000 in
/-- The body on whole staging memrefs, the inputs' at contents `x…` and the output's at anything, runs to the
    continuation holding the inputs' as they were and the output's at `out2_5` of the inputs'. -/
theorem sound_kernel2 (c : Dev nD) (E : Set ℕ) (i : grid2.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at `out2_5` of the input blocks; the scoped rest and the generator
    register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.IdealRegion3.lean ====
/-
  Region 3 of the idealized kernel's @main, the call of `cc3__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, fetched there or not: where it is not fetched
    its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, fetched there or not: where it is not fetched
    its block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, fetched there or not: where it is not fetched
    its block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S10000x64 := Rect.unit (s := S10000x64) ![0, 0] S10000x64.size inb_S10000x64_S10000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-- The output window's staging buffer after the body, from the input windows' blocks: its one store. -/
def out3_3 (x0 : Vec F S10000x64 .f32) (x1 : Vec F S64x64 .f32) (x2 : Vec F S1x64 .f32) : Vec F S10000x64 .f32 :=
  View.canon [⟨r3_0, k3_pay1 (View.ld x0 r3_0) (View.ld x1 r3_1) (View.ld x2 r3_2)⟩]

/-- The store covers the whole buffer. -/
theorem cover3_3 (p0 : Vec F S10000x64 .f32) (y : S10000x64.Idx) :
    ∃ pc ∈ ([⟨r3_0, p0⟩] : List (View.Piece (Elt F) S10000x64 .f32)), y ∈ pc.1.set :=
  View.cover_of_tiled [⟨r3_0, p0⟩] S10000x64.size (by rfl) y

set_option maxHeartbeats 1000000 in
/-- The body on whole staging memrefs, the inputs' at contents `x…` and the output's at anything, runs to the
    continuation holding the inputs' as they were and the output's at `out3_3` of the inputs'. -/
theorem sound_kernel3 (c : Dev nD) (E : Set ℕ) (i : grid3.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_bias_kernel i arg1 harg1 arg2 harg2 arg3 harg3 arg4 harg4) K := by
  simp only [cc3__matmul_bias_kernel_eq_skeleton]; unfold cc3__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of pipeline 3 on core `c`: the arrays as the region finds them; after the body at point `t` each
    input's buffer at its block and the output's at `out3_3` of the input blocks; the scoped rest and the generator
    register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the triple applies; the invariant and the core's
    `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.IdealStats4.lean ====
/-
  Region 4 of @main, the call of `cc4__stats_kernel`: the column sums and the column sums of squares of a [50000, 64] array,
  accumulated block by block (five blocks of 10000 rows) in two [1, 64] scratch buffers that are zeroed at the first
  grid point and copied to the two output windows at the last one. Here: the body's Hoare triple in each of its three
  control cases (first point, a middle point, last point), the running sums after each point, the proof data of the
  pipeline — the invariant carries the scratch buffers at the running sums — and the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz4 : (![0, 0] : Fin 2 → Nat) = fun _ => 0 := funext fun a => by fin_cases a <;> rfl

/-- The body's two `scf.if` conditions, from the grid coordinates: the first point of the axis, and its last. -/
abbrev cond4_0 (i : grid4.Coords) : Prop := Scalar.cmpi .ne (Scalar.extui (Scalar.cmpi .eq (BitVec.ofNat 32 (i 0).val) 0#32)) 0#32 = 1#1
abbrev cond4_1 (i : grid4.Coords) : Prop := k4_cond2 i = 1#1

/-! ## The body's triple, case by case -/

set_option maxHeartbeats 1000000 in
/-- FIRST POINT (the first conditional taken, the last not): both scratch buffers, whatever they held, end at one
    accumulation step from zero; the input block and the two output buffers are as found. -/
theorem kernelRun4_A (c : Dev nD) (E : Set ℕ) (i : grid4.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : cond4_0 i) (hc1 : ¬ cond4_1 i)
    (x0 : Vec F S10000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 (k4_pay1 (F := F))) ∗ owns (c : Thread nD τ) arg5 fullShare (k4_pay5 x0 (k4_pay2 (F := F)))) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  iexists _; isplitr
  swap; · iexact H4
  ipureintro
  sl_unfold_run_names
  simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]

set_option maxHeartbeats 1000000 in
/-- A MIDDLE POINT (neither conditional taken): each scratch buffer advances by one accumulation step. -/
theorem kernelRun4_B (c : Dev nD) (E : Set ℕ) (i : grid4.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond4_0 i) (hc1 : ¬ cond4_1 i)
    (x0 : Vec F S10000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  iexists _; isplitr
  swap; · iexact H4
  ipureintro
  sl_unfold_run_names
  simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]

set_option maxHeartbeats 1000000 in
/-- LAST POINT (the first conditional not taken, the last taken): each scratch buffer advances by one step, and the two
    output buffers, whatever they held, end holding the two scratch buffers' final contents. -/
theorem kernelRun4_C (c : Dev nD) (E : Set ℕ) (i : grid4.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond4_0 i) (hc1 : cond4_1 i)
    (x0 : Vec F S10000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k4_pay4 x0 s0) ∗ owns (c : Thread nD τ) arg3 fullShare (k4_pay5 x0 s1)
            ∗ owns (c : Thread nD τ) arg4 fullShare (k4_pay4 x0 s0) ∗ owns (c : Thread nD τ) arg5 fullShare (k4_pay5 x0 s1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0 hf3 hf4
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  isplitl [H2]
  · iexists _; isplitr
    swap; · iexact H2
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  isplitl [H3]
  · iexists _; isplitr
    swap; · iexact H3
    ipureintro
    sl_unfold_run_names
    simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]
  iexists _; isplitr
  swap; · iexact H4
  ipureintro
  sl_unfold_run_names
  simp only [View.read_writes_cons_unit_zero (S := S1x64) _ _ hz4, View.readCov_cons_unit_zero (S := S1x64) _ hz4, View.readAt_writes_cons_unit_zero (S := S1x64) _ _ hz4, View.readAt_eq_ld, View.ld_unit_zero (S := S1x64) hz4, View.ld_unit_zero (S := S10000x64) hz4]

end Cert.KernelIdeal.Frame

end
-- ==== Proof.IdealStatsData4.lean ====
/-
  Region 4 of @main (the column sums and sums of squares accumulated over five blocks of rows), continued: the
  running sums after each grid point as functions of the array the region is entered with, the proof data of the
  pipeline — after the body the input window holds its block, the invariant holds the two scratch buffers at the running
  sums, and at the last point the two output windows hold the totals — and the body obligation, point by point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.LibWholeStore
import proofs.«120485_j12249246728930_1_alg».proof.Proof.IdealStats4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The input window's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The running sums: block k's column sums added to the sums of the blocks before it -/

def sum4_0 (c : Dev nD) : Vec F S1x64 .f32 := k4_pay4 (iblk4 V c 0 t4_0) (k4_pay1 (F := F))
def sum4_1 (c : Dev nD) : Vec F S1x64 .f32 := k4_pay4 (iblk4 V c 0 t4_1) (sum4_0 V c)
def sum4_2 (c : Dev nD) : Vec F S1x64 .f32 := k4_pay4 (iblk4 V c 0 t4_2) (sum4_1 V c)
def sum4_3 (c : Dev nD) : Vec F S1x64 .f32 := k4_pay4 (iblk4 V c 0 t4_3) (sum4_2 V c)
def sum4_4 (c : Dev nD) : Vec F S1x64 .f32 := k4_pay4 (iblk4 V c 0 t4_4) (sum4_3 V c)
def sq4_0 (c : Dev nD) : Vec F S1x64 .f32 := k4_pay5 (iblk4 V c 0 t4_0) (k4_pay2 (F := F))
def sq4_1 (c : Dev nD) : Vec F S1x64 .f32 := k4_pay5 (iblk4 V c 0 t4_1) (sq4_0 V c)
def sq4_2 (c : Dev nD) : Vec F S1x64 .f32 := k4_pay5 (iblk4 V c 0 t4_2) (sq4_1 V c)
def sq4_3 (c : Dev nD) : Vec F S1x64 .f32 := k4_pay5 (iblk4 V c 0 t4_3) (sq4_2 V c)
def sq4_4 (c : Dev nD) : Vec F S1x64 .f32 := k4_pay5 (iblk4 V c 0 t4_4) (sq4_3 V c)

/-- The running column sums after point `n` (the last point's beyond it). -/
def sumAt4 (c : Dev nD) : ℕ → Vec F S1x64 .f32
  | 0 => sum4_0 V c | 1 => sum4_1 V c | 2 => sum4_2 V c | 3 => sum4_3 V c | _ => sum4_4 V c
/-- The running column sums of squares after point `n`. -/
def sqAt4 (c : Dev nD) : ℕ → Vec F S1x64 .f32
  | 0 => sq4_0 V c | 1 => sq4_1 V c | 2 => sq4_2 V c | 3 => sq4_3 V c | _ => sq4_4 V c

/-! ## The invariant and the proof data -/

/-- What the region never opens: every other scoped buffer, and the generator register. -/
def rest4 (c : Dev nD) : sProp 𝕄 :=
  iprop(Pipeline.scopedRestBut (Ix := Unit) (Name := ℕ) (U := UR sig nD τ) (Lvl := ℕ) (Val := Elt F) spec4 c [cc4_scratch0, cc4_scratch1] ∗ ∃ r, prngReg c r)

/-- Before the first point the two scratch buffers hold anything; after point `n` they hold the running sums. -/
def Φn4 (c : Dev nD) : ℕ → sProp 𝕄
  | 0 => iprop((∃ d, owns (c : Thread nD τ) (Memref.whole cc4_scratch0) fullShare d) ∗ (∃ d, owns (c : Thread nD τ) (Memref.whole cc4_scratch1) fullShare d) ∗ rest4 (F := F) c)
  | n + 1 => iprop(owns (c : Thread nD τ) (Memref.whole cc4_scratch0) fullShare (sumAt4 V c n) ∗ owns (c : Thread nD τ) (Memref.whole cc4_scratch1) fullShare (sqAt4 V c n) ∗ rest4 (F := F) c)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => sumAt4 V c t.val
    | ⟨2, _⟩ => sqAt4 V c t.val
  Φ j := Φn4 V c j.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = sumAt4 V c t.val := by dsimp only [dat4]
theorem after4_2 (c : Dev nD) (t : Fin cfg4.N) : (dat4 V c).after 2 t = sqAt4 V c t.val := by dsimp only [dat4]
theorem before4_0 (c : Dev nD) (t : Fin cfg4.N) (d) : (dat4 V c).before 0 t d = iblk4 V c 0 t :=
  before4_0_of V (dat4 V c) (A_eq4 V c 0) (after4_0 V c) t d

/-- At a point not idle for a window the body leaves its buffer at the stated contents. -/
theorem leavesExact_live4 (c : Dev nD) (w : Fin cfg4.W) (t : Fin cfg4.N) (hi : cfg4.idle w (cfg4.grid.coords t) = false) :
    (dat4 V c).leavesExact w t = owns (c : Thread nD τ) ((cfg4.win w).stage (cfg4.slots t w)) fullShare ((dat4 V c).after w t) := by
  unfold Dat.leavesExact; rw [hi]

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

set_option maxHeartbeats 1000000 in
theorem sound_body4_0 (c : Dev nD) :
    bodyPre4 V c t4_0 ⊢ wp frame (wpE (defs₀ (F := F)) Variants.none c none) Set.univ (bodyAt4 t4_0) (fun _ => bodyPost4 V c t4_0) := by
  unfold bodyPre4 bodyPost4 bodyAt4
  simp only [before4_0]
  rw [leavesExact_live4 V c 0 t4_0 (by decide +kernel), Dat.leavesExact_idle (dat4 V c) 1 t4_0 (by decide +kernel) (by decide +kernel), Dat.leavesExact_idle (dat4 V c) 2 t4_0 (by decide +kernel) (by decide +kernel)]
  rw [show (dat4 V c).Φ (t4_0 : Fin cfg4.N).castSucc = Φn4 V c 0 from rfl,
    show (dat4 V c).Φ (t4_0 : Fin cfg4.N).succ = Φn4 V c 1 from rfl,
    show (dat4 V c).owesAt () (t4_0 : Fin cfg4.N).succ = (dat4 V c).owesAt () (t4_0 : Fin cfg4.N).castSucc from rfl,
    after4_0]
  unfold Φn4
  iintro ⟨⟨S0, S1, Hr⟩, Ho, ⟨%d0, H0⟩, ⟨%d1, H1⟩, ⟨%d2, H2⟩⟩
  iapply (kernelRun4_A c Set.univ (grid4.coords t4_0) _ _ _ _ _ _ _ _ _ _ (by decide +kernel : cond4_0 (grid4.coords t4_0)) (by decide +kernel : ¬ cond4_1 (grid4.coords t4_0)) (iblk4 V c 0 t4_0) _ _ _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_1 (c : Dev nD) :
    bodyPre4 V c t4_1 ⊢ wp frame (wpE (defs₀ (F := F)) Variants.none c none) Set.univ (bodyAt4 t4_1) (fun _ => bodyPost4 V c t4_1) := by
  unfold bodyPre4 bodyPost4 bodyAt4
  simp only [before4_0]
  rw [leavesExact_live4 V c 0 t4_1 (by decide +kernel), Dat.leavesExact_idle (dat4 V c) 1 t4_1 (by decide +kernel) (by decide +kernel), Dat.leavesExact_idle (dat4 V c) 2 t4_1 (by decide +kernel) (by decide +kernel)]
  rw [show (dat4 V c).Φ (t4_1 : Fin cfg4.N).castSucc = Φn4 V c 1 from rfl,
    show (dat4 V c).Φ (t4_1 : Fin cfg4.N).succ = Φn4 V c 2 from rfl,
    show (dat4 V c).owesAt () (t4_1 : Fin cfg4.N).succ = (dat4 V c).owesAt () (t4_1 : Fin cfg4.N).castSucc from rfl,
    after4_0]
  unfold Φn4
  iintro ⟨⟨S0, S1, Hr⟩, Ho, ⟨%d0, H0⟩, ⟨%d1, H1⟩, ⟨%d2, H2⟩⟩
  iapply (kernelRun4_B c Set.univ (grid4.coords t4_1) _ _ _ _ _ _ _ _ _ _ (by decide +kernel : ¬ cond4_0 (grid4.coords t4_1)) (by decide +kernel : ¬ cond4_1 (grid4.coords t4_1)) (iblk4 V c 0 t4_1) _ _ (sumAt4 V c 0) (sqAt4 V c 0) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_2 (c : Dev nD) :
    bodyPre4 V c t4_2 ⊢ wp frame (wpE (defs₀ (F := F)) Variants.none c none) Set.univ (bodyAt4 t4_2) (fun _ => bodyPost4 V c t4_2) := by
  unfold bodyPre4 bodyPost4 bodyAt4
  simp only [before4_0]
  rw [leavesExact_live4 V c 0 t4_2 (by decide +kernel), Dat.leavesExact_idle (dat4 V c) 1 t4_2 (by decide +kernel) (by decide +kernel), Dat.leavesExact_idle (dat4 V c) 2 t4_2 (by decide +kernel) (by decide +kernel)]
  rw [show (dat4 V c).Φ (t4_2 : Fin cfg4.N).castSucc = Φn4 V c 2 from rfl,
    show (dat4 V c).Φ (t4_2 : Fin cfg4.N).succ = Φn4 V c 3 from rfl,
    show (dat4 V c).owesAt () (t4_2 : Fin cfg4.N).succ = (dat4 V c).owesAt () (t4_2 : Fin cfg4.N).castSucc from rfl,
    after4_0]
  unfold Φn4
  iintro ⟨⟨S0, S1, Hr⟩, Ho, ⟨%d0, H0⟩, ⟨%d1, H1⟩, ⟨%d2, H2⟩⟩
  iapply (kernelRun4_B c Set.univ (grid4.coords t4_2) _ _ _ _ _ _ _ _ _ _ (by decide +kernel : ¬ cond4_0 (grid4.coords t4_2)) (by decide +kernel : ¬ cond4_1 (grid4.coords t4_2)) (iblk4 V c 0 t4_2) _ _ (sumAt4 V c 1) (sqAt4 V c 1) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_3 (c : Dev nD) :
    bodyPre4 V c t4_3 ⊢ wp frame (wpE (defs₀ (F := F)) Variants.none c none) Set.univ (bodyAt4 t4_3) (fun _ => bodyPost4 V c t4_3) := by
  unfold bodyPre4 bodyPost4 bodyAt4
  simp only [before4_0]
  rw [leavesExact_live4 V c 0 t4_3 (by decide +kernel), Dat.leavesExact_idle (dat4 V c) 1 t4_3 (by decide +kernel) (by decide +kernel), Dat.leavesExact_idle (dat4 V c) 2 t4_3 (by decide +kernel) (by decide +kernel)]
  rw [show (dat4 V c).Φ (t4_3 : Fin cfg4.N).castSucc = Φn4 V c 3 from rfl,
    show (dat4 V c).Φ (t4_3 : Fin cfg4.N).succ = Φn4 V c 4 from rfl,
    show (dat4 V c).owesAt () (t4_3 : Fin cfg4.N).succ = (dat4 V c).owesAt () (t4_3 : Fin cfg4.N).castSucc from rfl,
    after4_0]
  unfold Φn4
  iintro ⟨⟨S0, S1, Hr⟩, Ho, ⟨%d0, H0⟩, ⟨%d1, H1⟩, ⟨%d2, H2⟩⟩
  iapply (kernelRun4_B c Set.univ (grid4.coords t4_3) _ _ _ _ _ _ _ _ _ _ (by decide +kernel : ¬ cond4_0 (grid4.coords t4_3)) (by decide +kernel : ¬ cond4_1 (grid4.coords t4_3)) (iblk4 V c 0 t4_3) _ _ (sumAt4 V c 2) (sqAt4 V c 2) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body4_4 (c : Dev nD) :
    bodyPre4 V c t4_4 ⊢ wp frame (wpE (defs₀ (F := F)) Variants.none c none) Set.univ (bodyAt4 t4_4) (fun _ => bodyPost4 V c t4_4) := by
  unfold bodyPre4 bodyPost4 bodyAt4
  simp only [before4_0]
  rw [leavesExact_live4 V c 0 t4_4 (by decide +kernel), leavesExact_live4 V c 1 t4_4 (by decide +kernel), leavesExact_live4 V c 2 t4_4 (by decide +kernel)]
  rw [show (dat4 V c).Φ (t4_4 : Fin cfg4.N).castSucc = Φn4 V c 4 from rfl,
    show (dat4 V c).Φ (t4_4 : Fin cfg4.N).succ = Φn4 V c 5 from rfl,
    show (dat4 V c).owesAt () (t4_4 : Fin cfg4.N).succ = (dat4 V c).owesAt () (t4_4 : Fin cfg4.N).castSucc from rfl,
    after4_0, after4_1, after4_2]
  unfold Φn4
  iintro ⟨⟨S0, S1, Hr⟩, Ho, ⟨%d0, H0⟩, ⟨%d1, H1⟩, ⟨%d2, H2⟩⟩
  iapply (kernelRun4_C c Set.univ (grid4.coords t4_4) _ _ _ _ _ _ _ _ _ _ (by decide +kernel : ¬ cond4_0 (grid4.coords t4_4)) (by decide +kernel : cond4_1 (grid4.coords t4_4)) (iblk4 V c 0 t4_4) (sumAt4 V c 3) (sqAt4 V c 3) _)
  isplitl [H0]; · iexact H0
  isplitl [H1]; · iexists _; iexact H1
  isplitl [H2]; · iexists _; iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexact H1
  iexact H2

/-- The body obligation, at every point. -/
theorem body_obligation4 (c : Dev nD) : BodyObligation (dat4 (F := F) V c) (defs₀ (F := F)) Variants.none () Set.univ := fun t => by
  rw [bigSep_W4, bigSep_W4]
  rcases fin_N4 t with rfl | rfl | rfl | rfl | rfl
  · exact sound_body4_0 V c
  · exact sound_body4_1 V c
  · exact sound_body4_2 V c
  · exact sound_body4_3 V c
  · exact sound_body4_4 V c

end Cert.KernelIdeal.Frame

end
-- ==== Proof.IdealRegion5.lean ====
/-
  Region 5 of the idealized kernel's @main, the call of `cc5__bn_relu_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not: where it is not fetched
    its block index has not moved. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's staging buffer holds its block at every point, fetched there or not: where it is not fetched
    its block index has not moved. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's staging buffer holds its block at every point, fetched there or not: where it is not fetched
    its block index has not moved. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's staging buffer holds its block at every point, fetched there or not: where it is not fetched
    its block index has not moved. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's staging buffer holds its block at every point, fetched there or not: where it is not fetched
    its block index has not moved. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0

/-- The output window's staging buffer after the body, from the input windows' blocks: its one store. -/
def out5_5 (x0 : Vec F S10000x64 .f32) (x1 : Vec F S1x64 .f32) (x2 : Vec F S1x64 .f32) (x3 : Vec F S1x64 .f32) (x4 : Vec F S1x64 .f32) : Vec F S10000x64 .f32 :=
  View.canon [⟨r5_0, k5_pay1 (View.ld x0 r5_0) (View.ld x1 r5_1) (View.ld x2 r5_1) (View.ld x3 r5_1) (View.ld x4 r5_1)⟩]

/-- The store covers the whole buffer. -/
theorem cover5_5 (p0 : Vec F S10000x64 .f32) (y : S10000x64.Idx) :
    ∃ pc ∈ ([⟨r5_0, p0⟩] : List (View.Piece (Elt F) S10000x64 .f32)), y ∈ pc.1.set :=
  View.cover_of_tiled [⟨r5_0, p0⟩] S10000x64.size (by rfl) y

set_option maxHeartbeats 1000000 in
/-- The body on whole staging memrefs, the inputs' at contents `x…` and the output's at anything, runs to the
    continuation holding the inputs' as they were and the output's at `out5_5` of the inputs'. -/
theorem sound_kernel5 (c : Dev nD) (E : Set ℕ) (i : grid5.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t` each
    input's buffer at its block and the output's at `out5_5` of the input blocks; the scoped rest and the generator
    register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the triple applies; the invariant and the core's
    `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.IdealRegion6.lean ====
/-
  Region 6 of the idealized kernel's @main, the call of `cc6__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not: where it is not fetched
    its block index has not moved. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not: where it is not fetched
    its block index has not moved. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not: where it is not fetched
    its block index has not moved. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S10000x64 := Rect.unit (s := S10000x64) ![0, 0] S10000x64.size inb_S10000x64_S10000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-- The output window's staging buffer after the body, from the input windows' blocks: its one store. -/
def out6_3 (x0 : Vec F S10000x64 .f32) (x1 : Vec F S64x64 .f32) (x2 : Vec F S1x64 .f32) : Vec F S10000x64 .f32 :=
  View.canon [⟨r6_0, k6_pay1 (View.ld x0 r6_0) (View.ld x1 r6_1) (View.ld x2 r6_2)⟩]

/-- The store covers the whole buffer. -/
theorem cover6_3 (p0 : Vec F S10000x64 .f32) (y : S10000x64.Idx) :
    ∃ pc ∈ ([⟨r6_0, p0⟩] : List (View.Piece (Elt F) S10000x64 .f32)), y ∈ pc.1.set :=
  View.cover_of_tiled [⟨r6_0, p0⟩] S10000x64.size (by rfl) y

set_option maxHeartbeats 1000000 in
/-- The body on whole staging memrefs, the inputs' at contents `x…` and the output's at anything, runs to the
    continuation holding the inputs' as they were and the output's at `out6_3` of the inputs'. -/
theorem sound_kernel6 (c : Dev nD) (E : Set ℕ) (i : grid6.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_bias_kernel i arg1 harg1 arg2 harg2 arg3 harg3 arg4 harg4) K := by
  simp only [cc6__matmul_bias_kernel_eq_skeleton]; unfold cc6__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; the scoped rest and the generator
    register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the triple applies; the invariant and the core's
    `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frame

end
-- ==== Proof.IdealStats7.lean ====
/-
  Region 7 of @main, the call of `cc7__stats_kernel`: the column sums and the column sums of squares of a [50000, 64] array,
  accumulated block by block (five blocks of 10000 rows) in two [1, 64] scratch buffers that are zeroed at the first
  grid point and copied to the two output windows at the last one. Here: the body's Hoare triple in each of its three
  control cases (first point, a middle point, last point), the running sums after each point, the proof data of the
  pipeline — the invariant carries the scratch buffers at the running sums — and the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.LibWholeStore
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz7 : (![0, 0] : Fin 2 → Nat) = fun _ => 0 := funext fun a => by fin_cases a <;> rfl

/-- The body's two `scf.if` conditions, from the grid coordinates: the first point of the axis, and its last. -/
abbrev cond7_0 (i : grid7.Coords) : Prop := Scalar.cmpi .ne (Scalar.extui (Scalar.cmpi .eq (BitVec.ofNat 32 (i 0).val) 0#32)) 0#32 = 1#1
abbrev cond7_1 (i : grid7.Coords) : Prop := k7_cond2 i = 1#1

/-! ## The body's triple, case by case -/

set_option maxHeartbeats 1000000 in
/-- FIRST POINT (the first conditional taken, the last not): both scratch buffers, whatever they held, end at one
    accumulation step from zero; the input block and the two output buffers are as found. -/
theorem kernelRun7_A (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : cond7_0 i) (hc1 : ¬ cond7_1 i)
    (x0 : Vec F S10000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k7_pay4 x0 (k7_pay1 (F := F))) ∗ owns (c : Thread nD τ) arg5 fullShare (k7_pay5 x0 (k7_pay2 (F := F)))) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  iexists _; isplitr
  swap; · iexact H4
  ipureintro
  sl_unfold_run_names
  simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]

set_option maxHeartbeats 1000000 in
/-- A MIDDLE POINT (neither conditional taken): each scratch buffer advances by one accumulation step. -/
theorem kernelRun7_B (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond7_0 i) (hc1 : ¬ cond7_1 i)
    (x0 : Vec F S10000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k7_pay4 x0 s0) ∗ owns (c : Thread nD τ) arg5 fullShare (k7_pay5 x0 s1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  iexists _; isplitr
  swap; · iexact H4
  ipureintro
  sl_unfold_run_names
  simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]

set_option maxHeartbeats 1000000 in
/-- LAST POINT (the first conditional not taken, the last taken): each scratch buffer advances by one step, and the two
    output buffers, whatever they held, end holding the two scratch buffers' final contents. -/
theorem kernelRun7_C (c : Dev nD) (E : Set ℕ) (i : grid7.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole)
    (hc0 : ¬ cond7_0 i) (hc1 : cond7_1 i)
    (x0 : Vec F S10000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k7_pay4 x0 s0) ∗ owns (c : Thread nD τ) arg3 fullShare (k7_pay5 x0 s1)
            ∗ owns (c : Thread nD τ) arg4 fullShare (k7_pay4 x0 s0) ∗ owns (c : Thread nD τ) arg5 fullShare (k7_pay5 x0 s1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  subst hf0 hf3 hf4
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  isplitl [H2]
  · iexists _; isplitr
    swap; · iexact H2
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  isplitl [H3]
  · iexists _; isplitr
    swap; · iexact H3
    ipureintro
    sl_unfold_run_names
    simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]
  iexists _; isplitr
  swap; · iexact H4
  ipureintro
  sl_unfold_run_names
  simp only [View.read_writes_cons_unit_zero (S := S1x64) _ _ hz7, View.readCov_cons_unit_zero (S := S1x64) _ hz7, View.readAt_writes_cons_unit_zero (S := S1x64) _ _ hz7, View.readAt_eq_ld, View.ld_unit_zero (S := S1x64) hz7, View.ld_unit_zero (S := S10000x64) hz7]

end Cert.KernelIdeal.Frame

end
-- ==== Proof.IdealStatsData7.lean ====
/-
  Region 7 of @main (the column sums and sums of squares accumulated over five blocks of rows), continued: the
  running sums after each grid point as functions of the array the region is entered with, the proof data of the
  pipeline — after the body the input window holds its block, the invariant holds the two scratch buffers at the running
  sums, and at the last point the two output windows hold the totals — and the body obligation, point by point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.LibWholeStore
import proofs.«120485_j12249246728930_1_alg».proof.Proof.IdealStats7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The input window's staging buffer holds its block at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The running sums: block k's column sums added to the sums of the blocks before it -/

def sum7_0 (c : Dev nD) : Vec F S1x64 .f32 := k7_pay4 (iblk7 V c 0 t7_0) (k7_pay1 (F := F))
def sum7_1 (c : Dev nD) : Vec F S1x64 .f32 := k7_pay4 (iblk7 V c 0 t7_1) (sum7_0 V c)
def sum7_2 (c : Dev nD) : Vec F S1x64 .f32 := k7_pay4 (iblk7 V c 0 t7_2) (sum7_1 V c)
def sum7_3 (c : Dev nD) : Vec F S1x64 .f32 := k7_pay4 (iblk7 V c 0 t7_3) (sum7_2 V c)
def sum7_4 (c : Dev nD) : Vec F S1x64 .f32 := k7_pay4 (iblk7 V c 0 t7_4) (sum7_3 V c)
def sq7_0 (c : Dev nD) : Vec F S1x64 .f32 := k7_pay5 (iblk7 V c 0 t7_0) (k7_pay2 (F := F))
def sq7_1 (c : Dev nD) : Vec F S1x64 .f32 := k7_pay5 (iblk7 V c 0 t7_1) (sq7_0 V c)
def sq7_2 (c : Dev nD) : Vec F S1x64 .f32 := k7_pay5 (iblk7 V c 0 t7_2) (sq7_1 V c)
def sq7_3 (c : Dev nD) : Vec F S1x64 .f32 := k7_pay5 (iblk7 V c 0 t7_3) (sq7_2 V c)
def sq7_4 (c : Dev nD) : Vec F S1x64 .f32 := k7_pay5 (iblk7 V c 0 t7_4) (sq7_3 V c)

/-- The running column sums after point `n` (the last point's beyond it). -/
def sumAt7 (c : Dev nD) : ℕ → Vec F S1x64 .f32
  | 0 => sum7_0 V c | 1 => sum7_1 V c | 2 => sum7_2 V c | 3 => sum7_3 V c | _ => sum7_4 V c
/-- The running column sums of squares after point `n`. -/
def sqAt7 (c : Dev nD) : ℕ → Vec F S1x64 .f32
  | 0 => sq7_0 V c | 1 => sq7_1 V c | 2 => sq7_2 V c | 3 => sq7_3 V c | _ => sq7_4 V c

/-! ## The invariant and the proof data -/

/-- What the region never opens: every other scoped buffer, and the generator register. -/
def rest7 (c : Dev nD) : sProp 𝕄 :=
  iprop(Pipeline.scopedRestBut (Ix := Unit) (Name := ℕ) (U := UR sig nD τ) (Lvl := ℕ) (Val := Elt F) spec7 c [cc7_scratch0, cc7_scratch1] ∗ ∃ r, prngReg c r)

/-- Before the first point the two scratch buffers hold anything; after point `n` they hold the running sums. -/
def Φn7 (c : Dev nD) : ℕ → sProp 𝕄
  | 0 => iprop((∃ d, owns (c : Thread nD τ) (Memref.whole cc7_scratch0) fullShare d) ∗ (∃ d, owns (c : Thread nD τ) (Memref.whole cc7_scratch1) fullShare d) ∗ rest7 (F := F) c)
  | n + 1 => iprop(owns (c : Thread nD τ) (Memref.whole cc7_scratch0) fullShare (sumAt7 V c n) ∗ owns (c : Thread nD τ) (Memref.whole cc7_scratch1) fullShare (sqAt7 V c n) ∗ rest7 (F := F) c)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => sumAt7 V c t.val
    | ⟨2, _⟩ => sqAt7 V c t.val
  Φ j := Φn7 V c j.val
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = sumAt7 V c t.val := by dsimp only [dat7]
theorem after7_2 (c : Dev nD) (t : Fin cfg7.N) : (dat7 V c).after 2 t = sqAt7 V c t.val := by dsimp only [dat7]
theorem before7_0 (c : Dev nD) (t : Fin cfg7.N) (d) : (dat7 V c).before 0 t d = iblk7 V c 0 t :=
  before7_0_of V (dat7 V c) (A_eq7 V c 0) (after7_0 V c) t d

/-- At a point not idle for a window the body leaves its buffer at the stated contents. -/
theorem leavesExact_live7 (c : Dev nD) (w : Fin cfg7.W) (t : Fin cfg7.N) (hi : cfg7.idle w (cfg7.grid.coords t) = false) :
    (dat7 V c).leavesExact w t = owns (c : Thread nD τ) ((cfg7.win w).stage (cfg7.slots t w)) fullShare ((dat7 V c).after w t) := by
  unfold Dat.leavesExact; rw [hi]

/-! ## The body obligation -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t)

set_option maxHeartbeats 1000000 in
theorem sound_body7_0 (c : Dev nD) :
    bodyPre7 V c t7_0 ⊢ wp frame (wpE (defs₀ (F := F)) Variants.none c none) Set.univ (bodyAt7 t7_0) (fun _ => bodyPost7 V c t7_0) := by
  unfold bodyPre7 bodyPost7 bodyAt7
  simp only [before7_0]
  rw [leavesExact_live7 V c 0 t7_0 (by decide +kernel), Dat.leavesExact_idle (dat7 V c) 1 t7_0 (by decide +kernel) (by decide +kernel), Dat.leavesExact_idle (dat7 V c) 2 t7_0 (by decide +kernel) (by decide +kernel)]
  rw [show (dat7 V c).Φ (t7_0 : Fin cfg7.N).castSucc = Φn7 V c 0 from rfl,
    show (dat7 V c).Φ (t7_0 : Fin cfg7.N).succ = Φn7 V c 1 from rfl,
    show (dat7 V c).owesAt () (t7_0 : Fin cfg7.N).succ = (dat7 V c).owesAt () (t7_0 : Fin cfg7.N).castSucc from rfl,
    after7_0]
  unfold Φn7
  iintro ⟨⟨S0, S1, Hr⟩, Ho, ⟨%d0, H0⟩, ⟨%d1, H1⟩, ⟨%d2, H2⟩⟩
  iapply (kernelRun7_A c Set.univ (grid7.coords t7_0) _ _ _ _ _ _ _ _ _ _ (by decide +kernel : cond7_0 (grid7.coords t7_0)) (by decide +kernel : ¬ cond7_1 (grid7.coords t7_0)) (iblk7 V c 0 t7_0) _ _ _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_1 (c : Dev nD) :
    bodyPre7 V c t7_1 ⊢ wp frame (wpE (defs₀ (F := F)) Variants.none c none) Set.univ (bodyAt7 t7_1) (fun _ => bodyPost7 V c t7_1) := by
  unfold bodyPre7 bodyPost7 bodyAt7
  simp only [before7_0]
  rw [leavesExact_live7 V c 0 t7_1 (by decide +kernel), Dat.leavesExact_idle (dat7 V c) 1 t7_1 (by decide +kernel) (by decide +kernel), Dat.leavesExact_idle (dat7 V c) 2 t7_1 (by decide +kernel) (by decide +kernel)]
  rw [show (dat7 V c).Φ (t7_1 : Fin cfg7.N).castSucc = Φn7 V c 1 from rfl,
    show (dat7 V c).Φ (t7_1 : Fin cfg7.N).succ = Φn7 V c 2 from rfl,
    show (dat7 V c).owesAt () (t7_1 : Fin cfg7.N).succ = (dat7 V c).owesAt () (t7_1 : Fin cfg7.N).castSucc from rfl,
    after7_0]
  unfold Φn7
  iintro ⟨⟨S0, S1, Hr⟩, Ho, ⟨%d0, H0⟩, ⟨%d1, H1⟩, ⟨%d2, H2⟩⟩
  iapply (kernelRun7_B c Set.univ (grid7.coords t7_1) _ _ _ _ _ _ _ _ _ _ (by decide +kernel : ¬ cond7_0 (grid7.coords t7_1)) (by decide +kernel : ¬ cond7_1 (grid7.coords t7_1)) (iblk7 V c 0 t7_1) _ _ (sumAt7 V c 0) (sqAt7 V c 0) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_2 (c : Dev nD) :
    bodyPre7 V c t7_2 ⊢ wp frame (wpE (defs₀ (F := F)) Variants.none c none) Set.univ (bodyAt7 t7_2) (fun _ => bodyPost7 V c t7_2) := by
  unfold bodyPre7 bodyPost7 bodyAt7
  simp only [before7_0]
  rw [leavesExact_live7 V c 0 t7_2 (by decide +kernel), Dat.leavesExact_idle (dat7 V c) 1 t7_2 (by decide +kernel) (by decide +kernel), Dat.leavesExact_idle (dat7 V c) 2 t7_2 (by decide +kernel) (by decide +kernel)]
  rw [show (dat7 V c).Φ (t7_2 : Fin cfg7.N).castSucc = Φn7 V c 2 from rfl,
    show (dat7 V c).Φ (t7_2 : Fin cfg7.N).succ = Φn7 V c 3 from rfl,
    show (dat7 V c).owesAt () (t7_2 : Fin cfg7.N).succ = (dat7 V c).owesAt () (t7_2 : Fin cfg7.N).castSucc from rfl,
    after7_0]
  unfold Φn7
  iintro ⟨⟨S0, S1, Hr⟩, Ho, ⟨%d0, H0⟩, ⟨%d1, H1⟩, ⟨%d2, H2⟩⟩
  iapply (kernelRun7_B c Set.univ (grid7.coords t7_2) _ _ _ _ _ _ _ _ _ _ (by decide +kernel : ¬ cond7_0 (grid7.coords t7_2)) (by decide +kernel : ¬ cond7_1 (grid7.coords t7_2)) (iblk7 V c 0 t7_2) _ _ (sumAt7 V c 1) (sqAt7 V c 1) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_3 (c : Dev nD) :
    bodyPre7 V c t7_3 ⊢ wp frame (wpE (defs₀ (F := F)) Variants.none c none) Set.univ (bodyAt7 t7_3) (fun _ => bodyPost7 V c t7_3) := by
  unfold bodyPre7 bodyPost7 bodyAt7
  simp only [before7_0]
  rw [leavesExact_live7 V c 0 t7_3 (by decide +kernel), Dat.leavesExact_idle (dat7 V c) 1 t7_3 (by decide +kernel) (by decide +kernel), Dat.leavesExact_idle (dat7 V c) 2 t7_3 (by decide +kernel) (by decide +kernel)]
  rw [show (dat7 V c).Φ (t7_3 : Fin cfg7.N).castSucc = Φn7 V c 3 from rfl,
    show (dat7 V c).Φ (t7_3 : Fin cfg7.N).succ = Φn7 V c 4 from rfl,
    show (dat7 V c).owesAt () (t7_3 : Fin cfg7.N).succ = (dat7 V c).owesAt () (t7_3 : Fin cfg7.N).castSucc from rfl,
    after7_0]
  unfold Φn7
  iintro ⟨⟨S0, S1, Hr⟩, Ho, ⟨%d0, H0⟩, ⟨%d1, H1⟩, ⟨%d2, H2⟩⟩
  iapply (kernelRun7_B c Set.univ (grid7.coords t7_3) _ _ _ _ _ _ _ _ _ _ (by decide +kernel : ¬ cond7_0 (grid7.coords t7_3)) (by decide +kernel : ¬ cond7_1 (grid7.coords t7_3)) (iblk7 V c 0 t7_3) _ _ (sumAt7 V c 2) (sqAt7 V c 2) _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexists d1; iexact H1
  iexists d2; iexact H2

set_option maxHeartbeats 1000000 in
theorem sound_body7_4 (c : Dev nD) :
    bodyPre7 V c t7_4 ⊢ wp frame (wpE (defs₀ (F := F)) Variants.none c none) Set.univ (bodyAt7 t7_4) (fun _ => bodyPost7 V c t7_4) := by
  unfold bodyPre7 bodyPost7 bodyAt7
  simp only [before7_0]
  rw [leavesExact_live7 V c 0 t7_4 (by decide +kernel), leavesExact_live7 V c 1 t7_4 (by decide +kernel), leavesExact_live7 V c 2 t7_4 (by decide +kernel)]
  rw [show (dat7 V c).Φ (t7_4 : Fin cfg7.N).castSucc = Φn7 V c 4 from rfl,
    show (dat7 V c).Φ (t7_4 : Fin cfg7.N).succ = Φn7 V c 5 from rfl,
    show (dat7 V c).owesAt () (t7_4 : Fin cfg7.N).succ = (dat7 V c).owesAt () (t7_4 : Fin cfg7.N).castSucc from rfl,
    after7_0, after7_1, after7_2]
  unfold Φn7
  iintro ⟨⟨S0, S1, Hr⟩, Ho, ⟨%d0, H0⟩, ⟨%d1, H1⟩, ⟨%d2, H2⟩⟩
  iapply (kernelRun7_C c Set.univ (grid7.coords t7_4) _ _ _ _ _ _ _ _ _ _ (by decide +kernel : ¬ cond7_0 (grid7.coords t7_4)) (by decide +kernel : cond7_1 (grid7.coords t7_4)) (iblk7 V c 0 t7_4) (sumAt7 V c 3) (sqAt7 V c 3) _)
  isplitl [H0]; · iexact H0
  isplitl [H1]; · iexists _; iexact H1
  isplitl [H2]; · iexists _; iexact H2
  isplitl [S0]; · iexact S0
  isplitl [S1]; · iexact S1
  iintro ⟨H0, H1, H2, S0, S1⟩
  isplitl [S0 S1 Hr]
  · isplitl [S0]; · iexact S0
    isplitl [S1]; · iexact S1
    iexact Hr
  isplitl [Ho]; · iexact Ho
  isplitl [H0]; · iexact H0
  isplitl [H1]; · iexact H1
  iexact H2

/-- The body obligation, at every point. -/
theorem body_obligation7 (c : Dev nD) : BodyObligation (dat7 (F := F) V c) (defs₀ (F := F)) Variants.none () Set.univ := fun t => by
  rw [bigSep_W7, bigSep_W7]
  rcases fin_N7 t with rfl | rfl | rfl | rfl | rfl
  · exact sound_body7_0 V c
  · exact sound_body7_1 V c
  · exact sound_body7_2 V c
  · exact sound_body7_3 V c
  · exact sound_body7_4 V c

end Cert.KernelIdeal.Frame

end
-- ==== Proof.IdealRegion8.lean ====
/-
  Region 8 of the idealized kernel's @main, the call of `cc8__bn_relu_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not: where it is not fetched
    its block index has not moved. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not: where it is not fetched
    its block index has not moved. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not: where it is not fetched
    its block index has not moved. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not: where it is not fetched
    its block index has not moved. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not: where it is not fetched
    its block index has not moved. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S10000x64 := Rect.unit (s := S10000x64) ![0, 0] S10000x64.size inb_S10000x64_S10000x64_0_0
abbrev r8_1 : Rect S1x64 := Rect.unit (s := S1x64) ![0, 0] S1x64.size inb_S1x64_S1x64_0_0

/-- The output window's staging buffer after the body, from the input windows' blocks: its one store. -/
def out8_5 (x0 : Vec F S10000x64 .f32) (x1 : Vec F S1x64 .f32) (x2 : Vec F S1x64 .f32) (x3 : Vec F S1x64 .f32) (x4 : Vec F S1x64 .f32) : Vec F S10000x64 .f32 :=
  View.canon [⟨r8_0, k8_pay1 (View.ld x0 r8_0) (View.ld x1 r8_1) (View.ld x2 r8_1) (View.ld x3 r8_1) (View.ld x4 r8_1)⟩]

/-- The store covers the whole buffer. -/
theorem cover8_5 (p0 : Vec F S10000x64 .f32) (y : S10000x64.Idx) :
    ∃ pc ∈ ([⟨r8_0, p0⟩] : List (View.Piece (Elt F) S10000x64 .f32)), y ∈ pc.1.set :=
  View.cover_of_tiled [⟨r8_0, p0⟩] S10000x64.size (by rfl) y

set_option maxHeartbeats 1000000 in
/-- The body on whole staging memrefs, the inputs' at contents `x…` and the output's at anything, runs to the
    continuation holding the inputs' as they were and the output's at `out8_5` of the inputs'. -/
theorem sound_kernel8 (c : Dev nD) (E : Set ℕ) (i : grid8.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out8_5 x0 x1 x2 x3 x4)) -∗ K ⟨⟩))
      ⊢ wp frame (wpE (defs₀ (F := F)) Variants.none c none) E (cc8__bn_relu_kernel i arg1 harg1 arg2 harg2 arg3 harg3 arg4 harg4 arg5 harg5 arg6 harg6) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of pipeline 8 on core `c`: the arrays as the region finds them; after the body at point `t` each
    input's buffer at its block and the output's at `out8_5` of the input blocks; the scoped rest and the generator
    register untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = out8_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' memrefs hold their blocks, so the triple applies; the invariant and the core's
    `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ (grid8.coords t) _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Frame

end
-- ==== Proof.IdealRegion9.lean ====
/-
  Region 9 of the idealized kernel's @main, the call of `cc9__matmul_bias_kernel`, read at the contents `V` the region is
  entered from: what each window's block is at a grid point, what the body leaves in the output window's buffer as
  a function of the input blocks (its one store over the body's arithmetic), the body's Hoare triple, and the
  proof data of the pipeline with the body obligation at every point.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not: where it is not fetched
    its block index has not moved. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not: where it is not fetched
    its block index has not moved. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, fetched there or not: where it is not fetched
    its block index has not moved. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S500x64 := Rect.unit (s := S500x64) ![0, 0] S500x64.size inb_S500x64_S500x64_0_0
abbrev r9_1 : Rect S64x6 := Rect.unit (s := S64x6) ![0, 0] S64x6.size inb_S64x6_S64x6_0_0
abbrev r9_2 : Rect S1x6 := Rect.unit (s := S1x6) ![0, 0] S1x6.size inb_S1x6_S1x6_0_0
abbrev r9_3 : Rect S500x6 := Rect.unit (s := S500x6) ![0, 0] S500x6.size inb_S500x6_S500x6_0_0

/-- The output window's staging buffer after the body, from the input windows' blocks: its one store. -/
def out9_3 (x0 : Vec F S500x64 .f32) (x1 : Vec F S64x6 .f32) (x2 : Vec F S1x6 .f32) : Vec F S500x6 .f32 :=
  View.canon [⟨r9_3, k9_pay1 (View.ld x0 r9_0) (View.ld x1 r9_1) (View.ld x2 r9_2)⟩]

/-- The store covers the whole buffer. -/
theorem cover9_3 (p0 : Vec F S500x6 .f32) (y : S500x6.Idx) :
    ∃ pc ∈ ([⟨r9_3, p0⟩] : List (View.Piece (Elt F) S500x6 .f32)), y ∈ pc.1.set :=
  View.cover_of_tiled [⟨r9_3, p0⟩] S500x6.size (by rfl) y

set_option maxHeartbeats 1000000 in
/-- The body on whole staging memrefs, the inputs' at contents `x…` and the output's at anything, runs to the
    continuation holding the inputs' as they were and the output's at `out9_3` of the inputs'. -/
theorem sound_kernel9 (c : Dev nD) (E : Set ℕ) (i : grid9.Coords) (arg1 : Memref sig .tc .vmem S500x64 .f32) (harg1 : arg1.IsWhole) (arg2 : Memref sig .tc .vmem S64x6 .f32) (harg2 : arg2.IsWhole) (arg3 : Memref sig .tc .vmem S1x6 .f32) (harg3 : arg3.IsWhole) (arg4 : Memref sig .tc .vmem S500x6 .f32) (harg4 : arg4.IsWhole)
    (x0 : Vec F S500x64 .f32) (x1 : Vec F S64x6 .f32) (x2 : Vec F S1x6 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9__matmul_bias_kernel i arg1 harg1 arg2 harg2 arg3 harg3 arg4 harg4) K := by
  simp only [cc9__matmul_bias_kernel_eq_skeleton]; unfold cc9__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of pipeline 9 on core `c`: the arrays as the region finds them; after the body at point `t` each
    input's buffer at its block and the output's at `out9_3` of the input blocks; the scoped rest and the generator
    register untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks, so the triple applies; the invariant and the core's
    `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Frame

end
-- ==== Proof.IdealRun.lean ====
/-
  The run of @main: ten kernel regions among eleven stretches of host operations. The contents of every unscoped
  buffer at each boundary between two items, folded from the launch memory (a host stretch applies its operations; a
  region leaves its windows' arrays at what its write-backs make of them and every other buffer alone); the proof
  data of the ten pipelines, each at its region's entry contents; one segment per item; and the run — every weakly
  fair execution terminates, the result buffer ends at the last boundary's contents and every argument as launched.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.IdealRegion0
import proofs.«120485_j12249246728930_1_alg».proof.Proof.IdealStatsData1
import proofs.«120485_j12249246728930_1_alg».proof.Proof.IdealRegion2
import proofs.«120485_j12249246728930_1_alg».proof.Proof.IdealRegion3
import proofs.«120485_j12249246728930_1_alg».proof.Proof.IdealStatsData4
import proofs.«120485_j12249246728930_1_alg».proof.Proof.IdealRegion5
import proofs.«120485_j12249246728930_1_alg».proof.Proof.IdealRegion6
import proofs.«120485_j12249246728930_1_alg».proof.Proof.IdealStatsData7
import proofs.«120485_j12249246728930_1_alg».proof.Proof.IdealRegion8
import proofs.«120485_j12249246728930_1_alg».proof.Proof.IdealRegion9
import proofs.«120485_j12249246728930_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After host stretch 0: region 0's entry. -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
theorem B1_of (c : Dev nD) (r : Ref sig .tc) (h : r ∉ hostOps0_W) :
    B1 m ρ c (Proc.devRef .tc r) = B0 m ρ c (Proc.devRef .tc r) :=
  StableHlo.after_of_writes_sub hostOps0 _ hostOps0_writes h

/-- After host stretch 1: region 1's entry. -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
theorem B3_of (c : Dev nD) (r : Ref sig .tc) (h : r ∉ hostOps1_W) :
    B3 m ρ c (Proc.devRef .tc r) = B2 m ρ c (Proc.devRef .tc r) :=
  StableHlo.after_of_writes_sub hostOps1 _ hostOps1_writes h

/-- After host stretch 2: region 2's entry. -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
theorem B5_of (c : Dev nD) (r : Ref sig .tc) (h : r ∉ hostOps2_W) :
    B5 m ρ c (Proc.devRef .tc r) = B4 m ρ c (Proc.devRef .tc r) :=
  StableHlo.after_of_writes_sub hostOps2 _ hostOps2_writes h

/-- After host stretch 3: region 3's entry. -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)
theorem B7_of (c : Dev nD) (r : Ref sig .tc) (h : r ∉ hostOps3_W) :
    B7 m ρ c (Proc.devRef .tc r) = B6 m ρ c (Proc.devRef .tc r) :=
  StableHlo.after_of_writes_sub hostOps3 _ hostOps3_writes h

/-- After host stretch 4: region 4's entry. -/
abbrev B9 : Dev nD → Valuation τ sig (Elt F) := fun c => StableHlo.after hostOps4 (B8 m ρ c)
abbrev E9 : (c : Dev nD) → (b : Ref sig .tc) → Buf (Elt F) ((c : Thread nD τ).loc b) := fun c b => B9 m ρ c b
/-- At region 4's exit: its arrays at what the pipeline leaves, every other buffer as entered. -/
def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_of_ne (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb
abbrev E10 : (c : Dev nD) → (b : Ref sig .tc) → Buf (Elt F) ((c : Thread nD τ).loc b) := fun c b => B10 m ρ c b
theorem hF4 (c : Dev nD) (w : Fin cfg4.W) : (dat4 (E9 m ρ) c).arrAt w cfg4.N = E10 m ρ c (Pipeline.arrRef spec4 w) :=
  (B10_arr m ρ c w).symm
theorem hrest4 (c : Dev nD) : ∀ b, b ∉ Finset.univ.image (Pipeline.arrRef spec4) → E10 m ρ c b = E9 m ρ c b :=
  fun b hb => B10_of_ne m ρ c b fun w e => hb (Finset.mem_image.mpr ⟨w, Finset.mem_univ _, e⟩)
theorem B9_of (c : Dev nD) (r : Ref sig .tc) (h : r ∉ hostOps4_W) :
    B9 m ρ c (Proc.devRef .tc r) = B8 m ρ c (Proc.devRef .tc r) :=
  StableHlo.after_of_writes_sub hostOps4 _ hostOps4_writes h

/-- After host stretch 5: region 5's entry. -/
abbrev B11 : Dev nD → Valuation τ sig (Elt F) := fun c => StableHlo.after hostOps5 (B10 m ρ c)
abbrev E11 : (c : Dev nD) → (b : Ref sig .tc) → Buf (Elt F) ((c : Thread nD τ).loc b) := fun c b => B11 m ρ c b
/-- At region 5's exit: its arrays at what the pipeline leaves, every other buffer as entered. -/
def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_of_ne (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb
abbrev E12 : (c : Dev nD) → (b : Ref sig .tc) → Buf (Elt F) ((c : Thread nD τ).loc b) := fun c b => B12 m ρ c b
theorem hF5 (c : Dev nD) (w : Fin cfg5.W) : (dat5 (E11 m ρ) c).arrAt w cfg5.N = E12 m ρ c (Pipeline.arrRef spec5 w) :=
  (B12_arr m ρ c w).symm
theorem hrest5 (c : Dev nD) : ∀ b, b ∉ Finset.univ.image (Pipeline.arrRef spec5) → E12 m ρ c b = E11 m ρ c b :=
  fun b hb => B12_of_ne m ρ c b fun w e => hb (Finset.mem_image.mpr ⟨w, Finset.mem_univ _, e⟩)
theorem B11_of (c : Dev nD) (r : Ref sig .tc) (h : r ∉ hostOps5_W) :
    B11 m ρ c (Proc.devRef .tc r) = B10 m ρ c (Proc.devRef .tc r) :=
  StableHlo.after_of_writes_sub hostOps5 _ hostOps5_writes h

/-- After host stretch 6: region 6's entry. -/
abbrev B13 : Dev nD → Valuation τ sig (Elt F) := fun c => StableHlo.after hostOps6 (B12 m ρ c)
abbrev E13 : (c : Dev nD) → (b : Ref sig .tc) → Buf (Elt F) ((c : Thread nD τ).loc b) := fun c b => B13 m ρ c b
/-- At region 6's exit: its arrays at what the pipeline leaves, every other buffer as entered. -/
def B14 (c : Dev nD) : Valuation τ sig (Elt F) :=
  Pipeline.withArrays spec6 c (B13 m ρ c) fun w => (dat6 (E13 m ρ) c).arrAt w cfg6.N
theorem B14_arr (c : Dev nD) (w : Fin cfg6.W) :
    B14 m ρ c (Proc.devRef .tc (Pipeline.arrRef spec6 w)) = (dat6 (E13 m ρ) c).arrAt w cfg6.N := by
  unfold B14; exact Pipeline.withArrays_arr spec6 launch6.win.arr_inj c _ _ w
theorem B14_of_ne (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb
abbrev E14 : (c : Dev nD) → (b : Ref sig .tc) → Buf (Elt F) ((c : Thread nD τ).loc b) := fun c b => B14 m ρ c b
theorem hF6 (c : Dev nD) (w : Fin cfg6.W) : (dat6 (E13 m ρ) c).arrAt w cfg6.N = E14 m ρ c (Pipeline.arrRef spec6 w) :=
  (B14_arr m ρ c w).symm
theorem hrest6 (c : Dev nD) : ∀ b, b ∉ Finset.univ.image (Pipeline.arrRef spec6) → E14 m ρ c b = E13 m ρ c b :=
  fun b hb => B14_of_ne m ρ c b fun w e => hb (Finset.mem_image.mpr ⟨w, Finset.mem_univ _, e⟩)
theorem B13_of (c : Dev nD) (r : Ref sig .tc) (h : r ∉ hostOps6_W) :
    B13 m ρ c (Proc.devRef .tc r) = B12 m ρ c (Proc.devRef .tc r) :=
  StableHlo.after_of_writes_sub hostOps6 _ hostOps6_writes h

/-- After host stretch 7: region 7's entry. -/
abbrev B15 : Dev nD → Valuation τ sig (Elt F) := fun c => StableHlo.after hostOps7 (B14 m ρ c)
abbrev E15 : (c : Dev nD) → (b : Ref sig .tc) → Buf (Elt F) ((c : Thread nD τ).loc b) := fun c b => B15 m ρ c b
/-- At region 7's exit: its arrays at what the pipeline leaves, every other buffer as entered. -/
def B16 (c : Dev nD) : Valuation τ sig (Elt F) :=
  Pipeline.withArrays spec7 c (B15 m ρ c) fun w => (dat7 (E15 m ρ) c).arrAt w cfg7.N
theorem B16_arr (c : Dev nD) (w : Fin cfg7.W) :
    B16 m ρ c (Proc.devRef .tc (Pipeline.arrRef spec7 w)) = (dat7 (E15 m ρ) c).arrAt w cfg7.N := by
  unfold B16; exact Pipeline.withArrays_arr spec7 launch7.win.arr_inj c _ _ w
theorem B16_of_ne (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb
abbrev E16 : (c : Dev nD) → (b : Ref sig .tc) → Buf (Elt F) ((c : Thread nD τ).loc b) := fun c b => B16 m ρ c b
theorem hF7 (c : Dev nD) (w : Fin cfg7.W) : (dat7 (E15 m ρ) c).arrAt w cfg7.N = E16 m ρ c (Pipeline.arrRef spec7 w) :=
  (B16_arr m ρ c w).symm
theorem hrest7 (c : Dev nD) : ∀ b, b ∉ Finset.univ.image (Pipeline.arrRef spec7) → E16 m ρ c b = E15 m ρ c b :=
  fun b hb => B16_of_ne m ρ c b fun w e => hb (Finset.mem_image.mpr ⟨w, Finset.mem_univ _, e⟩)
theorem B15_of (c : Dev nD) (r : Ref sig .tc) (h : r ∉ hostOps7_W) :
    B15 m ρ c (Proc.devRef .tc r) = B14 m ρ c (Proc.devRef .tc r) :=
  StableHlo.after_of_writes_sub hostOps7 _ hostOps7_writes h

/-- After host stretch 8: region 8's entry. -/
abbrev B17 : Dev nD → Valuation τ sig (Elt F) := fun c => StableHlo.after hostOps8 (B16 m ρ c)
abbrev E17 : (c : Dev nD) → (b : Ref sig .tc) → Buf (Elt F) ((c : Thread nD τ).loc b) := fun c b => B17 m ρ c b
/-- At region 8's exit: its arrays at what the pipeline leaves, every other buffer as entered. -/
def B18 (c : Dev nD) : Valuation τ sig (Elt F) :=
  Pipeline.withArrays spec8 c (B17 m ρ c) fun w => (dat8 (E17 m ρ) c).arrAt w cfg8.N
theorem B18_arr (c : Dev nD) (w : Fin cfg8.W) :
    B18 m ρ c (Proc.devRef .tc (Pipeline.arrRef spec8 w)) = (dat8 (E17 m ρ) c).arrAt w cfg8.N := by
  unfold B18; exact Pipeline.withArrays_arr spec8 launch8.win.arr_inj c _ _ w
theorem B18_of_ne (c : Dev nD) (b : Ref sig .tc) (hb : ∀ w, Pipeline.arrRef spec8 w ≠ b) :
    B18 m ρ c (Proc.devRef .tc b) = B17 m ρ c (Proc.devRef .tc b) := by
  unfold B18; exact Pipeline.withArrays_of_ne spec8 c _ _ b hb
abbrev E18 : (c : Dev nD) → (b : Ref sig .tc) → Buf (Elt F) ((c : Thread nD τ).loc b) := fun c b => B18 m ρ c b
theorem hF8 (c : Dev nD) (w : Fin cfg8.W) : (dat8 (E17 m ρ) c).arrAt w cfg8.N = E18 m ρ c (Pipeline.arrRef spec8 w) :=
  (B18_arr m ρ c w).symm
theorem hrest8 (c : Dev nD) : ∀ b, b ∉ Finset.univ.image (Pipeline.arrRef spec8) → E18 m ρ c b = E17 m ρ c b :=
  fun b hb => B18_of_ne m ρ c b fun w e => hb (Finset.mem_image.mpr ⟨w, Finset.mem_univ _, e⟩)
theorem B17_of (c : Dev nD) (r : Ref sig .tc) (h : r ∉ hostOps8_W) :
    B17 m ρ c (Proc.devRef .tc r) = B16 m ρ c (Proc.devRef .tc r) :=
  StableHlo.after_of_writes_sub hostOps8 _ hostOps8_writes h

/-- After host stretch 9: region 9's entry. -/
abbrev B19 : Dev nD → Valuation τ sig (Elt F) := fun c => StableHlo.after hostOps9 (B18 m ρ c)
abbrev E19 : (c : Dev nD) → (b : Ref sig .tc) → Buf (Elt F) ((c : Thread nD τ).loc b) := fun c b => B19 m ρ c b
/-- At region 9's exit: its arrays at what the pipeline leaves, every other buffer as entered. -/
def B20 (c : Dev nD) : Valuation τ sig (Elt F) :=
  Pipeline.withArrays spec9 c (B19 m ρ c) fun w => (dat9 (E19 m ρ) c).arrAt w cfg9.N
theorem B20_arr (c : Dev nD) (w : Fin cfg9.W) :
    B20 m ρ c (Proc.devRef .tc (Pipeline.arrRef spec9 w)) = (dat9 (E19 m ρ) c).arrAt w cfg9.N := by
  unfold B20; exact Pipeline.withArrays_arr spec9 launch9.win.arr_inj c _ _ w
theorem B20_of_ne (c : Dev nD) (b : Ref sig .tc) (hb : ∀ w, Pipeline.arrRef spec9 w ≠ b) :
    B20 m ρ c (Proc.devRef .tc b) = B19 m ρ c (Proc.devRef .tc b) := by
  unfold B20; exact Pipeline.withArrays_of_ne spec9 c _ _ b hb
abbrev E20 : (c : Dev nD) → (b : Ref sig .tc) → Buf (Elt F) ((c : Thread nD τ).loc b) := fun c b => B20 m ρ c b
theorem hF9 (c : Dev nD) (w : Fin cfg9.W) : (dat9 (E19 m ρ) c).arrAt w cfg9.N = E20 m ρ c (Pipeline.arrRef spec9 w) :=
  (B20_arr m ρ c w).symm
theorem hrest9 (c : Dev nD) : ∀ b, b ∉ Finset.univ.image (Pipeline.arrRef spec9) → E20 m ρ c b = E19 m ρ c b :=
  fun b hb => B20_of_ne m ρ c b fun w e => hb (Finset.mem_image.mpr ⟨w, Finset.mem_univ _, e⟩)
theorem B19_of (c : Dev nD) (r : Ref sig .tc) (h : r ∉ hostOps9_W) :
    B19 m ρ c (Proc.devRef .tc r) = B18 m ρ c (Proc.devRef .tc r) :=
  StableHlo.after_of_writes_sub hostOps9 _ hostOps9_writes h

/-! ## Every argument ends as launched: no host operation writes one, and a region that reads one reads it through an input window -/

theorem B20_main_arg0 (c : Dev nD) : B20 m ρ c (Proc.devRef .tc main_arg0) = m ((c : Thread nD τ).loc main_arg0) :=
  (B20_of_ne m ρ c main_arg0 (by decide)).trans <|
    (B19_of m ρ c main_arg0 (by decide)).trans <|
    (B18_of_ne m ρ c main_arg0 (by decide)).trans <|
    (B17_of m ρ c main_arg0 (by decide)).trans <|
    (B16_of_ne m ρ c main_arg0 (by decide)).trans <|
    (B15_of m ρ c main_arg0 (by decide)).trans <|
    (B14_of_ne m ρ c main_arg0 (by decide)).trans <|
    (B13_of m ρ c main_arg0 (by decide)).trans <|
    (B12_of_ne m ρ c main_arg0 (by decide)).trans <|
    (B11_of m ρ c main_arg0 (by decide)).trans <|
    (B10_of_ne m ρ c main_arg0 (by decide)).trans <|
    (B9_of m ρ c main_arg0 (by decide)).trans <|
    (B8_of_ne m ρ c main_arg0 (by decide)).trans <|
    (B7_of m ρ c main_arg0 (by decide)).trans <|
    (B6_of_ne m ρ c main_arg0 (by decide)).trans <|
    (B5_of m ρ c main_arg0 (by decide)).trans <|
    (B4_of_ne m ρ c main_arg0 (by decide)).trans <|
    (B3_of m ρ c main_arg0 (by decide)).trans <|
    ((B2_arr m ρ c 0).trans (((dat0 (E1 m ρ) c).arrAt_in 0 rfl _).trans (A_eq0 (E1 m ρ) c 0))).trans <|
    (B1_of m ρ c main_arg0 (by decide)).trans <| rfl
theorem B20_main_arg1 (c : Dev nD) : B20 m ρ c (Proc.devRef .tc main_arg1) = m ((c : Thread nD τ).loc main_arg1) :=
  (B20_of_ne m ρ c main_arg1 (by decide)).trans <|
    (B19_of m ρ c main_arg1 (by decide)).trans <|
    (B18_of_ne m ρ c main_arg1 (by decide)).trans <|
    (B17_of m ρ c main_arg1 (by decide)).trans <|
    (B16_of_ne m ρ c main_arg1 (by decide)).trans <|
    (B15_of m ρ c main_arg1 (by decide)).trans <|
    (B14_of_ne m ρ c main_arg1 (by decide)).trans <|
    (B13_of m ρ c main_arg1 (by decide)).trans <|
    (B12_of_ne m ρ c main_arg1 (by decide)).trans <|
    (B11_of m ρ c main_arg1 (by decide)).trans <|
    (B10_of_ne m ρ c main_arg1 (by decide)).trans <|
    (B9_of m ρ c main_arg1 (by decide)).trans <|
    (B8_of_ne m ρ c main_arg1 (by decide)).trans <|
    (B7_of m ρ c main_arg1 (by decide)).trans <|
    (B6_of_ne m ρ c main_arg1 (by decide)).trans <|
    (B5_of m ρ c main_arg1 (by decide)).trans <|
    (B4_of_ne m ρ c main_arg1 (by decide)).trans <|
    (B3_of m ρ c main_arg1 (by decide)).trans <|
    (B2_of_ne m ρ c main_arg1 (by decide)).trans <|
    (B1_of m ρ c main_arg1 (by decide)).trans <| rfl
theorem B20_main_arg2 (c : Dev nD) : B20 m ρ c (Proc.devRef .tc main_arg2) = m ((c : Thread nD τ).loc main_arg2) :=
  (B20_of_ne m ρ c main_arg2 (by decide)).trans <|
    (B19_of m ρ c main_arg2 (by decide)).trans <|
    (B18_of_ne m ρ c main_arg2 (by decide)).trans <|
    (B17_of m ρ c main_arg2 (by decide)).trans <|
    (B16_of_ne m ρ c main_arg2 (by decide)).trans <|
    (B15_of m ρ c main_arg2 (by decide)).trans <|
    (B14_of_ne m ρ c main_arg2 (by decide)).trans <|
    (B13_of m ρ c main_arg2 (by decide)).trans <|
    (B12_of_ne m ρ c main_arg2 (by decide)).trans <|
    (B11_of m ρ c main_arg2 (by decide)).trans <|
    (B10_of_ne m ρ c main_arg2 (by decide)).trans <|
    (B9_of m ρ c main_arg2 (by decide)).trans <|
    (B8_of_ne m ρ c main_arg2 (by decide)).trans <|
    (B7_of m ρ c main_arg2 (by decide)).trans <|
    (B6_of_ne m ρ c main_arg2 (by decide)).trans <|
    (B5_of m ρ c main_arg2 (by decide)).trans <|
    (B4_of_ne m ρ c main_arg2 (by decide)).trans <|
    (B3_of m ρ c main_arg2 (by decide)).trans <|
    (B2_of_ne m ρ c main_arg2 (by decide)).trans <|
    (B1_of m ρ c main_arg2 (by decide)).trans <| rfl
theorem B20_main_arg3 (c : Dev nD) : B20 m ρ c (Proc.devRef .tc main_arg3) = m ((c : Thread nD τ).loc main_arg3) :=
  (B20_of_ne m ρ c main_arg3 (by decide)).trans <|
    (B19_of m ρ c main_arg3 (by decide)).trans <|
    (B18_of_ne m ρ c main_arg3 (by decide)).trans <|
    (B17_of m ρ c main_arg3 (by decide)).trans <|
    (B16_of_ne m ρ c main_arg3 (by decide)).trans <|
    (B15_of m ρ c main_arg3 (by decide)).trans <|
    (B14_of_ne m ρ c main_arg3 (by decide)).trans <|
    (B13_of m ρ c main_arg3 (by decide)).trans <|
    (B12_of_ne m ρ c main_arg3 (by decide)).trans <|
    (B11_of m ρ c main_arg3 (by decide)).trans <|
    (B10_of_ne m ρ c main_arg3 (by decide)).trans <|
    (B9_of m ρ c main_arg3 (by decide)).trans <|
    (B8_of_ne m ρ c main_arg3 (by decide)).trans <|
    (B7_of m ρ c main_arg3 (by decide)).trans <|
    (B6_of_ne m ρ c main_arg3 (by decide)).trans <|
    (B5_of m ρ c main_arg3 (by decide)).trans <|
    (B4_of_ne m ρ c main_arg3 (by decide)).trans <|
    (B3_of m ρ c main_arg3 (by decide)).trans <|
    ((B2_arr m ρ c 1).trans (((dat0 (E1 m ρ) c).arrAt_in 1 rfl _).trans (A_eq0 (E1 m ρ) c 1))).trans <|
    (B1_of m ρ c main_arg3 (by decide)).trans <| rfl
theorem B20_main_arg4 (c : Dev nD) : B20 m ρ c (Proc.devRef .tc main_arg4) = m ((c : Thread nD τ).loc main_arg4) :=
  (B20_of_ne m ρ c main_arg4 (by decide)).trans <|
    (B19_of m ρ c main_arg4 (by decide)).trans <|
    (B18_of_ne m ρ c main_arg4 (by decide)).trans <|
    (B17_of m ρ c main_arg4 (by decide)).trans <|
    (B16_of_ne m ρ c main_arg4 (by decide)).trans <|
    (B15_of m ρ c main_arg4 (by decide)).trans <|
    (B14_of_ne m ρ c main_arg4 (by decide)).trans <|
    (B13_of m ρ c main_arg4 (by decide)).trans <|
    (B12_of_ne m ρ c main_arg4 (by decide)).trans <|
    (B11_of m ρ c main_arg4 (by decide)).trans <|
    (B10_of_ne m ρ c main_arg4 (by decide)).trans <|
    (B9_of m ρ c main_arg4 (by decide)).trans <|
    (B8_of_ne m ρ c main_arg4 (by decide)).trans <|
    (B7_of m ρ c main_arg4 (by decide)).trans <|
    (B6_of_ne m ρ c main_arg4 (by decide)).trans <|
    (B5_of m ρ c main_arg4 (by decide)).trans <|
    (B4_of_ne m ρ c main_arg4 (by decide)).trans <|
    (B3_of m ρ c main_arg4 (by decide)).trans <|
    (B2_of_ne m ρ c main_arg4 (by decide)).trans <|
    (B1_of m ρ c main_arg4 (by decide)).trans <| rfl
theorem B20_main_arg5 (c : Dev nD) : B20 m ρ c (Proc.devRef .tc main_arg5) = m ((c : Thread nD τ).loc main_arg5) :=
  (B20_of_ne m ρ c main_arg5 (by decide)).trans <|
    (B19_of m ρ c main_arg5 (by decide)).trans <|
    (B18_of_ne m ρ c main_arg5 (by decide)).trans <|
    (B17_of m ρ c main_arg5 (by decide)).trans <|
    (B16_of_ne m ρ c main_arg5 (by decide)).trans <|
    (B15_of m ρ c main_arg5 (by decide)).trans <|
    (B14_of_ne m ρ c main_arg5 (by decide)).trans <|
    (B13_of m ρ c main_arg5 (by decide)).trans <|
    (B12_of_ne m ρ c main_arg5 (by decide)).trans <|
    (B11_of m ρ c main_arg5 (by decide)).trans <|
    (B10_of_ne m ρ c main_arg5 (by decide)).trans <|
    (B9_of m ρ c main_arg5 (by decide)).trans <|
    (B8_of_ne m ρ c main_arg5 (by decide)).trans <|
    (B7_of m ρ c main_arg5 (by decide)).trans <|
    (B6_of_ne m ρ c main_arg5 (by decide)).trans <|
    (B5_of m ρ c main_arg5 (by decide)).trans <|
    (B4_of_ne m ρ c main_arg5 (by decide)).trans <|
    (B3_of m ρ c main_arg5 (by decide)).trans <|
    (B2_of_ne m ρ c main_arg5 (by decide)).trans <|
    (B1_of m ρ c main_arg5 (by decide)).trans <| rfl
theorem B20_main_arg6 (c : Dev nD) : B20 m ρ c (Proc.devRef .tc main_arg6) = m ((c : Thread nD τ).loc main_arg6) :=
  (B20_of_ne m ρ c main_arg6 (by decide)).trans <|
    (B19_of m ρ c main_arg6 (by decide)).trans <|
    (B18_of_ne m ρ c main_arg6 (by decide)).trans <|
    (B17_of m ρ c main_arg6 (by decide)).trans <|
    (B16_of_ne m ρ c main_arg6 (by decide)).trans <|
    (B15_of m ρ c main_arg6 (by decide)).trans <|
    (B14_of_ne m ρ c main_arg6 (by decide)).trans <|
    (B13_of m ρ c main_arg6 (by decide)).trans <|
    (B12_of_ne m ρ c main_arg6 (by decide)).trans <|
    (B11_of m ρ c main_arg6 (by decide)).trans <|
    (B10_of_ne m ρ c main_arg6 (by decide)).trans <|
    (B9_of m ρ c main_arg6 (by decide)).trans <|
    (B8_of_ne m ρ c main_arg6 (by decide)).trans <|
    (B7_of m ρ c main_arg6 (by decide)).trans <|
    (B6_of_ne m ρ c main_arg6 (by decide)).trans <|
    (B5_of m ρ c main_arg6 (by decide)).trans <|
    (B4_of_ne m ρ c main_arg6 (by decide)).trans <|
    (B3_of m ρ c main_arg6 (by decide)).trans <|
    (B2_of_ne m ρ c main_arg6 (by decide)).trans <|
    (B1_of m ρ c main_arg6 (by decide)).trans <| rfl
theorem B20_main_arg7 (c : Dev nD) : B20 m ρ c (Proc.devRef .tc main_arg7) = m ((c : Thread nD τ).loc main_arg7) :=
  (B20_of_ne m ρ c main_arg7 (by decide)).trans <|
    (B19_of m ρ c main_arg7 (by decide)).trans <|
    (B18_of_ne m ρ c main_arg7 (by decide)).trans <|
    (B17_of m ρ c main_arg7 (by decide)).trans <|
    (B16_of_ne m ρ c main_arg7 (by decide)).trans <|
    (B15_of m ρ c main_arg7 (by decide)).trans <|
    (B14_of_ne m ρ c main_arg7 (by decide)).trans <|
    (B13_of m ρ c main_arg7 (by decide)).trans <|
    (B12_of_ne m ρ c main_arg7 (by decide)).trans <|
    (B11_of m ρ c main_arg7 (by decide)).trans <|
    (B10_of_ne m ρ c main_arg7 (by decide)).trans <|
    (B9_of m ρ c main_arg7 (by decide)).trans <|
    ((B8_arr m ρ c 1).trans (((dat3 (E7 m ρ) c).arrAt_in 1 rfl _).trans (A_eq3 (E7 m ρ) c 1))).trans <|
    (B7_of m ρ c main_arg7 (by decide)).trans <|
    (B6_of_ne m ρ c main_arg7 (by decide)).trans <|
    (B5_of m ρ c main_arg7 (by decide)).trans <|
    (B4_of_ne m ρ c main_arg7 (by decide)).trans <|
    (B3_of m ρ c main_arg7 (by decide)).trans <|
    (B2_of_ne m ρ c main_arg7 (by decide)).trans <|
    (B1_of m ρ c main_arg7 (by decide)).trans <| rfl
theorem B20_main_arg8 (c : Dev nD) : B20 m ρ c (Proc.devRef .tc main_arg8) = m ((c : Thread nD τ).loc main_arg8) :=
  (B20_of_ne m ρ c main_arg8 (by decide)).trans <|
    (B19_of m ρ c main_arg8 (by decide)).trans <|
    (B18_of_ne m ρ c main_arg8 (by decide)).trans <|
    (B17_of m ρ c main_arg8 (by decide)).trans <|
    (B16_of_ne m ρ c main_arg8 (by decide)).trans <|
    (B15_of m ρ c main_arg8 (by decide)).trans <|
    (B14_of_ne m ρ c main_arg8 (by decide)).trans <|
    (B13_of m ρ c main_arg8 (by decide)).trans <|
    (B12_of_ne m ρ c main_arg8 (by decide)).trans <|
    (B11_of m ρ c main_arg8 (by decide)).trans <|
    (B10_of_ne m ρ c main_arg8 (by decide)).trans <|
    (B9_of m ρ c main_arg8 (by decide)).trans <|
    (B8_of_ne m ρ c main_arg8 (by decide)).trans <|
    (B7_of m ρ c main_arg8 (by decide)).trans <|
    (B6_of_ne m ρ c main_arg8 (by decide)).trans <|
    (B5_of m ρ c main_arg8 (by decide)).trans <|
    (B4_of_ne m ρ c main_arg8 (by decide)).trans <|
    (B3_of m ρ c main_arg8 (by decide)).trans <|
    (B2_of_ne m ρ c main_arg8 (by decide)).trans <|
    (B1_of m ρ c main_arg8 (by decide)).trans <| rfl
theorem B20_main_arg9 (c : Dev nD) : B20 m ρ c (Proc.devRef .tc main_arg9) = m ((c : Thread nD τ).loc main_arg9) :=
  (B20_of_ne m ρ c main_arg9 (by decide)).trans <|
    (B19_of m ρ c main_arg9 (by decide)).trans <|
    (B18_of_ne m ρ c main_arg9 (by decide)).trans <|
    (B17_of m ρ c main_arg9 (by decide)).trans <|
    (B16_of_ne m ρ c main_arg9 (by decide)).trans <|
    (B15_of m ρ c main_arg9 (by decide)).trans <|
    (B14_of_ne m ρ c main_arg9 (by decide)).trans <|
    (B13_of m ρ c main_arg9 (by decide)).trans <|
    (B12_of_ne m ρ c main_arg9 (by decide)).trans <|
    (B11_of m ρ c main_arg9 (by decide)).trans <|
    (B10_of_ne m ρ c main_arg9 (by decide)).trans <|
    (B9_of m ρ c main_arg9 (by decide)).trans <|
    (B8_of_ne m ρ c main_arg9 (by decide)).trans <|
    (B7_of m ρ c main_arg9 (by decide)).trans <|
    (B6_of_ne m ρ c main_arg9 (by decide)).trans <|
    (B5_of m ρ c main_arg9 (by decide)).trans <|
    (B4_of_ne m ρ c main_arg9 (by decide)).trans <|
    (B3_of m ρ c main_arg9 (by decide)).trans <|
    (B2_of_ne m ρ c main_arg9 (by decide)).trans <|
    (B1_of m ρ c main_arg9 (by decide)).trans <| rfl
theorem B20_main_arg10 (c : Dev nD) : B20 m ρ c (Proc.devRef .tc main_arg10) = m ((c : Thread nD τ).loc main_arg10) :=
  (B20_of_ne m ρ c main_arg10 (by decide)).trans <|
    (B19_of m ρ c main_arg10 (by decide)).trans <|
    (B18_of_ne m ρ c main_arg10 (by decide)).trans <|
    (B17_of m ρ c main_arg10 (by decide)).trans <|
    (B16_of_ne m ρ c main_arg10 (by decide)).trans <|
    (B15_of m ρ c main_arg10 (by decide)).trans <|
    (B14_of_ne m ρ c main_arg10 (by decide)).trans <|
    (B13_of m ρ c main_arg10 (by decide)).trans <|
    (B12_of_ne m ρ c main_arg10 (by decide)).trans <|
    (B11_of m ρ c main_arg10 (by decide)).trans <|
    (B10_of_ne m ρ c main_arg10 (by decide)).trans <|
    (B9_of m ρ c main_arg10 (by decide)).trans <|
    (B8_of_ne m ρ c main_arg10 (by decide)).trans <|
    (B7_of m ρ c main_arg10 (by decide)).trans <|
    (B6_of_ne m ρ c main_arg10 (by decide)).trans <|
    (B5_of m ρ c main_arg10 (by decide)).trans <|
    (B4_of_ne m ρ c main_arg10 (by decide)).trans <|
    (B3_of m ρ c main_arg10 (by decide)).trans <|
    (B2_of_ne m ρ c main_arg10 (by decide)).trans <|
    (B1_of m ρ c main_arg10 (by decide)).trans <| rfl
theorem B20_main_arg11 (c : Dev nD) : B20 m ρ c (Proc.devRef .tc main_arg11) = m ((c : Thread nD τ).loc main_arg11) :=
  (B20_of_ne m ρ c main_arg11 (by decide)).trans <|
    (B19_of m ρ c main_arg11 (by decide)).trans <|
    (B18_of_ne m ρ c main_arg11 (by decide)).trans <|
    (B17_of m ρ c main_arg11 (by decide)).trans <|
    (B16_of_ne m ρ c main_arg11 (by decide)).trans <|
    (B15_of m ρ c main_arg11 (by decide)).trans <|
    ((B14_arr m ρ c 1).trans (((dat6 (E13 m ρ) c).arrAt_in 1 rfl _).trans (A_eq6 (E13 m ρ) c 1))).trans <|
    (B13_of m ρ c main_arg11 (by decide)).trans <|
    (B12_of_ne m ρ c main_arg11 (by decide)).trans <|
    (B11_of m ρ c main_arg11 (by decide)).trans <|
    (B10_of_ne m ρ c main_arg11 (by decide)).trans <|
    (B9_of m ρ c main_arg11 (by decide)).trans <|
    (B8_of_ne m ρ c main_arg11 (by decide)).trans <|
    (B7_of m ρ c main_arg11 (by decide)).trans <|
    (B6_of_ne m ρ c main_arg11 (by decide)).trans <|
    (B5_of m ρ c main_arg11 (by decide)).trans <|
    (B4_of_ne m ρ c main_arg11 (by decide)).trans <|
    (B3_of m ρ c main_arg11 (by decide)).trans <|
    (B2_of_ne m ρ c main_arg11 (by decide)).trans <|
    (B1_of m ρ c main_arg11 (by decide)).trans <| rfl
theorem B20_main_arg12 (c : Dev nD) : B20 m ρ c (Proc.devRef .tc main_arg12) = m ((c : Thread nD τ).loc main_arg12) :=
  (B20_of_ne m ρ c main_arg12 (by decide)).trans <|
    (B19_of m ρ c main_arg12 (by decide)).trans <|
    (B18_of_ne m ρ c main_arg12 (by decide)).trans <|
    (B17_of m ρ c main_arg12 (by decide)).trans <|
    (B16_of_ne m ρ c main_arg12 (by decide)).trans <|
    (B15_of m ρ c main_arg12 (by decide)).trans <|
    (B14_of_ne m ρ c main_arg12 (by decide)).trans <|
    (B13_of m ρ c main_arg12 (by decide)).trans <|
    (B12_of_ne m ρ c main_arg12 (by decide)).trans <|
    (B11_of m ρ c main_arg12 (by decide)).trans <|
    (B10_of_ne m ρ c main_arg12 (by decide)).trans <|
    (B9_of m ρ c main_arg12 (by decide)).trans <|
    (B8_of_ne m ρ c main_arg12 (by decide)).trans <|
    (B7_of m ρ c main_arg12 (by decide)).trans <|
    (B6_of_ne m ρ c main_arg12 (by decide)).trans <|
    (B5_of m ρ c main_arg12 (by decide)).trans <|
    (B4_of_ne m ρ c main_arg12 (by decide)).trans <|
    (B3_of m ρ c main_arg12 (by decide)).trans <|
    (B2_of_ne m ρ c main_arg12 (by decide)).trans <|
    (B1_of m ρ c main_arg12 (by decide)).trans <| rfl
theorem B20_main_arg13 (c : Dev nD) : B20 m ρ c (Proc.devRef .tc main_arg13) = m ((c : Thread nD τ).loc main_arg13) :=
  (B20_of_ne m ρ c main_arg13 (by decide)).trans <|
    (B19_of m ρ c main_arg13 (by decide)).trans <|
    (B18_of_ne m ρ c main_arg13 (by decide)).trans <|
    (B17_of m ρ c main_arg13 (by decide)).trans <|
    (B16_of_ne m ρ c main_arg13 (by decide)).trans <|
    (B15_of m ρ c main_arg13 (by decide)).trans <|
    (B14_of_ne m ρ c main_arg13 (by decide)).trans <|
    (B13_of m ρ c main_arg13 (by decide)).trans <|
    (B12_of_ne m ρ c main_arg13 (by decide)).trans <|
    (B11_of m ρ c main_arg13 (by decide)).trans <|
    (B10_of_ne m ρ c main_arg13 (by decide)).trans <|
    (B9_of m ρ c main_arg13 (by decide)).trans <|
    (B8_of_ne m ρ c main_arg13 (by decide)).trans <|
    (B7_of m ρ c main_arg13 (by decide)).trans <|
    (B6_of_ne m ρ c main_arg13 (by decide)).trans <|
    (B5_of m ρ c main_arg13 (by decide)).trans <|
    (B4_of_ne m ρ c main_arg13 (by decide)).trans <|
    (B3_of m ρ c main_arg13 (by decide)).trans <|
    (B2_of_ne m ρ c main_arg13 (by decide)).trans <|
    (B1_of m ρ c main_arg13 (by decide)).trans <| rfl
theorem B20_main_arg14 (c : Dev nD) : B20 m ρ c (Proc.devRef .tc main_arg14) = m ((c : Thread nD τ).loc main_arg14) :=
  (B20_of_ne m ρ c main_arg14 (by decide)).trans <|
    (B19_of m ρ c main_arg14 (by decide)).trans <|
    (B18_of_ne m ρ c main_arg14 (by decide)).trans <|
    (B17_of m ρ c main_arg14 (by decide)).trans <|
    (B16_of_ne m ρ c main_arg14 (by decide)).trans <|
    (B15_of m ρ c main_arg14 (by decide)).trans <|
    (B14_of_ne m ρ c main_arg14 (by decide)).trans <|
    (B13_of m ρ c main_arg14 (by decide)).trans <|
    (B12_of_ne m ρ c main_arg14 (by decide)).trans <|
    (B11_of m ρ c main_arg14 (by decide)).trans <|
    (B10_of_ne m ρ c main_arg14 (by decide)).trans <|
    (B9_of m ρ c main_arg14 (by decide)).trans <|
    (B8_of_ne m ρ c main_arg14 (by decide)).trans <|
    (B7_of m ρ c main_arg14 (by decide)).trans <|
    (B6_of_ne m ρ c main_arg14 (by decide)).trans <|
    (B5_of m ρ c main_arg14 (by decide)).trans <|
    (B4_of_ne m ρ c main_arg14 (by decide)).trans <|
    (B3_of m ρ c main_arg14 (by decide)).trans <|
    (B2_of_ne m ρ c main_arg14 (by decide)).trans <|
    (B1_of m ρ c main_arg14 (by decide)).trans <| rfl
theorem B20_main_arg15 (c : Dev nD) : B20 m ρ c (Proc.devRef .tc main_arg15) = m ((c : Thread nD τ).loc main_arg15) :=
  ((B20_arr m ρ c 1).trans (((dat9 (E19 m ρ) c).arrAt_in 1 rfl _).trans (A_eq9 (E19 m ρ) c 1))).trans <|
    (B19_of m ρ c main_arg15 (by decide)).trans <|
    (B18_of_ne m ρ c main_arg15 (by decide)).trans <|
    (B17_of m ρ c main_arg15 (by decide)).trans <|
    (B16_of_ne m ρ c main_arg15 (by decide)).trans <|
    (B15_of m ρ c main_arg15 (by decide)).trans <|
    (B14_of_ne m ρ c main_arg15 (by decide)).trans <|
    (B13_of m ρ c main_arg15 (by decide)).trans <|
    (B12_of_ne m ρ c main_arg15 (by decide)).trans <|
    (B11_of m ρ c main_arg15 (by decide)).trans <|
    (B10_of_ne m ρ c main_arg15 (by decide)).trans <|
    (B9_of m ρ c main_arg15 (by decide)).trans <|
    (B8_of_ne m ρ c main_arg15 (by decide)).trans <|
    (B7_of m ρ c main_arg15 (by decide)).trans <|
    (B6_of_ne m ρ c main_arg15 (by decide)).trans <|
    (B5_of m ρ c main_arg15 (by decide)).trans <|
    (B4_of_ne m ρ c main_arg15 (by decide)).trans <|
    (B3_of m ρ c main_arg15 (by decide)).trans <|
    (B2_of_ne m ρ c main_arg15 (by decide)).trans <|
    (B1_of m ρ c main_arg15 (by decide)).trans <| rfl
theorem B20_main_arg16 (c : Dev nD) : B20 m ρ c (Proc.devRef .tc main_arg16) = m ((c : Thread nD τ).loc main_arg16) :=
  (B20_of_ne m ρ c main_arg16 (by decide)).trans <|
    (B19_of m ρ c main_arg16 (by decide)).trans <|
    (B18_of_ne m ρ c main_arg16 (by decide)).trans <|
    (B17_of m ρ c main_arg16 (by decide)).trans <|
    (B16_of_ne m ρ c main_arg16 (by decide)).trans <|
    (B15_of m ρ c main_arg16 (by decide)).trans <|
    (B14_of_ne m ρ c main_arg16 (by decide)).trans <|
    (B13_of m ρ c main_arg16 (by decide)).trans <|
    (B12_of_ne m ρ c main_arg16 (by decide)).trans <|
    (B11_of m ρ c main_arg16 (by decide)).trans <|
    (B10_of_ne m ρ c main_arg16 (by decide)).trans <|
    (B9_of m ρ c main_arg16 (by decide)).trans <|
    (B8_of_ne m ρ c main_arg16 (by decide)).trans <|
    (B7_of m ρ c main_arg16 (by decide)).trans <|
    (B6_of_ne m ρ c main_arg16 (by decide)).trans <|
    (B5_of m ρ c main_arg16 (by decide)).trans <|
    (B4_of_ne m ρ c main_arg16 (by decide)).trans <|
    (B3_of m ρ c main_arg16 (by decide)).trans <|
    (B2_of_ne m ρ c main_arg16 (by decide)).trans <|
    (B1_of m ρ c main_arg16 (by decide)).trans <| rfl

/-! ## The proof data family and the thread state -/

abbrev padm : (p : Fin 10) → (pcfgs (F := F) p).Adm := fun p => (cfgs p).toPCfg_adm
/-- Every pipeline's proof data, each at its region's entry contents. -/
def pdats : (p : Fin 10) → (c : Dev nD) → Dat τ (Elt F) Unit ℕ (UR sig nD τ) ℕ (Pipeline.pin (pcfgs (F := F)) padm p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
  | ⟨8, _⟩ => fun c => dat8 (E17 m ρ) c
  | ⟨9, _⟩ => fun c => dat9 (E19 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B20 m ρ c) ∗ ∃ r, prngReg c r)

/-! ## The regions as segments -/

set_option backward.isDefEq.respectTransparency.types false in
/-- Region 0 over the thread state: entered from every unscoped buffer at boundary 1's contents, left at boundary 2's. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 3's contents, left at boundary 4's. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Φn1 (E3 m ρ) c 0 from rfl]; erw [scopedRest1_split]; unfold Φn1 rest1
    iintro ⟨Hp, -, ⟨⟨%f0, S0⟩, ⟨%f1, S1⟩⟩, Hr⟩
    isplitl [S0]; · iexists f0; rw [owns_whole]; iexact S0
    isplitl [S1]; · iexists f1; rw [owns_whole]; iexact S1
    isplitl [Hr]; · iexact Hr
    iexact Hp
  hout c := by
    rw [Pipeline.ownSems0_none, show (pdats m ρ 1 c).Φ (Fin.last _) = Φn1 (E3 m ρ) c (4 + 1) from rfl]; erw [scopedRest1_split]
    rw [show Φn1 (E3 m ρ) c (4 + 1) = iprop(owns (c : Thread nD τ) (Memref.whole cc1_scratch0) fullShare (sumAt1 (E3 m ρ) c 4) ∗ owns (c : Thread nD τ) (Memref.whole cc1_scratch1) fullShare (sqAt1 (E3 m ρ) c 4) ∗ rest1 (F := F) c) from rfl]
    unfold rest1
    rw [owns_whole, owns_whole]
    iintro ⟨S0, S1, Hr, Hp⟩
    isplitl [Hp]; · iexact Hp
    isplitr; · iempintro
    isplitl [S0 S1]
    · isplitl [S0]; · iexists _; iexact S0
      iexists _; iexact S1
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 5's contents, left at boundary 6's. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at boundary 7's contents, left at boundary 8's. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(StableHlo.held (c : Thread nD τ) (Pipeline.ucRefs τ sig) (B8 m ρ c) ∗ R c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at boundary 9's contents, left at boundary 10's. -/
def reg4 : Pipeline.RegionSeg (pcfgs (F := F)) padm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ L lv 4 fun _ _ => rfl
  pre c := iprop(StableHlo.held (c : Thread nD τ) (Pipeline.ucRefs τ sig) (B9 m ρ c) ∗ R c)
  post c := iprop(StableHlo.held (c : Thread nD τ) (Pipeline.ucRefs τ sig) (B10 m ρ c) ∗ R c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) padm (pdats m ρ) launch4.win launch4.arr_whole c
      ((pdats m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Φn4 (E9 m ρ) c 0 from rfl]; erw [scopedRest4_split]; unfold Φn4 rest4
    iintro ⟨Hp, -, ⟨⟨%f0, S0⟩, ⟨%f1, S1⟩⟩, Hr⟩
    isplitl [S0]; · iexists f0; rw [owns_whole]; iexact S0
    isplitl [S1]; · iexists f1; rw [owns_whole]; iexact S1
    isplitl [Hr]; · iexact Hr
    iexact Hp
  hout c := by
    rw [Pipeline.ownSems0_none, show (pdats m ρ 4 c).Φ (Fin.last _) = Φn4 (E9 m ρ) c (4 + 1) from rfl]; erw [scopedRest4_split]
    rw [show Φn4 (E9 m ρ) c (4 + 1) = iprop(owns (c : Thread nD τ) (Memref.whole cc4_scratch0) fullShare (sumAt4 (E9 m ρ) c 4) ∗ owns (c : Thread nD τ) (Memref.whole cc4_scratch1) fullShare (sqAt4 (E9 m ρ) c 4) ∗ rest4 (F := F) c) from rfl]
    unfold rest4
    rw [owns_whole, owns_whole]
    iintro ⟨S0, S1, Hr, Hp⟩
    isplitl [Hp]; · iexact Hp
    isplitr; · iempintro
    isplitl [S0 S1]
    · isplitl [S0]; · iexists _; iexact S0
      iexists _; iexact S1
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m ρ) ((pdats m ρ 4 c).share_full fun _ => rfl)
      (E9 m ρ c) (E10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at boundary 11's contents, left at boundary 12's. -/
def reg5 : Pipeline.RegionSeg (pcfgs (F := F)) padm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ L lv 5 fun _ _ => rfl
  pre c := iprop(StableHlo.held (c : Thread nD τ) (Pipeline.ucRefs τ sig) (B11 m ρ c) ∗ R c)
  post c := iprop(StableHlo.held (c : Thread nD τ) (Pipeline.ucRefs τ sig) (B12 m ρ c) ∗ R c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) padm (pdats m ρ) launch5.win launch5.arr_whole c
      ((pdats m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) padm (Ix := Unit) (Name := ℕ) (U := UR sig nD τ) (Lvl := ℕ)
      launch5.win launch5.arr_whole c (pdats m ρ) ((pdats m ρ 5 c).share_full fun _ => rfl)
      (E11 m ρ c) (E12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at boundary 13's contents, left at boundary 14's. -/
def reg6 : Pipeline.RegionSeg (pcfgs (F := F)) padm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ L lv 6 fun _ _ => rfl
  pre c := iprop(StableHlo.held (c : Thread nD τ) (Pipeline.ucRefs τ sig) (B13 m ρ c) ∗ R c)
  post c := iprop(StableHlo.held (c : Thread nD τ) (Pipeline.ucRefs τ sig) (B14 m ρ c) ∗ R c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) padm (pdats m ρ) launch6.win launch6.arr_whole c
      ((pdats m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) padm (Ix := Unit) (Name := ℕ) (U := UR sig nD τ) (Lvl := ℕ)
      launch6.win launch6.arr_whole c (pdats m ρ) ((pdats m ρ 6 c).share_full fun _ => rfl)
      (E13 m ρ c) (E14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at boundary 15's contents, left at boundary 16's. -/
def reg7 : Pipeline.RegionSeg (pcfgs (F := F)) padm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ L lv 7 fun _ _ => rfl
  pre c := iprop(StableHlo.held (c : Thread nD τ) (Pipeline.ucRefs τ sig) (B15 m ρ c) ∗ R c)
  post c := iprop(StableHlo.held (c : Thread nD τ) (Pipeline.ucRefs τ sig) (B16 m ρ c) ∗ R c)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) padm (pdats m ρ) launch7.win launch7.arr_whole c
      ((pdats m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Φn7 (E15 m ρ) c 0 from rfl]; erw [scopedRest7_split]; unfold Φn7 rest7
    iintro ⟨Hp, -, ⟨⟨%f0, S0⟩, ⟨%f1, S1⟩⟩, Hr⟩
    isplitl [S0]; · iexists f0; rw [owns_whole]; iexact S0
    isplitl [S1]; · iexists f1; rw [owns_whole]; iexact S1
    isplitl [Hr]; · iexact Hr
    iexact Hp
  hout c := by
    rw [Pipeline.ownSems0_none, show (pdats m ρ 7 c).Φ (Fin.last _) = Φn7 (E15 m ρ) c (4 + 1) from rfl]; erw [scopedRest7_split]
    rw [show Φn7 (E15 m ρ) c (4 + 1) = iprop(owns (c : Thread nD τ) (Memref.whole cc7_scratch0) fullShare (sumAt7 (E15 m ρ) c 4) ∗ owns (c : Thread nD τ) (Memref.whole cc7_scratch1) fullShare (sqAt7 (E15 m ρ) c 4) ∗ rest7 (F := F) c) from rfl]
    unfold rest7
    rw [owns_whole, owns_whole]
    iintro ⟨S0, S1, Hr, Hp⟩
    isplitl [Hp]; · iexact Hp
    isplitr; · iempintro
    isplitl [S0 S1]
    · isplitl [S0]; · iexists _; iexact S0
      iexists _; iexact S1
    iexact Hr
  hexit c := by
    have hjoin := Pipeline.unscopedBufs_of_arrays (p := 7) (pcfgs (F := F)) padm (Ix := Unit) (Name := ℕ) (U := UR sig nD τ) (Lvl := ℕ)
      launch7.win launch7.arr_whole c (pdats m ρ) ((pdats m ρ 7 c).share_full fun _ => rfl)
      (E15 m ρ c) (E16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at boundary 17's contents, left at boundary 18's. -/
def reg8 : Pipeline.RegionSeg (pcfgs (F := F)) padm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E17 m ρ) c).loose
  hwaits := Pipeline.hwaits_of_owed_zero _ _ _ _ L lv 8 fun _ _ => rfl
  pre c := iprop(StableHlo.held (c : Thread nD τ) (Pipeline.ucRefs τ sig) (B17 m ρ c) ∗ R c)
  post c := iprop(StableHlo.held (c : Thread nD τ) (Pipeline.ucRefs τ sig) (B18 m ρ c) ∗ R c)
  X c := iprop(∃ r, prngReg c r)
  Y c := iprop(∃ r, prngReg c r)
  Z c := Pipeline.unscopedRest (Ix := Unit) (Name := ℕ) (U := UR sig nD τ) (Lvl := ℕ) spec8 c (E17 m ρ c)
  hentry c := by
    rw [Pipeline.ownSems0_none]
    have hsplit := Pipeline.arrays_of_unscopedBufs (p := 8) (pcfgs (F := F)) padm (pdats m ρ) launch8.win launch8.arr_whole c
      ((pdats m ρ 8 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) padm (Ix := Unit) (Name := ℕ) (U := UR sig nD τ) (Lvl := ℕ)
      launch8.win launch8.arr_whole c (pdats m ρ) ((pdats m ρ 8 c).share_full fun _ => rfl)
      (E17 m ρ c) (E18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at boundary 19's contents, left at boundary 20's. -/
def reg9 : Pipeline.RegionSeg (pcfgs (F := F)) padm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (E19 m ρ) c).loose
  hwaits := Pipeline.hwaits_of_owed_zero _ _ _ _ L lv 9 fun _ _ => rfl
  pre c := iprop(StableHlo.held (c : Thread nD τ) (Pipeline.ucRefs τ sig) (B19 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec9 c (E19 m ρ c)
  hentry c := by
    rw [Pipeline.ownSems0_none]
    have hsplit := Pipeline.arrays_of_unscopedBufs (p := 9) (pcfgs (F := F)) padm (pdats m ρ) launch9.win launch9.arr_whole c
      ((pdats m ρ 9 c).share_full fun _ => rfl) (E19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) padm (Ix := Unit) (Name := ℕ) (U := UR sig nD τ) (Lvl := ℕ)
      launch9.win launch9.arr_whole c (pdats m ρ) ((pdats m ρ 9 c).share_full fun _ => rfl)
      (E19 m ρ c) (E20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev psegs : List (Pipeline.Seg (pcfgs (F := F)) padm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ),
    .host (hseg hostOps4 hostOps4_sub hostOps4_fresh (B8 m ρ)),
    .region (reg4 m ρ),
    .host (hseg hostOps5 hostOps5_sub hostOps5_fresh (B10 m ρ)),
    .region (reg5 m ρ),
    .host (hseg hostOps6 hostOps6_sub hostOps6_fresh (B12 m ρ)),
    .region (reg6 m ρ),
    .host (hseg hostOps7 hostOps7_sub hostOps7_fresh (B14 m ρ)),
    .region (reg7 m ρ),
    .host (hseg hostOps8 hostOps8_sub hostOps8_fresh (B16 m ρ)),
    .region (reg8 m ρ),
    .host (hseg hostOps9 hostOps9_sub hostOps9_fresh (B18 m ρ)),
    .region (reg9 m ρ) ]

set_option backward.isDefEq.respectTransparency.types false in
/-- THE RUN: from any memory with zero counters every weakly fair execution of @main terminates, nothing faulting; the
    result buffer ends at the last boundary's contents and every argument array as launched. -/
theorem run : θ_run defs (onTc (τ := τ) (main (F := F))) ⟨m, fun _ => 0, ρ⟩ (fun r => ∀ c : Dev nD,
      r.2.mem ((c.tc : Thread nD τ).loc main_v157) = E20 m ρ c main_v157
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) padm (pdats m ρ) () cellOf_inj emb₁ defs₀ 𝒱₀ L lv m ρ main (psegs m ρ)
    (fun c Q => by
      rewrite [main_chain c, Pipeline.Seg.run_eq_chain,
        show (psegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B20 m ρ c b)
    (hfin := fun c s' => by
      iintro ⟨⟨Hh, -⟩, HSI⟩
      unfold StableHlo.held
      imodintro
      iapply (pointsTo_read_all (Pipeline.ucRefs τ sig) (fun b => (((c : Thread nD τ)).1, b)) (B20 m ρ c) s')
      isplitl [Hh] <;> iassumption)
    (hQ := fun s h c =>
      ⟨h c _ (mem_uc main_v157 (by decide)),
       (h c _ (mem_uc main_arg0 (by decide))).trans (B20_main_arg0 m ρ c),
       (h c _ (mem_uc main_arg1 (by decide))).trans (B20_main_arg1 m ρ c),
       (h c _ (mem_uc main_arg2 (by decide))).trans (B20_main_arg2 m ρ c),
       (h c _ (mem_uc main_arg3 (by decide))).trans (B20_main_arg3 m ρ c),
       (h c _ (mem_uc main_arg4 (by decide))).trans (B20_main_arg4 m ρ c),
       (h c _ (mem_uc main_arg5 (by decide))).trans (B20_main_arg5 m ρ c),
       (h c _ (mem_uc main_arg6 (by decide))).trans (B20_main_arg6 m ρ c),
       (h c _ (mem_uc main_arg7 (by decide))).trans (B20_main_arg7 m ρ c),
       (h c _ (mem_uc main_arg8 (by decide))).trans (B20_main_arg8 m ρ c),
       (h c _ (mem_uc main_arg9 (by decide))).trans (B20_main_arg9 m ρ c),
       (h c _ (mem_uc main_arg10 (by decide))).trans (B20_main_arg10 m ρ c),
       (h c _ (mem_uc main_arg11 (by decide))).trans (B20_main_arg11 m ρ c),
       (h c _ (mem_uc main_arg12 (by decide))).trans (B20_main_arg12 m ρ c),
       (h c _ (mem_uc main_arg13 (by decide))).trans (B20_main_arg13 m ρ c),
       (h c _ (mem_uc main_arg14 (by decide))).trans (B20_main_arg14 m ρ c),
       (h c _ (mem_uc main_arg15 (by decide))).trans (B20_main_arg15 m ρ c),
       (h c _ (mem_uc main_arg16 (by decide))).trans (B20_main_arg16 m ρ c)⟩)

end Cert.KernelIdeal.Frame

end
-- ==== Proof.RefRunOps.lean ====
/-
  The reference program's @main as a list of its 280 host operations, the three outlined functions' operations listed
  inline at each call over the call's own buffers, cut into 24 consecutive stages by what they compute; the equation
  of each printed window of @main with the run of its stages, and of @main with the run of all of them; and, per stage,
  that its operations touch TensorCore buffers only, allocate nothing, and which buffers they write (so that a buffer
  a stage does not write keeps its contents through it).
-/
import proofs.«120485_j12249246728930_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines of operations in a row: the second line's, from the first line's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A property of every operation of two lines in a row, from the two lines'. -/
theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun op h => (List.mem_append.mp h).elim
    (List.forall_iff_forall_mem.mp h₁ op) (List.forall_iff_forall_mem.mp h₂ op)

/-- Operations 1 … 7 of 280: the two rows of the edge table, each with the node range appended: the sources and the targets of the edges and of one self loop per node. -/
abbrev stage0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 8 … 21 of 280: the in-degree of every node, a sum of ones scattered at the targets, and its reciprocal square root. -/
abbrev stage1 : List (HloOp τ sig (Elt F)) :=
  [ StableHlo.nullary main_cst (constant S_ .f32 0x00000000#32),
    StableHlo.unary main_cst main_v7 (broadcastInDim S50000 ![] bcast_S_S50000 : (⟨S_, .f32⟩ : BufTy).Contents (Elt F) → (⟨S50000, .f32⟩ : BufTy).Contents (Elt F)),
    StableHlo.nullary main_c (constantI S_ 32 0#32),
    StableHlo.unary main_c main_v8 (broadcastInDim S850000 ![] bcast_S_S850000 : (⟨S_, .i32⟩ : BufTy).Contents (Elt F) → (⟨S850000, .i32⟩ : BufTy).Contents (Elt F)),
    StableHlo.binary main_v6 main_v8 main_v9 (cmpi .slt : (⟨S850000, .i32⟩ : BufTy).Contents (Elt F) → (⟨S850000, .i32⟩ : BufTy).Contents (Elt F) → (⟨S850000, .i1⟩ : BufTy).Contents (Elt F)),
    StableHlo.nullary main_c_0 (constantI S_ 32 50000#32),
    StableHlo.unary main_c_0 main_v10 (broadcastInDim S850000 ![] bcast_S_S850000 : (⟨S_, .i32⟩ : BufTy).Contents (Elt F) → (⟨S850000, .i32⟩ : BufTy).Contents (Elt F)),
    StableHlo.binary main_v6 main_v10 main_v11 (addi : (⟨S850000, .i32⟩ : BufTy).Contents (Elt F) → (⟨S850000, .i32⟩ : BufTy).Contents (Elt F) → (⟨S850000, .i32⟩ : BufTy).Contents (Elt F)),
    StableHlo.ternary main_v9 main_v11 main_v6 main_v12 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v12 main_v13 (broadcastInDim S850000x1 ![0] bcast_S850000_S850000x1_0 : (⟨S850000, .i32⟩ : BufTy).Contents (Elt F) → (⟨S850000x1, .i32⟩ : BufTy).Contents (Elt F)),
    StableHlo.nullary main_cst_1 (constant S_ .f32 0x3F800000#32),
    StableHlo.unary main_cst_1 main_v14 (broadcastInDim S850000 ![] bcast_S_S850000 : (⟨S_, .f32⟩ : BufTy).Contents (Elt F) → (⟨S850000, .f32⟩ : BufTy).Contents (Elt F)),
    StableHlo.ternary main_v7 main_v13 main_v14 main_v15 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)) ]

/-- Operations 22 … 41 of 280: the weight of every edge: the product of the two factors gathered at its source and at its target. -/
abbrev stage2 : List (HloOp τ sig (Elt F)) :=
  [ StableHlo.nullary main_c_2 (constantI S_ 32 0#32),
    StableHlo.unary main_c_2 main_v17 (broadcastInDim S850000 ![] bcast_S_S850000 : (⟨S_, .i32⟩ : BufTy).Contents (Elt F) → (⟨S850000, .i32⟩ : BufTy).Contents (Elt F)),
    StableHlo.binary main_v5 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v19 (broadcastInDim S850000 ![] bcast_S_S850000 : (⟨S_, .i32⟩ : BufTy).Contents (Elt F) → (⟨S850000, .i32⟩ : BufTy).Contents (Elt F)),
    StableHlo.binary main_v5 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v5 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.unary main_v31 main_v32 (broadcastInDim S850000x1 ![0] bcast_S850000_S850000x1_0 : (⟨S850000, .f32⟩ : BufTy).Contents (Elt F) → (⟨S850000x1, .f32⟩ : BufTy).Contents (Elt F)) ]

/-- Operations 42 … 55 of 280: layer 1: the features times the weight matrix, gathered at the sources and scaled by the edge weights. -/
abbrev stage3 : List (HloOp τ sig (Elt F)) :=
  [ StableHlo.binary main_arg0 main_arg3 main_v33 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst_6 (constant S_ .f32 0x00000000#32),
    StableHlo.unary main_cst_6 main_v34 (broadcastInDim S50000x64 ![] bcast_S_S50000x64 : (⟨S_, .f32⟩ : BufTy).Contents (Elt F) → (⟨S50000x64, .f32⟩ : BufTy).Contents (Elt F)),
    StableHlo.nullary main_c_7 (constantI S_ 32 0#32),
    StableHlo.unary main_c_7 main_v35 (broadcastInDim S850000 ![] bcast_S_S850000 : (⟨S_, .i32⟩ : BufTy).Contents (Elt F) → (⟨S850000, .i32⟩ : BufTy).Contents (Elt F)),
    StableHlo.binary main_v5 main_v35 main_v36 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v37 (broadcastInDim S850000 ![] bcast_S_S850000 : (⟨S_, .i32⟩ : BufTy).Contents (Elt F) → (⟨S850000, .i32⟩ : BufTy).Contents (Elt F)),
    StableHlo.binary main_v5 main_v37 main_v38 (addi : (⟨S850000, .i32⟩ : BufTy).Contents (Elt F) → (⟨S850000, .i32⟩ : BufTy).Contents (Elt F) → (⟨S850000, .i32⟩ : BufTy).Contents (Elt F)),
    StableHlo.ternary main_v36 main_v38 main_v5 main_v39 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v39 main_v40 (broadcastInDim S850000x1 ![0] bcast_S850000_S850000x1_0 : (⟨S850000, .i32⟩ : BufTy).Contents (Elt F) → (⟨S850000x1, .i32⟩ : BufTy).Contents (Elt F)),
    StableHlo.binary main_v33 main_v40 main_v41 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v42 (broadcastInDim S850000x64 ![0, 1] bcast_S850000x1_S850000x64_0_1 : (⟨S850000x1, .f32⟩ : BufTy).Contents (Elt F) → (⟨S850000x64, .f32⟩ : BufTy).Contents (Elt F)),
    StableHlo.binary main_v42 main_v41 main_v43 (mulf : (⟨S850000x64, .f32⟩ : BufTy).Contents (Elt F) → (⟨S850000x64, .f32⟩ : BufTy).Contents (Elt F) → (⟨S850000x64, .f32⟩ : BufTy).Contents (Elt F)) ]

/-- Operations 56 … 60 of 280: layer 1: the comparison and the offset that wrap a negative target index. -/
abbrev stage4 : List (HloOp τ sig (Elt F)) :=
  [ StableHlo.nullary main_c_9 (constantI S_ 32 0#32),
    StableHlo.unary main_c_9 main_v44 (broadcastInDim S850000 ![] bcast_S_S850000 : (⟨S_, .i32⟩ : BufTy).Contents (Elt F) → (⟨S850000, .i32⟩ : BufTy).Contents (Elt F)),
    StableHlo.binary main_v6 main_v44 main_v45 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v46 (broadcastInDim S850000 ![] bcast_S_S850000 : (⟨S_, .i32⟩ : BufTy).Contents (Elt F) → (⟨S850000, .i32⟩ : BufTy).Contents (Elt F)) ]

/-- Operations 61 … 67 of 280: layer 1: the messages summed at the targets, plus the bias. -/
abbrev stage5 : List (HloOp τ sig (Elt F)) :=
  [ StableHlo.binary main_v6 main_v46 main_v47 (addi : (⟨S850000, .i32⟩ : BufTy).Contents (Elt F) → (⟨S850000, .i32⟩ : BufTy).Contents (Elt F) → (⟨S850000, .i32⟩ : BufTy).Contents (Elt F)),
    StableHlo.ternary main_v45 main_v47 main_v6 main_v48 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v48 main_v49 (broadcastInDim S850000x1 ![0] bcast_S850000_S850000x1_0 : (⟨S850000, .i32⟩ : BufTy).Contents (Elt F) → (⟨S850000x1, .i32⟩ : BufTy).Contents (Elt F)),
    StableHlo.ternary main_v34 main_v49 main_v43 main_v50 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg4 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)),
    StableHlo.binary main_v50 main_v52 main_v53 (addf : (⟨S50000x64, .f32⟩ : BufTy).Contents (Elt F) → (⟨S50000x64, .f32⟩ : BufTy).Contents (Elt F) → (⟨S50000x64, .f32⟩ : BufTy).Contents (Elt F)) ]

/-- Operations 68 … 73 of 280: layer 1: the mean over the nodes of every feature. -/
abbrev stage6 : List (HloOp τ sig (Elt F)) :=
  [ StableHlo.nullary main_cst_11 (constant S_ .f32 0x00000000#32),
    StableHlo.binary main_v53 main_cst_11 main_v54 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_12 (constant S_ .f32 0x47435000#32),
    StableHlo.unary main_cst_12 main_v55 (broadcastInDim S64 ![] bcast_S_S64 : (⟨S_, .f32⟩ : BufTy).Contents (Elt F) → (⟨S64, .f32⟩ : BufTy).Contents (Elt F)),
    StableHlo.binary main_v54 main_v55 main_v56 (Host.divf : (⟨S64, .f32⟩ : BufTy).Contents (Elt F) → (⟨S64, .f32⟩ : BufTy).Contents (Elt F) → (⟨S64, .f32⟩ : BufTy).Contents (Elt F)),
    StableHlo.nullary main_c_13 (constantI S_ 32 0#32) ]

/-- Operations 74 … 95 of 280: layer 1: the variance over the nodes of every feature (the outlined function, its selection included). -/
abbrev stage7 : List (HloOp τ sig (Elt F)) :=
  [ StableHlo.TRef.nullary main_call0.cst (constant S_ .f32 0x00000000#32),
    StableHlo.TRef.binary (.of main_v53 : StableHlo.TRef sig ⟨S50000x64, .f32⟩) main_call0.cst main_call0.v0 (fun x v => Host.reduceAdd x v reducesTo_S50000x64_S64_d0 h_S_),
    StableHlo.TRef.unary main_call0.v0 main_call0.v1 (broadcastInDim S1x64 ![1] bcast_S64_S1x64_1),
    StableHlo.TRef.nullary main_call0.cst_0 (constant S_ .f32 0x47435000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S50000x64 ![0, 1] bcast_S1x64_S50000x64_0_1),
    StableHlo.TRef.binary (.of main_v53 : StableHlo.TRef sig ⟨S50000x64, .f32⟩) main_call0.v4 main_call0.v5 subf,
    StableHlo.TRef.binary main_call0.v5 main_call0.v5 main_call0.v6 mulf,
    StableHlo.TRef.unary (.of main_c_13 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b) ]

/-- Operations 96 … 111 of 280: layer 1: the features centred, scaled by the reciprocal standard deviation, by the gain, and shifted. -/
abbrev stage8 : List (HloOp τ sig (Elt F)) :=
  [ StableHlo.unary main_v56 main_v58 (broadcastInDim S1x64 ![1] bcast_S64_S1x64_1 : (⟨S64, .f32⟩ : BufTy).Contents (Elt F) → (⟨S1x64, .f32⟩ : BufTy).Contents (Elt F)),
    StableHlo.unary main_v58 main_v59 (broadcastInDim S50000x64 ![0, 1] bcast_S1x64_S50000x64_0_1 : (⟨S1x64, .f32⟩ : BufTy).Contents (Elt F) → (⟨S50000x64, .f32⟩ : BufTy).Contents (Elt F)),
    StableHlo.binary main_v53 main_v59 main_v60 (subf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x3727C5AC#32),
    StableHlo.unary main_cst_14 main_v61 (broadcastInDim S64 ![] bcast_S_S64 : (⟨S_, .f32⟩ : BufTy).Contents (Elt F) → (⟨S64, .f32⟩ : BufTy).Contents (Elt F)),
    StableHlo.binary main_v57 main_v61 main_v62 (addf : (⟨S64, .f32⟩ : BufTy).Contents (Elt F) → (⟨S64, .f32⟩ : BufTy).Contents (Elt F) → (⟨S64, .f32⟩ : BufTy).Contents (Elt F)),
    StableHlo.unary main_v62 main_v63 (Host.rsqrt : (⟨S64, .f32⟩ : BufTy).Contents (Elt F) → (⟨S64, .f32⟩ : BufTy).Contents (Elt F)),
    StableHlo.unary main_v63 main_v64 (broadcastInDim S1x64 ![1] bcast_S64_S1x64_1 : (⟨S64, .f32⟩ : BufTy).Contents (Elt F) → (⟨S1x64, .f32⟩ : BufTy).Contents (Elt F)),
    StableHlo.unary main_v64 main_v65 (broadcastInDim S50000x64 ![0, 1] bcast_S1x64_S50000x64_0_1 : (⟨S1x64, .f32⟩ : BufTy).Contents (Elt F) → (⟨S50000x64, .f32⟩ : BufTy).Contents (Elt F)),
    StableHlo.binary main_v60 main_v65 main_v66 (mulf : (⟨S50000x64, .f32⟩ : BufTy).Contents (Elt F) → (⟨S50000x64, .f32⟩ : BufTy).Contents (Elt F) → (⟨S50000x64, .f32⟩ : BufTy).Contents (Elt F)),
    StableHlo.unary main_arg5 main_v67 (broadcastInDim S1x64 ![1] bcast_S64_S1x64_1 : (⟨S64, .f32⟩ : BufTy).Contents (Elt F) → (⟨S1x64, .f32⟩ : BufTy).Contents (Elt F)),
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),
    StableHlo.binary main_v66 main_v68 main_v69 (mulf : (⟨S50000x64, .f32⟩ : BufTy).Contents (Elt F) → (⟨S50000x64, .f32⟩ : BufTy).Contents (Elt F) → (⟨S50000x64, .f32⟩ : BufTy).Contents (Elt F)),
    StableHlo.unary main_arg6 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S50000x64 ![0, 1] bcast_S1x64_S50000x64_0_1 : (⟨S1x64, .f32⟩ : BufTy).Contents (Elt F) → (⟨S50000x64, .f32⟩ : BufTy).Contents (Elt F)),
    StableHlo.binary main_v69 main_v71 main_v72 (addf : (⟨S50000x64, .f32⟩ : BufTy).Contents (Elt F) → (⟨S50000x64, .f32⟩ : BufTy).Contents (Elt F) → (⟨S50000x64, .f32⟩ : BufTy).Contents (Elt F)) ]

/-- Operations 112 … 114 of 280: layer 1: the positive part. -/
abbrev stage9 : List (HloOp τ sig (Elt F)) :=
  [ StableHlo.TRef.nullary main_call1.cst (constant S_ .f32 0x00000000#32),
    StableHlo.TRef.unary main_call1.cst main_call1.v0 (broadcastInDim S50000x64 ![] bcast_S_S50000x64),
    StableHlo.TRef.binary (.of main_v72 : StableHlo.TRef sig ⟨S50000x64, .f32⟩) main_call1.v0 main_call1.v1 maximumf ]

/-- Operations 115 … 140 of 280: layer 2: the matrix product, the gather at the sources, the edge weights, the sum at the targets, the bias. -/
abbrev stage10 : List (HloOp τ sig (Elt F)) :=
  [ StableHlo.binary main_v73 main_arg7 main_v74 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst_15 (constant S_ .f32 0x00000000#32),
    StableHlo.unary main_cst_15 main_v75 (broadcastInDim S50000x64 ![] bcast_S_S50000x64 : (⟨S_, .f32⟩ : BufTy).Contents (Elt F) → (⟨S50000x64, .f32⟩ : BufTy).Contents (Elt F)),
    StableHlo.nullary main_c_16 (constantI S_ 32 0#32),
    StableHlo.unary main_c_16 main_v76 (broadcastInDim S850000 ![] bcast_S_S850000 : (⟨S_, .i32⟩ : BufTy).Contents (Elt F) → (⟨S850000, .i32⟩ : BufTy).Contents (Elt F)),
    StableHlo.binary main_v5 main_v76 main_v77 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v78 (broadcastInDim S850000 ![] bcast_S_S850000 : (⟨S_, .i32⟩ : BufTy).Contents (Elt F) → (⟨S850000, .i32⟩ : BufTy).Contents (Elt F)),
    StableHlo.binary main_v5 main_v78 main_v79 (addi : (⟨S850000, .i32⟩ : BufTy).Contents (Elt F) → (⟨S850000, .i32⟩ : BufTy).Contents (Elt F) → (⟨S850000, .i32⟩ : BufTy).Contents (Elt F)),
    StableHlo.ternary main_v77 main_v79 main_v5 main_v80 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v80 main_v81 (broadcastInDim S850000x1 ![0] bcast_S850000_S850000x1_0 : (⟨S850000, .i32⟩ : BufTy).Contents (Elt F) → (⟨S850000x1, .i32⟩ : BufTy).Contents (Elt F)),
    StableHlo.binary main_v74 main_v81 main_v82 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v83 (broadcastInDim S850000x64 ![0, 1] bcast_S850000x1_S850000x64_0_1 : (⟨S850000x1, .f32⟩ : BufTy).Contents (Elt F) → (⟨S850000x64, .f32⟩ : BufTy).Contents (Elt F)),
    StableHlo.binary main_v83 main_v82 main_v84 (mulf : (⟨S850000x64, .f32⟩ : BufTy).Contents (Elt F) → (⟨S850000x64, .f32⟩ : BufTy).Contents (Elt F) → (⟨S850000x64, .f32⟩ : BufTy).Contents (Elt F)),
    StableHlo.nullary main_c_18 (constantI S_ 32 0#32),
    StableHlo.unary main_c_18 main_v85 (broadcastInDim S850000 ![] bcast_S_S850000 : (⟨S_, .i32⟩ : BufTy).Contents (Elt F) → (⟨S850000, .i32⟩ : BufTy).Contents (Elt F)),
    StableHlo.binary main_v6 main_v85 main_v86 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v87 (broadcastInDim S850000 ![] bcast_S_S850000 : (⟨S_, .i32⟩ : BufTy).Contents (Elt F) → (⟨S850000, .i32⟩ : BufTy).Contents (Elt F)),
    StableHlo.binary main_v6 main_v87 main_v88 (addi : (⟨S850000, .i32⟩ : BufTy).Contents (Elt F) → (⟨S850000, .i32⟩ : BufTy).Contents (Elt F) → (⟨S850000, .i32⟩ : BufTy).Contents (Elt F)),
    StableHlo.ternary main_v86 main_v88 main_v6 main_v89 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v89 main_v90 (broadcastInDim S850000x1 ![0] bcast_S850000_S850000x1_0 : (⟨S850000, .i32⟩ : BufTy).Contents (Elt F) → (⟨S850000x1, .i32⟩ : BufTy).Contents (Elt F)),
    StableHlo.ternary main_v75 main_v90 main_v84 main_v91 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg8 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)) ]

/-- Operations 141 … 143 of 280: layer 2: the sum over the nodes of every feature and the node count. -/
abbrev stage11 : List (HloOp τ sig (Elt F)) :=
  [ StableHlo.nullary main_cst_20 (constant S_ .f32 0x00000000#32),
    StableHlo.binary main_v94 main_cst_20 main_v95 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_21 (constant S_ .f32 0x47435000#32) ]

/-- Operations 144 … 146 of 280: layer 2: the mean over the nodes. -/
abbrev stage12 : List (HloOp τ sig (Elt F)) :=
  [ StableHlo.unary main_cst_21 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)),
    StableHlo.nullary main_c_22 (constantI S_ 32 0#32) ]

/-- Operations 147 … 168 of 280: layer 2: the variance over the nodes (the outlined function). -/
abbrev stage13 : List (HloOp τ sig (Elt F)) :=
  [ StableHlo.TRef.nullary main_call2.cst (constant S_ .f32 0x00000000#32),
    StableHlo.TRef.binary (.of main_v94 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v94 : StableHlo.TRef sig ⟨S50000x64, .f32⟩) main_call2.v4 main_call2.v5 subf,
    StableHlo.TRef.binary main_call2.v5 main_call2.v5 main_call2.v6 mulf,
    StableHlo.TRef.unary (.of main_c_22 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]

/-- Operations 169 … 184 of 280: layer 2: the features centred, scaled, and shifted. -/
abbrev stage14 : List (HloOp τ sig (Elt F)) :=
  [ StableHlo.unary main_v97 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S50000x64 ![0, 1] bcast_S1x64_S50000x64_0_1 : (⟨S1x64, .f32⟩ : BufTy).Contents (Elt F) → (⟨S50000x64, .f32⟩ : BufTy).Contents (Elt F)),
    StableHlo.binary main_v94 main_v100 main_v101 (subf : (⟨S50000x64, .f32⟩ : BufTy).Contents (Elt F) → (⟨S50000x64, .f32⟩ : BufTy).Contents (Elt F) → (⟨S50000x64, .f32⟩ : BufTy).Contents (Elt F)),
    StableHlo.nullary main_cst_23 (constant S_ .f32 0x3727C5AC#32),
    StableHlo.unary main_cst_23 main_v102 (broadcastInDim S64 ![] bcast_S_S64 : (⟨S_, .f32⟩ : BufTy).Contents (Elt F) → (⟨S64, .f32⟩ : BufTy).Contents (Elt F)),
    StableHlo.binary main_v98 main_v102 main_v103 (addf : (⟨S64, .f32⟩ : BufTy).Contents (Elt F) → (⟨S64, .f32⟩ : BufTy).Contents (Elt F) → (⟨S64, .f32⟩ : BufTy).Contents (Elt F)),
    StableHlo.unary main_v103 main_v104 (Host.rsqrt : (⟨S64, .f32⟩ : BufTy).Contents (Elt F) → (⟨S64, .f32⟩ : BufTy).Contents (Elt F)),
    StableHlo.unary main_v104 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S50000x64 ![0, 1] bcast_S1x64_S50000x64_0_1 : (⟨S1x64, .f32⟩ : BufTy).Contents (Elt F) → (⟨S50000x64, .f32⟩ : BufTy).Contents (Elt F)),
    StableHlo.binary main_v101 main_v106 main_v107 (mulf : (⟨S50000x64, .f32⟩ : BufTy).Contents (Elt F) → (⟨S50000x64, .f32⟩ : BufTy).Contents (Elt F) → (⟨S50000x64, .f32⟩ : BufTy).Contents (Elt F)),
    StableHlo.unary main_arg9 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v109 main_v110 (mulf : (⟨S50000x64, .f32⟩ : BufTy).Contents (Elt F) → (⟨S50000x64, .f32⟩ : BufTy).Contents (Elt F) → (⟨S50000x64, .f32⟩ : BufTy).Contents (Elt F)),
    StableHlo.unary main_arg10 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v110 main_v112 main_v113 (addf : (⟨S50000x64, .f32⟩ : BufTy).Contents (Elt F) → (⟨S50000x64, .f32⟩ : BufTy).Contents (Elt F) → (⟨S50000x64, .f32⟩ : BufTy).Contents (Elt F)) ]

/-- Operations 185 … 187 of 280: layer 2: the positive part. -/
abbrev stage15 : List (HloOp τ sig (Elt F)) :=
  [ StableHlo.TRef.nullary main_call3.cst (constant S_ .f32 0x00000000#32),
    StableHlo.TRef.unary main_call3.cst main_call3.v0 (broadcastInDim S50000x64 ![] bcast_S_S50000x64),
    StableHlo.TRef.binary (.of main_v113 : StableHlo.TRef sig ⟨S50000x64, .f32⟩) main_call3.v0 main_call3.v1 maximumf ]

/-- Operations 188 … 213 of 280: layer 3: the matrix product, the gather at the sources, the edge weights, the sum at the targets, the bias. -/
abbrev stage16 : List (HloOp τ sig (Elt F)) :=
  [ StableHlo.binary main_v114 main_arg11 main_v115 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.nullary main_cst_24 (constant S_ .f32 0x00000000#32),
    StableHlo.unary main_cst_24 main_v116 (broadcastInDim S50000x64 ![] bcast_S_S50000x64 : (⟨S_, .f32⟩ : BufTy).Contents (Elt F) → (⟨S50000x64, .f32⟩ : BufTy).Contents (Elt F)),
    StableHlo.nullary main_c_25 (constantI S_ 32 0#32),
    StableHlo.unary main_c_25 main_v117 (broadcastInDim S850000 ![] bcast_S_S850000 : (⟨S_, .i32⟩ : BufTy).Contents (Elt F) → (⟨S850000, .i32⟩ : BufTy).Contents (Elt F)),
    StableHlo.binary main_v5 main_v117 main_v118 (cmpi .slt : (⟨S850000, .i32⟩ : BufTy).Contents (Elt F) → (⟨S850000, .i32⟩ : BufTy).Contents (Elt F) → (⟨S850000, .i1⟩ : BufTy).Contents (Elt F)),
    StableHlo.nullary main_c_26 (constantI S_ 32 50000#32),
    StableHlo.unary main_c_26 main_v119 (broadcastInDim S850000 ![] bcast_S_S850000 : (⟨S_, .i32⟩ : BufTy).Contents (Elt F) → (⟨S850000, .i32⟩ : BufTy).Contents (Elt F)),
    StableHlo.binary main_v5 main_v119 main_v120 (addi : (⟨S850000, .i32⟩ : BufTy).Contents (Elt F) → (⟨S850000, .i32⟩ : BufTy).Contents (Elt F) → (⟨S850000, .i32⟩ : BufTy).Contents (Elt F)),
    StableHlo.ternary main_v118 main_v120 main_v5 main_v121 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v121 main_v122 (broadcastInDim S850000x1 ![0] bcast_S850000_S850000x1_0 : (⟨S850000, .i32⟩ : BufTy).Contents (Elt F) → (⟨S850000x1, .i32⟩ : BufTy).Contents (Elt F)),
    StableHlo.binary main_v115 main_v122 main_v123 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v32 main_v124 (broadcastInDim S850000x64 ![0, 1] bcast_S850000x1_S850000x64_0_1 : (⟨S850000x1, .f32⟩ : BufTy).Contents (Elt F) → (⟨S850000x64, .f32⟩ : BufTy).Contents (Elt F)),
    StableHlo.binary main_v124 main_v123 main_v125 (mulf : (⟨S850000x64, .f32⟩ : BufTy).Contents (Elt F) → (⟨S850000x64, .f32⟩ : BufTy).Contents (Elt F) → (⟨S850000x64, .f32⟩ : BufTy).Contents (Elt F)),
    StableHlo.nullary main_c_27 (constantI S_ 32 0#32),
    StableHlo.unary main_c_27 main_v126 (broadcastInDim S850000 ![] bcast_S_S850000 : (⟨S_, .i32⟩ : BufTy).Contents (Elt F) → (⟨S850000, .i32⟩ : BufTy).Contents (Elt F)),
    StableHlo.binary main_v6 main_v126 main_v127 (cmpi .slt : (⟨S850000, .i32⟩ : BufTy).Contents (Elt F) → (⟨S850000, .i32⟩ : BufTy).Contents (Elt F) → (⟨S850000, .i1⟩ : BufTy).Contents (Elt F)),
    StableHlo.nullary main_c_28 (constantI S_ 32 50000#32),
    StableHlo.unary main_c_28 main_v128 (broadcastInDim S850000 ![] bcast_S_S850000 : (⟨S_, .i32⟩ : BufTy).Contents (Elt F) → (⟨S850000, .i32⟩ : BufTy).Contents (Elt F)),
    StableHlo.binary main_v6 main_v128 main_v129 (addi : (⟨S850000, .i32⟩ : BufTy).Contents (Elt F) → (⟨S850000, .i32⟩ : BufTy).Contents (Elt F) → (⟨S850000, .i32⟩ : BufTy).Contents (Elt F)),
    StableHlo.ternary main_v127 main_v129 main_v6 main_v130 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v130 main_v131 (broadcastInDim S850000x1 ![0] bcast_S850000_S850000x1_0 : (⟨S850000, .i32⟩ : BufTy).Contents (Elt F) → (⟨S850000x1, .i32⟩ : BufTy).Contents (Elt F)),
    StableHlo.ternary main_v116 main_v131 main_v125 main_v132 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg12 main_v133 (broadcastInDim S1x64 ![1] bcast_S64_S1x64_1 : (⟨S64, .f32⟩ : BufTy).Contents (Elt F) → (⟨S1x64, .f32⟩ : BufTy).Contents (Elt F)),
    StableHlo.unary main_v133 main_v134 (broadcastInDim S50000x64 ![0, 1] bcast_S1x64_S50000x64_0_1 : (⟨S1x64, .f32⟩ : BufTy).Contents (Elt F) → (⟨S50000x64, .f32⟩ : BufTy).Contents (Elt F)),
    StableHlo.binary main_v132 main_v134 main_v135 (addf : (⟨S50000x64, .f32⟩ : BufTy).Contents (Elt F) → (⟨S50000x64, .f32⟩ : BufTy).Contents (Elt F) → (⟨S50000x64, .f32⟩ : BufTy).Contents (Elt F)) ]

/-- Operations 214 … 219 of 280: layer 3: the mean over the nodes of every feature. -/
abbrev stage17 : List (HloOp τ sig (Elt F)) :=
  [ StableHlo.nullary main_cst_29 (constant S_ .f32 0x00000000#32),
    StableHlo.binary main_v135 main_cst_29 main_v136 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_30 (constant S_ .f32 0x47435000#32),
    StableHlo.unary main_cst_30 main_v137 (broadcastInDim S64 ![] bcast_S_S64 : (⟨S_, .f32⟩ : BufTy).Contents (Elt F) → (⟨S64, .f32⟩ : BufTy).Contents (Elt F)),
    StableHlo.binary main_v136 main_v137 main_v138 (Host.divf : (⟨S64, .f32⟩ : BufTy).Contents (Elt F) → (⟨S64, .f32⟩ : BufTy).Contents (Elt F) → (⟨S64, .f32⟩ : BufTy).Contents (Elt F)),
    StableHlo.nullary main_c_31 (constantI S_ 32 0#32) ]

/-- Operations 220 … 241 of 280: layer 3: the variance over the nodes (the outlined function). -/
abbrev stage18 : List (HloOp τ sig (Elt F)) :=
  [ StableHlo.TRef.nullary main_call4.cst (constant S_ .f32 0x00000000#32),
    StableHlo.TRef.binary (.of main_v135 : StableHlo.TRef sig ⟨S50000x64, .f32⟩) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v135 : StableHlo.TRef sig ⟨S50000x64, .f32⟩) main_call4.v4 main_call4.v5 subf,
    StableHlo.TRef.binary main_call4.v5 main_call4.v5 main_call4.v6 mulf,
    StableHlo.TRef.unary (.of main_c_31 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b) ]

/-- Operations 242 … 247 of 280: layer 3: the features centred, and the variance plus the small constant. -/
abbrev stage19 : List (HloOp τ sig (Elt F)) :=
  [ StableHlo.unary main_v138 main_v140 (broadcastInDim S1x64 ![1] bcast_S64_S1x64_1 : (⟨S64, .f32⟩ : BufTy).Contents (Elt F) → (⟨S1x64, .f32⟩ : BufTy).Contents (Elt F)),
    StableHlo.unary main_v140 main_v141 (broadcastInDim S50000x64 ![0, 1] bcast_S1x64_S50000x64_0_1 : (⟨S1x64, .f32⟩ : BufTy).Contents (Elt F) → (⟨S50000x64, .f32⟩ : BufTy).Contents (Elt F)),
    StableHlo.binary main_v135 main_v141 main_v142 (subf : (⟨S50000x64, .f32⟩ : BufTy).Contents (Elt F) → (⟨S50000x64, .f32⟩ : BufTy).Contents (Elt F) → (⟨S50000x64, .f32⟩ : BufTy).Contents (Elt F)),
    StableHlo.nullary main_cst_32 (constant S_ .f32 0x3727C5AC#32),
    StableHlo.unary main_cst_32 main_v143 (broadcastInDim S64 ![] bcast_S_S64 : (⟨S_, .f32⟩ : BufTy).Contents (Elt F) → (⟨S64, .f32⟩ : BufTy).Contents (Elt F)),
    StableHlo.binary main_v139 main_v143 main_v144 (addf : (⟨S64, .f32⟩ : BufTy).Contents (Elt F) → (⟨S64, .f32⟩ : BufTy).Contents (Elt F) → (⟨S64, .f32⟩ : BufTy).Contents (Elt F)) ]

/-- Operations 248 … 257 of 280: layer 3: the features scaled by the reciprocal standard deviation, by the gain, and shifted. -/
abbrev stage20 : List (HloOp τ sig (Elt F)) :=
  [ StableHlo.unary main_v144 main_v145 (Host.rsqrt : (⟨S64, .f32⟩ : BufTy).Contents (Elt F) → (⟨S64, .f32⟩ : BufTy).Contents (Elt F)),
    StableHlo.unary main_v145 main_v146 (broadcastInDim S1x64 ![1] bcast_S64_S1x64_1 : (⟨S64, .f32⟩ : BufTy).Contents (Elt F) → (⟨S1x64, .f32⟩ : BufTy).Contents (Elt F)),
    StableHlo.unary main_v146 main_v147 (broadcastInDim S50000x64 ![0, 1] bcast_S1x64_S50000x64_0_1 : (⟨S1x64, .f32⟩ : BufTy).Contents (Elt F) → (⟨S50000x64, .f32⟩ : BufTy).Contents (Elt F)),
    StableHlo.binary main_v142 main_v147 main_v148 (mulf : (⟨S50000x64, .f32⟩ : BufTy).Contents (Elt F) → (⟨S50000x64, .f32⟩ : BufTy).Contents (Elt F) → (⟨S50000x64, .f32⟩ : BufTy).Contents (Elt F)),
    StableHlo.unary main_arg13 main_v149 (broadcastInDim S1x64 ![1] bcast_S64_S1x64_1 : (⟨S64, .f32⟩ : BufTy).Contents (Elt F) → (⟨S1x64, .f32⟩ : BufTy).Contents (Elt F)),
    StableHlo.unary main_v149 main_v150 (broadcastInDim S50000x64 ![0, 1] bcast_S1x64_S50000x64_0_1 : (⟨S1x64, .f32⟩ : BufTy).Contents (Elt F) → (⟨S50000x64, .f32⟩ : BufTy).Contents (Elt F)),
    StableHlo.binary main_v148 main_v150 main_v151 (mulf : (⟨S50000x64, .f32⟩ : BufTy).Contents (Elt F) → (⟨S50000x64, .f32⟩ : BufTy).Contents (Elt F) → (⟨S50000x64, .f32⟩ : BufTy).Contents (Elt F)),
    StableHlo.unary main_arg14 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S50000x64 ![0, 1] bcast_S1x64_S50000x64_0_1 : (⟨S1x64, .f32⟩ : BufTy).Contents (Elt F) → (⟨S50000x64, .f32⟩ : BufTy).Contents (Elt F)),
    StableHlo.binary main_v151 main_v153 main_v154 (addf : (⟨S50000x64, .f32⟩ : BufTy).Contents (Elt F) → (⟨S50000x64, .f32⟩ : BufTy).Contents (Elt F) → (⟨S50000x64, .f32⟩ : BufTy).Contents (Elt F)) ]

/-- Operations 258 … 260 of 280: layer 3: the positive part. -/
abbrev stage21 : List (HloOp τ sig (Elt F)) :=
  [ StableHlo.TRef.nullary main_call5.cst (constant S_ .f32 0x00000000#32),
    StableHlo.TRef.unary main_call5.cst main_call5.v0 (broadcastInDim S50000x64 ![] bcast_S_S50000x64),
    StableHlo.TRef.binary (.of main_v154 : StableHlo.TRef sig ⟨S50000x64, .f32⟩) main_call5.v0 main_call5.v1 maximumf ]

/-- Operations 261 … 264 of 280: the node features summed per graph. -/
abbrev stage22 : List (HloOp τ sig (Elt F)) :=
  [ StableHlo.nullary main_cst_33 (constant S_ .f32 0x00000000#32),
    StableHlo.unary main_cst_33 main_v156 (broadcastInDim S500x64 ![] bcast_S_S500x64 : (⟨S_, .f32⟩ : BufTy).Contents (Elt F) → (⟨S500x64, .f32⟩ : BufTy).Contents (Elt F)),
    StableHlo.unary main_arg2 main_v157 (broadcastInDim S50000x1 ![0] bcast_S50000_S50000x1_0 : (⟨S50000, .i32⟩ : BufTy).Contents (Elt F) → (⟨S50000x1, .i32⟩ : BufTy).Contents (Elt F)),
    StableHlo.ternary main_v156 main_v157 main_v155 main_v158 ((fun x i u => Host.scatterAdd scatter_S500x64_S50000x1_S50000x64_1_0_0_1 x i u) : (⟨S500x64, .f32⟩ : BufTy).Contents (Elt F) → (⟨S50000x1, .i32⟩ : BufTy).Contents (Elt F) → (⟨S50000x64, .f32⟩ : BufTy).Contents (Elt F) → (⟨S500x64, .f32⟩ : BufTy).Contents (Elt F)) ]

/-- Operations 265 … 280 of 280: the node count per graph, at least one; the per-graph mean; the output matrix product and its bias. -/
abbrev stage23 : List (HloOp τ sig (Elt F)) :=
  [ StableHlo.nullary main_cst_34 (constant S_ .f32 0x3F800000#32),
    StableHlo.unary main_cst_34 main_v159 (broadcastInDim S50000 ![] bcast_S_S50000 : (⟨S_, .f32⟩ : BufTy).Contents (Elt F) → (⟨S50000, .f32⟩ : BufTy).Contents (Elt F)),
    StableHlo.nullary main_cst_35 (constant S_ .f32 0x00000000#32),
    StableHlo.unary main_cst_35 main_v160 (broadcastInDim S500 ![] bcast_S_S500 : (⟨S_, .f32⟩ : BufTy).Contents (Elt F) → (⟨S500, .f32⟩ : BufTy).Contents (Elt F)),
    StableHlo.unary main_arg2 main_v161 (broadcastInDim S50000x1 ![0] bcast_S50000_S50000x1_0 : (⟨S50000, .i32⟩ : BufTy).Contents (Elt F) → (⟨S50000x1, .i32⟩ : BufTy).Contents (Elt F)),
    StableHlo.ternary main_v160 main_v161 main_v159 main_v162 ((fun x i u => Host.scatterAdd scatter_S500_S50000x1_S50000_n_0_0_1 x i u) : (⟨S500, .f32⟩ : BufTy).Contents (Elt F) → (⟨S50000x1, .i32⟩ : BufTy).Contents (Elt F) → (⟨S50000, .f32⟩ : BufTy).Contents (Elt F) → (⟨S500, .f32⟩ : BufTy).Contents (Elt F)),
    StableHlo.nullary main_cst_36 (constant S_ .f32 0x3F800000#32),
    StableHlo.unary main_cst_36 main_v163 (broadcastInDim S500 ![] bcast_S_S500 : (⟨S_, .f32⟩ : BufTy).Contents (Elt F) → (⟨S500, .f32⟩ : BufTy).Contents (Elt F)),
    StableHlo.binary main_v162 main_v163 main_v164 (maximumf : (⟨S500, .f32⟩ : BufTy).Contents (Elt F) → (⟨S500, .f32⟩ : BufTy).Contents (Elt F) → (⟨S500, .f32⟩ : BufTy).Contents (Elt F)),
    StableHlo.unary main_v164 main_v165 (broadcastInDim S500x1 ![0] bcast_S500_S500x1_0 : (⟨S500, .f32⟩ : BufTy).Contents (Elt F) → (⟨S500x1, .f32⟩ : BufTy).Contents (Elt F)),
    StableHlo.unary main_v165 main_v166 (broadcastInDim S500x64 ![0, 1] bcast_S500x1_S500x64_0_1 : (⟨S500x1, .f32⟩ : BufTy).Contents (Elt F) → (⟨S500x64, .f32⟩ : BufTy).Contents (Elt F)),
    StableHlo.binary main_v158 main_v166 main_v167 (Host.divf : (⟨S500x64, .f32⟩ : BufTy).Contents (Elt F) → (⟨S500x64, .f32⟩ : BufTy).Contents (Elt F) → (⟨S500x64, .f32⟩ : BufTy).Contents (Elt F)),
    StableHlo.binary main_v167 main_arg15 main_v168 ((fun l r => Host.dotGeneral dot_S500x64_S64x6_S500x6_1_0_0_1_n_n none l r) : (⟨S500x64, .f32⟩ : BufTy).Contents (Elt F) → (⟨S64x6, .f32⟩ : BufTy).Contents (Elt F) → (⟨S500x6, .f32⟩ : BufTy).Contents (Elt F)),
    StableHlo.unary main_arg16 main_v169 (broadcastInDim S1x6 ![1] bcast_S6_S1x6_1 : (⟨S6, .f32⟩ : BufTy).Contents (Elt F) → (⟨S1x6, .f32⟩ : BufTy).Contents (Elt F)),
    StableHlo.unary main_v169 main_v170 (broadcastInDim S500x6 ![0, 1] bcast_S1x6_S500x6_0_1 : (⟨S1x6, .f32⟩ : BufTy).Contents (Elt F) → (⟨S500x6, .f32⟩ : BufTy).Contents (Elt F)),
    StableHlo.binary main_v168 main_v170 main_v171 (addf : (⟨S500x6, .f32⟩ : BufTy).Contents (Elt F) → (⟨S500x6, .f32⟩ : BufTy).Contents (Elt F) → (⟨S500x6, .f32⟩ : BufTy).Contents (Elt F)) ]

/-- The operations of @main's window 0: its stages in order. -/
def ops_part0 : List (HloOp τ sig (Elt F)) :=
  stage0 ++ (stage1 ++ (stage2 ++ (stage3 ++ (stage4))))

/-- The operations of @main's window 1: its stages in order. -/
def ops_part1 : List (HloOp τ sig (Elt F)) :=
  stage5 ++ (stage6 ++ (stage7 ++ (stage8 ++ (stage9 ++ (stage10 ++ (stage11))))))

/-- The operations of @main's window 2: its stages in order. -/
def ops_part2 : List (HloOp τ sig (Elt F)) :=
  stage12 ++ (stage13 ++ (stage14 ++ (stage15 ++ (stage16 ++ (stage17 ++ (stage18 ++ (stage19)))))))

/-- The operations of @main's window 3: its stages in order. -/
def ops_part3 : List (HloOp τ sig (Elt F)) :=
  stage20 ++ (stage21 ++ (stage22 ++ (stage23)))

/-- @main's 280 operations, in order, the outlined functions' inline at their calls. -/
abbrev ops : List (HloOp τ sig (Elt F)) :=
  ops_part0 ++ (ops_part1 ++ (ops_part2 ++ ops_part3))

/-! ## The windows of @main and @main are the runs of their stages -/

set_option maxRecDepth 8192 in
set_option maxHeartbeats 4000000 in
theorem main_part0_eq (c : Dev nD) : main_part0 (F := F) c = seq ops_part0 := by
  simp only [main_part0, ops_part0, seq_append, seq, bind_assoc, pure_bind] <;> rfl

set_option maxRecDepth 8192 in
set_option maxHeartbeats 4000000 in
/-- The window is that straight line: the outlined functions' definitions unfolded at their calls and their records at
    their fields, both sides are one chain of steps once sequencing is reassociated. -/
theorem main_part1_eq (c : Dev nD) : main_part1 (F := F) c = seq ops_part1 := by
  simp only [main_part1, ops_part1, fn_var.body, fn_where.body, fn_relu.body, seq_append, seq, bind_assoc, pure_bind] <;> rfl

set_option maxRecDepth 8192 in
set_option maxHeartbeats 4000000 in
/-- The window is that straight line: the outlined functions' definitions unfolded at their calls and their records at
    their fields, both sides are one chain of steps once sequencing is reassociated. -/
theorem main_part2_eq (c : Dev nD) : main_part2 (F := F) c = seq ops_part2 := by
  simp only [main_part2, ops_part2, fn_var.body, fn_where.body, fn_relu.body, seq_append, seq, bind_assoc, pure_bind] <;> rfl

set_option maxRecDepth 8192 in
set_option maxHeartbeats 4000000 in
/-- The window is that straight line: the outlined functions' definitions unfolded at their calls and their records at
    their fields, both sides are one chain of steps once sequencing is reassociated. -/
theorem main_part3_eq (c : Dev nD) : main_part3 (F := F) c = seq ops_part3 := by
  simp only [main_part3, ops_part3, fn_var.body, fn_where.body, fn_relu.body, seq_append, seq, bind_assoc, pure_bind] <;> rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Per stage: the buffers touched, nothing allocated, the buffers written -/

/-- A buffer that neither of two lines in a row writes keeps its contents through both. -/
theorem keep_app {l₁ l₂ : List (HloOp τ sig (Elt F))} {W₁ W₂ : List (Ref sig .tc)}
    (h₁ : ∀ (V : Valuation τ sig (Elt F)) (r : Ref sig .tc), r ∉ W₁ → after l₁ V (Proc.devRef .tc r) = V (Proc.devRef .tc r))
    (h₂ : ∀ (V : Valuation τ sig (Elt F)) (r : Ref sig .tc), r ∉ W₂ → after l₂ V (Proc.devRef .tc r) = V (Proc.devRef .tc r)) :
    ∀ (V : Valuation τ sig (Elt F)) (r : Ref sig .tc), r ∉ W₁ ++ W₂ → after (l₁ ++ l₂) V (Proc.devRef .tc r) = V (Proc.devRef .tc r) := by
  intro V r h
  rw [after_app, h₂ _ r (fun hm => h (List.mem_append_right _ hm)), h₁ _ r (fun hm => h (List.mem_append_left _ hm))]

theorem stage0_sub : (stage0 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub ..⟩
theorem stage0_fresh : (stage0 : List (HloOp τ sig (Elt F))).Forall fun op => op.fresh = ∅ :=
  ⟨rfl, rfl, rfl, rfl, rfl, rfl, rfl⟩
/-- The buffers the stage's operations write, in order. -/
abbrev stage0_W : List (Ref sig .tc) := [main_v0, main_v1, main_v2, main_v3, main_v4, main_v5, main_v6]
theorem stage0_writes : (stage0 : List (HloOp τ sig (Elt F))).Forall fun op => op.writes ⊆ (stage0_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage0_keep (V : Valuation τ sig (Elt F)) (r : Ref sig .tc) (h : r ∉ stage0_W) :
    after stage0 V (Proc.devRef .tc r) = V (Proc.devRef .tc r) :=
  after_of_writes_sub stage0 _ stage0_writes h

theorem stage1_sub : (stage1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., unary_bufs_sub ..⟩
theorem stage1_fresh : (stage1 : List (HloOp τ sig (Elt F))).Forall fun op => op.fresh = ∅ :=
  ⟨rfl, rfl, rfl, rfl, rfl, rfl, rfl, rfl, rfl, rfl, rfl, rfl, rfl, rfl⟩
/-- The buffers the stage's operations write, in order. -/
abbrev stage1_W : List (Ref sig .tc) := [main_cst, main_v7, main_c, main_v8, main_v9, main_c_0, main_v10, main_v11, main_v12, main_v13, main_cst_1, main_v14, main_v15, main_v16]
theorem stage1_writes : (stage1 : List (HloOp τ sig (Elt F))).Forall fun op => op.writes ⊆ (stage1_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage1_keep (V : Valuation τ sig (Elt F)) (r : Ref sig .tc) (h : r ∉ stage1_W) :
    after stage1 V (Proc.devRef .tc r) = V (Proc.devRef .tc r) :=
  after_of_writes_sub stage1 _ stage1_writes h

theorem stage2_sub : (stage2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩
theorem stage2_fresh : (stage2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
/-- The buffers the stage's operations write, in order. -/
abbrev stage2_W : List (Ref sig .tc) := [main_c_2, main_v17, main_v18, main_c_3, main_v19, main_v20, main_v21, main_v22, main_v23, main_c_4, main_v24, main_v25, main_c_5, main_v26, main_v27, main_v28, main_v29, main_v30, main_v31, main_v32]
theorem stage2_writes : (stage2 : List (HloOp τ sig (Elt F))).Forall fun op => op.writes ⊆ (stage2_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage2_keep (V : Valuation τ sig (Elt F)) (r : Ref sig .tc) (h : r ∉ stage2_W) :
    after stage2 V (Proc.devRef .tc r) = V (Proc.devRef .tc r) :=
  after_of_writes_sub stage2 _ stage2_writes h

theorem stage3_sub : (stage3 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩
theorem stage3_fresh : (stage3 : List (HloOp τ sig (Elt F))).Forall fun op => op.fresh = ∅ :=
  ⟨rfl, rfl, rfl, rfl, rfl, rfl, rfl, rfl, rfl, rfl, rfl, rfl, rfl, rfl⟩
/-- The buffers the stage's operations write, in order. -/
abbrev stage3_W : List (Ref sig .tc) := [main_v33, main_cst_6, main_v34, main_c_7, main_v35, main_v36, main_c_8, main_v37, main_v38, main_v39, main_v40, main_v41, main_v42, main_v43]
theorem stage3_writes : (stage3 : List (HloOp τ sig (Elt F))).Forall fun op => op.writes ⊆ (stage3_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage3_keep (V : Valuation τ sig (Elt F)) (r : Ref sig .tc) (h : r ∉ stage3_W) :
    after stage3 V (Proc.devRef .tc r) = V (Proc.devRef .tc r) :=
  after_of_writes_sub stage3 _ stage3_writes h

theorem stage4_sub : (stage4 : List (HloOp τ sig (Elt F))).Forall fun op => op.bufs ⊆ tcRefs τ sig :=
  ⟨nullary_bufs_sub .., unary_bufs_sub .., binary_bufs_sub .., nullary_bufs_sub .., unary_bufs_sub ..⟩
theorem stage4_fresh : (stage4 : List (HloOp τ sig (Elt F))).Forall fun op => op.fresh = ∅ :=
  ⟨rfl, rfl, rfl, rfl, rfl⟩
/-- The buffers the stage's operations write, in order. -/
abbrev stage4_W : List (Ref sig .tc) := [main_c_9, main_v44, main_v45, main_c_10, main_v46]
theorem stage4_writes : (stage4 : List (HloOp τ sig (Elt F))).Forall fun op => op.writes ⊆ (stage4_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage4_keep (V : Valuation τ sig (Elt F)) (r : Ref sig .tc) (h : r ∉ stage4_W) :
    after stage4 V (Proc.devRef .tc r) = V (Proc.devRef .tc r) :=
  after_of_writes_sub stage4 _ stage4_writes h

theorem stage5_sub : (stage5 : List (HloOp τ sig (Elt F))).Forall fun op => op.bufs ⊆ tcRefs τ sig :=
  ⟨binary_bufs_sub .., ternary_bufs_sub .., unary_bufs_sub .., ternary_bufs_sub .., unary_bufs_sub .., unary_bufs_sub .., binary_bufs_sub ..⟩
theorem stage5_fresh : (stage5 : List (HloOp τ sig (Elt F))).Forall fun op => op.fresh = ∅ :=
  ⟨rfl, rfl, rfl, rfl, rfl, rfl, rfl⟩
/-- The buffers the stage's operations write, in order. -/
abbrev stage5_W : List (Ref sig .tc) := [main_v47, main_v48, main_v49, main_v50, main_v51, main_v52, main_v53]
theorem stage5_writes : (stage5 : List (HloOp τ sig (Elt F))).Forall fun op => op.writes ⊆ (stage5_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage5_keep (V : Valuation τ sig (Elt F)) (r : Ref sig .tc) (h : r ∉ stage5_W) :
    after stage5 V (Proc.devRef .tc r) = V (Proc.devRef .tc r) :=
  after_of_writes_sub stage5 _ stage5_writes h

theorem stage6_sub : (stage6 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem stage6_fresh : (stage6 : List (HloOp τ sig (Elt F))).Forall fun op => op.fresh = ∅ :=
  ⟨rfl, rfl, rfl, rfl, rfl, rfl⟩
/-- The buffers the stage's operations write, in order. -/
abbrev stage6_W : List (Ref sig .tc) := [main_cst_11, main_v54, main_cst_12, main_v55, main_v56, main_c_13]
theorem stage6_writes : (stage6 : List (HloOp τ sig (Elt F))).Forall fun op => op.writes ⊆ (stage6_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage6_keep (V : Valuation τ sig (Elt F)) (r : Ref sig .tc) (h : r ∉ stage6_W) :
    after stage6 V (Proc.devRef .tc r) = V (Proc.devRef .tc r) :=
  after_of_writes_sub stage6 _ stage6_writes h

theorem stage7_sub : (stage7 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem stage7_fresh : (stage7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers the stage's operations write, in order. -/
abbrev stage7_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v57]
theorem stage7_writes : (stage7 : List (HloOp τ sig (Elt F))).Forall fun op => op.writes ⊆ (stage7_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage7_keep (V : Valuation τ sig (Elt F)) (r : Ref sig .tc) (h : r ∉ stage7_W) :
    after stage7 V (Proc.devRef .tc r) = V (Proc.devRef .tc r) :=
  after_of_writes_sub stage7 _ stage7_writes h

theorem stage8_sub : (stage8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem stage8_fresh : (stage8 : List (HloOp τ sig (Elt F))).Forall fun op => op.fresh = ∅ :=
  ⟨rfl, rfl, rfl, rfl, rfl, rfl, rfl, rfl, rfl, rfl, rfl, rfl, rfl, rfl, rfl, rfl⟩
/-- The buffers the stage's operations write, in order. -/
abbrev stage8_W : List (Ref sig .tc) := [main_v58, main_v59, main_v60, main_cst_14, main_v61, main_v62, main_v63, main_v64, main_v65, main_v66, main_v67, main_v68, main_v69, main_v70, main_v71, main_v72]
theorem stage8_writes : (stage8 : List (HloOp τ sig (Elt F))).Forall fun op => op.writes ⊆ (stage8_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage8_keep (V : Valuation τ sig (Elt F)) (r : Ref sig .tc) (h : r ∉ stage8_W) :
    after stage8 V (Proc.devRef .tc r) = V (Proc.devRef .tc r) :=
  after_of_writes_sub stage8 _ stage8_writes h

theorem stage9_sub : (stage9 : List (HloOp τ sig (Elt F))).Forall fun op => op.bufs ⊆ tcRefs τ sig :=
  ⟨nullary_bufs_sub .., unary_bufs_sub .., binary_bufs_sub ..⟩
theorem stage9_fresh : (stage9 : List (HloOp τ sig (Elt F))).Forall fun op => op.fresh = ∅ :=
  ⟨rfl, rfl, rfl⟩
/-- The buffers the stage's operations write, in order. -/
abbrev stage9_W : List (Ref sig .tc) := [main_call1_cst, main_call1_v0, main_v73]
theorem stage9_writes : (stage9 : List (HloOp τ sig (Elt F))).Forall fun op => op.writes ⊆ (stage9_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage9_keep (V : Valuation τ sig (Elt F)) (r : Ref sig .tc) (h : r ∉ stage9_W) :
    after stage9 V (Proc.devRef .tc r) = V (Proc.devRef .tc r) :=
  after_of_writes_sub stage9 _ stage9_writes h

theorem stage10_sub : (stage10 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩
theorem stage10_fresh : (stage10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
/-- The buffers the stage's operations write, in order. -/
abbrev stage10_W : List (Ref sig .tc) := [main_v74, main_cst_15, main_v75, main_c_16, main_v76, main_v77, main_c_17, main_v78, main_v79, main_v80, main_v81, main_v82, main_v83, main_v84, main_c_18, main_v85, main_v86, main_c_19, main_v87, main_v88, main_v89, main_v90, main_v91, main_v92, main_v93, main_v94]
theorem stage10_writes : (stage10 : List (HloOp τ sig (Elt F))).Forall fun op => op.writes ⊆ (stage10_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage10_keep (V : Valuation τ sig (Elt F)) (r : Ref sig .tc) (h : r ∉ stage10_W) :
    after stage10 V (Proc.devRef .tc r) = V (Proc.devRef .tc r) :=
  after_of_writes_sub stage10 _ stage10_writes h

theorem stage11_sub : (stage11 : List (HloOp τ sig (Elt F))).Forall fun op => op.bufs ⊆ tcRefs τ sig :=
  ⟨nullary_bufs_sub .., binary_bufs_sub .., nullary_bufs_sub ..⟩
theorem stage11_fresh : (stage11 : List (HloOp τ sig (Elt F))).Forall fun op => op.fresh = ∅ :=
  ⟨rfl, rfl, rfl⟩
/-- The buffers the stage's operations write, in order. -/
abbrev stage11_W : List (Ref sig .tc) := [main_cst_20, main_v95, main_cst_21]
theorem stage11_writes : (stage11 : List (HloOp τ sig (Elt F))).Forall fun op => op.writes ⊆ (stage11_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage11_keep (V : Valuation τ sig (Elt F)) (r : Ref sig .tc) (h : r ∉ stage11_W) :
    after stage11 V (Proc.devRef .tc r) = V (Proc.devRef .tc r) :=
  after_of_writes_sub stage11 _ stage11_writes h

theorem stage12_sub : (stage12 : List (HloOp τ sig (Elt F))).Forall fun op => op.bufs ⊆ tcRefs τ sig :=
  ⟨unary_bufs_sub .., binary_bufs_sub .., nullary_bufs_sub ..⟩
theorem stage12_fresh : (stage12 : List (HloOp τ sig (Elt F))).Forall fun op => op.fresh = ∅ :=
  ⟨rfl, rfl, rfl⟩
/-- The buffers the stage's operations write, in order. -/
abbrev stage12_W : List (Ref sig .tc) := [main_v96, main_v97, main_c_22]
theorem stage12_writes : (stage12 : List (HloOp τ sig (Elt F))).Forall fun op => op.writes ⊆ (stage12_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage12_keep (V : Valuation τ sig (Elt F)) (r : Ref sig .tc) (h : r ∉ stage12_W) :
    after stage12 V (Proc.devRef .tc r) = V (Proc.devRef .tc r) :=
  after_of_writes_sub stage12 _ stage12_writes h

theorem stage13_sub : (stage13 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem stage13_fresh : (stage13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers the stage's operations write, in order. -/
abbrev stage13_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v98]
theorem stage13_writes : (stage13 : List (HloOp τ sig (Elt F))).Forall fun op => op.writes ⊆ (stage13_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage13_keep (V : Valuation τ sig (Elt F)) (r : Ref sig .tc) (h : r ∉ stage13_W) :
    after stage13 V (Proc.devRef .tc r) = V (Proc.devRef .tc r) :=
  after_of_writes_sub stage13 _ stage13_writes h

theorem stage14_sub : (stage14 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem stage14_fresh : (stage14 : List (HloOp τ sig (Elt F))).Forall fun op => op.fresh = ∅ :=
  ⟨rfl, rfl, rfl, rfl, rfl, rfl, rfl, rfl, rfl, rfl, rfl, rfl, rfl, rfl, rfl, rfl⟩
/-- The buffers the stage's operations write, in order. -/
abbrev stage14_W : List (Ref sig .tc) := [main_v99, main_v100, main_v101, main_cst_23, main_v102, main_v103, main_v104, main_v105, main_v106, main_v107, main_v108, main_v109, main_v110, main_v111, main_v112, main_v113]
theorem stage14_writes : (stage14 : List (HloOp τ sig (Elt F))).Forall fun op => op.writes ⊆ (stage14_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage14_keep (V : Valuation τ sig (Elt F)) (r : Ref sig .tc) (h : r ∉ stage14_W) :
    after stage14 V (Proc.devRef .tc r) = V (Proc.devRef .tc r) :=
  after_of_writes_sub stage14 _ stage14_writes h

theorem stage15_sub : (stage15 : List (HloOp τ sig (Elt F))).Forall fun op => op.bufs ⊆ tcRefs τ sig :=
  ⟨nullary_bufs_sub .., unary_bufs_sub .., binary_bufs_sub ..⟩
theorem stage15_fresh : (stage15 : List (HloOp τ sig (Elt F))).Forall fun op => op.fresh = ∅ :=
  ⟨rfl, rfl, rfl⟩
/-- The buffers the stage's operations write, in order. -/
abbrev stage15_W : List (Ref sig .tc) := [main_call3_cst, main_call3_v0, main_v114]
theorem stage15_writes : (stage15 : List (HloOp τ sig (Elt F))).Forall fun op => op.writes ⊆ (stage15_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage15_keep (V : Valuation τ sig (Elt F)) (r : Ref sig .tc) (h : r ∉ stage15_W) :
    after stage15 V (Proc.devRef .tc r) = V (Proc.devRef .tc r) :=
  after_of_writes_sub stage15 _ stage15_writes h

theorem stage16_sub : (stage16 : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩
theorem stage16_fresh : (stage16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
/-- The buffers the stage's operations write, in order. -/
abbrev stage16_W : List (Ref sig .tc) := [main_v115, main_cst_24, main_v116, main_c_25, main_v117, main_v118, main_c_26, main_v119, main_v120, main_v121, main_v122, main_v123, main_v124, main_v125, main_c_27, main_v126, main_v127, main_c_28, main_v128, main_v129, main_v130, main_v131, main_v132, main_v133, main_v134, main_v135]
theorem stage16_writes : (stage16 : List (HloOp τ sig (Elt F))).Forall fun op => op.writes ⊆ (stage16_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage16_keep (V : Valuation τ sig (Elt F)) (r : Ref sig .tc) (h : r ∉ stage16_W) :
    after stage16 V (Proc.devRef .tc r) = V (Proc.devRef .tc r) :=
  after_of_writes_sub stage16 _ stage16_writes h

theorem stage17_sub : (stage17 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem stage17_fresh : (stage17 : List (HloOp τ sig (Elt F))).Forall fun op => op.fresh = ∅ :=
  ⟨rfl, rfl, rfl, rfl, rfl, rfl⟩
/-- The buffers the stage's operations write, in order. -/
abbrev stage17_W : List (Ref sig .tc) := [main_cst_29, main_v136, main_cst_30, main_v137, main_v138, main_c_31]
theorem stage17_writes : (stage17 : List (HloOp τ sig (Elt F))).Forall fun op => op.writes ⊆ (stage17_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage17_keep (V : Valuation τ sig (Elt F)) (r : Ref sig .tc) (h : r ∉ stage17_W) :
    after stage17 V (Proc.devRef .tc r) = V (Proc.devRef .tc r) :=
  after_of_writes_sub stage17 _ stage17_writes h

theorem stage18_sub : (stage18 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem stage18_fresh : (stage18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers the stage's operations write, in order. -/
abbrev stage18_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v139]
theorem stage18_writes : (stage18 : List (HloOp τ sig (Elt F))).Forall fun op => op.writes ⊆ (stage18_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage18_keep (V : Valuation τ sig (Elt F)) (r : Ref sig .tc) (h : r ∉ stage18_W) :
    after stage18 V (Proc.devRef .tc r) = V (Proc.devRef .tc r) :=
  after_of_writes_sub stage18 _ stage18_writes h

theorem stage19_sub : (stage19 : List (HloOp τ sig (Elt F))).Forall fun op => op.bufs ⊆ tcRefs τ sig :=
  ⟨unary_bufs_sub .., unary_bufs_sub .., binary_bufs_sub .., nullary_bufs_sub .., unary_bufs_sub .., binary_bufs_sub ..⟩
theorem stage19_fresh : (stage19 : List (HloOp τ sig (Elt F))).Forall fun op => op.fresh = ∅ :=
  ⟨rfl, rfl, rfl, rfl, rfl, rfl⟩
/-- The buffers the stage's operations write, in order. -/
abbrev stage19_W : List (Ref sig .tc) := [main_v140, main_v141, main_v142, main_cst_32, main_v143, main_v144]
theorem stage19_writes : (stage19 : List (HloOp τ sig (Elt F))).Forall fun op => op.writes ⊆ (stage19_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage19_keep (V : Valuation τ sig (Elt F)) (r : Ref sig .tc) (h : r ∉ stage19_W) :
    after stage19 V (Proc.devRef .tc r) = V (Proc.devRef .tc r) :=
  after_of_writes_sub stage19 _ stage19_writes h

theorem stage20_sub : (stage20 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub ..⟩
theorem stage20_fresh : (stage20 : List (HloOp τ sig (Elt F))).Forall fun op => op.fresh = ∅ :=
  ⟨rfl, rfl, rfl, rfl, rfl, rfl, rfl, rfl, rfl, rfl⟩
/-- The buffers the stage's operations write, in order. -/
abbrev stage20_W : List (Ref sig .tc) := [main_v145, main_v146, main_v147, main_v148, main_v149, main_v150, main_v151, main_v152, main_v153, main_v154]
theorem stage20_writes : (stage20 : List (HloOp τ sig (Elt F))).Forall fun op => op.writes ⊆ (stage20_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage20_keep (V : Valuation τ sig (Elt F)) (r : Ref sig .tc) (h : r ∉ stage20_W) :
    after stage20 V (Proc.devRef .tc r) = V (Proc.devRef .tc r) :=
  after_of_writes_sub stage20 _ stage20_writes h

theorem stage21_sub : (stage21 : List (HloOp τ sig (Elt F))).Forall fun op => op.bufs ⊆ tcRefs τ sig :=
  ⟨nullary_bufs_sub .., unary_bufs_sub .., binary_bufs_sub ..⟩
theorem stage21_fresh : (stage21 : List (HloOp τ sig (Elt F))).Forall fun op => op.fresh = ∅ :=
  ⟨rfl, rfl, rfl⟩
/-- The buffers the stage's operations write, in order. -/
abbrev stage21_W : List (Ref sig .tc) := [main_call5_cst, main_call5_v0, main_v155]
theorem stage21_writes : (stage21 : List (HloOp τ sig (Elt F))).Forall fun op => op.writes ⊆ (stage21_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage21_keep (V : Valuation τ sig (Elt F)) (r : Ref sig .tc) (h : r ∉ stage21_W) :
    after stage21 V (Proc.devRef .tc r) = V (Proc.devRef .tc r) :=
  after_of_writes_sub stage21 _ stage21_writes h

theorem stage22_sub : (stage22 : List (HloOp τ sig (Elt F))).Forall fun op => op.bufs ⊆ tcRefs τ sig :=
  ⟨nullary_bufs_sub .., unary_bufs_sub .., unary_bufs_sub .., ternary_bufs_sub ..⟩
theorem stage22_fresh : (stage22 : List (HloOp τ sig (Elt F))).Forall fun op => op.fresh = ∅ :=
  ⟨rfl, rfl, rfl, rfl⟩
/-- The buffers the stage's operations write, in order. -/
abbrev stage22_W : List (Ref sig .tc) := [main_cst_33, main_v156, main_v157, main_v158]
theorem stage22_writes : (stage22 : List (HloOp τ sig (Elt F))).Forall fun op => op.writes ⊆ (stage22_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage22_keep (V : Valuation τ sig (Elt F)) (r : Ref sig .tc) (h : r ∉ stage22_W) :
    after stage22 V (Proc.devRef .tc r) = V (Proc.devRef .tc r) :=
  after_of_writes_sub stage22 _ stage22_writes h

theorem stage23_sub : (stage23 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩
theorem stage23_fresh : (stage23 : List (HloOp τ sig (Elt F))).Forall fun op => op.fresh = ∅ :=
  ⟨rfl, rfl, rfl, rfl, rfl, rfl, rfl, rfl, rfl, rfl, rfl, rfl, rfl, rfl, rfl, rfl⟩
/-- The buffers the stage's operations write, in order. -/
abbrev stage23_W : List (Ref sig .tc) := [main_cst_34, main_v159, main_cst_35, main_v160, main_v161, main_v162, main_cst_36, main_v163, main_v164, main_v165, main_v166, main_v167, main_v168, main_v169, main_v170, main_v171]
theorem stage23_writes : (stage23 : List (HloOp τ sig (Elt F))).Forall fun op => op.writes ⊆ (stage23_W.map (Proc.devRef (τ := τ) .tc)).toFinset := by
  simp only [List.Forall]
  exact ⟨by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide),
    by simp only [TRef.nullary, TRef.unary, TRef.binary, TRef.ternary, nullary_writes, unary_writes, binary_writes, ternary_writes, reshape_writes, Finset.singleton_subset_iff, List.mem_toFinset]; exact List.mem_map_of_mem (by decide)⟩
/-- A buffer the stage does not write keeps its contents through it. -/
theorem stage23_keep (V : Valuation τ sig (Elt F)) (r : Ref sig .tc) (h : r ∉ stage23_W) :
    after stage23 V (Proc.devRef .tc r) = V (Proc.devRef .tc r) :=
  after_of_writes_sub stage23 _ stage23_writes h

/-! ## The whole line -/

theorem ops_part0_sub : (ops_part0 : List (HloOp τ sig (Elt F))).Forall fun op => op.bufs ⊆ tcRefs τ sig := by
  unfold ops_part0; exact forall_app stage0_sub (forall_app stage1_sub (forall_app stage2_sub (forall_app stage3_sub (stage4_sub))))
theorem ops_part0_fresh : (ops_part0 : List (HloOp τ sig (Elt F))).Forall fun op => op.fresh = ∅ := by
  unfold ops_part0; exact forall_app stage0_fresh (forall_app stage1_fresh (forall_app stage2_fresh (forall_app stage3_fresh (stage4_fresh))))
/-- The buffers window 0's operations write. -/
abbrev ops_part0_W : List (Ref sig .tc) := stage0_W ++ (stage1_W ++ (stage2_W ++ (stage3_W ++ (stage4_W))))
theorem ops_part0_keep : ∀ (V : Valuation τ sig (Elt F)) (r : Ref sig .tc), r ∉ ops_part0_W →
    after ops_part0 V (Proc.devRef .tc r) = V (Proc.devRef .tc r) := by
  unfold ops_part0; exact keep_app stage0_keep (keep_app stage1_keep (keep_app stage2_keep (keep_app stage3_keep (stage4_keep))))

theorem ops_part1_sub : (ops_part1 : List (HloOp τ sig (Elt F))).Forall fun op => op.bufs ⊆ tcRefs τ sig := by
  unfold ops_part1; exact forall_app stage5_sub (forall_app stage6_sub (forall_app stage7_sub (forall_app stage8_sub (forall_app stage9_sub (forall_app stage10_sub (stage11_sub))))))
theorem ops_part1_fresh : (ops_part1 : List (HloOp τ sig (Elt F))).Forall fun op => op.fresh = ∅ := by
  unfold ops_part1; exact forall_app stage5_fresh (forall_app stage6_fresh (forall_app stage7_fresh (forall_app stage8_fresh (forall_app stage9_fresh (forall_app stage10_fresh (stage11_fresh))))))
/-- The buffers window 1's operations write. -/
abbrev ops_part1_W : List (Ref sig .tc) := stage5_W ++ (stage6_W ++ (stage7_W ++ (stage8_W ++ (stage9_W ++ (stage10_W ++ (stage11_W))))))
theorem ops_part1_keep : ∀ (V : Valuation τ sig (Elt F)) (r : Ref sig .tc), r ∉ ops_part1_W →
    after ops_part1 V (Proc.devRef .tc r) = V (Proc.devRef .tc r) := by
  unfold ops_part1; exact keep_app stage5_keep (keep_app stage6_keep (keep_app stage7_keep (keep_app stage8_keep (keep_app stage9_keep (keep_app stage10_keep (stage11_keep))))))

theorem ops_part2_sub : (ops_part2 : List (HloOp τ sig (Elt F))).Forall fun op => op.bufs ⊆ tcRefs τ sig := by
  unfold ops_part2; exact forall_app stage12_sub (forall_app stage13_sub (forall_app stage14_sub (forall_app stage15_sub (forall_app stage16_sub (forall_app stage17_sub (forall_app stage18_sub (stage19_sub)))))))
theorem ops_part2_fresh : (ops_part2 : List (HloOp τ sig (Elt F))).Forall fun op => op.fresh = ∅ := by
  unfold ops_part2; exact forall_app stage12_fresh (forall_app stage13_fresh (forall_app stage14_fresh (forall_app stage15_fresh (forall_app stage16_fresh (forall_app stage17_fresh (forall_app stage18_fresh (stage19_fresh)))))))
/-- The buffers window 2's operations write. -/
abbrev ops_part2_W : List (Ref sig .tc) := stage12_W ++ (stage13_W ++ (stage14_W ++ (stage15_W ++ (stage16_W ++ (stage17_W ++ (stage18_W ++ (stage19_W)))))))
theorem ops_part2_keep : ∀ (V : Valuation τ sig (Elt F)) (r : Ref sig .tc), r ∉ ops_part2_W →
    after ops_part2 V (Proc.devRef .tc r) = V (Proc.devRef .tc r) := by
  unfold ops_part2; exact keep_app stage12_keep (keep_app stage13_keep (keep_app stage14_keep (keep_app stage15_keep (keep_app stage16_keep (keep_app stage17_keep (keep_app stage18_keep (stage19_keep)))))))

theorem ops_part3_sub : (ops_part3 : List (HloOp τ sig (Elt F))).Forall fun op => op.bufs ⊆ tcRefs τ sig := by
  unfold ops_part3; exact forall_app stage20_sub (forall_app stage21_sub (forall_app stage22_sub (stage23_sub)))
theorem ops_part3_fresh : (ops_part3 : List (HloOp τ sig (Elt F))).Forall fun op => op.fresh = ∅ := by
  unfold ops_part3; exact forall_app stage20_fresh (forall_app stage21_fresh (forall_app stage22_fresh (stage23_fresh)))
/-- The buffers window 3's operations write. -/
abbrev ops_part3_W : List (Ref sig .tc) := stage20_W ++ (stage21_W ++ (stage22_W ++ (stage23_W)))
theorem ops_part3_keep : ∀ (V : Valuation τ sig (Elt F)) (r : Ref sig .tc), r ∉ ops_part3_W →
    after ops_part3 V (Proc.devRef .tc r) = V (Proc.devRef .tc r) := by
  unfold ops_part3; exact keep_app stage20_keep (keep_app stage21_keep (keep_app stage22_keep (stage23_keep)))

theorem ops_sub : (ops : List (HloOp τ sig (Elt F))).Forall fun op => op.bufs ⊆ tcRefs τ sig :=
  forall_app ops_part0_sub (forall_app ops_part1_sub (forall_app ops_part2_sub (ops_part3_sub)))
theorem ops_fresh : ∀ op ∈ (ops : List (HloOp τ sig (Elt F))), op.fresh = ∅ :=
  List.forall_iff_forall_mem.mp (forall_app ops_part0_fresh (forall_app ops_part1_fresh (forall_app ops_part2_fresh (ops_part3_fresh))))
/-- Every buffer @main's operations write: none of @main's arguments is among them. -/
abbrev ops_W : List (Ref sig .tc) := ops_part0_W ++ (ops_part1_W ++ (ops_part2_W ++ (ops_part3_W)))
/-- A buffer no operation of @main writes keeps its contents through the run. -/
theorem ops_keep : ∀ (V : Valuation τ sig (Elt F)) (r : Ref sig .tc), r ∉ ops_W →
    after ops V (Proc.devRef .tc r) = V (Proc.devRef .tc r) :=
  keep_app ops_part0_keep (keep_app ops_part1_keep (keep_app ops_part2_keep (ops_part3_keep)))

end Cert.ReferenceIdeal.RefRun

end
-- ==== Proof.RefRun.lean ====
/-
  The reference program's run read back: from any memory with zero counters every weakly fair execution of @main
  terminates with the result buffer at the operations' fold over the launch contents and every argument unchanged.
-/
import proofs.«120485_j12249246728930_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The result: what the result buffer holds on device `c` after @main's 280 operations, in order, from the launch
    memory `m` — each operation rewriting the buffer it writes with its function of the buffers it reads. -/
def res (m : (ℓ : Loc nD τ sig) → Buf (Elt F) ℓ) (c : Dev nD) : Buf (Elt F) ((c.tc : Thread nD τ).loc main_v171) :=
  after ops (launchContents m c) (Proc.devRef .tc main_v171)

theorem res_def (m : (ℓ : Loc nD τ sig) → Buf (Elt F) ℓ) (c : Dev nD) :
    res m c = after ops (fun b => m (c, b)) (Proc.devRef .tc main_v171) := rfl

set_option maxRecDepth 8192 in
/-- No operation of @main writes one of its arguments. -/
theorem args_not_written :
    main_arg0 ∉ ops_W ∧ main_arg1 ∉ ops_W ∧ main_arg2 ∉ ops_W ∧ main_arg3 ∉ ops_W ∧ main_arg4 ∉ ops_W ∧ main_arg5 ∉ ops_W ∧ main_arg6 ∉ ops_W ∧ main_arg7 ∉ ops_W ∧ main_arg8 ∉ ops_W ∧ main_arg9 ∉ ops_W ∧ main_arg10 ∉ ops_W ∧ main_arg11 ∉ ops_W ∧ main_arg12 ∉ ops_W ∧ main_arg13 ∉ ops_W ∧ main_arg14 ∉ ops_W ∧ main_arg15 ∉ ops_W ∧ main_arg16 ∉ ops_W := by
  refine ⟨?_, ?_, ?_, ?_, ?_, ?_, ?_, ?_, ?_, ?_, ?_, ?_, ?_, ?_, ?_, ?_, ?_⟩ <;> decide

/-- On every device, for any float values, from any memory with zero counters: every weakly fair execution of
    @main terminates with the result at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v171) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => by
      obtain ⟨k0, k1, k2, k3, k4, k5, k6, k7, k8, k9, k10, k11, k12, k13, k14, k15, k16⟩ := args_not_written
      exact ⟨h c main_v171,
        (h c main_arg0).trans (ops_keep _ main_arg0 k0),
        (h c main_arg1).trans (ops_keep _ main_arg1 k1),
        (h c main_arg2).trans (ops_keep _ main_arg2 k2),
        (h c main_arg3).trans (ops_keep _ main_arg3 k3),
        (h c main_arg4).trans (ops_keep _ main_arg4 k4),
        (h c main_arg5).trans (ops_keep _ main_arg5 k5),
        (h c main_arg6).trans (ops_keep _ main_arg6 k6),
        (h c main_arg7).trans (ops_keep _ main_arg7 k7),
        (h c main_arg8).trans (ops_keep _ main_arg8 k8),
        (h c main_arg9).trans (ops_keep _ main_arg9 k9),
        (h c main_arg10).trans (ops_keep _ main_arg10 k10),
        (h c main_arg11).trans (ops_keep _ main_arg11 k11),
        (h c main_arg12).trans (ops_keep _ main_arg12 k12),
        (h c main_arg13).trans (ops_keep _ main_arg13 k13),
        (h c main_arg14).trans (ops_keep _ main_arg14 k14),
        (h c main_arg15).trans (ops_keep _ main_arg15 k15),
        (h c main_arg16).trans (ops_keep _ main_arg16 k16)⟩)
    (run_seq scopedRefs_eq scopedSems_eq defs main (fun _ => ops) main_eq (fun _ => ops_sub) m ρ (fun _ => ops_fresh))

end Cert.ReferenceIdeal.RefRun

end
-- ==== Proof.RefRunStage.lean ====
/-
  Per stage of the reference program's operations, each result a later stage reads, read back from any contents `V` of
  the device's buffers: the composition of the stage's operation functions over the buffers the stage reads from before it.
-/
import proofs.«120485_j12249246728930_1_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
theorem stage0_main_v6 (V : Valuation τ sig (Elt F)) :
    after stage0 V (no_index (Proc.devRef .tc main_v6)) =
      (concatenate S850000 0 [⟨S800000, ((shapeCast _ ((extractStridedSlice S1x800000 ![1, 0] (V (Proc.devRef .tc main_arg1)) slices_S2x800000_S1x800000_1_0 : (⟨S1x800000, .i32⟩ : BufTy).Contents (Elt F))) shapeCasts_S1x800000_S800000 : (⟨S800000, .i32⟩ : BufTy).Contents (Elt F)))⟩, ⟨S50000, (((iotaInDim S50000 32 0) : (⟨S50000, .i32⟩ : BufTy).Contents (Elt F)))⟩] concatenates_S800000_S50000_S850000_d0 : (⟨S850000, .i32⟩ : BufTy).Contents (Elt F)) := by
  simp only [stage0]
  after_results_simp
  all_goals (try rfl)

set_option maxRecDepth 8192 in
set_option maxHeartbeats 2000000 in
theorem stage0_main_v5 (V : Valuation τ sig (Elt F)) :
    after stage0 V (no_index (Proc.devRef .tc main_v5)) =
      (concatenate S850000 0 [⟨S800000, ((shapeCast _ ((extractStridedSlice S1x800000 ![0, 0] (V (Proc.devRef .tc main_arg1)) slices_S2x800000_S1x800000_0_0 : (⟨S1x800000, .i32⟩ : BufTy).Contents (Elt F))) shapeCasts_S1x800000_S800000 : (⟨S800000, .i32⟩ : BufTy).Contents (Elt F)))⟩, ⟨S50000, (((iotaInDim S50000 32 0) : (⟨S50000, .i32⟩ : BufTy).Contents (Elt F)))⟩] concatenates_S800000_S50000_S850000_d0 : (⟨S850000, .i32⟩ : BufTy).Contents (Elt F)) := by
  simp only [stage0]
  after_results_simp
  all_goals (try rfl)

set_option maxRecDepth 8192 in
set_option maxHeartbeats 2000000 in
theorem stage1_main_v16 (V : Valuation τ sig (Elt F)) :
    after stage1 V (no_index (Proc.devRef .tc main_v16)) =
      (Host.rsqrt ((Host.scatterAdd scatter_S50000_S850000x1_S850000_n_0_0_1 ((broadcastInDim S50000 ![] bcast_S_S50000 (((constant S_ .f32 0x00000000#32) : (⟨S_, .f32⟩ : BufTy).Contents (Elt F))) : (⟨S50000, .f32⟩ : BufTy).Contents (Elt F))) ((broadcastInDim S850000x1 ![0] bcast_S850000_S850000x1_0 ((select ((cmpi .slt (V (Proc.devRef .tc main_v6)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v6)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v6)) : (⟨S850000, .i32⟩ : BufTy).Contents (Elt F))) : (⟨S850000x1, .i32⟩ : BufTy).Contents (Elt F))) ((broadcastInDim S850000 ![] bcast_S_S850000 (((constant S_ .f32 0x3F800000#32) : (⟨S_, .f32⟩ : BufTy).Contents (Elt F))) : (⟨S850000, .f32⟩ : BufTy).Contents (Elt F))) : (⟨S50000, .f32⟩ : BufTy).Contents (Elt F))) : (⟨S50000, .f32⟩ : BufTy).Contents (Elt F)) := by
  simp only [stage1]
  after_results_simp
  all_goals (try rfl)

set_option maxRecDepth 8192 in
set_option maxHeartbeats 2000000 in
theorem stage2_main_v32 (V : Valuation τ sig (Elt F)) :
    after stage2 V (no_index (Proc.devRef .tc main_v32)) =
      (broadcastInDim S850000x1 ![0] bcast_S850000_S850000x1_0 ((mulf ((Host.gather gather_S50000_S850000x1_S850000_n_0_n_n_0_1_1 (V (Proc.devRef .tc main_v16)) ((broadcastInDim S850000x1 ![0] bcast_S850000_S850000x1_0 ((select ((cmpi .slt (V (Proc.devRef .tc main_v5)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v5)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v5)) : (⟨S850000, .i32⟩ : BufTy).Contents (Elt F))) : (⟨S850000x1, .i32⟩ : BufTy).Contents (Elt F))) : (⟨S850000, .f32⟩ : BufTy).Contents (Elt F))) ((Host.gather gather_S50000_S850000x1_S850000_n_0_n_n_0_1_1 (V (Proc.devRef .tc main_v16)) ((broadcastInDim S850000x1 ![0] bcast_S850000_S850000x1_0 ((select ((cmpi .slt (V (Proc.devRef .tc main_v6)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v6)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v6)) : (⟨S850000, .i32⟩ : BufTy).Contents (Elt F))) : (⟨S850000x1, .i32⟩ : BufTy).Contents (Elt F))) : (⟨S850000, .f32⟩ : BufTy).Contents (Elt F))) : (⟨S850000, .f32⟩ : BufTy).Contents (Elt F))) : (⟨S850000x1, .f32⟩ : BufTy).Contents (Elt F)) := by
  simp only [stage2]
  after_results_simp
  all_goals (try rfl)

set_option maxRecDepth 8192 in
set_option maxHeartbeats 2000000 in
theorem stage3_main_v34 (V : Valuation τ sig (Elt F)) :
    after stage3 V (no_index (Proc.devRef .tc main_v34)) =
      (broadcastInDim S50000x64 ![] bcast_S_S50000x64 (((constant S_ .f32 0x00000000#32) : (⟨S_, .f32⟩ : BufTy).Contents (Elt F))) : (⟨S50000x64, .f32⟩ : BufTy).Contents (Elt F)) := by
  simp only [stage3]
  after_results_simp
  all_goals (try rfl)

set_option maxRecDepth 8192 in
set_option maxHeartbeats 2000000 in
theorem stage3_main_v43 (V : Valuation τ sig (Elt F)) :
    after stage3 V (no_index (Proc.devRef .tc main_v43)) =
      (mulf ((broadcastInDim S850000x64 ![0, 1] bcast_S850000x1_S850000x64_0_1 (V (Proc.devRef .tc main_v32)) : (⟨S850000x64, .f32⟩ : BufTy).Contents (Elt F))) ((Host.gather gather_S50000x64_S850000x1_S850000x64_1_0_n_n_0_1_164 ((Host.dotGeneral dot_S50000x64_S64x64_S50000x64_1_0_0_1_n_n none (V (Proc.devRef .tc main_arg0)) (V (Proc.devRef .tc main_arg3)) : (⟨S50000x64, .f32⟩ : BufTy).Contents (Elt F))) ((broadcastInDim S850000x1 ![0] bcast_S850000_S850000x1_0 ((select ((cmpi .slt (V (Proc.devRef .tc main_v5)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v5)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v5)) : (⟨S850000, .i32⟩ : BufTy).Contents (Elt F))) : (⟨S850000x1, .i32⟩ : BufTy).Contents (Elt F))) : (⟨S850000x64, .f32⟩ : BufTy).Contents (Elt F))) : (⟨S850000x64, .f32⟩ : BufTy).Contents (Elt F)) := by
  simp only [stage3]
  after_results_simp
  all_goals (try rfl)

set_option maxRecDepth 8192 in
set_option maxHeartbeats 2000000 in
theorem stage4_main_v46 (V : Valuation τ sig (Elt F)) :
    after stage4 V (no_index (Proc.devRef .tc main_v46)) =
      (broadcastInDim S850000 ![] bcast_S_S850000 (((constantI S_ 32 50000#32) : (⟨S_, .i32⟩ : BufTy).Contents (Elt F))) : (⟨S850000, .i32⟩ : BufTy).Contents (Elt F)) := by
  simp only [stage4]
  after_results_simp
  all_goals (try rfl)

set_option maxRecDepth 8192 in
set_option maxHeartbeats 2000000 in
theorem stage4_main_v45 (V : Valuation τ sig (Elt F)) :
    after stage4 V (no_index (Proc.devRef .tc main_v45)) =
      (cmpi .slt (V (Proc.devRef .tc main_v6)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F)) := by
  simp only [stage4]
  after_results_simp
  all_goals (try rfl)

set_option maxRecDepth 8192 in
set_option maxHeartbeats 2000000 in
theorem stage5_main_v53 (V : Valuation τ sig (Elt F)) :
    after stage5 V (no_index (Proc.devRef .tc main_v53)) =
      (addf ((Host.scatterAdd scatter_S50000x64_S850000x1_S850000x64_1_0_0_1 (V (Proc.devRef .tc main_v34)) ((broadcastInDim S850000x1 ![0] bcast_S850000_S850000x1_0 ((select (V (Proc.devRef .tc main_v45)) ((addi (V (Proc.devRef .tc main_v6)) (V (Proc.devRef .tc main_v46)) : (⟨S850000, .i32⟩ : BufTy).Contents (Elt F))) (V (Proc.devRef .tc main_v6)) : (⟨S850000, .i32⟩ : BufTy).Contents (Elt F))) : (⟨S850000x1, .i32⟩ : BufTy).Contents (Elt F))) (V (Proc.devRef .tc main_v43)) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg4)) : (⟨S1x64, .f32⟩ : BufTy).Contents (Elt F))) : (⟨S50000x64, .f32⟩ : BufTy).Contents (Elt F))) : (⟨S50000x64, .f32⟩ : BufTy).Contents (Elt F)) := by
  simp only [stage5]
  after_results_simp
  all_goals (try rfl)

set_option maxRecDepth 8192 in
set_option maxHeartbeats 2000000 in
theorem stage6_main_c_13 (V : Valuation τ sig (Elt F)) :
    after stage6 V (no_index (Proc.devRef .tc main_c_13)) =
      ((constantI S_ 32 0#32) : (⟨S_, .i32⟩ : BufTy).Contents (Elt F)) := by
  simp only [stage6]
  after_results_simp
  all_goals (try rfl)

set_option maxRecDepth 8192 in
set_option maxHeartbeats 2000000 in
theorem stage6_main_v56 (V : Valuation τ sig (Elt F)) :
    after stage6 V (no_index (Proc.devRef .tc main_v56)) =
      (Host.divf ((Host.reduceAdd (V (Proc.devRef .tc main_v53)) (((constant S_ .f32 0x00000000#32) : (⟨S_, .f32⟩ : BufTy).Contents (Elt F))) reducesTo_S50000x64_S64_d0 h_S_ : (⟨S64, .f32⟩ : BufTy).Contents (Elt F))) ((broadcastInDim S64 ![] bcast_S_S64 (((constant S_ .f32 0x47435000#32) : (⟨S_, .f32⟩ : BufTy).Contents (Elt F))) : (⟨S64, .f32⟩ : BufTy).Contents (Elt F))) : (⟨S64, .f32⟩ : BufTy).Contents (Elt F)) := by
  simp only [stage6]
  after_results_simp
  all_goals (try rfl)

set_option maxRecDepth 8192 in
set_option maxHeartbeats 2000000 in
theorem stage7_main_v57 (V : Valuation τ sig (Elt F)) :
    after stage7 V (no_index (Proc.devRef .tc main_v57)) =
      (select (broadcastInDim S64 ![] bcast_S_S64 ((cmpf .ogt ((subf (((constant S_ .f32 0x47435000#32) : (⟨S_, .f32⟩ : BufTy).Contents (Elt F))) ((sitofp .f32 (V (Proc.devRef .tc main_c_13)) : (⟨S_, .f32⟩ : BufTy).Contents (Elt F))) : (⟨S_, .f32⟩ : BufTy).Contents (Elt F))) (((constant S_ .f32 0x00000000#32) : (⟨S_, .f32⟩ : BufTy).Contents (Elt F))) : (⟨S_, .i1⟩ : BufTy).Contents (Elt F)))) ((Host.divf ((Host.reduceAdd ((mulf ((subf (V (Proc.devRef .tc main_v53)) ((broadcastInDim S50000x64 ![0, 1] bcast_S1x64_S50000x64_0_1 ((Host.divf ((broadcastInDim S1x64 ![1] bcast_S64_S1x64_1 ((Host.reduceAdd (V (Proc.devRef .tc main_v53)) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((subf (V (Proc.devRef .tc main_v53)) ((broadcastInDim S50000x64 ![0, 1] bcast_S1x64_S50000x64_0_1 ((Host.divf ((broadcastInDim S1x64 ![1] bcast_S64_S1x64_1 ((Host.reduceAdd (V (Proc.devRef .tc main_v53)) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) : (⟨S50000x64, .f32⟩ : BufTy).Contents (Elt F))) (((constant S_ .f32 0x00000000#32) : (⟨S_, .f32⟩ : BufTy).Contents (Elt F))) reducesTo_S50000x64_S64_d0 h_S_ : (⟨S64, .f32⟩ : BufTy).Contents (Elt F))) ((broadcastInDim S64 ![] bcast_S_S64 ((subf (((constant S_ .f32 0x47435000#32) : (⟨S_, .f32⟩ : BufTy).Contents (Elt F))) ((sitofp .f32 (V (Proc.devRef .tc main_c_13)) : (⟨S_, .f32⟩ : BufTy).Contents (Elt F))) : (⟨S_, .f32⟩ : BufTy).Contents (Elt F))) : (⟨S64, .f32⟩ : BufTy).Contents (Elt F))) : (⟨S64, .f32⟩ : BufTy).Contents (Elt F))) ((broadcastInDim S64 ![] bcast_S_S64 ((id (((constant S_ .f32 0x7FC00000#32) : (⟨S_, .f32⟩ : BufTy).Contents (Elt F))) : (⟨S_, .f32⟩ : BufTy).Contents (Elt F))) : (⟨S64, .f32⟩ : BufTy).Contents (Elt F))) : (⟨S64, .f32⟩ : BufTy).Contents (Elt F)) := by
  simp only [stage7]
  after_results_simp
  all_goals (try rfl)

set_option maxRecDepth 8192 in
set_option maxHeartbeats 2000000 in
theorem stage8_main_v72 (V : Valuation τ sig (Elt F)) :
    after stage8 V (no_index (Proc.devRef .tc main_v72)) =
      (addf ((mulf ((mulf ((subf (V (Proc.devRef .tc main_v53)) ((broadcastInDim S50000x64 ![0, 1] bcast_S1x64_S50000x64_0_1 ((broadcastInDim S1x64 ![1] bcast_S64_S1x64_1 (V (Proc.devRef .tc main_v56)) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((Host.rsqrt ((addf (V (Proc.devRef .tc main_v57)) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F))) : (⟨S64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg5)) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg6)) : (⟨S1x64, .f32⟩ : BufTy).Contents (Elt F))) : (⟨S50000x64, .f32⟩ : BufTy).Contents (Elt F))) : (⟨S50000x64, .f32⟩ : BufTy).Contents (Elt F)) := by
  simp only [stage8]
  after_results_simp
  all_goals (try rfl)

set_option maxRecDepth 8192 in
set_option maxHeartbeats 2000000 in
theorem stage9_main_v73 (V : Valuation τ sig (Elt F)) :
    after stage9 V (no_index (Proc.devRef .tc main_v73)) =
      (maximumf (V (Proc.devRef .tc main_v72)) ((broadcastInDim S50000x64 ![] bcast_S_S50000x64 (((constant S_ .f32 0x00000000#32) : (⟨S_, .f32⟩ : BufTy).Contents (Elt F))) : (⟨S50000x64, .f32⟩ : BufTy).Contents (Elt F))) : (⟨S50000x64, .f32⟩ : BufTy).Contents (Elt F)) := by
  simp only [stage9]
  after_results_simp
  all_goals (try rfl)

set_option maxRecDepth 8192 in
set_option maxHeartbeats 2000000 in
theorem stage10_main_v94 (V : Valuation τ sig (Elt F)) :
    after stage10 V (no_index (Proc.devRef .tc main_v94)) =
      (addf ((Host.scatterAdd scatter_S50000x64_S850000x1_S850000x64_1_0_0_1 ((broadcastInDim S50000x64 ![] bcast_S_S50000x64 (((constant S_ .f32 0x00000000#32) : (⟨S_, .f32⟩ : BufTy).Contents (Elt F))) : (⟨S50000x64, .f32⟩ : BufTy).Contents (Elt F))) ((broadcastInDim S850000x1 ![0] bcast_S850000_S850000x1_0 ((select ((cmpi .slt (V (Proc.devRef .tc main_v6)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v6)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v6)) : (⟨S850000, .i32⟩ : BufTy).Contents (Elt F))) : (⟨S850000x1, .i32⟩ : BufTy).Contents (Elt F))) ((mulf ((broadcastInDim S850000x64 ![0, 1] bcast_S850000x1_S850000x64_0_1 (V (Proc.devRef .tc main_v32)) : (⟨S850000x64, .f32⟩ : BufTy).Contents (Elt F))) ((Host.gather gather_S50000x64_S850000x1_S850000x64_1_0_n_n_0_1_164 ((Host.dotGeneral dot_S50000x64_S64x64_S50000x64_1_0_0_1_n_n none (V (Proc.devRef .tc main_v73)) (V (Proc.devRef .tc main_arg7)) : (⟨S50000x64, .f32⟩ : BufTy).Contents (Elt F))) ((broadcastInDim S850000x1 ![0] bcast_S850000_S850000x1_0 ((select ((cmpi .slt (V (Proc.devRef .tc main_v5)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v5)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v5)) : (⟨S850000, .i32⟩ : BufTy).Contents (Elt F))) : (⟨S850000x1, .i32⟩ : BufTy).Contents (Elt F))) : (⟨S850000x64, .f32⟩ : BufTy).Contents (Elt F))) : (⟨S850000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg8)) : (⟨S1x64, .f32⟩ : BufTy).Contents (Elt F))) : (⟨S50000x64, .f32⟩ : BufTy).Contents (Elt F))) : (⟨S50000x64, .f32⟩ : BufTy).Contents (Elt F)) := by
  simp only [stage10]
  after_results_simp
  all_goals (try rfl)

set_option maxRecDepth 8192 in
set_option maxHeartbeats 2000000 in
theorem stage11_main_cst_21 (V : Valuation τ sig (Elt F)) :
    after stage11 V (no_index (Proc.devRef .tc main_cst_21)) =
      ((constant S_ .f32 0x47435000#32) : (⟨S_, .f32⟩ : BufTy).Contents (Elt F)) := by
  simp only [stage11]
  after_results_simp
  all_goals (try rfl)

set_option maxRecDepth 8192 in
set_option maxHeartbeats 2000000 in
theorem stage11_main_v95 (V : Valuation τ sig (Elt F)) :
    after stage11 V (no_index (Proc.devRef .tc main_v95)) =
      (Host.reduceAdd (V (Proc.devRef .tc main_v94)) (((constant S_ .f32 0x00000000#32) : (⟨S_, .f32⟩ : BufTy).Contents (Elt F))) reducesTo_S50000x64_S64_d0 h_S_ : (⟨S64, .f32⟩ : BufTy).Contents (Elt F)) := by
  simp only [stage11]
  after_results_simp
  all_goals (try rfl)

set_option maxRecDepth 8192 in
set_option maxHeartbeats 2000000 in
theorem stage12_main_c_22 (V : Valuation τ sig (Elt F)) :
    after stage12 V (no_index (Proc.devRef .tc main_c_22)) =
      ((constantI S_ 32 0#32) : (⟨S_, .i32⟩ : BufTy).Contents (Elt F)) := by
  simp only [stage12]
  after_results_simp
  all_goals (try rfl)

set_option maxRecDepth 8192 in
set_option maxHeartbeats 2000000 in
theorem stage12_main_v97 (V : Valuation τ sig (Elt F)) :
    after stage12 V (no_index (Proc.devRef .tc main_v97)) =
      (Host.divf (V (Proc.devRef .tc main_v95)) ((broadcastInDim S64 ![] bcast_S_S64 (V (Proc.devRef .tc main_cst_21)) : (⟨S64, .f32⟩ : BufTy).Contents (Elt F))) : (⟨S64, .f32⟩ : BufTy).Contents (Elt F)) := by
  simp only [stage12]
  after_results_simp
  all_goals (try rfl)

set_option maxRecDepth 8192 in
set_option maxHeartbeats 2000000 in
theorem stage13_main_v98 (V : Valuation τ sig (Elt F)) :
    after stage13 V (no_index (Proc.devRef .tc main_v98)) =
      (select (broadcastInDim S64 ![] bcast_S_S64 ((cmpf .ogt ((subf (((constant S_ .f32 0x47435000#32) : (⟨S_, .f32⟩ : BufTy).Contents (Elt F))) ((sitofp .f32 (V (Proc.devRef .tc main_c_22)) : (⟨S_, .f32⟩ : BufTy).Contents (Elt F))) : (⟨S_, .f32⟩ : BufTy).Contents (Elt F))) (((constant S_ .f32 0x00000000#32) : (⟨S_, .f32⟩ : BufTy).Contents (Elt F))) : (⟨S_, .i1⟩ : BufTy).Contents (Elt F)))) ((Host.divf ((Host.reduceAdd ((mulf ((subf (V (Proc.devRef .tc main_v94)) ((broadcastInDim S50000x64 ![0, 1] bcast_S1x64_S50000x64_0_1 ((Host.divf ((broadcastInDim S1x64 ![1] bcast_S64_S1x64_1 ((Host.reduceAdd (V (Proc.devRef .tc main_v94)) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((subf (V (Proc.devRef .tc main_v94)) ((broadcastInDim S50000x64 ![0, 1] bcast_S1x64_S50000x64_0_1 ((Host.divf ((broadcastInDim S1x64 ![1] bcast_S64_S1x64_1 ((Host.reduceAdd (V (Proc.devRef .tc main_v94)) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) : (⟨S50000x64, .f32⟩ : BufTy).Contents (Elt F))) (((constant S_ .f32 0x00000000#32) : (⟨S_, .f32⟩ : BufTy).Contents (Elt F))) reducesTo_S50000x64_S64_d0 h_S_ : (⟨S64, .f32⟩ : BufTy).Contents (Elt F))) ((broadcastInDim S64 ![] bcast_S_S64 ((subf (((constant S_ .f32 0x47435000#32) : (⟨S_, .f32⟩ : BufTy).Contents (Elt F))) ((sitofp .f32 (V (Proc.devRef .tc main_c_22)) : (⟨S_, .f32⟩ : BufTy).Contents (Elt F))) : (⟨S_, .f32⟩ : BufTy).Contents (Elt F))) : (⟨S64, .f32⟩ : BufTy).Contents (Elt F))) : (⟨S64, .f32⟩ : BufTy).Contents (Elt F))) ((broadcastInDim S64 ![] bcast_S_S64 ((id (((constant S_ .f32 0x7FC00000#32) : (⟨S_, .f32⟩ : BufTy).Contents (Elt F))) : (⟨S_, .f32⟩ : BufTy).Contents (Elt F))) : (⟨S64, .f32⟩ : BufTy).Contents (Elt F))) : (⟨S64, .f32⟩ : BufTy).Contents (Elt F)) := by
  simp only [stage13]
  after_results_simp
  all_goals (try rfl)

set_option maxRecDepth 8192 in
set_option maxHeartbeats 2000000 in
theorem stage14_main_v113 (V : Valuation τ sig (Elt F)) :
    after stage14 V (no_index (Proc.devRef .tc main_v113)) =
      (addf ((mulf ((mulf ((subf (V (Proc.devRef .tc main_v94)) ((broadcastInDim S50000x64 ![0, 1] bcast_S1x64_S50000x64_0_1 ((broadcastInDim S1x64 ![1] bcast_S64_S1x64_1 (V (Proc.devRef .tc main_v97)) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((Host.rsqrt ((addf (V (Proc.devRef .tc main_v98)) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F))) : (⟨S64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg9)) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg10)) : (⟨S1x64, .f32⟩ : BufTy).Contents (Elt F))) : (⟨S50000x64, .f32⟩ : BufTy).Contents (Elt F))) : (⟨S50000x64, .f32⟩ : BufTy).Contents (Elt F)) := by
  simp only [stage14]
  after_results_simp
  all_goals (try rfl)

set_option maxRecDepth 8192 in
set_option maxHeartbeats 2000000 in
theorem stage15_main_v114 (V : Valuation τ sig (Elt F)) :
    after stage15 V (no_index (Proc.devRef .tc main_v114)) =
      (maximumf (V (Proc.devRef .tc main_v113)) ((broadcastInDim S50000x64 ![] bcast_S_S50000x64 (((constant S_ .f32 0x00000000#32) : (⟨S_, .f32⟩ : BufTy).Contents (Elt F))) : (⟨S50000x64, .f32⟩ : BufTy).Contents (Elt F))) : (⟨S50000x64, .f32⟩ : BufTy).Contents (Elt F)) := by
  simp only [stage15]
  after_results_simp
  all_goals (try rfl)

set_option maxRecDepth 8192 in
set_option maxHeartbeats 2000000 in
theorem stage16_main_v135 (V : Valuation τ sig (Elt F)) :
    after stage16 V (no_index (Proc.devRef .tc main_v135)) =
      (addf ((Host.scatterAdd scatter_S50000x64_S850000x1_S850000x64_1_0_0_1 ((broadcastInDim S50000x64 ![] bcast_S_S50000x64 (((constant S_ .f32 0x00000000#32) : (⟨S_, .f32⟩ : BufTy).Contents (Elt F))) : (⟨S50000x64, .f32⟩ : BufTy).Contents (Elt F))) ((broadcastInDim S850000x1 ![0] bcast_S850000_S850000x1_0 ((select ((cmpi .slt (V (Proc.devRef .tc main_v6)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v6)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v6)) : (⟨S850000, .i32⟩ : BufTy).Contents (Elt F))) : (⟨S850000x1, .i32⟩ : BufTy).Contents (Elt F))) ((mulf ((broadcastInDim S850000x64 ![0, 1] bcast_S850000x1_S850000x64_0_1 (V (Proc.devRef .tc main_v32)) : (⟨S850000x64, .f32⟩ : BufTy).Contents (Elt F))) ((Host.gather gather_S50000x64_S850000x1_S850000x64_1_0_n_n_0_1_164 ((Host.dotGeneral dot_S50000x64_S64x64_S50000x64_1_0_0_1_n_n none (V (Proc.devRef .tc main_v114)) (V (Proc.devRef .tc main_arg11)) : (⟨S50000x64, .f32⟩ : BufTy).Contents (Elt F))) ((broadcastInDim S850000x1 ![0] bcast_S850000_S850000x1_0 ((select ((cmpi .slt (V (Proc.devRef .tc main_v5)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (V (Proc.devRef .tc main_v5)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (V (Proc.devRef .tc main_v5)) : (⟨S850000, .i32⟩ : BufTy).Contents (Elt F))) : (⟨S850000x1, .i32⟩ : BufTy).Contents (Elt F))) : (⟨S850000x64, .f32⟩ : BufTy).Contents (Elt F))) : (⟨S850000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg12)) : (⟨S1x64, .f32⟩ : BufTy).Contents (Elt F))) : (⟨S50000x64, .f32⟩ : BufTy).Contents (Elt F))) : (⟨S50000x64, .f32⟩ : BufTy).Contents (Elt F)) := by
  simp only [stage16]
  after_results_simp
  all_goals (try rfl)

set_option maxRecDepth 8192 in
set_option maxHeartbeats 2000000 in
theorem stage17_main_c_31 (V : Valuation τ sig (Elt F)) :
    after stage17 V (no_index (Proc.devRef .tc main_c_31)) =
      ((constantI S_ 32 0#32) : (⟨S_, .i32⟩ : BufTy).Contents (Elt F)) := by
  simp only [stage17]
  after_results_simp
  all_goals (try rfl)

set_option maxRecDepth 8192 in
set_option maxHeartbeats 2000000 in
theorem stage17_main_v138 (V : Valuation τ sig (Elt F)) :
    after stage17 V (no_index (Proc.devRef .tc main_v138)) =
      (Host.divf ((Host.reduceAdd (V (Proc.devRef .tc main_v135)) (((constant S_ .f32 0x00000000#32) : (⟨S_, .f32⟩ : BufTy).Contents (Elt F))) reducesTo_S50000x64_S64_d0 h_S_ : (⟨S64, .f32⟩ : BufTy).Contents (Elt F))) ((broadcastInDim S64 ![] bcast_S_S64 (((constant S_ .f32 0x47435000#32) : (⟨S_, .f32⟩ : BufTy).Contents (Elt F))) : (⟨S64, .f32⟩ : BufTy).Contents (Elt F))) : (⟨S64, .f32⟩ : BufTy).Contents (Elt F)) := by
  simp only [stage17]
  after_results_simp
  all_goals (try rfl)

set_option maxRecDepth 8192 in
set_option maxHeartbeats 2000000 in
theorem stage18_main_v139 (V : Valuation τ sig (Elt F)) :
    after stage18 V (no_index (Proc.devRef .tc main_v139)) =
      (select (broadcastInDim S64 ![] bcast_S_S64 ((cmpf .ogt ((subf (((constant S_ .f32 0x47435000#32) : (⟨S_, .f32⟩ : BufTy).Contents (Elt F))) ((sitofp .f32 (V (Proc.devRef .tc main_c_31)) : (⟨S_, .f32⟩ : BufTy).Contents (Elt F))) : (⟨S_, .f32⟩ : BufTy).Contents (Elt F))) (((constant S_ .f32 0x00000000#32) : (⟨S_, .f32⟩ : BufTy).Contents (Elt F))) : (⟨S_, .i1⟩ : BufTy).Contents (Elt F)))) ((Host.divf ((Host.reduceAdd ((mulf ((subf (V (Proc.devRef .tc main_v135)) ((broadcastInDim S50000x64 ![0, 1] bcast_S1x64_S50000x64_0_1 ((Host.divf ((broadcastInDim S1x64 ![1] bcast_S64_S1x64_1 ((Host.reduceAdd (V (Proc.devRef .tc main_v135)) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((subf (V (Proc.devRef .tc main_v135)) ((broadcastInDim S50000x64 ![0, 1] bcast_S1x64_S50000x64_0_1 ((Host.divf ((broadcastInDim S1x64 ![1] bcast_S64_S1x64_1 ((Host.reduceAdd (V (Proc.devRef .tc main_v135)) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) : (⟨S50000x64, .f32⟩ : BufTy).Contents (Elt F))) (((constant S_ .f32 0x00000000#32) : (⟨S_, .f32⟩ : BufTy).Contents (Elt F))) reducesTo_S50000x64_S64_d0 h_S_ : (⟨S64, .f32⟩ : BufTy).Contents (Elt F))) ((broadcastInDim S64 ![] bcast_S_S64 ((subf (((constant S_ .f32 0x47435000#32) : (⟨S_, .f32⟩ : BufTy).Contents (Elt F))) ((sitofp .f32 (V (Proc.devRef .tc main_c_31)) : (⟨S_, .f32⟩ : BufTy).Contents (Elt F))) : (⟨S_, .f32⟩ : BufTy).Contents (Elt F))) : (⟨S64, .f32⟩ : BufTy).Contents (Elt F))) : (⟨S64, .f32⟩ : BufTy).Contents (Elt F))) ((broadcastInDim S64 ![] bcast_S_S64 ((id (((constant S_ .f32 0x7FC00000#32) : (⟨S_, .f32⟩ : BufTy).Contents (Elt F))) : (⟨S_, .f32⟩ : BufTy).Contents (Elt F))) : (⟨S64, .f32⟩ : BufTy).Contents (Elt F))) : (⟨S64, .f32⟩ : BufTy).Contents (Elt F)) := by
  simp only [stage18]
  after_results_simp
  all_goals (try rfl)

set_option maxRecDepth 8192 in
set_option maxHeartbeats 2000000 in
theorem stage19_main_v144 (V : Valuation τ sig (Elt F)) :
    after stage19 V (no_index (Proc.devRef .tc main_v144)) =
      (addf (V (Proc.devRef .tc main_v139)) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F)) := by
  simp only [stage19]
  after_results_simp
  all_goals (try rfl)

set_option maxRecDepth 8192 in
set_option maxHeartbeats 2000000 in
theorem stage19_main_v142 (V : Valuation τ sig (Elt F)) :
    after stage19 V (no_index (Proc.devRef .tc main_v142)) =
      (subf (V (Proc.devRef .tc main_v135)) ((broadcastInDim S50000x64 ![0, 1] bcast_S1x64_S50000x64_0_1 ((broadcastInDim S1x64 ![1] bcast_S64_S1x64_1 (V (Proc.devRef .tc main_v138)) : (⟨S1x64, .f32⟩ : BufTy).Contents (Elt F))) : (⟨S50000x64, .f32⟩ : BufTy).Contents (Elt F))) : (⟨S50000x64, .f32⟩ : BufTy).Contents (Elt F)) := by
  simp only [stage19]
  after_results_simp
  all_goals (try rfl)

set_option maxRecDepth 8192 in
set_option maxHeartbeats 2000000 in
theorem stage20_main_v154 (V : Valuation τ sig (Elt F)) :
    after stage20 V (no_index (Proc.devRef .tc main_v154)) =
      (addf ((mulf ((mulf (V (Proc.devRef .tc main_v142)) ((broadcastInDim S50000x64 ![0, 1] bcast_S1x64_S50000x64_0_1 ((broadcastInDim S1x64 ![1] bcast_S64_S1x64_1 ((Host.rsqrt (V (Proc.devRef .tc main_v144)) : (⟨S64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg13)) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (V (Proc.devRef .tc main_arg14)) : (⟨S1x64, .f32⟩ : BufTy).Contents (Elt F))) : (⟨S50000x64, .f32⟩ : BufTy).Contents (Elt F))) : (⟨S50000x64, .f32⟩ : BufTy).Contents (Elt F)) := by
  simp only [stage20]
  after_results_simp
  all_goals (try rfl)

set_option maxRecDepth 8192 in
set_option maxHeartbeats 2000000 in
theorem stage21_main_v155 (V : Valuation τ sig (Elt F)) :
    after stage21 V (no_index (Proc.devRef .tc main_v155)) =
      (maximumf (V (Proc.devRef .tc main_v154)) ((broadcastInDim S50000x64 ![] bcast_S_S50000x64 (((constant S_ .f32 0x00000000#32) : (⟨S_, .f32⟩ : BufTy).Contents (Elt F))) : (⟨S50000x64, .f32⟩ : BufTy).Contents (Elt F))) : (⟨S50000x64, .f32⟩ : BufTy).Contents (Elt F)) := by
  simp only [stage21]
  after_results_simp
  all_goals (try rfl)

set_option maxRecDepth 8192 in
set_option maxHeartbeats 2000000 in
theorem stage22_main_v158 (V : Valuation τ sig (Elt F)) :
    after stage22 V (no_index (Proc.devRef .tc main_v158)) =
      (Host.scatterAdd scatter_S500x64_S50000x1_S50000x64_1_0_0_1 ((broadcastInDim S500x64 ![] bcast_S_S500x64 (((constant S_ .f32 0x00000000#32) : (⟨S_, .f32⟩ : BufTy).Contents (Elt F))) : (⟨S500x64, .f32⟩ : BufTy).Contents (Elt F))) ((broadcastInDim S50000x1 ![0] bcast_S50000_S50000x1_0 (V (Proc.devRef .tc main_arg2)) : (⟨S50000x1, .i32⟩ : BufTy).Contents (Elt F))) (V (Proc.devRef .tc main_v155)) : (⟨S500x64, .f32⟩ : BufTy).Contents (Elt F)) := by
  simp only [stage22]
  after_results_simp
  all_goals (try rfl)

set_option maxRecDepth 8192 in
set_option maxHeartbeats 2000000 in
theorem stage23_main_v171 (V : Valuation τ sig (Elt F)) :
    after stage23 V (no_index (Proc.devRef .tc main_v171)) =
      (addf ((Host.dotGeneral dot_S500x64_S64x6_S500x6_1_0_0_1_n_n none ((Host.divf (V (Proc.devRef .tc main_v158)) ((broadcastInDim S500x64 ![0, 1] bcast_S500x1_S500x64_0_1 ((broadcastInDim S500x1 ![0] bcast_S500_S500x1_0 ((maximumf ((Host.scatterAdd scatter_S500_S50000x1_S50000_n_0_0_1 ((broadcastInDim S500 ![] bcast_S_S500 (((constant S_ .f32 0x00000000#32) : (⟨S_, .f32⟩ : BufTy).Contents (Elt F))) : (⟨S500, .f32⟩ : BufTy).Contents (Elt F))) ((broadcastInDim S50000x1 ![0] bcast_S50000_S50000x1_0 (V (Proc.devRef .tc main_arg2)) : (⟨S50000x1, .i32⟩ : BufTy).Contents (Elt F))) ((broadcastInDim S50000 ![] bcast_S_S50000 (((constant S_ .f32 0x3F800000#32) : (⟨S_, .f32⟩ : BufTy).Contents (Elt F))) : (⟨S50000, .f32⟩ : BufTy).Contents (Elt F))) : (⟨S500, .f32⟩ : BufTy).Contents (Elt F))) ((broadcastInDim S500 ![] bcast_S_S500 (((constant S_ .f32 0x3F800000#32) : (⟨S_, .f32⟩ : BufTy).Contents (Elt F))) : (⟨S500, .f32⟩ : BufTy).Contents (Elt F))) : (⟨S500, .f32⟩ : BufTy).Contents (Elt F))) : (⟨S500x1, .f32⟩ : BufTy).Contents (Elt F))) : (⟨S500x64, .f32⟩ : BufTy).Contents (Elt F))) : (⟨S500x64, .f32⟩ : BufTy).Contents (Elt F))) (V (Proc.devRef .tc main_arg15)) : (⟨S500x6, .f32⟩ : BufTy).Contents (Elt F))) ((broadcastInDim S500x6 ![0, 1] bcast_S1x6_S500x6_0_1 ((broadcastInDim S1x6 ![1] bcast_S6_S1x6_1 (V (Proc.devRef .tc main_arg16)) : (⟨S1x6, .f32⟩ : BufTy).Contents (Elt F))) : (⟨S500x6, .f32⟩ : BufTy).Contents (Elt F))) : (⟨S500x6, .f32⟩ : BufTy).Contents (Elt F)) := by
  simp only [stage23]
  after_results_simp
  all_goals (try rfl)

end Cert.ReferenceIdeal.RefRun

end
-- ==== Proof.GcnLayers.lean ====
/-
  The layers of the graph network the reference program computes, as pure functions of arrays: each the composition of
  the printed host operations of one stretch of the program, in the program's order and spelling, generic in the float
  values. The shapes, the dimension records and the shape facts are the reference program's (its `Facts₀` class: a
  function here takes the instance, a proposition, so any instance gives the same function).
-/
import proofs.«120485_j12249246728930_1_alg».proof.ReferenceIdeal

noncomputable section

namespace Cert.Gcn

open Idealize.ShloMosaic Idealize.SL.Sem Cert.ReferenceIdeal Cert.ReferenceIdeal.Facts₀

variable {F : FTy → Type} [FloatOps F] [Cert.ReferenceIdeal.Facts₀]

/-- The sources: the edge table's first row, then every node once (a self loop per node). [850000] -/
def rowIdx (e : (⟨S2x800000, .i32⟩ : BufTy).Contents (Elt F)) :
    (⟨S850000, .i32⟩ : BufTy).Contents (Elt F) :=
  (concatenate S850000 0 [⟨S800000, ((shapeCast _ ((extractStridedSlice S1x800000 ![0, 0] (e) slices_S2x800000_S1x800000_0_0 : (⟨S1x800000, .i32⟩ : BufTy).Contents (Elt F))) shapeCasts_S1x800000_S800000 : (⟨S800000, .i32⟩ : BufTy).Contents (Elt F)))⟩, ⟨S50000, (((iotaInDim S50000 32 0) : (⟨S50000, .i32⟩ : BufTy).Contents (Elt F)))⟩] concatenates_S800000_S50000_S850000_d0 : (⟨S850000, .i32⟩ : BufTy).Contents (Elt F))

/-- The targets: the edge table's second row, then every node once. [850000] -/
def colIdx (e : (⟨S2x800000, .i32⟩ : BufTy).Contents (Elt F)) :
    (⟨S850000, .i32⟩ : BufTy).Contents (Elt F) :=
  (concatenate S850000 0 [⟨S800000, ((shapeCast _ ((extractStridedSlice S1x800000 ![1, 0] (e) slices_S2x800000_S1x800000_1_0 : (⟨S1x800000, .i32⟩ : BufTy).Contents (Elt F))) shapeCasts_S1x800000_S800000 : (⟨S800000, .i32⟩ : BufTy).Contents (Elt F)))⟩, ⟨S50000, (((iotaInDim S50000 32 0) : (⟨S50000, .i32⟩ : BufTy).Contents (Elt F)))⟩] concatenates_S800000_S50000_S850000_d0 : (⟨S850000, .i32⟩ : BufTy).Contents (Elt F))

/-- An index vector as a column of scatter / gather indices: a negative index counted from the end (the node count 50000 added), then one column. [850000] → [850000,1] -/
def wrapIdx (i : (⟨S850000, .i32⟩ : BufTy).Contents (Elt F)) :
    (⟨S850000x1, .i32⟩ : BufTy).Contents (Elt F) :=
  (broadcastInDim S850000x1 ![0] bcast_S850000_S850000x1_0 ((select ((cmpi .slt (i) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi (i) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) (i) : (⟨S850000, .i32⟩ : BufTy).Contents (Elt F))) : (⟨S850000x1, .i32⟩ : BufTy).Contents (Elt F))

/-- Per node, the reciprocal square root of its in-degree: ones summed at the targets into zeros. [50000] -/
def degInv (col : (⟨S850000, .i32⟩ : BufTy).Contents (Elt F)) :
    (⟨S50000, .f32⟩ : BufTy).Contents (Elt F) :=
  (Host.rsqrt ((Host.scatterAdd scatter_S50000_S850000x1_S850000_n_0_0_1 ((broadcastInDim S50000 ![] bcast_S_S50000 (((constant S_ .f32 0x00000000#32) : (⟨S_, .f32⟩ : BufTy).Contents (Elt F))) : (⟨S50000, .f32⟩ : BufTy).Contents (Elt F))) (wrapIdx col) ((broadcastInDim S850000 ![] bcast_S_S850000 (((constant S_ .f32 0x3F800000#32) : (⟨S_, .f32⟩ : BufTy).Contents (Elt F))) : (⟨S850000, .f32⟩ : BufTy).Contents (Elt F))) : (⟨S50000, .f32⟩ : BufTy).Contents (Elt F))) : (⟨S50000, .f32⟩ : BufTy).Contents (Elt F))

/-- Per edge, its weight as a column: the node factor `d` at its source times `d` at its target. [850000,1] -/
def edgeW (row : (⟨S850000, .i32⟩ : BufTy).Contents (Elt F)) (col : (⟨S850000, .i32⟩ : BufTy).Contents (Elt F)) (d : (⟨S50000, .f32⟩ : BufTy).Contents (Elt F)) :
    (⟨S850000x1, .f32⟩ : BufTy).Contents (Elt F) :=
  (broadcastInDim S850000x1 ![0] bcast_S850000_S850000x1_0 ((mulf ((Host.gather gather_S50000_S850000x1_S850000_n_0_n_n_0_1_1 (d) (wrapIdx row) : (⟨S850000, .f32⟩ : BufTy).Contents (Elt F))) ((Host.gather gather_S50000_S850000x1_S850000_n_0_n_n_0_1_1 (d) (wrapIdx col) : (⟨S850000, .f32⟩ : BufTy).Contents (Elt F))) : (⟨S850000, .f32⟩ : BufTy).Contents (Elt F))) : (⟨S850000x1, .f32⟩ : BufTy).Contents (Elt F))

/-- The features times a weight matrix. [50000,64] -/
def dense (h : (⟨S50000x64, .f32⟩ : BufTy).Contents (Elt F)) (W : (⟨S64x64, .f32⟩ : BufTy).Contents (Elt F)) :
    (⟨S50000x64, .f32⟩ : BufTy).Contents (Elt F) :=
  (Host.dotGeneral dot_S50000x64_S64x64_S50000x64_1_0_0_1_n_n none (h) (W) : (⟨S50000x64, .f32⟩ : BufTy).Contents (Elt F))

/-- Per node, the sum over the edges into it of the edge's weight times the row of `h1` at the edge's source, plus the bias: zeros scatter-added at the wrapped targets with the weighted rows gathered at the wrapped sources. [50000,64] -/
def aggregate (h1 : (⟨S50000x64, .f32⟩ : BufTy).Contents (Elt F)) (b : (⟨S64, .f32⟩ : BufTy).Contents (Elt F)) (row : (⟨S850000, .i32⟩ : BufTy).Contents (Elt F)) (col : (⟨S850000, .i32⟩ : BufTy).Contents (Elt F)) (w : (⟨S850000x1, .f32⟩ : BufTy).Contents (Elt F)) :
    (⟨S50000x64, .f32⟩ : BufTy).Contents (Elt F) :=
  (addf ((Host.scatterAdd scatter_S50000x64_S850000x1_S850000x64_1_0_0_1 ((broadcastInDim S50000x64 ![] bcast_S_S50000x64 (((constant S_ .f32 0x00000000#32) : (⟨S_, .f32⟩ : BufTy).Contents (Elt F))) : (⟨S50000x64, .f32⟩ : BufTy).Contents (Elt F))) (wrapIdx col) ((mulf ((broadcastInDim S850000x64 ![0, 1] bcast_S850000x1_S850000x64_0_1 (w) : (⟨S850000x64, .f32⟩ : BufTy).Contents (Elt F))) ((Host.gather gather_S50000x64_S850000x1_S850000x64_1_0_n_n_0_1_164 (h1) (wrapIdx row) : (⟨S850000x64, .f32⟩ : BufTy).Contents (Elt F))) : (⟨S850000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (b) : (⟨S1x64, .f32⟩ : BufTy).Contents (Elt F))) : (⟨S50000x64, .f32⟩ : BufTy).Contents (Elt F))) : (⟨S50000x64, .f32⟩ : BufTy).Contents (Elt F))

/-- Per feature, its mean over the nodes: the column sum divided by 50000. [64] -/
def colMean (h2 : (⟨S50000x64, .f32⟩ : BufTy).Contents (Elt F)) :
    (⟨S64, .f32⟩ : BufTy).Contents (Elt F) :=
  (Host.divf ((Host.reduceAdd (h2) (((constant S_ .f32 0x00000000#32) : (⟨S_, .f32⟩ : BufTy).Contents (Elt F))) reducesTo_S50000x64_S64_d0 h_S_ : (⟨S64, .f32⟩ : BufTy).Contents (Elt F))) ((broadcastInDim S64 ![] bcast_S_S64 (((constant S_ .f32 0x47435000#32) : (⟨S_, .f32⟩ : BufTy).Contents (Elt F))) : (⟨S64, .f32⟩ : BufTy).Contents (Elt F))) : (⟨S64, .f32⟩ : BufTy).Contents (Elt F))

/-- Per feature, its variance over the nodes as the outlined function computes it: the column sum of the squared deviations from the column mean, divided by 50000 less the converted integer 0, selected where that divisor is positive (not a number otherwise). [64] -/
def colVar (h2 : (⟨S50000x64, .f32⟩ : BufTy).Contents (Elt F)) :
    (⟨S64, .f32⟩ : BufTy).Contents (Elt F) :=
  (select (broadcastInDim S64 ![] bcast_S_S64 ((cmpf .ogt ((subf (((constant S_ .f32 0x47435000#32) : (⟨S_, .f32⟩ : BufTy).Contents (Elt F))) ((sitofp .f32 (((constantI S_ 32 0#32) : (⟨S_, .i32⟩ : BufTy).Contents (Elt F))) : (⟨S_, .f32⟩ : BufTy).Contents (Elt F))) : (⟨S_, .f32⟩ : BufTy).Contents (Elt F))) (((constant S_ .f32 0x00000000#32) : (⟨S_, .f32⟩ : BufTy).Contents (Elt F))) : (⟨S_, .i1⟩ : BufTy).Contents (Elt F)))) ((Host.divf ((Host.reduceAdd ((mulf ((subf (h2) ((broadcastInDim S50000x64 ![0, 1] bcast_S1x64_S50000x64_0_1 ((Host.divf ((broadcastInDim S1x64 ![1] bcast_S64_S1x64_1 ((Host.reduceAdd (h2) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((subf (h2) ((broadcastInDim S50000x64 ![0, 1] bcast_S1x64_S50000x64_0_1 ((Host.divf ((broadcastInDim S1x64 ![1] bcast_S64_S1x64_1 ((Host.reduceAdd (h2) (((constant S_ .f32 0x00000000#32) : (⟨S_, .f32⟩ : BufTy).Contents (Elt F))) reducesTo_S50000x64_S64_d0 h_S_ : (⟨S64, .f32⟩ : BufTy).Contents (Elt F))) : (⟨S1x64, .f32⟩ : BufTy).Contents (Elt F))) ((broadcastInDim S1x64 ![] bcast_S_S1x64 (((constant S_ .f32 0x47435000#32) : (⟨S_, .f32⟩ : BufTy).Contents (Elt F))) : (⟨S1x64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) : (⟨S50000x64, .f32⟩ : BufTy).Contents (Elt F))) (((constant S_ .f32 0x00000000#32) : (⟨S_, .f32⟩ : BufTy).Contents (Elt F))) reducesTo_S50000x64_S64_d0 h_S_ : (⟨S64, .f32⟩ : BufTy).Contents (Elt F))) ((broadcastInDim S64 ![] bcast_S_S64 ((subf (((constant S_ .f32 0x47435000#32) : (⟨S_, .f32⟩ : BufTy).Contents (Elt F))) ((sitofp .f32 (((constantI S_ 32 0#32) : (⟨S_, .i32⟩ : BufTy).Contents (Elt F))) : (⟨S_, .f32⟩ : BufTy).Contents (Elt F))) : (⟨S_, .f32⟩ : BufTy).Contents (Elt F))) : (⟨S64, .f32⟩ : BufTy).Contents (Elt F))) : (⟨S64, .f32⟩ : BufTy).Contents (Elt F))) ((broadcastInDim S64 ![] bcast_S_S64 ((id (((constant S_ .f32 0x7FC00000#32) : (⟨S_, .f32⟩ : BufTy).Contents (Elt F))) : (⟨S_, .f32⟩ : BufTy).Contents (Elt F))) : (⟨S64, .f32⟩ : BufTy).Contents (Elt F))) : (⟨S64, .f32⟩ : BufTy).Contents (Elt F))

/-- The features centred at `mu`, scaled by the reciprocal square root of `va` plus the small constant and by the gain `g`, shifted by `be`; then the positive part. [50000,64] -/
def bnRelu (h2 : (⟨S50000x64, .f32⟩ : BufTy).Contents (Elt F)) (mu : (⟨S64, .f32⟩ : BufTy).Contents (Elt F)) (va : (⟨S64, .f32⟩ : BufTy).Contents (Elt F)) (g : (⟨S64, .f32⟩ : BufTy).Contents (Elt F)) (be : (⟨S64, .f32⟩ : BufTy).Contents (Elt F)) :
    (⟨S50000x64, .f32⟩ : BufTy).Contents (Elt F) :=
  (maximumf ((addf ((mulf ((mulf ((subf (h2) ((broadcastInDim S50000x64 ![0, 1] bcast_S1x64_S50000x64_0_1 ((broadcastInDim S1x64 ![1] bcast_S64_S1x64_1 (mu) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((Host.rsqrt ((addf (va) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F))) : (⟨S64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (g) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 (be) : (⟨S1x64, .f32⟩ : BufTy).Contents (Elt F))) : (⟨S50000x64, .f32⟩ : BufTy).Contents (Elt F))) : (⟨S50000x64, .f32⟩ : BufTy).Contents (Elt F))) ((broadcastInDim S50000x64 ![] bcast_S_S50000x64 (((constant S_ .f32 0x00000000#32) : (⟨S_, .f32⟩ : BufTy).Contents (Elt F))) : (⟨S50000x64, .f32⟩ : BufTy).Contents (Elt F))) : (⟨S50000x64, .f32⟩ : BufTy).Contents (Elt F))

/-- Per graph, the sum of its nodes' features divided by its node count, the count taken at least one. [500,64] -/
def pool (h3 : (⟨S50000x64, .f32⟩ : BufTy).Contents (Elt F)) (batch : (⟨S50000, .i32⟩ : BufTy).Contents (Elt F)) :
    (⟨S500x64, .f32⟩ : BufTy).Contents (Elt F) :=
  (Host.divf ((Host.scatterAdd scatter_S500x64_S50000x1_S50000x64_1_0_0_1 ((broadcastInDim S500x64 ![] bcast_S_S500x64 (((constant S_ .f32 0x00000000#32) : (⟨S_, .f32⟩ : BufTy).Contents (Elt F))) : (⟨S500x64, .f32⟩ : BufTy).Contents (Elt F))) ((broadcastInDim S50000x1 ![0] bcast_S50000_S50000x1_0 (batch) : (⟨S50000x1, .i32⟩ : BufTy).Contents (Elt F))) (h3) : (⟨S500x64, .f32⟩ : BufTy).Contents (Elt F))) ((broadcastInDim S500x64 ![0, 1] bcast_S500x1_S500x64_0_1 ((broadcastInDim S500x1 ![0] bcast_S500_S500x1_0 ((maximumf ((Host.scatterAdd scatter_S500_S50000x1_S50000_n_0_0_1 ((broadcastInDim S500 ![] bcast_S_S500 (((constant S_ .f32 0x00000000#32) : (⟨S_, .f32⟩ : BufTy).Contents (Elt F))) : (⟨S500, .f32⟩ : BufTy).Contents (Elt F))) ((broadcastInDim S50000x1 ![0] bcast_S50000_S50000x1_0 (batch) : (⟨S50000x1, .i32⟩ : BufTy).Contents (Elt F))) ((broadcastInDim S50000 ![] bcast_S_S50000 (((constant S_ .f32 0x3F800000#32) : (⟨S_, .f32⟩ : BufTy).Contents (Elt F))) : (⟨S50000, .f32⟩ : BufTy).Contents (Elt F))) : (⟨S500, .f32⟩ : BufTy).Contents (Elt F))) ((broadcastInDim S500 ![] bcast_S_S500 (((constant S_ .f32 0x3F800000#32) : (⟨S_, .f32⟩ : BufTy).Contents (Elt F))) : (⟨S500, .f32⟩ : BufTy).Contents (Elt F))) : (⟨S500, .f32⟩ : BufTy).Contents (Elt F))) : (⟨S500x1, .f32⟩ : BufTy).Contents (Elt F))) : (⟨S500x64, .f32⟩ : BufTy).Contents (Elt F))) : (⟨S500x64, .f32⟩ : BufTy).Contents (Elt F))

/-- The pooled features times the output matrix, plus the output bias. [500,6] -/
def head (p : (⟨S500x64, .f32⟩ : BufTy).Contents (Elt F)) (fcW : (⟨S64x6, .f32⟩ : BufTy).Contents (Elt F)) (fcb : (⟨S6, .f32⟩ : BufTy).Contents (Elt F)) :
    (⟨S500x6, .f32⟩ : BufTy).Contents (Elt F) :=
  (addf ((Host.dotGeneral dot_S500x64_S64x6_S500x6_1_0_0_1_n_n none (p) (fcW) : (⟨S500x6, .f32⟩ : BufTy).Contents (Elt F))) ((broadcastInDim S500x6 ![0, 1] bcast_S1x6_S500x6_0_1 ((broadcastInDim S1x6 ![1] bcast_S6_S1x6_1 (fcb) : (⟨S1x6, .f32⟩ : BufTy).Contents (Elt F))) : (⟨S500x6, .f32⟩ : BufTy).Contents (Elt F))) : (⟨S500x6, .f32⟩ : BufTy).Contents (Elt F))

/-- One layer: the dense product, the aggregation over the edges with the bias, then the normalisation over the nodes by
    the aggregate's own column mean and column variance, the gain, the shift and the positive part. -/
def layer (row col : (⟨S850000, .i32⟩ : BufTy).Contents (Elt F)) (w : (⟨S850000x1, .f32⟩ : BufTy).Contents (Elt F))
    (h : (⟨S50000x64, .f32⟩ : BufTy).Contents (Elt F)) (W : (⟨S64x64, .f32⟩ : BufTy).Contents (Elt F)) (b g be : (⟨S64, .f32⟩ : BufTy).Contents (Elt F)) :
    (⟨S50000x64, .f32⟩ : BufTy).Contents (Elt F) :=
  bnRelu (aggregate (dense h W) b row col w) (colMean (aggregate (dense h W) b row col w))
    (colVar (aggregate (dense h W) b row col w)) g be

/-- The whole network: three layers over the edges of `e` (self loops added, symmetric degree weights), the per-graph
    mean pool over `batch`, the output layer. -/
def forward (x : (⟨S50000x64, .f32⟩ : BufTy).Contents (Elt F))
    (e : (⟨S2x800000, .i32⟩ : BufTy).Contents (Elt F))
    (batch : (⟨S50000, .i32⟩ : BufTy).Contents (Elt F))
    (W1 : (⟨S64x64, .f32⟩ : BufTy).Contents (Elt F))
    (b1 : (⟨S64, .f32⟩ : BufTy).Contents (Elt F))
    (g1 : (⟨S64, .f32⟩ : BufTy).Contents (Elt F))
    (be1 : (⟨S64, .f32⟩ : BufTy).Contents (Elt F))
    (W2 : (⟨S64x64, .f32⟩ : BufTy).Contents (Elt F))
    (b2 : (⟨S64, .f32⟩ : BufTy).Contents (Elt F))
    (g2 : (⟨S64, .f32⟩ : BufTy).Contents (Elt F))
    (be2 : (⟨S64, .f32⟩ : BufTy).Contents (Elt F))
    (W3 : (⟨S64x64, .f32⟩ : BufTy).Contents (Elt F))
    (b3 : (⟨S64, .f32⟩ : BufTy).Contents (Elt F))
    (g3 : (⟨S64, .f32⟩ : BufTy).Contents (Elt F))
    (be3 : (⟨S64, .f32⟩ : BufTy).Contents (Elt F))
    (fcW : (⟨S64x6, .f32⟩ : BufTy).Contents (Elt F))
    (fcb : (⟨S6, .f32⟩ : BufTy).Contents (Elt F)) :
    (⟨S500x6, .f32⟩ : BufTy).Contents (Elt F) :=
  head (pool
    (layer (rowIdx e) (colIdx e) (edgeW (rowIdx e) (colIdx e) (degInv (colIdx e)))
      (layer (rowIdx e) (colIdx e) (edgeW (rowIdx e) (colIdx e) (degInv (colIdx e)))
        (layer (rowIdx e) (colIdx e) (edgeW (rowIdx e) (colIdx e) (degInv (colIdx e))) x W1 b1 g1 be1)
        W2 b2 g2 be2)
      W3 b3 g3 be3)
    batch) fcW fcb

end Cert.Gcn

end
-- ==== Proof.RefRunVal.lean ====
/-
  The reference program's result as the composition of the network's layer functions: the contents after each stage of
  the operations, buffer by buffer, read off the stages' own equations and named; the fold of all the operations is the
  last of them.
-/
import proofs.«120485_j12249246728930_1_alg».proof.Proof.RefRun
import proofs.«120485_j12249246728930_1_alg».proof.Proof.RefRunStage
import proofs.«120485_j12249246728930_1_alg».proof.Proof.GcnLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The network's intermediate arrays over any contents of the argument buffers -/

/-- The sources (with the self loops), of the edge table in `main_arg1`. -/
def r_row (V0 : Valuation τ sig (Elt F)) := Gcn.rowIdx (V0 (Proc.devRef .tc main_arg1))
/-- The targets (with the self loops). -/
def r_col (V0 : Valuation τ sig (Elt F)) := Gcn.colIdx (V0 (Proc.devRef .tc main_arg1))
/-- The edge weights. -/
def r_w (V0 : Valuation τ sig (Elt F)) := Gcn.edgeW (r_row V0) (r_col V0) (Gcn.degInv (r_col V0))
/-- Layer 1 before its normalisation: the aggregate of the dense product of the features. -/
def r_a1 (V0 : Valuation τ sig (Elt F)) := Gcn.aggregate (Gcn.dense (V0 (Proc.devRef .tc main_arg0)) (V0 (Proc.devRef .tc main_arg3))) (V0 (Proc.devRef .tc main_arg4)) (r_row V0) (r_col V0) (r_w V0)
/-- Layer 1. -/
def r_h1 (V0 : Valuation τ sig (Elt F)) := Gcn.bnRelu (r_a1 V0) (Gcn.colMean (r_a1 V0)) (Gcn.colVar (r_a1 V0)) (V0 (Proc.devRef .tc main_arg5)) (V0 (Proc.devRef .tc main_arg6))
/-- Layer 2 before its normalisation. -/
def r_a2 (V0 : Valuation τ sig (Elt F)) := Gcn.aggregate (Gcn.dense (r_h1 V0) (V0 (Proc.devRef .tc main_arg7))) (V0 (Proc.devRef .tc main_arg8)) (r_row V0) (r_col V0) (r_w V0)
/-- Layer 2. -/
def r_h2 (V0 : Valuation τ sig (Elt F)) := Gcn.bnRelu (r_a2 V0) (Gcn.colMean (r_a2 V0)) (Gcn.colVar (r_a2 V0)) (V0 (Proc.devRef .tc main_arg9)) (V0 (Proc.devRef .tc main_arg10))
/-- Layer 3 before its normalisation. -/
def r_a3 (V0 : Valuation τ sig (Elt F)) := Gcn.aggregate (Gcn.dense (r_h2 V0) (V0 (Proc.devRef .tc main_arg11))) (V0 (Proc.devRef .tc main_arg12)) (r_row V0) (r_col V0) (r_w V0)
/-- Layer 3. -/
def r_h3 (V0 : Valuation τ sig (Elt F)) := Gcn.bnRelu (r_a3 V0) (Gcn.colMean (r_a3 V0)) (Gcn.colVar (r_a3 V0)) (V0 (Proc.devRef .tc main_arg13)) (V0 (Proc.devRef .tc main_arg14))
/-- The output: the pooled layer 3 through the output layer. -/
def r_out (V0 : Valuation τ sig (Elt F)) := Gcn.head (Gcn.pool (r_h3 V0) (V0 (Proc.devRef .tc main_arg2))) (V0 (Proc.devRef .tc main_arg15)) (V0 (Proc.devRef .tc main_arg16))

/-! ## The contents after the first k stages -/

/-- The device's buffer contents before the first stage. -/
def val0 (V0 : Valuation τ sig (Elt F)) : Valuation τ sig (Elt F) := V0
theorem val0_main_arg1 (V0 : Valuation τ sig (Elt F)) : val0 V0 (no_index (Proc.devRef .tc main_arg1)) = (V0 (Proc.devRef .tc main_arg1)) := rfl
theorem val0_main_arg0 (V0 : Valuation τ sig (Elt F)) : val0 V0 (no_index (Proc.devRef .tc main_arg0)) = (V0 (Proc.devRef .tc main_arg0)) := rfl
theorem val0_main_arg3 (V0 : Valuation τ sig (Elt F)) : val0 V0 (no_index (Proc.devRef .tc main_arg3)) = (V0 (Proc.devRef .tc main_arg3)) := rfl
theorem val0_main_arg4 (V0 : Valuation τ sig (Elt F)) : val0 V0 (no_index (Proc.devRef .tc main_arg4)) = (V0 (Proc.devRef .tc main_arg4)) := rfl
theorem val0_main_arg5 (V0 : Valuation τ sig (Elt F)) : val0 V0 (no_index (Proc.devRef .tc main_arg5)) = (V0 (Proc.devRef .tc main_arg5)) := rfl
theorem val0_main_arg6 (V0 : Valuation τ sig (Elt F)) : val0 V0 (no_index (Proc.devRef .tc main_arg6)) = (V0 (Proc.devRef .tc main_arg6)) := rfl
theorem val0_main_arg7 (V0 : Valuation τ sig (Elt F)) : val0 V0 (no_index (Proc.devRef .tc main_arg7)) = (V0 (Proc.devRef .tc main_arg7)) := rfl
theorem val0_main_arg8 (V0 : Valuation τ sig (Elt F)) : val0 V0 (no_index (Proc.devRef .tc main_arg8)) = (V0 (Proc.devRef .tc main_arg8)) := rfl
theorem val0_main_arg9 (V0 : Valuation τ sig (Elt F)) : val0 V0 (no_index (Proc.devRef .tc main_arg9)) = (V0 (Proc.devRef .tc main_arg9)) := rfl
theorem val0_main_arg10 (V0 : Valuation τ sig (Elt F)) : val0 V0 (no_index (Proc.devRef .tc main_arg10)) = (V0 (Proc.devRef .tc main_arg10)) := rfl
theorem val0_main_arg11 (V0 : Valuation τ sig (Elt F)) : val0 V0 (no_index (Proc.devRef .tc main_arg11)) = (V0 (Proc.devRef .tc main_arg11)) := rfl
theorem val0_main_arg12 (V0 : Valuation τ sig (Elt F)) : val0 V0 (no_index (Proc.devRef .tc main_arg12)) = (V0 (Proc.devRef .tc main_arg12)) := rfl
theorem val0_main_arg13 (V0 : Valuation τ sig (Elt F)) : val0 V0 (no_index (Proc.devRef .tc main_arg13)) = (V0 (Proc.devRef .tc main_arg13)) := rfl
theorem val0_main_arg14 (V0 : Valuation τ sig (Elt F)) : val0 V0 (no_index (Proc.devRef .tc main_arg14)) = (V0 (Proc.devRef .tc main_arg14)) := rfl
theorem val0_main_arg2 (V0 : Valuation τ sig (Elt F)) : val0 V0 (no_index (Proc.devRef .tc main_arg2)) = (V0 (Proc.devRef .tc main_arg2)) := rfl
theorem val0_main_arg15 (V0 : Valuation τ sig (Elt F)) : val0 V0 (no_index (Proc.devRef .tc main_arg15)) = (V0 (Proc.devRef .tc main_arg15)) := rfl
theorem val0_main_arg16 (V0 : Valuation τ sig (Elt F)) : val0 V0 (no_index (Proc.devRef .tc main_arg16)) = (V0 (Proc.devRef .tc main_arg16)) := rfl

/-- The device's buffer contents after the first 1 stage. -/
def val1 (V0 : Valuation τ sig (Elt F)) : Valuation τ sig (Elt F) := after stage0 (val0 V0)
theorem val1_keep (V0 : Valuation τ sig (Elt F)) (r : Ref sig .tc) (h : r ∉ stage0_W) :
    val1 V0 (Proc.devRef .tc r) = val0 V0 (Proc.devRef .tc r) := stage0_keep _ r h
set_option maxRecDepth 8192 in
set_option maxHeartbeats 2000000 in
theorem val1_main_v6 (V0 : Valuation τ sig (Elt F)) : val1 V0 (no_index (Proc.devRef .tc main_v6)) =
    (r_col V0) := by
  unfold val1
  rw [stage0_main_v6]
  simp only [val0_main_arg1]
  all_goals (try rfl)
set_option maxRecDepth 8192 in
set_option maxHeartbeats 2000000 in
theorem val1_main_v5 (V0 : Valuation τ sig (Elt F)) : val1 V0 (no_index (Proc.devRef .tc main_v5)) =
    (r_row V0) := by
  unfold val1
  rw [stage0_main_v5]
  simp only [val0_main_arg1]
  all_goals (try rfl)
theorem val1_main_arg0 (V0 : Valuation τ sig (Elt F)) : val1 V0 (no_index (Proc.devRef .tc main_arg0)) =
    (V0 (Proc.devRef .tc main_arg0)) :=
  (val1_keep V0 main_arg0 (by decide)).trans (val0_main_arg0 V0)
theorem val1_main_arg3 (V0 : Valuation τ sig (Elt F)) : val1 V0 (no_index (Proc.devRef .tc main_arg3)) =
    (V0 (Proc.devRef .tc main_arg3)) :=
  (val1_keep V0 main_arg3 (by decide)).trans (val0_main_arg3 V0)
theorem val1_main_arg4 (V0 : Valuation τ sig (Elt F)) : val1 V0 (no_index (Proc.devRef .tc main_arg4)) =
    (V0 (Proc.devRef .tc main_arg4)) :=
  (val1_keep V0 main_arg4 (by decide)).trans (val0_main_arg4 V0)
theorem val1_main_arg5 (V0 : Valuation τ sig (Elt F)) : val1 V0 (no_index (Proc.devRef .tc main_arg5)) =
    (V0 (Proc.devRef .tc main_arg5)) :=
  (val1_keep V0 main_arg5 (by decide)).trans (val0_main_arg5 V0)
theorem val1_main_arg6 (V0 : Valuation τ sig (Elt F)) : val1 V0 (no_index (Proc.devRef .tc main_arg6)) =
    (V0 (Proc.devRef .tc main_arg6)) :=
  (val1_keep V0 main_arg6 (by decide)).trans (val0_main_arg6 V0)
theorem val1_main_arg7 (V0 : Valuation τ sig (Elt F)) : val1 V0 (no_index (Proc.devRef .tc main_arg7)) =
    (V0 (Proc.devRef .tc main_arg7)) :=
  (val1_keep V0 main_arg7 (by decide)).trans (val0_main_arg7 V0)
theorem val1_main_arg8 (V0 : Valuation τ sig (Elt F)) : val1 V0 (no_index (Proc.devRef .tc main_arg8)) =
    (V0 (Proc.devRef .tc main_arg8)) :=
  (val1_keep V0 main_arg8 (by decide)).trans (val0_main_arg8 V0)
theorem val1_main_arg9 (V0 : Valuation τ sig (Elt F)) : val1 V0 (no_index (Proc.devRef .tc main_arg9)) =
    (V0 (Proc.devRef .tc main_arg9)) :=
  (val1_keep V0 main_arg9 (by decide)).trans (val0_main_arg9 V0)
theorem val1_main_arg10 (V0 : Valuation τ sig (Elt F)) : val1 V0 (no_index (Proc.devRef .tc main_arg10)) =
    (V0 (Proc.devRef .tc main_arg10)) :=
  (val1_keep V0 main_arg10 (by decide)).trans (val0_main_arg10 V0)
theorem val1_main_arg11 (V0 : Valuation τ sig (Elt F)) : val1 V0 (no_index (Proc.devRef .tc main_arg11)) =
    (V0 (Proc.devRef .tc main_arg11)) :=
  (val1_keep V0 main_arg11 (by decide)).trans (val0_main_arg11 V0)
theorem val1_main_arg12 (V0 : Valuation τ sig (Elt F)) : val1 V0 (no_index (Proc.devRef .tc main_arg12)) =
    (V0 (Proc.devRef .tc main_arg12)) :=
  (val1_keep V0 main_arg12 (by decide)).trans (val0_main_arg12 V0)
theorem val1_main_arg13 (V0 : Valuation τ sig (Elt F)) : val1 V0 (no_index (Proc.devRef .tc main_arg13)) =
    (V0 (Proc.devRef .tc main_arg13)) :=
  (val1_keep V0 main_arg13 (by decide)).trans (val0_main_arg13 V0)
theorem val1_main_arg14 (V0 : Valuation τ sig (Elt F)) : val1 V0 (no_index (Proc.devRef .tc main_arg14)) =
    (V0 (Proc.devRef .tc main_arg14)) :=
  (val1_keep V0 main_arg14 (by decide)).trans (val0_main_arg14 V0)
theorem val1_main_arg2 (V0 : Valuation τ sig (Elt F)) : val1 V0 (no_index (Proc.devRef .tc main_arg2)) =
    (V0 (Proc.devRef .tc main_arg2)) :=
  (val1_keep V0 main_arg2 (by decide)).trans (val0_main_arg2 V0)
theorem val1_main_arg15 (V0 : Valuation τ sig (Elt F)) : val1 V0 (no_index (Proc.devRef .tc main_arg15)) =
    (V0 (Proc.devRef .tc main_arg15)) :=
  (val1_keep V0 main_arg15 (by decide)).trans (val0_main_arg15 V0)
theorem val1_main_arg16 (V0 : Valuation τ sig (Elt F)) : val1 V0 (no_index (Proc.devRef .tc main_arg16)) =
    (V0 (Proc.devRef .tc main_arg16)) :=
  (val1_keep V0 main_arg16 (by decide)).trans (val0_main_arg16 V0)

/-- The device's buffer contents after the first 2 stages. -/
def val2 (V0 : Valuation τ sig (Elt F)) : Valuation τ sig (Elt F) := after stage1 (val1 V0)
theorem val2_keep (V0 : Valuation τ sig (Elt F)) (r : Ref sig .tc) (h : r ∉ stage1_W) :
    val2 V0 (Proc.devRef .tc r) = val1 V0 (Proc.devRef .tc r) := stage1_keep _ r h
theorem val2_main_v5 (V0 : Valuation τ sig (Elt F)) : val2 V0 (no_index (Proc.devRef .tc main_v5)) =
    (r_row V0) :=
  (val2_keep V0 main_v5 (by decide)).trans (val1_main_v5 V0)
set_option maxRecDepth 8192 in
set_option maxHeartbeats 2000000 in
theorem val2_main_v16 (V0 : Valuation τ sig (Elt F)) : val2 V0 (no_index (Proc.devRef .tc main_v16)) =
    (Gcn.degInv (r_col V0)) := by
  unfold val2
  rw [stage1_main_v16]
  simp only [val1_main_v6]
  all_goals (try rfl)
theorem val2_main_v6 (V0 : Valuation τ sig (Elt F)) : val2 V0 (no_index (Proc.devRef .tc main_v6)) =
    (r_col V0) :=
  (val2_keep V0 main_v6 (by decide)).trans (val1_main_v6 V0)
theorem val2_main_arg0 (V0 : Valuation τ sig (Elt F)) : val2 V0 (no_index (Proc.devRef .tc main_arg0)) =
    (V0 (Proc.devRef .tc main_arg0)) :=
  (val2_keep V0 main_arg0 (by decide)).trans (val1_main_arg0 V0)
theorem val2_main_arg3 (V0 : Valuation τ sig (Elt F)) : val2 V0 (no_index (Proc.devRef .tc main_arg3)) =
    (V0 (Proc.devRef .tc main_arg3)) :=
  (val2_keep V0 main_arg3 (by decide)).trans (val1_main_arg3 V0)
theorem val2_main_arg4 (V0 : Valuation τ sig (Elt F)) : val2 V0 (no_index (Proc.devRef .tc main_arg4)) =
    (V0 (Proc.devRef .tc main_arg4)) :=
  (val2_keep V0 main_arg4 (by decide)).trans (val1_main_arg4 V0)
theorem val2_main_arg5 (V0 : Valuation τ sig (Elt F)) : val2 V0 (no_index (Proc.devRef .tc main_arg5)) =
    (V0 (Proc.devRef .tc main_arg5)) :=
  (val2_keep V0 main_arg5 (by decide)).trans (val1_main_arg5 V0)
theorem val2_main_arg6 (V0 : Valuation τ sig (Elt F)) : val2 V0 (no_index (Proc.devRef .tc main_arg6)) =
    (V0 (Proc.devRef .tc main_arg6)) :=
  (val2_keep V0 main_arg6 (by decide)).trans (val1_main_arg6 V0)
theorem val2_main_arg7 (V0 : Valuation τ sig (Elt F)) : val2 V0 (no_index (Proc.devRef .tc main_arg7)) =
    (V0 (Proc.devRef .tc main_arg7)) :=
  (val2_keep V0 main_arg7 (by decide)).trans (val1_main_arg7 V0)
theorem val2_main_arg8 (V0 : Valuation τ sig (Elt F)) : val2 V0 (no_index (Proc.devRef .tc main_arg8)) =
    (V0 (Proc.devRef .tc main_arg8)) :=
  (val2_keep V0 main_arg8 (by decide)).trans (val1_main_arg8 V0)
theorem val2_main_arg9 (V0 : Valuation τ sig (Elt F)) : val2 V0 (no_index (Proc.devRef .tc main_arg9)) =
    (V0 (Proc.devRef .tc main_arg9)) :=
  (val2_keep V0 main_arg9 (by decide)).trans (val1_main_arg9 V0)
theorem val2_main_arg10 (V0 : Valuation τ sig (Elt F)) : val2 V0 (no_index (Proc.devRef .tc main_arg10)) =
    (V0 (Proc.devRef .tc main_arg10)) :=
  (val2_keep V0 main_arg10 (by decide)).trans (val1_main_arg10 V0)
theorem val2_main_arg11 (V0 : Valuation τ sig (Elt F)) : val2 V0 (no_index (Proc.devRef .tc main_arg11)) =
    (V0 (Proc.devRef .tc main_arg11)) :=
  (val2_keep V0 main_arg11 (by decide)).trans (val1_main_arg11 V0)
theorem val2_main_arg12 (V0 : Valuation τ sig (Elt F)) : val2 V0 (no_index (Proc.devRef .tc main_arg12)) =
    (V0 (Proc.devRef .tc main_arg12)) :=
  (val2_keep V0 main_arg12 (by decide)).trans (val1_main_arg12 V0)
theorem val2_main_arg13 (V0 : Valuation τ sig (Elt F)) : val2 V0 (no_index (Proc.devRef .tc main_arg13)) =
    (V0 (Proc.devRef .tc main_arg13)) :=
  (val2_keep V0 main_arg13 (by decide)).trans (val1_main_arg13 V0)
theorem val2_main_arg14 (V0 : Valuation τ sig (Elt F)) : val2 V0 (no_index (Proc.devRef .tc main_arg14)) =
    (V0 (Proc.devRef .tc main_arg14)) :=
  (val2_keep V0 main_arg14 (by decide)).trans (val1_main_arg14 V0)
theorem val2_main_arg2 (V0 : Valuation τ sig (Elt F)) : val2 V0 (no_index (Proc.devRef .tc main_arg2)) =
    (V0 (Proc.devRef .tc main_arg2)) :=
  (val2_keep V0 main_arg2 (by decide)).trans (val1_main_arg2 V0)
theorem val2_main_arg15 (V0 : Valuation τ sig (Elt F)) : val2 V0 (no_index (Proc.devRef .tc main_arg15)) =
    (V0 (Proc.devRef .tc main_arg15)) :=
  (val2_keep V0 main_arg15 (by decide)).trans (val1_main_arg15 V0)
theorem val2_main_arg16 (V0 : Valuation τ sig (Elt F)) : val2 V0 (no_index (Proc.devRef .tc main_arg16)) =
    (V0 (Proc.devRef .tc main_arg16)) :=
  (val2_keep V0 main_arg16 (by decide)).trans (val1_main_arg16 V0)

/-- The device's buffer contents after the first 3 stages. -/
def val3 (V0 : Valuation τ sig (Elt F)) : Valuation τ sig (Elt F) := after stage2 (val2 V0)
theorem val3_keep (V0 : Valuation τ sig (Elt F)) (r : Ref sig .tc) (h : r ∉ stage2_W) :
    val3 V0 (Proc.devRef .tc r) = val2 V0 (Proc.devRef .tc r) := stage2_keep _ r h
theorem val3_main_arg0 (V0 : Valuation τ sig (Elt F)) : val3 V0 (no_index (Proc.devRef .tc main_arg0)) =
    (V0 (Proc.devRef .tc main_arg0)) :=
  (val3_keep V0 main_arg0 (by decide)).trans (val2_main_arg0 V0)
theorem val3_main_arg3 (V0 : Valuation τ sig (Elt F)) : val3 V0 (no_index (Proc.devRef .tc main_arg3)) =
    (V0 (Proc.devRef .tc main_arg3)) :=
  (val3_keep V0 main_arg3 (by decide)).trans (val2_main_arg3 V0)
theorem val3_main_v5 (V0 : Valuation τ sig (Elt F)) : val3 V0 (no_index (Proc.devRef .tc main_v5)) =
    (r_row V0) :=
  (val3_keep V0 main_v5 (by decide)).trans (val2_main_v5 V0)
set_option maxRecDepth 8192 in
set_option maxHeartbeats 2000000 in
theorem val3_main_v32 (V0 : Valuation τ sig (Elt F)) : val3 V0 (no_index (Proc.devRef .tc main_v32)) =
    (r_w V0) := by
  unfold val3
  rw [stage2_main_v32]
  simp only [val2_main_v6, val2_main_v16, val2_main_v5]
  all_goals (try rfl)
theorem val3_main_v6 (V0 : Valuation τ sig (Elt F)) : val3 V0 (no_index (Proc.devRef .tc main_v6)) =
    (r_col V0) :=
  (val3_keep V0 main_v6 (by decide)).trans (val2_main_v6 V0)
theorem val3_main_arg4 (V0 : Valuation τ sig (Elt F)) : val3 V0 (no_index (Proc.devRef .tc main_arg4)) =
    (V0 (Proc.devRef .tc main_arg4)) :=
  (val3_keep V0 main_arg4 (by decide)).trans (val2_main_arg4 V0)
theorem val3_main_arg5 (V0 : Valuation τ sig (Elt F)) : val3 V0 (no_index (Proc.devRef .tc main_arg5)) =
    (V0 (Proc.devRef .tc main_arg5)) :=
  (val3_keep V0 main_arg5 (by decide)).trans (val2_main_arg5 V0)
theorem val3_main_arg6 (V0 : Valuation τ sig (Elt F)) : val3 V0 (no_index (Proc.devRef .tc main_arg6)) =
    (V0 (Proc.devRef .tc main_arg6)) :=
  (val3_keep V0 main_arg6 (by decide)).trans (val2_main_arg6 V0)
theorem val3_main_arg7 (V0 : Valuation τ sig (Elt F)) : val3 V0 (no_index (Proc.devRef .tc main_arg7)) =
    (V0 (Proc.devRef .tc main_arg7)) :=
  (val3_keep V0 main_arg7 (by decide)).trans (val2_main_arg7 V0)
theorem val3_main_arg8 (V0 : Valuation τ sig (Elt F)) : val3 V0 (no_index (Proc.devRef .tc main_arg8)) =
    (V0 (Proc.devRef .tc main_arg8)) :=
  (val3_keep V0 main_arg8 (by decide)).trans (val2_main_arg8 V0)
theorem val3_main_arg9 (V0 : Valuation τ sig (Elt F)) : val3 V0 (no_index (Proc.devRef .tc main_arg9)) =
    (V0 (Proc.devRef .tc main_arg9)) :=
  (val3_keep V0 main_arg9 (by decide)).trans (val2_main_arg9 V0)
theorem val3_main_arg10 (V0 : Valuation τ sig (Elt F)) : val3 V0 (no_index (Proc.devRef .tc main_arg10)) =
    (V0 (Proc.devRef .tc main_arg10)) :=
  (val3_keep V0 main_arg10 (by decide)).trans (val2_main_arg10 V0)
theorem val3_main_arg11 (V0 : Valuation τ sig (Elt F)) : val3 V0 (no_index (Proc.devRef .tc main_arg11)) =
    (V0 (Proc.devRef .tc main_arg11)) :=
  (val3_keep V0 main_arg11 (by decide)).trans (val2_main_arg11 V0)
theorem val3_main_arg12 (V0 : Valuation τ sig (Elt F)) : val3 V0 (no_index (Proc.devRef .tc main_arg12)) =
    (V0 (Proc.devRef .tc main_arg12)) :=
  (val3_keep V0 main_arg12 (by decide)).trans (val2_main_arg12 V0)
theorem val3_main_arg13 (V0 : Valuation τ sig (Elt F)) : val3 V0 (no_index (Proc.devRef .tc main_arg13)) =
    (V0 (Proc.devRef .tc main_arg13)) :=
  (val3_keep V0 main_arg13 (by decide)).trans (val2_main_arg13 V0)
theorem val3_main_arg14 (V0 : Valuation τ sig (Elt F)) : val3 V0 (no_index (Proc.devRef .tc main_arg14)) =
    (V0 (Proc.devRef .tc main_arg14)) :=
  (val3_keep V0 main_arg14 (by decide)).trans (val2_main_arg14 V0)
theorem val3_main_arg2 (V0 : Valuation τ sig (Elt F)) : val3 V0 (no_index (Proc.devRef .tc main_arg2)) =
    (V0 (Proc.devRef .tc main_arg2)) :=
  (val3_keep V0 main_arg2 (by decide)).trans (val2_main_arg2 V0)
theorem val3_main_arg15 (V0 : Valuation τ sig (Elt F)) : val3 V0 (no_index (Proc.devRef .tc main_arg15)) =
    (V0 (Proc.devRef .tc main_arg15)) :=
  (val3_keep V0 main_arg15 (by decide)).trans (val2_main_arg15 V0)
theorem val3_main_arg16 (V0 : Valuation τ sig (Elt F)) : val3 V0 (no_index (Proc.devRef .tc main_arg16)) =
    (V0 (Proc.devRef .tc main_arg16)) :=
  (val3_keep V0 main_arg16 (by decide)).trans (val2_main_arg16 V0)

/-- The device's buffer contents after the first 4 stages. -/
def val4 (V0 : Valuation τ sig (Elt F)) : Valuation τ sig (Elt F) := after stage3 (val3 V0)
theorem val4_keep (V0 : Valuation τ sig (Elt F)) (r : Ref sig .tc) (h : r ∉ stage3_W) :
    val4 V0 (Proc.devRef .tc r) = val3 V0 (Proc.devRef .tc r) := stage3_keep _ r h
theorem val4_main_v6 (V0 : Valuation τ sig (Elt F)) : val4 V0 (no_index (Proc.devRef .tc main_v6)) =
    (r_col V0) :=
  (val4_keep V0 main_v6 (by decide)).trans (val3_main_v6 V0)
set_option maxRecDepth 8192 in
set_option maxHeartbeats 2000000 in
theorem val4_main_v34 (V0 : Valuation τ sig (Elt F)) : val4 V0 (no_index (Proc.devRef .tc main_v34)) =
    (broadcastInDim S50000x64 ![] bcast_S_S50000x64 (((constant S_ .f32 0x00000000#32) : (⟨S_, .f32⟩ : BufTy).Contents (Elt F))) : (⟨S50000x64, .f32⟩ : BufTy).Contents (Elt F)) := by
  unfold val4
  rw [stage3_main_v34]
  all_goals (try rfl)
set_option maxRecDepth 8192 in
set_option maxHeartbeats 2000000 in
theorem val4_main_v43 (V0 : Valuation τ sig (Elt F)) : val4 V0 (no_index (Proc.devRef .tc main_v43)) =
    (mulf ((broadcastInDim S850000x64 ![0, 1] bcast_S850000x1_S850000x64_0_1 ((r_w V0)) : (⟨S850000x64, .f32⟩ : BufTy).Contents (Elt F))) ((Host.gather gather_S50000x64_S850000x1_S850000x64_1_0_n_n_0_1_164 ((Host.dotGeneral dot_S50000x64_S64x64_S50000x64_1_0_0_1_n_n none ((V0 (Proc.devRef .tc main_arg0))) ((V0 (Proc.devRef .tc main_arg3))) : (⟨S50000x64, .f32⟩ : BufTy).Contents (Elt F))) ((broadcastInDim S850000x1 ![0] bcast_S850000_S850000x1_0 ((select ((cmpi .slt ((r_row V0)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi ((r_row V0)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) ((r_row V0)) : (⟨S850000, .i32⟩ : BufTy).Contents (Elt F))) : (⟨S850000x1, .i32⟩ : BufTy).Contents (Elt F))) : (⟨S850000x64, .f32⟩ : BufTy).Contents (Elt F))) : (⟨S850000x64, .f32⟩ : BufTy).Contents (Elt F)) := by
  unfold val4
  rw [stage3_main_v43]
  simp only [val3_main_v5, val3_main_arg3, val3_main_arg0, val3_main_v32]
  all_goals (try rfl)
theorem val4_main_arg4 (V0 : Valuation τ sig (Elt F)) : val4 V0 (no_index (Proc.devRef .tc main_arg4)) =
    (V0 (Proc.devRef .tc main_arg4)) :=
  (val4_keep V0 main_arg4 (by decide)).trans (val3_main_arg4 V0)
theorem val4_main_arg5 (V0 : Valuation τ sig (Elt F)) : val4 V0 (no_index (Proc.devRef .tc main_arg5)) =
    (V0 (Proc.devRef .tc main_arg5)) :=
  (val4_keep V0 main_arg5 (by decide)).trans (val3_main_arg5 V0)
theorem val4_main_arg6 (V0 : Valuation τ sig (Elt F)) : val4 V0 (no_index (Proc.devRef .tc main_arg6)) =
    (V0 (Proc.devRef .tc main_arg6)) :=
  (val4_keep V0 main_arg6 (by decide)).trans (val3_main_arg6 V0)
theorem val4_main_arg7 (V0 : Valuation τ sig (Elt F)) : val4 V0 (no_index (Proc.devRef .tc main_arg7)) =
    (V0 (Proc.devRef .tc main_arg7)) :=
  (val4_keep V0 main_arg7 (by decide)).trans (val3_main_arg7 V0)
theorem val4_main_v5 (V0 : Valuation τ sig (Elt F)) : val4 V0 (no_index (Proc.devRef .tc main_v5)) =
    (r_row V0) :=
  (val4_keep V0 main_v5 (by decide)).trans (val3_main_v5 V0)
theorem val4_main_v32 (V0 : Valuation τ sig (Elt F)) : val4 V0 (no_index (Proc.devRef .tc main_v32)) =
    (r_w V0) :=
  (val4_keep V0 main_v32 (by decide)).trans (val3_main_v32 V0)
theorem val4_main_arg8 (V0 : Valuation τ sig (Elt F)) : val4 V0 (no_index (Proc.devRef .tc main_arg8)) =
    (V0 (Proc.devRef .tc main_arg8)) :=
  (val4_keep V0 main_arg8 (by decide)).trans (val3_main_arg8 V0)
theorem val4_main_arg9 (V0 : Valuation τ sig (Elt F)) : val4 V0 (no_index (Proc.devRef .tc main_arg9)) =
    (V0 (Proc.devRef .tc main_arg9)) :=
  (val4_keep V0 main_arg9 (by decide)).trans (val3_main_arg9 V0)
theorem val4_main_arg10 (V0 : Valuation τ sig (Elt F)) : val4 V0 (no_index (Proc.devRef .tc main_arg10)) =
    (V0 (Proc.devRef .tc main_arg10)) :=
  (val4_keep V0 main_arg10 (by decide)).trans (val3_main_arg10 V0)
theorem val4_main_arg11 (V0 : Valuation τ sig (Elt F)) : val4 V0 (no_index (Proc.devRef .tc main_arg11)) =
    (V0 (Proc.devRef .tc main_arg11)) :=
  (val4_keep V0 main_arg11 (by decide)).trans (val3_main_arg11 V0)
theorem val4_main_arg12 (V0 : Valuation τ sig (Elt F)) : val4 V0 (no_index (Proc.devRef .tc main_arg12)) =
    (V0 (Proc.devRef .tc main_arg12)) :=
  (val4_keep V0 main_arg12 (by decide)).trans (val3_main_arg12 V0)
theorem val4_main_arg13 (V0 : Valuation τ sig (Elt F)) : val4 V0 (no_index (Proc.devRef .tc main_arg13)) =
    (V0 (Proc.devRef .tc main_arg13)) :=
  (val4_keep V0 main_arg13 (by decide)).trans (val3_main_arg13 V0)
theorem val4_main_arg14 (V0 : Valuation τ sig (Elt F)) : val4 V0 (no_index (Proc.devRef .tc main_arg14)) =
    (V0 (Proc.devRef .tc main_arg14)) :=
  (val4_keep V0 main_arg14 (by decide)).trans (val3_main_arg14 V0)
theorem val4_main_arg2 (V0 : Valuation τ sig (Elt F)) : val4 V0 (no_index (Proc.devRef .tc main_arg2)) =
    (V0 (Proc.devRef .tc main_arg2)) :=
  (val4_keep V0 main_arg2 (by decide)).trans (val3_main_arg2 V0)
theorem val4_main_arg15 (V0 : Valuation τ sig (Elt F)) : val4 V0 (no_index (Proc.devRef .tc main_arg15)) =
    (V0 (Proc.devRef .tc main_arg15)) :=
  (val4_keep V0 main_arg15 (by decide)).trans (val3_main_arg15 V0)
theorem val4_main_arg16 (V0 : Valuation τ sig (Elt F)) : val4 V0 (no_index (Proc.devRef .tc main_arg16)) =
    (V0 (Proc.devRef .tc main_arg16)) :=
  (val4_keep V0 main_arg16 (by decide)).trans (val3_main_arg16 V0)

/-- The device's buffer contents after the first 5 stages. -/
def val5 (V0 : Valuation τ sig (Elt F)) : Valuation τ sig (Elt F) := after stage4 (val4 V0)
theorem val5_keep (V0 : Valuation τ sig (Elt F)) (r : Ref sig .tc) (h : r ∉ stage4_W) :
    val5 V0 (Proc.devRef .tc r) = val4 V0 (Proc.devRef .tc r) := stage4_keep _ r h
theorem val5_main_v6 (V0 : Valuation τ sig (Elt F)) : val5 V0 (no_index (Proc.devRef .tc main_v6)) =
    (r_col V0) :=
  (val5_keep V0 main_v6 (by decide)).trans (val4_main_v6 V0)
set_option maxRecDepth 8192 in
set_option maxHeartbeats 2000000 in
theorem val5_main_v46 (V0 : Valuation τ sig (Elt F)) : val5 V0 (no_index (Proc.devRef .tc main_v46)) =
    (broadcastInDim S850000 ![] bcast_S_S850000 (((constantI S_ 32 50000#32) : (⟨S_, .i32⟩ : BufTy).Contents (Elt F))) : (⟨S850000, .i32⟩ : BufTy).Contents (Elt F)) := by
  unfold val5
  rw [stage4_main_v46]
  all_goals (try rfl)
set_option maxRecDepth 8192 in
set_option maxHeartbeats 2000000 in
theorem val5_main_v45 (V0 : Valuation τ sig (Elt F)) : val5 V0 (no_index (Proc.devRef .tc main_v45)) =
    (cmpi .slt ((r_col V0)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F)) := by
  unfold val5
  rw [stage4_main_v45]
  simp only [val4_main_v6]
  all_goals (try rfl)
theorem val5_main_v34 (V0 : Valuation τ sig (Elt F)) : val5 V0 (no_index (Proc.devRef .tc main_v34)) =
    (broadcastInDim S50000x64 ![] bcast_S_S50000x64 (((constant S_ .f32 0x00000000#32) : (⟨S_, .f32⟩ : BufTy).Contents (Elt F))) : (⟨S50000x64, .f32⟩ : BufTy).Contents (Elt F)) :=
  (val5_keep V0 main_v34 (by decide)).trans (val4_main_v34 V0)
theorem val5_main_v43 (V0 : Valuation τ sig (Elt F)) : val5 V0 (no_index (Proc.devRef .tc main_v43)) =
    (mulf ((broadcastInDim S850000x64 ![0, 1] bcast_S850000x1_S850000x64_0_1 ((r_w V0)) : (⟨S850000x64, .f32⟩ : BufTy).Contents (Elt F))) ((Host.gather gather_S50000x64_S850000x1_S850000x64_1_0_n_n_0_1_164 ((Host.dotGeneral dot_S50000x64_S64x64_S50000x64_1_0_0_1_n_n none ((V0 (Proc.devRef .tc main_arg0))) ((V0 (Proc.devRef .tc main_arg3))) : (⟨S50000x64, .f32⟩ : BufTy).Contents (Elt F))) ((broadcastInDim S850000x1 ![0] bcast_S850000_S850000x1_0 ((select ((cmpi .slt ((r_row V0)) ((broadcastInDim S850000 ![] bcast_S_S850000 (((constantI S_ 32 0#32) : (⟨S_, .i32⟩ : BufTy).Contents (Elt F))) : (⟨S850000, .i32⟩ : BufTy).Contents (Elt F))) : (⟨S850000, .i1⟩ : BufTy).Contents (Elt F))) ((addi ((r_row V0)) ((broadcastInDim S850000 ![] bcast_S_S850000 (((constantI S_ 32 50000#32) : (⟨S_, .i32⟩ : BufTy).Contents (Elt F))) : (⟨S850000, .i32⟩ : BufTy).Contents (Elt F))) : (⟨S850000, .i32⟩ : BufTy).Contents (Elt F))) ((r_row V0)) : (⟨S850000, .i32⟩ : BufTy).Contents (Elt F))) : (⟨S850000x1, .i32⟩ : BufTy).Contents (Elt F))) : (⟨S850000x64, .f32⟩ : BufTy).Contents (Elt F))) : (⟨S850000x64, .f32⟩ : BufTy).Contents (Elt F)) :=
  (val5_keep V0 main_v43 (by decide)).trans (val4_main_v43 V0)
theorem val5_main_arg4 (V0 : Valuation τ sig (Elt F)) : val5 V0 (no_index (Proc.devRef .tc main_arg4)) =
    (V0 (Proc.devRef .tc main_arg4)) :=
  (val5_keep V0 main_arg4 (by decide)).trans (val4_main_arg4 V0)
theorem val5_main_arg5 (V0 : Valuation τ sig (Elt F)) : val5 V0 (no_index (Proc.devRef .tc main_arg5)) =
    (V0 (Proc.devRef .tc main_arg5)) :=
  (val5_keep V0 main_arg5 (by decide)).trans (val4_main_arg5 V0)
theorem val5_main_arg6 (V0 : Valuation τ sig (Elt F)) : val5 V0 (no_index (Proc.devRef .tc main_arg6)) =
    (V0 (Proc.devRef .tc main_arg6)) :=
  (val5_keep V0 main_arg6 (by decide)).trans (val4_main_arg6 V0)
theorem val5_main_arg7 (V0 : Valuation τ sig (Elt F)) : val5 V0 (no_index (Proc.devRef .tc main_arg7)) =
    (V0 (Proc.devRef .tc main_arg7)) :=
  (val5_keep V0 main_arg7 (by decide)).trans (val4_main_arg7 V0)
theorem val5_main_v5 (V0 : Valuation τ sig (Elt F)) : val5 V0 (no_index (Proc.devRef .tc main_v5)) =
    (r_row V0) :=
  (val5_keep V0 main_v5 (by decide)).trans (val4_main_v5 V0)
theorem val5_main_v32 (V0 : Valuation τ sig (Elt F)) : val5 V0 (no_index (Proc.devRef .tc main_v32)) =
    (r_w V0) :=
  (val5_keep V0 main_v32 (by decide)).trans (val4_main_v32 V0)
theorem val5_main_arg8 (V0 : Valuation τ sig (Elt F)) : val5 V0 (no_index (Proc.devRef .tc main_arg8)) =
    (V0 (Proc.devRef .tc main_arg8)) :=
  (val5_keep V0 main_arg8 (by decide)).trans (val4_main_arg8 V0)
theorem val5_main_arg9 (V0 : Valuation τ sig (Elt F)) : val5 V0 (no_index (Proc.devRef .tc main_arg9)) =
    (V0 (Proc.devRef .tc main_arg9)) :=
  (val5_keep V0 main_arg9 (by decide)).trans (val4_main_arg9 V0)
theorem val5_main_arg10 (V0 : Valuation τ sig (Elt F)) : val5 V0 (no_index (Proc.devRef .tc main_arg10)) =
    (V0 (Proc.devRef .tc main_arg10)) :=
  (val5_keep V0 main_arg10 (by decide)).trans (val4_main_arg10 V0)
theorem val5_main_arg11 (V0 : Valuation τ sig (Elt F)) : val5 V0 (no_index (Proc.devRef .tc main_arg11)) =
    (V0 (Proc.devRef .tc main_arg11)) :=
  (val5_keep V0 main_arg11 (by decide)).trans (val4_main_arg11 V0)
theorem val5_main_arg12 (V0 : Valuation τ sig (Elt F)) : val5 V0 (no_index (Proc.devRef .tc main_arg12)) =
    (V0 (Proc.devRef .tc main_arg12)) :=
  (val5_keep V0 main_arg12 (by decide)).trans (val4_main_arg12 V0)
theorem val5_main_arg13 (V0 : Valuation τ sig (Elt F)) : val5 V0 (no_index (Proc.devRef .tc main_arg13)) =
    (V0 (Proc.devRef .tc main_arg13)) :=
  (val5_keep V0 main_arg13 (by decide)).trans (val4_main_arg13 V0)
theorem val5_main_arg14 (V0 : Valuation τ sig (Elt F)) : val5 V0 (no_index (Proc.devRef .tc main_arg14)) =
    (V0 (Proc.devRef .tc main_arg14)) :=
  (val5_keep V0 main_arg14 (by decide)).trans (val4_main_arg14 V0)
theorem val5_main_arg2 (V0 : Valuation τ sig (Elt F)) : val5 V0 (no_index (Proc.devRef .tc main_arg2)) =
    (V0 (Proc.devRef .tc main_arg2)) :=
  (val5_keep V0 main_arg2 (by decide)).trans (val4_main_arg2 V0)
theorem val5_main_arg15 (V0 : Valuation τ sig (Elt F)) : val5 V0 (no_index (Proc.devRef .tc main_arg15)) =
    (V0 (Proc.devRef .tc main_arg15)) :=
  (val5_keep V0 main_arg15 (by decide)).trans (val4_main_arg15 V0)
theorem val5_main_arg16 (V0 : Valuation τ sig (Elt F)) : val5 V0 (no_index (Proc.devRef .tc main_arg16)) =
    (V0 (Proc.devRef .tc main_arg16)) :=
  (val5_keep V0 main_arg16 (by decide)).trans (val4_main_arg16 V0)

/-- The device's buffer contents after the first 6 stages. -/
def val6 (V0 : Valuation τ sig (Elt F)) : Valuation τ sig (Elt F) := after stage5 (val5 V0)
theorem val6_keep (V0 : Valuation τ sig (Elt F)) (r : Ref sig .tc) (h : r ∉ stage5_W) :
    val6 V0 (Proc.devRef .tc r) = val5 V0 (Proc.devRef .tc r) := stage5_keep _ r h
set_option maxRecDepth 8192 in
set_option maxHeartbeats 2000000 in
theorem val6_main_v53 (V0 : Valuation τ sig (Elt F)) : val6 V0 (no_index (Proc.devRef .tc main_v53)) =
    (r_a1 V0) := by
  unfold val6
  rw [stage5_main_v53]
  simp only [val5_main_arg4, val5_main_v43, val5_main_v6, val5_main_v46, val5_main_v45, val5_main_v34]
  all_goals (try rfl)
theorem val6_main_arg5 (V0 : Valuation τ sig (Elt F)) : val6 V0 (no_index (Proc.devRef .tc main_arg5)) =
    (V0 (Proc.devRef .tc main_arg5)) :=
  (val6_keep V0 main_arg5 (by decide)).trans (val5_main_arg5 V0)
theorem val6_main_arg6 (V0 : Valuation τ sig (Elt F)) : val6 V0 (no_index (Proc.devRef .tc main_arg6)) =
    (V0 (Proc.devRef .tc main_arg6)) :=
  (val6_keep V0 main_arg6 (by decide)).trans (val5_main_arg6 V0)
theorem val6_main_arg7 (V0 : Valuation τ sig (Elt F)) : val6 V0 (no_index (Proc.devRef .tc main_arg7)) =
    (V0 (Proc.devRef .tc main_arg7)) :=
  (val6_keep V0 main_arg7 (by decide)).trans (val5_main_arg7 V0)
theorem val6_main_v5 (V0 : Valuation τ sig (Elt F)) : val6 V0 (no_index (Proc.devRef .tc main_v5)) =
    (r_row V0) :=
  (val6_keep V0 main_v5 (by decide)).trans (val5_main_v5 V0)
theorem val6_main_v32 (V0 : Valuation τ sig (Elt F)) : val6 V0 (no_index (Proc.devRef .tc main_v32)) =
    (r_w V0) :=
  (val6_keep V0 main_v32 (by decide)).trans (val5_main_v32 V0)
theorem val6_main_v6 (V0 : Valuation τ sig (Elt F)) : val6 V0 (no_index (Proc.devRef .tc main_v6)) =
    (r_col V0) :=
  (val6_keep V0 main_v6 (by decide)).trans (val5_main_v6 V0)
theorem val6_main_arg8 (V0 : Valuation τ sig (Elt F)) : val6 V0 (no_index (Proc.devRef .tc main_arg8)) =
    (V0 (Proc.devRef .tc main_arg8)) :=
  (val6_keep V0 main_arg8 (by decide)).trans (val5_main_arg8 V0)
theorem val6_main_arg9 (V0 : Valuation τ sig (Elt F)) : val6 V0 (no_index (Proc.devRef .tc main_arg9)) =
    (V0 (Proc.devRef .tc main_arg9)) :=
  (val6_keep V0 main_arg9 (by decide)).trans (val5_main_arg9 V0)
theorem val6_main_arg10 (V0 : Valuation τ sig (Elt F)) : val6 V0 (no_index (Proc.devRef .tc main_arg10)) =
    (V0 (Proc.devRef .tc main_arg10)) :=
  (val6_keep V0 main_arg10 (by decide)).trans (val5_main_arg10 V0)
theorem val6_main_arg11 (V0 : Valuation τ sig (Elt F)) : val6 V0 (no_index (Proc.devRef .tc main_arg11)) =
    (V0 (Proc.devRef .tc main_arg11)) :=
  (val6_keep V0 main_arg11 (by decide)).trans (val5_main_arg11 V0)
theorem val6_main_arg12 (V0 : Valuation τ sig (Elt F)) : val6 V0 (no_index (Proc.devRef .tc main_arg12)) =
    (V0 (Proc.devRef .tc main_arg12)) :=
  (val6_keep V0 main_arg12 (by decide)).trans (val5_main_arg12 V0)
theorem val6_main_arg13 (V0 : Valuation τ sig (Elt F)) : val6 V0 (no_index (Proc.devRef .tc main_arg13)) =
    (V0 (Proc.devRef .tc main_arg13)) :=
  (val6_keep V0 main_arg13 (by decide)).trans (val5_main_arg13 V0)
theorem val6_main_arg14 (V0 : Valuation τ sig (Elt F)) : val6 V0 (no_index (Proc.devRef .tc main_arg14)) =
    (V0 (Proc.devRef .tc main_arg14)) :=
  (val6_keep V0 main_arg14 (by decide)).trans (val5_main_arg14 V0)
theorem val6_main_arg2 (V0 : Valuation τ sig (Elt F)) : val6 V0 (no_index (Proc.devRef .tc main_arg2)) =
    (V0 (Proc.devRef .tc main_arg2)) :=
  (val6_keep V0 main_arg2 (by decide)).trans (val5_main_arg2 V0)
theorem val6_main_arg15 (V0 : Valuation τ sig (Elt F)) : val6 V0 (no_index (Proc.devRef .tc main_arg15)) =
    (V0 (Proc.devRef .tc main_arg15)) :=
  (val6_keep V0 main_arg15 (by decide)).trans (val5_main_arg15 V0)
theorem val6_main_arg16 (V0 : Valuation τ sig (Elt F)) : val6 V0 (no_index (Proc.devRef .tc main_arg16)) =
    (V0 (Proc.devRef .tc main_arg16)) :=
  (val6_keep V0 main_arg16 (by decide)).trans (val5_main_arg16 V0)

/-- The device's buffer contents after the first 7 stages. -/
def val7 (V0 : Valuation τ sig (Elt F)) : Valuation τ sig (Elt F) := after stage6 (val6 V0)
theorem val7_keep (V0 : Valuation τ sig (Elt F)) (r : Ref sig .tc) (h : r ∉ stage6_W) :
    val7 V0 (Proc.devRef .tc r) = val6 V0 (Proc.devRef .tc r) := stage6_keep _ r h
theorem val7_main_v53 (V0 : Valuation τ sig (Elt F)) : val7 V0 (no_index (Proc.devRef .tc main_v53)) =
    (r_a1 V0) :=
  (val7_keep V0 main_v53 (by decide)).trans (val6_main_v53 V0)
set_option maxRecDepth 8192 in
set_option maxHeartbeats 2000000 in
theorem val7_main_c_13 (V0 : Valuation τ sig (Elt F)) : val7 V0 (no_index (Proc.devRef .tc main_c_13)) =
    ((constantI S_ 32 0#32) : (⟨S_, .i32⟩ : BufTy).Contents (Elt F)) := by
  unfold val7
  rw [stage6_main_c_13]
  all_goals (try rfl)
set_option maxRecDepth 8192 in
set_option maxHeartbeats 2000000 in
theorem val7_main_v56 (V0 : Valuation τ sig (Elt F)) : val7 V0 (no_index (Proc.devRef .tc main_v56)) =
    (Gcn.colMean (r_a1 V0)) := by
  unfold val7
  rw [stage6_main_v56]
  simp only [val6_main_v53]
  all_goals (try rfl)
theorem val7_main_arg5 (V0 : Valuation τ sig (Elt F)) : val7 V0 (no_index (Proc.devRef .tc main_arg5)) =
    (V0 (Proc.devRef .tc main_arg5)) :=
  (val7_keep V0 main_arg5 (by decide)).trans (val6_main_arg5 V0)
theorem val7_main_arg6 (V0 : Valuation τ sig (Elt F)) : val7 V0 (no_index (Proc.devRef .tc main_arg6)) =
    (V0 (Proc.devRef .tc main_arg6)) :=
  (val7_keep V0 main_arg6 (by decide)).trans (val6_main_arg6 V0)
theorem val7_main_arg7 (V0 : Valuation τ sig (Elt F)) : val7 V0 (no_index (Proc.devRef .tc main_arg7)) =
    (V0 (Proc.devRef .tc main_arg7)) :=
  (val7_keep V0 main_arg7 (by decide)).trans (val6_main_arg7 V0)
theorem val7_main_v5 (V0 : Valuation τ sig (Elt F)) : val7 V0 (no_index (Proc.devRef .tc main_v5)) =
    (r_row V0) :=
  (val7_keep V0 main_v5 (by decide)).trans (val6_main_v5 V0)
theorem val7_main_v32 (V0 : Valuation τ sig (Elt F)) : val7 V0 (no_index (Proc.devRef .tc main_v32)) =
    (r_w V0) :=
  (val7_keep V0 main_v32 (by decide)).trans (val6_main_v32 V0)
theorem val7_main_v6 (V0 : Valuation τ sig (Elt F)) : val7 V0 (no_index (Proc.devRef .tc main_v6)) =
    (r_col V0) :=
  (val7_keep V0 main_v6 (by decide)).trans (val6_main_v6 V0)
theorem val7_main_arg8 (V0 : Valuation τ sig (Elt F)) : val7 V0 (no_index (Proc.devRef .tc main_arg8)) =
    (V0 (Proc.devRef .tc main_arg8)) :=
  (val7_keep V0 main_arg8 (by decide)).trans (val6_main_arg8 V0)
theorem val7_main_arg9 (V0 : Valuation τ sig (Elt F)) : val7 V0 (no_index (Proc.devRef .tc main_arg9)) =
    (V0 (Proc.devRef .tc main_arg9)) :=
  (val7_keep V0 main_arg9 (by decide)).trans (val6_main_arg9 V0)
theorem val7_main_arg10 (V0 : Valuation τ sig (Elt F)) : val7 V0 (no_index (Proc.devRef .tc main_arg10)) =
    (V0 (Proc.devRef .tc main_arg10)) :=
  (val7_keep V0 main_arg10 (by decide)).trans (val6_main_arg10 V0)
theorem val7_main_arg11 (V0 : Valuation τ sig (Elt F)) : val7 V0 (no_index (Proc.devRef .tc main_arg11)) =
    (V0 (Proc.devRef .tc main_arg11)) :=
  (val7_keep V0 main_arg11 (by decide)).trans (val6_main_arg11 V0)
theorem val7_main_arg12 (V0 : Valuation τ sig (Elt F)) : val7 V0 (no_index (Proc.devRef .tc main_arg12)) =
    (V0 (Proc.devRef .tc main_arg12)) :=
  (val7_keep V0 main_arg12 (by decide)).trans (val6_main_arg12 V0)
theorem val7_main_arg13 (V0 : Valuation τ sig (Elt F)) : val7 V0 (no_index (Proc.devRef .tc main_arg13)) =
    (V0 (Proc.devRef .tc main_arg13)) :=
  (val7_keep V0 main_arg13 (by decide)).trans (val6_main_arg13 V0)
theorem val7_main_arg14 (V0 : Valuation τ sig (Elt F)) : val7 V0 (no_index (Proc.devRef .tc main_arg14)) =
    (V0 (Proc.devRef .tc main_arg14)) :=
  (val7_keep V0 main_arg14 (by decide)).trans (val6_main_arg14 V0)
theorem val7_main_arg2 (V0 : Valuation τ sig (Elt F)) : val7 V0 (no_index (Proc.devRef .tc main_arg2)) =
    (V0 (Proc.devRef .tc main_arg2)) :=
  (val7_keep V0 main_arg2 (by decide)).trans (val6_main_arg2 V0)
theorem val7_main_arg15 (V0 : Valuation τ sig (Elt F)) : val7 V0 (no_index (Proc.devRef .tc main_arg15)) =
    (V0 (Proc.devRef .tc main_arg15)) :=
  (val7_keep V0 main_arg15 (by decide)).trans (val6_main_arg15 V0)
theorem val7_main_arg16 (V0 : Valuation τ sig (Elt F)) : val7 V0 (no_index (Proc.devRef .tc main_arg16)) =
    (V0 (Proc.devRef .tc main_arg16)) :=
  (val7_keep V0 main_arg16 (by decide)).trans (val6_main_arg16 V0)

/-- The device's buffer contents after the first 8 stages. -/
def val8 (V0 : Valuation τ sig (Elt F)) : Valuation τ sig (Elt F) := after stage7 (val7 V0)
theorem val8_keep (V0 : Valuation τ sig (Elt F)) (r : Ref sig .tc) (h : r ∉ stage7_W) :
    val8 V0 (Proc.devRef .tc r) = val7 V0 (Proc.devRef .tc r) := stage7_keep _ r h
theorem val8_main_v56 (V0 : Valuation τ sig (Elt F)) : val8 V0 (no_index (Proc.devRef .tc main_v56)) =
    (Gcn.colMean (r_a1 V0)) :=
  (val8_keep V0 main_v56 (by decide)).trans (val7_main_v56 V0)
theorem val8_main_v53 (V0 : Valuation τ sig (Elt F)) : val8 V0 (no_index (Proc.devRef .tc main_v53)) =
    (r_a1 V0) :=
  (val8_keep V0 main_v53 (by decide)).trans (val7_main_v53 V0)
set_option maxRecDepth 8192 in
set_option maxHeartbeats 2000000 in
theorem val8_main_v57 (V0 : Valuation τ sig (Elt F)) : val8 V0 (no_index (Proc.devRef .tc main_v57)) =
    (Gcn.colVar (r_a1 V0)) := by
  unfold val8
  rw [stage7_main_v57]
  simp only [val7_main_c_13, val7_main_v53]
  all_goals (try rfl)
theorem val8_main_arg5 (V0 : Valuation τ sig (Elt F)) : val8 V0 (no_index (Proc.devRef .tc main_arg5)) =
    (V0 (Proc.devRef .tc main_arg5)) :=
  (val8_keep V0 main_arg5 (by decide)).trans (val7_main_arg5 V0)
theorem val8_main_arg6 (V0 : Valuation τ sig (Elt F)) : val8 V0 (no_index (Proc.devRef .tc main_arg6)) =
    (V0 (Proc.devRef .tc main_arg6)) :=
  (val8_keep V0 main_arg6 (by decide)).trans (val7_main_arg6 V0)
theorem val8_main_arg7 (V0 : Valuation τ sig (Elt F)) : val8 V0 (no_index (Proc.devRef .tc main_arg7)) =
    (V0 (Proc.devRef .tc main_arg7)) :=
  (val8_keep V0 main_arg7 (by decide)).trans (val7_main_arg7 V0)
theorem val8_main_v5 (V0 : Valuation τ sig (Elt F)) : val8 V0 (no_index (Proc.devRef .tc main_v5)) =
    (r_row V0) :=
  (val8_keep V0 main_v5 (by decide)).trans (val7_main_v5 V0)
theorem val8_main_v32 (V0 : Valuation τ sig (Elt F)) : val8 V0 (no_index (Proc.devRef .tc main_v32)) =
    (r_w V0) :=
  (val8_keep V0 main_v32 (by decide)).trans (val7_main_v32 V0)
theorem val8_main_v6 (V0 : Valuation τ sig (Elt F)) : val8 V0 (no_index (Proc.devRef .tc main_v6)) =
    (r_col V0) :=
  (val8_keep V0 main_v6 (by decide)).trans (val7_main_v6 V0)
theorem val8_main_arg8 (V0 : Valuation τ sig (Elt F)) : val8 V0 (no_index (Proc.devRef .tc main_arg8)) =
    (V0 (Proc.devRef .tc main_arg8)) :=
  (val8_keep V0 main_arg8 (by decide)).trans (val7_main_arg8 V0)
theorem val8_main_arg9 (V0 : Valuation τ sig (Elt F)) : val8 V0 (no_index (Proc.devRef .tc main_arg9)) =
    (V0 (Proc.devRef .tc main_arg9)) :=
  (val8_keep V0 main_arg9 (by decide)).trans (val7_main_arg9 V0)
theorem val8_main_arg10 (V0 : Valuation τ sig (Elt F)) : val8 V0 (no_index (Proc.devRef .tc main_arg10)) =
    (V0 (Proc.devRef .tc main_arg10)) :=
  (val8_keep V0 main_arg10 (by decide)).trans (val7_main_arg10 V0)
theorem val8_main_arg11 (V0 : Valuation τ sig (Elt F)) : val8 V0 (no_index (Proc.devRef .tc main_arg11)) =
    (V0 (Proc.devRef .tc main_arg11)) :=
  (val8_keep V0 main_arg11 (by decide)).trans (val7_main_arg11 V0)
theorem val8_main_arg12 (V0 : Valuation τ sig (Elt F)) : val8 V0 (no_index (Proc.devRef .tc main_arg12)) =
    (V0 (Proc.devRef .tc main_arg12)) :=
  (val8_keep V0 main_arg12 (by decide)).trans (val7_main_arg12 V0)
theorem val8_main_arg13 (V0 : Valuation τ sig (Elt F)) : val8 V0 (no_index (Proc.devRef .tc main_arg13)) =
    (V0 (Proc.devRef .tc main_arg13)) :=
  (val8_keep V0 main_arg13 (by decide)).trans (val7_main_arg13 V0)
theorem val8_main_arg14 (V0 : Valuation τ sig (Elt F)) : val8 V0 (no_index (Proc.devRef .tc main_arg14)) =
    (V0 (Proc.devRef .tc main_arg14)) :=
  (val8_keep V0 main_arg14 (by decide)).trans (val7_main_arg14 V0)
theorem val8_main_arg2 (V0 : Valuation τ sig (Elt F)) : val8 V0 (no_index (Proc.devRef .tc main_arg2)) =
    (V0 (Proc.devRef .tc main_arg2)) :=
  (val8_keep V0 main_arg2 (by decide)).trans (val7_main_arg2 V0)
theorem val8_main_arg15 (V0 : Valuation τ sig (Elt F)) : val8 V0 (no_index (Proc.devRef .tc main_arg15)) =
    (V0 (Proc.devRef .tc main_arg15)) :=
  (val8_keep V0 main_arg15 (by decide)).trans (val7_main_arg15 V0)
theorem val8_main_arg16 (V0 : Valuation τ sig (Elt F)) : val8 V0 (no_index (Proc.devRef .tc main_arg16)) =
    (V0 (Proc.devRef .tc main_arg16)) :=
  (val8_keep V0 main_arg16 (by decide)).trans (val7_main_arg16 V0)

/-- The device's buffer contents after the first 9 stages. -/
def val9 (V0 : Valuation τ sig (Elt F)) : Valuation τ sig (Elt F) := after stage8 (val8 V0)
theorem val9_keep (V0 : Valuation τ sig (Elt F)) (r : Ref sig .tc) (h : r ∉ stage8_W) :
    val9 V0 (Proc.devRef .tc r) = val8 V0 (Proc.devRef .tc r) := stage8_keep _ r h
set_option maxRecDepth 8192 in
set_option maxHeartbeats 2000000 in
theorem val9_main_v72 (V0 : Valuation τ sig (Elt F)) : val9 V0 (no_index (Proc.devRef .tc main_v72)) =
    (addf ((mulf ((mulf ((subf ((r_a1 V0)) ((broadcastInDim S50000x64 ![0, 1] bcast_S1x64_S50000x64_0_1 ((broadcastInDim S1x64 ![1] bcast_S64_S1x64_1 ((Gcn.colMean (r_a1 V0))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((Host.rsqrt ((addf ((Gcn.colVar (r_a1 V0))) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F))) : (⟨S64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((V0 (Proc.devRef .tc main_arg5))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((V0 (Proc.devRef .tc main_arg6))) : (⟨S1x64, .f32⟩ : BufTy).Contents (Elt F))) : (⟨S50000x64, .f32⟩ : BufTy).Contents (Elt F))) : (⟨S50000x64, .f32⟩ : BufTy).Contents (Elt F)) := by
  unfold val9
  rw [stage8_main_v72]
  simp only [val8_main_arg6, val8_main_arg5, val8_main_v57, val8_main_v56, val8_main_v53]
  all_goals (try rfl)
theorem val9_main_arg7 (V0 : Valuation τ sig (Elt F)) : val9 V0 (no_index (Proc.devRef .tc main_arg7)) =
    (V0 (Proc.devRef .tc main_arg7)) :=
  (val9_keep V0 main_arg7 (by decide)).trans (val8_main_arg7 V0)
theorem val9_main_v5 (V0 : Valuation τ sig (Elt F)) : val9 V0 (no_index (Proc.devRef .tc main_v5)) =
    (r_row V0) :=
  (val9_keep V0 main_v5 (by decide)).trans (val8_main_v5 V0)
theorem val9_main_v32 (V0 : Valuation τ sig (Elt F)) : val9 V0 (no_index (Proc.devRef .tc main_v32)) =
    (r_w V0) :=
  (val9_keep V0 main_v32 (by decide)).trans (val8_main_v32 V0)
theorem val9_main_v6 (V0 : Valuation τ sig (Elt F)) : val9 V0 (no_index (Proc.devRef .tc main_v6)) =
    (r_col V0) :=
  (val9_keep V0 main_v6 (by decide)).trans (val8_main_v6 V0)
theorem val9_main_arg8 (V0 : Valuation τ sig (Elt F)) : val9 V0 (no_index (Proc.devRef .tc main_arg8)) =
    (V0 (Proc.devRef .tc main_arg8)) :=
  (val9_keep V0 main_arg8 (by decide)).trans (val8_main_arg8 V0)
theorem val9_main_arg9 (V0 : Valuation τ sig (Elt F)) : val9 V0 (no_index (Proc.devRef .tc main_arg9)) =
    (V0 (Proc.devRef .tc main_arg9)) :=
  (val9_keep V0 main_arg9 (by decide)).trans (val8_main_arg9 V0)
theorem val9_main_arg10 (V0 : Valuation τ sig (Elt F)) : val9 V0 (no_index (Proc.devRef .tc main_arg10)) =
    (V0 (Proc.devRef .tc main_arg10)) :=
  (val9_keep V0 main_arg10 (by decide)).trans (val8_main_arg10 V0)
theorem val9_main_arg11 (V0 : Valuation τ sig (Elt F)) : val9 V0 (no_index (Proc.devRef .tc main_arg11)) =
    (V0 (Proc.devRef .tc main_arg11)) :=
  (val9_keep V0 main_arg11 (by decide)).trans (val8_main_arg11 V0)
theorem val9_main_arg12 (V0 : Valuation τ sig (Elt F)) : val9 V0 (no_index (Proc.devRef .tc main_arg12)) =
    (V0 (Proc.devRef .tc main_arg12)) :=
  (val9_keep V0 main_arg12 (by decide)).trans (val8_main_arg12 V0)
theorem val9_main_arg13 (V0 : Valuation τ sig (Elt F)) : val9 V0 (no_index (Proc.devRef .tc main_arg13)) =
    (V0 (Proc.devRef .tc main_arg13)) :=
  (val9_keep V0 main_arg13 (by decide)).trans (val8_main_arg13 V0)
theorem val9_main_arg14 (V0 : Valuation τ sig (Elt F)) : val9 V0 (no_index (Proc.devRef .tc main_arg14)) =
    (V0 (Proc.devRef .tc main_arg14)) :=
  (val9_keep V0 main_arg14 (by decide)).trans (val8_main_arg14 V0)
theorem val9_main_arg2 (V0 : Valuation τ sig (Elt F)) : val9 V0 (no_index (Proc.devRef .tc main_arg2)) =
    (V0 (Proc.devRef .tc main_arg2)) :=
  (val9_keep V0 main_arg2 (by decide)).trans (val8_main_arg2 V0)
theorem val9_main_arg15 (V0 : Valuation τ sig (Elt F)) : val9 V0 (no_index (Proc.devRef .tc main_arg15)) =
    (V0 (Proc.devRef .tc main_arg15)) :=
  (val9_keep V0 main_arg15 (by decide)).trans (val8_main_arg15 V0)
theorem val9_main_arg16 (V0 : Valuation τ sig (Elt F)) : val9 V0 (no_index (Proc.devRef .tc main_arg16)) =
    (V0 (Proc.devRef .tc main_arg16)) :=
  (val9_keep V0 main_arg16 (by decide)).trans (val8_main_arg16 V0)

/-- The device's buffer contents after the first 10 stages. -/
def val10 (V0 : Valuation τ sig (Elt F)) : Valuation τ sig (Elt F) := after stage9 (val9 V0)
theorem val10_keep (V0 : Valuation τ sig (Elt F)) (r : Ref sig .tc) (h : r ∉ stage9_W) :
    val10 V0 (Proc.devRef .tc r) = val9 V0 (Proc.devRef .tc r) := stage9_keep _ r h
set_option maxRecDepth 8192 in
set_option maxHeartbeats 2000000 in
theorem val10_main_v73 (V0 : Valuation τ sig (Elt F)) : val10 V0 (no_index (Proc.devRef .tc main_v73)) =
    (r_h1 V0) := by
  unfold val10
  rw [stage9_main_v73]
  simp only [val9_main_v72]
  all_goals (try rfl)
theorem val10_main_arg7 (V0 : Valuation τ sig (Elt F)) : val10 V0 (no_index (Proc.devRef .tc main_arg7)) =
    (V0 (Proc.devRef .tc main_arg7)) :=
  (val10_keep V0 main_arg7 (by decide)).trans (val9_main_arg7 V0)
theorem val10_main_v5 (V0 : Valuation τ sig (Elt F)) : val10 V0 (no_index (Proc.devRef .tc main_v5)) =
    (r_row V0) :=
  (val10_keep V0 main_v5 (by decide)).trans (val9_main_v5 V0)
theorem val10_main_v32 (V0 : Valuation τ sig (Elt F)) : val10 V0 (no_index (Proc.devRef .tc main_v32)) =
    (r_w V0) :=
  (val10_keep V0 main_v32 (by decide)).trans (val9_main_v32 V0)
theorem val10_main_v6 (V0 : Valuation τ sig (Elt F)) : val10 V0 (no_index (Proc.devRef .tc main_v6)) =
    (r_col V0) :=
  (val10_keep V0 main_v6 (by decide)).trans (val9_main_v6 V0)
theorem val10_main_arg8 (V0 : Valuation τ sig (Elt F)) : val10 V0 (no_index (Proc.devRef .tc main_arg8)) =
    (V0 (Proc.devRef .tc main_arg8)) :=
  (val10_keep V0 main_arg8 (by decide)).trans (val9_main_arg8 V0)
theorem val10_main_arg9 (V0 : Valuation τ sig (Elt F)) : val10 V0 (no_index (Proc.devRef .tc main_arg9)) =
    (V0 (Proc.devRef .tc main_arg9)) :=
  (val10_keep V0 main_arg9 (by decide)).trans (val9_main_arg9 V0)
theorem val10_main_arg10 (V0 : Valuation τ sig (Elt F)) : val10 V0 (no_index (Proc.devRef .tc main_arg10)) =
    (V0 (Proc.devRef .tc main_arg10)) :=
  (val10_keep V0 main_arg10 (by decide)).trans (val9_main_arg10 V0)
theorem val10_main_arg11 (V0 : Valuation τ sig (Elt F)) : val10 V0 (no_index (Proc.devRef .tc main_arg11)) =
    (V0 (Proc.devRef .tc main_arg11)) :=
  (val10_keep V0 main_arg11 (by decide)).trans (val9_main_arg11 V0)
theorem val10_main_arg12 (V0 : Valuation τ sig (Elt F)) : val10 V0 (no_index (Proc.devRef .tc main_arg12)) =
    (V0 (Proc.devRef .tc main_arg12)) :=
  (val10_keep V0 main_arg12 (by decide)).trans (val9_main_arg12 V0)
theorem val10_main_arg13 (V0 : Valuation τ sig (Elt F)) : val10 V0 (no_index (Proc.devRef .tc main_arg13)) =
    (V0 (Proc.devRef .tc main_arg13)) :=
  (val10_keep V0 main_arg13 (by decide)).trans (val9_main_arg13 V0)
theorem val10_main_arg14 (V0 : Valuation τ sig (Elt F)) : val10 V0 (no_index (Proc.devRef .tc main_arg14)) =
    (V0 (Proc.devRef .tc main_arg14)) :=
  (val10_keep V0 main_arg14 (by decide)).trans (val9_main_arg14 V0)
theorem val10_main_arg2 (V0 : Valuation τ sig (Elt F)) : val10 V0 (no_index (Proc.devRef .tc main_arg2)) =
    (V0 (Proc.devRef .tc main_arg2)) :=
  (val10_keep V0 main_arg2 (by decide)).trans (val9_main_arg2 V0)
theorem val10_main_arg15 (V0 : Valuation τ sig (Elt F)) : val10 V0 (no_index (Proc.devRef .tc main_arg15)) =
    (V0 (Proc.devRef .tc main_arg15)) :=
  (val10_keep V0 main_arg15 (by decide)).trans (val9_main_arg15 V0)
theorem val10_main_arg16 (V0 : Valuation τ sig (Elt F)) : val10 V0 (no_index (Proc.devRef .tc main_arg16)) =
    (V0 (Proc.devRef .tc main_arg16)) :=
  (val10_keep V0 main_arg16 (by decide)).trans (val9_main_arg16 V0)

/-- The device's buffer contents after the first 11 stages. -/
def val11 (V0 : Valuation τ sig (Elt F)) : Valuation τ sig (Elt F) := after stage10 (val10 V0)
theorem val11_keep (V0 : Valuation τ sig (Elt F)) (r : Ref sig .tc) (h : r ∉ stage10_W) :
    val11 V0 (Proc.devRef .tc r) = val10 V0 (Proc.devRef .tc r) := stage10_keep _ r h
set_option maxRecDepth 8192 in
set_option maxHeartbeats 2000000 in
theorem val11_main_v94 (V0 : Valuation τ sig (Elt F)) : val11 V0 (no_index (Proc.devRef .tc main_v94)) =
    (r_a2 V0) := by
  unfold val11
  rw [stage10_main_v94]
  simp only [val10_main_arg8, val10_main_v5, val10_main_arg7, val10_main_v73, val10_main_v32, val10_main_v6]
  all_goals (try rfl)
theorem val11_main_arg9 (V0 : Valuation τ sig (Elt F)) : val11 V0 (no_index (Proc.devRef .tc main_arg9)) =
    (V0 (Proc.devRef .tc main_arg9)) :=
  (val11_keep V0 main_arg9 (by decide)).trans (val10_main_arg9 V0)
theorem val11_main_arg10 (V0 : Valuation τ sig (Elt F)) : val11 V0 (no_index (Proc.devRef .tc main_arg10)) =
    (V0 (Proc.devRef .tc main_arg10)) :=
  (val11_keep V0 main_arg10 (by decide)).trans (val10_main_arg10 V0)
theorem val11_main_arg11 (V0 : Valuation τ sig (Elt F)) : val11 V0 (no_index (Proc.devRef .tc main_arg11)) =
    (V0 (Proc.devRef .tc main_arg11)) :=
  (val11_keep V0 main_arg11 (by decide)).trans (val10_main_arg11 V0)
theorem val11_main_v5 (V0 : Valuation τ sig (Elt F)) : val11 V0 (no_index (Proc.devRef .tc main_v5)) =
    (r_row V0) :=
  (val11_keep V0 main_v5 (by decide)).trans (val10_main_v5 V0)
theorem val11_main_v32 (V0 : Valuation τ sig (Elt F)) : val11 V0 (no_index (Proc.devRef .tc main_v32)) =
    (r_w V0) :=
  (val11_keep V0 main_v32 (by decide)).trans (val10_main_v32 V0)
theorem val11_main_v6 (V0 : Valuation τ sig (Elt F)) : val11 V0 (no_index (Proc.devRef .tc main_v6)) =
    (r_col V0) :=
  (val11_keep V0 main_v6 (by decide)).trans (val10_main_v6 V0)
theorem val11_main_arg12 (V0 : Valuation τ sig (Elt F)) : val11 V0 (no_index (Proc.devRef .tc main_arg12)) =
    (V0 (Proc.devRef .tc main_arg12)) :=
  (val11_keep V0 main_arg12 (by decide)).trans (val10_main_arg12 V0)
theorem val11_main_arg13 (V0 : Valuation τ sig (Elt F)) : val11 V0 (no_index (Proc.devRef .tc main_arg13)) =
    (V0 (Proc.devRef .tc main_arg13)) :=
  (val11_keep V0 main_arg13 (by decide)).trans (val10_main_arg13 V0)
theorem val11_main_arg14 (V0 : Valuation τ sig (Elt F)) : val11 V0 (no_index (Proc.devRef .tc main_arg14)) =
    (V0 (Proc.devRef .tc main_arg14)) :=
  (val11_keep V0 main_arg14 (by decide)).trans (val10_main_arg14 V0)
theorem val11_main_arg2 (V0 : Valuation τ sig (Elt F)) : val11 V0 (no_index (Proc.devRef .tc main_arg2)) =
    (V0 (Proc.devRef .tc main_arg2)) :=
  (val11_keep V0 main_arg2 (by decide)).trans (val10_main_arg2 V0)
theorem val11_main_arg15 (V0 : Valuation τ sig (Elt F)) : val11 V0 (no_index (Proc.devRef .tc main_arg15)) =
    (V0 (Proc.devRef .tc main_arg15)) :=
  (val11_keep V0 main_arg15 (by decide)).trans (val10_main_arg15 V0)
theorem val11_main_arg16 (V0 : Valuation τ sig (Elt F)) : val11 V0 (no_index (Proc.devRef .tc main_arg16)) =
    (V0 (Proc.devRef .tc main_arg16)) :=
  (val11_keep V0 main_arg16 (by decide)).trans (val10_main_arg16 V0)

/-- The device's buffer contents after the first 12 stages. -/
def val12 (V0 : Valuation τ sig (Elt F)) : Valuation τ sig (Elt F) := after stage11 (val11 V0)
theorem val12_keep (V0 : Valuation τ sig (Elt F)) (r : Ref sig .tc) (h : r ∉ stage11_W) :
    val12 V0 (Proc.devRef .tc r) = val11 V0 (Proc.devRef .tc r) := stage11_keep _ r h
set_option maxRecDepth 8192 in
set_option maxHeartbeats 2000000 in
theorem val12_main_cst_21 (V0 : Valuation τ sig (Elt F)) : val12 V0 (no_index (Proc.devRef .tc main_cst_21)) =
    ((constant S_ .f32 0x47435000#32) : (⟨S_, .f32⟩ : BufTy).Contents (Elt F)) := by
  unfold val12
  rw [stage11_main_cst_21]
  all_goals (try rfl)
set_option maxRecDepth 8192 in
set_option maxHeartbeats 2000000 in
theorem val12_main_v95 (V0 : Valuation τ sig (Elt F)) : val12 V0 (no_index (Proc.devRef .tc main_v95)) =
    (Host.reduceAdd ((r_a2 V0)) (((constant S_ .f32 0x00000000#32) : (⟨S_, .f32⟩ : BufTy).Contents (Elt F))) reducesTo_S50000x64_S64_d0 h_S_ : (⟨S64, .f32⟩ : BufTy).Contents (Elt F)) := by
  unfold val12
  rw [stage11_main_v95]
  simp only [val11_main_v94]
  all_goals (try rfl)
theorem val12_main_v94 (V0 : Valuation τ sig (Elt F)) : val12 V0 (no_index (Proc.devRef .tc main_v94)) =
    (r_a2 V0) :=
  (val12_keep V0 main_v94 (by decide)).trans (val11_main_v94 V0)
theorem val12_main_arg9 (V0 : Valuation τ sig (Elt F)) : val12 V0 (no_index (Proc.devRef .tc main_arg9)) =
    (V0 (Proc.devRef .tc main_arg9)) :=
  (val12_keep V0 main_arg9 (by decide)).trans (val11_main_arg9 V0)
theorem val12_main_arg10 (V0 : Valuation τ sig (Elt F)) : val12 V0 (no_index (Proc.devRef .tc main_arg10)) =
    (V0 (Proc.devRef .tc main_arg10)) :=
  (val12_keep V0 main_arg10 (by decide)).trans (val11_main_arg10 V0)
theorem val12_main_arg11 (V0 : Valuation τ sig (Elt F)) : val12 V0 (no_index (Proc.devRef .tc main_arg11)) =
    (V0 (Proc.devRef .tc main_arg11)) :=
  (val12_keep V0 main_arg11 (by decide)).trans (val11_main_arg11 V0)
theorem val12_main_v5 (V0 : Valuation τ sig (Elt F)) : val12 V0 (no_index (Proc.devRef .tc main_v5)) =
    (r_row V0) :=
  (val12_keep V0 main_v5 (by decide)).trans (val11_main_v5 V0)
theorem val12_main_v32 (V0 : Valuation τ sig (Elt F)) : val12 V0 (no_index (Proc.devRef .tc main_v32)) =
    (r_w V0) :=
  (val12_keep V0 main_v32 (by decide)).trans (val11_main_v32 V0)
theorem val12_main_v6 (V0 : Valuation τ sig (Elt F)) : val12 V0 (no_index (Proc.devRef .tc main_v6)) =
    (r_col V0) :=
  (val12_keep V0 main_v6 (by decide)).trans (val11_main_v6 V0)
theorem val12_main_arg12 (V0 : Valuation τ sig (Elt F)) : val12 V0 (no_index (Proc.devRef .tc main_arg12)) =
    (V0 (Proc.devRef .tc main_arg12)) :=
  (val12_keep V0 main_arg12 (by decide)).trans (val11_main_arg12 V0)
theorem val12_main_arg13 (V0 : Valuation τ sig (Elt F)) : val12 V0 (no_index (Proc.devRef .tc main_arg13)) =
    (V0 (Proc.devRef .tc main_arg13)) :=
  (val12_keep V0 main_arg13 (by decide)).trans (val11_main_arg13 V0)
theorem val12_main_arg14 (V0 : Valuation τ sig (Elt F)) : val12 V0 (no_index (Proc.devRef .tc main_arg14)) =
    (V0 (Proc.devRef .tc main_arg14)) :=
  (val12_keep V0 main_arg14 (by decide)).trans (val11_main_arg14 V0)
theorem val12_main_arg2 (V0 : Valuation τ sig (Elt F)) : val12 V0 (no_index (Proc.devRef .tc main_arg2)) =
    (V0 (Proc.devRef .tc main_arg2)) :=
  (val12_keep V0 main_arg2 (by decide)).trans (val11_main_arg2 V0)
theorem val12_main_arg15 (V0 : Valuation τ sig (Elt F)) : val12 V0 (no_index (Proc.devRef .tc main_arg15)) =
    (V0 (Proc.devRef .tc main_arg15)) :=
  (val12_keep V0 main_arg15 (by decide)).trans (val11_main_arg15 V0)
theorem val12_main_arg16 (V0 : Valuation τ sig (Elt F)) : val12 V0 (no_index (Proc.devRef .tc main_arg16)) =
    (V0 (Proc.devRef .tc main_arg16)) :=
  (val12_keep V0 main_arg16 (by decide)).trans (val11_main_arg16 V0)

/-- The device's buffer contents after the first 13 stages. -/
def val13 (V0 : Valuation τ sig (Elt F)) : Valuation τ sig (Elt F) := after stage12 (val12 V0)
theorem val13_keep (V0 : Valuation τ sig (Elt F)) (r : Ref sig .tc) (h : r ∉ stage12_W) :
    val13 V0 (Proc.devRef .tc r) = val12 V0 (Proc.devRef .tc r) := stage12_keep _ r h
theorem val13_main_v94 (V0 : Valuation τ sig (Elt F)) : val13 V0 (no_index (Proc.devRef .tc main_v94)) =
    (r_a2 V0) :=
  (val13_keep V0 main_v94 (by decide)).trans (val12_main_v94 V0)
set_option maxRecDepth 8192 in
set_option maxHeartbeats 2000000 in
theorem val13_main_c_22 (V0 : Valuation τ sig (Elt F)) : val13 V0 (no_index (Proc.devRef .tc main_c_22)) =
    ((constantI S_ 32 0#32) : (⟨S_, .i32⟩ : BufTy).Contents (Elt F)) := by
  unfold val13
  rw [stage12_main_c_22]
  all_goals (try rfl)
set_option maxRecDepth 8192 in
set_option maxHeartbeats 2000000 in
theorem val13_main_v97 (V0 : Valuation τ sig (Elt F)) : val13 V0 (no_index (Proc.devRef .tc main_v97)) =
    (Gcn.colMean (r_a2 V0)) := by
  unfold val13
  rw [stage12_main_v97]
  simp only [val12_main_cst_21, val12_main_v95]
  all_goals (try rfl)
theorem val13_main_arg9 (V0 : Valuation τ sig (Elt F)) : val13 V0 (no_index (Proc.devRef .tc main_arg9)) =
    (V0 (Proc.devRef .tc main_arg9)) :=
  (val13_keep V0 main_arg9 (by decide)).trans (val12_main_arg9 V0)
theorem val13_main_arg10 (V0 : Valuation τ sig (Elt F)) : val13 V0 (no_index (Proc.devRef .tc main_arg10)) =
    (V0 (Proc.devRef .tc main_arg10)) :=
  (val13_keep V0 main_arg10 (by decide)).trans (val12_main_arg10 V0)
theorem val13_main_arg11 (V0 : Valuation τ sig (Elt F)) : val13 V0 (no_index (Proc.devRef .tc main_arg11)) =
    (V0 (Proc.devRef .tc main_arg11)) :=
  (val13_keep V0 main_arg11 (by decide)).trans (val12_main_arg11 V0)
theorem val13_main_v5 (V0 : Valuation τ sig (Elt F)) : val13 V0 (no_index (Proc.devRef .tc main_v5)) =
    (r_row V0) :=
  (val13_keep V0 main_v5 (by decide)).trans (val12_main_v5 V0)
theorem val13_main_v32 (V0 : Valuation τ sig (Elt F)) : val13 V0 (no_index (Proc.devRef .tc main_v32)) =
    (r_w V0) :=
  (val13_keep V0 main_v32 (by decide)).trans (val12_main_v32 V0)
theorem val13_main_v6 (V0 : Valuation τ sig (Elt F)) : val13 V0 (no_index (Proc.devRef .tc main_v6)) =
    (r_col V0) :=
  (val13_keep V0 main_v6 (by decide)).trans (val12_main_v6 V0)
theorem val13_main_arg12 (V0 : Valuation τ sig (Elt F)) : val13 V0 (no_index (Proc.devRef .tc main_arg12)) =
    (V0 (Proc.devRef .tc main_arg12)) :=
  (val13_keep V0 main_arg12 (by decide)).trans (val12_main_arg12 V0)
theorem val13_main_arg13 (V0 : Valuation τ sig (Elt F)) : val13 V0 (no_index (Proc.devRef .tc main_arg13)) =
    (V0 (Proc.devRef .tc main_arg13)) :=
  (val13_keep V0 main_arg13 (by decide)).trans (val12_main_arg13 V0)
theorem val13_main_arg14 (V0 : Valuation τ sig (Elt F)) : val13 V0 (no_index (Proc.devRef .tc main_arg14)) =
    (V0 (Proc.devRef .tc main_arg14)) :=
  (val13_keep V0 main_arg14 (by decide)).trans (val12_main_arg14 V0)
theorem val13_main_arg2 (V0 : Valuation τ sig (Elt F)) : val13 V0 (no_index (Proc.devRef .tc main_arg2)) =
    (V0 (Proc.devRef .tc main_arg2)) :=
  (val13_keep V0 main_arg2 (by decide)).trans (val12_main_arg2 V0)
theorem val13_main_arg15 (V0 : Valuation τ sig (Elt F)) : val13 V0 (no_index (Proc.devRef .tc main_arg15)) =
    (V0 (Proc.devRef .tc main_arg15)) :=
  (val13_keep V0 main_arg15 (by decide)).trans (val12_main_arg15 V0)
theorem val13_main_arg16 (V0 : Valuation τ sig (Elt F)) : val13 V0 (no_index (Proc.devRef .tc main_arg16)) =
    (V0 (Proc.devRef .tc main_arg16)) :=
  (val13_keep V0 main_arg16 (by decide)).trans (val12_main_arg16 V0)

/-- The device's buffer contents after the first 14 stages. -/
def val14 (V0 : Valuation τ sig (Elt F)) : Valuation τ sig (Elt F) := after stage13 (val13 V0)
theorem val14_keep (V0 : Valuation τ sig (Elt F)) (r : Ref sig .tc) (h : r ∉ stage13_W) :
    val14 V0 (Proc.devRef .tc r) = val13 V0 (Proc.devRef .tc r) := stage13_keep _ r h
theorem val14_main_v97 (V0 : Valuation τ sig (Elt F)) : val14 V0 (no_index (Proc.devRef .tc main_v97)) =
    (Gcn.colMean (r_a2 V0)) :=
  (val14_keep V0 main_v97 (by decide)).trans (val13_main_v97 V0)
theorem val14_main_v94 (V0 : Valuation τ sig (Elt F)) : val14 V0 (no_index (Proc.devRef .tc main_v94)) =
    (r_a2 V0) :=
  (val14_keep V0 main_v94 (by decide)).trans (val13_main_v94 V0)
set_option maxRecDepth 8192 in
set_option maxHeartbeats 2000000 in
theorem val14_main_v98 (V0 : Valuation τ sig (Elt F)) : val14 V0 (no_index (Proc.devRef .tc main_v98)) =
    (Gcn.colVar (r_a2 V0)) := by
  unfold val14
  rw [stage13_main_v98]
  simp only [val13_main_c_22, val13_main_v94]
  all_goals (try rfl)
theorem val14_main_arg9 (V0 : Valuation τ sig (Elt F)) : val14 V0 (no_index (Proc.devRef .tc main_arg9)) =
    (V0 (Proc.devRef .tc main_arg9)) :=
  (val14_keep V0 main_arg9 (by decide)).trans (val13_main_arg9 V0)
theorem val14_main_arg10 (V0 : Valuation τ sig (Elt F)) : val14 V0 (no_index (Proc.devRef .tc main_arg10)) =
    (V0 (Proc.devRef .tc main_arg10)) :=
  (val14_keep V0 main_arg10 (by decide)).trans (val13_main_arg10 V0)
theorem val14_main_arg11 (V0 : Valuation τ sig (Elt F)) : val14 V0 (no_index (Proc.devRef .tc main_arg11)) =
    (V0 (Proc.devRef .tc main_arg11)) :=
  (val14_keep V0 main_arg11 (by decide)).trans (val13_main_arg11 V0)
theorem val14_main_v5 (V0 : Valuation τ sig (Elt F)) : val14 V0 (no_index (Proc.devRef .tc main_v5)) =
    (r_row V0) :=
  (val14_keep V0 main_v5 (by decide)).trans (val13_main_v5 V0)
theorem val14_main_v32 (V0 : Valuation τ sig (Elt F)) : val14 V0 (no_index (Proc.devRef .tc main_v32)) =
    (r_w V0) :=
  (val14_keep V0 main_v32 (by decide)).trans (val13_main_v32 V0)
theorem val14_main_v6 (V0 : Valuation τ sig (Elt F)) : val14 V0 (no_index (Proc.devRef .tc main_v6)) =
    (r_col V0) :=
  (val14_keep V0 main_v6 (by decide)).trans (val13_main_v6 V0)
theorem val14_main_arg12 (V0 : Valuation τ sig (Elt F)) : val14 V0 (no_index (Proc.devRef .tc main_arg12)) =
    (V0 (Proc.devRef .tc main_arg12)) :=
  (val14_keep V0 main_arg12 (by decide)).trans (val13_main_arg12 V0)
theorem val14_main_arg13 (V0 : Valuation τ sig (Elt F)) : val14 V0 (no_index (Proc.devRef .tc main_arg13)) =
    (V0 (Proc.devRef .tc main_arg13)) :=
  (val14_keep V0 main_arg13 (by decide)).trans (val13_main_arg13 V0)
theorem val14_main_arg14 (V0 : Valuation τ sig (Elt F)) : val14 V0 (no_index (Proc.devRef .tc main_arg14)) =
    (V0 (Proc.devRef .tc main_arg14)) :=
  (val14_keep V0 main_arg14 (by decide)).trans (val13_main_arg14 V0)
theorem val14_main_arg2 (V0 : Valuation τ sig (Elt F)) : val14 V0 (no_index (Proc.devRef .tc main_arg2)) =
    (V0 (Proc.devRef .tc main_arg2)) :=
  (val14_keep V0 main_arg2 (by decide)).trans (val13_main_arg2 V0)
theorem val14_main_arg15 (V0 : Valuation τ sig (Elt F)) : val14 V0 (no_index (Proc.devRef .tc main_arg15)) =
    (V0 (Proc.devRef .tc main_arg15)) :=
  (val14_keep V0 main_arg15 (by decide)).trans (val13_main_arg15 V0)
theorem val14_main_arg16 (V0 : Valuation τ sig (Elt F)) : val14 V0 (no_index (Proc.devRef .tc main_arg16)) =
    (V0 (Proc.devRef .tc main_arg16)) :=
  (val14_keep V0 main_arg16 (by decide)).trans (val13_main_arg16 V0)

/-- The device's buffer contents after the first 15 stages. -/
def val15 (V0 : Valuation τ sig (Elt F)) : Valuation τ sig (Elt F) := after stage14 (val14 V0)
theorem val15_keep (V0 : Valuation τ sig (Elt F)) (r : Ref sig .tc) (h : r ∉ stage14_W) :
    val15 V0 (Proc.devRef .tc r) = val14 V0 (Proc.devRef .tc r) := stage14_keep _ r h
set_option maxRecDepth 8192 in
set_option maxHeartbeats 2000000 in
theorem val15_main_v113 (V0 : Valuation τ sig (Elt F)) : val15 V0 (no_index (Proc.devRef .tc main_v113)) =
    (addf ((mulf ((mulf ((subf ((r_a2 V0)) ((broadcastInDim S50000x64 ![0, 1] bcast_S1x64_S50000x64_0_1 ((broadcastInDim S1x64 ![1] bcast_S64_S1x64_1 ((Gcn.colMean (r_a2 V0))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((Host.rsqrt ((addf ((Gcn.colVar (r_a2 V0))) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F))) : (⟨S64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((V0 (Proc.devRef .tc main_arg9))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((V0 (Proc.devRef .tc main_arg10))) : (⟨S1x64, .f32⟩ : BufTy).Contents (Elt F))) : (⟨S50000x64, .f32⟩ : BufTy).Contents (Elt F))) : (⟨S50000x64, .f32⟩ : BufTy).Contents (Elt F)) := by
  unfold val15
  rw [stage14_main_v113]
  simp only [val14_main_arg10, val14_main_arg9, val14_main_v98, val14_main_v97, val14_main_v94]
  all_goals (try rfl)
theorem val15_main_arg11 (V0 : Valuation τ sig (Elt F)) : val15 V0 (no_index (Proc.devRef .tc main_arg11)) =
    (V0 (Proc.devRef .tc main_arg11)) :=
  (val15_keep V0 main_arg11 (by decide)).trans (val14_main_arg11 V0)
theorem val15_main_v5 (V0 : Valuation τ sig (Elt F)) : val15 V0 (no_index (Proc.devRef .tc main_v5)) =
    (r_row V0) :=
  (val15_keep V0 main_v5 (by decide)).trans (val14_main_v5 V0)
theorem val15_main_v32 (V0 : Valuation τ sig (Elt F)) : val15 V0 (no_index (Proc.devRef .tc main_v32)) =
    (r_w V0) :=
  (val15_keep V0 main_v32 (by decide)).trans (val14_main_v32 V0)
theorem val15_main_v6 (V0 : Valuation τ sig (Elt F)) : val15 V0 (no_index (Proc.devRef .tc main_v6)) =
    (r_col V0) :=
  (val15_keep V0 main_v6 (by decide)).trans (val14_main_v6 V0)
theorem val15_main_arg12 (V0 : Valuation τ sig (Elt F)) : val15 V0 (no_index (Proc.devRef .tc main_arg12)) =
    (V0 (Proc.devRef .tc main_arg12)) :=
  (val15_keep V0 main_arg12 (by decide)).trans (val14_main_arg12 V0)
theorem val15_main_arg13 (V0 : Valuation τ sig (Elt F)) : val15 V0 (no_index (Proc.devRef .tc main_arg13)) =
    (V0 (Proc.devRef .tc main_arg13)) :=
  (val15_keep V0 main_arg13 (by decide)).trans (val14_main_arg13 V0)
theorem val15_main_arg14 (V0 : Valuation τ sig (Elt F)) : val15 V0 (no_index (Proc.devRef .tc main_arg14)) =
    (V0 (Proc.devRef .tc main_arg14)) :=
  (val15_keep V0 main_arg14 (by decide)).trans (val14_main_arg14 V0)
theorem val15_main_arg2 (V0 : Valuation τ sig (Elt F)) : val15 V0 (no_index (Proc.devRef .tc main_arg2)) =
    (V0 (Proc.devRef .tc main_arg2)) :=
  (val15_keep V0 main_arg2 (by decide)).trans (val14_main_arg2 V0)
theorem val15_main_arg15 (V0 : Valuation τ sig (Elt F)) : val15 V0 (no_index (Proc.devRef .tc main_arg15)) =
    (V0 (Proc.devRef .tc main_arg15)) :=
  (val15_keep V0 main_arg15 (by decide)).trans (val14_main_arg15 V0)
theorem val15_main_arg16 (V0 : Valuation τ sig (Elt F)) : val15 V0 (no_index (Proc.devRef .tc main_arg16)) =
    (V0 (Proc.devRef .tc main_arg16)) :=
  (val15_keep V0 main_arg16 (by decide)).trans (val14_main_arg16 V0)

/-- The device's buffer contents after the first 16 stages. -/
def val16 (V0 : Valuation τ sig (Elt F)) : Valuation τ sig (Elt F) := after stage15 (val15 V0)
theorem val16_keep (V0 : Valuation τ sig (Elt F)) (r : Ref sig .tc) (h : r ∉ stage15_W) :
    val16 V0 (Proc.devRef .tc r) = val15 V0 (Proc.devRef .tc r) := stage15_keep _ r h
set_option maxRecDepth 8192 in
set_option maxHeartbeats 2000000 in
theorem val16_main_v114 (V0 : Valuation τ sig (Elt F)) : val16 V0 (no_index (Proc.devRef .tc main_v114)) =
    (r_h2 V0) := by
  unfold val16
  rw [stage15_main_v114]
  simp only [val15_main_v113]
  all_goals (try rfl)
theorem val16_main_arg11 (V0 : Valuation τ sig (Elt F)) : val16 V0 (no_index (Proc.devRef .tc main_arg11)) =
    (V0 (Proc.devRef .tc main_arg11)) :=
  (val16_keep V0 main_arg11 (by decide)).trans (val15_main_arg11 V0)
theorem val16_main_v5 (V0 : Valuation τ sig (Elt F)) : val16 V0 (no_index (Proc.devRef .tc main_v5)) =
    (r_row V0) :=
  (val16_keep V0 main_v5 (by decide)).trans (val15_main_v5 V0)
theorem val16_main_v32 (V0 : Valuation τ sig (Elt F)) : val16 V0 (no_index (Proc.devRef .tc main_v32)) =
    (r_w V0) :=
  (val16_keep V0 main_v32 (by decide)).trans (val15_main_v32 V0)
theorem val16_main_v6 (V0 : Valuation τ sig (Elt F)) : val16 V0 (no_index (Proc.devRef .tc main_v6)) =
    (r_col V0) :=
  (val16_keep V0 main_v6 (by decide)).trans (val15_main_v6 V0)
theorem val16_main_arg12 (V0 : Valuation τ sig (Elt F)) : val16 V0 (no_index (Proc.devRef .tc main_arg12)) =
    (V0 (Proc.devRef .tc main_arg12)) :=
  (val16_keep V0 main_arg12 (by decide)).trans (val15_main_arg12 V0)
theorem val16_main_arg13 (V0 : Valuation τ sig (Elt F)) : val16 V0 (no_index (Proc.devRef .tc main_arg13)) =
    (V0 (Proc.devRef .tc main_arg13)) :=
  (val16_keep V0 main_arg13 (by decide)).trans (val15_main_arg13 V0)
theorem val16_main_arg14 (V0 : Valuation τ sig (Elt F)) : val16 V0 (no_index (Proc.devRef .tc main_arg14)) =
    (V0 (Proc.devRef .tc main_arg14)) :=
  (val16_keep V0 main_arg14 (by decide)).trans (val15_main_arg14 V0)
theorem val16_main_arg2 (V0 : Valuation τ sig (Elt F)) : val16 V0 (no_index (Proc.devRef .tc main_arg2)) =
    (V0 (Proc.devRef .tc main_arg2)) :=
  (val16_keep V0 main_arg2 (by decide)).trans (val15_main_arg2 V0)
theorem val16_main_arg15 (V0 : Valuation τ sig (Elt F)) : val16 V0 (no_index (Proc.devRef .tc main_arg15)) =
    (V0 (Proc.devRef .tc main_arg15)) :=
  (val16_keep V0 main_arg15 (by decide)).trans (val15_main_arg15 V0)
theorem val16_main_arg16 (V0 : Valuation τ sig (Elt F)) : val16 V0 (no_index (Proc.devRef .tc main_arg16)) =
    (V0 (Proc.devRef .tc main_arg16)) :=
  (val16_keep V0 main_arg16 (by decide)).trans (val15_main_arg16 V0)

/-- The device's buffer contents after the first 17 stages. -/
def val17 (V0 : Valuation τ sig (Elt F)) : Valuation τ sig (Elt F) := after stage16 (val16 V0)
theorem val17_keep (V0 : Valuation τ sig (Elt F)) (r : Ref sig .tc) (h : r ∉ stage16_W) :
    val17 V0 (Proc.devRef .tc r) = val16 V0 (Proc.devRef .tc r) := stage16_keep _ r h
set_option maxRecDepth 8192 in
set_option maxHeartbeats 2000000 in
theorem val17_main_v135 (V0 : Valuation τ sig (Elt F)) : val17 V0 (no_index (Proc.devRef .tc main_v135)) =
    (r_a3 V0) := by
  unfold val17
  rw [stage16_main_v135]
  simp only [val16_main_arg12, val16_main_v5, val16_main_arg11, val16_main_v114, val16_main_v32, val16_main_v6]
  all_goals (try rfl)
theorem val17_main_arg13 (V0 : Valuation τ sig (Elt F)) : val17 V0 (no_index (Proc.devRef .tc main_arg13)) =
    (V0 (Proc.devRef .tc main_arg13)) :=
  (val17_keep V0 main_arg13 (by decide)).trans (val16_main_arg13 V0)
theorem val17_main_arg14 (V0 : Valuation τ sig (Elt F)) : val17 V0 (no_index (Proc.devRef .tc main_arg14)) =
    (V0 (Proc.devRef .tc main_arg14)) :=
  (val17_keep V0 main_arg14 (by decide)).trans (val16_main_arg14 V0)
theorem val17_main_arg2 (V0 : Valuation τ sig (Elt F)) : val17 V0 (no_index (Proc.devRef .tc main_arg2)) =
    (V0 (Proc.devRef .tc main_arg2)) :=
  (val17_keep V0 main_arg2 (by decide)).trans (val16_main_arg2 V0)
theorem val17_main_arg15 (V0 : Valuation τ sig (Elt F)) : val17 V0 (no_index (Proc.devRef .tc main_arg15)) =
    (V0 (Proc.devRef .tc main_arg15)) :=
  (val17_keep V0 main_arg15 (by decide)).trans (val16_main_arg15 V0)
theorem val17_main_arg16 (V0 : Valuation τ sig (Elt F)) : val17 V0 (no_index (Proc.devRef .tc main_arg16)) =
    (V0 (Proc.devRef .tc main_arg16)) :=
  (val17_keep V0 main_arg16 (by decide)).trans (val16_main_arg16 V0)

/-- The device's buffer contents after the first 18 stages. -/
def val18 (V0 : Valuation τ sig (Elt F)) : Valuation τ sig (Elt F) := after stage17 (val17 V0)
theorem val18_keep (V0 : Valuation τ sig (Elt F)) (r : Ref sig .tc) (h : r ∉ stage17_W) :
    val18 V0 (Proc.devRef .tc r) = val17 V0 (Proc.devRef .tc r) := stage17_keep _ r h
theorem val18_main_v135 (V0 : Valuation τ sig (Elt F)) : val18 V0 (no_index (Proc.devRef .tc main_v135)) =
    (r_a3 V0) :=
  (val18_keep V0 main_v135 (by decide)).trans (val17_main_v135 V0)
set_option maxRecDepth 8192 in
set_option maxHeartbeats 2000000 in
theorem val18_main_c_31 (V0 : Valuation τ sig (Elt F)) : val18 V0 (no_index (Proc.devRef .tc main_c_31)) =
    ((constantI S_ 32 0#32) : (⟨S_, .i32⟩ : BufTy).Contents (Elt F)) := by
  unfold val18
  rw [stage17_main_c_31]
  all_goals (try rfl)
set_option maxRecDepth 8192 in
set_option maxHeartbeats 2000000 in
theorem val18_main_v138 (V0 : Valuation τ sig (Elt F)) : val18 V0 (no_index (Proc.devRef .tc main_v138)) =
    (Gcn.colMean (r_a3 V0)) := by
  unfold val18
  rw [stage17_main_v138]
  simp only [val17_main_v135]
  all_goals (try rfl)
theorem val18_main_arg13 (V0 : Valuation τ sig (Elt F)) : val18 V0 (no_index (Proc.devRef .tc main_arg13)) =
    (V0 (Proc.devRef .tc main_arg13)) :=
  (val18_keep V0 main_arg13 (by decide)).trans (val17_main_arg13 V0)
theorem val18_main_arg14 (V0 : Valuation τ sig (Elt F)) : val18 V0 (no_index (Proc.devRef .tc main_arg14)) =
    (V0 (Proc.devRef .tc main_arg14)) :=
  (val18_keep V0 main_arg14 (by decide)).trans (val17_main_arg14 V0)
theorem val18_main_arg2 (V0 : Valuation τ sig (Elt F)) : val18 V0 (no_index (Proc.devRef .tc main_arg2)) =
    (V0 (Proc.devRef .tc main_arg2)) :=
  (val18_keep V0 main_arg2 (by decide)).trans (val17_main_arg2 V0)
theorem val18_main_arg15 (V0 : Valuation τ sig (Elt F)) : val18 V0 (no_index (Proc.devRef .tc main_arg15)) =
    (V0 (Proc.devRef .tc main_arg15)) :=
  (val18_keep V0 main_arg15 (by decide)).trans (val17_main_arg15 V0)
theorem val18_main_arg16 (V0 : Valuation τ sig (Elt F)) : val18 V0 (no_index (Proc.devRef .tc main_arg16)) =
    (V0 (Proc.devRef .tc main_arg16)) :=
  (val18_keep V0 main_arg16 (by decide)).trans (val17_main_arg16 V0)

/-- The device's buffer contents after the first 19 stages. -/
def val19 (V0 : Valuation τ sig (Elt F)) : Valuation τ sig (Elt F) := after stage18 (val18 V0)
theorem val19_keep (V0 : Valuation τ sig (Elt F)) (r : Ref sig .tc) (h : r ∉ stage18_W) :
    val19 V0 (Proc.devRef .tc r) = val18 V0 (Proc.devRef .tc r) := stage18_keep _ r h
theorem val19_main_v138 (V0 : Valuation τ sig (Elt F)) : val19 V0 (no_index (Proc.devRef .tc main_v138)) =
    (Gcn.colMean (r_a3 V0)) :=
  (val19_keep V0 main_v138 (by decide)).trans (val18_main_v138 V0)
theorem val19_main_v135 (V0 : Valuation τ sig (Elt F)) : val19 V0 (no_index (Proc.devRef .tc main_v135)) =
    (r_a3 V0) :=
  (val19_keep V0 main_v135 (by decide)).trans (val18_main_v135 V0)
set_option maxRecDepth 8192 in
set_option maxHeartbeats 2000000 in
theorem val19_main_v139 (V0 : Valuation τ sig (Elt F)) : val19 V0 (no_index (Proc.devRef .tc main_v139)) =
    (Gcn.colVar (r_a3 V0)) := by
  unfold val19
  rw [stage18_main_v139]
  simp only [val18_main_c_31, val18_main_v135]
  all_goals (try rfl)
theorem val19_main_arg13 (V0 : Valuation τ sig (Elt F)) : val19 V0 (no_index (Proc.devRef .tc main_arg13)) =
    (V0 (Proc.devRef .tc main_arg13)) :=
  (val19_keep V0 main_arg13 (by decide)).trans (val18_main_arg13 V0)
theorem val19_main_arg14 (V0 : Valuation τ sig (Elt F)) : val19 V0 (no_index (Proc.devRef .tc main_arg14)) =
    (V0 (Proc.devRef .tc main_arg14)) :=
  (val19_keep V0 main_arg14 (by decide)).trans (val18_main_arg14 V0)
theorem val19_main_arg2 (V0 : Valuation τ sig (Elt F)) : val19 V0 (no_index (Proc.devRef .tc main_arg2)) =
    (V0 (Proc.devRef .tc main_arg2)) :=
  (val19_keep V0 main_arg2 (by decide)).trans (val18_main_arg2 V0)
theorem val19_main_arg15 (V0 : Valuation τ sig (Elt F)) : val19 V0 (no_index (Proc.devRef .tc main_arg15)) =
    (V0 (Proc.devRef .tc main_arg15)) :=
  (val19_keep V0 main_arg15 (by decide)).trans (val18_main_arg15 V0)
theorem val19_main_arg16 (V0 : Valuation τ sig (Elt F)) : val19 V0 (no_index (Proc.devRef .tc main_arg16)) =
    (V0 (Proc.devRef .tc main_arg16)) :=
  (val19_keep V0 main_arg16 (by decide)).trans (val18_main_arg16 V0)

/-- The device's buffer contents after the first 20 stages. -/
def val20 (V0 : Valuation τ sig (Elt F)) : Valuation τ sig (Elt F) := after stage19 (val19 V0)
theorem val20_keep (V0 : Valuation τ sig (Elt F)) (r : Ref sig .tc) (h : r ∉ stage19_W) :
    val20 V0 (Proc.devRef .tc r) = val19 V0 (Proc.devRef .tc r) := stage19_keep _ r h
set_option maxRecDepth 8192 in
set_option maxHeartbeats 2000000 in
theorem val20_main_v144 (V0 : Valuation τ sig (Elt F)) : val20 V0 (no_index (Proc.devRef .tc main_v144)) =
    (addf ((Gcn.colVar (r_a3 V0))) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F)) := by
  unfold val20
  rw [stage19_main_v144]
  simp only [val19_main_v139]
  all_goals (try rfl)
set_option maxRecDepth 8192 in
set_option maxHeartbeats 2000000 in
theorem val20_main_v142 (V0 : Valuation τ sig (Elt F)) : val20 V0 (no_index (Proc.devRef .tc main_v142)) =
    (subf ((r_a3 V0)) ((broadcastInDim S50000x64 ![0, 1] bcast_S1x64_S50000x64_0_1 ((broadcastInDim S1x64 ![1] bcast_S64_S1x64_1 ((Gcn.colMean (r_a3 V0))) : (⟨S1x64, .f32⟩ : BufTy).Contents (Elt F))) : (⟨S50000x64, .f32⟩ : BufTy).Contents (Elt F))) : (⟨S50000x64, .f32⟩ : BufTy).Contents (Elt F)) := by
  unfold val20
  rw [stage19_main_v142]
  simp only [val19_main_v138, val19_main_v135]
  all_goals (try rfl)
theorem val20_main_arg13 (V0 : Valuation τ sig (Elt F)) : val20 V0 (no_index (Proc.devRef .tc main_arg13)) =
    (V0 (Proc.devRef .tc main_arg13)) :=
  (val20_keep V0 main_arg13 (by decide)).trans (val19_main_arg13 V0)
theorem val20_main_arg14 (V0 : Valuation τ sig (Elt F)) : val20 V0 (no_index (Proc.devRef .tc main_arg14)) =
    (V0 (Proc.devRef .tc main_arg14)) :=
  (val20_keep V0 main_arg14 (by decide)).trans (val19_main_arg14 V0)
theorem val20_main_arg2 (V0 : Valuation τ sig (Elt F)) : val20 V0 (no_index (Proc.devRef .tc main_arg2)) =
    (V0 (Proc.devRef .tc main_arg2)) :=
  (val20_keep V0 main_arg2 (by decide)).trans (val19_main_arg2 V0)
theorem val20_main_arg15 (V0 : Valuation τ sig (Elt F)) : val20 V0 (no_index (Proc.devRef .tc main_arg15)) =
    (V0 (Proc.devRef .tc main_arg15)) :=
  (val20_keep V0 main_arg15 (by decide)).trans (val19_main_arg15 V0)
theorem val20_main_arg16 (V0 : Valuation τ sig (Elt F)) : val20 V0 (no_index (Proc.devRef .tc main_arg16)) =
    (V0 (Proc.devRef .tc main_arg16)) :=
  (val20_keep V0 main_arg16 (by decide)).trans (val19_main_arg16 V0)

/-- The device's buffer contents after the first 21 stages. -/
def val21 (V0 : Valuation τ sig (Elt F)) : Valuation τ sig (Elt F) := after stage20 (val20 V0)
theorem val21_keep (V0 : Valuation τ sig (Elt F)) (r : Ref sig .tc) (h : r ∉ stage20_W) :
    val21 V0 (Proc.devRef .tc r) = val20 V0 (Proc.devRef .tc r) := stage20_keep _ r h
set_option maxRecDepth 8192 in
set_option maxHeartbeats 2000000 in
theorem val21_main_v154 (V0 : Valuation τ sig (Elt F)) : val21 V0 (no_index (Proc.devRef .tc main_v154)) =
    (addf ((mulf ((mulf ((subf ((r_a3 V0)) ((broadcastInDim S50000x64 ![0, 1] bcast_S1x64_S50000x64_0_1 ((broadcastInDim S1x64 ![1] bcast_S64_S1x64_1 ((Gcn.colMean (r_a3 V0))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((Host.rsqrt ((addf ((Gcn.colVar (r_a3 V0))) ((broadcastInDim S64 ![] bcast_S_S64 (((constant S_ .f32 0x3727C5AC#32) : (⟨S_, .f32⟩ : BufTy).Contents (Elt F))) : (⟨S64, .f32⟩ : BufTy).Contents (Elt F))) : (⟨S64, .f32⟩ : BufTy).Contents (Elt F))) : (⟨S64, .f32⟩ : BufTy).Contents (Elt F))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((V0 (Proc.devRef .tc main_arg13))) : (⟨S1x64, .f32⟩ : BufTy).Contents (Elt F))) : (⟨S50000x64, .f32⟩ : BufTy).Contents (Elt F))) : (⟨S50000x64, .f32⟩ : BufTy).Contents (Elt F))) ((broadcastInDim S50000x64 ![0, 1] bcast_S1x64_S50000x64_0_1 ((broadcastInDim S1x64 ![1] bcast_S64_S1x64_1 ((V0 (Proc.devRef .tc main_arg14))) : (⟨S1x64, .f32⟩ : BufTy).Contents (Elt F))) : (⟨S50000x64, .f32⟩ : BufTy).Contents (Elt F))) : (⟨S50000x64, .f32⟩ : BufTy).Contents (Elt F)) := by
  unfold val21
  rw [stage20_main_v154]
  simp only [val20_main_arg14, val20_main_arg13, val20_main_v144, val20_main_v142]
  all_goals (try rfl)
theorem val21_main_arg2 (V0 : Valuation τ sig (Elt F)) : val21 V0 (no_index (Proc.devRef .tc main_arg2)) =
    (V0 (Proc.devRef .tc main_arg2)) :=
  (val21_keep V0 main_arg2 (by decide)).trans (val20_main_arg2 V0)
theorem val21_main_arg15 (V0 : Valuation τ sig (Elt F)) : val21 V0 (no_index (Proc.devRef .tc main_arg15)) =
    (V0 (Proc.devRef .tc main_arg15)) :=
  (val21_keep V0 main_arg15 (by decide)).trans (val20_main_arg15 V0)
theorem val21_main_arg16 (V0 : Valuation τ sig (Elt F)) : val21 V0 (no_index (Proc.devRef .tc main_arg16)) =
    (V0 (Proc.devRef .tc main_arg16)) :=
  (val21_keep V0 main_arg16 (by decide)).trans (val20_main_arg16 V0)

/-- The device's buffer contents after the first 22 stages. -/
def val22 (V0 : Valuation τ sig (Elt F)) : Valuation τ sig (Elt F) := after stage21 (val21 V0)
theorem val22_keep (V0 : Valuation τ sig (Elt F)) (r : Ref sig .tc) (h : r ∉ stage21_W) :
    val22 V0 (Proc.devRef .tc r) = val21 V0 (Proc.devRef .tc r) := stage21_keep _ r h
theorem val22_main_arg2 (V0 : Valuation τ sig (Elt F)) : val22 V0 (no_index (Proc.devRef .tc main_arg2)) =
    (V0 (Proc.devRef .tc main_arg2)) :=
  (val22_keep V0 main_arg2 (by decide)).trans (val21_main_arg2 V0)
set_option maxRecDepth 8192 in
set_option maxHeartbeats 2000000 in
theorem val22_main_v155 (V0 : Valuation τ sig (Elt F)) : val22 V0 (no_index (Proc.devRef .tc main_v155)) =
    (r_h3 V0) := by
  unfold val22
  rw [stage21_main_v155]
  simp only [val21_main_v154]
  all_goals (try rfl)
theorem val22_main_arg15 (V0 : Valuation τ sig (Elt F)) : val22 V0 (no_index (Proc.devRef .tc main_arg15)) =
    (V0 (Proc.devRef .tc main_arg15)) :=
  (val22_keep V0 main_arg15 (by decide)).trans (val21_main_arg15 V0)
theorem val22_main_arg16 (V0 : Valuation τ sig (Elt F)) : val22 V0 (no_index (Proc.devRef .tc main_arg16)) =
    (V0 (Proc.devRef .tc main_arg16)) :=
  (val22_keep V0 main_arg16 (by decide)).trans (val21_main_arg16 V0)

/-- The device's buffer contents after the first 23 stages. -/
def val23 (V0 : Valuation τ sig (Elt F)) : Valuation τ sig (Elt F) := after stage22 (val22 V0)
theorem val23_keep (V0 : Valuation τ sig (Elt F)) (r : Ref sig .tc) (h : r ∉ stage22_W) :
    val23 V0 (Proc.devRef .tc r) = val22 V0 (Proc.devRef .tc r) := stage22_keep _ r h
theorem val23_main_arg2 (V0 : Valuation τ sig (Elt F)) : val23 V0 (no_index (Proc.devRef .tc main_arg2)) =
    (V0 (Proc.devRef .tc main_arg2)) :=
  (val23_keep V0 main_arg2 (by decide)).trans (val22_main_arg2 V0)
set_option maxRecDepth 8192 in
set_option maxHeartbeats 2000000 in
theorem val23_main_v158 (V0 : Valuation τ sig (Elt F)) : val23 V0 (no_index (Proc.devRef .tc main_v158)) =
    (Host.scatterAdd scatter_S500x64_S50000x1_S50000x64_1_0_0_1 ((broadcastInDim S500x64 ![] bcast_S_S500x64 (((constant S_ .f32 0x00000000#32) : (⟨S_, .f32⟩ : BufTy).Contents (Elt F))) : (⟨S500x64, .f32⟩ : BufTy).Contents (Elt F))) ((broadcastInDim S50000x1 ![0] bcast_S50000_S50000x1_0 ((V0 (Proc.devRef .tc main_arg2))) : (⟨S50000x1, .i32⟩ : BufTy).Contents (Elt F))) ((r_h3 V0)) : (⟨S500x64, .f32⟩ : BufTy).Contents (Elt F)) := by
  unfold val23
  rw [stage22_main_v158]
  simp only [val22_main_v155, val22_main_arg2]
  all_goals (try rfl)
theorem val23_main_arg15 (V0 : Valuation τ sig (Elt F)) : val23 V0 (no_index (Proc.devRef .tc main_arg15)) =
    (V0 (Proc.devRef .tc main_arg15)) :=
  (val23_keep V0 main_arg15 (by decide)).trans (val22_main_arg15 V0)
theorem val23_main_arg16 (V0 : Valuation τ sig (Elt F)) : val23 V0 (no_index (Proc.devRef .tc main_arg16)) =
    (V0 (Proc.devRef .tc main_arg16)) :=
  (val23_keep V0 main_arg16 (by decide)).trans (val22_main_arg16 V0)

/-- The device's buffer contents after the first 24 stages. -/
def val24 (V0 : Valuation τ sig (Elt F)) : Valuation τ sig (Elt F) := after stage23 (val23 V0)
theorem val24_keep (V0 : Valuation τ sig (Elt F)) (r : Ref sig .tc) (h : r ∉ stage23_W) :
    val24 V0 (Proc.devRef .tc r) = val23 V0 (Proc.devRef .tc r) := stage23_keep _ r h
set_option maxRecDepth 8192 in
set_option maxHeartbeats 2000000 in
theorem val24_main_v171 (V0 : Valuation τ sig (Elt F)) : val24 V0 (no_index (Proc.devRef .tc main_v171)) =
    (r_out V0) := by
  unfold val24
  rw [stage23_main_v171]
  simp only [val23_main_arg16, val23_main_arg15, val23_main_arg2, val23_main_v158]
  all_goals (try rfl)

/-! ## The fold of all the operations, and the result -/

theorem after_ops (V0 : Valuation τ sig (Elt F)) : after ops V0 = val24 V0 := by
  simp only [ops, ops_part0, ops_part1, ops_part2, ops_part3, after_app]
  rfl

/-- The fold of @main's operations at the result buffer is the network's output over the argument buffers' contents. -/
theorem after_ops_result (V0 : Valuation τ sig (Elt F)) : after ops V0 (Proc.devRef .tc main_v171) = r_out V0 := by
  rw [after_ops]; exact val24_main_v171 V0

/-- The result on device `c` from launch memory `m`: the network applied to the seventeen argument arrays. -/
theorem res_eq (m : (ℓ : Loc nD τ sig) → Buf (Elt F) ℓ) (c : Dev nD) :
    res m c = Gcn.forward (m (c, Proc.devRef .tc main_arg0))
      (m (c, Proc.devRef .tc main_arg1))
      (m (c, Proc.devRef .tc main_arg2))
      (m (c, Proc.devRef .tc main_arg3))
      (m (c, Proc.devRef .tc main_arg4))
      (m (c, Proc.devRef .tc main_arg5))
      (m (c, Proc.devRef .tc main_arg6))
      (m (c, Proc.devRef .tc main_arg7))
      (m (c, Proc.devRef .tc main_arg8))
      (m (c, Proc.devRef .tc main_arg9))
      (m (c, Proc.devRef .tc main_arg10))
      (m (c, Proc.devRef .tc main_arg11))
      (m (c, Proc.devRef .tc main_arg12))
      (m (c, Proc.devRef .tc main_arg13))
      (m (c, Proc.devRef .tc main_arg14))
      (m (c, Proc.devRef .tc main_arg15))
      (m (c, Proc.devRef .tc main_arg16)) :=
  (after_ops_result (launchContents m c)).trans rfl

end Cert.ReferenceIdeal.RefRun

end
-- ==== Proof.KernelHostFns.lean ====
/-
  The kernel program's own small host functions between its regions — a zero vector laid out as a row (the bias handed to
  a dense map), a row of column sums divided by the node count, the mean of squares less the squared mean, a vector laid
  out as a row — as functions of arrays, generic in the float values; and what each holds at an index at the ideal
  values.
-/
import proofs.«120485_j12249246728930_1_alg».proof.KernelIdeal
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HostFns

open Idealize.ShloMosaic Idealize.ShloMosaic.ValueIdx Idealize.SL.Sem Cert.KernelIdeal Cert.KernelIdeal.Facts₀

section Defs
variable {F : FTy → Type} [FloatOps F] [Cert.KernelIdeal.Facts₀]

/-- A zero vector laid out as a row. [1,64] -/
def zeroRow : (⟨S1x64, .f32⟩ : BufTy).Contents (Elt F) :=
  shapeCast S1x64 (broadcastInDim S64 ![] bcast_S_S64 (constant (F := F) S_ .f32 0x00000000#32) : (⟨S64, .f32⟩ : BufTy).Contents (Elt F)) shapeCasts_S64_S1x64
/-- A row of column sums divided by the node count, as a vector. [1,64] → [64] -/
def meanVec (s : (⟨S1x64, .f32⟩ : BufTy).Contents (Elt F)) : (⟨S64, .f32⟩ : BufTy).Contents (Elt F) :=
  shapeCast S64 (Host.divf s (broadcastInDim S1x64 ![] bcast_S_S1x64 (constant (F := F) S_ .f32 0x47435000#32)) : (⟨S1x64, .f32⟩ : BufTy).Contents (Elt F)) shapeCasts_S1x64_S64
/-- The mean of squares less the squared mean. [64] -/
def varVec (s q : (⟨S1x64, .f32⟩ : BufTy).Contents (Elt F)) : (⟨S64, .f32⟩ : BufTy).Contents (Elt F) :=
  subf (meanVec q) (mulf (meanVec s) (meanVec s))
/-- A vector laid out as a row. [64] → [1,64] -/
def asRow (v : (⟨S64, .f32⟩ : BufTy).Contents (Elt F)) : (⟨S1x64, .f32⟩ : BufTy).Contents (Elt F) :=
  shapeCast S1x64 v shapeCasts_S64_S1x64
/-- The output bias laid out as a row. [6] → [1,6] -/
def asRow6 (v : (⟨S6, .f32⟩ : BufTy).Contents (Elt F)) : (⟨S1x6, .f32⟩ : BufTy).Contents (Elt F) :=
  shapeCast S1x6 v shapeCasts_S6_S1x6
end Defs

/-! ## At the ideal values, index by index -/

variable [Cert.KernelIdeal.Facts₀]

theorem asRow_apply (v : FVec Ideal S64 .f32) (q : Fin 64) : asRow (F := Ideal) v (ix2 (0 : Fin 1) q) = v (ix1 q) :=
  shapeCast_a_1a_apply v _ 0 q
theorem asRow6_apply (v : FVec Ideal S6 .f32) (q : Fin 6) : asRow6 (F := Ideal) v (ix2 (0 : Fin 1) q) = v (ix1 q) :=
  shapeCast_a_1a_apply v _ 0 q
theorem zeroRow_apply (q : Fin 64) : zeroRow (F := Ideal) (ix2 (0 : Fin 1) q) = 0 := by
  unfold zeroRow
  rw [shapeCast_a_1a_apply _ _ 0 q, broadcastInDim_scalar_apply]
  show Ideal.ofBits .f32 0x00000000#32 = 0
  exact Ideal.ofBits_zero_f32
theorem meanVec_apply (s : FVec Ideal S1x64 .f32) (q : Fin 64) :
    meanVec (F := Ideal) s (ix1 q) = Ideal.div (s (ix2 (0 : Fin 1) q)) (Ideal.ofBits .f32 0x47435000#32) := by
  unfold meanVec
  rw [shapeCast_1a_a_apply _ _ q, hostDivf_apply, broadcastInDim_scalar_apply]
  rfl
theorem varVec_apply (s sq : FVec Ideal S1x64 .f32) (q : Fin 64) :
    varVec (F := Ideal) s sq (ix1 q)
      = Ideal.div (sq (ix2 (0 : Fin 1) q)) (Ideal.ofBits .f32 0x47435000#32)
        - Ideal.div (s (ix2 (0 : Fin 1) q)) (Ideal.ofBits .f32 0x47435000#32) * Ideal.div (s (ix2 (0 : Fin 1) q)) (Ideal.ofBits .f32 0x47435000#32) := by
  unfold varVec
  rw [subf_apply, mulf_apply, meanVec_apply, meanVec_apply]

end Cert.KernelIdeal.HostFns

end
-- ==== Proof.IdealHost.lean ====
/-
  The host stretches of the kernel program, read as functions: each stretch's results as the composition of its
  operations applied to the buffers it reads — the edge bookkeeping, the degree weights and the aggregation are the
  very functions the reference composes (the two programs share that part of their source); the statistics' division,
  the squared mean subtracted and the vectors laid out as rows are the kernel program's own. And that a buffer no item
  writes is carried from boundary to boundary.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.IdealRun
import proofs.«120485_j12249246728930_1_alg».proof.Proof.Gen.ReferenceIdeal
import proofs.«120485_j12249246728930_1_alg».proof.Proof.GcnLayers
import proofs.«120485_j12249246728930_1_alg».proof.Proof.KernelHostFns
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.HostFns

/-! ## Stretch 0: the edge bookkeeping -/

theorem E1_row (c : Dev nD) : E1 m ρ c main_v5 = Cert.Gcn.rowIdx (F := F) (B0 m ρ c (Proc.devRef .tc main_arg1)) := by
  show StableHlo.after hostOps0 (B0 m ρ c) (Proc.devRef .tc main_v5) = _
  after_results; rfl
theorem E1_col (c : Dev nD) : E1 m ρ c main_v6 = Cert.Gcn.colIdx (F := F) (B0 m ρ c (Proc.devRef .tc main_arg1)) := by
  show StableHlo.after hostOps0 (B0 m ρ c) (Proc.devRef .tc main_v6) = _
  after_results; rfl
set_option maxHeartbeats 4000000 in
theorem E1_w (c : Dev nD) : E1 m ρ c main_v32 = Cert.Gcn.edgeW (F := F) (Cert.Gcn.rowIdx (B0 m ρ c (Proc.devRef .tc main_arg1))) (Cert.Gcn.colIdx (B0 m ρ c (Proc.devRef .tc main_arg1))) (Cert.Gcn.degInv (Cert.Gcn.colIdx (B0 m ρ c (Proc.devRef .tc main_arg1)))) := by
  show StableHlo.after hostOps0 (B0 m ρ c) (Proc.devRef .tc main_v32) = _
  after_results_simp
  rfl
theorem E1_z (c : Dev nD) : E1 m ρ c main_v34 = zeroRow (F := F) := by
  show StableHlo.after hostOps0 (B0 m ρ c) (Proc.devRef .tc main_v34) = _
  after_results; rfl

/-! ## Layer 1: the aggregation (stretch 1), the statistics' host part (stretch 2), the next dense map's zero bias (stretch 3) -/

set_option maxHeartbeats 4000000 in
theorem E3_agg (c : Dev nD) : E3 m ρ c main_v55
    = Cert.Gcn.aggregate (F := F) (E2 m ρ c main_v35) (E2 m ρ c main_arg4) (E2 m ρ c main_v5) (E2 m ρ c main_v6) (E2 m ρ c main_v32) := by
  show StableHlo.after hostOps1 (B2 m ρ c) (Proc.devRef .tc main_v55) = _
  after_results_simp
  rfl
theorem E5_mu (c : Dev nD) : E5 m ρ c main_v65 = asRow (meanVec (F := F) (E4 m ρ c main_v56_0)) := by
  show StableHlo.after hostOps2 (B4 m ρ c) (Proc.devRef .tc main_v65) = _
  after_results; rfl
theorem E5_va (c : Dev nD) : E5 m ρ c main_v66 = asRow (varVec (F := F) (E4 m ρ c main_v56_0) (E4 m ρ c main_v56_1)) := by
  show StableHlo.after hostOps2 (B4 m ρ c) (Proc.devRef .tc main_v66) = _
  after_results; rfl
theorem E5_g (c : Dev nD) : E5 m ρ c main_v67 = asRow (F := F) (E4 m ρ c main_arg5) := by
  show StableHlo.after hostOps2 (B4 m ρ c) (Proc.devRef .tc main_v67) = _
  after_results; rfl
theorem E5_be (c : Dev nD) : E5 m ρ c main_v68 = asRow (F := F) (E4 m ρ c main_arg6) := by
  show StableHlo.after hostOps2 (B4 m ρ c) (Proc.devRef .tc main_v68) = _
  after_results; rfl
theorem E7_z (c : Dev nD) : E7 m ρ c main_v71 = zeroRow (F := F) := by
  show StableHlo.after hostOps3 (B6 m ρ c) (Proc.devRef .tc main_v71) = _
  after_results; rfl

/-! ## Layer 2: the aggregation (stretch 4), the statistics' host part (stretch 5), the next dense map's zero bias (stretch 6) -/

set_option maxHeartbeats 4000000 in
theorem E9_agg (c : Dev nD) : E9 m ρ c main_v92
    = Cert.Gcn.aggregate (F := F) (E8 m ρ c main_v72) (E8 m ρ c main_arg8) (E8 m ρ c main_v5) (E8 m ρ c main_v6) (E8 m ρ c main_v32) := by
  show StableHlo.after hostOps4 (B8 m ρ c) (Proc.devRef .tc main_v92) = _
  after_results_simp
  rfl
theorem E11_mu (c : Dev nD) : E11 m ρ c main_v102 = asRow (meanVec (F := F) (E10 m ρ c main_v93_0)) := by
  show StableHlo.after hostOps5 (B10 m ρ c) (Proc.devRef .tc main_v102) = _
  after_results; rfl
theorem E11_va (c : Dev nD) : E11 m ρ c main_v103 = asRow (varVec (F := F) (E10 m ρ c main_v93_0) (E10 m ρ c main_v93_1)) := by
  show StableHlo.after hostOps5 (B10 m ρ c) (Proc.devRef .tc main_v103) = _
  after_results; rfl
theorem E11_g (c : Dev nD) : E11 m ρ c main_v104 = asRow (F := F) (E10 m ρ c main_arg9) := by
  show StableHlo.after hostOps5 (B10 m ρ c) (Proc.devRef .tc main_v104) = _
  after_results; rfl
theorem E11_be (c : Dev nD) : E11 m ρ c main_v105 = asRow (F := F) (E10 m ρ c main_arg10) := by
  show StableHlo.after hostOps5 (B10 m ρ c) (Proc.devRef .tc main_v105) = _
  after_results; rfl
theorem E13_z (c : Dev nD) : E13 m ρ c main_v108 = zeroRow (F := F) := by
  show StableHlo.after hostOps6 (B12 m ρ c) (Proc.devRef .tc main_v108) = _
  after_results; rfl

/-! ## Layer 3: the aggregation (stretch 7), the statistics' host part (stretch 8) -/

set_option maxHeartbeats 4000000 in
theorem E15_agg (c : Dev nD) : E15 m ρ c main_v129
    = Cert.Gcn.aggregate (F := F) (E14 m ρ c main_v109) (E14 m ρ c main_arg12) (E14 m ρ c main_v5) (E14 m ρ c main_v6) (E14 m ρ c main_v32) := by
  show StableHlo.after hostOps7 (B14 m ρ c) (Proc.devRef .tc main_v129) = _
  after_results_simp
  rfl
theorem E17_mu (c : Dev nD) : E17 m ρ c main_v139 = asRow (meanVec (F := F) (E16 m ρ c main_v130_0)) := by
  show StableHlo.after hostOps8 (B16 m ρ c) (Proc.devRef .tc main_v139) = _
  after_results; rfl
theorem E17_va (c : Dev nD) : E17 m ρ c main_v140 = asRow (varVec (F := F) (E16 m ρ c main_v130_0) (E16 m ρ c main_v130_1)) := by
  show StableHlo.after hostOps8 (B16 m ρ c) (Proc.devRef .tc main_v140) = _
  after_results; rfl
theorem E17_g (c : Dev nD) : E17 m ρ c main_v141 = asRow (F := F) (E16 m ρ c main_arg13) := by
  show StableHlo.after hostOps8 (B16 m ρ c) (Proc.devRef .tc main_v141) = _
  after_results; rfl
theorem E17_be (c : Dev nD) : E17 m ρ c main_v142 = asRow (F := F) (E16 m ρ c main_arg14) := by
  show StableHlo.after hostOps8 (B16 m ρ c) (Proc.devRef .tc main_v142) = _
  after_results; rfl

/-! ## Stretch 9: pooling, and the output bias as a row -/

set_option maxHeartbeats 4000000 in
theorem E19_pool (c : Dev nD) : E19 m ρ c main_v155 = Cert.Gcn.pool (F := F) (E18 m ρ c main_v143) (E18 m ρ c main_arg2) := by
  show StableHlo.after hostOps9 (B18 m ρ c) (Proc.devRef .tc main_v155) = _
  after_results_simp
  rfl
theorem E19_fcb (c : Dev nD) : E19 m ρ c main_v156 = asRow6 (F := F) (E18 m ρ c main_arg16) := by
  show StableHlo.after hostOps9 (B18 m ρ c) (Proc.devRef .tc main_v156) = _
  after_results; rfl

/-! ## Buffers carried from boundary to boundary -/
theorem carry_arg0_0_1 (c : Dev nD) : B1 m ρ c (Proc.devRef .tc main_arg0) = B0 m ρ c (Proc.devRef .tc main_arg0) :=
  (B1_of m ρ c main_arg0 (by decide)).trans <| rfl
theorem carry_arg3_0_1 (c : Dev nD) : B1 m ρ c (Proc.devRef .tc main_arg3) = B0 m ρ c (Proc.devRef .tc main_arg3) :=
  (B1_of m ρ c main_arg3 (by decide)).trans <| rfl
theorem carry_arg4_0_2 (c : Dev nD) : B2 m ρ c (Proc.devRef .tc main_arg4) = B0 m ρ c (Proc.devRef .tc main_arg4) :=
  (B2_of_ne m ρ c main_arg4 (by decide)).trans <| (B1_of m ρ c main_arg4 (by decide)).trans <| rfl
theorem carry_arg5_0_4 (c : Dev nD) : B4 m ρ c (Proc.devRef .tc main_arg5) = B0 m ρ c (Proc.devRef .tc main_arg5) :=
  (B4_of_ne m ρ c main_arg5 (by decide)).trans <| (B3_of m ρ c main_arg5 (by decide)).trans <| (B2_of_ne m ρ c main_arg5 (by decide)).trans <| (B1_of m ρ c main_arg5 (by decide)).trans <| rfl
theorem carry_arg6_0_4 (c : Dev nD) : B4 m ρ c (Proc.devRef .tc main_arg6) = B0 m ρ c (Proc.devRef .tc main_arg6) :=
  (B4_of_ne m ρ c main_arg6 (by decide)).trans <| (B3_of m ρ c main_arg6 (by decide)).trans <| (B2_of_ne m ρ c main_arg6 (by decide)).trans <| (B1_of m ρ c main_arg6 (by decide)).trans <| rfl
theorem carry_arg7_0_7 (c : Dev nD) : B7 m ρ c (Proc.devRef .tc main_arg7) = B0 m ρ c (Proc.devRef .tc main_arg7) :=
  (B7_of m ρ c main_arg7 (by decide)).trans <| (B6_of_ne m ρ c main_arg7 (by decide)).trans <| (B5_of m ρ c main_arg7 (by decide)).trans <| (B4_of_ne m ρ c main_arg7 (by decide)).trans <| (B3_of m ρ c main_arg7 (by decide)).trans <| (B2_of_ne m ρ c main_arg7 (by decide)).trans <| (B1_of m ρ c main_arg7 (by decide)).trans <| rfl
theorem carry_arg8_0_8 (c : Dev nD) : B8 m ρ c (Proc.devRef .tc main_arg8) = B0 m ρ c (Proc.devRef .tc main_arg8) :=
  (B8_of_ne m ρ c main_arg8 (by decide)).trans <| (B7_of m ρ c main_arg8 (by decide)).trans <| (B6_of_ne m ρ c main_arg8 (by decide)).trans <| (B5_of m ρ c main_arg8 (by decide)).trans <| (B4_of_ne m ρ c main_arg8 (by decide)).trans <| (B3_of m ρ c main_arg8 (by decide)).trans <| (B2_of_ne m ρ c main_arg8 (by decide)).trans <| (B1_of m ρ c main_arg8 (by decide)).trans <| rfl
theorem carry_arg9_0_10 (c : Dev nD) : B10 m ρ c (Proc.devRef .tc main_arg9) = B0 m ρ c (Proc.devRef .tc main_arg9) :=
  (B10_of_ne m ρ c main_arg9 (by decide)).trans <| (B9_of m ρ c main_arg9 (by decide)).trans <| (B8_of_ne m ρ c main_arg9 (by decide)).trans <| (B7_of m ρ c main_arg9 (by decide)).trans <| (B6_of_ne m ρ c main_arg9 (by decide)).trans <| (B5_of m ρ c main_arg9 (by decide)).trans <| (B4_of_ne m ρ c main_arg9 (by decide)).trans <| (B3_of m ρ c main_arg9 (by decide)).trans <| (B2_of_ne m ρ c main_arg9 (by decide)).trans <| (B1_of m ρ c main_arg9 (by decide)).trans <| rfl
theorem carry_arg10_0_10 (c : Dev nD) : B10 m ρ c (Proc.devRef .tc main_arg10) = B0 m ρ c (Proc.devRef .tc main_arg10) :=
  (B10_of_ne m ρ c main_arg10 (by decide)).trans <| (B9_of m ρ c main_arg10 (by decide)).trans <| (B8_of_ne m ρ c main_arg10 (by decide)).trans <| (B7_of m ρ c main_arg10 (by decide)).trans <| (B6_of_ne m ρ c main_arg10 (by decide)).trans <| (B5_of m ρ c main_arg10 (by decide)).trans <| (B4_of_ne m ρ c main_arg10 (by decide)).trans <| (B3_of m ρ c main_arg10 (by decide)).trans <| (B2_of_ne m ρ c main_arg10 (by decide)).trans <| (B1_of m ρ c main_arg10 (by decide)).trans <| rfl
theorem carry_arg11_0_13 (c : Dev nD) : B13 m ρ c (Proc.devRef .tc main_arg11) = B0 m ρ c (Proc.devRef .tc main_arg11) :=
  (B13_of m ρ c main_arg11 (by decide)).trans <| (B12_of_ne m ρ c main_arg11 (by decide)).trans <| (B11_of m ρ c main_arg11 (by decide)).trans <| (B10_of_ne m ρ c main_arg11 (by decide)).trans <| (B9_of m ρ c main_arg11 (by decide)).trans <| (B8_of_ne m ρ c main_arg11 (by decide)).trans <| (B7_of m ρ c main_arg11 (by decide)).trans <| (B6_of_ne m ρ c main_arg11 (by decide)).trans <| (B5_of m ρ c main_arg11 (by decide)).trans <| (B4_of_ne m ρ c main_arg11 (by decide)).trans <| (B3_of m ρ c main_arg11 (by decide)).trans <| (B2_of_ne m ρ c main_arg11 (by decide)).trans <| (B1_of m ρ c main_arg11 (by decide)).trans <| rfl
theorem carry_arg12_0_14 (c : Dev nD) : B14 m ρ c (Proc.devRef .tc main_arg12) = B0 m ρ c (Proc.devRef .tc main_arg12) :=
  (B14_of_ne m ρ c main_arg12 (by decide)).trans <| (B13_of m ρ c main_arg12 (by decide)).trans <| (B12_of_ne m ρ c main_arg12 (by decide)).trans <| (B11_of m ρ c main_arg12 (by decide)).trans <| (B10_of_ne m ρ c main_arg12 (by decide)).trans <| (B9_of m ρ c main_arg12 (by decide)).trans <| (B8_of_ne m ρ c main_arg12 (by decide)).trans <| (B7_of m ρ c main_arg12 (by decide)).trans <| (B6_of_ne m ρ c main_arg12 (by decide)).trans <| (B5_of m ρ c main_arg12 (by decide)).trans <| (B4_of_ne m ρ c main_arg12 (by decide)).trans <| (B3_of m ρ c main_arg12 (by decide)).trans <| (B2_of_ne m ρ c main_arg12 (by decide)).trans <| (B1_of m ρ c main_arg12 (by decide)).trans <| rfl
theorem carry_arg13_0_16 (c : Dev nD) : B16 m ρ c (Proc.devRef .tc main_arg13) = B0 m ρ c (Proc.devRef .tc main_arg13) :=
  (B16_of_ne m ρ c main_arg13 (by decide)).trans <| (B15_of m ρ c main_arg13 (by decide)).trans <| (B14_of_ne m ρ c main_arg13 (by decide)).trans <| (B13_of m ρ c main_arg13 (by decide)).trans <| (B12_of_ne m ρ c main_arg13 (by decide)).trans <| (B11_of m ρ c main_arg13 (by decide)).trans <| (B10_of_ne m ρ c main_arg13 (by decide)).trans <| (B9_of m ρ c main_arg13 (by decide)).trans <| (B8_of_ne m ρ c main_arg13 (by decide)).trans <| (B7_of m ρ c main_arg13 (by decide)).trans <| (B6_of_ne m ρ c main_arg13 (by decide)).trans <| (B5_of m ρ c main_arg13 (by decide)).trans <| (B4_of_ne m ρ c main_arg13 (by decide)).trans <| (B3_of m ρ c main_arg13 (by decide)).trans <| (B2_of_ne m ρ c main_arg13 (by decide)).trans <| (B1_of m ρ c main_arg13 (by decide)).trans <| rfl
theorem carry_arg14_0_16 (c : Dev nD) : B16 m ρ c (Proc.devRef .tc main_arg14) = B0 m ρ c (Proc.devRef .tc main_arg14) :=
  (B16_of_ne m ρ c main_arg14 (by decide)).trans <| (B15_of m ρ c main_arg14 (by decide)).trans <| (B14_of_ne m ρ c main_arg14 (by decide)).trans <| (B13_of m ρ c main_arg14 (by decide)).trans <| (B12_of_ne m ρ c main_arg14 (by decide)).trans <| (B11_of m ρ c main_arg14 (by decide)).trans <| (B10_of_ne m ρ c main_arg14 (by decide)).trans <| (B9_of m ρ c main_arg14 (by decide)).trans <| (B8_of_ne m ρ c main_arg14 (by decide)).trans <| (B7_of m ρ c main_arg14 (by decide)).trans <| (B6_of_ne m ρ c main_arg14 (by decide)).trans <| (B5_of m ρ c main_arg14 (by decide)).trans <| (B4_of_ne m ρ c main_arg14 (by decide)).trans <| (B3_of m ρ c main_arg14 (by decide)).trans <| (B2_of_ne m ρ c main_arg14 (by decide)).trans <| (B1_of m ρ c main_arg14 (by decide)).trans <| rfl
theorem carry_arg2_0_18 (c : Dev nD) : B18 m ρ c (Proc.devRef .tc main_arg2) = B0 m ρ c (Proc.devRef .tc main_arg2) :=
  (B18_of_ne m ρ c main_arg2 (by decide)).trans <| (B17_of m ρ c main_arg2 (by decide)).trans <| (B16_of_ne m ρ c main_arg2 (by decide)).trans <| (B15_of m ρ c main_arg2 (by decide)).trans <| (B14_of_ne m ρ c main_arg2 (by decide)).trans <| (B13_of m ρ c main_arg2 (by decide)).trans <| (B12_of_ne m ρ c main_arg2 (by decide)).trans <| (B11_of m ρ c main_arg2 (by decide)).trans <| (B10_of_ne m ρ c main_arg2 (by decide)).trans <| (B9_of m ρ c main_arg2 (by decide)).trans <| (B8_of_ne m ρ c main_arg2 (by decide)).trans <| (B7_of m ρ c main_arg2 (by decide)).trans <| (B6_of_ne m ρ c main_arg2 (by decide)).trans <| (B5_of m ρ c main_arg2 (by decide)).trans <| (B4_of_ne m ρ c main_arg2 (by decide)).trans <| (B3_of m ρ c main_arg2 (by decide)).trans <| (B2_of_ne m ρ c main_arg2 (by decide)).trans <| (B1_of m ρ c main_arg2 (by decide)).trans <| rfl
theorem carry_arg16_0_18 (c : Dev nD) : B18 m ρ c (Proc.devRef .tc main_arg16) = B0 m ρ c (Proc.devRef .tc main_arg16) :=
  (B18_of_ne m ρ c main_arg16 (by decide)).trans <| (B17_of m ρ c main_arg16 (by decide)).trans <| (B16_of_ne m ρ c main_arg16 (by decide)).trans <| (B15_of m ρ c main_arg16 (by decide)).trans <| (B14_of_ne m ρ c main_arg16 (by decide)).trans <| (B13_of m ρ c main_arg16 (by decide)).trans <| (B12_of_ne m ρ c main_arg16 (by decide)).trans <| (B11_of m ρ c main_arg16 (by decide)).trans <| (B10_of_ne m ρ c main_arg16 (by decide)).trans <| (B9_of m ρ c main_arg16 (by decide)).trans <| (B8_of_ne m ρ c main_arg16 (by decide)).trans <| (B7_of m ρ c main_arg16 (by decide)).trans <| (B6_of_ne m ρ c main_arg16 (by decide)).trans <| (B5_of m ρ c main_arg16 (by decide)).trans <| (B4_of_ne m ρ c main_arg16 (by decide)).trans <| (B3_of m ρ c main_arg16 (by decide)).trans <| (B2_of_ne m ρ c main_arg16 (by decide)).trans <| (B1_of m ρ c main_arg16 (by decide)).trans <| rfl
theorem carry_arg15_0_19 (c : Dev nD) : B19 m ρ c (Proc.devRef .tc main_arg15) = B0 m ρ c (Proc.devRef .tc main_arg15) :=
  (B19_of m ρ c main_arg15 (by decide)).trans <| (B18_of_ne m ρ c main_arg15 (by decide)).trans <| (B17_of m ρ c main_arg15 (by decide)).trans <| (B16_of_ne m ρ c main_arg15 (by decide)).trans <| (B15_of m ρ c main_arg15 (by decide)).trans <| (B14_of_ne m ρ c main_arg15 (by decide)).trans <| (B13_of m ρ c main_arg15 (by decide)).trans <| (B12_of_ne m ρ c main_arg15 (by decide)).trans <| (B11_of m ρ c main_arg15 (by decide)).trans <| (B10_of_ne m ρ c main_arg15 (by decide)).trans <| (B9_of m ρ c main_arg15 (by decide)).trans <| (B8_of_ne m ρ c main_arg15 (by decide)).trans <| (B7_of m ρ c main_arg15 (by decide)).trans <| (B6_of_ne m ρ c main_arg15 (by decide)).trans <| (B5_of m ρ c main_arg15 (by decide)).trans <| (B4_of_ne m ρ c main_arg15 (by decide)).trans <| (B3_of m ρ c main_arg15 (by decide)).trans <| (B2_of_ne m ρ c main_arg15 (by decide)).trans <| (B1_of m ρ c main_arg15 (by decide)).trans <| rfl
theorem carry_v5_1_2 (c : Dev nD) : B2 m ρ c (Proc.devRef .tc main_v5) = B1 m ρ c (Proc.devRef .tc main_v5) :=
  (B2_of_ne m ρ c main_v5 (by decide)).trans <| rfl
theorem carry_v6_1_2 (c : Dev nD) : B2 m ρ c (Proc.devRef .tc main_v6) = B1 m ρ c (Proc.devRef .tc main_v6) :=
  (B2_of_ne m ρ c main_v6 (by decide)).trans <| rfl
theorem carry_v32_1_2 (c : Dev nD) : B2 m ρ c (Proc.devRef .tc main_v32) = B1 m ρ c (Proc.devRef .tc main_v32) :=
  (B2_of_ne m ρ c main_v32 (by decide)).trans <| rfl
theorem carry_v5_1_8 (c : Dev nD) : B8 m ρ c (Proc.devRef .tc main_v5) = B1 m ρ c (Proc.devRef .tc main_v5) :=
  (B8_of_ne m ρ c main_v5 (by decide)).trans <| (B7_of m ρ c main_v5 (by decide)).trans <| (B6_of_ne m ρ c main_v5 (by decide)).trans <| (B5_of m ρ c main_v5 (by decide)).trans <| (B4_of_ne m ρ c main_v5 (by decide)).trans <| (B3_of m ρ c main_v5 (by decide)).trans <| (B2_of_ne m ρ c main_v5 (by decide)).trans <| rfl
theorem carry_v6_1_8 (c : Dev nD) : B8 m ρ c (Proc.devRef .tc main_v6) = B1 m ρ c (Proc.devRef .tc main_v6) :=
  (B8_of_ne m ρ c main_v6 (by decide)).trans <| (B7_of m ρ c main_v6 (by decide)).trans <| (B6_of_ne m ρ c main_v6 (by decide)).trans <| (B5_of m ρ c main_v6 (by decide)).trans <| (B4_of_ne m ρ c main_v6 (by decide)).trans <| (B3_of m ρ c main_v6 (by decide)).trans <| (B2_of_ne m ρ c main_v6 (by decide)).trans <| rfl
theorem carry_v32_1_8 (c : Dev nD) : B8 m ρ c (Proc.devRef .tc main_v32) = B1 m ρ c (Proc.devRef .tc main_v32) :=
  (B8_of_ne m ρ c main_v32 (by decide)).trans <| (B7_of m ρ c main_v32 (by decide)).trans <| (B6_of_ne m ρ c main_v32 (by decide)).trans <| (B5_of m ρ c main_v32 (by decide)).trans <| (B4_of_ne m ρ c main_v32 (by decide)).trans <| (B3_of m ρ c main_v32 (by decide)).trans <| (B2_of_ne m ρ c main_v32 (by decide)).trans <| rfl
theorem carry_v5_1_14 (c : Dev nD) : B14 m ρ c (Proc.devRef .tc main_v5) = B1 m ρ c (Proc.devRef .tc main_v5) :=
  (B14_of_ne m ρ c main_v5 (by decide)).trans <| (B13_of m ρ c main_v5 (by decide)).trans <| (B12_of_ne m ρ c main_v5 (by decide)).trans <| (B11_of m ρ c main_v5 (by decide)).trans <| (B10_of_ne m ρ c main_v5 (by decide)).trans <| (B9_of m ρ c main_v5 (by decide)).trans <| (B8_of_ne m ρ c main_v5 (by decide)).trans <| (B7_of m ρ c main_v5 (by decide)).trans <| (B6_of_ne m ρ c main_v5 (by decide)).trans <| (B5_of m ρ c main_v5 (by decide)).trans <| (B4_of_ne m ρ c main_v5 (by decide)).trans <| (B3_of m ρ c main_v5 (by decide)).trans <| (B2_of_ne m ρ c main_v5 (by decide)).trans <| rfl
theorem carry_v6_1_14 (c : Dev nD) : B14 m ρ c (Proc.devRef .tc main_v6) = B1 m ρ c (Proc.devRef .tc main_v6) :=
  (B14_of_ne m ρ c main_v6 (by decide)).trans <| (B13_of m ρ c main_v6 (by decide)).trans <| (B12_of_ne m ρ c main_v6 (by decide)).trans <| (B11_of m ρ c main_v6 (by decide)).trans <| (B10_of_ne m ρ c main_v6 (by decide)).trans <| (B9_of m ρ c main_v6 (by decide)).trans <| (B8_of_ne m ρ c main_v6 (by decide)).trans <| (B7_of m ρ c main_v6 (by decide)).trans <| (B6_of_ne m ρ c main_v6 (by decide)).trans <| (B5_of m ρ c main_v6 (by decide)).trans <| (B4_of_ne m ρ c main_v6 (by decide)).trans <| (B3_of m ρ c main_v6 (by decide)).trans <| (B2_of_ne m ρ c main_v6 (by decide)).trans <| rfl
theorem carry_v32_1_14 (c : Dev nD) : B14 m ρ c (Proc.devRef .tc main_v32) = B1 m ρ c (Proc.devRef .tc main_v32) :=
  (B14_of_ne m ρ c main_v32 (by decide)).trans <| (B13_of m ρ c main_v32 (by decide)).trans <| (B12_of_ne m ρ c main_v32 (by decide)).trans <| (B11_of m ρ c main_v32 (by decide)).trans <| (B10_of_ne m ρ c main_v32 (by decide)).trans <| (B9_of m ρ c main_v32 (by decide)).trans <| (B8_of_ne m ρ c main_v32 (by decide)).trans <| (B7_of m ρ c main_v32 (by decide)).trans <| (B6_of_ne m ρ c main_v32 (by decide)).trans <| (B5_of m ρ c main_v32 (by decide)).trans <| (B4_of_ne m ρ c main_v32 (by decide)).trans <| (B3_of m ρ c main_v32 (by decide)).trans <| (B2_of_ne m ρ c main_v32 (by decide)).trans <| rfl
theorem carry_v55_3_5 (c : Dev nD) : B5 m ρ c (Proc.devRef .tc main_v55) = B3 m ρ c (Proc.devRef .tc main_v55) :=
  (B5_of m ρ c main_v55 (by decide)).trans <| ((B4_arr m ρ c 0).trans (((dat1 (E3 m ρ) c).arrAt_in 0 rfl _).trans (A_eq1 (E3 m ρ) c 0))).trans <| rfl
theorem carry_v92_9_11 (c : Dev nD) : B11 m ρ c (Proc.devRef .tc main_v92) = B9 m ρ c (Proc.devRef .tc main_v92) :=
  (B11_of m ρ c main_v92 (by decide)).trans <| ((B10_arr m ρ c 0).trans (((dat4 (E9 m ρ) c).arrAt_in 0 rfl _).trans (A_eq4 (E9 m ρ) c 0))).trans <| rfl
theorem carry_v129_15_17 (c : Dev nD) : B17 m ρ c (Proc.devRef .tc main_v129) = B15 m ρ c (Proc.devRef .tc main_v129) :=
  (B17_of m ρ c main_v129 (by decide)).trans <| ((B16_arr m ρ c 0).trans (((dat7 (E15 m ρ) c).arrAt_in 0 rfl _).trans (A_eq7 (E15 m ρ) c 0))).trans <| rfl
theorem carry_v69_6_7 (c : Dev nD) : B7 m ρ c (Proc.devRef .tc main_v69) = B6 m ρ c (Proc.devRef .tc main_v69) :=
  (B7_of m ρ c main_v69 (by decide)).trans <| rfl
theorem carry_v106_12_13 (c : Dev nD) : B13 m ρ c (Proc.devRef .tc main_v106) = B12 m ρ c (Proc.devRef .tc main_v106) :=
  (B13_of m ρ c main_v106 (by decide)).trans <| rfl

end Cert.KernelIdeal.Frame

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.LibDotNN.lean ====
/-
  The host's plain matrix product read at an index, and its agreement with the accelerator's at the ideal values.
  For an [M,K] array A and a [K,N] array B (any extents, any well-formedness witness of the dimension numbers):
  the host `dot_general` contracting A's second axis with B's first has entry (a, b) = ∑ c, A (a, c) · B (c, b);
  the accelerator product of the two operands, each first rounded to a narrower float format, accumulated into
  zeros, is the same array — a change of float format is the identity on the extended reals, a zero accumulator
  adds nothing, and both products are the one finite sum over the contracted coordinate.
-/
import Idealize.ShloMosaic.PureOps.Ideal.Laws
import Idealize.ShloMosaic.Lib.ValueIdx
import proofs.«120485_j12249246728930_1_alg».proof.Proof.LibDot2

noncomputable section

open scoped BigOperators

namespace Cert.LibDotNN

open Idealize.ShloMosaic Idealize.ShloMosaic.ValueIdx

variable {M K N : Nat} {φ₁ φ₂ : FTy}

/-- A host `dot_general` of an [M,K] by a [K,N] array, the first contracted on its last axis and the second on its
    first: entry (a, b) is `∑ c, A (a, c) · B (c, b)`. -/
theorem dotGeneral_nn_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (⟨[1], [0], [0], [1], [], [], w⟩ : DotDims ⟨2, ![M, K]⟩ ⟨2, ![K, N]⟩ ⟨2, ![M, N]⟩) prec A B (ix2 a b)
      = ∑ c : Fin K, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The same at any index `j` of the result: the row is `j`'s first coordinate, the column its second. -/
theorem dotGeneral_nn_apply_idx (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (j : (⟨2, ![M, N]⟩ : Shape).Idx) :
    Host.dotGeneral (⟨[1], [0], [0], [1], [], [], w⟩ : DotDims ⟨2, ![M, K]⟩ ⟨2, ![K, N]⟩ ⟨2, ![M, N]⟩) prec A B j
      = ∑ c : Fin K, A (ix2 (j 0) c) * B (ix2 c (j 1)) := by
  have h := dotGeneral_nn_apply w prec A B (j 0) (j 1)
  have e : j = ix2 (j 0) (j 1) := eq_ix2 j
  conv_lhs => rw [e]
  exact h

/-- The accelerator product of the two operands rounded to a narrower format, into a zero accumulator, read at
    (a, b): the sum of the products of the UNROUNDED entries. -/
theorem matmul_rounded_apply (w : DotDims.WF ⟨2, ![M, K]⟩ ⟨2, ![K, N]⟩ ⟨2, ![M, N]⟩ [1] [0] [0] [1] [] [])
    (prec : Option ContractPrecision) (ψ : FTy) (h₁ : ψ.bits < φ₁.bits) (h₂ : ψ.bits < φ₂.bits)
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) prec
        (truncf ψ A h₁) (truncf ψ B h₂) (constant ⟨2, ![M, N]⟩ .f32 0x00000000#32) (ix2 a b)
      = ∑ c : Fin K, A (ix2 a c) * B (ix2 c b) :=
  Cert.LibDot2.matmul_zero_apply w prec (truncf ψ A h₁) (truncf ψ B h₂) a b

end Cert.LibDotNN

end
-- ==== Proof.GcnRead.lean ====
/-
  The network's layer functions read entry by entry at the extended reals: the dense product and the output layer as
  finite sums of products, the normalisation with its positive part as the entry's formula, the column mean as the
  column sum over the node count, and, for an array of real numbers, the column variance as the mean of the squares
  less the square of the mean.
-/
import proofs.«120485_j12249246728930_1_alg».proof.Proof.GcnLayers
import proofs.«120485_j12249246728930_1_alg».proof.Proof.Gen.ReferenceIdeal
import proofs.«120485_j12249246728930_1_alg».proof.Proof.LibDotNN
import Idealize.ShloMosaic.Lib.IdealHost
import Idealize.ShloMosaic.Lib.Pipeline.Value
import Mathlib.Tactic.FieldSimp
import Mathlib.Tactic.Ring
import Mathlib.Tactic.NormNum

noncomputable section

open scoped BigOperators

namespace Cert.Gcn

open Idealize.ShloMosaic Idealize.ShloMosaic.ValueIdx Cert.ReferenceIdeal Cert.ReferenceIdeal.Facts₀

/-! ## Reading the shape operations -/

/-- A vector over the features spread along the nodes — first to one row, then to every row — reads, at node `r` and
    feature `q`, the vector at `q`. -/
theorem bcast2_apply {α : Type} {n : Nat} (h₁ : S64.BroadcastsInDim S1x64 ![1])
    (h₂ : S1x64.BroadcastsInDim (⟨2, ![n, 64]⟩ : Shape) ![0, 1]) (v : S64.Idx → α) (r : Fin n) (q : Fin 64) :
    broadcastInDim (⟨2, ![n, 64]⟩ : Shape) ![0, 1] h₂ (broadcastInDim S1x64 ![1] h₁ v) (ix2 r q) = v (ix1 q) := by
  rw [broadcastInDim_apply ![0, 1] h₂ _ (ix2 r q) (ix2 (0 : Fin 1) q)
        (fun a => match a with | ⟨0, _⟩ => rfl | ⟨1, _⟩ => rfl),
      broadcastInDim_apply ![1] h₁ v (ix2 (0 : Fin 1) q) (ix1 q) (fun a => match a with | ⟨0, _⟩ => rfl)]

/-- The same for the six outputs over the graphs. -/
theorem bcast2_apply6 {α : Type} (h₁ : S6.BroadcastsInDim S1x6 ![1]) (h₂ : S1x6.BroadcastsInDim S500x6 ![0, 1])
    (v : S6.Idx → α) (r : Fin 500) (q : Fin 6) :
    broadcastInDim S500x6 ![0, 1] h₂ (broadcastInDim S1x6 ![1] h₁ v) (ix2 r q) = v (ix1 q) := by
  rw [broadcastInDim_apply ![0, 1] h₂ _ (ix2 r q) (ix2 (0 : Fin 1) q)
        (fun a => match a with | ⟨0, _⟩ => rfl | ⟨1, _⟩ => rfl),
      broadcastInDim_apply ![1] h₁ v (ix2 (0 : Fin 1) q) (ix1 q) (fun a => match a with | ⟨0, _⟩ => rfl)]

/-- The host's reciprocal square root reads entry by entry. -/
theorem hostRsqrt_apply {s : Shape} {φ : FTy} (x : FVec Ideal s φ) (i : s.Idx) : Host.rsqrt x i = Ideal.rsqrt (x i) := rfl

/-! ## (1) The dense product and the output layer -/

/-- The dense product at node `r`, feature `q`: the row of `h` at `r` times the column of `W` at `q`. -/
theorem dense_apply (h : FVec Ideal S50000x64 .f32) (W : FVec Ideal S64x64 .f32) (r : Fin 50000) (q : Fin 64) :
    dense (F := Ideal) h W (ix2 r q) = ∑ k : Fin 64, h (ix2 r k) * W (ix2 k q) :=
  Cert.LibDotNN.dotGeneral_nn_apply (M := 50000) (K := 64) (N := 64)
    dot_S50000x64_S64x64_S50000x64_1_0_0_1_n_n_wf none h W r q

/-- The output layer at graph `r`, output `q`: the row of the pooled features times the column of the output matrix,
    plus the output bias. -/
theorem head_apply (p : FVec Ideal S500x64 .f32) (fcW : FVec Ideal S64x6 .f32) (fcb : FVec Ideal S6 .f32)
    (r : Fin 500) (q : Fin 6) :
    head (F := Ideal) p fcW fcb (ix2 r q) = (∑ k : Fin 64, p (ix2 r k) * fcW (ix2 k q)) + fcb (ix1 q) := by
  have h1 : Host.dotGeneral dot_S500x64_S64x6_S500x6_1_0_0_1_n_n none p fcW (ix2 r q)
      = ∑ k : Fin 64, p (ix2 r k) * fcW (ix2 k q) :=
    Cert.LibDotNN.dotGeneral_nn_apply (M := 500) (K := 64) (N := 6) dot_S500x64_S64x6_S500x6_1_0_0_1_n_n_wf none p fcW r q
  unfold head
  rw [addf_apply, h1, bcast2_apply6]

/-! ## (2) The normalisation and the positive part -/

/-- The normalised, scaled, shifted feature and its positive part at node `r`, feature `q`. -/
theorem bnRelu_apply (h2 : FVec Ideal S50000x64 .f32) (mu va g be : FVec Ideal S64 .f32) (r : Fin 50000) (q : Fin 64) :
    bnRelu (F := Ideal) h2 mu va g be (ix2 r q)
      = max ((h2 (ix2 r q) - mu (ix1 q)) * Ideal.rsqrt (va (ix1 q) + Ideal.ofBits .f32 0x3727C5AC#32) * g (ix1 q)
          + be (ix1 q)) 0 := by
  unfold bnRelu
  rw [maximumf_apply, addf_apply, mulf_apply, mulf_apply, subf_apply, bcast2_apply, bcast2_apply, bcast2_apply,
    bcast2_apply, hostRsqrt_apply, addf_apply, broadcastInDim_scalar_apply, constant_apply,
    broadcastInDim_scalar_apply, constant_apply, Ideal.ofBits_zero_f32]

/-! ## (3) The column mean -/

/-- The node count as a float word is the real 50000. -/
theorem ofBits_nodes : Ideal.ofBits .f32 0x47435000#32 = ((50000 : ℝ) : EReal) := by
  simp [Ideal.ofBits, Ideal.ieee, -EReal.coe_mul]; norm_num

/-- Summing the node axis away: the witness that names the inserted node index. -/
theorem reduces_nodes : S50000x64.Reduces [0] S64 := by decide

/-- The index of the summed array at node `k` over feature `q`. -/
theorem lift_nodes (q : Fin 64) (k : Fin 50000) : reduces_nodes.lift (ix1 q) k = ix2 k q := by
  funext ax; apply Fin.ext
  match ax with
  | ⟨0, _⟩ => rfl
  | ⟨1, _⟩ => rfl

/-- The host's column sum from the zero word, at feature `q`: the sum over the nodes. -/
theorem colSum_apply (x : FVec Ideal S50000x64 .f32) (q : Fin 64) :
    Host.reduceAdd x (constant (F := Ideal) S_ .f32 0x00000000#32) reducesTo_S50000x64_S64_d0 h_S_ (ix1 q)
      = ∑ r : Fin 50000, x (ix2 r q) := by
  rw [hostReduceAdd_apply, Ideal.hostReduceAdd_single reducesTo_S50000x64_S64_d0 reduces_nodes, constant_apply,
    Ideal.ofBits_zero_f32, zero_add]
  exact Finset.sum_congr rfl fun k _ => congrArg x (lift_nodes q k)

/-- The column mean at feature `q`: the column sum divided by the node count's float word. -/
theorem colMean_apply (h2 : FVec Ideal S50000x64 .f32) (q : Fin 64) :
    colMean (F := Ideal) h2 (ix1 q)
      = Ideal.div (∑ r : Fin 50000, h2 (ix2 r q)) (Ideal.ofBits .f32 0x47435000#32) := by
  unfold colMean
  rw [hostDivf_apply, colSum_apply, broadcastInDim_scalar_apply, constant_apply]

/-- … which is the column sum times the real 1/50000. -/
theorem colMean_apply' (h2 : FVec Ideal S50000x64 .f32) (q : Fin 64) :
    colMean (F := Ideal) h2 (ix1 q) = (∑ r : Fin 50000, h2 (ix2 r q)) * (((1 / 50000 : ℝ)) : EReal) := by
  rw [colMean_apply, ofBits_nodes, Ideal.div_coe (by norm_num)]

/-! ## (4) The column variance -/

/-- The variance's divisor — the node count's float word less the converted integer zero — is the real 50000. -/
theorem den_eq : (subf (constant (F := Ideal) S_ .f32 0x47435000#32) (sitofp .f32 (constantI S_ 32 0#32)) :
    FVec Ideal S_ .f32) ix0 = ((50000 : ℝ) : EReal) := by
  have h0 : (sitofp (F := Ideal) .f32 (constantI S_ 32 0#32) : FVec Ideal S_ .f32) ix0 = ((0 : ℝ) : EReal) := by
    show (((BitVec.toInt (0#32) : ℤ) : ℝ) : EReal) = _
    simp
  rw [subf_apply, constant_apply, h0, ofBits_nodes, EReal.coe_zero, sub_zero]

/-- The node count is positive: the outlined function's selection takes the quotient. -/
theorem cmp_nodes : Ideal.cmp .ogt ((50000 : ℝ) : EReal) 0 = 1#1 := by
  unfold Ideal.cmp
  simp [EReal.coe_pos.mpr (by norm_num : (0 : ℝ) < 50000)]

/-- The mean the outlined function subtracts, spread over the nodes, read at node `r`, feature `q`. -/
theorem innerMean_apply (h2 : FVec Ideal S50000x64 .f32) (r : Fin 50000) (q : Fin 64) :
    broadcastInDim S50000x64 ![0, 1] bcast_S1x64_S50000x64_0_1
        (Host.divf (F := Ideal) (φ := .f32)
          (broadcastInDim S1x64 ![1] bcast_S64_S1x64_1
            (Host.reduceAdd h2 (constant (F := Ideal) S_ .f32 0x00000000#32) reducesTo_S50000x64_S64_d0 h_S_))
          (broadcastInDim S1x64 ![] bcast_S_S1x64 (constant (F := Ideal) S_ .f32 0x47435000#32))) (ix2 r q)
      = Ideal.div (∑ r' : Fin 50000, h2 (ix2 r' q)) (Ideal.ofBits .f32 0x47435000#32) := by
  rw [broadcastInDim_apply ![0, 1] bcast_S1x64_S50000x64_0_1 _ (ix2 r q) (ix2 (0 : Fin 1) q)
        (fun a => match a with | ⟨0, _⟩ => rfl | ⟨1, _⟩ => rfl),
    hostDivf_apply,
    broadcastInDim_apply ![1] bcast_S64_S1x64_1 _ (ix2 (0 : Fin 1) q) (ix1 q) (fun a => match a with | ⟨0, _⟩ => rfl),
    colSum_apply, broadcastInDim_scalar_apply, constant_apply]

/-- The column variance at feature `q`, as the outlined function computes it: the sum over the nodes of the squared
    deviation from the column mean, divided by the node count. -/
theorem colVar_apply (h2 : FVec Ideal S50000x64 .f32) (q : Fin 64) :
    colVar (F := Ideal) h2 (ix1 q)
      = Ideal.div (∑ r : Fin 50000,
            (h2 (ix2 r q) - Ideal.div (∑ r' : Fin 50000, h2 (ix2 r' q)) (Ideal.ofBits .f32 0x47435000#32))
              * (h2 (ix2 r q) - Ideal.div (∑ r' : Fin 50000, h2 (ix2 r' q)) (Ideal.ofBits .f32 0x47435000#32)))
          (Ideal.ofBits .f32 0x47435000#32) := by
  unfold colVar
  rw [select_apply, broadcastInDim_scalar_apply, cmpf_apply, den_eq, constant_apply, Ideal.ofBits_zero_f32,
    Ideal.cmpf_def, cmp_nodes, select_one, hostDivf_apply, colSum_apply, broadcastInDim_scalar_apply, den_eq,
    ← ofBits_nodes]
  refine congrArg (fun t => Ideal.div t (Ideal.ofBits .f32 0x47435000#32)) (Finset.sum_congr rfl fun r _ => ?_)
  rw [mulf_apply, subf_apply, innerMean_apply]

/-- The sum of the squared deviations from any `m`. -/
theorem sum_sq_dev {n : ℕ} (x : Fin n → ℝ) (m : ℝ) :
    ∑ r, (x r - m) * (x r - m) = ∑ r, x r * x r - 2 * m * ∑ r, x r + (n : ℝ) * (m * m) := by
  have h : ∀ r, (x r - m) * (x r - m) = x r * x r - 2 * m * x r + m * m := fun r => by ring
  rw [Finset.sum_congr rfl fun r _ => h r, Finset.sum_add_distrib, Finset.sum_sub_distrib, ← Finset.mul_sum,
    Finset.sum_const, Finset.card_univ, Fintype.card_fin, nsmul_eq_mul]

/-- Over the reals: the mean of the squared deviations from the mean is the mean of the squares less the square of
    the mean. -/
theorem var_law_real {n : ℕ} (x : Fin n → ℝ) (N : ℝ) (hN : (n : ℝ) = N) (hN0 : N ≠ 0) :
    (∑ r, (x r - (∑ r', x r') * (1 / N)) * (x r - (∑ r', x r') * (1 / N))) * (1 / N)
      = (∑ r, x r * x r) * (1 / N) - ((∑ r, x r) * (1 / N)) * ((∑ r, x r) * (1 / N)) := by
  rw [sum_sq_dev, hN]
  field_simp
  ring

/-- A finite sum of reals, taken in the extended reals, is the real sum. -/
theorem coe_sum' {κ : Type*} (t : Finset κ) (f : κ → ℝ) : (∑ k ∈ t, ((f k : ℝ) : EReal)) = ((∑ k ∈ t, f k : ℝ) : EReal) := by
  classical
  induction t using Finset.induction_on with
  | empty => simp
  | insert a s ha ih => rw [Finset.sum_insert ha, Finset.sum_insert ha, ih, EReal.coe_add]

/-- THE VARIANCE LAW. For an array of real numbers, the column variance at feature `q` is the column sum of the squares
    over the node count, less the square of the column sum over the node count. -/
theorem colVar_law (h2 : FVec Ideal S50000x64 .f32) (hr : ∀ i, ∃ x : ℝ, h2 i = ((x : ℝ) : EReal)) (q : Fin 64) :
    colVar (F := Ideal) h2 (ix1 q)
      = Ideal.div (∑ r : Fin 50000, h2 (ix2 r q) * h2 (ix2 r q)) (Ideal.ofBits .f32 0x47435000#32)
        - Ideal.div (∑ r : Fin 50000, h2 (ix2 r q)) (Ideal.ofBits .f32 0x47435000#32) * Ideal.div (∑ r : Fin 50000, h2 (ix2 r q)) (Ideal.ofBits .f32 0x47435000#32) := by
  rw [colVar_apply]
  choose x hx using fun r : Fin 50000 => hr (ix2 r q)
  simp only [hx, ofBits_nodes, Ideal.div_coe (y := 50000) (by norm_num), coe_sum', ← EReal.coe_mul, ← EReal.coe_sub]
  exact congrArg (fun t : ℝ => (t : EReal)) (var_law_real x 50000 (by norm_num) (by norm_num))

end Cert.Gcn

end
-- ==== Proof.IdealValLin0.lean ====
/-
  Region 0 of the idealized kernel's @main, read at the extended reals: the array its output window holds after all
  write-backs is, entry (r, q), the sum over k of entry (r, k) of the first operand times entry (k, q) of the second, plus
  entry (0, q) of the one-row third operand. The body's payload at an index (a change of float format is the identity,
  the matrix product into zeros is the finite sum, the row broadcast reads row 0); each grid point writes back its block
  of that one whole-array function (the first operand's block sits at rows block index × 10000 + the row inside the block,
  the other two operands are fetched whole); the blocks cover every row.
-/
import proofs.«120485_j12249246728930_1_alg».proof.Proof.IdealRegion0
import proofs.«120485_j12249246728930_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The zero offsets of a whole-buffer rectangle. -/
theorem zero_off0 : (![0, 0] : Fin 2 → Nat) = fun _ => 0 := funext fun a => by fin_cases a <;> rfl

/-- The body's payload at (p, q): the row of products summed, plus the bias row's entry. -/
theorem pay0_apply (x0 : Vec Ideal S10000x64 .f32) (x1 : Vec Ideal S64x64 .f32) (x2 : Vec Ideal S1x64 .f32)
    (p : Fin 10000) (q : Fin 64) :
    (k0_pay1 x0 x1 x2 : S10000x64.Idx → EReal) (ix2 p q)
      = (∑ k : Fin 64, (x0 : S10000x64.Idx → EReal) (ix2 p k) * (x1 : S64x64.Idx → EReal) (ix2 k q))
        + (x2 : S1x64.Idx → EReal) (ix2 0 q) := by
  have hm := Cert.LibDotNN.matmul_rounded_apply (M := 10000) (K := 64) (N := 64) (φ₁ := .f32) (φ₂ := .f32)
    dot_S10000x64_S64x64_S10000x64_1_0_0_1_n_n.wf none .bf16 bitsLt_bf16_f32 bitsLt_bf16_f32 x0 x1 p q
  have hb := broadcastTo_1b_ab_apply (a := 10000) (b := 64) (x2 : S1x64.Idx → EReal) broadcasts_S1x64_S10000x64 p q
  unfold k0_pay1
  simp only [shapeCast_self]
  exact congrArg₂ (· + ·) hm hb

/-- The printed index maps over the grid: the first operand's and the output's block index on the row axis is the point's
    number, every other block index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The first operand's block at point `t`, at (p, k): the array at row `t` × 10000 + p. -/
theorem read0_0 (c : Dev nD) (t : Fin cfg0.N) (p : Fin 10000) (k : Fin 64) (h : t.val * 10000 + p.val < 50000) :
    (iblk0 V c 0 t : S10000x64.Idx → EReal) (ix2 p k)
      = (V c (Pipeline.arrRef spec0 0) : S50000x64.Idx → EReal) (ix2 ⟨t.val * 10000 + p.val, h⟩ k) := by
  obtain ⟨e0, e1, -⟩ := idx_facts0 t
  show (V c (Pipeline.arrRef spec0 0) : S50000x64.Idx → EReal) (((cfg0.win 0).blk t).view.emb (ix2 p k)) = _
  refine congrArg (V c (Pipeline.arrRef spec0 0) : S50000x64.Idx → EReal) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

/-- The second operand is fetched whole. -/
theorem read0_1 (c : Dev nD) (t : Fin cfg0.N) (k : Fin 64) (q : Fin 64) :
    (iblk0 V c 1 t : S64x64.Idx → EReal) (ix2 k q) = (V c (Pipeline.arrRef spec0 1) : S64x64.Idx → EReal) (ix2 k q) := by
  obtain ⟨-, -, e0, e1, -⟩ := idx_facts0 t
  show (V c (Pipeline.arrRef spec0 1) : S64x64.Idx → EReal) (((cfg0.win 1).blk t).view.emb (ix2 k q)) = _
  refine congrArg (V c (Pipeline.arrRef spec0 1) : S64x64.Idx → EReal) (funext fun a => Fin.ext ?_)
  match a with
  | ⟨0, _⟩ => show win0_1.index t (0 : Fin 2) * 64 + 1 * k.val = k.val; rw [e0]; omega
  | ⟨1, _⟩ => show win0_1.index t (1 : Fin 2) * 64 + 1 * q.val = q.val; rw [e1]; omega

/-- The one-row third operand is fetched whole. -/
theorem read0_2 (c : Dev nD) (t : Fin cfg0.N) (z : Fin 1) (q : Fin 64) :
    (iblk0 V c 2 t : S1x64.Idx → EReal) (ix2 z q) = (V c (Pipeline.arrRef spec0 2) : S1x64.Idx → EReal) (ix2 z q) := by
  obtain ⟨-, -, -, -, e0, e1, -⟩ := idx_facts0 t
  show (V c (Pipeline.arrRef spec0 2) : S1x64.Idx → EReal) (((cfg0.win 2).blk t).view.emb (ix2 z q)) = _
  refine congrArg (V c (Pipeline.arrRef spec0 2) : S1x64.Idx → EReal) (funext fun a => Fin.ext ?_)
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-- Where the output's block at point `t` puts its entry (p, q): row `t` × 10000 + p. -/
theorem emb0_3 (t : Fin cfg0.N) (p : Fin 10000) (q : Fin 64) (h : t.val * 10000 + p.val < 50000) :
    (((cfg0.win 3).blk t).view.emb (ix2 p q) : S50000x64.Idx) = ix2 ⟨t.val * 10000 + p.val, h⟩ q := by
  obtain ⟨-, -, -, -, -, -, e0, e1⟩ := idx_facts0 t
  refine funext fun a => Fin.ext ?_
  match a with
  | ⟨0, _⟩ => show win0_3.index t (0 : Fin 2) * 10000 + 1 * p.val = t.val * 10000 + p.val; rw [e0]; omega
  | ⟨1, _⟩ => show win0_3.index t (1 : Fin 2) * 64 + 1 * q.val = q.val; rw [e1]; omega

/-- The whole-array function the region computes: rows of `A` times `W`, plus the row `b`. -/
def lin0 (A : S50000x64.Idx → EReal) (W : S64x64.Idx → EReal) (b : S1x64.Idx → EReal) : S50000x64.Idx → EReal :=
  fun i => (∑ k : Fin 64, A (ix2 (⟨(i 0).val, idx2_lt0 i⟩ : Fin 50000) k) * W (ix2 k (⟨(i 1).val, idx2_lt1 i⟩ : Fin 64)))
    + b (ix2 0 (⟨(i 1).val, idx2_lt1 i⟩ : Fin 64))

theorem lin0_ix2 (A : S50000x64.Idx → EReal) (W : S64x64.Idx → EReal) (b : S1x64.Idx → EReal) (r : Fin 50000) (q : Fin 64) :
    lin0 A W b (ix2 r q) = (∑ k : Fin 64, A (ix2 r k) * W (ix2 k q)) + b (ix2 0 q) := rfl

set_option maxHeartbeats 2000000 in
/-- What point `t` writes back is its block of `lin0` of the three arrays the region is entered with. -/
theorem flushed0_eq (c : Dev nD) (t : Fin cfg0.N) :
    (dat0 (F := Ideal) V c).flushed 3 t
      = ((cfg0.win 3).blk t).view.read (Elt Ideal)
          (lin0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zero_off0]
  simp only [View.ld_unit_zero (S := S10000x64) zero_off0, View.ld_unit_zero (S := S64x64) zero_off0, View.ld_unit_zero (S := S1x64) zero_off0]
  funext j
  obtain ⟨p, q, rfl⟩ : ∃ (p : Fin 10000) (q : Fin 64), j = ix2 p q := ⟨j 0, j 1, eq_ix2 j⟩
  have hN : t.val < 5 := lt_of_lt_of_eq t.isLt N_0
  have hr : t.val * 10000 + p.val < 50000 := by have := p.isLt; omega
  show (k0_pay1 (iblk0 V c 0 t) (iblk0 V c 1 t) (iblk0 V c 2 t) : S10000x64.Idx → EReal) (ix2 p q)
    = lin0 (V c (Pipeline.arrRef spec0 0)) (V c (Pipeline.arrRef spec0 1)) (V c (Pipeline.arrRef spec0 2))
        (((cfg0.win 3).blk t).view.emb (ix2 p q))
  refine (((pay0_apply (iblk0 V c 0 t) (iblk0 V c 1 t) (iblk0 V c 2 t) p q).trans ?_).trans
      (lin0_ix2 (V c (Pipeline.arrRef spec0 0)) (V c (Pipeline.arrRef spec0 1)) (V c (Pipeline.arrRef spec0 2)) ⟨t.val * 10000 + p.val, hr⟩ q).symm).trans
    (congrArg (lin0 (V c (Pipeline.arrRef spec0 0)) (V c (Pipeline.arrRef spec0 1)) (V c (Pipeline.arrRef spec0 2))) (emb0_3 t p q hr).symm)
  exact congrArg₂ (· + ·)
    (Finset.sum_congr rfl fun k _ => congrArg₂ (· * ·) (read0_0 V c t p k hr) (read0_1 V c t k q))
    (read0_2 V c t 0 q)

/-- An index of the array is in point `t`'s block iff each coordinate is in the block's range on its axis. -/
theorem mem_blk0 (t : Fin cfg0.N) (i : S50000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v35).slice (win0_3.rect t)).set ↔ _
  rw [View.set_slice_whole, Rect.mem_set_unit]
  exact Iff.rfl

/-- Every index is in the block of the point numbered by its row divided by 10000. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 10000 < cfg0.N := lt_of_lt_of_eq (by omega : (i 0).val / 10000 < 5) N_0.symm
  obtain ⟨-, -, -, -, -, -, e0, e1⟩ := idx_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e1]; omega

/-- The output array after all write-backs is `lin0` of the three arrays the region is entered with. -/
theorem final0 (c : Dev nD) :
    (dat0 (F := Ideal) V c).arrAt 3 cfg0.N
      = lin0 (V c (Pipeline.arrRef spec0 0)) (V c (Pipeline.arrRef spec0 1)) (V c (Pipeline.arrRef spec0 2)) :=
  (dat0 (F := Ideal) V c).arrAt_eq_of_cover 3 _ (fun t _ => flushed0_eq V c t) cover0

/-- Entry (r, q) of the output array after the run, the three arrays the region is entered with named `A`, `W`, `b`. -/
theorem lin0_apply (c : Dev nD) (A : S50000x64.Idx → EReal) (W : S64x64.Idx → EReal) (b : S1x64.Idx → EReal)
    (hA : (V c (Pipeline.arrRef spec0 0) : S50000x64.Idx → EReal) = A)
    (hW : (V c (Pipeline.arrRef spec0 1) : S64x64.Idx → EReal) = W)
    (hb : (V c (Pipeline.arrRef spec0 2) : S1x64.Idx → EReal) = b) (r : Fin 50000) (q : Fin 64) :
    ((dat0 (F := Ideal) V c).arrAt 3 cfg0.N : S50000x64.Idx → EReal) (ix2 r q)
      = (∑ k : Fin 64, A (ix2 r k) * W (ix2 k q)) + b (ix2 0 q) := by
  subst hA hW hb
  exact (congrFun (final0 V c) (ix2 r q)).trans (lin0_ix2 _ _ _ r q)

end Cert.KernelIdeal.Val

end
-- ==== Proof.IdealValLin3.lean ====
/-
  Region 3 of the idealized kernel's @main, read at the extended reals: the array its output window holds after all
  write-backs is, entry (r, q), the sum over k of entry (r, k) of the first operand times entry (k, q) of the second, plus
  entry (0, q) of the one-row third operand. The body's payload at an index (a change of float format is the identity,
  the matrix product into zeros is the finite sum, the row broadcast reads row 0); each grid point writes back its block
  of that one whole-array function (the first operand's block sits at rows block index × 10000 + the row inside the block,
  the other two operands are fetched whole); the blocks cover every row.
-/
import proofs.«120485_j12249246728930_1_alg».proof.Proof.IdealRegion3
import proofs.«120485_j12249246728930_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The zero offsets of a whole-buffer rectangle. -/
theorem zero_off3 : (![0, 0] : Fin 2 → Nat) = fun _ => 0 := funext fun a => by fin_cases a <;> rfl

/-- The body's payload at (p, q): the row of products summed, plus the bias row's entry. -/
theorem pay3_apply (x0 : Vec Ideal S10000x64 .f32) (x1 : Vec Ideal S64x64 .f32) (x2 : Vec Ideal S1x64 .f32)
    (p : Fin 10000) (q : Fin 64) :
    (k3_pay1 x0 x1 x2 : S10000x64.Idx → EReal) (ix2 p q)
      = (∑ k : Fin 64, (x0 : S10000x64.Idx → EReal) (ix2 p k) * (x1 : S64x64.Idx → EReal) (ix2 k q))
        + (x2 : S1x64.Idx → EReal) (ix2 0 q) := by
  have hm := Cert.LibDotNN.matmul_rounded_apply (M := 10000) (K := 64) (N := 64) (φ₁ := .f32) (φ₂ := .f32)
    dot_S10000x64_S64x64_S10000x64_1_0_0_1_n_n.wf none .bf16 bitsLt_bf16_f32 bitsLt_bf16_f32 x0 x1 p q
  have hb := broadcastTo_1b_ab_apply (a := 10000) (b := 64) (x2 : S1x64.Idx → EReal) broadcasts_S1x64_S10000x64 p q
  unfold k3_pay1
  simp only [shapeCast_self]
  exact congrArg₂ (· + ·) hm hb

/-- The printed index maps over the grid: the first operand's and the output's block index on the row axis is the point's
    number, every other block index is 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The first operand's block at point `t`, at (p, k): the array at row `t` × 10000 + p. -/
theorem read3_0 (c : Dev nD) (t : Fin cfg3.N) (p : Fin 10000) (k : Fin 64) (h : t.val * 10000 + p.val < 50000) :
    (iblk3 V c 0 t : S10000x64.Idx → EReal) (ix2 p k)
      = (V c (Pipeline.arrRef spec3 0) : S50000x64.Idx → EReal) (ix2 ⟨t.val * 10000 + p.val, h⟩ k) := by
  obtain ⟨e0, e1, -⟩ := idx_facts3 t
  show (V c (Pipeline.arrRef spec3 0) : S50000x64.Idx → EReal) (((cfg3.win 0).blk t).view.emb (ix2 p k)) = _
  refine congrArg (V c (Pipeline.arrRef spec3 0) : S50000x64.Idx → EReal) (funext fun a => Fin.ext ?_)
  match a with
  | ⟨0, _⟩ => show win3_0.index t (0 : Fin 2) * 10000 + 1 * p.val = t.val * 10000 + p.val; rw [e0]; omega
  | ⟨1, _⟩ => show win3_0.index t (1 : Fin 2) * 64 + 1 * k.val = k.val; rw [e1]; omega

/-- The second operand is fetched whole. -/
theorem read3_1 (c : Dev nD) (t : Fin cfg3.N) (k : Fin 64) (q : Fin 64) :
    (iblk3 V c 1 t : S64x64.Idx → EReal) (ix2 k q) = (V c (Pipeline.arrRef spec3 1) : S64x64.Idx → EReal) (ix2 k q) := by
  obtain ⟨-, -, e0, e1, -⟩ := idx_facts3 t
  show (V c (Pipeline.arrRef spec3 1) : S64x64.Idx → EReal) (((cfg3.win 1).blk t).view.emb (ix2 k q)) = _
  refine congrArg (V c (Pipeline.arrRef spec3 1) : S64x64.Idx → EReal) (funext fun a => Fin.ext ?_)
  match a with
  | ⟨0, _⟩ => show win3_1.index t (0 : Fin 2) * 64 + 1 * k.val = k.val; rw [e0]; omega
  | ⟨1, _⟩ => show win3_1.index t (1 : Fin 2) * 64 + 1 * q.val = q.val; rw [e1]; omega

/-- The one-row third operand is fetched whole. -/
theorem read3_2 (c : Dev nD) (t : Fin cfg3.N) (z : Fin 1) (q : Fin 64) :
    (iblk3 V c 2 t : S1x64.Idx → EReal) (ix2 z q) = (V c (Pipeline.arrRef spec3 2) : S1x64.Idx → EReal) (ix2 z q) := by
  obtain ⟨-, -, -, -, e0, e1, -⟩ := idx_facts3 t
  show (V c (Pipeline.arrRef spec3 2) : S1x64.Idx → EReal) (((cfg3.win 2).blk t).view.emb (ix2 z q)) = _
  refine congrArg (V c (Pipeline.arrRef spec3 2) : S1x64.Idx → EReal) (funext fun a => Fin.ext ?_)
  match a with
  | ⟨0, _⟩ => show win3_2.index t (0 : Fin 2) * 1 + 1 * z.val = z.val; rw [e0]; omega
  | ⟨1, _⟩ => show win3_2.index t (1 : Fin 2) * 64 + 1 * q.val = q.val; rw [e1]; omega

/-- Where the output's block at point `t` puts its entry (p, q): row `t` × 10000 + p. -/
theorem emb3_3 (t : Fin cfg3.N) (p : Fin 10000) (q : Fin 64) (h : t.val * 10000 + p.val < 50000) :
    (((cfg3.win 3).blk t).view.emb (ix2 p q) : S50000x64.Idx) = ix2 ⟨t.val * 10000 + p.val, h⟩ q := by
  obtain ⟨-, -, -, -, -, -, e0, e1⟩ := idx_facts3 t
  refine funext fun a => Fin.ext ?_
  match a with
  | ⟨0, _⟩ => show win3_3.index t (0 : Fin 2) * 10000 + 1 * p.val = t.val * 10000 + p.val; rw [e0]; omega
  | ⟨1, _⟩ => show win3_3.index t (1 : Fin 2) * 64 + 1 * q.val = q.val; rw [e1]; omega

/-- The whole-array function the region computes: rows of `A` times `W`, plus the row `b`. -/
def lin3 (A : S50000x64.Idx → EReal) (W : S64x64.Idx → EReal) (b : S1x64.Idx → EReal) : S50000x64.Idx → EReal :=
  fun i => (∑ k : Fin 64, A (ix2 (⟨(i 0).val, idx2_lt0 i⟩ : Fin 50000) k) * W (ix2 k (⟨(i 1).val, idx2_lt1 i⟩ : Fin 64)))
    + b (ix2 0 (⟨(i 1).val, idx2_lt1 i⟩ : Fin 64))

theorem lin3_ix2 (A : S50000x64.Idx → EReal) (W : S64x64.Idx → EReal) (b : S1x64.Idx → EReal) (r : Fin 50000) (q : Fin 64) :
    lin3 A W b (ix2 r q) = (∑ k : Fin 64, A (ix2 r k) * W (ix2 k q)) + b (ix2 0 q) := rfl

set_option maxHeartbeats 2000000 in
/-- What point `t` writes back is its block of `lin3` of the three arrays the region is entered with. -/
theorem flushed3_eq (c : Dev nD) (t : Fin cfg3.N) :
    (dat3 (F := Ideal) V c).flushed 3 t
      = ((cfg3.win 3).blk t).view.read (Elt Ideal)
          (lin3 (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zero_off3]
  simp only [View.ld_unit_zero (S := S10000x64) zero_off3, View.ld_unit_zero (S := S64x64) zero_off3, View.ld_unit_zero (S := S1x64) zero_off3]
  funext j
  obtain ⟨p, q, rfl⟩ : ∃ (p : Fin 10000) (q : Fin 64), j = ix2 p q := ⟨j 0, j 1, eq_ix2 j⟩
  have hN : t.val < 5 := lt_of_lt_of_eq t.isLt N_3
  have hr : t.val * 10000 + p.val < 50000 := by have := p.isLt; omega
  show (k3_pay1 (iblk3 V c 0 t) (iblk3 V c 1 t) (iblk3 V c 2 t) : S10000x64.Idx → EReal) (ix2 p q)
    = lin3 (V c (Pipeline.arrRef spec3 0)) (V c (Pipeline.arrRef spec3 1)) (V c (Pipeline.arrRef spec3 2))
        (((cfg3.win 3).blk t).view.emb (ix2 p q))
  refine (((pay3_apply (iblk3 V c 0 t) (iblk3 V c 1 t) (iblk3 V c 2 t) p q).trans ?_).trans
      (lin3_ix2 (V c (Pipeline.arrRef spec3 0)) (V c (Pipeline.arrRef spec3 1)) (V c (Pipeline.arrRef spec3 2)) ⟨t.val * 10000 + p.val, hr⟩ q).symm).trans
    (congrArg (lin3 (V c (Pipeline.arrRef spec3 0)) (V c (Pipeline.arrRef spec3 1)) (V c (Pipeline.arrRef spec3 2))) (emb3_3 t p q hr).symm)
  exact congrArg₂ (· + ·)
    (Finset.sum_congr rfl fun k _ => congrArg₂ (· * ·) (read3_0 V c t p k hr) (read3_1 V c t k q))
    (read3_2 V c t 0 q)

/-- An index of the array is in point `t`'s block iff each coordinate is in the block's range on its axis. -/
theorem mem_blk3 (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v72).slice (win3_3.rect t)).set ↔ _
  rw [View.set_slice_whole, Rect.mem_set_unit]
  exact Iff.rfl

/-- Every index is in the block of the point numbered by its row divided by 10000. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have ht : (i 0).val / 10000 < cfg3.N := lt_of_lt_of_eq (by omega : (i 0).val / 10000 < 5) N_3.symm
  obtain ⟨-, -, -, -, -, -, e0, e1⟩ := idx_facts3 ⟨(i 0).val / 10000, ht⟩
  refine ⟨⟨(i 0).val / 10000, ht⟩, flush3_3 _, ?_⟩
  rw [mem_blk3]
  intro a
  match a with
  | ⟨0, _⟩ =>
    show win3_3.index ⟨(i 0).val / 10000, ht⟩ (0 : Fin 2) * 10000 ≤ (i 0).val ∧ (i 0).val < win3_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_3.index ⟨(i 0).val / 10000, ht⟩ (1 : Fin 2) * 64 ≤ (i 1).val ∧ (i 1).val < win3_3.index ⟨(i 0).val / 10000, ht⟩ (1 : Fin 2) * 64 + 64
    rw [e1]; omega

/-- The output array after all write-backs is `lin3` of the three arrays the region is entered with. -/
theorem final3 (c : Dev nD) :
    (dat3 (F := Ideal) V c).arrAt 3 cfg3.N
      = lin3 (V c (Pipeline.arrRef spec3 0)) (V c (Pipeline.arrRef spec3 1)) (V c (Pipeline.arrRef spec3 2)) :=
  (dat3 (F := Ideal) V c).arrAt_eq_of_cover 3 _ (fun t _ => flushed3_eq V c t) cover3

/-- Entry (r, q) of the output array after the run, the three arrays the region is entered with named `A`, `W`, `b`. -/
theorem lin3_apply (c : Dev nD) (A : S50000x64.Idx → EReal) (W : S64x64.Idx → EReal) (b : S1x64.Idx → EReal)
    (hA : (V c (Pipeline.arrRef spec3 0) : S50000x64.Idx → EReal) = A)
    (hW : (V c (Pipeline.arrRef spec3 1) : S64x64.Idx → EReal) = W)
    (hb : (V c (Pipeline.arrRef spec3 2) : S1x64.Idx → EReal) = b) (r : Fin 50000) (q : Fin 64) :
    ((dat3 (F := Ideal) V c).arrAt 3 cfg3.N : S50000x64.Idx → EReal) (ix2 r q)
      = (∑ k : Fin 64, A (ix2 r k) * W (ix2 k q)) + b (ix2 0 q) := by
  subst hA hW hb
  exact (congrFun (final3 V c) (ix2 r q)).trans (lin3_ix2 _ _ _ r q)

end Cert.KernelIdeal.Val

end
-- ==== Proof.IdealValLin6.lean ====
/-
  Region 6 of the idealized kernel's @main, read at the extended reals: the array its output window holds after all
  write-backs is, entry (r, q), the sum over k of entry (r, k) of the first operand times entry (k, q) of the second, plus
  entry (0, q) of the one-row third operand. The body's payload at an index (a change of float format is the identity,
  the matrix product into zeros is the finite sum, the row broadcast reads row 0); each grid point writes back its block
  of that one whole-array function (the first operand's block sits at rows block index × 10000 + the row inside the block,
  the other two operands are fetched whole); the blocks cover every row.
-/
import proofs.«120485_j12249246728930_1_alg».proof.Proof.IdealRegion6
import proofs.«120485_j12249246728930_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The zero offsets of a whole-buffer rectangle. -/
theorem zero_off6 : (![0, 0] : Fin 2 → Nat) = fun _ => 0 := funext fun a => by fin_cases a <;> rfl

/-- The body's payload at (p, q): the row of products summed, plus the bias row's entry. -/
theorem pay6_apply (x0 : Vec Ideal S10000x64 .f32) (x1 : Vec Ideal S64x64 .f32) (x2 : Vec Ideal S1x64 .f32)
    (p : Fin 10000) (q : Fin 64) :
    (k6_pay1 x0 x1 x2 : S10000x64.Idx → EReal) (ix2 p q)
      = (∑ k : Fin 64, (x0 : S10000x64.Idx → EReal) (ix2 p k) * (x1 : S64x64.Idx → EReal) (ix2 k q))
        + (x2 : S1x64.Idx → EReal) (ix2 0 q) := by
  have hm := Cert.LibDotNN.matmul_rounded_apply (M := 10000) (K := 64) (N := 64) (φ₁ := .f32) (φ₂ := .f32)
    dot_S10000x64_S64x64_S10000x64_1_0_0_1_n_n.wf none .bf16 bitsLt_bf16_f32 bitsLt_bf16_f32 x0 x1 p q
  have hb := broadcastTo_1b_ab_apply (a := 10000) (b := 64) (x2 : S1x64.Idx → EReal) broadcasts_S1x64_S10000x64 p q
  unfold k6_pay1
  simp only [shapeCast_self]
  exact congrArg₂ (· + ·) hm hb

/-- The printed index maps over the grid: the first operand's and the output's block index on the row axis is the point's
    number, every other block index is 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- The first operand's block at point `t`, at (p, k): the array at row `t` × 10000 + p. -/
theorem read6_0 (c : Dev nD) (t : Fin cfg6.N) (p : Fin 10000) (k : Fin 64) (h : t.val * 10000 + p.val < 50000) :
    (iblk6 V c 0 t : S10000x64.Idx → EReal) (ix2 p k)
      = (V c (Pipeline.arrRef spec6 0) : S50000x64.Idx → EReal) (ix2 ⟨t.val * 10000 + p.val, h⟩ k) := by
  obtain ⟨e0, e1, -⟩ := idx_facts6 t
  show (V c (Pipeline.arrRef spec6 0) : S50000x64.Idx → EReal) (((cfg6.win 0).blk t).view.emb (ix2 p k)) = _
  refine congrArg (V c (Pipeline.arrRef spec6 0) : S50000x64.Idx → EReal) (funext fun a => Fin.ext ?_)
  match a with
  | ⟨0, _⟩ => show win6_0.index t (0 : Fin 2) * 10000 + 1 * p.val = t.val * 10000 + p.val; rw [e0]; omega
  | ⟨1, _⟩ => show win6_0.index t (1 : Fin 2) * 64 + 1 * k.val = k.val; rw [e1]; omega

/-- The second operand is fetched whole. -/
theorem read6_1 (c : Dev nD) (t : Fin cfg6.N) (k : Fin 64) (q : Fin 64) :
    (iblk6 V c 1 t : S64x64.Idx → EReal) (ix2 k q) = (V c (Pipeline.arrRef spec6 1) : S64x64.Idx → EReal) (ix2 k q) := by
  obtain ⟨-, -, e0, e1, -⟩ := idx_facts6 t
  show (V c (Pipeline.arrRef spec6 1) : S64x64.Idx → EReal) (((cfg6.win 1).blk t).view.emb (ix2 k q)) = _
  refine congrArg (V c (Pipeline.arrRef spec6 1) : S64x64.Idx → EReal) (funext fun a => Fin.ext ?_)
  match a with
  | ⟨0, _⟩ => show win6_1.index t (0 : Fin 2) * 64 + 1 * k.val = k.val; rw [e0]; omega
  | ⟨1, _⟩ => show win6_1.index t (1 : Fin 2) * 64 + 1 * q.val = q.val; rw [e1]; omega

/-- The one-row third operand is fetched whole. -/
theorem read6_2 (c : Dev nD) (t : Fin cfg6.N) (z : Fin 1) (q : Fin 64) :
    (iblk6 V c 2 t : S1x64.Idx → EReal) (ix2 z q) = (V c (Pipeline.arrRef spec6 2) : S1x64.Idx → EReal) (ix2 z q) := by
  obtain ⟨-, -, -, -, e0, e1, -⟩ := idx_facts6 t
  show (V c (Pipeline.arrRef spec6 2) : S1x64.Idx → EReal) (((cfg6.win 2).blk t).view.emb (ix2 z q)) = _
  refine congrArg (V c (Pipeline.arrRef spec6 2) : S1x64.Idx → EReal) (funext fun a => Fin.ext ?_)
  match a with
  | ⟨0, _⟩ => show win6_2.index t (0 : Fin 2) * 1 + 1 * z.val = z.val; rw [e0]; omega
  | ⟨1, _⟩ => show win6_2.index t (1 : Fin 2) * 64 + 1 * q.val = q.val; rw [e1]; omega

/-- Where the output's block at point `t` puts its entry (p, q): row `t` × 10000 + p. -/
theorem emb6_3 (t : Fin cfg6.N) (p : Fin 10000) (q : Fin 64) (h : t.val * 10000 + p.val < 50000) :
    (((cfg6.win 3).blk t).view.emb (ix2 p q) : S50000x64.Idx) = ix2 ⟨t.val * 10000 + p.val, h⟩ q := by
  obtain ⟨-, -, -, -, -, -, e0, e1⟩ := idx_facts6 t
  refine funext fun a => Fin.ext ?_
  match a with
  | ⟨0, _⟩ => show win6_3.index t (0 : Fin 2) * 10000 + 1 * p.val = t.val * 10000 + p.val; rw [e0]; omega
  | ⟨1, _⟩ => show win6_3.index t (1 : Fin 2) * 64 + 1 * q.val = q.val; rw [e1]; omega

/-- The whole-array function the region computes: rows of `A` times `W`, plus the row `b`. -/
def lin6 (A : S50000x64.Idx → EReal) (W : S64x64.Idx → EReal) (b : S1x64.Idx → EReal) : S50000x64.Idx → EReal :=
  fun i => (∑ k : Fin 64, A (ix2 (⟨(i 0).val, idx2_lt0 i⟩ : Fin 50000) k) * W (ix2 k (⟨(i 1).val, idx2_lt1 i⟩ : Fin 64)))
    + b (ix2 0 (⟨(i 1).val, idx2_lt1 i⟩ : Fin 64))

theorem lin6_ix2 (A : S50000x64.Idx → EReal) (W : S64x64.Idx → EReal) (b : S1x64.Idx → EReal) (r : Fin 50000) (q : Fin 64) :
    lin6 A W b (ix2 r q) = (∑ k : Fin 64, A (ix2 r k) * W (ix2 k q)) + b (ix2 0 q) := rfl

set_option maxHeartbeats 2000000 in
/-- What point `t` writes back is its block of `lin6` of the three arrays the region is entered with. -/
theorem flushed6_eq (c : Dev nD) (t : Fin cfg6.N) :
    (dat6 (F := Ideal) V c).flushed 3 t
      = ((cfg6.win 3).blk t).view.read (Elt Ideal)
          (lin6 (V c (Pipeline.arrRef spec6 0)) (V c (Pipeline.arrRef spec6 1)) (V c (Pipeline.arrRef spec6 2))) := by
  show (cfg6.win 3).cut (grid6.coords t) ((dat6 (F := Ideal) V c).after 3 t) = _
  rw [after6_3]
  unfold out6_3
  rw [View.canon_unit_zero zero_off6]
  simp only [View.ld_unit_zero (S := S10000x64) zero_off6, View.ld_unit_zero (S := S64x64) zero_off6, View.ld_unit_zero (S := S1x64) zero_off6]
  funext j
  obtain ⟨p, q, rfl⟩ : ∃ (p : Fin 10000) (q : Fin 64), j = ix2 p q := ⟨j 0, j 1, eq_ix2 j⟩
  have hN : t.val < 5 := lt_of_lt_of_eq t.isLt N_6
  have hr : t.val * 10000 + p.val < 50000 := by have := p.isLt; omega
  show (k6_pay1 (iblk6 V c 0 t) (iblk6 V c 1 t) (iblk6 V c 2 t) : S10000x64.Idx → EReal) (ix2 p q)
    = lin6 (V c (Pipeline.arrRef spec6 0)) (V c (Pipeline.arrRef spec6 1)) (V c (Pipeline.arrRef spec6 2))
        (((cfg6.win 3).blk t).view.emb (ix2 p q))
  refine (((pay6_apply (iblk6 V c 0 t) (iblk6 V c 1 t) (iblk6 V c 2 t) p q).trans ?_).trans
      (lin6_ix2 (V c (Pipeline.arrRef spec6 0)) (V c (Pipeline.arrRef spec6 1)) (V c (Pipeline.arrRef spec6 2)) ⟨t.val * 10000 + p.val, hr⟩ q).symm).trans
    (congrArg (lin6 (V c (Pipeline.arrRef spec6 0)) (V c (Pipeline.arrRef spec6 1)) (V c (Pipeline.arrRef spec6 2))) (emb6_3 t p q hr).symm)
  exact congrArg₂ (· + ·)
    (Finset.sum_congr rfl fun k _ => congrArg₂ (· * ·) (read6_0 V c t p k hr) (read6_1 V c t k q))
    (read6_2 V c t 0 q)

/-- An index of the array is in point `t`'s block iff each coordinate is in the block's range on its axis. -/
theorem mem_blk6 (t : Fin cfg6.N) (i : S50000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v109).slice (win6_3.rect t)).set ↔ _
  rw [View.set_slice_whole, Rect.mem_set_unit]
  exact Iff.rfl

/-- Every index is in the block of the point numbered by its row divided by 10000. -/
theorem cover6 (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  have ht : (i 0).val / 10000 < cfg6.N := lt_of_lt_of_eq (by omega : (i 0).val / 10000 < 5) N_6.symm
  obtain ⟨-, -, -, -, -, -, e0, e1⟩ := idx_facts6 ⟨(i 0).val / 10000, ht⟩
  refine ⟨⟨(i 0).val / 10000, ht⟩, flush6_3 _, ?_⟩
  rw [mem_blk6]
  intro a
  match a with
  | ⟨0, _⟩ =>
    show win6_3.index ⟨(i 0).val / 10000, ht⟩ (0 : Fin 2) * 10000 ≤ (i 0).val ∧ (i 0).val < win6_3.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win6_3.index ⟨(i 0).val / 10000, ht⟩ (1 : Fin 2) * 64 ≤ (i 1).val ∧ (i 1).val < win6_3.index ⟨(i 0).val / 10000, ht⟩ (1 : Fin 2) * 64 + 64
    rw [e1]; omega

/-- The output array after all write-backs is `lin6` of the three arrays the region is entered with. -/
theorem final6 (c : Dev nD) :
    (dat6 (F := Ideal) V c).arrAt 3 cfg6.N
      = lin6 (V c (Pipeline.arrRef spec6 0)) (V c (Pipeline.arrRef spec6 1)) (V c (Pipeline.arrRef spec6 2)) :=
  (dat6 (F := Ideal) V c).arrAt_eq_of_cover 3 _ (fun t _ => flushed6_eq V c t) cover6

/-- Entry (r, q) of the output array after the run, the three arrays the region is entered with named `A`, `W`, `b`. -/
theorem lin6_apply (c : Dev nD) (A : S50000x64.Idx → EReal) (W : S64x64.Idx → EReal) (b : S1x64.Idx → EReal)
    (hA : (V c (Pipeline.arrRef spec6 0) : S50000x64.Idx → EReal) = A)
    (hW : (V c (Pipeline.arrRef spec6 1) : S64x64.Idx → EReal) = W)
    (hb : (V c (Pipeline.arrRef spec6 2) : S1x64.Idx → EReal) = b) (r : Fin 50000) (q : Fin 64) :
    ((dat6 (F := Ideal) V c).arrAt 3 cfg6.N : S50000x64.Idx → EReal) (ix2 r q)
      = (∑ k : Fin 64, A (ix2 r k) * W (ix2 k q)) + b (ix2 0 q) := by
  subst hA hW hb
  exact (congrFun (final6 V c) (ix2 r q)).trans (lin6_ix2 _ _ _ r q)

end Cert.KernelIdeal.Val

end
-- ==== Proof.IdealValLin9.lean ====
/-
  Region 9 of the idealized kernel's @main, read at the extended reals: the array its output window holds after all
  write-backs is, entry (r, q), the sum over k of entry (r, k) of the first operand times entry (k, q) of the second, plus
  entry (0, q) of the one-row third operand. The body's payload at an index (a change of float format is the identity,
  the matrix product into zeros is the finite sum, the row broadcast reads row 0); each grid point writes back its block
  of that one whole-array function (the first operand's block sits at rows block index × 500 + the row inside the block,
  the other two operands are fetched whole); the blocks cover every row.
-/
import proofs.«120485_j12249246728930_1_alg».proof.Proof.IdealRegion9
import proofs.«120485_j12249246728930_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The zero offsets of a whole-buffer rectangle. -/
theorem zero_off9 : (![0, 0] : Fin 2 → Nat) = fun _ => 0 := funext fun a => by fin_cases a <;> rfl

/-- The body's payload at (p, q): the row of products summed, plus the bias row's entry. -/
theorem pay9_apply (x0 : Vec Ideal S500x64 .f32) (x1 : Vec Ideal S64x6 .f32) (x2 : Vec Ideal S1x6 .f32)
    (p : Fin 500) (q : Fin 6) :
    (k9_pay1 x0 x1 x2 : S500x6.Idx → EReal) (ix2 p q)
      = (∑ k : Fin 64, (x0 : S500x64.Idx → EReal) (ix2 p k) * (x1 : S64x6.Idx → EReal) (ix2 k q))
        + (x2 : S1x6.Idx → EReal) (ix2 0 q) := by
  have hm := Cert.LibDotNN.matmul_rounded_apply (M := 500) (K := 64) (N := 6) (φ₁ := .f32) (φ₂ := .f32)
    dot_S500x64_S64x6_S500x6_1_0_0_1_n_n.wf none .bf16 bitsLt_bf16_f32 bitsLt_bf16_f32 x0 x1 p q
  have hb := broadcastTo_1b_ab_apply (a := 500) (b := 6) (x2 : S1x6.Idx → EReal) broadcasts_S1x6_S500x6 p q
  unfold k9_pay1
  simp only [shapeCast_self]
  exact congrArg₂ (· + ·) hm hb

/-- The printed index maps over the grid: the first operand's and the output's block index on the row axis is the point's
    number, every other block index is 0. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

variable (V : (c : Dev nD) → (b : Ref sig .tc) → Buf (Elt Ideal) ((c : Thread nD τ).loc b))

/-- The first operand's block at point `t`, at (p, k): the array at row `t` × 500 + p. -/
theorem read9_0 (c : Dev nD) (t : Fin cfg9.N) (p : Fin 500) (k : Fin 64) (h : t.val * 500 + p.val < 500) :
    (iblk9 V c 0 t : S500x64.Idx → EReal) (ix2 p k)
      = (V c (Pipeline.arrRef spec9 0) : S500x64.Idx → EReal) (ix2 ⟨t.val * 500 + p.val, h⟩ k) := by
  obtain ⟨e0, e1, -⟩ := idx_facts9 t
  show (V c (Pipeline.arrRef spec9 0) : S500x64.Idx → EReal) (((cfg9.win 0).blk t).view.emb (ix2 p k)) = _
  refine congrArg (V c (Pipeline.arrRef spec9 0) : S500x64.Idx → EReal) (funext fun a => Fin.ext ?_)
  match a with
  | ⟨0, _⟩ => show win9_0.index t (0 : Fin 2) * 500 + 1 * p.val = t.val * 500 + p.val; rw [e0]; omega
  | ⟨1, _⟩ => show win9_0.index t (1 : Fin 2) * 64 + 1 * k.val = k.val; rw [e1]; omega

/-- The second operand is fetched whole. -/
theorem read9_1 (c : Dev nD) (t : Fin cfg9.N) (k : Fin 64) (q : Fin 6) :
    (iblk9 V c 1 t : S64x6.Idx → EReal) (ix2 k q) = (V c (Pipeline.arrRef spec9 1) : S64x6.Idx → EReal) (ix2 k q) := by
  obtain ⟨-, -, e0, e1, -⟩ := idx_facts9 t
  show (V c (Pipeline.arrRef spec9 1) : S64x6.Idx → EReal) (((cfg9.win 1).blk t).view.emb (ix2 k q)) = _
  refine congrArg (V c (Pipeline.arrRef spec9 1) : S64x6.Idx → EReal) (funext fun a => Fin.ext ?_)
  match a with
  | ⟨0, _⟩ => show win9_1.index t (0 : Fin 2) * 64 + 1 * k.val = k.val; rw [e0]; omega
  | ⟨1, _⟩ => show win9_1.index t (1 : Fin 2) * 6 + 1 * q.val = q.val; rw [e1]; omega

/-- The one-row third operand is fetched whole. -/
theorem read9_2 (c : Dev nD) (t : Fin cfg9.N) (z : Fin 1) (q : Fin 6) :
    (iblk9 V c 2 t : S1x6.Idx → EReal) (ix2 z q) = (V c (Pipeline.arrRef spec9 2) : S1x6.Idx → EReal) (ix2 z q) := by
  obtain ⟨-, -, -, -, e0, e1, -⟩ := idx_facts9 t
  show (V c (Pipeline.arrRef spec9 2) : S1x6.Idx → EReal) (((cfg9.win 2).blk t).view.emb (ix2 z q)) = _
  refine congrArg (V c (Pipeline.arrRef spec9 2) : S1x6.Idx → EReal) (funext fun a => Fin.ext ?_)
  match a with
  | ⟨0, _⟩ => show win9_2.index t (0 : Fin 2) * 1 + 1 * z.val = z.val; rw [e0]; omega
  | ⟨1, _⟩ => show win9_2.index t (1 : Fin 2) * 6 + 1 * q.val = q.val; rw [e1]; omega

/-- Where the output's block at point `t` puts its entry (p, q): row `t` × 500 + p. -/
theorem emb9_3 (t : Fin cfg9.N) (p : Fin 500) (q : Fin 6) (h : t.val * 500 + p.val < 500) :
    (((cfg9.win 3).blk t).view.emb (ix2 p q) : S500x6.Idx) = ix2 ⟨t.val * 500 + p.val, h⟩ q := by
  obtain ⟨-, -, -, -, -, -, e0, e1⟩ := idx_facts9 t
  refine funext fun a => Fin.ext ?_
  match a with
  | ⟨0, _⟩ => show win9_3.index t (0 : Fin 2) * 500 + 1 * p.val = t.val * 500 + p.val; rw [e0]; omega
  | ⟨1, _⟩ => show win9_3.index t (1 : Fin 2) * 6 + 1 * q.val = q.val; rw [e1]; omega

/-- The whole-array function the region computes: rows of `A` times `W`, plus the row `b`. -/
def lin9 (A : S500x64.Idx → EReal) (W : S64x6.Idx → EReal) (b : S1x6.Idx → EReal) : S500x6.Idx → EReal :=
  fun i => (∑ k : Fin 64, A (ix2 (⟨(i 0).val, idx2_lt0 i⟩ : Fin 500) k) * W (ix2 k (⟨(i 1).val, idx2_lt1 i⟩ : Fin 6)))
    + b (ix2 0 (⟨(i 1).val, idx2_lt1 i⟩ : Fin 6))

theorem lin9_ix2 (A : S500x64.Idx → EReal) (W : S64x6.Idx → EReal) (b : S1x6.Idx → EReal) (r : Fin 500) (q : Fin 6) :
    lin9 A W b (ix2 r q) = (∑ k : Fin 64, A (ix2 r k) * W (ix2 k q)) + b (ix2 0 q) := rfl

set_option maxHeartbeats 2000000 in
/-- What point `t` writes back is its block of `lin9` of the three arrays the region is entered with. -/
theorem flushed9_eq (c : Dev nD) (t : Fin cfg9.N) :
    (dat9 (F := Ideal) V c).flushed 3 t
      = ((cfg9.win 3).blk t).view.read (Elt Ideal)
          (lin9 (V c (Pipeline.arrRef spec9 0)) (V c (Pipeline.arrRef spec9 1)) (V c (Pipeline.arrRef spec9 2))) := by
  show (cfg9.win 3).cut (grid9.coords t) ((dat9 (F := Ideal) V c).after 3 t) = _
  rw [after9_3]
  unfold out9_3
  rw [View.canon_unit_zero zero_off9]
  simp only [View.ld_unit_zero (S := S500x64) zero_off9, View.ld_unit_zero (S := S64x6) zero_off9, View.ld_unit_zero (S := S1x6) zero_off9]
  funext j
  obtain ⟨p, q, rfl⟩ : ∃ (p : Fin 500) (q : Fin 6), j = ix2 p q := ⟨j 0, j 1, eq_ix2 j⟩
  have hN : t.val < 1 := lt_of_lt_of_eq t.isLt N_9
  have hr : t.val * 500 + p.val < 500 := by have := p.isLt; omega
  show (k9_pay1 (iblk9 V c 0 t) (iblk9 V c 1 t) (iblk9 V c 2 t) : S500x6.Idx → EReal) (ix2 p q)
    = lin9 (V c (Pipeline.arrRef spec9 0)) (V c (Pipeline.arrRef spec9 1)) (V c (Pipeline.arrRef spec9 2))
        (((cfg9.win 3).blk t).view.emb (ix2 p q))
  refine (((pay9_apply (iblk9 V c 0 t) (iblk9 V c 1 t) (iblk9 V c 2 t) p q).trans ?_).trans
      (lin9_ix2 (V c (Pipeline.arrRef spec9 0)) (V c (Pipeline.arrRef spec9 1)) (V c (Pipeline.arrRef spec9 2)) ⟨t.val * 500 + p.val, hr⟩ q).symm).trans
    (congrArg (lin9 (V c (Pipeline.arrRef spec9 0)) (V c (Pipeline.arrRef spec9 1)) (V c (Pipeline.arrRef spec9 2))) (emb9_3 t p q hr).symm)
  exact congrArg₂ (· + ·)
    (Finset.sum_congr rfl fun k _ => congrArg₂ (· * ·) (read9_0 V c t p k hr) (read9_1 V c t k q))
    (read9_2 V c t 0 q)

/-- An index of the array is in point `t`'s block iff each coordinate is in the block's range on its axis. -/
theorem mem_blk9 (t : Fin cfg9.N) (i : S500x6.Idx) :
    i ∈ ((cfg9.win 3).blk t).view.set ↔ ∀ a : Fin 2, win9_3.index t a * S500x6.size a ≤ (i a).val ∧ (i a).val < win9_3.index t a * S500x6.size a + S500x6.size a := by
  show i ∈ ((View.whole main_v157).slice (win9_3.rect t)).set ↔ _
  rw [View.set_slice_whole, Rect.mem_set_unit]
  exact Iff.rfl

/-- Every index is in the block of the point numbered by its row divided by 500. -/
theorem cover9 (i : S500x6.Idx) : ∃ t : Fin cfg9.N, (cfg9.win 3).flush t = true ∧ i ∈ ((cfg9.win 3).blk t).view.set := by
  have hi0 : (i 0).val < 500 := (i 0).isLt
  have hi1 : (i 1).val < 6 := (i 1).isLt
  have ht : (i 0).val / 500 < cfg9.N := lt_of_lt_of_eq (by omega : (i 0).val / 500 < 1) N_9.symm
  obtain ⟨-, -, -, -, -, -, e0, e1⟩ := idx_facts9 ⟨(i 0).val / 500, ht⟩
  refine ⟨⟨(i 0).val / 500, ht⟩, flush9_3 _, ?_⟩
  rw [mem_blk9]
  intro a
  match a with
  | ⟨0, _⟩ =>
    show win9_3.index ⟨(i 0).val / 500, ht⟩ (0 : Fin 2) * 500 ≤ (i 0).val ∧ (i 0).val < win9_3.index ⟨(i 0).val / 500, ht⟩ (0 : Fin 2) * 500 + 500
    rw [e0]; show (i 0).val / 500 * 500 ≤ (i 0).val ∧ (i 0).val < (i 0).val / 500 * 500 + 500; omega
  | ⟨1, _⟩ =>
    show win9_3.index ⟨(i 0).val / 500, ht⟩ (1 : Fin 2) * 6 ≤ (i 1).val ∧ (i 1).val < win9_3.index ⟨(i 0).val / 500, ht⟩ (1 : Fin 2) * 6 + 6
    rw [e1]; omega

/-- The output array after all write-backs is `lin9` of the three arrays the region is entered with. -/
theorem final9 (c : Dev nD) :
    (dat9 (F := Ideal) V c).arrAt 3 cfg9.N
      = lin9 (V c (Pipeline.arrRef spec9 0)) (V c (Pipeline.arrRef spec9 1)) (V c (Pipeline.arrRef spec9 2)) :=
  (dat9 (F := Ideal) V c).arrAt_eq_of_cover 3 _ (fun t _ => flushed9_eq V c t) cover9

/-- Entry (r, q) of the output array after the run, the three arrays the region is entered with named `A`, `W`, `b`. -/
theorem lin9_apply (c : Dev nD) (A : S500x64.Idx → EReal) (W : S64x6.Idx → EReal) (b : S1x6.Idx → EReal)
    (hA : (V c (Pipeline.arrRef spec9 0) : S500x64.Idx → EReal) = A)
    (hW : (V c (Pipeline.arrRef spec9 1) : S64x6.Idx → EReal) = W)
    (hb : (V c (Pipeline.arrRef spec9 2) : S1x6.Idx → EReal) = b) (r : Fin 500) (q : Fin 6) :
    ((dat9 (F := Ideal) V c).arrAt 3 cfg9.N : S500x6.Idx → EReal) (ix2 r q)
      = (∑ k : Fin 64, A (ix2 r k) * W (ix2 k q)) + b (ix2 0 q) := by
  subst hA hW hb
  exact (congrFun (final9 V c) (ix2 r q)).trans (lin9_ix2 _ _ _ r q)

end Cert.KernelIdeal.Val

end
-- ==== Proof.IdealValBn2.lean ====
/-
  Region 2 of the idealized kernel's @main, read at the extended reals: the array its output window holds after all
  write-backs is, entry (r, q), max ((((h (r, q) − mu (0, q)) · rsqrt (var (0, q) + ε)) · g (0, q)) + be (0, q)) 0 of the
  five arrays the region is entered with, in the body's own order of operations. The body's payload at an index (every
  operation is pointwise, a row broadcast reads row 0, a shape cast to the same shape is the identity); each grid point
  writes back its block of that one whole-array function (the first operand's block sits at rows block index × 10000 + the
  row inside the block, the four one-row operands are fetched whole); the blocks cover every row.
-/
import proofs.«120485_j12249246728930_1_alg».proof.Proof.IdealRegion2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The zero offsets of a whole-buffer rectangle. -/
theorem zero_off2 : (![0, 0] : Fin 2 → Nat) = fun _ => 0 := funext fun a => by fin_cases a <;> rfl

/-- The body's arithmetic on one entry and the four row entries, in the body's order. -/
def bnAt2 (h mu var g be : EReal) : EReal :=
  max ((((h - mu) * Ideal.rsqrt (var + Ideal.ofBits .f32 0x3727C5AC#32)) * g) + be) (Ideal.ofBits .f32 0x00000000#32)

/-- The body's payload at (p, q). -/
theorem pay2_apply (x0 : Vec Ideal S10000x64 .f32) (x1 x2 x3 x4 : Vec Ideal S1x64 .f32) (p : Fin 10000) (q : Fin 64) :
    (k2_pay1 x0 x1 x2 x3 x4 : S10000x64.Idx → EReal) (ix2 p q)
      = bnAt2 ((x0 : S10000x64.Idx → EReal) (ix2 p q)) ((x1 : S1x64.Idx → EReal) (ix2 0 q)) ((x2 : S1x64.Idx → EReal) (ix2 0 q))
          ((x3 : S1x64.Idx → EReal) (ix2 0 q)) ((x4 : S1x64.Idx → EReal) (ix2 0 q)) := by
  have b1 := broadcastTo_1b_ab_apply (a := 10000) (b := 64) (x1 : S1x64.Idx → EReal) broadcasts_S1x64_S10000x64 p q
  have b2 := broadcastTo_1b_ab_apply (a := 10000) (b := 64)
    (rsqrt (addf (x2 : FVec Ideal S1x64 .f32) (broadcast S1x64 (Scalar.ofBits (F := Ideal) .f32 0x3727C5AC#32))) : S1x64.Idx → EReal)
    broadcasts_S1x64_S10000x64 p q
  have b3 := broadcastTo_1b_ab_apply (a := 10000) (b := 64) (x3 : S1x64.Idx → EReal) broadcasts_S1x64_S10000x64 p q
  have b4 := broadcastTo_1b_ab_apply (a := 10000) (b := 64) (x4 : S1x64.Idx → EReal) broadcasts_S1x64_S10000x64 p q
  unfold k2_pay1 bnAt2
  simp only [shapeCast_self]
  exact congrArg₂ max (congrArg₂ (· + ·) (congrArg₂ (· * ·) (congrArg₂ (· * ·) (congrArg₂ (· - ·) rfl b1) b2) b3) b4) rfl

/-- The printed index maps over the grid: the first operand's and the output's block index on the row axis is the point's
    number, every other block index is 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- The first operand's block at point `t`, at (p, q): the array at row `t` × 10000 + p. -/
theorem read2_0 (c : Dev nD) (t : Fin cfg2.N) (p : Fin 10000) (q : Fin 64) (h : t.val * 10000 + p.val < 50000) :
    (iblk2 V c 0 t : S10000x64.Idx → EReal) (ix2 p q)
      = (V c (Pipeline.arrRef spec2 0) : S50000x64.Idx → EReal) (ix2 ⟨t.val * 10000 + p.val, h⟩ q) := by
  have e := idx_facts2 t
  show (V c (Pipeline.arrRef spec2 0) : S50000x64.Idx → EReal) (((cfg2.win 0).blk t).view.emb (ix2 p q)) = _
  refine congrArg (V c (Pipeline.arrRef spec2 0) : S50000x64.Idx → EReal) (funext fun a => Fin.ext ?_)
  match a with
  | ⟨0, _⟩ => show win2_0.index t (0 : Fin 2) * 10000 + 1 * p.val = t.val * 10000 + p.val; rw [e.1]; omega
  | ⟨1, _⟩ => show win2_0.index t (1 : Fin 2) * 64 + 1 * q.val = q.val; rw [e.2.1]; omega

/-- The one-row second operand is fetched whole. -/
theorem read2_1 (c : Dev nD) (t : Fin cfg2.N) (z : Fin 1) (q : Fin 64) :
    (iblk2 V c 1 t : S1x64.Idx → EReal) (ix2 z q) = (V c (Pipeline.arrRef spec2 1) : S1x64.Idx → EReal) (ix2 z q) := by
  have e := idx_facts2 t
  show (V c (Pipeline.arrRef spec2 1) : S1x64.Idx → EReal) (((cfg2.win 1).blk t).view.emb (ix2 z q)) = _
  refine congrArg (V c (Pipeline.arrRef spec2 1) : S1x64.Idx → EReal) (funext fun a => Fin.ext ?_)
  match a with
  | ⟨0, _⟩ => show win2_1.index t (0 : Fin 2) * 1 + 1 * z.val = z.val; rw [e.2.2.1]; omega
  | ⟨1, _⟩ => show win2_1.index t (1 : Fin 2) * 64 + 1 * q.val = q.val; rw [e.2.2.2.1]; omega

/-- The one-row third operand is fetched whole. -/
theorem read2_2 (c : Dev nD) (t : Fin cfg2.N) (z : Fin 1) (q : Fin 64) :
    (iblk2 V c 2 t : S1x64.Idx → EReal) (ix2 z q) = (V c (Pipeline.arrRef spec2 2) : S1x64.Idx → EReal) (ix2 z q) := by
  have e := idx_facts2 t
  show (V c (Pipeline.arrRef spec2 2) : S1x64.Idx → EReal) (((cfg2.win 2).blk t).view.emb (ix2 z q)) = _
  refine congrArg (V c (Pipeline.arrRef spec2 2) : S1x64.Idx → EReal) (funext fun a => Fin.ext ?_)
  match a with
  | ⟨0, _⟩ => show win2_2.index t (0 : Fin 2) * 1 + 1 * z.val = z.val; rw [e.2.2.2.2.1]; omega
  | ⟨1, _⟩ => show win2_2.index t (1 : Fin 2) * 64 + 1 * q.val = q.val; rw [e.2.2.2.2.2.1]; omega

/-- The one-row fourth operand is fetched whole. -/
theorem read2_3 (c : Dev nD) (t : Fin cfg2.N) (z : Fin 1) (q : Fin 64) :
    (iblk2 V c 3 t : S1x64.Idx → EReal) (ix2 z q) = (V c (Pipeline.arrRef spec2 3) : S1x64.Idx → EReal) (ix2 z q) := by
  have e := idx_facts2 t
  show (V c (Pipeline.arrRef spec2 3) : S1x64.Idx → EReal) (((cfg2.win 3).blk t).view.emb (ix2 z q)) = _
  refine congrArg (V c (Pipeline.arrRef spec2 3) : S1x64.Idx → EReal) (funext fun a => Fin.ext ?_)
  match a with
  | ⟨0, _⟩ => show win2_3.index t (0 : Fin 2) * 1 + 1 * z.val = z.val; rw [e.2.2.2.2.2.2.1]; omega
  | ⟨1, _⟩ => show win2_3.index t (1 : Fin 2) * 64 + 1 * q.val = q.val; rw [e.2.2.2.2.2.2.2.1]; omega

/-- The one-row fifth operand is fetched whole. -/
theorem read2_4 (c : Dev nD) (t : Fin cfg2.N) (z : Fin 1) (q : Fin 64) :
    (iblk2 V c 4 t : S1x64.Idx → EReal) (ix2 z q) = (V c (Pipeline.arrRef spec2 4) : S1x64.Idx → EReal) (ix2 z q) := by
  have e := idx_facts2 t
  show (V c (Pipeline.arrRef spec2 4) : S1x64.Idx → EReal) (((cfg2.win 4).blk t).view.emb (ix2 z q)) = _
  refine congrArg (V c (Pipeline.arrRef spec2 4) : S1x64.Idx → EReal) (funext fun a => Fin.ext ?_)
  match a with
  | ⟨0, _⟩ => show win2_4.index t (0 : Fin 2) * 1 + 1 * z.val = z.val; rw [e.2.2.2.2.2.2.2.2.1]; omega
  | ⟨1, _⟩ => show win2_4.index t (1 : Fin 2) * 64 + 1 * q.val = q.val; rw [e.2.2.2.2.2.2.2.2.2.1]; omega

/-- Where the output's block at point `t` puts its entry (p, q): row `t` × 10000 + p. -/
theorem emb2_5 (t : Fin cfg2.N) (p : Fin 10000) (q : Fin 64) (h : t.val * 10000 + p.val < 50000) :
    (((cfg2.win 5).blk t).view.emb (ix2 p q) : S50000x64.Idx) = ix2 ⟨t.val * 10000 + p.val, h⟩ q := by
  have e := idx_facts2 t
  refine funext fun a => Fin.ext ?_
  match a with
  | ⟨0, _⟩ => show win2_5.index t (0 : Fin 2) * 10000 + 1 * p.val = t.val * 10000 + p.val; rw [e.2.2.2.2.2.2.2.2.2.2.1]; omega
  | ⟨1, _⟩ => show win2_5.index t (1 : Fin 2) * 64 + 1 * q.val = q.val; rw [e.2.2.2.2.2.2.2.2.2.2.2]; omega

/-- The whole-array function the region computes. -/
def bn2 (h : S50000x64.Idx → EReal) (mu var g be : S1x64.Idx → EReal) : S50000x64.Idx → EReal :=
  fun i => bnAt2 (h (ix2 (⟨(i 0).val, idx2_lt0 i⟩ : Fin 50000) (⟨(i 1).val, idx2_lt1 i⟩ : Fin 64)))
    (mu (ix2 0 (⟨(i 1).val, idx2_lt1 i⟩ : Fin 64))) (var (ix2 0 (⟨(i 1).val, idx2_lt1 i⟩ : Fin 64)))
    (g (ix2 0 (⟨(i 1).val, idx2_lt1 i⟩ : Fin 64))) (be (ix2 0 (⟨(i 1).val, idx2_lt1 i⟩ : Fin 64)))

theorem bn2_ix2 (h : S50000x64.Idx → EReal) (mu var g be : S1x64.Idx → EReal) (r : Fin 50000) (q : Fin 64) :
    bn2 h mu var g be (ix2 r q)
      = bnAt2 (h (ix2 r q)) (mu (ix2 0 q)) (var (ix2 0 q)) (g (ix2 0 q)) (be (ix2 0 q)) := rfl

set_option maxHeartbeats 2000000 in
/-- What point `t` writes back is its block of `bn2` of the five arrays the region is entered with. -/
theorem flushed2_eq (c : Dev nD) (t : Fin cfg2.N) :
    (dat2 (F := Ideal) V c).flushed 5 t
      = ((cfg2.win 5).blk t).view.read (Elt Ideal)
          (bn2 (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero zero_off2]
  simp only [View.ld_unit_zero (S := S10000x64) zero_off2, View.ld_unit_zero (S := S1x64) zero_off2]
  funext j
  obtain ⟨p, q, rfl⟩ : ∃ (p : Fin 10000) (q : Fin 64), j = ix2 p q := ⟨j 0, j 1, eq_ix2 j⟩
  have hN : t.val < 5 := lt_of_lt_of_eq t.isLt N_2
  have hr : t.val * 10000 + p.val < 50000 := by have := p.isLt; omega
  show (k2_pay1 (iblk2 V c 0 t) (iblk2 V c 1 t) (iblk2 V c 2 t) (iblk2 V c 3 t) (iblk2 V c 4 t) : S10000x64.Idx → EReal) (ix2 p q)
    = bn2 (V c (Pipeline.arrRef spec2 0)) (V c (Pipeline.arrRef spec2 1)) (V c (Pipeline.arrRef spec2 2))
        (V c (Pipeline.arrRef spec2 3)) (V c (Pipeline.arrRef spec2 4)) (((cfg2.win 5).blk t).view.emb (ix2 p q))
  refine (((pay2_apply (iblk2 V c 0 t) (iblk2 V c 1 t) (iblk2 V c 2 t) (iblk2 V c 3 t) (iblk2 V c 4 t) p q).trans ?_).trans
      (bn2_ix2 (V c (Pipeline.arrRef spec2 0)) (V c (Pipeline.arrRef spec2 1)) (V c (Pipeline.arrRef spec2 2)) (V c (Pipeline.arrRef spec2 3)) (V c (Pipeline.arrRef spec2 4)) ⟨t.val * 10000 + p.val, hr⟩ q).symm).trans
    (congrArg (bn2 (V c (Pipeline.arrRef spec2 0)) (V c (Pipeline.arrRef spec2 1)) (V c (Pipeline.arrRef spec2 2)) (V c (Pipeline.arrRef spec2 3)) (V c (Pipeline.arrRef spec2 4))) (emb2_5 t p q hr).symm)
  exact congr (congr (congr (congr (congrArg bnAt2 (read2_0 V c t p q hr)) (read2_1 V c t 0 q)) (read2_2 V c t 0 q))
    (read2_3 V c t 0 q)) (read2_4 V c t 0 q)

/-- An index of the array is in point `t`'s block iff each coordinate is in the block's range on its axis. -/
theorem mem_blk2 (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v69).slice (win2_5.rect t)).set ↔ _
  rw [View.set_slice_whole, Rect.mem_set_unit]
  exact Iff.rfl

/-- Every index is in the block of the point numbered by its row divided by 10000. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have ht : (i 0).val / 10000 < cfg2.N := lt_of_lt_of_eq (by omega : (i 0).val / 10000 < 5) N_2.symm
  have e := idx_facts2 ⟨(i 0).val / 10000, ht⟩
  refine ⟨⟨(i 0).val / 10000, ht⟩, flush2_5 _, ?_⟩
  rw [mem_blk2]
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    rw [e.2.2.2.2.2.2.2.2.2.2.1]; show (i 0).val / 10000 * 10000 ≤ (i 0).val ∧ (i 0).val < (i 0).val / 10000 * 10000 + 10000; omega
  | ⟨1, _⟩ =>
    show win2_5.index ⟨(i 0).val / 10000, ht⟩ (1 : Fin 2) * 64 ≤ (i 1).val ∧ (i 1).val < win2_5.index ⟨(i 0).val / 10000, ht⟩ (1 : Fin 2) * 64 + 64
    rw [e.2.2.2.2.2.2.2.2.2.2.2]; omega

/-- The output array after all write-backs is `bn2` of the five arrays the region is entered with. -/
theorem final2 (c : Dev nD) :
    (dat2 (F := Ideal) V c).arrAt 5 cfg2.N
      = bn2 (V c (Pipeline.arrRef spec2 0)) (V c (Pipeline.arrRef spec2 1)) (V c (Pipeline.arrRef spec2 2))
          (V c (Pipeline.arrRef spec2 3)) (V c (Pipeline.arrRef spec2 4)) :=
  (dat2 (F := Ideal) V c).arrAt_eq_of_cover 5 _ (fun t _ => flushed2_eq V c t) cover2

/-- Entry (r, q) of the output array after the run, in the body's order of operations, the five arrays the region is
    entered with named `h`, `mu`, `var`, `g`, `be`. -/
theorem bn2_apply (c : Dev nD) (h : S50000x64.Idx → EReal) (mu var g be : S1x64.Idx → EReal)
    (hh : (V c (Pipeline.arrRef spec2 0) : S50000x64.Idx → EReal) = h)
    (hmu : (V c (Pipeline.arrRef spec2 1) : S1x64.Idx → EReal) = mu)
    (hvar : (V c (Pipeline.arrRef spec2 2) : S1x64.Idx → EReal) = var)
    (hg : (V c (Pipeline.arrRef spec2 3) : S1x64.Idx → EReal) = g)
    (hbe : (V c (Pipeline.arrRef spec2 4) : S1x64.Idx → EReal) = be) (r : Fin 50000) (q : Fin 64) :
    ((dat2 (F := Ideal) V c).arrAt 5 cfg2.N : S50000x64.Idx → EReal) (ix2 r q)
      = max ((((h (ix2 r q) - mu (ix2 0 q)) * Ideal.rsqrt (var (ix2 0 q) + Ideal.ofBits .f32 0x3727C5AC#32)) * g (ix2 0 q)) + be (ix2 0 q))
          (Ideal.ofBits .f32 0x00000000#32) := by
  subst hh hmu hvar hg hbe
  exact (congrFun (final2 V c) (ix2 r q)).trans (bn2_ix2 _ _ _ _ _ r q)

/-- The same with the zero word read as the extended real 0. -/
theorem bn2_apply_zero (c : Dev nD) (h : S50000x64.Idx → EReal) (mu var g be : S1x64.Idx → EReal)
    (hh : (V c (Pipeline.arrRef spec2 0) : S50000x64.Idx → EReal) = h)
    (hmu : (V c (Pipeline.arrRef spec2 1) : S1x64.Idx → EReal) = mu)
    (hvar : (V c (Pipeline.arrRef spec2 2) : S1x64.Idx → EReal) = var)
    (hg : (V c (Pipeline.arrRef spec2 3) : S1x64.Idx → EReal) = g)
    (hbe : (V c (Pipeline.arrRef spec2 4) : S1x64.Idx → EReal) = be) (r : Fin 50000) (q : Fin 64) :
    ((dat2 (F := Ideal) V c).arrAt 5 cfg2.N : S50000x64.Idx → EReal) (ix2 r q)
      = max ((((h (ix2 r q) - mu (ix2 0 q)) * Ideal.rsqrt (var (ix2 0 q) + Ideal.ofBits .f32 0x3727C5AC#32)) * g (ix2 0 q)) + be (ix2 0 q)) 0 := by
  exact (bn2_apply V c h mu var g be hh hmu hvar hg hbe r q).trans (by rw [Ideal.ofBits_zero_f32])

end Cert.KernelIdeal.Val

end
-- ==== Proof.IdealValBn5.lean ====
/-
  Region 5 of the idealized kernel's @main, read at the extended reals: the array its output window holds after all
  write-backs is, entry (r, q), max ((((h (r, q) − mu (0, q)) · rsqrt (var (0, q) + ε)) · g (0, q)) + be (0, q)) 0 of the
  five arrays the region is entered with, in the body's own order of operations. The body's payload at an index (every
  operation is pointwise, a row broadcast reads row 0, a shape cast to the same shape is the identity); each grid point
  writes back its block of that one whole-array function (the first operand's block sits at rows block index × 10000 + the
  row inside the block, the four one-row operands are fetched whole); the blocks cover every row.
-/
import proofs.«120485_j12249246728930_1_alg».proof.Proof.IdealRegion5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The zero offsets of a whole-buffer rectangle. -/
theorem zero_off5 : (![0, 0] : Fin 2 → Nat) = fun _ => 0 := funext fun a => by fin_cases a <;> rfl

/-- The body's arithmetic on one entry and the four row entries, in the body's order. -/
def bnAt5 (h mu var g be : EReal) : EReal :=
  max ((((h - mu) * Ideal.rsqrt (var + Ideal.ofBits .f32 0x3727C5AC#32)) * g) + be) (Ideal.ofBits .f32 0x00000000#32)

/-- The body's payload at (p, q). -/
theorem pay5_apply (x0 : Vec Ideal S10000x64 .f32) (x1 x2 x3 x4 : Vec Ideal S1x64 .f32) (p : Fin 10000) (q : Fin 64) :
    (k5_pay1 x0 x1 x2 x3 x4 : S10000x64.Idx → EReal) (ix2 p q)
      = bnAt5 ((x0 : S10000x64.Idx → EReal) (ix2 p q)) ((x1 : S1x64.Idx → EReal) (ix2 0 q)) ((x2 : S1x64.Idx → EReal) (ix2 0 q))
          ((x3 : S1x64.Idx → EReal) (ix2 0 q)) ((x4 : S1x64.Idx → EReal) (ix2 0 q)) := by
  have b1 := broadcastTo_1b_ab_apply (a := 10000) (b := 64) (x1 : S1x64.Idx → EReal) broadcasts_S1x64_S10000x64 p q
  have b2 := broadcastTo_1b_ab_apply (a := 10000) (b := 64)
    (rsqrt (addf (x2 : FVec Ideal S1x64 .f32) (broadcast S1x64 (Scalar.ofBits (F := Ideal) .f32 0x3727C5AC#32))) : S1x64.Idx → EReal)
    broadcasts_S1x64_S10000x64 p q
  have b3 := broadcastTo_1b_ab_apply (a := 10000) (b := 64) (x3 : S1x64.Idx → EReal) broadcasts_S1x64_S10000x64 p q
  have b4 := broadcastTo_1b_ab_apply (a := 10000) (b := 64) (x4 : S1x64.Idx → EReal) broadcasts_S1x64_S10000x64 p q
  unfold k5_pay1 bnAt5
  simp only [shapeCast_self]
  exact congrArg₂ max (congrArg₂ (· + ·) (congrArg₂ (· * ·) (congrArg₂ (· * ·) (congrArg₂ (· - ·) rfl b1) b2) b3) b4) rfl

/-- The printed index maps over the grid: the first operand's and the output's block index on the row axis is the point's
    number, every other block index is 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

variable (V : (c : Dev nD) → (b : Ref sig .tc) → Buf (Elt Ideal) ((c : Thread nD τ).loc b))

/-- The first operand's block at point `t`, at (p, q): the array at row `t` × 10000 + p. -/
theorem read5_0 (c : Dev nD) (t : Fin cfg5.N) (p : Fin 10000) (q : Fin 64) (h : t.val * 10000 + p.val < 50000) :
    (iblk5 V c 0 t : S10000x64.Idx → EReal) (ix2 p q)
      = (V c (Pipeline.arrRef spec5 0) : S50000x64.Idx → EReal) (ix2 ⟨t.val * 10000 + p.val, h⟩ q) := by
  have e := idx_facts5 t
  show (V c (Pipeline.arrRef spec5 0) : S50000x64.Idx → EReal) (((cfg5.win 0).blk t).view.emb (ix2 p q)) = _
  refine congrArg (V c (Pipeline.arrRef spec5 0) : S50000x64.Idx → EReal) (funext fun a => Fin.ext ?_)
  match a with
  | ⟨0, _⟩ => show win5_0.index t (0 : Fin 2) * 10000 + 1 * p.val = t.val * 10000 + p.val; rw [e.1]; omega
  | ⟨1, _⟩ => show win5_0.index t (1 : Fin 2) * 64 + 1 * q.val = q.val; rw [e.2.1]; omega

/-- The one-row second operand is fetched whole. -/
theorem read5_1 (c : Dev nD) (t : Fin cfg5.N) (z : Fin 1) (q : Fin 64) :
    (iblk5 V c 1 t : S1x64.Idx → EReal) (ix2 z q) = (V c (Pipeline.arrRef spec5 1) : S1x64.Idx → EReal) (ix2 z q) := by
  have e := idx_facts5 t
  show (V c (Pipeline.arrRef spec5 1) : S1x64.Idx → EReal) (((cfg5.win 1).blk t).view.emb (ix2 z q)) = _
  refine congrArg (V c (Pipeline.arrRef spec5 1) : S1x64.Idx → EReal) (funext fun a => Fin.ext ?_)
  match a with
  | ⟨0, _⟩ => show win5_1.index t (0 : Fin 2) * 1 + 1 * z.val = z.val; rw [e.2.2.1]; omega
  | ⟨1, _⟩ => show win5_1.index t (1 : Fin 2) * 64 + 1 * q.val = q.val; rw [e.2.2.2.1]; omega

/-- The one-row third operand is fetched whole. -/
theorem read5_2 (c : Dev nD) (t : Fin cfg5.N) (z : Fin 1) (q : Fin 64) :
    (iblk5 V c 2 t : S1x64.Idx → EReal) (ix2 z q) = (V c (Pipeline.arrRef spec5 2) : S1x64.Idx → EReal) (ix2 z q) := by
  have e := idx_facts5 t
  show (V c (Pipeline.arrRef spec5 2) : S1x64.Idx → EReal) (((cfg5.win 2).blk t).view.emb (ix2 z q)) = _
  refine congrArg (V c (Pipeline.arrRef spec5 2) : S1x64.Idx → EReal) (funext fun a => Fin.ext ?_)
  match a with
  | ⟨0, _⟩ => show win5_2.index t (0 : Fin 2) * 1 + 1 * z.val = z.val; rw [e.2.2.2.2.1]; omega
  | ⟨1, _⟩ => show win5_2.index t (1 : Fin 2) * 64 + 1 * q.val = q.val; rw [e.2.2.2.2.2.1]; omega

/-- The one-row fourth operand is fetched whole. -/
theorem read5_3 (c : Dev nD) (t : Fin cfg5.N) (z : Fin 1) (q : Fin 64) :
    (iblk5 V c 3 t : S1x64.Idx → EReal) (ix2 z q) = (V c (Pipeline.arrRef spec5 3) : S1x64.Idx → EReal) (ix2 z q) := by
  have e := idx_facts5 t
  show (V c (Pipeline.arrRef spec5 3) : S1x64.Idx → EReal) (((cfg5.win 3).blk t).view.emb (ix2 z q)) = _
  refine congrArg (V c (Pipeline.arrRef spec5 3) : S1x64.Idx → EReal) (funext fun a => Fin.ext ?_)
  match a with
  | ⟨0, _⟩ => show win5_3.index t (0 : Fin 2) * 1 + 1 * z.val = z.val; rw [e.2.2.2.2.2.2.1]; omega
  | ⟨1, _⟩ => show win5_3.index t (1 : Fin 2) * 64 + 1 * q.val = q.val; rw [e.2.2.2.2.2.2.2.1]; omega

/-- The one-row fifth operand is fetched whole. -/
theorem read5_4 (c : Dev nD) (t : Fin cfg5.N) (z : Fin 1) (q : Fin 64) :
    (iblk5 V c 4 t : S1x64.Idx → EReal) (ix2 z q) = (V c (Pipeline.arrRef spec5 4) : S1x64.Idx → EReal) (ix2 z q) := by
  have e := idx_facts5 t
  show (V c (Pipeline.arrRef spec5 4) : S1x64.Idx → EReal) (((cfg5.win 4).blk t).view.emb (ix2 z q)) = _
  refine congrArg (V c (Pipeline.arrRef spec5 4) : S1x64.Idx → EReal) (funext fun a => Fin.ext ?_)
  match a with
  | ⟨0, _⟩ => show win5_4.index t (0 : Fin 2) * 1 + 1 * z.val = z.val; rw [e.2.2.2.2.2.2.2.2.1]; omega
  | ⟨1, _⟩ => show win5_4.index t (1 : Fin 2) * 64 + 1 * q.val = q.val; rw [e.2.2.2.2.2.2.2.2.2.1]; omega

/-- Where the output's block at point `t` puts its entry (p, q): row `t` × 10000 + p. -/
theorem emb5_5 (t : Fin cfg5.N) (p : Fin 10000) (q : Fin 64) (h : t.val * 10000 + p.val < 50000) :
    (((cfg5.win 5).blk t).view.emb (ix2 p q) : S50000x64.Idx) = ix2 ⟨t.val * 10000 + p.val, h⟩ q := by
  have e := idx_facts5 t
  refine funext fun a => Fin.ext ?_
  match a with
  | ⟨0, _⟩ => show win5_5.index t (0 : Fin 2) * 10000 + 1 * p.val = t.val * 10000 + p.val; rw [e.2.2.2.2.2.2.2.2.2.2.1]; omega
  | ⟨1, _⟩ => show win5_5.index t (1 : Fin 2) * 64 + 1 * q.val = q.val; rw [e.2.2.2.2.2.2.2.2.2.2.2]; omega

/-- The whole-array function the region computes. -/
def bn5 (h : S50000x64.Idx → EReal) (mu var g be : S1x64.Idx → EReal) : S50000x64.Idx → EReal :=
  fun i => bnAt5 (h (ix2 (⟨(i 0).val, idx2_lt0 i⟩ : Fin 50000) (⟨(i 1).val, idx2_lt1 i⟩ : Fin 64)))
    (mu (ix2 0 (⟨(i 1).val, idx2_lt1 i⟩ : Fin 64))) (var (ix2 0 (⟨(i 1).val, idx2_lt1 i⟩ : Fin 64)))
    (g (ix2 0 (⟨(i 1).val, idx2_lt1 i⟩ : Fin 64))) (be (ix2 0 (⟨(i 1).val, idx2_lt1 i⟩ : Fin 64)))

theorem bn5_ix2 (h : S50000x64.Idx → EReal) (mu var g be : S1x64.Idx → EReal) (r : Fin 50000) (q : Fin 64) :
    bn5 h mu var g be (ix2 r q)
      = bnAt5 (h (ix2 r q)) (mu (ix2 0 q)) (var (ix2 0 q)) (g (ix2 0 q)) (be (ix2 0 q)) := rfl

set_option maxHeartbeats 2000000 in
/-- What point `t` writes back is its block of `bn5` of the five arrays the region is entered with. -/
theorem flushed5_eq (c : Dev nD) (t : Fin cfg5.N) :
    (dat5 (F := Ideal) V c).flushed 5 t
      = ((cfg5.win 5).blk t).view.read (Elt Ideal)
          (bn5 (V c (Pipeline.arrRef spec5 0)) (V c (Pipeline.arrRef spec5 1)) (V c (Pipeline.arrRef spec5 2))
            (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero zero_off5]
  simp only [View.ld_unit_zero (S := S10000x64) zero_off5, View.ld_unit_zero (S := S1x64) zero_off5]
  funext j
  obtain ⟨p, q, rfl⟩ : ∃ (p : Fin 10000) (q : Fin 64), j = ix2 p q := ⟨j 0, j 1, eq_ix2 j⟩
  have hN : t.val < 5 := lt_of_lt_of_eq t.isLt N_5
  have hr : t.val * 10000 + p.val < 50000 := by have := p.isLt; omega
  show (k5_pay1 (iblk5 V c 0 t) (iblk5 V c 1 t) (iblk5 V c 2 t) (iblk5 V c 3 t) (iblk5 V c 4 t) : S10000x64.Idx → EReal) (ix2 p q)
    = bn5 (V c (Pipeline.arrRef spec5 0)) (V c (Pipeline.arrRef spec5 1)) (V c (Pipeline.arrRef spec5 2))
        (V c (Pipeline.arrRef spec5 3)) (V c (Pipeline.arrRef spec5 4)) (((cfg5.win 5).blk t).view.emb (ix2 p q))
  refine (((pay5_apply (iblk5 V c 0 t) (iblk5 V c 1 t) (iblk5 V c 2 t) (iblk5 V c 3 t) (iblk5 V c 4 t) p q).trans ?_).trans
      (bn5_ix2 (V c (Pipeline.arrRef spec5 0)) (V c (Pipeline.arrRef spec5 1)) (V c (Pipeline.arrRef spec5 2)) (V c (Pipeline.arrRef spec5 3)) (V c (Pipeline.arrRef spec5 4)) ⟨t.val * 10000 + p.val, hr⟩ q).symm).trans
    (congrArg (bn5 (V c (Pipeline.arrRef spec5 0)) (V c (Pipeline.arrRef spec5 1)) (V c (Pipeline.arrRef spec5 2)) (V c (Pipeline.arrRef spec5 3)) (V c (Pipeline.arrRef spec5 4))) (emb5_5 t p q hr).symm)
  exact congr (congr (congr (congr (congrArg bnAt5 (read5_0 V c t p q hr)) (read5_1 V c t 0 q)) (read5_2 V c t 0 q))
    (read5_3 V c t 0 q)) (read5_4 V c t 0 q)

/-- An index of the array is in point `t`'s block iff each coordinate is in the block's range on its axis. -/
theorem mem_blk5 (t : Fin cfg5.N) (i : S50000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v106).slice (win5_5.rect t)).set ↔ _
  rw [View.set_slice_whole, Rect.mem_set_unit]
  exact Iff.rfl

/-- Every index is in the block of the point numbered by its row divided by 10000. -/
theorem cover5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have ht : (i 0).val / 10000 < cfg5.N := lt_of_lt_of_eq (by omega : (i 0).val / 10000 < 5) N_5.symm
  have e := idx_facts5 ⟨(i 0).val / 10000, ht⟩
  refine ⟨⟨(i 0).val / 10000, ht⟩, flush5_5 _, ?_⟩
  rw [mem_blk5]
  intro a
  match a with
  | ⟨0, _⟩ =>
    show win5_5.index ⟨(i 0).val / 10000, ht⟩ (0 : Fin 2) * 10000 ≤ (i 0).val ∧ (i 0).val < win5_5.index ⟨(i 0).val / 10000, ht⟩ (0 : Fin 2) * 10000 + 10000
    rw [e.2.2.2.2.2.2.2.2.2.2.1]; show (i 0).val / 10000 * 10000 ≤ (i 0).val ∧ (i 0).val < (i 0).val / 10000 * 10000 + 10000; omega
  | ⟨1, _⟩ =>
    show win5_5.index ⟨(i 0).val / 10000, ht⟩ (1 : Fin 2) * 64 ≤ (i 1).val ∧ (i 1).val < win5_5.index ⟨(i 0).val / 10000, ht⟩ (1 : Fin 2) * 64 + 64
    rw [e.2.2.2.2.2.2.2.2.2.2.2]; omega

/-- The output array after all write-backs is `bn5` of the five arrays the region is entered with. -/
theorem final5 (c : Dev nD) :
    (dat5 (F := Ideal) V c).arrAt 5 cfg5.N
      = bn5 (V c (Pipeline.arrRef spec5 0)) (V c (Pipeline.arrRef spec5 1)) (V c (Pipeline.arrRef spec5 2))
          (V c (Pipeline.arrRef spec5 3)) (V c (Pipeline.arrRef spec5 4)) :=
  (dat5 (F := Ideal) V c).arrAt_eq_of_cover 5 _ (fun t _ => flushed5_eq V c t) cover5

/-- Entry (r, q) of the output array after the run, in the body's order of operations, the five arrays the region is
    entered with named `h`, `mu`, `var`, `g`, `be`. -/
theorem bn5_apply (c : Dev nD) (h : S50000x64.Idx → EReal) (mu var g be : S1x64.Idx → EReal)
    (hh : (V c (Pipeline.arrRef spec5 0) : S50000x64.Idx → EReal) = h)
    (hmu : (V c (Pipeline.arrRef spec5 1) : S1x64.Idx → EReal) = mu)
    (hvar : (V c (Pipeline.arrRef spec5 2) : S1x64.Idx → EReal) = var)
    (hg : (V c (Pipeline.arrRef spec5 3) : S1x64.Idx → EReal) = g)
    (hbe : (V c (Pipeline.arrRef spec5 4) : S1x64.Idx → EReal) = be) (r : Fin 50000) (q : Fin 64) :
    ((dat5 (F := Ideal) V c).arrAt 5 cfg5.N : S50000x64.Idx → EReal) (ix2 r q)
      = max ((((h (ix2 r q) - mu (ix2 0 q)) * Ideal.rsqrt (var (ix2 0 q) + Ideal.ofBits .f32 0x3727C5AC#32)) * g (ix2 0 q)) + be (ix2 0 q))
          (Ideal.ofBits .f32 0x00000000#32) := by
  subst hh hmu hvar hg hbe
  exact (congrFun (final5 V c) (ix2 r q)).trans (bn5_ix2 _ _ _ _ _ r q)

/-- The same with the zero word read as the extended real 0. -/
theorem bn5_apply_zero (c : Dev nD) (h : S50000x64.Idx → EReal) (mu var g be : S1x64.Idx → EReal)
    (hh : (V c (Pipeline.arrRef spec5 0) : S50000x64.Idx → EReal) = h)
    (hmu : (V c (Pipeline.arrRef spec5 1) : S1x64.Idx → EReal) = mu)
    (hvar : (V c (Pipeline.arrRef spec5 2) : S1x64.Idx → EReal) = var)
    (hg : (V c (Pipeline.arrRef spec5 3) : S1x64.Idx → EReal) = g)
    (hbe : (V c (Pipeline.arrRef spec5 4) : S1x64.Idx → EReal) = be) (r : Fin 50000) (q : Fin 64) :
    ((dat5 (F := Ideal) V c).arrAt 5 cfg5.N : S50000x64.Idx → EReal) (ix2 r q)
      = max ((((h (ix2 r q) - mu (ix2 0 q)) * Ideal.rsqrt (var (ix2 0 q) + Ideal.ofBits .f32 0x3727C5AC#32)) * g (ix2 0 q)) + be (ix2 0 q)) 0 := by
  exact (bn5_apply V c h mu var g be hh hmu hvar hg hbe r q).trans (by rw [Ideal.ofBits_zero_f32])

end Cert.KernelIdeal.Val

end
-- ==== Proof.IdealValBn8.lean ====
/-
  Region 8 of the idealized kernel's @main, read at the extended reals: the array its output window holds after all
  write-backs is, entry (r, q), max ((((h (r, q) − mu (0, q)) · rsqrt (var (0, q) + ε)) · g (0, q)) + be (0, q)) 0 of the
  five arrays the region is entered with, in the body's own order of operations. The body's payload at an index (every
  operation is pointwise, a row broadcast reads row 0, a shape cast to the same shape is the identity); each grid point
  writes back its block of that one whole-array function (the first operand's block sits at rows block index × 10000 + the
  row inside the block, the four one-row operands are fetched whole); the blocks cover every row.
-/
import proofs.«120485_j12249246728930_1_alg».proof.Proof.IdealRegion8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- The zero offsets of a whole-buffer rectangle. -/
theorem zero_off8 : (![0, 0] : Fin 2 → Nat) = fun _ => 0 := funext fun a => by fin_cases a <;> rfl

/-- The body's arithmetic on one entry and the four row entries, in the body's order. -/
def bnAt8 (h mu var g be : EReal) : EReal :=
  max ((((h - mu) * Ideal.rsqrt (var + Ideal.ofBits .f32 0x3727C5AC#32)) * g) + be) (Ideal.ofBits .f32 0x00000000#32)

/-- The body's payload at (p, q). -/
theorem pay8_apply (x0 : Vec Ideal S10000x64 .f32) (x1 x2 x3 x4 : Vec Ideal S1x64 .f32) (p : Fin 10000) (q : Fin 64) :
    (k8_pay1 x0 x1 x2 x3 x4 : S10000x64.Idx → EReal) (ix2 p q)
      = bnAt8 ((x0 : S10000x64.Idx → EReal) (ix2 p q)) ((x1 : S1x64.Idx → EReal) (ix2 0 q)) ((x2 : S1x64.Idx → EReal) (ix2 0 q))
          ((x3 : S1x64.Idx → EReal) (ix2 0 q)) ((x4 : S1x64.Idx → EReal) (ix2 0 q)) := by
  have b1 := broadcastTo_1b_ab_apply (a := 10000) (b := 64) (x1 : S1x64.Idx → EReal) broadcasts_S1x64_S10000x64 p q
  have b2 := broadcastTo_1b_ab_apply (a := 10000) (b := 64)
    (rsqrt (addf (x2 : FVec Ideal S1x64 .f32) (broadcast S1x64 (Scalar.ofBits (F := Ideal) .f32 0x3727C5AC#32))) : S1x64.Idx → EReal)
    broadcasts_S1x64_S10000x64 p q
  have b3 := broadcastTo_1b_ab_apply (a := 10000) (b := 64) (x3 : S1x64.Idx → EReal) broadcasts_S1x64_S10000x64 p q
  have b4 := broadcastTo_1b_ab_apply (a := 10000) (b := 64) (x4 : S1x64.Idx → EReal) broadcasts_S1x64_S10000x64 p q
  unfold k8_pay1 bnAt8
  simp only [shapeCast_self]
  exact congrArg₂ max (congrArg₂ (· + ·) (congrArg₂ (· * ·) (congrArg₂ (· * ·) (congrArg₂ (· - ·) rfl b1) b2) b3) b4) rfl

/-- The printed index maps over the grid: the first operand's and the output's block index on the row axis is the point's
    number, every other block index is 0. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

variable (V : (c : Dev nD) → (b : Ref sig .tc) → Buf (Elt Ideal) ((c : Thread nD τ).loc b))

/-- The first operand's block at point `t`, at (p, q): the array at row `t` × 10000 + p. -/
theorem read8_0 (c : Dev nD) (t : Fin cfg8.N) (p : Fin 10000) (q : Fin 64) (h : t.val * 10000 + p.val < 50000) :
    (iblk8 V c 0 t : S10000x64.Idx → EReal) (ix2 p q)
      = (V c (Pipeline.arrRef spec8 0) : S50000x64.Idx → EReal) (ix2 ⟨t.val * 10000 + p.val, h⟩ q) := by
  have e := idx_facts8 t
  show (V c (Pipeline.arrRef spec8 0) : S50000x64.Idx → EReal) (((cfg8.win 0).blk t).view.emb (ix2 p q)) = _
  refine congrArg (V c (Pipeline.arrRef spec8 0) : S50000x64.Idx → EReal) (funext fun a => Fin.ext ?_)
  match a with
  | ⟨0, _⟩ => show win8_0.index t (0 : Fin 2) * 10000 + 1 * p.val = t.val * 10000 + p.val; rw [e.1]; omega
  | ⟨1, _⟩ => show win8_0.index t (1 : Fin 2) * 64 + 1 * q.val = q.val; rw [e.2.1]; omega

/-- The one-row second operand is fetched whole. -/
theorem read8_1 (c : Dev nD) (t : Fin cfg8.N) (z : Fin 1) (q : Fin 64) :
    (iblk8 V c 1 t : S1x64.Idx → EReal) (ix2 z q) = (V c (Pipeline.arrRef spec8 1) : S1x64.Idx → EReal) (ix2 z q) := by
  have e := idx_facts8 t
  show (V c (Pipeline.arrRef spec8 1) : S1x64.Idx → EReal) (((cfg8.win 1).blk t).view.emb (ix2 z q)) = _
  refine congrArg (V c (Pipeline.arrRef spec8 1) : S1x64.Idx → EReal) (funext fun a => Fin.ext ?_)
  match a with
  | ⟨0, _⟩ => show win8_1.index t (0 : Fin 2) * 1 + 1 * z.val = z.val; rw [e.2.2.1]; omega
  | ⟨1, _⟩ => show win8_1.index t (1 : Fin 2) * 64 + 1 * q.val = q.val; rw [e.2.2.2.1]; omega

/-- The one-row third operand is fetched whole. -/
theorem read8_2 (c : Dev nD) (t : Fin cfg8.N) (z : Fin 1) (q : Fin 64) :
    (iblk8 V c 2 t : S1x64.Idx → EReal) (ix2 z q) = (V c (Pipeline.arrRef spec8 2) : S1x64.Idx → EReal) (ix2 z q) := by
  have e := idx_facts8 t
  show (V c (Pipeline.arrRef spec8 2) : S1x64.Idx → EReal) (((cfg8.win 2).blk t).view.emb (ix2 z q)) = _
  refine congrArg (V c (Pipeline.arrRef spec8 2) : S1x64.Idx → EReal) (funext fun a => Fin.ext ?_)
  match a with
  | ⟨0, _⟩ => show win8_2.index t (0 : Fin 2) * 1 + 1 * z.val = z.val; rw [e.2.2.2.2.1]; omega
  | ⟨1, _⟩ => show win8_2.index t (1 : Fin 2) * 64 + 1 * q.val = q.val; rw [e.2.2.2.2.2.1]; omega

/-- The one-row fourth operand is fetched whole. -/
theorem read8_3 (c : Dev nD) (t : Fin cfg8.N) (z : Fin 1) (q : Fin 64) :
    (iblk8 V c 3 t : S1x64.Idx → EReal) (ix2 z q) = (V c (Pipeline.arrRef spec8 3) : S1x64.Idx → EReal) (ix2 z q) := by
  have e := idx_facts8 t
  show (V c (Pipeline.arrRef spec8 3) : S1x64.Idx → EReal) (((cfg8.win 3).blk t).view.emb (ix2 z q)) = _
  refine congrArg (V c (Pipeline.arrRef spec8 3) : S1x64.Idx → EReal) (funext fun a => Fin.ext ?_)
  match a with
  | ⟨0, _⟩ => show win8_3.index t (0 : Fin 2) * 1 + 1 * z.val = z.val; rw [e.2.2.2.2.2.2.1]; omega
  | ⟨1, _⟩ => show win8_3.index t (1 : Fin 2) * 64 + 1 * q.val = q.val; rw [e.2.2.2.2.2.2.2.1]; omega

/-- The one-row fifth operand is fetched whole. -/
theorem read8_4 (c : Dev nD) (t : Fin cfg8.N) (z : Fin 1) (q : Fin 64) :
    (iblk8 V c 4 t : S1x64.Idx → EReal) (ix2 z q) = (V c (Pipeline.arrRef spec8 4) : S1x64.Idx → EReal) (ix2 z q) := by
  have e := idx_facts8 t
  show (V c (Pipeline.arrRef spec8 4) : S1x64.Idx → EReal) (((cfg8.win 4).blk t).view.emb (ix2 z q)) = _
  refine congrArg (V c (Pipeline.arrRef spec8 4) : S1x64.Idx → EReal) (funext fun a => Fin.ext ?_)
  match a with
  | ⟨0, _⟩ => show win8_4.index t (0 : Fin 2) * 1 + 1 * z.val = z.val; rw [e.2.2.2.2.2.2.2.2.1]; omega
  | ⟨1, _⟩ => show win8_4.index t (1 : Fin 2) * 64 + 1 * q.val = q.val; rw [e.2.2.2.2.2.2.2.2.2.1]; omega

/-- Where the output's block at point `t` puts its entry (p, q): row `t` × 10000 + p. -/
theorem emb8_5 (t : Fin cfg8.N) (p : Fin 10000) (q : Fin 64) (h : t.val * 10000 + p.val < 50000) :
    (((cfg8.win 5).blk t).view.emb (ix2 p q) : S50000x64.Idx) = ix2 ⟨t.val * 10000 + p.val, h⟩ q := by
  have e := idx_facts8 t
  refine funext fun a => Fin.ext ?_
  match a with
  | ⟨0, _⟩ => show win8_5.index t (0 : Fin 2) * 10000 + 1 * p.val = t.val * 10000 + p.val; rw [e.2.2.2.2.2.2.2.2.2.2.1]; omega
  | ⟨1, _⟩ => show win8_5.index t (1 : Fin 2) * 64 + 1 * q.val = q.val; rw [e.2.2.2.2.2.2.2.2.2.2.2]; omega

/-- The whole-array function the region computes. -/
def bn8 (h : S50000x64.Idx → EReal) (mu var g be : S1x64.Idx → EReal) : S50000x64.Idx → EReal :=
  fun i => bnAt8 (h (ix2 (⟨(i 0).val, idx2_lt0 i⟩ : Fin 50000) (⟨(i 1).val, idx2_lt1 i⟩ : Fin 64)))
    (mu (ix2 0 (⟨(i 1).val, idx2_lt1 i⟩ : Fin 64))) (var (ix2 0 (⟨(i 1).val, idx2_lt1 i⟩ : Fin 64)))
    (g (ix2 0 (⟨(i 1).val, idx2_lt1 i⟩ : Fin 64))) (be (ix2 0 (⟨(i 1).val, idx2_lt1 i⟩ : Fin 64)))

theorem bn8_ix2 (h : S50000x64.Idx → EReal) (mu var g be : S1x64.Idx → EReal) (r : Fin 50000) (q : Fin 64) :
    bn8 h mu var g be (ix2 r q)
      = bnAt8 (h (ix2 r q)) (mu (ix2 0 q)) (var (ix2 0 q)) (g (ix2 0 q)) (be (ix2 0 q)) := rfl

set_option maxHeartbeats 2000000 in
/-- What point `t` writes back is its block of `bn8` of the five arrays the region is entered with. -/
theorem flushed8_eq (c : Dev nD) (t : Fin cfg8.N) :
    (dat8 (F := Ideal) V c).flushed 5 t
      = ((cfg8.win 5).blk t).view.read (Elt Ideal)
          (bn8 (V c (Pipeline.arrRef spec8 0)) (V c (Pipeline.arrRef spec8 1)) (V c (Pipeline.arrRef spec8 2))
            (V c (Pipeline.arrRef spec8 3)) (V c (Pipeline.arrRef spec8 4))) := by
  show (cfg8.win 5).cut (grid8.coords t) ((dat8 (F := Ideal) V c).after 5 t) = _
  rw [after8_5]
  unfold out8_5
  rw [View.canon_unit_zero zero_off8]
  simp only [View.ld_unit_zero (S := S10000x64) zero_off8, View.ld_unit_zero (S := S1x64) zero_off8]
  funext j
  obtain ⟨p, q, rfl⟩ : ∃ (p : Fin 10000) (q : Fin 64), j = ix2 p q := ⟨j 0, j 1, eq_ix2 j⟩
  have hN : t.val < 5 := lt_of_lt_of_eq t.isLt N_8
  have hr : t.val * 10000 + p.val < 50000 := by have := p.isLt; omega
  show (k8_pay1 (iblk8 V c 0 t) (iblk8 V c 1 t) (iblk8 V c 2 t) (iblk8 V c 3 t) (iblk8 V c 4 t) : S10000x64.Idx → EReal) (ix2 p q)
    = bn8 (V c (Pipeline.arrRef spec8 0)) (V c (Pipeline.arrRef spec8 1)) (V c (Pipeline.arrRef spec8 2))
        (V c (Pipeline.arrRef spec8 3)) (V c (Pipeline.arrRef spec8 4)) (((cfg8.win 5).blk t).view.emb (ix2 p q))
  refine (((pay8_apply (iblk8 V c 0 t) (iblk8 V c 1 t) (iblk8 V c 2 t) (iblk8 V c 3 t) (iblk8 V c 4 t) p q).trans ?_).trans
      (bn8_ix2 (V c (Pipeline.arrRef spec8 0)) (V c (Pipeline.arrRef spec8 1)) (V c (Pipeline.arrRef spec8 2)) (V c (Pipeline.arrRef spec8 3)) (V c (Pipeline.arrRef spec8 4)) ⟨t.val * 10000 + p.val, hr⟩ q).symm).trans
    (congrArg (bn8 (V c (Pipeline.arrRef spec8 0)) (V c (Pipeline.arrRef spec8 1)) (V c (Pipeline.arrRef spec8 2)) (V c (Pipeline.arrRef spec8 3)) (V c (Pipeline.arrRef spec8 4))) (emb8_5 t p q hr).symm)
  exact congr (congr (congr (congr (congrArg bnAt8 (read8_0 V c t p q hr)) (read8_1 V c t 0 q)) (read8_2 V c t 0 q))
    (read8_3 V c t 0 q)) (read8_4 V c t 0 q)

/-- An index of the array is in point `t`'s block iff each coordinate is in the block's range on its axis. -/
theorem mem_blk8 (t : Fin cfg8.N) (i : S50000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v143).slice (win8_5.rect t)).set ↔ _
  rw [View.set_slice_whole, Rect.mem_set_unit]
  exact Iff.rfl

/-- Every index is in the block of the point numbered by its row divided by 10000. -/
theorem cover8 (i : S50000x64.Idx) : ∃ t : Fin cfg8.N, (cfg8.win 5).flush t = true ∧ i ∈ ((cfg8.win 5).blk t).view.set := by
  have hi0 : (i 0).val < 50000 := (i 0).isLt
  have hi1 : (i 1).val < 64 := (i 1).isLt
  have ht : (i 0).val / 10000 < cfg8.N := lt_of_lt_of_eq (by omega : (i 0).val / 10000 < 5) N_8.symm
  have e := idx_facts8 ⟨(i 0).val / 10000, ht⟩
  refine ⟨⟨(i 0).val / 10000, ht⟩, flush8_5 _, ?_⟩
  rw [mem_blk8]
  intro a
  match a with
  | ⟨0, _⟩ =>
    show win8_5.index ⟨(i 0).val / 10000, ht⟩ (0 : Fin 2) * 10000 ≤ (i 0).val ∧ (i 0).val < win8_5.index ⟨(i 0).val / 10000, ht⟩ (0 : Fin 2) * 10000 + 10000
    rw [e.2.2.2.2.2.2.2.2.2.2.1]; show (i 0).val / 10000 * 10000 ≤ (i 0).val ∧ (i 0).val < (i 0).val / 10000 * 10000 + 10000; omega
  | ⟨1, _⟩ =>
    show win8_5.index ⟨(i 0).val / 10000, ht⟩ (1 : Fin 2) * 64 ≤ (i 1).val ∧ (i 1).val < win8_5.index ⟨(i 0).val / 10000, ht⟩ (1 : Fin 2) * 64 + 64
    rw [e.2.2.2.2.2.2.2.2.2.2.2]; omega

/-- The output array after all write-backs is `bn8` of the five arrays the region is entered with. -/
theorem final8 (c : Dev nD) :
    (dat8 (F := Ideal) V c).arrAt 5 cfg8.N
      = bn8 (V c (Pipeline.arrRef spec8 0)) (V c (Pipeline.arrRef spec8 1)) (V c (Pipeline.arrRef spec8 2))
          (V c (Pipeline.arrRef spec8 3)) (V c (Pipeline.arrRef spec8 4)) :=
  (dat8 (F := Ideal) V c).arrAt_eq_of_cover 5 _ (fun t _ => flushed8_eq V c t) cover8

/-- Entry (r, q) of the output array after the run, in the body's order of operations, the five arrays the region is
    entered with named `h`, `mu`, `var`, `g`, `be`. -/
theorem bn8_apply (c : Dev nD) (h : S50000x64.Idx → EReal) (mu var g be : S1x64.Idx → EReal)
    (hh : (V c (Pipeline.arrRef spec8 0) : S50000x64.Idx → EReal) = h)
    (hmu : (V c (Pipeline.arrRef spec8 1) : S1x64.Idx → EReal) = mu)
    (hvar : (V c (Pipeline.arrRef spec8 2) : S1x64.Idx → EReal) = var)
    (hg : (V c (Pipeline.arrRef spec8 3) : S1x64.Idx → EReal) = g)
    (hbe : (V c (Pipeline.arrRef spec8 4) : S1x64.Idx → EReal) = be) (r : Fin 50000) (q : Fin 64) :
    ((dat8 (F := Ideal) V c).arrAt 5 cfg8.N : S50000x64.Idx → EReal) (ix2 r q)
      = max ((((h (ix2 r q) - mu (ix2 0 q)) * Ideal.rsqrt (var (ix2 0 q) + Ideal.ofBits .f32 0x3727C5AC#32)) * g (ix2 0 q)) + be (ix2 0 q))
          (Ideal.ofBits .f32 0x00000000#32) := by
  subst hh hmu hvar hg hbe
  exact (congrFun (final8 V c) (ix2 r q)).trans (bn8_ix2 _ _ _ _ _ r q)

/-- The same with the zero word read as the extended real 0. -/
theorem bn8_apply_zero (c : Dev nD) (h : S50000x64.Idx → EReal) (mu var g be : S1x64.Idx → EReal)
    (hh : (V c (Pipeline.arrRef spec8 0) : S50000x64.Idx → EReal) = h)
    (hmu : (V c (Pipeline.arrRef spec8 1) : S1x64.Idx → EReal) = mu)
    (hvar : (V c (Pipeline.arrRef spec8 2) : S1x64.Idx → EReal) = var)
    (hg : (V c (Pipeline.arrRef spec8 3) : S1x64.Idx → EReal) = g)
    (hbe : (V c (Pipeline.arrRef spec8 4) : S1x64.Idx → EReal) = be) (r : Fin 50000) (q : Fin 64) :
    ((dat8 (F := Ideal) V c).arrAt 5 cfg8.N : S50000x64.Idx → EReal) (ix2 r q)
      = max ((((h (ix2 r q) - mu (ix2 0 q)) * Ideal.rsqrt (var (ix2 0 q) + Ideal.ofBits .f32 0x3727C5AC#32)) * g (ix2 0 q)) + be (ix2 0 q)) 0 := by
  exact (bn8_apply V c h mu var g be hh hmu hvar hg hbe r q).trans (by rw [Ideal.ofBits_zero_f32])

end Cert.KernelIdeal.Val

end
-- ==== Proof.IdealValStatsStep1.lean ====
/-
  Region 1 of @main, one accumulation step read at an index: at the ideal instance (extended reals, every operation
  exact) the step adds to each column's running value the sum of that column over the block's 10000 rows, and for the
  sums of squares the sum of the squares; the two accumulators start from the zero row.
-/
import proofs.«120485_j12249246728930_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-- The reduction over axis 0 of a [10000, 64] array, started from the zero word, read at column `q`: the sum of
    the column's 10000 entries. -/
theorem colsum1_apply (x : FVec Ideal S10000x64 .f32) (hφ : FKind.Formats .f32)
    (hacc : (0x00000000#32 : BitVec 32) = FKind.add.neutral .f32 hφ) (q : Fin 64) :
    multiReduction (F := Ideal) .add [0] S64 x 0x00000000#32 reduces_S10000x64_S64 hφ hacc (ix1 q)
      = ∑ y : Fin 10000, x (ix2 y q) := by
  refine (Ideal.multiReduction_add_single x _ reduces_S10000x64_S64 hφ hacc (ix1 q)).trans ?_
  refine Finset.sum_congr rfl fun y _ => congrArg x ?_
  funext a
  apply Fin.ext
  match a with
  | ⟨0, _⟩ => rfl
  | ⟨1, _⟩ => rfl

/-- One step of the running column sums at column `q`: what was there plus the block's column sum. -/
theorem k1_pay4_apply (x : Vec Ideal S10000x64 .f32) (s : Vec Ideal S1x64 .f32) (q : Fin 64) :
    (k1_pay4 (F := Ideal) x s : S1x64.Idx → EReal) (ix2 (0 : Fin 1) q)
      = (s : S1x64.Idx → EReal) (ix2 (0 : Fin 1) q) + ∑ y : Fin 10000, (x : S10000x64.Idx → EReal) (ix2 y q) := by
  unfold k1_pay4 k1_pay3
  rw [shapeCast_self, shapeCast_self, addf_apply, shapeCast_a_1a_apply]
  exact congrArg (fun z => (s : S1x64.Idx → EReal) (ix2 (0 : Fin 1) q) + z) (colsum1_apply x _ _ q)

/-- One step of the running column sums of squares at column `q`: what was there plus the block's column sum of
    squares. -/
theorem k1_pay5_apply (x : Vec Ideal S10000x64 .f32) (s : Vec Ideal S1x64 .f32) (q : Fin 64) :
    (k1_pay5 (F := Ideal) x s : S1x64.Idx → EReal) (ix2 (0 : Fin 1) q)
      = (s : S1x64.Idx → EReal) (ix2 (0 : Fin 1) q)
        + ∑ y : Fin 10000, (x : S10000x64.Idx → EReal) (ix2 y q) * (x : S10000x64.Idx → EReal) (ix2 y q) := by
  unfold k1_pay5 k1_pay3
  rw [shapeCast_self, shapeCast_self, addf_apply, shapeCast_a_1a_apply]
  exact congrArg (fun z => (s : S1x64.Idx → EReal) (ix2 (0 : Fin 1) q) + z) (colsum1_apply (mulf x x) _ _ q)

/-- The two accumulators start from the zero row. -/
theorem k1_pay1_apply (q : Fin 64) : (k1_pay1 (F := Ideal) : S1x64.Idx → EReal) (ix2 (0 : Fin 1) q) = 0 := by
  unfold k1_pay1
  rw [shapeCast_self, broadcast_apply]
  exact Ideal.ofBits_zero_f32

theorem k1_pay2_apply (q : Fin 64) : (k1_pay2 (F := Ideal) : S1x64.Idx → EReal) (ix2 (0 : Fin 1) q) = 0 := by
  unfold k1_pay2
  rw [shapeCast_self, broadcast_apply]
  exact Ideal.ofBits_zero_f32

end Cert.KernelIdeal.Val

end
-- ==== Proof.LibBlockSums.lean ====
/-
  Two facts about finite sums over initial segments of the naturals, in any commutative additive
  monoid (no subtraction, no order, no finiteness of the values is involved):

  * `sum_blocks`: summing `a` consecutive blocks of `b` consecutive naturals, block `p` being
    `b·p, …, b·p + b − 1`, is summing the first `a·b` naturals;
  * `sum_pad`: terms that vanish from `n` on may be dropped from a sum over the first `N ≥ n`
    naturals.

  Together they turn a sum accumulated block by block over a zero-padded range into the sum over
  the unpadded range.
-/
import Mathlib.Algebra.BigOperators.Fin
import Mathlib.Algebra.BigOperators.Intervals
import Mathlib.Logic.Equiv.Fin.Basic

open scoped BigOperators

namespace Cert.Lib.BlockSums

/-- A sum over `a` blocks of `b` consecutive naturals is the sum over all `a * b` of them. -/
theorem sum_blocks {M : Type*} [AddCommMonoid M] (a b : ℕ) (f : ℕ → M) :
    ∑ p ∈ Finset.range a, ∑ l : Fin b, f (b * p + l.val) = ∑ k : Fin (a * b), f k.val := by
  rw [← Fin.sum_univ_eq_sum_range (fun p => ∑ l : Fin b, f (b * p + l.val)) a,
    ← Equiv.sum_comp finProdFinEquiv (fun k : Fin (a * b) => f k.val), Fintype.sum_prod_type]
  refine Finset.sum_congr rfl fun p _ => Finset.sum_congr rfl fun l _ => ?_
  show f (b * p.val + l.val) = f (l.val + b * p.val)
  rw [Nat.add_comm]

/-- Terms that vanish from `n` on may be dropped from a sum over the first `N ≥ n` naturals. -/
theorem sum_pad {M : Type*} [AddCommMonoid M] (n N : ℕ) (hnN : n ≤ N) (f : ℕ → M)
    (hz : ∀ k, n ≤ k → k < N → f k = 0) : ∑ k : Fin N, f k.val = ∑ k : Fin n, f k.val := by
  rw [Fin.sum_univ_eq_sum_range f N, Fin.sum_univ_eq_sum_range f n]
  refine (Finset.sum_subset (Finset.range_mono hnN) fun k hk hk' => hz k ?_ ?_).symm
  · simpa using hk'
  · simpa using hk

end Cert.Lib.BlockSums
-- ==== Proof.IdealValStatsBlocks.lean ====
/-
  Five consecutive blocks of 10000 terms make up a sum over 50000 terms: the sum accumulated block by block from
  zero, in the order of the blocks, is the sum over all indices. Stated in any commutative additive monoid.
-/
import proofs.«120485_j12249246728930_1_alg».proof.Proof.LibBlockSums

open scoped BigOperators

namespace Cert.KernelIdeal.Val

/-- The running total over five blocks of 10000 consecutive indices, started from zero, is the sum over all 50000. -/
theorem five_blocks {M : Type*} [AddCommMonoid M] (g : Fin 50000 → M) :
    ((((0 + ∑ y : Fin 10000, g ⟨0 * 10000 + y.val, by have := y.isLt; omega⟩)
          + ∑ y : Fin 10000, g ⟨1 * 10000 + y.val, by have := y.isLt; omega⟩)
        + ∑ y : Fin 10000, g ⟨2 * 10000 + y.val, by have := y.isLt; omega⟩)
      + ∑ y : Fin 10000, g ⟨3 * 10000 + y.val, by have := y.isLt; omega⟩)
      + ∑ y : Fin 10000, g ⟨4 * 10000 + y.val, by have := y.isLt; omega⟩
      = ∑ r : Fin 50000, g r := by
  have e := Cert.Lib.BlockSums.sum_blocks 5 10000 (fun k : ℕ => if hk : k < 50000 then g ⟨k, hk⟩ else 0)
  have er : (∑ k : Fin (5 * 10000), (fun k : ℕ => if hk : k < 50000 then g ⟨k, hk⟩ else 0) k.val)
      = ∑ r : Fin 50000, g r :=
    Finset.sum_congr rfl fun k _ => dif_pos k.isLt
  have eb : ∀ p : ℕ, (hp : p < 5) →
      (∑ l : Fin 10000, (fun k : ℕ => if hk : k < 50000 then g ⟨k, hk⟩ else 0) (10000 * p + l.val))
        = ∑ y : Fin 10000, g ⟨p * 10000 + y.val, by have := y.isLt; omega⟩ := fun p hp =>
    Finset.sum_congr rfl fun l _ => by
      have hl := l.isLt
      have hk : 10000 * p + l.val < 50000 := by omega
      show (if hk : 10000 * p + l.val < 50000 then g ⟨10000 * p + l.val, hk⟩ else 0) = _
      rw [dif_pos hk]
      exact congrArg g (Fin.ext (by show 10000 * p + l.val = p * 10000 + l.val; omega))
  rw [er] at e
  rw [← e, Finset.sum_range_succ, Finset.sum_range_succ, Finset.sum_range_succ, Finset.sum_range_succ,
    Finset.sum_range_succ, Finset.sum_range_zero,
    eb 0 (by omega), eb 1 (by omega), eb 2 (by omega), eb 3 (by omega), eb 4 (by omega)]

end Cert.KernelIdeal.Val
-- ==== Proof.IdealValStats1.lean ====
/-
  Region 1 of @main at the ideal instance, the values: the two [1, 64] output arrays after the run are the column sums
  and the column sums of squares, over all 50000 rows, of the [50000, 64] array the region is entered with. The five
  accumulation steps are read at an index, the five input blocks are the array's consecutive runs of 10000 rows, and
  each output array is written back once, whole, at the last point.
-/
import proofs.«120485_j12249246728930_1_alg».proof.Proof.IdealStatsData1
import proofs.«120485_j12249246728930_1_alg».proof.Proof.IdealValStatsStep1
import proofs.«120485_j12249246728930_1_alg».proof.Proof.IdealValStatsBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## Five accumulation steps from zero over blocks that are consecutive runs of rows of one array -/

/-- Five steps of the running column sums from the zero row, over five blocks that are rows `10000 j + y` of an array
    `hh`, leave at column `q` the sum of `hh`'s column `q` over all 50000 rows. -/
theorem acc1_sum (hh : S50000x64.Idx → EReal) (x0 x1 x2 x3 x4 : Vec Ideal S10000x64 .f32)
    (e0 : ∀ (y : Fin 10000) (q : Fin 64), (x0 : S10000x64.Idx → EReal) (ix2 y q) = hh (ix2 ⟨0 * 10000 + y.val, by have := y.isLt; omega⟩ q))
    (e1 : ∀ (y : Fin 10000) (q : Fin 64), (x1 : S10000x64.Idx → EReal) (ix2 y q) = hh (ix2 ⟨1 * 10000 + y.val, by have := y.isLt; omega⟩ q))
    (e2 : ∀ (y : Fin 10000) (q : Fin 64), (x2 : S10000x64.Idx → EReal) (ix2 y q) = hh (ix2 ⟨2 * 10000 + y.val, by have := y.isLt; omega⟩ q))
    (e3 : ∀ (y : Fin 10000) (q : Fin 64), (x3 : S10000x64.Idx → EReal) (ix2 y q) = hh (ix2 ⟨3 * 10000 + y.val, by have := y.isLt; omega⟩ q))
    (e4 : ∀ (y : Fin 10000) (q : Fin 64), (x4 : S10000x64.Idx → EReal) (ix2 y q) = hh (ix2 ⟨4 * 10000 + y.val, by have := y.isLt; omega⟩ q))
    (q : Fin 64) :
    (k1_pay4 (F := Ideal) x4 (k1_pay4 x3 (k1_pay4 x2 (k1_pay4 x1 (k1_pay4 x0 (k1_pay1 (F := Ideal)))))) : S1x64.Idx → EReal) (ix2 (0 : Fin 1) q)
      = ∑ r : Fin 50000, hh (ix2 r q) := by
  rw [k1_pay4_apply, k1_pay4_apply, k1_pay4_apply, k1_pay4_apply, k1_pay4_apply, k1_pay1_apply]
  simp only [e0, e1, e2, e3, e4]
  exact five_blocks fun r => hh (ix2 r q)

/-- The same for the running column sums of squares. -/
theorem acc1_sq (hh : S50000x64.Idx → EReal) (x0 x1 x2 x3 x4 : Vec Ideal S10000x64 .f32)
    (e0 : ∀ (y : Fin 10000) (q : Fin 64), (x0 : S10000x64.Idx → EReal) (ix2 y q) = hh (ix2 ⟨0 * 10000 + y.val, by have := y.isLt; omega⟩ q))
    (e1 : ∀ (y : Fin 10000) (q : Fin 64), (x1 : S10000x64.Idx → EReal) (ix2 y q) = hh (ix2 ⟨1 * 10000 + y.val, by have := y.isLt; omega⟩ q))
    (e2 : ∀ (y : Fin 10000) (q : Fin 64), (x2 : S10000x64.Idx → EReal) (ix2 y q) = hh (ix2 ⟨2 * 10000 + y.val, by have := y.isLt; omega⟩ q))
    (e3 : ∀ (y : Fin 10000) (q : Fin 64), (x3 : S10000x64.Idx → EReal) (ix2 y q) = hh (ix2 ⟨3 * 10000 + y.val, by have := y.isLt; omega⟩ q))
    (e4 : ∀ (y : Fin 10000) (q : Fin 64), (x4 : S10000x64.Idx → EReal) (ix2 y q) = hh (ix2 ⟨4 * 10000 + y.val, by have := y.isLt; omega⟩ q))
    (q : Fin 64) :
    (k1_pay5 (F := Ideal) x4 (k1_pay5 x3 (k1_pay5 x2 (k1_pay5 x1 (k1_pay5 x0 (k1_pay2 (F := Ideal)))))) : S1x64.Idx → EReal) (ix2 (0 : Fin 1) q)
      = ∑ r : Fin 50000, hh (ix2 r q) * hh (ix2 r q) := by
  rw [k1_pay5_apply, k1_pay5_apply, k1_pay5_apply, k1_pay5_apply, k1_pay5_apply, k1_pay2_apply]
  simp only [e0, e1, e2, e3, e4]
  exact five_blocks fun r => hh (ix2 r q) * hh (ix2 r q)

/-! ## The input window's blocks as rows of the array the region is entered with -/

/-- The [50000, 64] array the region is entered with, as a function of its index into the extended reals. -/
abbrev ent1 (c : Dev nD) : S50000x64.Idx → EReal := V c (Pipeline.arrRef spec1 0)

/-- The input window's block index at point `t` is `(t, 0)` (decided over the five points). -/
theorem idx1_0 : ∀ t : Fin cfg1.N, win1_0.index t (0 : Fin 2) = t.val ∧ win1_0.index t (1 : Fin 2) = 0 :=
  (by decide +kernel : ∀ t : Fin grid1.N, _)

/-- The input block at point `t` is rows `10000 t … 10000 t + 9999` of the entry array. -/
theorem iblk1_apply (c : Dev nD) (t : Fin cfg1.N) (y : Fin 10000) (q : Fin 64) (r : Fin 50000)
    (hr : r.val = t.val * 10000 + y.val) :
    (iblk1 V c 0 t : S10000x64.Idx → EReal) (ix2 y q)
      = (V c (Pipeline.arrRef spec1 0) : S50000x64.Idx → EReal) (ix2 r q) := by
  obtain ⟨i0, i1⟩ := idx1_0 t
  unfold iblk1
  rw [View.read_apply]
  show (V c (Pipeline.arrRef spec1 0) : S50000x64.Idx → EReal) _ = _
  refine congrArg _ ?_
  funext a
  apply Fin.ext
  match a with
  | ⟨0, _⟩ => show win1_0.index t 0 * 10000 + 1 * y.val = r.val; rw [i0, hr]; omega
  | ⟨1, _⟩ => show win1_0.index t 1 * 64 + 1 * q.val = q.val; rw [i1]; omega

/-- The column sums after the last point: the entry array's column sums over all 50000 rows. -/
theorem sum1_4_apply (c : Dev nD) (q : Fin 64) :
    (sum1_4 V c : S1x64.Idx → EReal) (ix2 (0 : Fin 1) q)
      = ∑ r : Fin 50000, ent1 V c (ix2 r q) :=
  acc1_sum (ent1 V c) (iblk1 V c 0 t1_0) (iblk1 V c 0 t1_1) (iblk1 V c 0 t1_2) (iblk1 V c 0 t1_3) (iblk1 V c 0 t1_4)
    (fun y q => iblk1_apply V c t1_0 y q _ rfl) (fun y q => iblk1_apply V c t1_1 y q _ rfl)
    (fun y q => iblk1_apply V c t1_2 y q _ rfl) (fun y q => iblk1_apply V c t1_3 y q _ rfl)
    (fun y q => iblk1_apply V c t1_4 y q _ rfl) q

/-- The column sums of squares after the last point. -/
theorem sq1_4_apply (c : Dev nD) (q : Fin 64) :
    (sq1_4 V c : S1x64.Idx → EReal) (ix2 (0 : Fin 1) q)
      = ∑ r : Fin 50000, ent1 V c (ix2 r q) * ent1 V c (ix2 r q) :=
  acc1_sq (ent1 V c) (iblk1 V c 0 t1_0) (iblk1 V c 0 t1_1) (iblk1 V c 0 t1_2) (iblk1 V c 0 t1_3) (iblk1 V c 0 t1_4)
    (fun y q => iblk1_apply V c t1_0 y q _ rfl) (fun y q => iblk1_apply V c t1_1 y q _ rfl)
    (fun y q => iblk1_apply V c t1_2 y q _ rfl) (fun y q => iblk1_apply V c t1_3 y q _ rfl)
    (fun y q => iblk1_apply V c t1_4 y q _ rfl) q

/-! ## The two output arrays after the run: written back once, at the last point, whole -/

/-- The one write-back of the sums' window, at the last point, writes the final running sums: block (0, 0) of the
    [1, 64] array read through zero offsets is the array. -/
theorem flushed1_1_eq (c : Dev nD) (t : Fin cfg1.N) (hf : (cfg1.win 1).flush t = true) :
    (dat1 V c).flushed 1 t = ((cfg1.win 1).blk t).view.read (Elt Ideal) (sum1_4 V c) := by
  have hN : cfg1.N = 5 := N_1
  have h1 : t.val = 4 := by have := (flush1_1 t).mp hf; have := t.isLt; omega
  obtain rfl : t = t1_4 := Fin.ext h1
  show (cfg1.win 1).cut (grid1.coords t1_4) ((dat1 V c).after 1 t1_4) = _
  rw [after1_1]
  show (cfg1.win 1).cut (grid1.coords t1_4) (sum1_4 V c) = _
  have hz' : (fun a => win1_1.index t1_4 a * main_v56_0.ty.shape.size a) = fun _ => 0 := funext fun a => by fin_cases a <;> decide
  exact (Memref.read_access_unit_zero (Elt Ideal) main_v56_0 hz' (fun a => by rw [congrFun hz' a]; simp) (sum1_4 V c)).symm

theorem flushed1_2_eq (c : Dev nD) (t : Fin cfg1.N) (hf : (cfg1.win 2).flush t = true) :
    (dat1 V c).flushed 2 t = ((cfg1.win 2).blk t).view.read (Elt Ideal) (sq1_4 V c) := by
  have hN : cfg1.N = 5 := N_1
  have h1 : t.val = 4 := by have := (flush1_2 t).mp hf; have := t.isLt; omega
  obtain rfl : t = t1_4 := Fin.ext h1
  show (cfg1.win 2).cut (grid1.coords t1_4) ((dat1 V c).after 2 t1_4) = _
  rw [after1_2]
  show (cfg1.win 2).cut (grid1.coords t1_4) (sq1_4 V c) = _
  have hz' : (fun a => win1_2.index t1_4 a * main_v56_1.ty.shape.size a) = fun _ => 0 := funext fun a => by fin_cases a <;> decide
  exact (Memref.read_access_unit_zero (Elt Ideal) main_v56_1 hz' (fun a => by rw [congrFun hz' a]; simp) (sq1_4 V c)).symm

/-- The last point's block of an output window covers its whole [1, 64] array. -/
theorem cover1_1 (i : S1x64.Idx) : i ∈ ((cfg1.win 1).blk t1_4).view.set := by
  show i ∈ ((View.whole main_v56_0).slice (win1_1.rect t1_4)).set
  rw [View.set_slice_whole, Rect.mem_set_unit]
  intro a
  have h0 : (i 0 : Nat) < 1 := (i 0).isLt
  have h1 : (i 1 : Nat) < 64 := (i 1).isLt
  match a with
  | ⟨0, _⟩ =>
    show win1_1.index t1_4 0 * win1_1.size 0 ≤ (i 0 : Nat) ∧ (i 0 : Nat) < win1_1.index t1_4 0 * win1_1.size 0 + win1_1.xsize (grid1.coords t1_4) 0
    rw [show win1_1.index t1_4 0 * win1_1.size 0 = 0 from by decide +kernel, show win1_1.xsize (grid1.coords t1_4) 0 = 1 from by decide +kernel]; omega
  | ⟨1, _⟩ =>
    show win1_1.index t1_4 1 * win1_1.size 1 ≤ (i 1 : Nat) ∧ (i 1 : Nat) < win1_1.index t1_4 1 * win1_1.size 1 + win1_1.xsize (grid1.coords t1_4) 1
    rw [show win1_1.index t1_4 1 * win1_1.size 1 = 0 from by decide +kernel, show win1_1.xsize (grid1.coords t1_4) 1 = 64 from by decide +kernel]; omega

theorem cover1_2 (i : S1x64.Idx) : i ∈ ((cfg1.win 2).blk t1_4).view.set := by
  show i ∈ ((View.whole main_v56_1).slice (win1_2.rect t1_4)).set
  rw [View.set_slice_whole, Rect.mem_set_unit]
  intro a
  have h0 : (i 0 : Nat) < 1 := (i 0).isLt
  have h1 : (i 1 : Nat) < 64 := (i 1).isLt
  match a with
  | ⟨0, _⟩ =>
    show win1_2.index t1_4 0 * win1_2.size 0 ≤ (i 0 : Nat) ∧ (i 0 : Nat) < win1_2.index t1_4 0 * win1_2.size 0 + win1_2.xsize (grid1.coords t1_4) 0
    rw [show win1_2.index t1_4 0 * win1_2.size 0 = 0 from by decide +kernel, show win1_2.xsize (grid1.coords t1_4) 0 = 1 from by decide +kernel]; omega
  | ⟨1, _⟩ =>
    show win1_2.index t1_4 1 * win1_2.size 1 ≤ (i 1 : Nat) ∧ (i 1 : Nat) < win1_2.index t1_4 1 * win1_2.size 1 + win1_2.xsize (grid1.coords t1_4) 1
    rw [show win1_2.index t1_4 1 * win1_2.size 1 = 0 from by decide +kernel, show win1_2.xsize (grid1.coords t1_4) 1 = 64 from by decide +kernel]; omega

/-- So the sums' array ends holding the final running sums, and the sums of squares' array the final running sums of
    squares. -/
theorem final1_1 (c : Dev nD) : (dat1 V c).arrAt 1 cfg1.N = sum1_4 V c :=
  (dat1 V c).arrAt_eq_of_cover 1 (sum1_4 V c) (flushed1_1_eq V c) fun i =>
    ⟨t1_4, (flush1_1 t1_4).mpr rfl, cover1_1 i⟩

theorem final1_2 (c : Dev nD) : (dat1 V c).arrAt 2 cfg1.N = sq1_4 V c :=
  (dat1 V c).arrAt_eq_of_cover 2 (sq1_4 V c) (flushed1_2_eq V c) fun i =>
    ⟨t1_4, (flush1_2 t1_4).mpr rfl, cover1_2 i⟩

/-! ## The batch statistics of region 1 -/

/-- After the run the first output array holds, at column `q`, the sum over all 50000 rows of column `q` of the
    array the region was entered with. -/
theorem stats1_sum_apply (c : Dev nD) (q : Fin 64) :
    ((dat1 (F := Ideal) V c).arrAt 1 cfg1.N : S1x64.Idx → EReal) (ix2 (0 : Fin 1) q)
      = ∑ r : Fin 50000, ent1 V c (ix2 r q) := by
  rw [final1_1]; exact sum1_4_apply V c q

/-- After the run the second output array holds, at column `q`, the sum over all 50000 rows of the squares of
    column `q` of the array the region was entered with. -/
theorem stats1_sq_apply (c : Dev nD) (q : Fin 64) :
    ((dat1 (F := Ideal) V c).arrAt 2 cfg1.N : S1x64.Idx → EReal) (ix2 (0 : Fin 1) q)
      = ∑ r : Fin 50000, ent1 V c (ix2 r q) * ent1 V c (ix2 r q) := by
  rw [final1_2]; exact sq1_4_apply V c q

/-- The same two facts against any function `h` equal to the entry array. -/
theorem stats1_sum_apply_of (c : Dev nD) (h : S50000x64.Idx → EReal) (hh : h = V c (Pipeline.arrRef spec1 0)) (q : Fin 64) :
    ((dat1 (F := Ideal) V c).arrAt 1 cfg1.N : S1x64.Idx → EReal) (ix2 (0 : Fin 1) q) = ∑ r : Fin 50000, h (ix2 r q) := by
  subst hh; exact stats1_sum_apply V c q

theorem stats1_sq_apply_of (c : Dev nD) (h : S50000x64.Idx → EReal) (hh : h = V c (Pipeline.arrRef spec1 0)) (q : Fin 64) :
    ((dat1 (F := Ideal) V c).arrAt 2 cfg1.N : S1x64.Idx → EReal) (ix2 (0 : Fin 1) q)
      = ∑ r : Fin 50000, h (ix2 r q) * h (ix2 r q) := by
  subst hh; exact stats1_sq_apply V c q

end Cert.KernelIdeal.Val

end
-- ==== Proof.IdealValStatsStep4.lean ====
/-
  Region 4 of @main, one accumulation step read at an index: at the ideal instance (extended reals, every operation
  exact) the step adds to each column's running value the sum of that column over the block's 10000 rows, and for the
  sums of squares the sum of the squares; the two accumulators start from the zero row.
-/
import proofs.«120485_j12249246728930_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-- The reduction over axis 0 of a [10000, 64] array, started from the zero word, read at column `q`: the sum of
    the column's 10000 entries. -/
theorem colsum4_apply (x : FVec Ideal S10000x64 .f32) (hφ : FKind.Formats .f32)
    (hacc : (0x00000000#32 : BitVec 32) = FKind.add.neutral .f32 hφ) (q : Fin 64) :
    multiReduction (F := Ideal) .add [0] S64 x 0x00000000#32 reduces_S10000x64_S64 hφ hacc (ix1 q)
      = ∑ y : Fin 10000, x (ix2 y q) := by
  refine (Ideal.multiReduction_add_single x _ reduces_S10000x64_S64 hφ hacc (ix1 q)).trans ?_
  refine Finset.sum_congr rfl fun y _ => congrArg x ?_
  funext a
  apply Fin.ext
  match a with
  | ⟨0, _⟩ => rfl
  | ⟨1, _⟩ => rfl

/-- One step of the running column sums at column `q`: what was there plus the block's column sum. -/
theorem k4_pay4_apply (x : Vec Ideal S10000x64 .f32) (s : Vec Ideal S1x64 .f32) (q : Fin 64) :
    (k4_pay4 (F := Ideal) x s : S1x64.Idx → EReal) (ix2 (0 : Fin 1) q)
      = (s : S1x64.Idx → EReal) (ix2 (0 : Fin 1) q) + ∑ y : Fin 10000, (x : S10000x64.Idx → EReal) (ix2 y q) := by
  unfold k4_pay4 k4_pay3
  rw [shapeCast_self, shapeCast_self, addf_apply, shapeCast_a_1a_apply]
  exact congrArg (fun z => (s : S1x64.Idx → EReal) (ix2 (0 : Fin 1) q) + z) (colsum4_apply x _ _ q)

/-- One step of the running column sums of squares at column `q`: what was there plus the block's column sum of
    squares. -/
theorem k4_pay5_apply (x : Vec Ideal S10000x64 .f32) (s : Vec Ideal S1x64 .f32) (q : Fin 64) :
    (k4_pay5 (F := Ideal) x s : S1x64.Idx → EReal) (ix2 (0 : Fin 1) q)
      = (s : S1x64.Idx → EReal) (ix2 (0 : Fin 1) q)
        + ∑ y : Fin 10000, (x : S10000x64.Idx → EReal) (ix2 y q) * (x : S10000x64.Idx → EReal) (ix2 y q) := by
  unfold k4_pay5 k4_pay3
  rw [shapeCast_self, shapeCast_self, addf_apply, shapeCast_a_1a_apply]
  exact congrArg (fun z => (s : S1x64.Idx → EReal) (ix2 (0 : Fin 1) q) + z) (colsum4_apply (mulf x x) _ _ q)

/-- The two accumulators start from the zero row. -/
theorem k4_pay1_apply (q : Fin 64) : (k4_pay1 (F := Ideal) : S1x64.Idx → EReal) (ix2 (0 : Fin 1) q) = 0 := by
  unfold k4_pay1
  rw [shapeCast_self, broadcast_apply]
  exact Ideal.ofBits_zero_f32

theorem k4_pay2_apply (q : Fin 64) : (k4_pay2 (F := Ideal) : S1x64.Idx → EReal) (ix2 (0 : Fin 1) q) = 0 := by
  unfold k4_pay2
  rw [shapeCast_self, broadcast_apply]
  exact Ideal.ofBits_zero_f32

end Cert.KernelIdeal.Val

end
-- ==== Proof.IdealValStats4.lean ====
/-
  Region 4 of @main at the ideal instance, the values: the two [1, 64] output arrays after the run are the column sums
  and the column sums of squares, over all 50000 rows, of the [50000, 64] array the region is entered with. The five
  accumulation steps are read at an index, the five input blocks are the array's consecutive runs of 10000 rows, and
  each output array is written back once, whole, at the last point.
-/
import proofs.«120485_j12249246728930_1_alg».proof.Proof.IdealStatsData4
import proofs.«120485_j12249246728930_1_alg».proof.Proof.IdealValStatsStep4
import proofs.«120485_j12249246728930_1_alg».proof.Proof.IdealValStatsBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## Five accumulation steps from zero over blocks that are consecutive runs of rows of one array -/

/-- Five steps of the running column sums from the zero row, over five blocks that are rows `10000 j + y` of an array
    `hh`, leave at column `q` the sum of `hh`'s column `q` over all 50000 rows. -/
theorem acc4_sum (hh : S50000x64.Idx → EReal) (x0 x1 x2 x3 x4 : Vec Ideal S10000x64 .f32)
    (e0 : ∀ (y : Fin 10000) (q : Fin 64), (x0 : S10000x64.Idx → EReal) (ix2 y q) = hh (ix2 ⟨0 * 10000 + y.val, by have := y.isLt; omega⟩ q))
    (e1 : ∀ (y : Fin 10000) (q : Fin 64), (x1 : S10000x64.Idx → EReal) (ix2 y q) = hh (ix2 ⟨1 * 10000 + y.val, by have := y.isLt; omega⟩ q))
    (e2 : ∀ (y : Fin 10000) (q : Fin 64), (x2 : S10000x64.Idx → EReal) (ix2 y q) = hh (ix2 ⟨2 * 10000 + y.val, by have := y.isLt; omega⟩ q))
    (e3 : ∀ (y : Fin 10000) (q : Fin 64), (x3 : S10000x64.Idx → EReal) (ix2 y q) = hh (ix2 ⟨3 * 10000 + y.val, by have := y.isLt; omega⟩ q))
    (e4 : ∀ (y : Fin 10000) (q : Fin 64), (x4 : S10000x64.Idx → EReal) (ix2 y q) = hh (ix2 ⟨4 * 10000 + y.val, by have := y.isLt; omega⟩ q))
    (q : Fin 64) :
    (k4_pay4 (F := Ideal) x4 (k4_pay4 x3 (k4_pay4 x2 (k4_pay4 x1 (k4_pay4 x0 (k4_pay1 (F := Ideal)))))) : S1x64.Idx → EReal) (ix2 (0 : Fin 1) q)
      = ∑ r : Fin 50000, hh (ix2 r q) := by
  rw [k4_pay4_apply, k4_pay4_apply, k4_pay4_apply, k4_pay4_apply, k4_pay4_apply, k4_pay1_apply]
  simp only [e0, e1, e2, e3, e4]
  exact five_blocks fun r => hh (ix2 r q)

/-- The same for the running column sums of squares. -/
theorem acc4_sq (hh : S50000x64.Idx → EReal) (x0 x1 x2 x3 x4 : Vec Ideal S10000x64 .f32)
    (e0 : ∀ (y : Fin 10000) (q : Fin 64), (x0 : S10000x64.Idx → EReal) (ix2 y q) = hh (ix2 ⟨0 * 10000 + y.val, by have := y.isLt; omega⟩ q))
    (e1 : ∀ (y : Fin 10000) (q : Fin 64), (x1 : S10000x64.Idx → EReal) (ix2 y q) = hh (ix2 ⟨1 * 10000 + y.val, by have := y.isLt; omega⟩ q))
    (e2 : ∀ (y : Fin 10000) (q : Fin 64), (x2 : S10000x64.Idx → EReal) (ix2 y q) = hh (ix2 ⟨2 * 10000 + y.val, by have := y.isLt; omega⟩ q))
    (e3 : ∀ (y : Fin 10000) (q : Fin 64), (x3 : S10000x64.Idx → EReal) (ix2 y q) = hh (ix2 ⟨3 * 10000 + y.val, by have := y.isLt; omega⟩ q))
    (e4 : ∀ (y : Fin 10000) (q : Fin 64), (x4 : S10000x64.Idx → EReal) (ix2 y q) = hh (ix2 ⟨4 * 10000 + y.val, by have := y.isLt; omega⟩ q))
    (q : Fin 64) :
    (k4_pay5 (F := Ideal) x4 (k4_pay5 x3 (k4_pay5 x2 (k4_pay5 x1 (k4_pay5 x0 (k4_pay2 (F := Ideal)))))) : S1x64.Idx → EReal) (ix2 (0 : Fin 1) q)
      = ∑ r : Fin 50000, hh (ix2 r q) * hh (ix2 r q) := by
  rw [k4_pay5_apply, k4_pay5_apply, k4_pay5_apply, k4_pay5_apply, k4_pay5_apply, k4_pay2_apply]
  simp only [e0, e1, e2, e3, e4]
  exact five_blocks fun r => hh (ix2 r q) * hh (ix2 r q)

/-! ## The input window's blocks as rows of the array the region is entered with -/

/-- The [50000, 64] array the region is entered with, as a function of its index into the extended reals. -/
abbrev ent4 (c : Dev nD) : S50000x64.Idx → EReal := V c (Pipeline.arrRef spec4 0)

/-- The input window's block index at point `t` is `(t, 0)` (decided over the five points). -/
theorem idx4_0 : ∀ t : Fin cfg4.N, win4_0.index t (0 : Fin 2) = t.val ∧ win4_0.index t (1 : Fin 2) = 0 :=
  (by decide +kernel : ∀ t : Fin grid4.N, _)

/-- The input block at point `t` is rows `10000 t … 10000 t + 9999` of the entry array. -/
theorem iblk4_apply (c : Dev nD) (t : Fin cfg4.N) (y : Fin 10000) (q : Fin 64) (r : Fin 50000)
    (hr : r.val = t.val * 10000 + y.val) :
    (iblk4 V c 0 t : S10000x64.Idx → EReal) (ix2 y q)
      = (V c (Pipeline.arrRef spec4 0) : S50000x64.Idx → EReal) (ix2 r q) := by
  obtain ⟨i0, i1⟩ := idx4_0 t
  unfold iblk4
  rw [View.read_apply]
  show (V c (Pipeline.arrRef spec4 0) : S50000x64.Idx → EReal) _ = _
  refine congrArg _ ?_
  funext a
  apply Fin.ext
  match a with
  | ⟨0, _⟩ => show win4_0.index t 0 * 10000 + 1 * y.val = r.val; rw [i0, hr]; omega
  | ⟨1, _⟩ => show win4_0.index t 1 * 64 + 1 * q.val = q.val; rw [i1]; omega

/-- The column sums after the last point: the entry array's column sums over all 50000 rows. -/
theorem sum4_4_apply (c : Dev nD) (q : Fin 64) :
    (sum4_4 V c : S1x64.Idx → EReal) (ix2 (0 : Fin 1) q)
      = ∑ r : Fin 50000, ent4 V c (ix2 r q) :=
  acc4_sum (ent4 V c) (iblk4 V c 0 t4_0) (iblk4 V c 0 t4_1) (iblk4 V c 0 t4_2) (iblk4 V c 0 t4_3) (iblk4 V c 0 t4_4)
    (fun y q => iblk4_apply V c t4_0 y q _ rfl) (fun y q => iblk4_apply V c t4_1 y q _ rfl)
    (fun y q => iblk4_apply V c t4_2 y q _ rfl) (fun y q => iblk4_apply V c t4_3 y q _ rfl)
    (fun y q => iblk4_apply V c t4_4 y q _ rfl) q

/-- The column sums of squares after the last point. -/
theorem sq4_4_apply (c : Dev nD) (q : Fin 64) :
    (sq4_4 V c : S1x64.Idx → EReal) (ix2 (0 : Fin 1) q)
      = ∑ r : Fin 50000, ent4 V c (ix2 r q) * ent4 V c (ix2 r q) :=
  acc4_sq (ent4 V c) (iblk4 V c 0 t4_0) (iblk4 V c 0 t4_1) (iblk4 V c 0 t4_2) (iblk4 V c 0 t4_3) (iblk4 V c 0 t4_4)
    (fun y q => iblk4_apply V c t4_0 y q _ rfl) (fun y q => iblk4_apply V c t4_1 y q _ rfl)
    (fun y q => iblk4_apply V c t4_2 y q _ rfl) (fun y q => iblk4_apply V c t4_3 y q _ rfl)
    (fun y q => iblk4_apply V c t4_4 y q _ rfl) q

/-! ## The two output arrays after the run: written back once, at the last point, whole -/

/-- The one write-back of the sums' window, at the last point, writes the final running sums: block (0, 0) of the
    [1, 64] array read through zero offsets is the array. -/
theorem flushed4_1_eq (c : Dev nD) (t : Fin cfg4.N) (hf : (cfg4.win 1).flush t = true) :
    (dat4 V c).flushed 1 t = ((cfg4.win 1).blk t).view.read (Elt Ideal) (sum4_4 V c) := by
  have hN : cfg4.N = 5 := N_4
  have h1 : t.val = 4 := by have := (flush4_1 t).mp hf; have := t.isLt; omega
  obtain rfl : t = t4_4 := Fin.ext h1
  show (cfg4.win 1).cut (grid4.coords t4_4) ((dat4 V c).after 1 t4_4) = _
  rw [after4_1]
  show (cfg4.win 1).cut (grid4.coords t4_4) (sum4_4 V c) = _
  have hz' : (fun a => win4_1.index t4_4 a * main_v93_0.ty.shape.size a) = fun _ => 0 := funext fun a => by fin_cases a <;> decide
  exact (Memref.read_access_unit_zero (Elt Ideal) main_v93_0 hz' (fun a => by rw [congrFun hz' a]; simp) (sum4_4 V c)).symm

theorem flushed4_2_eq (c : Dev nD) (t : Fin cfg4.N) (hf : (cfg4.win 2).flush t = true) :
    (dat4 V c).flushed 2 t = ((cfg4.win 2).blk t).view.read (Elt Ideal) (sq4_4 V c) := by
  have hN : cfg4.N = 5 := N_4
  have h1 : t.val = 4 := by have := (flush4_2 t).mp hf; have := t.isLt; omega
  obtain rfl : t = t4_4 := Fin.ext h1
  show (cfg4.win 2).cut (grid4.coords t4_4) ((dat4 V c).after 2 t4_4) = _
  rw [after4_2]
  show (cfg4.win 2).cut (grid4.coords t4_4) (sq4_4 V c) = _
  have hz' : (fun a => win4_2.index t4_4 a * main_v93_1.ty.shape.size a) = fun _ => 0 := funext fun a => by fin_cases a <;> decide
  exact (Memref.read_access_unit_zero (Elt Ideal) main_v93_1 hz' (fun a => by rw [congrFun hz' a]; simp) (sq4_4 V c)).symm

/-- The last point's block of an output window covers its whole [1, 64] array. -/
theorem cover4_1 (i : S1x64.Idx) : i ∈ ((cfg4.win 1).blk t4_4).view.set := by
  show i ∈ ((View.whole main_v93_0).slice (win4_1.rect t4_4)).set
  rw [View.set_slice_whole, Rect.mem_set_unit]
  intro a
  have h0 : (i 0 : Nat) < 1 := (i 0).isLt
  have h1 : (i 1 : Nat) < 64 := (i 1).isLt
  match a with
  | ⟨0, _⟩ =>
    show win4_1.index t4_4 0 * win4_1.size 0 ≤ (i 0 : Nat) ∧ (i 0 : Nat) < win4_1.index t4_4 0 * win4_1.size 0 + win4_1.xsize (grid4.coords t4_4) 0
    rw [show win4_1.index t4_4 0 * win4_1.size 0 = 0 from by decide +kernel, show win4_1.xsize (grid4.coords t4_4) 0 = 1 from by decide +kernel]; omega
  | ⟨1, _⟩ =>
    show win4_1.index t4_4 1 * win4_1.size 1 ≤ (i 1 : Nat) ∧ (i 1 : Nat) < win4_1.index t4_4 1 * win4_1.size 1 + win4_1.xsize (grid4.coords t4_4) 1
    rw [show win4_1.index t4_4 1 * win4_1.size 1 = 0 from by decide +kernel, show win4_1.xsize (grid4.coords t4_4) 1 = 64 from by decide +kernel]; omega

theorem cover4_2 (i : S1x64.Idx) : i ∈ ((cfg4.win 2).blk t4_4).view.set := by
  show i ∈ ((View.whole main_v93_1).slice (win4_2.rect t4_4)).set
  rw [View.set_slice_whole, Rect.mem_set_unit]
  intro a
  have h0 : (i 0 : Nat) < 1 := (i 0).isLt
  have h1 : (i 1 : Nat) < 64 := (i 1).isLt
  match a with
  | ⟨0, _⟩ =>
    show win4_2.index t4_4 0 * win4_2.size 0 ≤ (i 0 : Nat) ∧ (i 0 : Nat) < win4_2.index t4_4 0 * win4_2.size 0 + win4_2.xsize (grid4.coords t4_4) 0
    rw [show win4_2.index t4_4 0 * win4_2.size 0 = 0 from by decide +kernel, show win4_2.xsize (grid4.coords t4_4) 0 = 1 from by decide +kernel]; omega
  | ⟨1, _⟩ =>
    show win4_2.index t4_4 1 * win4_2.size 1 ≤ (i 1 : Nat) ∧ (i 1 : Nat) < win4_2.index t4_4 1 * win4_2.size 1 + win4_2.xsize (grid4.coords t4_4) 1
    rw [show win4_2.index t4_4 1 * win4_2.size 1 = 0 from by decide +kernel, show win4_2.xsize (grid4.coords t4_4) 1 = 64 from by decide +kernel]; omega

/-- So the sums' array ends holding the final running sums, and the sums of squares' array the final running sums of
    squares. -/
theorem final4_1 (c : Dev nD) : (dat4 V c).arrAt 1 cfg4.N = sum4_4 V c :=
  (dat4 V c).arrAt_eq_of_cover 1 (sum4_4 V c) (flushed4_1_eq V c) fun i =>
    ⟨t4_4, (flush4_1 t4_4).mpr rfl, cover4_1 i⟩

theorem final4_2 (c : Dev nD) : (dat4 V c).arrAt 2 cfg4.N = sq4_4 V c :=
  (dat4 V c).arrAt_eq_of_cover 2 (sq4_4 V c) (flushed4_2_eq V c) fun i =>
    ⟨t4_4, (flush4_2 t4_4).mpr rfl, cover4_2 i⟩

/-! ## The batch statistics of region 4 -/

/-- After the run the first output array holds, at column `q`, the sum over all 50000 rows of column `q` of the
    array the region was entered with. -/
theorem stats4_sum_apply (c : Dev nD) (q : Fin 64) :
    ((dat4 (F := Ideal) V c).arrAt 1 cfg4.N : S1x64.Idx → EReal) (ix2 (0 : Fin 1) q)
      = ∑ r : Fin 50000, ent4 V c (ix2 r q) := by
  rw [final4_1]; exact sum4_4_apply V c q

/-- After the run the second output array holds, at column `q`, the sum over all 50000 rows of the squares of
    column `q` of the array the region was entered with. -/
theorem stats4_sq_apply (c : Dev nD) (q : Fin 64) :
    ((dat4 (F := Ideal) V c).arrAt 2 cfg4.N : S1x64.Idx → EReal) (ix2 (0 : Fin 1) q)
      = ∑ r : Fin 50000, ent4 V c (ix2 r q) * ent4 V c (ix2 r q) := by
  rw [final4_2]; exact sq4_4_apply V c q

/-- The same two facts against any function `h` equal to the entry array. -/
theorem stats4_sum_apply_of (c : Dev nD) (h : S50000x64.Idx → EReal) (hh : h = V c (Pipeline.arrRef spec4 0)) (q : Fin 64) :
    ((dat4 (F := Ideal) V c).arrAt 1 cfg4.N : S1x64.Idx → EReal) (ix2 (0 : Fin 1) q) = ∑ r : Fin 50000, h (ix2 r q) := by
  subst hh; exact stats4_sum_apply V c q

theorem stats4_sq_apply_of (c : Dev nD) (h : S50000x64.Idx → EReal) (hh : h = V c (Pipeline.arrRef spec4 0)) (q : Fin 64) :
    ((dat4 (F := Ideal) V c).arrAt 2 cfg4.N : S1x64.Idx → EReal) (ix2 (0 : Fin 1) q)
      = ∑ r : Fin 50000, h (ix2 r q) * h (ix2 r q) := by
  subst hh; exact stats4_sq_apply V c q

end Cert.KernelIdeal.Val

end
-- ==== Proof.IdealValStatsStep7.lean ====
/-
  Region 7 of @main, one accumulation step read at an index: at the ideal instance (extended reals, every operation
  exact) the step adds to each column's running value the sum of that column over the block's 10000 rows, and for the
  sums of squares the sum of the squares; the two accumulators start from the zero row.
-/
import proofs.«120485_j12249246728930_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx
open scoped BigOperators

/-- The reduction over axis 0 of a [10000, 64] array, started from the zero word, read at column `q`: the sum of
    the column's 10000 entries. -/
theorem colsum7_apply (x : FVec Ideal S10000x64 .f32) (hφ : FKind.Formats .f32)
    (hacc : (0x00000000#32 : BitVec 32) = FKind.add.neutral .f32 hφ) (q : Fin 64) :
    multiReduction (F := Ideal) .add [0] S64 x 0x00000000#32 reduces_S10000x64_S64 hφ hacc (ix1 q)
      = ∑ y : Fin 10000, x (ix2 y q) := by
  refine (Ideal.multiReduction_add_single x _ reduces_S10000x64_S64 hφ hacc (ix1 q)).trans ?_
  refine Finset.sum_congr rfl fun y _ => congrArg x ?_
  funext a
  apply Fin.ext
  match a with
  | ⟨0, _⟩ => rfl
  | ⟨1, _⟩ => rfl

/-- One step of the running column sums at column `q`: what was there plus the block's column sum. -/
theorem k7_pay4_apply (x : Vec Ideal S10000x64 .f32) (s : Vec Ideal S1x64 .f32) (q : Fin 64) :
    (k7_pay4 (F := Ideal) x s : S1x64.Idx → EReal) (ix2 (0 : Fin 1) q)
      = (s : S1x64.Idx → EReal) (ix2 (0 : Fin 1) q) + ∑ y : Fin 10000, (x : S10000x64.Idx → EReal) (ix2 y q) := by
  unfold k7_pay4 k7_pay3
  rw [shapeCast_self, shapeCast_self, addf_apply, shapeCast_a_1a_apply]
  exact congrArg (fun z => (s : S1x64.Idx → EReal) (ix2 (0 : Fin 1) q) + z) (colsum7_apply x _ _ q)

/-- One step of the running column sums of squares at column `q`: what was there plus the block's column sum of
    squares. -/
theorem k7_pay5_apply (x : Vec Ideal S10000x64 .f32) (s : Vec Ideal S1x64 .f32) (q : Fin 64) :
    (k7_pay5 (F := Ideal) x s : S1x64.Idx → EReal) (ix2 (0 : Fin 1) q)
      = (s : S1x64.Idx → EReal) (ix2 (0 : Fin 1) q)
        + ∑ y : Fin 10000, (x : S10000x64.Idx → EReal) (ix2 y q) * (x : S10000x64.Idx → EReal) (ix2 y q) := by
  unfold k7_pay5 k7_pay3
  rw [shapeCast_self, shapeCast_self, addf_apply, shapeCast_a_1a_apply]
  exact congrArg (fun z => (s : S1x64.Idx → EReal) (ix2 (0 : Fin 1) q) + z) (colsum7_apply (mulf x x) _ _ q)

/-- The two accumulators start from the zero row. -/
theorem k7_pay1_apply (q : Fin 64) : (k7_pay1 (F := Ideal) : S1x64.Idx → EReal) (ix2 (0 : Fin 1) q) = 0 := by
  unfold k7_pay1
  rw [shapeCast_self, broadcast_apply]
  exact Ideal.ofBits_zero_f32

theorem k7_pay2_apply (q : Fin 64) : (k7_pay2 (F := Ideal) : S1x64.Idx → EReal) (ix2 (0 : Fin 1) q) = 0 := by
  unfold k7_pay2
  rw [shapeCast_self, broadcast_apply]
  exact Ideal.ofBits_zero_f32

end Cert.KernelIdeal.Val

end
-- ==== Proof.IdealValStats7.lean ====
/-
  Region 7 of @main at the ideal instance, the values: the two [1, 64] output arrays after the run are the column sums
  and the column sums of squares, over all 50000 rows, of the [50000, 64] array the region is entered with. The five
  accumulation steps are read at an index, the five input blocks are the array's consecutive runs of 10000 rows, and
  each output array is written back once, whole, at the last point.
-/
import proofs.«120485_j12249246728930_1_alg».proof.Proof.IdealStatsData7
import proofs.«120485_j12249246728930_1_alg».proof.Proof.IdealValStatsStep7
import proofs.«120485_j12249246728930_1_alg».proof.Proof.IdealValStatsBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-! ## Five accumulation steps from zero over blocks that are consecutive runs of rows of one array -/

/-- Five steps of the running column sums from the zero row, over five blocks that are rows `10000 j + y` of an array
    `hh`, leave at column `q` the sum of `hh`'s column `q` over all 50000 rows. -/
theorem acc7_sum (hh : S50000x64.Idx → EReal) (x0 x1 x2 x3 x4 : Vec Ideal S10000x64 .f32)
    (e0 : ∀ (y : Fin 10000) (q : Fin 64), (x0 : S10000x64.Idx → EReal) (ix2 y q) = hh (ix2 ⟨0 * 10000 + y.val, by have := y.isLt; omega⟩ q))
    (e1 : ∀ (y : Fin 10000) (q : Fin 64), (x1 : S10000x64.Idx → EReal) (ix2 y q) = hh (ix2 ⟨1 * 10000 + y.val, by have := y.isLt; omega⟩ q))
    (e2 : ∀ (y : Fin 10000) (q : Fin 64), (x2 : S10000x64.Idx → EReal) (ix2 y q) = hh (ix2 ⟨2 * 10000 + y.val, by have := y.isLt; omega⟩ q))
    (e3 : ∀ (y : Fin 10000) (q : Fin 64), (x3 : S10000x64.Idx → EReal) (ix2 y q) = hh (ix2 ⟨3 * 10000 + y.val, by have := y.isLt; omega⟩ q))
    (e4 : ∀ (y : Fin 10000) (q : Fin 64), (x4 : S10000x64.Idx → EReal) (ix2 y q) = hh (ix2 ⟨4 * 10000 + y.val, by have := y.isLt; omega⟩ q))
    (q : Fin 64) :
    (k7_pay4 (F := Ideal) x4 (k7_pay4 x3 (k7_pay4 x2 (k7_pay4 x1 (k7_pay4 x0 (k7_pay1 (F := Ideal)))))) : S1x64.Idx → EReal) (ix2 (0 : Fin 1) q)
      = ∑ r : Fin 50000, hh (ix2 r q) := by
  rw [k7_pay4_apply, k7_pay4_apply, k7_pay4_apply, k7_pay4_apply, k7_pay4_apply, k7_pay1_apply]
  simp only [e0, e1, e2, e3, e4]
  exact five_blocks fun r => hh (ix2 r q)

/-- The same for the running column sums of squares. -/
theorem acc7_sq (hh : S50000x64.Idx → EReal) (x0 x1 x2 x3 x4 : Vec Ideal S10000x64 .f32)
    (e0 : ∀ (y : Fin 10000) (q : Fin 64), (x0 : S10000x64.Idx → EReal) (ix2 y q) = hh (ix2 ⟨0 * 10000 + y.val, by have := y.isLt; omega⟩ q))
    (e1 : ∀ (y : Fin 10000) (q : Fin 64), (x1 : S10000x64.Idx → EReal) (ix2 y q) = hh (ix2 ⟨1 * 10000 + y.val, by have := y.isLt; omega⟩ q))
    (e2 : ∀ (y : Fin 10000) (q : Fin 64), (x2 : S10000x64.Idx → EReal) (ix2 y q) = hh (ix2 ⟨2 * 10000 + y.val, by have := y.isLt; omega⟩ q))
    (e3 : ∀ (y : Fin 10000) (q : Fin 64), (x3 : S10000x64.Idx → EReal) (ix2 y q) = hh (ix2 ⟨3 * 10000 + y.val, by have := y.isLt; omega⟩ q))
    (e4 : ∀ (y : Fin 10000) (q : Fin 64), (x4 : S10000x64.Idx → EReal) (ix2 y q) = hh (ix2 ⟨4 * 10000 + y.val, by have := y.isLt; omega⟩ q))
    (q : Fin 64) :
    (k7_pay5 (F := Ideal) x4 (k7_pay5 x3 (k7_pay5 x2 (k7_pay5 x1 (k7_pay5 x0 (k7_pay2 (F := Ideal)))))) : S1x64.Idx → EReal) (ix2 (0 : Fin 1) q)
      = ∑ r : Fin 50000, hh (ix2 r q) * hh (ix2 r q) := by
  rw [k7_pay5_apply, k7_pay5_apply, k7_pay5_apply, k7_pay5_apply, k7_pay5_apply, k7_pay2_apply]
  simp only [e0, e1, e2, e3, e4]
  exact five_blocks fun r => hh (ix2 r q) * hh (ix2 r q)

/-! ## The input window's blocks as rows of the array the region is entered with -/

/-- The [50000, 64] array the region is entered with, as a function of its index into the extended reals. -/
abbrev ent7 (c : Dev nD) : S50000x64.Idx → EReal := V c (Pipeline.arrRef spec7 0)

/-- The input window's block index at point `t` is `(t, 0)` (decided over the five points). -/
theorem idx7_0 : ∀ t : Fin cfg7.N, win7_0.index t (0 : Fin 2) = t.val ∧ win7_0.index t (1 : Fin 2) = 0 :=
  (by decide +kernel : ∀ t : Fin grid7.N, _)

/-- The input block at point `t` is rows `10000 t … 10000 t + 9999` of the entry array. -/
theorem iblk7_apply (c : Dev nD) (t : Fin cfg7.N) (y : Fin 10000) (q : Fin 64) (r : Fin 50000)
    (hr : r.val = t.val * 10000 + y.val) :
    (iblk7 V c 0 t : S10000x64.Idx → EReal) (ix2 y q)
      = (V c (Pipeline.arrRef spec7 0) : S50000x64.Idx → EReal) (ix2 r q) := by
  obtain ⟨i0, i1⟩ := idx7_0 t
  unfold iblk7
  rw [View.read_apply]
  show (V c (Pipeline.arrRef spec7 0) : S50000x64.Idx → EReal) _ = _
  refine congrArg _ ?_
  funext a
  apply Fin.ext
  match a with
  | ⟨0, _⟩ => show win7_0.index t 0 * 10000 + 1 * y.val = r.val; rw [i0, hr]; omega
  | ⟨1, _⟩ => show win7_0.index t 1 * 64 + 1 * q.val = q.val; rw [i1]; omega

/-- The column sums after the last point: the entry array's column sums over all 50000 rows. -/
theorem sum7_4_apply (c : Dev nD) (q : Fin 64) :
    (sum7_4 V c : S1x64.Idx → EReal) (ix2 (0 : Fin 1) q)
      = ∑ r : Fin 50000, ent7 V c (ix2 r q) :=
  acc7_sum (ent7 V c) (iblk7 V c 0 t7_0) (iblk7 V c 0 t7_1) (iblk7 V c 0 t7_2) (iblk7 V c 0 t7_3) (iblk7 V c 0 t7_4)
    (fun y q => iblk7_apply V c t7_0 y q _ rfl) (fun y q => iblk7_apply V c t7_1 y q _ rfl)
    (fun y q => iblk7_apply V c t7_2 y q _ rfl) (fun y q => iblk7_apply V c t7_3 y q _ rfl)
    (fun y q => iblk7_apply V c t7_4 y q _ rfl) q

/-- The column sums of squares after the last point. -/
theorem sq7_4_apply (c : Dev nD) (q : Fin 64) :
    (sq7_4 V c : S1x64.Idx → EReal) (ix2 (0 : Fin 1) q)
      = ∑ r : Fin 50000, ent7 V c (ix2 r q) * ent7 V c (ix2 r q) :=
  acc7_sq (ent7 V c) (iblk7 V c 0 t7_0) (iblk7 V c 0 t7_1) (iblk7 V c 0 t7_2) (iblk7 V c 0 t7_3) (iblk7 V c 0 t7_4)
    (fun y q => iblk7_apply V c t7_0 y q _ rfl) (fun y q => iblk7_apply V c t7_1 y q _ rfl)
    (fun y q => iblk7_apply V c t7_2 y q _ rfl) (fun y q => iblk7_apply V c t7_3 y q _ rfl)
    (fun y q => iblk7_apply V c t7_4 y q _ rfl) q

/-! ## The two output arrays after the run: written back once, at the last point, whole -/

/-- The one write-back of the sums' window, at the last point, writes the final running sums: block (0, 0) of the
    [1, 64] array read through zero offsets is the array. -/
theorem flushed7_1_eq (c : Dev nD) (t : Fin cfg7.N) (hf : (cfg7.win 1).flush t = true) :
    (dat7 V c).flushed 1 t = ((cfg7.win 1).blk t).view.read (Elt Ideal) (sum7_4 V c) := by
  have hN : cfg7.N = 5 := N_7
  have h1 : t.val = 4 := by have := (flush7_1 t).mp hf; have := t.isLt; omega
  obtain rfl : t = t7_4 := Fin.ext h1
  show (cfg7.win 1).cut (grid7.coords t7_4) ((dat7 V c).after 1 t7_4) = _
  rw [after7_1]
  show (cfg7.win 1).cut (grid7.coords t7_4) (sum7_4 V c) = _
  have hz' : (fun a => win7_1.index t7_4 a * main_v130_0.ty.shape.size a) = fun _ => 0 := funext fun a => by fin_cases a <;> decide
  exact (Memref.read_access_unit_zero (Elt Ideal) main_v130_0 hz' (fun a => by rw [congrFun hz' a]; simp) (sum7_4 V c)).symm

theorem flushed7_2_eq (c : Dev nD) (t : Fin cfg7.N) (hf : (cfg7.win 2).flush t = true) :
    (dat7 V c).flushed 2 t = ((cfg7.win 2).blk t).view.read (Elt Ideal) (sq7_4 V c) := by
  have hN : cfg7.N = 5 := N_7
  have h1 : t.val = 4 := by have := (flush7_2 t).mp hf; have := t.isLt; omega
  obtain rfl : t = t7_4 := Fin.ext h1
  show (cfg7.win 2).cut (grid7.coords t7_4) ((dat7 V c).after 2 t7_4) = _
  rw [after7_2]
  show (cfg7.win 2).cut (grid7.coords t7_4) (sq7_4 V c) = _
  have hz' : (fun a => win7_2.index t7_4 a * main_v130_1.ty.shape.size a) = fun _ => 0 := funext fun a => by fin_cases a <;> decide
  exact (Memref.read_access_unit_zero (Elt Ideal) main_v130_1 hz' (fun a => by rw [congrFun hz' a]; simp) (sq7_4 V c)).symm

/-- The last point's block of an output window covers its whole [1, 64] array. -/
theorem cover7_1 (i : S1x64.Idx) : i ∈ ((cfg7.win 1).blk t7_4).view.set := by
  show i ∈ ((View.whole main_v130_0).slice (win7_1.rect t7_4)).set
  rw [View.set_slice_whole, Rect.mem_set_unit]
  intro a
  have h0 : (i 0 : Nat) < 1 := (i 0).isLt
  have h1 : (i 1 : Nat) < 64 := (i 1).isLt
  match a with
  | ⟨0, _⟩ =>
    show win7_1.index t7_4 0 * win7_1.size 0 ≤ (i 0 : Nat) ∧ (i 0 : Nat) < win7_1.index t7_4 0 * win7_1.size 0 + win7_1.xsize (grid7.coords t7_4) 0
    rw [show win7_1.index t7_4 0 * win7_1.size 0 = 0 from by decide +kernel, show win7_1.xsize (grid7.coords t7_4) 0 = 1 from by decide +kernel]; omega
  | ⟨1, _⟩ =>
    show win7_1.index t7_4 1 * win7_1.size 1 ≤ (i 1 : Nat) ∧ (i 1 : Nat) < win7_1.index t7_4 1 * win7_1.size 1 + win7_1.xsize (grid7.coords t7_4) 1
    rw [show win7_1.index t7_4 1 * win7_1.size 1 = 0 from by decide +kernel, show win7_1.xsize (grid7.coords t7_4) 1 = 64 from by decide +kernel]; omega

theorem cover7_2 (i : S1x64.Idx) : i ∈ ((cfg7.win 2).blk t7_4).view.set := by
  show i ∈ ((View.whole main_v130_1).slice (win7_2.rect t7_4)).set
  rw [View.set_slice_whole, Rect.mem_set_unit]
  intro a
  have h0 : (i 0 : Nat) < 1 := (i 0).isLt
  have h1 : (i 1 : Nat) < 64 := (i 1).isLt
  match a with
  | ⟨0, _⟩ =>
    show win7_2.index t7_4 0 * win7_2.size 0 ≤ (i 0 : Nat) ∧ (i 0 : Nat) < win7_2.index t7_4 0 * win7_2.size 0 + win7_2.xsize (grid7.coords t7_4) 0
    rw [show win7_2.index t7_4 0 * win7_2.size 0 = 0 from by decide +kernel, show win7_2.xsize (grid7.coords t7_4) 0 = 1 from by decide +kernel]; omega
  | ⟨1, _⟩ =>
    show win7_2.index t7_4 1 * win7_2.size 1 ≤ (i 1 : Nat) ∧ (i 1 : Nat) < win7_2.index t7_4 1 * win7_2.size 1 + win7_2.xsize (grid7.coords t7_4) 1
    rw [show win7_2.index t7_4 1 * win7_2.size 1 = 0 from by decide +kernel, show win7_2.xsize (grid7.coords t7_4) 1 = 64 from by decide +kernel]; omega

/-- So the sums' array ends holding the final running sums, and the sums of squares' array the final running sums of
    squares. -/
theorem final7_1 (c : Dev nD) : (dat7 V c).arrAt 1 cfg7.N = sum7_4 V c :=
  (dat7 V c).arrAt_eq_of_cover 1 (sum7_4 V c) (flushed7_1_eq V c) fun i =>
    ⟨t7_4, (flush7_1 t7_4).mpr rfl, cover7_1 i⟩

theorem final7_2 (c : Dev nD) : (dat7 V c).arrAt 2 cfg7.N = sq7_4 V c :=
  (dat7 V c).arrAt_eq_of_cover 2 (sq7_4 V c) (flushed7_2_eq V c) fun i =>
    ⟨t7_4, (flush7_2 t7_4).mpr rfl, cover7_2 i⟩

/-! ## The batch statistics of region 7 -/

/-- After the run the first output array holds, at column `q`, the sum over all 50000 rows of column `q` of the
    array the region was entered with. -/
theorem stats7_sum_apply (c : Dev nD) (q : Fin 64) :
    ((dat7 (F := Ideal) V c).arrAt 1 cfg7.N : S1x64.Idx → EReal) (ix2 (0 : Fin 1) q)
      = ∑ r : Fin 50000, ent7 V c (ix2 r q) := by
  rw [final7_1]; exact sum7_4_apply V c q

/-- After the run the second output array holds, at column `q`, the sum over all 50000 rows of the squares of
    column `q` of the array the region was entered with. -/
theorem stats7_sq_apply (c : Dev nD) (q : Fin 64) :
    ((dat7 (F := Ideal) V c).arrAt 2 cfg7.N : S1x64.Idx → EReal) (ix2 (0 : Fin 1) q)
      = ∑ r : Fin 50000, ent7 V c (ix2 r q) * ent7 V c (ix2 r q) := by
  rw [final7_2]; exact sq7_4_apply V c q

/-- The same two facts against any function `h` equal to the entry array. -/
theorem stats7_sum_apply_of (c : Dev nD) (h : S50000x64.Idx → EReal) (hh : h = V c (Pipeline.arrRef spec7 0)) (q : Fin 64) :
    ((dat7 (F := Ideal) V c).arrAt 1 cfg7.N : S1x64.Idx → EReal) (ix2 (0 : Fin 1) q) = ∑ r : Fin 50000, h (ix2 r q) := by
  subst hh; exact stats7_sum_apply V c q

theorem stats7_sq_apply_of (c : Dev nD) (h : S50000x64.Idx → EReal) (hh : h = V c (Pipeline.arrRef spec7 0)) (q : Fin 64) :
    ((dat7 (F := Ideal) V c).arrAt 2 cfg7.N : S1x64.Idx → EReal) (ix2 (0 : Fin 1) q)
      = ∑ r : Fin 50000, h (ix2 r q) * h (ix2 r q) := by
  subst hh; exact stats7_sq_apply V c q

end Cert.KernelIdeal.Val

end
-- ==== Proof.IdealLayers.lean ====
/-
  One layer of the network at the ideal values, three times: from the boundary before a layer's dense map to the boundary
  after its normalisation the kernel program computes the reference's layer function — the dense map on the matrix
  unit is the host's matrix product (its zero bias row adds nothing); the aggregation is the shared host function; the
  statistics region leaves the column sums and the column sums of squares, from which the host takes the mean and, as
  the mean of squares less the squared mean, the variance: on a real-valued array that is the mean squared deviation
  the reference computes; the normalisation region is the reference's formula entry by entry.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.IdealHost
import proofs.«120485_j12249246728930_1_alg».proof.Proof.KernelHostFns
import proofs.«120485_j12249246728930_1_alg».proof.Proof.GcnRead
import proofs.«120485_j12249246728930_1_alg».proof.Proof.IdealValLin0
import proofs.«120485_j12249246728930_1_alg».proof.Proof.IdealValLin3
import proofs.«120485_j12249246728930_1_alg».proof.Proof.IdealValLin6
import proofs.«120485_j12249246728930_1_alg».proof.Proof.IdealValLin9
import proofs.«120485_j12249246728930_1_alg».proof.Proof.IdealValBn2
import proofs.«120485_j12249246728930_1_alg».proof.Proof.IdealValBn5
import proofs.«120485_j12249246728930_1_alg».proof.Proof.IdealValBn8
import proofs.«120485_j12249246728930_1_alg».proof.Proof.IdealValStats1
import proofs.«120485_j12249246728930_1_alg».proof.Proof.IdealValStats4
import proofs.«120485_j12249246728930_1_alg».proof.Proof.IdealValStats7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frame Cert.KernelIdeal.HostFns Idealize.ShloMosaic.ValueIdx

variable (m : (ℓ : Loc nD τ sig) → Buf (Elt Ideal) ℓ) (ρ : Dev nD → PrngReg)

/-! ## Layer 1 -/

set_option maxHeartbeats 1000000 in
/-- Layer 1: from the boundary before its dense map to the boundary after its normalisation, the kernel program
    computes the reference's layer — the dense map by the matrix unit, the aggregation by the shared host operations,
    the mean and the variance (as the mean of squares less the squared mean: equal to the mean squared deviation on a
    real-valued array) from the two accumulated sums, the normalisation entry by entry. -/
theorem layer1_value (c : Dev nD) (hin : FVec Ideal S50000x64 .f32) (W : FVec Ideal S64x64 .f32) (b g be : FVec Ideal S64 .f32)
    (R C : IVec S850000 32) (Wt : FVec Ideal S850000x1 .f32)
    (h_in : (E1 m ρ c main_arg0 : S50000x64.Idx → EReal) = hin) (h_W : (E1 m ρ c main_arg3 : S64x64.Idx → EReal) = W)
    (h_b : (E2 m ρ c main_arg4 : S64.Idx → EReal) = b) (h_R : E2 m ρ c main_v5 = R) (h_C : E2 m ρ c main_v6 = C)
    (h_Wt : (E2 m ρ c main_v32 : S850000x1.Idx → EReal) = Wt)
    (h_g : (E4 m ρ c main_arg5 : S64.Idx → EReal) = g) (h_be : (E4 m ρ c main_arg6 : S64.Idx → EReal) = be)
    (hreal : ∀ i, ∃ x : ℝ, Cert.Gcn.aggregate (F := Ideal) (Cert.Gcn.dense hin W) b R C Wt i = ((x : ℝ) : EReal)) :
    (E6 m ρ c main_v69 : S50000x64.Idx → EReal) = Cert.Gcn.layer (F := Ideal) R C Wt hin W b g be := by
  -- the dense map
  have hd : (E2 m ρ c main_v35 : S50000x64.Idx → EReal) = Cert.Gcn.dense (F := Ideal) hin W := by
    funext i
    obtain ⟨r, q, rfl⟩ : ∃ (r : Fin 50000) (q : Fin 64), i = ix2 r q := ⟨i 0, i 1, eq_ix2 i⟩
    rw [show (E2 m ρ c main_v35 : S50000x64.Idx → EReal) = (dat0 (F := Ideal) (E1 m ρ) c).arrAt 3 cfg0.N from B2_arr m ρ c 3]
    rw [lin0_apply (E1 m ρ) c hin W (zeroRow (F := Ideal)) h_in h_W (E1_z m ρ c) r q, zeroRow_apply, add_zero, Cert.Gcn.dense_apply]
  -- the aggregation
  have ha : (E3 m ρ c main_v55 : S50000x64.Idx → EReal) = Cert.Gcn.aggregate (F := Ideal) (Cert.Gcn.dense hin W) b R C Wt := by
    rw [E3_agg, hd, h_b, h_R, h_C, h_Wt]
  generalize hA : Cert.Gcn.aggregate (F := Ideal) (Cert.Gcn.dense hin W) b R C Wt = a at ha hreal
  have ha5 : (E5 m ρ c main_v55 : S50000x64.Idx → EReal) = a := (carry_v55_3_5 m ρ c).trans ha
  -- the two accumulated sums
  have hs0 : ∀ q : Fin 64, (E4 m ρ c main_v56_0 : S1x64.Idx → EReal) (ix2 (0 : Fin 1) q) = ∑ r : Fin 50000, a (ix2 r q) := fun q => by
    rw [show (E4 m ρ c main_v56_0 : S1x64.Idx → EReal) = (dat1 (F := Ideal) (E3 m ρ) c).arrAt 1 cfg1.N from B4_arr m ρ c 1]
    exact stats1_sum_apply_of (E3 m ρ) c a ha.symm q
  have hs1 : ∀ q : Fin 64, (E4 m ρ c main_v56_1 : S1x64.Idx → EReal) (ix2 (0 : Fin 1) q) = ∑ r : Fin 50000, a (ix2 r q) * a (ix2 r q) := fun q => by
    rw [show (E4 m ρ c main_v56_1 : S1x64.Idx → EReal) = (dat1 (F := Ideal) (E3 m ρ) c).arrAt 2 cfg1.N from B4_arr m ρ c 2]
    exact stats1_sq_apply_of (E3 m ρ) c a ha.symm q
  -- the normalisation, entry by entry
  funext i
  obtain ⟨r, q, rfl⟩ : ∃ (r : Fin 50000) (q : Fin 64), i = ix2 r q := ⟨i 0, i 1, eq_ix2 i⟩
  rw [show (E6 m ρ c main_v69 : S50000x64.Idx → EReal) = (dat2 (F := Ideal) (E5 m ρ) c).arrAt 5 cfg2.N from B6_arr m ρ c 5]
  rw [bn2_apply_zero (E5 m ρ) c a _ _ _ _ ha5 (E5_mu m ρ c) (E5_va m ρ c) (E5_g m ρ c) (E5_be m ρ c) r q]
  rw [asRow_apply, asRow_apply, asRow_apply, asRow_apply, meanVec_apply, varVec_apply, hs0, hs1, h_g, h_be]
  unfold Cert.Gcn.layer
  rw [hA, Cert.Gcn.bnRelu_apply, Cert.Gcn.colMean_apply, Cert.Gcn.colVar_law a hreal]

/-! ## Layer 2 -/

set_option maxHeartbeats 1000000 in
/-- Layer 2: from the boundary before its dense map to the boundary after its normalisation, the kernel program
    computes the reference's layer — the dense map by the matrix unit, the aggregation by the shared host operations,
    the mean and the variance (as the mean of squares less the squared mean: equal to the mean squared deviation on a
    real-valued array) from the two accumulated sums, the normalisation entry by entry. -/
theorem layer2_value (c : Dev nD) (hin : FVec Ideal S50000x64 .f32) (W : FVec Ideal S64x64 .f32) (b g be : FVec Ideal S64 .f32)
    (R C : IVec S850000 32) (Wt : FVec Ideal S850000x1 .f32)
    (h_in : (E7 m ρ c main_v69 : S50000x64.Idx → EReal) = hin) (h_W : (E7 m ρ c main_arg7 : S64x64.Idx → EReal) = W)
    (h_b : (E8 m ρ c main_arg8 : S64.Idx → EReal) = b) (h_R : E8 m ρ c main_v5 = R) (h_C : E8 m ρ c main_v6 = C)
    (h_Wt : (E8 m ρ c main_v32 : S850000x1.Idx → EReal) = Wt)
    (h_g : (E10 m ρ c main_arg9 : S64.Idx → EReal) = g) (h_be : (E10 m ρ c main_arg10 : S64.Idx → EReal) = be)
    (hreal : ∀ i, ∃ x : ℝ, Cert.Gcn.aggregate (F := Ideal) (Cert.Gcn.dense hin W) b R C Wt i = ((x : ℝ) : EReal)) :
    (E12 m ρ c main_v106 : S50000x64.Idx → EReal) = Cert.Gcn.layer (F := Ideal) R C Wt hin W b g be := by
  -- the dense map
  have hd : (E8 m ρ c main_v72 : S50000x64.Idx → EReal) = Cert.Gcn.dense (F := Ideal) hin W := by
    funext i
    obtain ⟨r, q, rfl⟩ : ∃ (r : Fin 50000) (q : Fin 64), i = ix2 r q := ⟨i 0, i 1, eq_ix2 i⟩
    rw [show (E8 m ρ c main_v72 : S50000x64.Idx → EReal) = (dat3 (F := Ideal) (E7 m ρ) c).arrAt 3 cfg3.N from B8_arr m ρ c 3]
    rw [lin3_apply (E7 m ρ) c hin W (zeroRow (F := Ideal)) h_in h_W (E7_z m ρ c) r q, zeroRow_apply, add_zero, Cert.Gcn.dense_apply]
  -- the aggregation
  have ha : (E9 m ρ c main_v92 : S50000x64.Idx → EReal) = Cert.Gcn.aggregate (F := Ideal) (Cert.Gcn.dense hin W) b R C Wt := by
    rw [E9_agg, hd, h_b, h_R, h_C, h_Wt]
  generalize hA : Cert.Gcn.aggregate (F := Ideal) (Cert.Gcn.dense hin W) b R C Wt = a at ha hreal
  have ha5 : (E11 m ρ c main_v92 : S50000x64.Idx → EReal) = a := (carry_v92_9_11 m ρ c).trans ha
  -- the two accumulated sums
  have hs0 : ∀ q : Fin 64, (E10 m ρ c main_v93_0 : S1x64.Idx → EReal) (ix2 (0 : Fin 1) q) = ∑ r : Fin 50000, a (ix2 r q) := fun q => by
    rw [show (E10 m ρ c main_v93_0 : S1x64.Idx → EReal) = (dat4 (F := Ideal) (E9 m ρ) c).arrAt 1 cfg4.N from B10_arr m ρ c 1]
    exact stats4_sum_apply_of (E9 m ρ) c a ha.symm q
  have hs1 : ∀ q : Fin 64, (E10 m ρ c main_v93_1 : S1x64.Idx → EReal) (ix2 (0 : Fin 1) q) = ∑ r : Fin 50000, a (ix2 r q) * a (ix2 r q) := fun q => by
    rw [show (E10 m ρ c main_v93_1 : S1x64.Idx → EReal) = (dat4 (F := Ideal) (E9 m ρ) c).arrAt 2 cfg4.N from B10_arr m ρ c 2]
    exact stats4_sq_apply_of (E9 m ρ) c a ha.symm q
  -- the normalisation, entry by entry
  funext i
  obtain ⟨r, q, rfl⟩ : ∃ (r : Fin 50000) (q : Fin 64), i = ix2 r q := ⟨i 0, i 1, eq_ix2 i⟩
  rw [show (E12 m ρ c main_v106 : S50000x64.Idx → EReal) = (dat5 (F := Ideal) (E11 m ρ) c).arrAt 5 cfg5.N from B12_arr m ρ c 5]
  rw [bn5_apply_zero (E11 m ρ) c a _ _ _ _ ha5 (E11_mu m ρ c) (E11_va m ρ c) (E11_g m ρ c) (E11_be m ρ c) r q]
  rw [asRow_apply, asRow_apply, asRow_apply, asRow_apply, meanVec_apply, varVec_apply, hs0, hs1, h_g, h_be]
  unfold Cert.Gcn.layer
  rw [hA, Cert.Gcn.bnRelu_apply, Cert.Gcn.colMean_apply, Cert.Gcn.colVar_law a hreal]

/-! ## Layer 3 -/

set_option maxHeartbeats 1000000 in
/-- Layer 3: from the boundary before its dense map to the boundary after its normalisation, the kernel program
    computes the reference's layer — the dense map by the matrix unit, the aggregation by the shared host operations,
    the mean and the variance (as the mean of squares less the squared mean: equal to the mean squared deviation on a
    real-valued array) from the two accumulated sums, the normalisation entry by entry. -/
theorem layer3_value (c : Dev nD) (hin : FVec Ideal S50000x64 .f32) (W : FVec Ideal S64x64 .f32) (b g be : FVec Ideal S64 .f32)
    (R C : IVec S850000 32) (Wt : FVec Ideal S850000x1 .f32)
    (h_in : (E13 m ρ c main_v106 : S50000x64.Idx → EReal) = hin) (h_W : (E13 m ρ c main_arg11 : S64x64.Idx → EReal) = W)
    (h_b : (E14 m ρ c main_arg12 : S64.Idx → EReal) = b) (h_R : E14 m ρ c main_v5 = R) (h_C : E14 m ρ c main_v6 = C)
    (h_Wt : (E14 m ρ c main_v32 : S850000x1.Idx → EReal) = Wt)
    (h_g : (E16 m ρ c main_arg13 : S64.Idx → EReal) = g) (h_be : (E16 m ρ c main_arg14 : S64.Idx → EReal) = be)
    (hreal : ∀ i, ∃ x : ℝ, Cert.Gcn.aggregate (F := Ideal) (Cert.Gcn.dense hin W) b R C Wt i = ((x : ℝ) : EReal)) :
    (E18 m ρ c main_v143 : S50000x64.Idx → EReal) = Cert.Gcn.layer (F := Ideal) R C Wt hin W b g be := by
  -- the dense map
  have hd : (E14 m ρ c main_v109 : S50000x64.Idx → EReal) = Cert.Gcn.dense (F := Ideal) hin W := by
    funext i
    obtain ⟨r, q, rfl⟩ : ∃ (r : Fin 50000) (q : Fin 64), i = ix2 r q := ⟨i 0, i 1, eq_ix2 i⟩
    rw [show (E14 m ρ c main_v109 : S50000x64.Idx → EReal) = (dat6 (F := Ideal) (E13 m ρ) c).arrAt 3 cfg6.N from B14_arr m ρ c 3]
    rw [lin6_apply (E13 m ρ) c hin W (zeroRow (F := Ideal)) h_in h_W (E13_z m ρ c) r q, zeroRow_apply, add_zero, Cert.Gcn.dense_apply]
  -- the aggregation
  have ha : (E15 m ρ c main_v129 : S50000x64.Idx → EReal) = Cert.Gcn.aggregate (F := Ideal) (Cert.Gcn.dense hin W) b R C Wt := by
    rw [E15_agg, hd, h_b, h_R, h_C, h_Wt]
  generalize hA : Cert.Gcn.aggregate (F := Ideal) (Cert.Gcn.dense hin W) b R C Wt = a at ha hreal
  have ha5 : (E17 m ρ c main_v129 : S50000x64.Idx → EReal) = a := (carry_v129_15_17 m ρ c).trans ha
  -- the two accumulated sums
  have hs0 : ∀ q : Fin 64, (E16 m ρ c main_v130_0 : S1x64.Idx → EReal) (ix2 (0 : Fin 1) q) = ∑ r : Fin 50000, a (ix2 r q) := fun q => by
    rw [show (E16 m ρ c main_v130_0 : S1x64.Idx → EReal) = (dat7 (F := Ideal) (E15 m ρ) c).arrAt 1 cfg7.N from B16_arr m ρ c 1]
    exact stats7_sum_apply_of (E15 m ρ) c a ha.symm q
  have hs1 : ∀ q : Fin 64, (E16 m ρ c main_v130_1 : S1x64.Idx → EReal) (ix2 (0 : Fin 1) q) = ∑ r : Fin 50000, a (ix2 r q) * a (ix2 r q) := fun q => by
    rw [show (E16 m ρ c main_v130_1 : S1x64.Idx → EReal) = (dat7 (F := Ideal) (E15 m ρ) c).arrAt 2 cfg7.N from B16_arr m ρ c 2]
    exact stats7_sq_apply_of (E15 m ρ) c a ha.symm q
  -- the normalisation, entry by entry
  funext i
  obtain ⟨r, q, rfl⟩ : ∃ (r : Fin 50000) (q : Fin 64), i = ix2 r q := ⟨i 0, i 1, eq_ix2 i⟩
  rw [show (E18 m ρ c main_v143 : S50000x64.Idx → EReal) = (dat8 (F := Ideal) (E17 m ρ) c).arrAt 5 cfg8.N from B18_arr m ρ c 5]
  rw [bn8_apply_zero (E17 m ρ) c a _ _ _ _ ha5 (E17_mu m ρ c) (E17_va m ρ c) (E17_g m ρ c) (E17_be m ρ c) r q]
  rw [asRow_apply, asRow_apply, asRow_apply, asRow_apply, meanVec_apply, varVec_apply, hs0, hs1, h_g, h_be]
  unfold Cert.Gcn.layer
  rw [hA, Cert.Gcn.bnRelu_apply, Cert.Gcn.colMean_apply, Cert.Gcn.colVar_law a hreal]

end Cert.KernelIdeal.Val

end
-- ==== Proof.LibRealLift.lean ====
/-
  Arrays of extended reals all of whose entries are real numbers, and the operations on them.

  At the ideal instance a float is an extended real. When every entry of an array is (the image of) a real
  number, sums, differences and products of such arrays are again such arrays, computed entry by entry in ℝ;
  a change of float format does nothing; and a plain matrix product `[M, K] × [K, N]` into a zero accumulator is
  the real matrix product: entry `(p, j)` is `∑ k, a (p, k) * b (k, j)`, a finite sum of reals.

  Two identities of real sums are recorded here as well. The split-precision product: a factor `a` is split as
  `a` itself plus the residual `a - a = 0` (no rounding happens at the ideal instance), and the three partial products
  `a·w + a·(w - w) + (a - a)·w` collapse to `a·w`. The three-multiplication form of a complex product:
  `(a + b)·(u + v) - a·u - b·v = a·v + b·u`, summed over the contraction index.
-/
import Idealize.ShloMosaic.Lib.ValueIdx
import Idealize.ShloMosaic.PureOps.Ideal.Laws

open Idealize.ShloMosaic Idealize.ShloMosaic.ValueIdx

namespace Cert.LibRealLift

/-- The array of extended reals whose entry at `i` is the real number `r i`. -/
def cv {s : Shape} {φ : FTy} (r : s.Idx → ℝ) : FVec Ideal s φ := fun i => ((r i : ℝ) : EReal)

theorem cv_apply {s : Shape} {φ : FTy} (r : s.Idx → ℝ) (i : s.Idx) : (cv r : FVec Ideal s φ) i = ((r i : ℝ) : EReal) := rfl

/-- A finite sum of reals, taken in the extended reals, is the real sum. -/
theorem coe_sum {κ : Type*} (t : Finset κ) (f : κ → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

variable {s : Shape} {φ : FTy}

theorem addf_cv (a b : s.Idx → ℝ) : addf (cv a : FVec Ideal s φ) (cv b) = cv (fun i => a i + b i) :=
  funext fun i => (EReal.coe_add (a i) (b i)).symm

theorem subf_cv (a b : s.Idx → ℝ) : subf (cv a : FVec Ideal s φ) (cv b) = cv (fun i => a i - b i) :=
  funext fun i => (EReal.coe_sub (a i) (b i)).symm

theorem mulf_cv (a b : s.Idx → ℝ) : mulf (cv a : FVec Ideal s φ) (cv b) = cv (fun i => a i * b i) :=
  funext fun i => (EReal.coe_mul (a i) (b i)).symm

/-- The residual of a split `x = x + (x - x)` is zero when `x` is real. -/
theorem subf_cv_self (a : s.Idx → ℝ) : subf (cv a : FVec Ideal s φ) (cv a) = cv (fun _ => 0) := by
  rw [subf_cv]; exact congrArg cv (funext fun i => sub_self (a i))

theorem truncf_cv {ψ : FTy} (a : s.Idx → ℝ) (h : ψ.bits < φ.bits) : (truncf ψ (cv a : FVec Ideal s φ) h : FVec Ideal s ψ) = cv a := rfl

theorem extf_cv {ψ : FTy} (a : s.Idx → ℝ) (h : φ.bits < ψ.bits) : (extf ψ (cv a : FVec Ideal s φ) h : FVec Ideal s ψ) = cv a := rfl

/-! ## A plain matrix product, entry by entry -/

/-- The contraction sum of a plain `[M, K] × [K, N]` product at the output entry `(p, j)`, re-indexed by the one
    contraction coordinate `k`: the left operand at `(p, k)` times the right operand at `(k, j)`. -/
theorem plain_sum (M K N : Nat) (l : (⟨2, ![M, K]⟩ : Shape).Idx → EReal) (r : (⟨2, ![K, N]⟩ : Shape).Idx → EReal)
    (p : Fin M) (j : Fin N) :
    (∑ k : (DotDims.plain M K N).contr.Idx, l ((DotDims.plain M K N).lhsIdx (ix2 p j) k) * r ((DotDims.plain M K N).rhsIdx (ix2 p j) k))
      = ∑ k : Fin K, l (ix2 p k) * r (ix2 k j) := by
  rw [← Equiv.sum_comp (contrEquiv1 (DotDims.plain M K N) K rfl rfl).symm]
  refine Finset.sum_congr rfl fun k _ => ?_
  have hl : (DotDims.plain M K N).lhsIdx (ix2 p j) ((contrEquiv1 (DotDims.plain M K N) K rfl rfl).symm k) = ix2 p k := by
    funext a; apply Fin.ext
    match a with
    | ⟨0, _⟩ => rfl
    | ⟨1, _⟩ => exact contrEquiv1_symm_val (DotDims.plain M K N) K rfl rfl k
  have hr : (DotDims.plain M K N).rhsIdx (ix2 p j) ((contrEquiv1 (DotDims.plain M K N) K rfl rfl).symm k) = ix2 k j := by
    funext a; apply Fin.ext
    match a with
    | ⟨0, _⟩ => exact contrEquiv1_symm_val (DotDims.plain M K N) K rfl rfl k
    | ⟨1, _⟩ => rfl
  rw [hl, hr]

/-- The real matrix product of `a : [M, K]` and `b : [K, N]`. -/
def mm (M K N : Nat) (a : (⟨2, ![M, K]⟩ : Shape).Idx → ℝ) (b : (⟨2, ![K, N]⟩ : Shape).Idx → ℝ) : (⟨2, ![M, N]⟩ : Shape).Idx → ℝ :=
  fun i => ∑ k : Fin K, a (ix2 (i 0) k) * b (ix2 k (i 1))

/-- A kernel's plain matrix product of real arrays into the zero accumulator is the real matrix product. -/
theorem matmul_plain_cv (M K N : Nat) {φ₁ φ₂ : FTy} (prec : Option ContractPrecision)
    (a : (⟨2, ![M, K]⟩ : Shape).Idx → ℝ) (b : (⟨2, ![K, N]⟩ : Shape).Idx → ℝ) :
    matmul (DotDims.plain M K N) prec (cv a : FVec Ideal _ φ₁) (cv b : FVec Ideal _ φ₂) (constant (F := Ideal) ⟨2, ![M, N]⟩ .f32 0x00000000#32)
      = cv (mm M K N a b) := by
  funext i
  obtain ⟨p, j, rfl⟩ : ∃ (p : Fin M) (j : Fin N), i = ix2 p j := ⟨i 0, i 1, eq_ix2 i⟩
  show FloatOps.matmul (DotDims.plain M K N) prec (cv a) (cv b) (constant ⟨2, ![M, N]⟩ .f32 0x00000000#32) (ix2 p j) = _
  rw [Ideal.matmul_constant_zero_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-- The host's plain `dot_general` of real arrays is the real matrix product. -/
theorem dotGeneral_plain_cv (M K N : Nat) {φ₁ φ₂ : FTy} (prec : Option ContractPrecision)
    (a : (⟨2, ![M, K]⟩ : Shape).Idx → ℝ) (b : (⟨2, ![K, N]⟩ : Shape).Idx → ℝ) :
    (Host.dotGeneral (DotDims.plain M K N) prec (cv a : FVec Ideal _ φ₁) (cv b : FVec Ideal _ φ₂) : FVec Ideal ⟨2, ![M, N]⟩ .f32)
      = cv (mm M K N a b) := by
  funext i
  obtain ⟨p, j, rfl⟩ : ∃ (p : Fin M) (j : Fin N), i = ix2 p j := ⟨i 0, i 1, eq_ix2 i⟩
  simp only [Host.dotGeneral]
  rw [Ideal.dotGeneral_apply, plain_sum]
  show (∑ k : Fin K, ((a (ix2 p k) : ℝ) : EReal) * ((b (ix2 k j) : ℝ) : EReal)) = ((∑ k : Fin K, a (ix2 p k) * b (ix2 k j) : ℝ) : EReal)
  rw [← coe_sum]
  exact Finset.sum_congr rfl fun k _ => (EReal.coe_mul _ _).symm

/-! ## Real sums: the split-precision product and the three-multiplication complex product -/

/-- A product with the zero matrix on the right is zero. -/
theorem mm_zero_right (M K N : Nat) (a : (⟨2, ![M, K]⟩ : Shape).Idx → ℝ) : mm M K N a (fun _ => 0) = fun _ => 0 :=
  funext fun i => by simp [mm]

/-- A product with the zero matrix on the left is zero. -/
theorem mm_zero_left (M K N : Nat) (b : (⟨2, ![K, N]⟩ : Shape).Idx → ℝ) : mm M K N (fun _ => 0) b = fun _ => 0 :=
  funext fun i => by simp [mm]

/-- The product of sums, less the two diagonal products, is the sum of the two cross products. -/
theorem mm_cross (M K N : Nat) (a b : (⟨2, ![M, K]⟩ : Shape).Idx → ℝ) (u v : (⟨2, ![K, N]⟩ : Shape).Idx → ℝ) (i : (⟨2, ![M, N]⟩ : Shape).Idx) :
    mm M K N (fun q => a q + b q) (fun q => u q + v q) i - mm M K N a u i - mm M K N b v i = mm M K N a v i + mm M K N b u i := by
  simp only [mm, add_mul, mul_add, Finset.sum_add_distrib]
  ring

end Cert.LibRealLift
-- ==== Proof.LibIsReal.lean ====
/-
  Arrays of extended reals whose every entry is a real number: the property, and the host operations that keep it.

  IsR v says every entry of v is (the image of) a real.  Such an array is cv of a real array (exists_cv).  The property
  passes through any re-indexing of the entries — a gather by any index array, a broadcast along any axes —, through a
  product, a select between two such arrays, a finite sum, and through the host's accumulating scatter of such updates
  into such an operand: its entry is the operand's entry plus a finite sum of update entries.  Two more entry-by-entry
  operations on cv arrays: the larger of two, and a constant array.  And the one place a graph normalisation leaves the
  reals and comes back: 1/sqrt(d) computed as a quotient, guarded by d > 0 with 0 as the other branch, is a real for
  every real d that is not negative (at d = 0 the quotient is the infinity and the guard discards it); the degree of a graph
  node, an accumulating scatter of ones into zeros, is a natural number, so the guarded array built from it is real.
-/
import proofs.«120485_j12249246728930_1_alg».proof.Proof.LibRealLift
import Idealize.ShloMosaic.Lib.Pipeline.Value
import Idealize.ShloMosaic.Lib.IdealHost

open Idealize.ShloMosaic Idealize.ShloMosaic.ValueIdx

noncomputable section

namespace Cert.LibIsReal

open Cert.LibRealLift

/-- Every entry is a real number. -/
def IsR {s : Shape} (v : s.Idx → EReal) : Prop := ∀ i, ∃ r : ℝ, v i = ((r : ℝ) : EReal)

variable {s t : Shape} {φ : FTy}

theorem isR_cv (a : s.Idx → ℝ) : IsR (cv a : FVec Ideal s φ) := fun i => ⟨a i, rfl⟩

/-- An array of reals is the image of a real array. -/
theorem exists_cv {v : s.Idx → EReal} (h : IsR v) : ∃ a : s.Idx → ℝ, v = (cv a : FVec Ideal s φ) := by
  choose a ha using h
  exact ⟨a, funext ha⟩

/-- A gather reads entries of its operand. -/
theorem isR_gather {si : Shape} {w : Nat} (d : GatherDims s si t) {x : s.Idx → EReal} (hx : IsR x) (idx : IVec si w) :
    IsR (Host.gather d x idx) := fun j => hx _

/-- A broadcast reads entries of its operand. -/
theorem isR_bcast (dims : Fin s.rank → Fin t.rank) (h : s.BroadcastsInDim t dims) {x : s.Idx → EReal} (hx : IsR x) :
    IsR (broadcastInDim t dims h x) := fun j => hx _

theorem isR_mulf {a b : FVec Ideal s φ} (ha : IsR a) (hb : IsR b) : IsR (mulf a b) := fun i => by
  obtain ⟨x, hx⟩ := ha i
  obtain ⟨y, hy⟩ := hb i
  exact ⟨x * y, by rw [mulf_apply, hx, hy, EReal.coe_mul]⟩

theorem isR_select (c : IVec s 1) {a b : s.Idx → EReal} (ha : IsR a) (hb : IsR b) : IsR (select c a b) := fun i => by
  rw [select_apply]
  by_cases hc : c i = 1#1
  · rw [hc, select_one]; exact ha i
  · rw [eq_zero_of_ne_one hc, select_zero]; exact hb i

/-- A finite sum of reals is a real. -/
theorem exists_real_sum {κ : Type*} (S : Finset κ) {f : κ → EReal} (hf : ∀ k ∈ S, ∃ r : ℝ, f k = ((r : ℝ) : EReal)) :
    ∃ r : ℝ, ∑ k ∈ S, f k = ((r : ℝ) : EReal) := by
  classical
  induction S using Finset.induction_on with
  | empty => exact ⟨0, by simp⟩
  | insert a S ha ih =>
    obtain ⟨x, hx⟩ := hf a (Finset.mem_insert_self a S)
    obtain ⟨y, hy⟩ := ih fun k hk => hf k (Finset.mem_insert_of_mem hk)
    exact ⟨x + y, by rw [Finset.sum_insert ha, hx, hy, EReal.coe_add]⟩

/-- The host's accumulating scatter of real updates into a real operand is real. -/
theorem isR_scatterAdd {si u : Shape} {w : Nat} (d : ScatterDims s si u) {x : FVec Ideal s φ} (hx : IsR x) (idx : IVec si w)
    {upd : FVec Ideal u φ} (hu : IsR upd) : IsR (Host.scatterAdd d x idx upd) := fun i => by
  obtain ⟨a, ha⟩ := hx i
  obtain ⟨b, hb⟩ := exists_real_sum (Finset.univ.filter (fun j => d.resultIdx? j idx = some i)) (f := upd) fun k _ => hu k
  refine ⟨a + b, ?_⟩
  show x i + ∑ j ∈ Finset.univ.filter (fun j => d.resultIdx? j idx = some i), upd j = _
  rw [ha, hb, EReal.coe_add]

/-- A constant array whose word denotes a real. -/
theorem isR_const (w : BitVec 32) (r : ℝ) (hw : Ideal.ofBits .f32 w = ((r : ℝ) : EReal)) :
    IsR (constant (F := Ideal) s .f32 w) := fun _ => ⟨r, hw⟩

/-- The larger of two real arrays, entry by entry. -/
theorem maximumf_cv (a b : s.Idx → ℝ) : maximumf (cv a : FVec Ideal s φ) (cv b) = cv (fun i => max (a i) (b i)) :=
  funext fun i => (Monotone.map_max EReal.coe_strictMono.monotone (a := a i) (b := b i)).symm

/-- 1/sqrt(d) as a quotient, kept where d > 0 and replaced by 0 elsewhere, is a real for every real d ≥ 0. -/
theorem guarded_inv_sqrt_real (d : ℝ) (hd : 0 ≤ d) :
    ∃ r : ℝ, Scalar.select (Ideal.cmp .ogt ((d : ℝ) : EReal) (Ideal.ofBits .f32 0x00000000#32))
        (Ideal.div (Ideal.ofBits .f32 0x3F800000#32) (Ideal.sqrt ((d : ℝ) : EReal))) (Ideal.ofBits .f32 0x00000000#32)
      = ((r : ℝ) : EReal) := by
  rw [Ideal.ofBits_zero_f32, Ideal.ofBits_one_f32]
  by_cases h0 : 0 < d
  · have hc : Ideal.cmp .ogt ((d : ℝ) : EReal) 0 = 1#1 := by
      unfold Ideal.cmp
      simp [EReal.coe_pos.mpr h0]
    have hs : Real.sqrt d ≠ 0 := (Real.sqrt_pos.mpr h0).ne'
    rw [hc, select_one, Ideal.sqrt_coe, if_neg (not_lt.mpr hd), Ideal.div_coe hs, one_mul]
    exact ⟨_, rfl⟩
  · have hc : Ideal.cmp .ogt ((d : ℝ) : EReal) 0 = 0#1 := by
      unfold Ideal.cmp
      have : ¬ (0 : EReal) < ((d : ℝ) : EReal) := fun h => h0 (EReal.coe_pos.mp h)
      simp [this]
    rw [hc, select_zero]
    exact ⟨0, rfl⟩

/-- A count of ones, started from zero, is a natural number. -/
theorem count_ones {ι : Type} (S : Finset ι) :
    Ideal.ofBits .f32 0x00000000#32 + ∑ _e ∈ S, Ideal.ofBits .f32 0x3F800000#32 = (((S.card : ℕ) : ℝ) : EReal) := by
  rw [Ideal.ofBits_zero_f32, Ideal.ofBits_one_f32, zero_add, Finset.sum_const, ← EReal.coe_one, ← EReal.coe_nsmul]
  congr 1
  simp

/-- The host's accumulating scatter of an all-ones update array into an all-zeros operand counts, at each entry, the
    updates that land there. -/
theorem scatterAdd_count {si u : Shape} {w : Nat} (d : ScatterDims s si u) (z : FVec Ideal s .f32) (idx : IVec si w)
    (o : FVec Ideal u .f32) (hz : ∀ i, z i = Ideal.ofBits .f32 0x00000000#32) (ho : ∀ j, o j = Ideal.ofBits .f32 0x3F800000#32)
    (i : s.Idx) : ∃ c : ℕ, Host.scatterAdd d z idx o i = (((c : ℕ) : ℝ) : EReal) := by
  refine ⟨(Finset.univ.filter (fun j => d.resultIdx? j idx = some i)).card, ?_⟩
  show z i + ∑ j ∈ Finset.univ.filter (fun j => d.resultIdx? j idx = some i), o j = _
  rw [hz, Finset.sum_congr rfl (fun j _ => ho j)]
  exact count_ones _

/-- The normalisation array 1/sqrt(deg) guarded by deg > 0, for a degree array of natural numbers, is real. -/
theorem guarded_isR (deg z o z' : FVec Ideal s .f32) (hdeg : ∀ i, ∃ c : ℕ, deg i = (((c : ℕ) : ℝ) : EReal))
    (hz : ∀ i, z i = Ideal.ofBits .f32 0x00000000#32) (ho : ∀ i, o i = Ideal.ofBits .f32 0x3F800000#32)
    (hz' : ∀ i, z' i = Ideal.ofBits .f32 0x00000000#32) :
    IsR (select (cmpf (F := Ideal) (φ := .f32) .ogt deg z) (Host.divf (F := Ideal) (φ := .f32) o (Host.sqrt (F := Ideal) (φ := .f32) deg)) z') := fun i => by
  obtain ⟨c, hc⟩ := hdeg i
  show ∃ r : ℝ, Scalar.select (Ideal.cmp .ogt (deg i) (z i)) (Ideal.div (o i) (Ideal.sqrt (deg i))) (z' i) = ((r : ℝ) : EReal)
  rw [hz, ho, hz', hc]
  exact guarded_inv_sqrt_real _ (Nat.cast_nonneg c)

/-- A scalar spread over any shape reads the scalar everywhere. -/
theorem bcast_scalar_apply {α : Type} (h : (⟨0, ![]⟩ : Shape).BroadcastsInDim t ![]) (x : (⟨0, ![]⟩ : Shape).Idx → α) (j : t.Idx) :
    broadcastInDim t ![] h x j = x ix0 :=
  broadcastInDim_apply ![] h x j ix0 (fun a => a.elim0)

end Cert.LibIsReal

end
-- ==== Proof.GcnReal.lean ====
/-
  At the extended reals, the network's layers keep arrays of real numbers: the dense product, the aggregation over the
  edges given real edge weights, the column mean and the column variance (which is moreover not negative), the
  normalisation with its positive part given a real variance that is not negative, and so a whole layer.
-/
import proofs.«120485_j12249246728930_1_alg».proof.Proof.GcnRead
import proofs.«120485_j12249246728930_1_alg».proof.Proof.LibIsReal

noncomputable section

open scoped BigOperators

namespace Cert.Gcn

open Idealize.ShloMosaic Idealize.ShloMosaic.ValueIdx Cert.ReferenceIdeal Cert.ReferenceIdeal.Facts₀ Cert.LibIsReal

/-! ## Entry by entry -/

theorem isR_addf {s : Shape} {φ : FTy} {a b : FVec Ideal s φ} (ha : IsR a) (hb : IsR b) : IsR (addf a b) := fun i => by
  obtain ⟨x, hx⟩ := ha i
  obtain ⟨y, hy⟩ := hb i
  exact ⟨x + y, by rw [addf_apply, hx, hy, EReal.coe_add]⟩

theorem isR_subf {s : Shape} {φ : FTy} {a b : FVec Ideal s φ} (ha : IsR a) (hb : IsR b) : IsR (subf a b) := fun i => by
  obtain ⟨x, hx⟩ := ha i
  obtain ⟨y, hy⟩ := hb i
  exact ⟨x - y, by rw [subf_apply, hx, hy, EReal.coe_sub]⟩

/-- Real at every pair of coordinates is real at every index. -/
theorem isR_of_ix2 {n0 n1 : Nat} {v : (⟨2, ![n0, n1]⟩ : Shape).Idx → EReal}
    (h : ∀ (r : Fin n0) (q : Fin n1), ∃ x : ℝ, v (ix2 r q) = ((x : ℝ) : EReal)) : IsR v := fun j => by
  rw [eq_ix2 j]; exact h (j 0) (j 1)

/-- Real at every coordinate is real at every index. -/
theorem isR_of_ix1 {n : Nat} {v : (⟨1, ![n]⟩ : Shape).Idx → EReal}
    (h : ∀ q : Fin n, ∃ x : ℝ, v (ix1 q) = ((x : ℝ) : EReal)) : IsR v := fun j => by
  rw [eq_ix1 j]; exact h (j 0)

/-- The zero word spread over any shape. -/
theorem isR_zeros (s : Shape) (h : S_.BroadcastsInDim s ![]) :
    IsR (broadcastInDim s ![] h (constant (F := Ideal) S_ .f32 0x00000000#32)) :=
  isR_bcast _ _ (isR_const _ 0 (by rw [Ideal.ofBits_zero_f32, EReal.coe_zero]))

/-- The small constant the normalisation adds to the variance is a positive real. -/
theorem ofBits_eps : Ideal.ofBits .f32 0x3727C5AC#32 = (((2748779 : ℝ) / 274877906944 : ℝ) : EReal) := by
  simp [Ideal.ofBits, Ideal.ieee, -EReal.coe_mul]; norm_num

/-! ## The layers -/

/-- The dense product of real arrays is real. -/
theorem isR_dense {h : FVec Ideal S50000x64 .f32} {W : FVec Ideal S64x64 .f32} (hh : IsR h) (hW : IsR W) :
    IsR (dense (F := Ideal) h W) :=
  isR_of_ix2 (n0 := 50000) (n1 := 64) fun r q => by
    rw [dense_apply]
    exact exists_real_sum _ fun k _ => by
      obtain ⟨x, hx⟩ := hh (ix2 r k)
      obtain ⟨y, hy⟩ := hW (ix2 k q)
      exact ⟨x * y, by rw [hx, hy, EReal.coe_mul]⟩

/-- The aggregation of a real array with real edge weights and a real bias is real, whatever the index vectors. -/
theorem isR_aggregate {h1 : FVec Ideal S50000x64 .f32} {b : FVec Ideal S64 .f32} (row col : IVec S850000 32)
    {w : FVec Ideal S850000x1 .f32} (hh : IsR h1) (hb : IsR b) (hw : IsR w) :
    IsR (aggregate (F := Ideal) h1 b row col w) := by
  unfold aggregate
  exact isR_addf (isR_scatterAdd _ (isR_zeros _ _) _ (isR_mulf (isR_bcast _ _ hw) (isR_gather _ hh _)))
    (isR_bcast _ _ (isR_bcast _ _ hb))

/-- The column sum of a real array, as a real. -/
theorem colSum_real {h2 : FVec Ideal S50000x64 .f32} (hh : IsR h2) (q : Fin 64) :
    ∃ x : Fin 50000 → ℝ, (∀ r, h2 (ix2 r q) = ((x r : ℝ) : EReal)) := by
  choose x hx using fun r : Fin 50000 => hh (ix2 r q)
  exact ⟨x, hx⟩

/-- The column mean of a real array is real. -/
theorem isR_colMean {h2 : FVec Ideal S50000x64 .f32} (hh : IsR h2) : IsR (colMean (F := Ideal) h2) :=
  isR_of_ix1 (n := 64) fun q => by
    obtain ⟨x, hx⟩ := colSum_real hh q
    rw [colMean_apply']
    simp only [hx, coe_sum', ← EReal.coe_mul]
    exact ⟨_, rfl⟩

/-- The column variance of a real array is a real that is not negative. -/
theorem colVar_real_nonneg {h2 : FVec Ideal S50000x64 .f32} (hh : IsR h2) (q : Fin 64) :
    ∃ v : ℝ, 0 ≤ v ∧ colVar (F := Ideal) h2 (ix1 q) = ((v : ℝ) : EReal) := by
  obtain ⟨x, hx⟩ := colSum_real hh q
  rw [colVar_apply]
  simp only [hx, ofBits_nodes, Ideal.div_coe (y := 50000) (by norm_num), coe_sum', ← EReal.coe_mul, ← EReal.coe_sub]
  exact ⟨_, mul_nonneg (Finset.sum_nonneg fun r _ => mul_self_nonneg _) (by norm_num), rfl⟩

theorem isR_colVar {h2 : FVec Ideal S50000x64 .f32} (hh : IsR h2) : IsR (colVar (F := Ideal) h2) :=
  isR_of_ix1 (n := 64) fun q => by
    obtain ⟨v, _, hv⟩ := colVar_real_nonneg hh q
    exact ⟨v, hv⟩

/-- The normalisation with its positive part keeps a real array real, given real statistics with a variance that is
    not negative (the small constant keeps the square root's argument positive), a real gain and a real shift. -/
theorem isR_bnRelu {h2 : FVec Ideal S50000x64 .f32} {mu va g be : FVec Ideal S64 .f32} (hh : IsR h2) (hmu : IsR mu)
    (hva : ∀ q : Fin 64, ∃ v : ℝ, 0 ≤ v ∧ va (ix1 q) = ((v : ℝ) : EReal)) (hg : IsR g) (hbe : IsR be) :
    IsR (bnRelu (F := Ideal) h2 mu va g be) :=
  isR_of_ix2 (n0 := 50000) (n1 := 64) fun r q => by
  rw [bnRelu_apply]
  obtain ⟨x, hx⟩ := hh (ix2 r q)
  obtain ⟨m, hm⟩ := hmu (ix1 q)
  obtain ⟨v, hv0, hv⟩ := hva q
  obtain ⟨gg, hgg⟩ := hg (ix1 q)
  obtain ⟨bb, hbb⟩ := hbe (ix1 q)
  have hpos : (0 : ℝ) < v + 2748779 / 274877906944 := by positivity
  rw [hx, hm, hv, hgg, hbb, ofBits_eps, ← EReal.coe_add, Ideal.rsqrt_coe, if_neg (not_lt.mpr hpos.le), if_neg hpos.ne',
    ← EReal.coe_sub, ← EReal.coe_mul, ← EReal.coe_mul, ← EReal.coe_add, ← EReal.coe_zero,
    ← Monotone.map_max EReal.coe_strictMono.monotone]
  exact ⟨_, rfl⟩

/-- A whole layer keeps a real array real, given real edge weights and real parameters. -/
theorem isR_layer (row col : IVec S850000 32) {w : FVec Ideal S850000x1 .f32} {h : FVec Ideal S50000x64 .f32}
    {W : FVec Ideal S64x64 .f32} {b g be : FVec Ideal S64 .f32} (hw : IsR w) (hh : IsR h) (hW : IsR W) (hb : IsR b)
    (hg : IsR g) (hbe : IsR be) : IsR (layer (F := Ideal) row col w h W b g be) := by
  unfold layer
  have ha : IsR (aggregate (F := Ideal) (dense (F := Ideal) h W) b row col w) :=
    isR_aggregate row col (isR_dense hh hW) hb hw
  exact isR_bnRelu ha (isR_colMean ha) (colVar_real_nonneg ha) hg hbe

/-! ## The same, stated without the name `IsR` -/

/-- The dense product of real arrays is real. -/
theorem dense_real (h : FVec Ideal S50000x64 .f32) (W : FVec Ideal S64x64 .f32)
    (hh : ∀ i, ∃ x : ℝ, h i = ((x : ℝ) : EReal)) (hW : ∀ i, ∃ x : ℝ, W i = ((x : ℝ) : EReal)) :
    ∀ i, ∃ x : ℝ, dense (F := Ideal) h W i = ((x : ℝ) : EReal) :=
  isR_dense hh hW

/-- The aggregation of a real array with real edge weights and a real bias is real. -/
theorem aggregate_real (h1 : FVec Ideal S50000x64 .f32) (b : FVec Ideal S64 .f32) (row col : IVec S850000 32)
    (w : FVec Ideal S850000x1 .f32) (hh : ∀ i, ∃ x : ℝ, h1 i = ((x : ℝ) : EReal)) (hb : ∀ i, ∃ x : ℝ, b i = ((x : ℝ) : EReal)) (hw : ∀ i, ∃ x : ℝ, w i = ((x : ℝ) : EReal)) :
    ∀ i, ∃ x : ℝ, aggregate (F := Ideal) h1 b row col w i = ((x : ℝ) : EReal) :=
  isR_aggregate row col hh hb hw

/-- A layer whose aggregate is real, with a real gain and a real shift, is real: the aggregate's column mean is real
    and its column variance a real that is not negative. -/
theorem layer_real (row col : IVec S850000 32) (w : FVec Ideal S850000x1 .f32) (h : FVec Ideal S50000x64 .f32)
    (W : FVec Ideal S64x64 .f32) (b g be : FVec Ideal S64 .f32)
    (ha : ∀ i, ∃ x : ℝ, aggregate (F := Ideal) (dense (F := Ideal) h W) b row col w i = ((x : ℝ) : EReal))
    (hg : ∀ i, ∃ x : ℝ, g i = ((x : ℝ) : EReal)) (hbe : ∀ i, ∃ x : ℝ, be i = ((x : ℝ) : EReal)) :
    ∀ i, ∃ x : ℝ, layer (F := Ideal) row col w h W b g be i = ((x : ℝ) : EReal) := by
  unfold layer
  exact isR_bnRelu ha (isR_colMean ha) (colVar_real_nonneg ha) hg hbe

end Cert.Gcn

end
-- ==== Proof.PreReal.lean ====
/-
  The precondition read back: every float input is real-valued.

  The precondition is the conjunction, over the fifteen float arrays `a`, of "every entry of `|a|` is below `+∞`",
  each written as a reduction by `and` of the entrywise comparison `|a| < +∞`. At the extended reals `|x| = max x (-x)`
  and the pattern `0x7F800000` denotes `⊤`; `max x (-x) < ⊤` excludes `x = ⊤` and `x = ⊥`, so `x` is a real.
-/
import proofs.«120485_j12249246728930_1_alg».proof.Pre_finite_inputs
import Idealize.ShloMosaic.Lib.ReduceAll
import Idealize.ShloMosaic.Lib.ValueIdx
import Idealize.ShloMosaic.PureOps.Ideal

noncomputable section

namespace Cert.Pre_finite_inputs.Real

open Idealize.ShloMosaic

/-- The scalar shape has one index. -/
instance subsingleton_S_ : Subsingleton S_.Idx := ⟨fun a b => funext fun d => d.elim0⟩

/-- An extended real whose absolute value `max x (-x)` is below `⊤` is a real: `⊤` and `⊥` both have absolute value `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` answering 1 says `x` is a real. -/
theorem elem_real (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  by_cases hlt : max (x : EReal) (-(x : EReal)) < ⊤
  · exact real_of_abs_lt_top x hlt
  · exfalso
    simp [Ideal.cmp, hlt] at h

/-- One array, any shape: if the reduction by `and` over all axes of the entrywise `|a| < +∞` is 1, every entry of `a` is a real. -/
theorem all_real {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant S_ .f32 0x7F800000#32)))
          (constantI S_ 1 1#1) hr hu ValueIdx.ix0 = 1#1) (i : s.Idx) : ∃ x : ℝ, a i = ((x : ℝ) : EReal) :=
  elem_real (a i) (Host.reduce_andi_all _ _ hr hu _ e i)

/-- A conjunction of two scalar conditions, read at the scalar shape's index. -/
theorem andi_ix0 (x y : IVec S_ 1) (h : andi x y ValueIdx.ix0 = 1#1) :
    x ValueIdx.ix0 = 1#1 ∧ y ValueIdx.ix0 = 1#1 := IntOp.andi_eq_one.1 h

variable [Facts]

/-- The precondition gives: every entry of each of the fifteen float arrays is a real. -/
theorem real_of_pre (a0 : FVec Ideal S50000x64 .f32)
    (a1 : IVec S2x800000 32)
    (a2 : IVec S50000 32)
    (a3 : FVec Ideal S64x64 .f32)
    (a4 : FVec Ideal S64 .f32)
    (a5 : FVec Ideal S64 .f32)
    (a6 : FVec Ideal S64 .f32)
    (a7 : FVec Ideal S64x64 .f32)
    (a8 : FVec Ideal S64 .f32)
    (a9 : FVec Ideal S64 .f32)
    (a10 : FVec Ideal S64 .f32)
    (a11 : FVec Ideal S64x64 .f32)
    (a12 : FVec Ideal S64 .f32)
    (a13 : FVec Ideal S64 .f32)
    (a14 : FVec Ideal S64 .f32)
    (a15 : FVec Ideal S64x6 .f32)
    (a16 : FVec Ideal S6 .f32)
    (h : Cert.Pre_finite_inputs.fn (F := Ideal) a0 a1 a2 a3 a4 a5 a6 a7 a8 a9 a10 a11 a12 a13 a14 a15 a16 = fun _ => 1#1) :
      (∀ i, ∃ x : ℝ, a0 i = ((x : ℝ) : EReal))
      ∧ (∀ i, ∃ x : ℝ, a3 i = ((x : ℝ) : EReal))
      ∧ (∀ i, ∃ x : ℝ, a4 i = ((x : ℝ) : EReal))
      ∧ (∀ i, ∃ x : ℝ, a5 i = ((x : ℝ) : EReal))
      ∧ (∀ i, ∃ x : ℝ, a6 i = ((x : ℝ) : EReal))
      ∧ (∀ i, ∃ x : ℝ, a7 i = ((x : ℝ) : EReal))
      ∧ (∀ i, ∃ x : ℝ, a8 i = ((x : ℝ) : EReal))
      ∧ (∀ i, ∃ x : ℝ, a9 i = ((x : ℝ) : EReal))
      ∧ (∀ i, ∃ x : ℝ, a10 i = ((x : ℝ) : EReal))
      ∧ (∀ i, ∃ x : ℝ, a11 i = ((x : ℝ) : EReal))
      ∧ (∀ i, ∃ x : ℝ, a12 i = ((x : ℝ) : EReal))
      ∧ (∀ i, ∃ x : ℝ, a13 i = ((x : ℝ) : EReal))
      ∧ (∀ i, ∃ x : ℝ, a14 i = ((x : ℝ) : EReal))
      ∧ (∀ i, ∃ x : ℝ, a15 i = ((x : ℝ) : EReal))
      ∧ (∀ i, ∃ x : ℝ, a16 i = ((x : ℝ) : EReal)) := by
  have h0 := congrFun h ValueIdx.ix0
  dsimp only [fn, fn_part1, fn_part2, fn_part3, fn_part4] at h0
  obtain ⟨h0, e16⟩ := andi_ix0 _ _ h0
  obtain ⟨h0, e15⟩ := andi_ix0 _ _ h0
  obtain ⟨h0, e14⟩ := andi_ix0 _ _ h0
  obtain ⟨h0, e13⟩ := andi_ix0 _ _ h0
  obtain ⟨h0, e12⟩ := andi_ix0 _ _ h0
  obtain ⟨h0, e11⟩ := andi_ix0 _ _ h0
  obtain ⟨h0, e10⟩ := andi_ix0 _ _ h0
  obtain ⟨h0, e9⟩ := andi_ix0 _ _ h0
  obtain ⟨h0, e8⟩ := andi_ix0 _ _ h0
  obtain ⟨h0, e7⟩ := andi_ix0 _ _ h0
  obtain ⟨h0, e6⟩ := andi_ix0 _ _ h0
  obtain ⟨h0, e5⟩ := andi_ix0 _ _ h0
  obtain ⟨h0, e4⟩ := andi_ix0 _ _ h0
  obtain ⟨e0, e3⟩ := andi_ix0 _ _ h0
  exact ⟨all_real _ _ _ a0 e0,
    all_real _ _ _ a3 e3,
    all_real _ _ _ a4 e4,
    all_real _ _ _ a5 e5,
    all_real _ _ _ a6 e6,
    all_real _ _ _ a7 e7,
    all_real _ _ _ a8 e8,
    all_real _ _ _ a9 e9,
    all_real _ _ _ a10 e10,
    all_real _ _ _ a11 e11,
    all_real _ _ _ a12 e12,
    all_real _ _ _ a13 e13,
    all_real _ _ _ a14 e14,
    all_real _ _ _ a15 e15,
    all_real _ _ _ a16 e16⟩

end Cert.Pre_finite_inputs.Real

end
-- ==== Proof.GcnDeg.lean ====
/-
  Every node of the graph has its self loop, so its degree — ones summed at the targets — is a positive natural number,
  its reciprocal square root a positive real, and the edge weights real.
-/
import proofs.«120485_j12249246728930_1_alg».proof.Proof.GcnReal

noncomputable section

open scoped BigOperators

namespace Cert.Gcn

open Idealize.ShloMosaic Idealize.ShloMosaic.ValueIdx Cert.ReferenceIdeal Cert.ReferenceIdeal.Facts₀ Cert.LibIsReal

/-! ## The degrees: every node has its self loop -/

/-- A small natural number as a 32-bit word reads back, signed, as itself. -/
theorem toInt_ofNat_small (n : ℕ) (h : n < 50000) : (BitVec.ofNat 32 n).toInt = (n : ℤ) := by
  rw [BitVec.toInt_eq_toNat_cond, BitVec.toNat_ofNat, Nat.mod_eq_of_lt (by omega), if_pos (by omega)]

/-- … and is not negative. -/
theorem slt_zero_ofNat_small (n : ℕ) (h : n < 50000) : (BitVec.ofNat 32 n).slt 0#32 = false := by
  simp only [BitVec.slt, toInt_ofNat_small n h, BitVec.toInt_zero, decide_eq_false_iff_not]
  omega

/-- The targets' tail is the node range: position 800000 + i holds node i. -/
theorem colIdx_tail (e : IVec S2x800000 32) (i : Fin 50000) (hn : 800000 + i.val < 850000) :
    colIdx (F := Ideal) e (ix1 (⟨800000 + i.val, hn⟩ : Fin 850000)) = BitVec.ofNat 32 i.val :=
  (concatenate_pair_apply_right (t := S850000) (s₁ := S800000) (s₂ := S50000) (0 : Fin 1) _ _
    concatenates_S800000_S50000_S850000_d0 (ix1 (⟨800000 + i.val, hn⟩ : Fin 850000)) rfl rfl (ix1 i)
    (fun b hb => by
      exfalso; apply hb; apply Fin.ext
      have h1 : b.val < 1 := b.isLt
      show b.val = 0
      omega)
    (by show i.val + 800000 = 800000 + i.val; omega)).trans rfl

/-- The wrapped target index at that position is node i: a node number is not negative. -/
theorem wrapIdx_colIdx_tail (e : IVec S2x800000 32) (i : Fin 50000) (hn : 800000 + i.val < 850000) :
    wrapIdx (F := Ideal) (colIdx (F := Ideal) e) (ix2 (⟨800000 + i.val, hn⟩ : Fin 850000) (0 : Fin 1))
      = BitVec.ofNat 32 i.val := by
  unfold wrapIdx
  rw [broadcastInDim_apply ![0] bcast_S850000_S850000x1_0 _ (ix2 (⟨800000 + i.val, hn⟩ : Fin 850000) (0 : Fin 1))
        (ix1 (⟨800000 + i.val, hn⟩ : Fin 850000)) (fun a => match a with | ⟨0, _⟩ => rfl),
    select_apply]
  have hc : cmpi .slt (colIdx (F := Ideal) e)
      (broadcastInDim S850000 ![] bcast_S_S850000 (constantI S_ 32 0#32)) (ix1 (⟨800000 + i.val, hn⟩ : Fin 850000)) = 0#1 := by
    show IntOp.cmpi .slt (colIdx (F := Ideal) e (ix1 (⟨800000 + i.val, hn⟩ : Fin 850000)))
      (broadcastInDim S850000 ![] bcast_S_S850000 (constantI S_ 32 0#32) (ix1 (⟨800000 + i.val, hn⟩ : Fin 850000))) = 0#1
    rw [colIdx_tail e i hn, broadcastInDim_scalar_apply]
    show BitVec.ofBool ((BitVec.ofNat 32 i.val).slt 0#32) = 0#1
    rw [slt_zero_ofNat_small _ i.isLt]
    rfl
  rw [hc, select_zero, colIdx_tail e i hn]

/-- An update whose index word is node i lands at node i. -/
theorem landing (idx : IVec S850000x1 32) (n : Fin 850000) (i : Fin 50000)
    (hidx : idx (ix2 n (0 : Fin 1)) = BitVec.ofNat 32 i.val) :
    (scatter_S50000_S850000x1_S850000_n_0_0_1).resultIdx? (ix1 n) idx = some (ix1 i) := by
  have h0 : ∀ a : Fin S50000.rank, a = (⟨0, by decide⟩ : Fin S50000.rank) := fun a => by
    have h1 : a.val < 1 := a.isLt
    exact Fin.ext (by show a.val = 0; omega)
  have hs : ∀ a : Fin S50000.rank, (scatter_S50000_S850000x1_S850000_n_0_0_1).start (ix1 n) idx a = (i.val : ℤ) := fun a => by
    rw [h0 a]
    unfold ScatterDims.start
    rw [dif_pos (by decide)]
    have hsi : (scatter_S50000_S850000x1_S850000_n_0_0_1).siIdx (ix1 n) ⟨List.idxOf (⟨0, by decide⟩ : Fin S50000.rank) (scatter_S50000_S850000x1_S850000_n_0_0_1).scatterDimsToOperandDims,
        List.idxOf_lt_length_iff.2 (by decide)⟩ = ix2 n (0 : Fin 1) := by
      funext b
      match b with
      | ⟨0, _⟩ => rfl
      | ⟨1, _⟩ => rfl
    rw [hsi, hidx, toInt_ofNat_small _ i.isLt]
  have hw : ∀ a : Fin S50000.rank, (scatter_S50000_S850000x1_S850000_n_0_0_1).window (ix1 n) a = 0 := fun a => by
    rw [h0 a]
    unfold ScatterDims.window
    rw [dif_neg (by decide)]
  have hin : ∀ a : Fin S50000.rank, 0 ≤ (scatter_S50000_S850000x1_S850000_n_0_0_1).start (ix1 n) idx a + (scatter_S50000_S850000x1_S850000_n_0_0_1).window (ix1 n) a
      ∧ (scatter_S50000_S850000x1_S850000_n_0_0_1).start (ix1 n) idx a + (scatter_S50000_S850000x1_S850000_n_0_0_1).window (ix1 n) a < S50000.size a := fun a => by
    rw [hs a, hw a]
    match a with
    | ⟨0, _⟩ =>
      have hi := i.isLt
      refine ⟨by omega, ?_⟩
      show (i.val : ℤ) + ((0 : ℕ) : ℤ) < ((50000 : ℕ) : ℤ)
      omega
  unfold ScatterDims.resultIdx?
  rw [dif_pos hin]
  congr 1
  funext a
  apply Fin.ext
  match a with
  | ⟨0, _⟩ =>
    show ((scatter_S50000_S850000x1_S850000_n_0_0_1).start (ix1 n) idx ⟨0, _⟩ + (scatter_S50000_S850000x1_S850000_n_0_0_1).window (ix1 n) ⟨0, _⟩).toNat = i.val
    rw [hs, hw]
    simp

/-- The host's accumulating scatter of an all-ones update array into an all-zeros operand is, at an entry where some update
    lands, a positive natural number: the number of updates that land there. -/
theorem scatterAdd_count_pos {s si u : Shape} {w : Nat} (d : ScatterDims s si u) (z : FVec Ideal s .f32) (idx : IVec si w)
    (o : FVec Ideal u .f32) (hz : ∀ i, z i = Ideal.ofBits .f32 0x00000000#32) (ho : ∀ j, o j = Ideal.ofBits .f32 0x3F800000#32)
    (i : s.Idx) (j₀ : u.Idx) (hj : d.resultIdx? j₀ idx = some i) :
    ∃ c : ℕ, 0 < c ∧ Host.scatterAdd d z idx o i = (((c : ℕ) : ℝ) : EReal) := by
  refine ⟨(Finset.univ.filter (fun j => d.resultIdx? j idx = some i)).card,
    Finset.card_pos.mpr ⟨j₀, Finset.mem_filter.mpr ⟨Finset.mem_univ _, hj⟩⟩, ?_⟩
  show z i + ∑ j ∈ Finset.univ.filter (fun j => d.resultIdx? j idx = some i), o j = _
  rw [hz, Finset.sum_congr rfl (fun j _ => ho j)]
  exact count_ones _

/-- Per node, the reciprocal square root of its degree is a positive real: the degree counts at least the self loop. -/
theorem degInv_pos (e : IVec S2x800000 32) (i : Fin 50000) :
    ∃ d : ℝ, 0 < d ∧ degInv (F := Ideal) (colIdx (F := Ideal) e) (ix1 i) = ((d : ℝ) : EReal) := by
  have hn : 800000 + i.val < 850000 := by have := i.isLt; omega
  obtain ⟨c, hc0, hc⟩ := scatterAdd_count_pos (scatter_S50000_S850000x1_S850000_n_0_0_1)
    (broadcastInDim S50000 ![] bcast_S_S50000 (constant (F := Ideal) S_ .f32 0x00000000#32))
    (wrapIdx (F := Ideal) (colIdx (F := Ideal) e))
    (broadcastInDim S850000 ![] bcast_S_S850000 (constant (F := Ideal) S_ .f32 0x3F800000#32))
    (fun i => by rw [broadcastInDim_scalar_apply, constant_apply])
    (fun j => by rw [broadcastInDim_scalar_apply, constant_apply])
    (ix1 i) (ix1 (⟨800000 + i.val, hn⟩ : Fin 850000)) (landing _ _ i (wrapIdx_colIdx_tail e i hn))
  have hposR : (0 : ℝ) < (c : ℝ) := by exact_mod_cast hc0
  unfold degInv
  rw [hostRsqrt_apply, hc, Ideal.rsqrt_coe, if_neg (not_lt.mpr hposR.le), if_neg hposR.ne']
  exact ⟨_, inv_pos.mpr (Real.sqrt_pos.mpr hposR), rfl⟩

theorem isR_degInv (e : IVec S2x800000 32) : IsR (degInv (F := Ideal) (colIdx (F := Ideal) e)) :=
  isR_of_ix1 (n := 50000) fun i => by
    obtain ⟨d, _, hd⟩ := degInv_pos e i
    exact ⟨d, hd⟩

/-- The edge weights are real. -/
theorem isR_edgeW (e : IVec S2x800000 32) :
    IsR (edgeW (F := Ideal) (rowIdx (F := Ideal) e) (colIdx (F := Ideal) e) (degInv (F := Ideal) (colIdx (F := Ideal) e))) := by
  unfold edgeW
  exact isR_bcast _ _ (isR_mulf (isR_gather _ (isR_degInv e) _) (isR_gather _ (isR_degInv e) _))

/-- So the three layers keep a real feature array real, given real parameters. -/
theorem isR_layer_e (e : IVec S2x800000 32) {h : FVec Ideal S50000x64 .f32} {W : FVec Ideal S64x64 .f32}
    {b g be : FVec Ideal S64 .f32} (hh : IsR h) (hW : IsR W) (hb : IsR b) (hg : IsR g) (hbe : IsR be) :
    IsR (layer (F := Ideal) (rowIdx (F := Ideal) e) (colIdx (F := Ideal) e)
      (edgeW (F := Ideal) (rowIdx (F := Ideal) e) (colIdx (F := Ideal) e) (degInv (F := Ideal) (colIdx (F := Ideal) e))) h W b g be) :=
  isR_layer _ _ (isR_edgeW e) hh hW hb hg hbe

/-- The edge weights are real (stated without the name `IsR`). -/
theorem edgeW_real (e : IVec S2x800000 32) :
    ∀ i, ∃ x : ℝ, edgeW (F := Ideal) (rowIdx (F := Ideal) e) (colIdx (F := Ideal) e)
      (degInv (F := Ideal) (colIdx (F := Ideal) e)) i = ((x : ℝ) : EReal) :=
  isR_edgeW e

end Cert.Gcn

end
-- ==== Proof.IdealValue.lean ====
/-
  The value of the kernel program at the ideal values: its result buffer ends at the reference's composition of layers
  of the arguments. Layer by layer — the dense map on the matrix unit is the host's matrix product (the zero bias row
  adds nothing); the aggregation is the shared host function; the statistics region leaves the column sums and the
  column sums of squares, from which the host takes the mean and, as the mean of squares less the squared mean, the
  variance: on a real-valued array that is the mean squared deviation the reference computes; the normalisation region
  is the reference's formula entry by entry. Then pooling (shared) and the head (a dense map again, with the bias as a
  row). Real-valuedness is carried along from the finiteness of the inputs.
-/
import proofs.«120485_j12249246728930_1_alg».proof.Proof.Gen.KernelIdeal.Launch
import proofs.«120485_j12249246728930_1_alg».proof.Proof.Gen.KernelIdeal.Skeleton
import proofs.«120485_j12249246728930_1_alg».proof.Proof.Gen.KernelIdeal.Points
import proofs.«120485_j12249246728930_1_alg».proof.Proof.IdealLayers
import proofs.«120485_j12249246728930_1_alg».proof.Proof.GcnReal
import proofs.«120485_j12249246728930_1_alg».proof.Proof.PreReal
import proofs.«120485_j12249246728930_1_alg».proof.Proof.Gen.Pre_finite_inputs
import proofs.«120485_j12249246728930_1_alg».proof.Proof.GcnDeg
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Frame Cert.KernelIdeal.HostFns Idealize.ShloMosaic.ValueIdx

variable (m : (ℓ : Loc nD τ sig) → Buf (Elt Ideal) ℓ) (ρ : Dev nD → PrngReg)

/-! ## The whole program -/

set_option maxHeartbeats 2000000 in
/-- Under the precondition (every float input finite) the kernel program's result is the reference's forward function
    of the arguments. -/
theorem kernel_value (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) = fun _ => 1#1) :
    E20 m ρ c main_v157 = Cert.Gcn.forward (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (m (c, Proc.devRef .tc main_arg14)) (m (c, Proc.devRef .tc main_arg15)) (m (c, Proc.devRef .tc main_arg16)) := by
  obtain ⟨r0, r3, r4, r5, r6, r7, r8, r9, r10, r11, r12, r13, r14, r15, r16⟩ := Cert.Pre_finite_inputs.Real.real_of_pre _ _ _ _ _ _ _ _ _ _ _ _ _ _ _ _ _ hpre
  -- the edge bookkeeping, shared by the three layers
  have hR1 := E1_row m ρ c
  have hC1 := E1_col m ρ c
  have hW1 := E1_w m ρ c
  have hWtR := Cert.Gcn.edgeW_real (m (c, Proc.devRef .tc main_arg1))
  -- layer 1
  have ra1 := Cert.Gcn.aggregate_real _ (m (c, Proc.devRef .tc main_arg4)) (Cert.Gcn.rowIdx (m (c, Proc.devRef .tc main_arg1))) (Cert.Gcn.colIdx (m (c, Proc.devRef .tc main_arg1))) _
    (Cert.Gcn.dense_real _ _ r0 r3) r4 hWtR
  have L1 := layer1_value m ρ c _ _ _ _ _ _ _ _ (carry_arg0_0_1 m ρ c) (carry_arg3_0_1 m ρ c) (carry_arg4_0_2 m ρ c)
    ((carry_v5_1_2 m ρ c).trans hR1) ((carry_v6_1_2 m ρ c).trans hC1) ((carry_v32_1_2 m ρ c).trans hW1) (carry_arg5_0_4 m ρ c) (carry_arg6_0_4 m ρ c) ra1
  have rh1 := Cert.Gcn.layer_real _ _ _ _ _ _ _ _ ra1 r5 r6
  -- layer 2
  have ra2 := Cert.Gcn.aggregate_real _ (m (c, Proc.devRef .tc main_arg8)) (Cert.Gcn.rowIdx (m (c, Proc.devRef .tc main_arg1))) (Cert.Gcn.colIdx (m (c, Proc.devRef .tc main_arg1))) _
    (Cert.Gcn.dense_real _ _ rh1 r7) r8 hWtR
  have L2 := layer2_value m ρ c _ _ _ _ _ _ _ _ ((carry_v69_6_7 m ρ c).trans L1) (carry_arg7_0_7 m ρ c) (carry_arg8_0_8 m ρ c)
    ((carry_v5_1_8 m ρ c).trans hR1) ((carry_v6_1_8 m ρ c).trans hC1) ((carry_v32_1_8 m ρ c).trans hW1) (carry_arg9_0_10 m ρ c) (carry_arg10_0_10 m ρ c) ra2
  have rh2 := Cert.Gcn.layer_real _ _ _ _ _ _ _ _ ra2 r9 r10
  -- layer 3
  have ra3 := Cert.Gcn.aggregate_real _ (m (c, Proc.devRef .tc main_arg12)) (Cert.Gcn.rowIdx (m (c, Proc.devRef .tc main_arg1))) (Cert.Gcn.colIdx (m (c, Proc.devRef .tc main_arg1))) _
    (Cert.Gcn.dense_real _ _ rh2 r11) r12 hWtR
  have L3 := layer3_value m ρ c _ _ _ _ _ _ _ _ ((carry_v106_12_13 m ρ c).trans L2) (carry_arg11_0_13 m ρ c) (carry_arg12_0_14 m ρ c)
    ((carry_v5_1_14 m ρ c).trans hR1) ((carry_v6_1_14 m ρ c).trans hC1) ((carry_v32_1_14 m ρ c).trans hW1) (carry_arg13_0_16 m ρ c) (carry_arg14_0_16 m ρ c) ra3
  -- pooling and the head
  have hp := (E19_pool (F := Ideal) m ρ c).trans (congrArg₂ (Cert.Gcn.pool (F := Ideal)) L3 (carry_arg2_0_18 m ρ c))
  unfold Cert.Gcn.forward
  funext i
  obtain ⟨r, q, rfl⟩ : ∃ (r : Fin 500) (q : Fin 6), i = ix2 r q := ⟨i 0, i 1, eq_ix2 i⟩
  rw [show (E20 m ρ c main_v157 : S500x6.Idx → EReal) = (dat9 (F := Ideal) (E19 m ρ) c).arrAt 3 cfg9.N from B20_arr m ρ c 3]
  rw [lin9_apply (E19 m ρ) c _ _ _ hp (carry_arg15_0_19 m ρ c) ((E19_fcb m ρ c).trans (congrArg asRow6 (carry_arg16_0_18 m ρ c))) r q,
    asRow6_apply, Cert.Gcn.head_apply]

end Cert.KernelIdeal.Val

end
-- ==== Proof.lean ====
/-
  The certificate of a three-layer graph convolutional network — per layer a dense map on the matrix unit, a
  degree-normalised gather / scatter-add aggregation on the host, batch statistics and a normalise-and-rectify pass —
  followed by per-graph mean pooling and a linear head, against its host reference.

  The three frames are the three programs' runs with the result dropped: the kernel program's run (at the word-level
  and at the ideal instance, one argument threaded through both) goes region by region through its ten pipelined
  calls; the reference's run is its host operations in order. The idealisation rewrote nothing, so `preserves` is
  trivial. For `algebraic`: both idealised programs end at the same function of the arguments — the reference's
  composition of layers — the kernel's regions computing the dense maps, the column sums, and the normalisation that
  the reference computes on the host; the one place where the two arrangements differ is the variance, taken by the
  kernel as the mean of squares less the squared mean and by the reference as the mean squared deviation, equal on
  real-valued columns, which is where the inputs' finiteness enters.
-/
import proofs.«120485_j12249246728930_1_alg».proof.Defs
import proofs.«120485_j12249246728930_1_alg».proof.Proof.Gen.Kernel
import proofs.«120485_j12249246728930_1_alg».proof.Proof.Gen.KernelIdeal
import proofs.«120485_j12249246728930_1_alg».proof.Proof.Gen.ReferenceIdeal
import proofs.«120485_j12249246728930_1_alg».proof.Proof.Gen.Pre_finite_inputs
import proofs.«120485_j12249246728930_1_alg».proof.Proof.BitsRun
import proofs.«120485_j12249246728930_1_alg».proof.Proof.IdealRun
import proofs.«120485_j12249246728930_1_alg».proof.Proof.RefRun
import proofs.«120485_j12249246728930_1_alg».proof.Proof.RefRunVal
import proofs.«120485_j12249246728930_1_alg».proof.Proof.IdealValue
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Kernel.Frame.run (F := Bits) m ρ)

theorem frame_ki : Cert.frame_KernelIdeal := fun m ρ _ =>
  (θ_run Cert.KernelIdeal.defs _ _).mono (fun _ h c => (h c).2) (Cert.KernelIdeal.Frame.run (F := Ideal) m ρ)

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both idealised programs end at the reference's composition of layers of the arguments. -/
theorem algebraic : Cert.algebraic_KernelIdeal_ReferenceIdeal := by
  intro m ρ m' ρ' hpre hagree
  refine ⟨fun c => Cert.ReferenceIdeal.RefRun.res (F := Ideal) m' c, ?_, Cert.ReferenceIdeal.RefRun.run (F := Ideal) m' ρ'⟩
  refine (θ_run Cert.KernelIdeal.defs _ _).mono (fun _ h c => ⟨(h c).1.trans ?_, (h c).2⟩) (Cert.KernelIdeal.Frame.run (F := Ideal) m ρ)
  show _ = Cert.ReferenceIdeal.RefRun.res (F := Ideal) m' c
  rw [Cert.ReferenceIdeal.RefRun.res_eq]
  obtain ⟨a0, a1, a2, a3, a4, a5, a6, a7, a8, a9, a10, a11, a12, a13, a14, a15, a16⟩ := hagree c
  rw [show m' (c, Proc.devRef .tc Cert.ReferenceIdeal.main_arg0) = _ from a0, show m' (c, Proc.devRef .tc Cert.ReferenceIdeal.main_arg1) = _ from a1,
    show m' (c, Proc.devRef .tc Cert.ReferenceIdeal.main_arg2) = _ from a2, show m' (c, Proc.devRef .tc Cert.ReferenceIdeal.main_arg3) = _ from a3,
    show m' (c, Proc.devRef .tc Cert.ReferenceIdeal.main_arg4) = _ from a4, show m' (c, Proc.devRef .tc Cert.ReferenceIdeal.main_arg5) = _ from a5,
    show m' (c, Proc.devRef .tc Cert.ReferenceIdeal.main_arg6) = _ from a6, show m' (c, Proc.devRef .tc Cert.ReferenceIdeal.main_arg7) = _ from a7,
    show m' (c, Proc.devRef .tc Cert.ReferenceIdeal.main_arg8) = _ from a8, show m' (c, Proc.devRef .tc Cert.ReferenceIdeal.main_arg9) = _ from a9,
    show m' (c, Proc.devRef .tc Cert.ReferenceIdeal.main_arg10) = _ from a10, show m' (c, Proc.devRef .tc Cert.ReferenceIdeal.main_arg11) = _ from a11,
    show m' (c, Proc.devRef .tc Cert.ReferenceIdeal.main_arg12) = _ from a12, show m' (c, Proc.devRef .tc Cert.ReferenceIdeal.main_arg13) = _ from a13,
    show m' (c, Proc.devRef .tc Cert.ReferenceIdeal.main_arg14) = _ from a14, show m' (c, Proc.devRef .tc Cert.ReferenceIdeal.main_arg15) = _ from a15,
    show m' (c, Proc.devRef .tc Cert.ReferenceIdeal.main_arg16) = _ from a16]
  exact Cert.KernelIdeal.Val.kernel_value m ρ c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
